-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1032) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x3 : Shape := ⟨2, ![524288, 3]⟩
abbrev S32x64x64 : Shape := ⟨3, ![32, 64, 64]⟩
abbrev S32x128x128 : Shape := ⟨3, ![32, 128, 128]⟩
abbrev S32x256x256 : Shape := ⟨3, ![32, 256, 256]⟩
abbrev S_ : Shape := ⟨0, ![]⟩

class Facts : Prop where
  bcast_S_S524288x3 : S_.BroadcastsInDim S524288x3 (![] : Fin 0 → Fin S524288x3.rank)
  reducesTo_S524288x3_S_d0_1 : S524288x3.ReducesTo [0, 1] S_
  h_S_ : 0 < S_.numel
  bcast_S_S32x64x64 : S_.BroadcastsInDim S32x64x64 (![] : Fin 0 → Fin S32x64x64.rank)
  reducesTo_S32x64x64_S_d0_1_2 : S32x64x64.ReducesTo [0, 1, 2] S_
  bcast_S_S32x128x128 : S_.BroadcastsInDim S32x128x128 (![] : Fin 0 → Fin S32x128x128.rank)
  reducesTo_S32x128x128_S_d0_1_2 : S32x128x128.ReducesTo [0, 1, 2] S_
  bcast_S_S32x256x256 : S_.BroadcastsInDim S32x256x256 (![] : Fin 0 → Fin S32x256x256.rank)
  reducesTo_S32x256x256_S_d0_1_2 : S32x256x256.ReducesTo [0, 1, 2] S_

variable [Facts]

def fn_part2 {F : FTy → Type} [FloatOps F] (main_arg7 : FVec F S32x256x256 .f32) (main_arg8 : FVec F S32x256x256 .f32) (main_arg9 : FVec F S32x256x256 .f32) (main_v33 : IVec S_ 1) : IVec S_ 1 :=
  let main_v34 : FVec F S32x256x256 .f32 := Host.absf main_arg7
  let main_cst_12 : FVec F S_ .f32 := constant S_ .f32 0x7F800000#32
  let main_v35 : FVec F S32x256x256 .f32 := broadcastInDim S32x256x256 ![] bcast_S_S32x256x256 main_cst_12
  let main_v36 : IVec S32x256x256 1 := cmpf .olt main_v34 main_v35
  let main_c_13 : IVec S_ 1 := constantI S_ 1 1#1
  let main_v37 : IVec S_ 1 := (fun x v => Host.reduce IntOp.andi x v reducesTo_S32x256x256_S_d0_1_2 h_S_) main_v36 main_c_13
  let main_v38 : IVec S_ 1 := andi main_v33 main_v37
  let main_v39 : FVec F S32x256x256 .f32 := Host.absf main_arg8
  let main_cst_14 : FVec F S_ .f32 := constant S_ .f32 0x7F800000#32
  let main_v40 : FVec F S32x256x256 .f32 := broadcastInDim S32x256x256 ![] bcast_S_S32x256x256 main_cst_14
  let main_v41 : IVec S32x256x256 1 := cmpf .olt main_v39 main_v40
  let main_c_15 : IVec S_ 1 := constantI S_ 1 1#1
  let main_v42 : IVec S_ 1 := (fun x v => Host.reduce IntOp.andi x v reducesTo_S32x256x256_S_d0_1_2 h_S_) main_v41 main_c_15
  let main_v43 : IVec S_ 1 := andi main_v38 main_v42
  let main_v44 : FVec F S32x256x256 .f32 := Host.absf main_arg9
  let main_cst_16 : FVec F S_ .f32 := constant S_ .f32 0x7F800000#32
  let main_v45 : FVec F S32x256x256 .f32 := broadcastInDim S32x256x256 ![] bcast_S_S32x256x256 main_cst_16
  let main_v46 : IVec S32x256x256 1 := cmpf .olt main_v44 main_v45
  let main_c_17 : IVec S_ 1 := constantI S_ 1 1#1
  let main_v47 : IVec S_ 1 := (fun x v => Host.reduce IntOp.andi x v reducesTo_S32x256x256_S_d0_1_2 h_S_) main_v46 main_c_17
  let main_v48 : IVec S_ 1 := andi main_v43 main_v47
  main_v48

def fn_part1 {F : FTy → Type} [FloatOps F] (main_arg4 : FVec F S32x128x128 .f32) (main_arg5 : FVec F S32x128x128 .f32) (main_arg6 : FVec F S32x128x128 .f32) (main_arg7 : FVec F S32x256x256 .f32) (main_arg8 : FVec F S32x256x256 .f32) (main_arg9 : FVec F S32x256x256 .f32) (main_v13 : IVec S_ 1) (main_v16 : IVec S32x64x64 1) : IVec S_ 1 :=
  let main_c_5 : IVec S_ 1 := constantI S_ 1 1#1
  let main_v17 : IVec S_ 1 := (fun x v => Host.reduce IntOp.andi x v reducesTo_S32x64x64_S_d0_1_2 h_S_) main_v16 main_c_5
  let main_v18 : IVec S_ 1 := andi main_v13 main_v17
  let main_v19 : FVec F S32x128x128 .f32 := Host.absf main_arg4
  let main_cst_6 : FVec F S_ .f32 := constant S_ .f32 0x7F800000#32
  let main_v20 : FVec F S32x128x128 .f32 := broadcastInDim S32x128x128 ![] bcast_S_S32x128x128 main_cst_6
  let main_v21 : IVec S32x128x128 1 := cmpf .olt main_v19 main_v20
  let main_c_7 : IVec S_ 1 := constantI S_ 1 1#1
  let main_v22 : IVec S_ 1 := (fun x v => Host.reduce IntOp.andi x v reducesTo_S32x128x128_S_d0_1_2 h_S_) main_v21 main_c_7
  let main_v23 : IVec S_ 1 := andi main_v18 main_v22
  let main_v24 : FVec F S32x128x128 .f32 := Host.absf main_arg5
  let main_cst_8 : FVec F S_ .f32 := constant S_ .f32 0x7F800000#32
  let main_v25 : FVec F S32x128x128 .f32 := broadcastInDim S32x128x128 ![] bcast_S_S32x128x128 main_cst_8
  let main_v26 : IVec S32x128x128 1 := cmpf .olt main_v24 main_v25
  let main_c_9 : IVec S_ 1 := constantI S_ 1 1#1
  let main_v27 : IVec S_ 1 := (fun x v => Host.reduce IntOp.andi x v reducesTo_S32x128x128_S_d0_1_2 h_S_) main_v26 main_c_9
  let main_v28 : IVec S_ 1 := andi main_v23 main_v27
  let main_v29 : FVec F S32x128x128 .f32 := Host.absf main_arg6
  let main_cst_10 : FVec F S_ .f32 := constant S_ .f32 0x7F800000#32
  let main_v30 : FVec F S32x128x128 .f32 := broadcastInDim S32x128x128 ![] bcast_S_S32x128x128 main_cst_10
  let main_v31 : IVec S32x128x128 1 := cmpf .olt main_v29 main_v30
  let main_c_11 : IVec S_ 1 := constantI S_ 1 1#1
  let main_v32 : IVec S_ 1 := (fun x v => Host.reduce IntOp.andi x v reducesTo_S32x128x128_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S524288x3 .f32) (main_arg1 : FVec F S32x64x64 .f32) (main_arg2 : FVec F S32x64x64 .f32) (main_arg3 : FVec F S32x64x64 .f32) (main_arg4 : FVec F S32x128x128 .f32) (main_arg5 : FVec F S32x128x128 .f32) (main_arg6 : FVec F S32x128x128 .f32) (main_arg7 : FVec F S32x256x256 .f32) (main_arg8 : FVec F S32x256x256 .f32) (main_arg9 : FVec F S32x256x256 .f32) : IVec S_ 1 :=
  let main_v0 : FVec F S524288x3 .f32 := Host.absf main_arg0
  let main_cst : FVec F S_ .f32 := constant S_ .f32 0x7F800000#32
  let main_v1 : FVec F S524288x3 .f32 := broadcastInDim S524288x3 ![] bcast_S_S524288x3 main_cst
  let main_v2 : IVec S524288x3 1 := cmpf .olt main_v0 main_v1
  let main_c : IVec S_ 1 := constantI S_ 1 1#1
  let main_v3 : IVec S_ 1 := (fun x v => Host.reduce IntOp.andi x v reducesTo_S524288x3_S_d0_1 h_S_) main_v2 main_c
  let main_v4 : FVec F S32x64x64 .f32 := Host.absf main_arg1
  let main_cst_0 : FVec F S_ .f32 := constant S_ .f32 0x7F800000#32
  let main_v5 : FVec F S32x64x64 .f32 := broadcastInDim S32x64x64 ![] bcast_S_S32x64x64 main_cst_0
  let main_v6 : IVec S32x64x64 1 := cmpf .olt main_v4 main_v5
  let main_c_1 : IVec S_ 1 := constantI S_ 1 1#1
  let main_v7 : IVec S_ 1 := (fun x v => Host.reduce IntOp.andi x v reducesTo_S32x64x64_S_d0_1_2 h_S_) main_v6 main_c_1
  let main_v8 : IVec S_ 1 := andi main_v3 main_v7
  let main_v9 : FVec F S32x64x64 .f32 := Host.absf main_arg2
  let main_cst_2 : FVec F S_ .f32 := constant S_ .f32 0x7F800000#32
  let main_v10 : FVec F S32x64x64 .f32 := broadcastInDim S32x64x64 ![] bcast_S_S32x64x64 main_cst_2
  let main_v11 : IVec S32x64x64 1 := cmpf .olt main_v9 main_v10
  let main_c_3 : IVec S_ 1 := constantI S_ 1 1#1
  let main_v12 : IVec S_ 1 := (fun x v => Host.reduce IntOp.andi x v reducesTo_S32x64x64_S_d0_1_2 h_S_) main_v11 main_c_3
  let main_v13 : IVec S_ 1 := andi main_v8 main_v12
  let main_v14 : FVec F S32x64x64 .f32 := Host.absf main_arg3
  let main_cst_4 : FVec F S_ .f32 := constant S_ .f32 0x7F800000#32
  let main_v15 : FVec F S32x64x64 .f32 := broadcastInDim S32x64x64 ![] bcast_S_S32x64x64 main_cst_4
  let main_v16 : IVec S32x64x64 1 := cmpf .olt main_v14 main_v15
  fn_part1 (F := F) main_arg4 main_arg5 main_arg6 main_arg7 main_arg8 main_arg9 main_v13 main_v16
-- ==== Kernel.lean ====
abbrev S524288x3 : Shape := ⟨2, ![524288, 3]⟩
abbrev S32x64x64 : Shape := ⟨3, ![32, 64, 64]⟩
abbrev S32x128x128 : Shape := ⟨3, ![32, 128, 128]⟩
abbrev S32x256x256 : Shape := ⟨3, ![32, 256, 256]⟩
abbrev S64x32x64 : Shape := ⟨3, ![64, 32, 64]⟩
abbrev S64x2048 : Shape := ⟨2, ![64, 2048]⟩
abbrev S128x32x128 : Shape := ⟨3, ![128, 32, 128]⟩
abbrev S128x4096 : Shape := ⟨2, ![128, 4096]⟩
abbrev S256x32x256 : Shape := ⟨3, ![256, 32, 256]⟩
abbrev S256x8192 : Shape := ⟨2, ![256, 8192]⟩
abbrev S524288x96 : Shape := ⟨2, ![524288, 96]⟩
abbrev S128x3 : Shape := ⟨2, ![128, 3]⟩
abbrev S128x96 : Shape := ⟨2, ![128, 96]⟩
abbrev S2048x32 : Shape := ⟨2, ![2048, 32]⟩
abbrev S128x32 : Shape := ⟨2, ![128, 32]⟩
abbrev S128x1 : Shape := ⟨2, ![128, 1]⟩
abbrev S128 : Shape := ⟨1, ![128]⟩
abbrev S128x64 : Shape := ⟨2, ![128, 64]⟩
abbrev S128x2048 : Shape := ⟨2, ![128, 2048]⟩
abbrev S4096x32 : Shape := ⟨2, ![4096, 32]⟩
abbrev S128x128 : Shape := ⟨2, ![128, 128]⟩
abbrev S8192x32 : Shape := ⟨2, ![8192, 32]⟩
abbrev S128x256 : Shape := ⟨2, ![128, 256]⟩
abbrev S128x8192 : Shape := ⟨2, ![128, 8192]⟩

abbrev nBuf : Space → Nat
  | .hbm => 38
  | .vmem => 13
  | .smem => 0
  | _ => 0

abbrev bufTy : (tb : Table) → Fin (tcTables nBuf tb) → BufTy
  | .hbm, ⟨0, _⟩ => ⟨S524288x3, .f32⟩
  | .hbm, ⟨1, _⟩ => ⟨S32x64x64, .f32⟩
  | .hbm, ⟨2, _⟩ => ⟨S32x64x64, .f32⟩
  | .hbm, ⟨3, _⟩ => ⟨S32x64x64, .f32⟩
  | .hbm, ⟨4, _⟩ => ⟨S32x128x128, .f32⟩
  | .hbm, ⟨5, _⟩ => ⟨S32x128x128, .f32⟩
  | .hbm, ⟨6, _⟩ => ⟨S32x128x128, .f32⟩
  | .hbm, ⟨7, _⟩ => ⟨S32x256x256, .f32⟩
  | .hbm, ⟨8, _⟩ => ⟨S32x256x256, .f32⟩
  | .hbm, ⟨9, _⟩ => ⟨S32x256x256, .f32⟩
  | .hbm, ⟨10, _⟩ => ⟨S64x32x64, .f32⟩
  | .hbm, ⟨11, _⟩ => ⟨S64x2048, .f32⟩
  | .hbm, ⟨12, _⟩ => ⟨S64x2048, .bf16⟩
  | .hbm, ⟨13, _⟩ => ⟨S64x32x64, .f32⟩
  | .hbm, ⟨14, _⟩ => ⟨S64x2048, .f32⟩
  | .hbm, ⟨15, _⟩ => ⟨S64x2048, .bf16⟩
  | .hbm, ⟨16, _⟩ => ⟨S64x32x64, .f32⟩
  | .hbm, ⟨17, _⟩ => ⟨S64x2048, .f32⟩
  | .hbm, ⟨18, _⟩ => ⟨S64x2048, .bf16⟩
  | .hbm, ⟨19, _⟩ => ⟨S128x32x128, .f32⟩
  | .hbm, ⟨20, _⟩ => ⟨S128x4096, .f32⟩
  | .hbm, ⟨21, _⟩ => ⟨S128x4096, .bf16⟩
  | .hbm, ⟨22, _⟩ => ⟨S128x32x128, .f32⟩
  | .hbm, ⟨23, _⟩ => ⟨S128x4096, .f32⟩
  | .hbm, ⟨24, _⟩ => ⟨S128x4096, .bf16⟩
  | .hbm, ⟨25, _⟩ => ⟨S128x32x128, .f32⟩
  | .hbm, ⟨26, _⟩ => ⟨S128x4096, .f32⟩
  | .hbm, ⟨27, _⟩ => ⟨S128x4096, .bf16⟩
  | .hbm, ⟨28, _⟩ => ⟨S256x32x256, .f32⟩
  | .hbm, ⟨29, _⟩ => ⟨S256x8192, .f32⟩
  | .hbm, ⟨30, _⟩ => ⟨S256x8192, .bf16⟩
  | .hbm, ⟨31, _⟩ => ⟨S256x32x256, .f32⟩
  | .hbm, ⟨32, _⟩ => ⟨S256x8192, .f32⟩
  | .hbm, ⟨33, _⟩ => ⟨S256x8192, .bf16⟩
  | .hbm, ⟨34, _⟩ => ⟨S256x32x256, .f32⟩
  | .hbm, ⟨35, _⟩ => ⟨S256x8192, .f32⟩
  | .hbm, ⟨36, _⟩ => ⟨S256x8192, .bf16⟩
  | .hbm, ⟨37, _⟩ => ⟨S524288x96, .f32⟩
  | .local _ .vmem, ⟨0, _⟩ => ⟨S128x3, .f32⟩
  | .local _ .vmem, ⟨1, _⟩ => ⟨S128x3, .f32⟩
  | .local _ .vmem, ⟨2, _⟩ => ⟨S64x2048, .bf16⟩
  | .local _ .vmem, ⟨3, _⟩ => ⟨S64x2048, .bf16⟩
  | .local _ .vmem, ⟨4, _⟩ => ⟨S64x2048, .bf16⟩
  | .local _ .vmem, ⟨5, _⟩ => ⟨S128x4096, .bf16⟩
  | .local _ .vmem, ⟨6, _⟩ => ⟨S128x4096, .bf16⟩
  | .local _ .vmem, ⟨7, _⟩ => ⟨S128x4096, .bf16⟩
  | .local _ .vmem, ⟨8, _⟩ => ⟨S256x8192, .bf16⟩
  | .local _ .vmem, ⟨9, _⟩ => ⟨S256x8192, .bf16⟩
  | .local _ .vmem, ⟨10, _⟩ => ⟨S256x8192, .bf16⟩
  | .local _ .vmem, ⟨11, _⟩ => ⟨S128x96, .f32⟩
  | .local _ .vmem, ⟨12, _⟩ => ⟨S128x96, .f32⟩
  | _, _ => ⟨S524288x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![4096], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x8192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x8192 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x8192 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x96 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S32x64x64_S64x32x64_1_0_2 : S32x64x64.Transposes [1, 0, 2] S64x32x64
  shapeCasts_S64x32x64_S64x2048 : S64x32x64.ShapeCasts S64x2048
  bitsLt_bf16_f32 : FTy.bits .bf16 < FTy.bits .f32
  transposes_S32x128x128_S128x32x128_1_0_2 : S32x128x128.Transposes [1, 0, 2] S128x32x128
  shapeCasts_S128x32x128_S128x4096 : S128x32x128.ShapeCasts S128x4096
  transposes_S32x256x256_S256x32x256_1_0_2 : S32x256x256.Transposes [1, 0, 2] S256x32x256
  shapeCasts_S256x32x256_S256x8192 : S256x32x256.ShapeCasts S256x8192
  inb_S128x3_S128x3_0_0 : ∀ a, (![0, 0] : Fin 2 → Nat) a + S128x3.size a ≤ S128x3.size a
  h_S128x3 : 0 < S128x3.numel
  iota_S2048x32_d0_w32 : S2048x32.Iotas .tc 32 [0]
  iota_S2048x32_d1_w32 : S2048x32.Iotas .tc 32 [1]
  natLt_1_32 : 1 < 32
  slices_S128x3_o0_0_S128x1 : S128x3.Slices ![0, 0] S128x1
  shapeCasts_S128x1_S128 : S128x1.ShapeCasts S128
  slices_S128x3_o0_1_S128x1 : S128x3.Slices ![0, 1] S128x1
  iota_S128x64_d1_w32 : S128x64.Iotas .tc 32 [1]
  shapeCasts_S128_S128x1 : S128.ShapeCasts S128x1
  broadcasts_S128x1_S128x64 : S128x1.Broadcasts S128x64
  shapeCasts_S128x1_S128x1 : S128x1.ShapeCasts S128x1
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  concatenates_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x2048_d1 : Shape.Concatenates [S128x64, S128x64, S128x64, S128x64, S128x64, S128x64, S128x64, S128x64, S128x64, S128x64, S128x64, S128x64, S128x64, S128x64, S128x64, S128x64, S128x64, S128x64, S128x64, S128x64, S128x64, S128x64, S128x64, S128x64, S128x64, S128x64, S128x64, S128x64, S128x64, S128x64, S128x64, S128x64] S128x2048 1
  slices_S128x3_o0_2_S128x1 : S128x3.Slices ![0, 2] S128x1
  inb_S128x96_S128x32_0_0 : ∀ a, (![0, 0] : Fin 2 → Nat) a + S128x32.size a ≤ S128x96.size a
  h_S128x32 : 0 < S128x32.numel
  iota_S4096x32_d0_w32 : S4096x32.Iotas .tc 32 [0]
  iota_S4096x32_d1_w32 : S4096x32.Iotas .tc 32 [1]
  iota_S128x128_d1_w32 : S128x128.Iotas .tc 32 [1]
  broadcasts_S128x1_S128x128 : S128x1.Broadcasts S128x128
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x4096_d1 : Shape.Concatenates [S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128] S128x4096 1
  inb_S128x96_S128x32_0_32 : ∀ a, (![0, 32] : Fin 2 → Nat) a + S128x32.size a ≤ S128x96.size a
  iota_S8192x32_d0_w32 : S8192x32.Iotas .tc 32 [0]
  iota_S8192x32_d1_w32 : S8192x32.Iotas .tc 32 [1]
  iota_S128x256_d1_w32 : S128x256.Iotas .tc 32 [1]
  broadcasts_S128x1_S128x256 : S128x1.Broadcasts S128x256
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  concatenates_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x8192_d1 : Shape.Concatenates [S128x256, S128x256, S128x256, S128x256, S128x256, S128x256, S128x256, S128x256, S128x256, S128x256, S128x256, S128x256, S128x256, S128x256, S128x256, S128x256, S128x256, S128x256, S128x256, S128x256, S128x256, S128x256, S128x256, S128x256, S128x256, S128x256, S128x256, S128x256, S128x256, S128x256, S128x256, S128x256] S128x8192 1
  inb_S128x96_S128x32_0_64 : ∀ a, (![0, 64] : Fin 2 → Nat) a + S128x32.size a ≤ S128x96.size a
  dot_S128x64_S64x2048_S128x2048_1_0_0_1_n_n_wf : DotDims.WF S128x64 S64x2048 S128x2048 [1] [0] [0] [1] [] []
  dot_S128x2048_S2048x32_S128x32_1_0_0_1_n_n_wf : DotDims.WF S128x2048 S2048x32 S128x32 [1] [0] [0] [1] [] []
  dot_S128x128_S128x4096_S128x4096_1_0_0_1_n_n_wf : DotDims.WF S128x128 S128x4096 S128x4096 [1] [0] [0] [1] [] []
  dot_S128x4096_S4096x32_S128x32_1_0_0_1_n_n_wf : DotDims.WF S128x4096 S4096x32 S128x32 [1] [0] [0] [1] [] []
  dot_S128x256_S256x8192_S128x8192_1_0_0_1_n_n_wf : DotDims.WF S128x256 S256x8192 S128x8192 [1] [0] [0] [1] [] []
  dot_S128x8192_S8192x32_S128x32_1_0_0_1_n_n_wf : DotDims.WF S128x8192 S8192x32 S128x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x3.size a ≤ S524288x3.size a
  hwx0_0 : ∀ i : grid0.Coords, EltTy.bits .f32 = 32 ∨ (Rect.block (s := S524288x3) S128x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .bf16 = 32 ∨ (Rect.block (s := S64x2048) S64x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x2048.size a
  hwx0_2 : ∀ i : grid0.Coords, EltTy.bits .bf16 = 32 ∨ (Rect.block (s := S64x2048) S64x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x2048.size a
  hwx0_3 : ∀ i : grid0.Coords, EltTy.bits .bf16 = 32 ∨ (Rect.block (s := S64x2048) S64x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S128x4096.size a
  hwx0_4 : ∀ i : grid0.Coords, EltTy.bits .bf16 = 32 ∨ (Rect.block (s := S128x4096) S128x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S128x4096.size a
  hwx0_5 : ∀ i : grid0.Coords, EltTy.bits .bf16 = 32 ∨ (Rect.block (s := S128x4096) S128x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x4096.size a ≤ S128x4096.size a
  hwx0_6 : ∀ i : grid0.Coords, EltTy.bits .bf16 = 32 ∨ (Rect.block (s := S128x4096) S128x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x8192.size a ≤ S256x8192.size a
  hwx0_7 : ∀ i : grid0.Coords, EltTy.bits .bf16 = 32 ∨ (Rect.block (s := S256x8192) S256x8192.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x8192.size a ≤ S256x8192.size a
  hwx0_8 : ∀ i : grid0.Coords, EltTy.bits .bf16 = 32 ∨ (Rect.block (s := S256x8192) S256x8192.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x8192.size a ≤ S256x8192.size a
  hwx0_9 : ∀ i : grid0.Coords, EltTy.bits .bf16 = 32 ∨ (Rect.block (s := S256x8192) S256x8192.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x96.size a ≤ S524288x96.size a
  hwx0_10 : ∀ i : grid0.Coords, EltTy.bits .f32 = 32 ∨ (Rect.block (s := S524288x96) S128x96.size (cc0_transform_10 i) (hinb0_10 i)).WholeWords (EltTy.packing .f32)

variable [Facts₀]

def dot_S128x64_S64x2048_S128x2048_1_0_0_1_n_n : DotDims S128x64 S64x2048 S128x2048 where
  lhsContracting := [1]
  rhsContracting := [0]
  lhsNonContracting := [0]
  rhsNonContracting := [1]
  lhsBatch := []
  rhsBatch := []
  wf := dot_S128x64_S64x2048_S128x2048_1_0_0_1_n_n_wf
def dot_S128x2048_S2048x32_S128x32_1_0_0_1_n_n : DotDims S128x2048 S2048x32 S128x32 where
  lhsContracting := [1]
  rhsContracting := [0]
  lhsNonContracting := [0]
  rhsNonContracting := [1]
  lhsBatch := []
  rhsBatch := []
  wf := dot_S128x2048_S2048x32_S128x32_1_0_0_1_n_n_wf
def dot_S128x128_S128x4096_S128x4096_1_0_0_1_n_n : DotDims S128x128 S128x4096 S128x4096 where
  lhsContracting := [1]
  rhsContracting := [0]
  lhsNonContracting := [0]
  rhsNonContracting := [1]
  lhsBatch := []
  rhsBatch := []
  wf := dot_S128x128_S128x4096_S128x4096_1_0_0_1_n_n_wf
def dot_S128x4096_S4096x32_S128x32_1_0_0_1_n_n : DotDims S128x4096 S4096x32 S128x32 where
  lhsContracting := [1]
  rhsContracting := [0]
  lhsNonContracting := [0]
  rhsNonContracting := [1]
  lhsBatch := []
  rhsBatch := []
  wf := dot_S128x4096_S4096x32_S128x32_1_0_0_1_n_n_wf
def dot_S128x256_S256x8192_S128x8192_1_0_0_1_n_n : DotDims S128x256 S256x8192 S128x8192 where
  lhsContracting := [1]
  rhsContracting := [0]
  lhsNonContracting := [0]
  rhsNonContracting := [1]
  lhsBatch := []
  rhsBatch := []
  wf := dot_S128x256_S256x8192_S128x8192_1_0_0_1_n_n_wf
def dot_S128x8192_S8192x32_S128x32_1_0_0_1_n_n : DotDims S128x8192 S8192x32 S128x32 where
  lhsContracting := [1]
  rhsContracting := [0]
  lhsNonContracting := [0]
  rhsNonContracting := [1]
  lhsBatch := []
  rhsBatch := []
  wf := dot_S128x8192_S8192x32_S128x32_1_0_0_1_n_n_wf

abbrev win0_0 : Pipeline.Window sig grid0 :=
  Pipeline.Window.ofSpec (Memref.whole main_arg0) S128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S64x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S128x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S128x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S128x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S256x8192.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S256x8192.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S256x8192.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v27) S128x96.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S524288x3 : Shape := ⟨2, ![524288, 3]⟩
abbrev S32x64x64 : Shape := ⟨3, ![32, 64, 64]⟩
abbrev S32x128x128 : Shape := ⟨3, ![32, 128, 128]⟩
abbrev S32x256x256 : Shape := ⟨3, ![32, 256, 256]⟩
abbrev S524288x1 : Shape := ⟨2, ![524288, 1]⟩
abbrev S524288 : Shape := ⟨1, ![524288]⟩
abbrev S_ : Shape := ⟨0, ![]⟩
abbrev S524288x2 : Shape := ⟨2, ![524288, 2]⟩
abbrev S32x524288 : Shape := ⟨2, ![32, 524288]⟩
abbrev S1x524288 : Shape := ⟨2, ![1, 524288]⟩
abbrev S524288x32 : Shape := ⟨2, ![524288, 32]⟩
abbrev S524288x96 : Shape := ⟨2, ![524288, 96]⟩

abbrev nBuf : Space → Nat
  | .hbm => 1541
  | .vmem => 0
  | .smem => 0
  | _ => 0

abbrev hbmTy0_0 (i : Nat) : BufTy := match i % 128 with
  | 0 => ⟨S524288x3, .f32⟩
  | 1 => ⟨S32x64x64, .f32⟩
  | 2 => ⟨S32x64x64, .f32⟩
  | 3 => ⟨S32x64x64, .f32⟩
  | 4 => ⟨S32x128x128, .f32⟩
  | 5 => ⟨S32x128x128, .f32⟩
  | 6 => ⟨S32x128x128, .f32⟩
  | 7 => ⟨S32x256x256, .f32⟩
  | 8 => ⟨S32x256x256, .f32⟩
  | 9 => ⟨S32x256x256, .f32⟩
  | 10 => ⟨S524288x1, .f32⟩
  | 11 => ⟨S524288, .f32⟩
  | 12 => ⟨S524288x1, .f32⟩
  | 13 => ⟨S524288, .f32⟩
  | 14 => ⟨S_, .f32⟩
  | 15 => ⟨S524288, .f32⟩
  | 16 => ⟨S524288, .f32⟩
  | 17 => ⟨S_, .f32⟩
  | 18 => ⟨S524288, .f32⟩
  | 19 => ⟨S524288, .f32⟩
  | 20 => ⟨S_, .f32⟩
  | 21 => ⟨S524288, .f32⟩
  | 22 => ⟨S524288, .f32⟩
  | 23 => ⟨S_, .f32⟩
  | 24 => ⟨S524288, .f32⟩
  | 25 => ⟨S524288, .f32⟩
  | 26 => ⟨S_, .f32⟩
  | 27 => ⟨S524288, .f32⟩
  | 28 => ⟨S524288, .f32⟩
  | 29 => ⟨S_, .f32⟩
  | 30 => ⟨S524288, .f32⟩
  | 31 => ⟨S524288, .f32⟩
  | 32 => ⟨S524288, .f32⟩
  | 33 => ⟨S524288, .f32⟩
  | 34 => ⟨S524288, .f32⟩
  | 35 => ⟨S524288, .f32⟩
  | 36 => ⟨S524288, .i32⟩
  | 37 => ⟨S_, .i32⟩
  | 38 => ⟨S_, .i32⟩
  | 39 => ⟨S_, .i32⟩
  | 40 => ⟨S524288, .i32⟩
  | 41 => ⟨S524288, .i32⟩
  | 42 => ⟨S_, .i32⟩
  | 43 => ⟨S524288, .i32⟩
  | 44 => ⟨S524288, .i32⟩
  | 45 => ⟨S_, .i32⟩
  | 46 => ⟨S524288, .i32⟩
  | 47 => ⟨S524288, .i32⟩
  | 48 => ⟨S_, .i32⟩
  | 49 => ⟨S_, .i32⟩
  | 50 => ⟨S_, .i32⟩
  | 51 => ⟨S524288, .i32⟩
  | 52 => ⟨S524288, .i32⟩
  | 53 => ⟨S_, .i32⟩
  | 54 => ⟨S524288, .i32⟩
  | 55 => ⟨S524288, .i32⟩
  | 56 => ⟨S524288, .i32⟩
  | 57 => ⟨S_, .i32⟩
  | 58 => ⟨S_, .i32⟩
  | 59 => ⟨S_, .i32⟩
  | 60 => ⟨S524288, .i32⟩
  | 61 => ⟨S524288, .i32⟩
  | 62 => ⟨S_, .i32⟩
  | 63 => ⟨S524288, .i32⟩
  | 64 => ⟨S524288, .i32⟩
  | 65 => ⟨S_, .i32⟩
  | 66 => ⟨S524288, .i32⟩
  | 67 => ⟨S524288, .i32⟩
  | 68 => ⟨S_, .i32⟩
  | 69 => ⟨S_, .i32⟩
  | 70 => ⟨S_, .i32⟩
  | 71 => ⟨S524288, .i32⟩
  | 72 => ⟨S524288, .i32⟩
  | 73 => ⟨S_, .i32⟩
  | 74 => ⟨S524288, .i32⟩
  | 75 => ⟨S524288, .i32⟩
  | 76 => ⟨S_, .i32⟩
  | 77 => ⟨S524288, .i32⟩
  | 78 => ⟨S524288, .i1⟩
  | 79 => ⟨S_, .i32⟩
  | 80 => ⟨S524288, .i32⟩
  | 81 => ⟨S524288, .i32⟩
  | 82 => ⟨S524288, .i32⟩
  | 83 => ⟨S_, .i32⟩
  | 84 => ⟨S524288, .i32⟩
  | 85 => ⟨S524288, .i1⟩
  | 86 => ⟨S_, .i32⟩
  | 87 => ⟨S524288, .i32⟩
  | 88 => ⟨S524288, .i32⟩
  | 89 => ⟨S524288, .i32⟩
  | 90 => ⟨S524288x1, .i32⟩
  | 91 => ⟨S524288x1, .i32⟩
  | 92 => ⟨S524288x2, .i32⟩
  | 93 => ⟨S32x524288, .f32⟩
  | 94 => ⟨S_, .i32⟩
  | 95 => ⟨S524288, .i32⟩
  | 96 => ⟨S524288, .i1⟩
  | 97 => ⟨S_, .i32⟩
  | 98 => ⟨S524288, .i32⟩
  | 99 => ⟨S524288, .i32⟩
  | 100 => ⟨S524288, .i32⟩
  | 101 => ⟨S_, .i32⟩
  | 102 => ⟨S524288, .i32⟩
  | 103 => ⟨S524288, .i1⟩
  | 104 => ⟨S_, .i32⟩
  | 105 => ⟨S524288, .i32⟩
  | 106 => ⟨S524288, .i32⟩
  | 107 => ⟨S524288, .i32⟩
  | 108 => ⟨S524288x1, .i32⟩
  | 109 => ⟨S524288x1, .i32⟩
  | 110 => ⟨S524288x2, .i32⟩
  | 111 => ⟨S32x524288, .f32⟩
  | 112 => ⟨S_, .i32⟩
  | 113 => ⟨S524288, .i32⟩
  | 114 => ⟨S524288, .i1⟩
  | 115 => ⟨S_, .i32⟩
  | 116 => ⟨S524288, .i32⟩
  | 117 => ⟨S524288, .i32⟩
  | 118 => ⟨S524288, .i32⟩
  | 119 => ⟨S_, .i32⟩
  | 120 => ⟨S524288, .i32⟩
  | 121 => ⟨S524288, .i1⟩
  | 122 => ⟨S_, .i32⟩
  | 123 => ⟨S524288, .i32⟩
  | 124 => ⟨S524288, .i32⟩
  | 125 => ⟨S524288, .i32⟩
  | 126 => ⟨S524288x1, .i32⟩
  | 127 => ⟨S524288x1, .i32⟩
  | _ => ⟨S524288x3, .f32⟩

abbrev hbmTy0_1 (i : Nat) : BufTy := match i % 128 with
  | 0 => ⟨S524288x2, .i32⟩
  | 1 => ⟨S32x524288, .f32⟩
  | 2 => ⟨S_, .i32⟩
  | 3 => ⟨S524288, .i32⟩
  | 4 => ⟨S524288, .i1⟩
  | 5 => ⟨S_, .i32⟩
  | 6 => ⟨S524288, .i32⟩
  | 7 => ⟨S524288, .i32⟩
  | 8 => ⟨S524288, .i32⟩
  | 9 => ⟨S_, .i32⟩
  | 10 => ⟨S524288, .i32⟩
  | 11 => ⟨S524288, .i1⟩
  | 12 => ⟨S_, .i32⟩
  | 13 => ⟨S524288, .i32⟩
  | 14 => ⟨S524288, .i32⟩
  | 15 => ⟨S524288, .i32⟩
  | 16 => ⟨S524288x1, .i32⟩
  | 17 => ⟨S524288x1, .i32⟩
  | 18 => ⟨S524288x2, .i32⟩
  | 19 => ⟨S32x524288, .f32⟩
  | 20 => ⟨S_, .f32⟩
  | 21 => ⟨S524288, .f32⟩
  | 22 => ⟨S524288, .f32⟩
  | 23 => ⟨S1x524288, .f32⟩
  | 24 => ⟨S32x524288, .f32⟩
  | 25 => ⟨S32x524288, .f32⟩
  | 26 => ⟨S1x524288, .f32⟩
  | 27 => ⟨S32x524288, .f32⟩
  | 28 => ⟨S32x524288, .f32⟩
  | 29 => ⟨S32x524288, .f32⟩
  | 30 => ⟨S_, .f32⟩
  | 31 => ⟨S524288, .f32⟩
  | 32 => ⟨S524288, .f32⟩
  | 33 => ⟨S1x524288, .f32⟩
  | 34 => ⟨S32x524288, .f32⟩
  | 35 => ⟨S32x524288, .f32⟩
  | 36 => ⟨S1x524288, .f32⟩
  | 37 => ⟨S32x524288, .f32⟩
  | 38 => ⟨S32x524288, .f32⟩
  | 39 => ⟨S32x524288, .f32⟩
  | 40 => ⟨S_, .f32⟩
  | 41 => ⟨S524288, .f32⟩
  | 42 => ⟨S524288, .f32⟩
  | 43 => ⟨S1x524288, .f32⟩
  | 44 => ⟨S32x524288, .f32⟩
  | 45 => ⟨S32x524288, .f32⟩
  | 46 => ⟨S1x524288, .f32⟩
  | 47 => ⟨S32x524288, .f32⟩
  | 48 => ⟨S32x524288, .f32⟩
  | 49 => ⟨S32x524288, .f32⟩
  | 50 => ⟨S_, .f32⟩
  | 51 => ⟨S32x524288, .f32⟩
  | 52 => ⟨S32x524288, .f32⟩
  | 53 => ⟨S524288x1, .f32⟩
  | 54 => ⟨S524288, .f32⟩
  | 55 => ⟨S524288x1, .f32⟩
  | 56 => ⟨S524288, .f32⟩
  | 57 => ⟨S_, .f32⟩
  | 58 => ⟨S524288, .f32⟩
  | 59 => ⟨S524288, .f32⟩
  | 60 => ⟨S_, .f32⟩
  | 61 => ⟨S524288, .f32⟩
  | 62 => ⟨S524288, .f32⟩
  | 63 => ⟨S_, .f32⟩
  | 64 => ⟨S524288, .f32⟩
  | 65 => ⟨S524288, .f32⟩
  | 66 => ⟨S_, .f32⟩
  | 67 => ⟨S524288, .f32⟩
  | 68 => ⟨S524288, .f32⟩
  | 69 => ⟨S_, .f32⟩
  | 70 => ⟨S524288, .f32⟩
  | 71 => ⟨S524288, .f32⟩
  | 72 => ⟨S_, .f32⟩
  | 73 => ⟨S524288, .f32⟩
  | 74 => ⟨S524288, .f32⟩
  | 75 => ⟨S524288, .f32⟩
  | 76 => ⟨S524288, .f32⟩
  | 77 => ⟨S524288, .f32⟩
  | 78 => ⟨S524288, .f32⟩
  | 79 => ⟨S524288, .i32⟩
  | 80 => ⟨S_, .i32⟩
  | 81 => ⟨S_, .i32⟩
  | 82 => ⟨S_, .i32⟩
  | 83 => ⟨S524288, .i32⟩
  | 84 => ⟨S524288, .i32⟩
  | 85 => ⟨S_, .i32⟩
  | 86 => ⟨S524288, .i32⟩
  | 87 => ⟨S524288, .i32⟩
  | 88 => ⟨S_, .i32⟩
  | 89 => ⟨S524288, .i32⟩
  | 90 => ⟨S524288, .i32⟩
  | 91 => ⟨S_, .i32⟩
  | 92 => ⟨S_, .i32⟩
  | 93 => ⟨S_, .i32⟩
  | 94 => ⟨S524288, .i32⟩
  | 95 => ⟨S524288, .i32⟩
  | 96 => ⟨S_, .i32⟩
  | 97 => ⟨S524288, .i32⟩
  | 98 => ⟨S524288, .i32⟩
  | 99 => ⟨S524288, .i32⟩
  | 100 => ⟨S_, .i32⟩
  | 101 => ⟨S_, .i32⟩
  | 102 => ⟨S_, .i32⟩
  | 103 => ⟨S524288, .i32⟩
  | 104 => ⟨S524288, .i32⟩
  | 105 => ⟨S_, .i32⟩
  | 106 => ⟨S524288, .i32⟩
  | 107 => ⟨S524288, .i32⟩
  | 108 => ⟨S_, .i32⟩
  | 109 => ⟨S524288, .i32⟩
  | 110 => ⟨S524288, .i32⟩
  | 111 => ⟨S_, .i32⟩
  | 112 => ⟨S_, .i32⟩
  | 113 => ⟨S_, .i32⟩
  | 114 => ⟨S524288, .i32⟩
  | 115 => ⟨S524288, .i32⟩
  | 116 => ⟨S_, .i32⟩
  | 117 => ⟨S524288, .i32⟩
  | 118 => ⟨S524288, .i32⟩
  | 119 => ⟨S_, .i32⟩
  | 120 => ⟨S524288, .i32⟩
  | 121 => ⟨S524288, .i1⟩
  | 122 => ⟨S_, .i32⟩
  | 123 => ⟨S524288, .i32⟩
  | 124 => ⟨S524288, .i32⟩
  | 125 => ⟨S524288, .i32⟩
  | 126 => ⟨S_, .i32⟩
  | 127 => ⟨S524288, .i32⟩
  | _ => ⟨S524288x3, .f32⟩

abbrev hbmTy0_2 (i : Nat) : BufTy := match i % 128 with
  | 0 => ⟨S524288, .i1⟩
  | 1 => ⟨S_, .i32⟩
  | 2 => ⟨S524288, .i32⟩
  | 3 => ⟨S524288, .i32⟩
  | 4 => ⟨S524288, .i32⟩
  | 5 => ⟨S524288x1, .i32⟩
  | 6 => ⟨S524288x1, .i32⟩
  | 7 => ⟨S524288x2, .i32⟩
  | 8 => ⟨S32x524288, .f32⟩
  | 9 => ⟨S_, .i32⟩
  | 10 => ⟨S524288, .i32⟩
  | 11 => ⟨S524288, .i1⟩
  | 12 => ⟨S_, .i32⟩
  | 13 => ⟨S524288, .i32⟩
  | 14 => ⟨S524288, .i32⟩
  | 15 => ⟨S524288, .i32⟩
  | 16 => ⟨S_, .i32⟩
  | 17 => ⟨S524288, .i32⟩
  | 18 => ⟨S524288, .i1⟩
  | 19 => ⟨S_, .i32⟩
  | 20 => ⟨S524288, .i32⟩
  | 21 => ⟨S524288, .i32⟩
  | 22 => ⟨S524288, .i32⟩
  | 23 => ⟨S524288x1, .i32⟩
  | 24 => ⟨S524288x1, .i32⟩
  | 25 => ⟨S524288x2, .i32⟩
  | 26 => ⟨S32x524288, .f32⟩
  | 27 => ⟨S_, .i32⟩
  | 28 => ⟨S524288, .i32⟩
  | 29 => ⟨S524288, .i1⟩
  | 30 => ⟨S_, .i32⟩
  | 31 => ⟨S524288, .i32⟩
  | 32 => ⟨S524288, .i32⟩
  | 33 => ⟨S524288, .i32⟩
  | 34 => ⟨S_, .i32⟩
  | 35 => ⟨S524288, .i32⟩
  | 36 => ⟨S524288, .i1⟩
  | 37 => ⟨S_, .i32⟩
  | 38 => ⟨S524288, .i32⟩
  | 39 => ⟨S524288, .i32⟩
  | 40 => ⟨S524288, .i32⟩
  | 41 => ⟨S524288x1, .i32⟩
  | 42 => ⟨S524288x1, .i32⟩
  | 43 => ⟨S524288x2, .i32⟩
  | 44 => ⟨S32x524288, .f32⟩
  | 45 => ⟨S_, .i32⟩
  | 46 => ⟨S524288, .i32⟩
  | 47 => ⟨S524288, .i1⟩
  | 48 => ⟨S_, .i32⟩
  | 49 => ⟨S524288, .i32⟩
  | 50 => ⟨S524288, .i32⟩
  | 51 => ⟨S524288, .i32⟩
  | 52 => ⟨S_, .i32⟩
  | 53 => ⟨S524288, .i32⟩
  | 54 => ⟨S524288, .i1⟩
  | 55 => ⟨S_, .i32⟩
  | 56 => ⟨S524288, .i32⟩
  | 57 => ⟨S524288, .i32⟩
  | 58 => ⟨S524288, .i32⟩
  | 59 => ⟨S524288x1, .i32⟩
  | 60 => ⟨S524288x1, .i32⟩
  | 61 => ⟨S524288x2, .i32⟩
  | 62 => ⟨S32x524288, .f32⟩
  | 63 => ⟨S_, .f32⟩
  | 64 => ⟨S524288, .f32⟩
  | 65 => ⟨S524288, .f32⟩
  | 66 => ⟨S1x524288, .f32⟩
  | 67 => ⟨S32x524288, .f32⟩
  | 68 => ⟨S32x524288, .f32⟩
  | 69 => ⟨S1x524288, .f32⟩
  | 70 => ⟨S32x524288, .f32⟩
  | 71 => ⟨S32x524288, .f32⟩
  | 72 => ⟨S32x524288, .f32⟩
  | 73 => ⟨S_, .f32⟩
  | 74 => ⟨S524288, .f32⟩
  | 75 => ⟨S524288, .f32⟩
  | 76 => ⟨S1x524288, .f32⟩
  | 77 => ⟨S32x524288, .f32⟩
  | 78 => ⟨S32x524288, .f32⟩
  | 79 => ⟨S1x524288, .f32⟩
  | 80 => ⟨S32x524288, .f32⟩
  | 81 => ⟨S32x524288, .f32⟩
  | 82 => ⟨S32x524288, .f32⟩
  | 83 => ⟨S_, .f32⟩
  | 84 => ⟨S524288, .f32⟩
  | 85 => ⟨S524288, .f32⟩
  | 86 => ⟨S1x524288, .f32⟩
  | 87 => ⟨S32x524288, .f32⟩
  | 88 => ⟨S32x524288, .f32⟩
  | 89 => ⟨S1x524288, .f32⟩
  | 90 => ⟨S32x524288, .f32⟩
  | 91 => ⟨S32x524288, .f32⟩
  | 92 => ⟨S32x524288, .f32⟩
  | 93 => ⟨S32x524288, .f32⟩
  | 94 => ⟨S524288x1, .f32⟩
  | 95 => ⟨S524288, .f32⟩
  | 96 => ⟨S524288x1, .f32⟩
  | 97 => ⟨S524288, .f32⟩
  | 98 => ⟨S_, .f32⟩
  | 99 => ⟨S524288, .f32⟩
  | 100 => ⟨S524288, .f32⟩
  | 101 => ⟨S_, .f32⟩
  | 102 => ⟨S524288, .f32⟩
  | 103 => ⟨S524288, .f32⟩
  | 104 => ⟨S_, .f32⟩
  | 105 => ⟨S524288, .f32⟩
  | 106 => ⟨S524288, .f32⟩
  | 107 => ⟨S_, .f32⟩
  | 108 => ⟨S524288, .f32⟩
  | 109 => ⟨S524288, .f32⟩
  | 110 => ⟨S_, .f32⟩
  | 111 => ⟨S524288, .f32⟩
  | 112 => ⟨S524288, .f32⟩
  | 113 => ⟨S_, .f32⟩
  | 114 => ⟨S524288, .f32⟩
  | 115 => ⟨S524288, .f32⟩
  | 116 => ⟨S524288, .f32⟩
  | 117 => ⟨S524288, .f32⟩
  | 118 => ⟨S524288, .f32⟩
  | 119 => ⟨S524288, .f32⟩
  | 120 => ⟨S524288, .i32⟩
  | 121 => ⟨S_, .i32⟩
  | 122 => ⟨S_, .i32⟩
  | 123 => ⟨S_, .i32⟩
  | 124 => ⟨S524288, .i32⟩
  | 125 => ⟨S524288, .i32⟩
  | 126 => ⟨S_, .i32⟩
  | 127 => ⟨S524288, .i32⟩
  | _ => ⟨S524288x3, .f32⟩

abbrev hbmTy0_3 (i : Nat) : BufTy := match i % 128 with
  | 0 => ⟨S524288, .i32⟩
  | 1 => ⟨S_, .i32⟩
  | 2 => ⟨S524288, .i32⟩
  | 3 => ⟨S524288, .i32⟩
  | 4 => ⟨S_, .i32⟩
  | 5 => ⟨S_, .i32⟩
  | 6 => ⟨S_, .i32⟩
  | 7 => ⟨S524288, .i32⟩
  | 8 => ⟨S524288, .i32⟩
  | 9 => ⟨S_, .i32⟩
  | 10 => ⟨S524288, .i32⟩
  | 11 => ⟨S524288, .i32⟩
  | 12 => ⟨S524288, .i32⟩
  | 13 => ⟨S_, .i32⟩
  | 14 => ⟨S_, .i32⟩
  | 15 => ⟨S_, .i32⟩
  | 16 => ⟨S524288, .i32⟩
  | 17 => ⟨S524288, .i32⟩
  | 18 => ⟨S_, .i32⟩
  | 19 => ⟨S524288, .i32⟩
  | 20 => ⟨S524288, .i32⟩
  | 21 => ⟨S_, .i32⟩
  | 22 => ⟨S524288, .i32⟩
  | 23 => ⟨S524288, .i32⟩
  | 24 => ⟨S_, .i32⟩
  | 25 => ⟨S_, .i32⟩
  | 26 => ⟨S_, .i32⟩
  | 27 => ⟨S524288, .i32⟩
  | 28 => ⟨S524288, .i32⟩
  | 29 => ⟨S_, .i32⟩
  | 30 => ⟨S524288, .i32⟩
  | 31 => ⟨S524288, .i32⟩
  | 32 => ⟨S_, .i32⟩
  | 33 => ⟨S524288, .i32⟩
  | 34 => ⟨S524288, .i1⟩
  | 35 => ⟨S_, .i32⟩
  | 36 => ⟨S524288, .i32⟩
  | 37 => ⟨S524288, .i32⟩
  | 38 => ⟨S524288, .i32⟩
  | 39 => ⟨S_, .i32⟩
  | 40 => ⟨S524288, .i32⟩
  | 41 => ⟨S524288, .i1⟩
  | 42 => ⟨S_, .i32⟩
  | 43 => ⟨S524288, .i32⟩
  | 44 => ⟨S524288, .i32⟩
  | 45 => ⟨S524288, .i32⟩
  | 46 => ⟨S524288x1, .i32⟩
  | 47 => ⟨S524288x1, .i32⟩
  | 48 => ⟨S524288x2, .i32⟩
  | 49 => ⟨S32x524288, .f32⟩
  | 50 => ⟨S_, .i32⟩
  | 51 => ⟨S524288, .i32⟩
  | 52 => ⟨S524288, .i1⟩
  | 53 => ⟨S_, .i32⟩
  | 54 => ⟨S524288, .i32⟩
  | 55 => ⟨S524288, .i32⟩
  | 56 => ⟨S524288, .i32⟩
  | 57 => ⟨S_, .i32⟩
  | 58 => ⟨S524288, .i32⟩
  | 59 => ⟨S524288, .i1⟩
  | 60 => ⟨S_, .i32⟩
  | 61 => ⟨S524288, .i32⟩
  | 62 => ⟨S524288, .i32⟩
  | 63 => ⟨S524288, .i32⟩
  | 64 => ⟨S524288x1, .i32⟩
  | 65 => ⟨S524288x1, .i32⟩
  | 66 => ⟨S524288x2, .i32⟩
  | 67 => ⟨S32x524288, .f32⟩
  | 68 => ⟨S_, .i32⟩
  | 69 => ⟨S524288, .i32⟩
  | 70 => ⟨S524288, .i1⟩
  | 71 => ⟨S_, .i32⟩
  | 72 => ⟨S524288, .i32⟩
  | 73 => ⟨S524288, .i32⟩
  | 74 => ⟨S524288, .i32⟩
  | 75 => ⟨S_, .i32⟩
  | 76 => ⟨S524288, .i32⟩
  | 77 => ⟨S524288, .i1⟩
  | 78 => ⟨S_, .i32⟩
  | 79 => ⟨S524288, .i32⟩
  | 80 => ⟨S524288, .i32⟩
  | 81 => ⟨S524288, .i32⟩
  | 82 => ⟨S524288x1, .i32⟩
  | 83 => ⟨S524288x1, .i32⟩
  | 84 => ⟨S524288x2, .i32⟩
  | 85 => ⟨S32x524288, .f32⟩
  | 86 => ⟨S_, .i32⟩
  | 87 => ⟨S524288, .i32⟩
  | 88 => ⟨S524288, .i1⟩
  | 89 => ⟨S_, .i32⟩
  | 90 => ⟨S524288, .i32⟩
  | 91 => ⟨S524288, .i32⟩
  | 92 => ⟨S524288, .i32⟩
  | 93 => ⟨S_, .i32⟩
  | 94 => ⟨S524288, .i32⟩
  | 95 => ⟨S524288, .i1⟩
  | 96 => ⟨S_, .i32⟩
  | 97 => ⟨S524288, .i32⟩
  | 98 => ⟨S524288, .i32⟩
  | 99 => ⟨S524288, .i32⟩
  | 100 => ⟨S524288x1, .i32⟩
  | 101 => ⟨S524288x1, .i32⟩
  | 102 => ⟨S524288x2, .i32⟩
  | 103 => ⟨S32x524288, .f32⟩
  | 104 => ⟨S_, .f32⟩
  | 105 => ⟨S524288, .f32⟩
  | 106 => ⟨S524288, .f32⟩
  | 107 => ⟨S1x524288, .f32⟩
  | 108 => ⟨S32x524288, .f32⟩
  | 109 => ⟨S32x524288, .f32⟩
  | 110 => ⟨S1x524288, .f32⟩
  | 111 => ⟨S32x524288, .f32⟩
  | 112 => ⟨S32x524288, .f32⟩
  | 113 => ⟨S32x524288, .f32⟩
  | 114 => ⟨S_, .f32⟩
  | 115 => ⟨S524288, .f32⟩
  | 116 => ⟨S524288, .f32⟩
  | 117 => ⟨S1x524288, .f32⟩
  | 118 => ⟨S32x524288, .f32⟩
  | 119 => ⟨S32x524288, .f32⟩
  | 120 => ⟨S1x524288, .f32⟩
  | 121 => ⟨S32x524288, .f32⟩
  | 122 => ⟨S32x524288, .f32⟩
  | 123 => ⟨S32x524288, .f32⟩
  | 124 => ⟨S_, .f32⟩
  | 125 => ⟨S524288, .f32⟩
  | 126 => ⟨S524288, .f32⟩
  | 127 => ⟨S1x524288, .f32⟩
  | _ => ⟨S524288x3, .f32⟩

abbrev hbmTy0_4 (i : Nat) : BufTy := match i % 128 with
  | 0 => ⟨S32x524288, .f32⟩
  | 1 => ⟨S32x524288, .f32⟩
  | 2 => ⟨S1x524288, .f32⟩
  | 3 => ⟨S32x524288, .f32⟩
  | 4 => ⟨S32x524288, .f32⟩
  | 5 => ⟨S32x524288, .f32⟩
  | 6 => ⟨S32x524288, .f32⟩
  | 7 => ⟨S524288x32, .f32⟩
  | 8 => ⟨S524288x1, .f32⟩
  | 9 => ⟨S524288, .f32⟩
  | 10 => ⟨S524288x1, .f32⟩
  | 11 => ⟨S524288, .f32⟩
  | 12 => ⟨S_, .f32⟩
  | 13 => ⟨S524288, .f32⟩
  | 14 => ⟨S524288, .f32⟩
  | 15 => ⟨S_, .f32⟩
  | 16 => ⟨S524288, .f32⟩
  | 17 => ⟨S524288, .f32⟩
  | 18 => ⟨S_, .f32⟩
  | 19 => ⟨S524288, .f32⟩
  | 20 => ⟨S524288, .f32⟩
  | 21 => ⟨S_, .f32⟩
  | 22 => ⟨S524288, .f32⟩
  | 23 => ⟨S524288, .f32⟩
  | 24 => ⟨S_, .f32⟩
  | 25 => ⟨S524288, .f32⟩
  | 26 => ⟨S524288, .f32⟩
  | 27 => ⟨S_, .f32⟩
  | 28 => ⟨S524288, .f32⟩
  | 29 => ⟨S524288, .f32⟩
  | 30 => ⟨S524288, .f32⟩
  | 31 => ⟨S524288, .f32⟩
  | 32 => ⟨S524288, .f32⟩
  | 33 => ⟨S524288, .f32⟩
  | 34 => ⟨S524288, .i32⟩
  | 35 => ⟨S_, .i32⟩
  | 36 => ⟨S_, .i32⟩
  | 37 => ⟨S_, .i32⟩
  | 38 => ⟨S524288, .i32⟩
  | 39 => ⟨S524288, .i32⟩
  | 40 => ⟨S_, .i32⟩
  | 41 => ⟨S524288, .i32⟩
  | 42 => ⟨S524288, .i32⟩
  | 43 => ⟨S_, .i32⟩
  | 44 => ⟨S524288, .i32⟩
  | 45 => ⟨S524288, .i32⟩
  | 46 => ⟨S_, .i32⟩
  | 47 => ⟨S_, .i32⟩
  | 48 => ⟨S_, .i32⟩
  | 49 => ⟨S524288, .i32⟩
  | 50 => ⟨S524288, .i32⟩
  | 51 => ⟨S_, .i32⟩
  | 52 => ⟨S524288, .i32⟩
  | 53 => ⟨S524288, .i32⟩
  | 54 => ⟨S524288, .i32⟩
  | 55 => ⟨S_, .i32⟩
  | 56 => ⟨S_, .i32⟩
  | 57 => ⟨S_, .i32⟩
  | 58 => ⟨S524288, .i32⟩
  | 59 => ⟨S524288, .i32⟩
  | 60 => ⟨S_, .i32⟩
  | 61 => ⟨S524288, .i32⟩
  | 62 => ⟨S524288, .i32⟩
  | 63 => ⟨S_, .i32⟩
  | 64 => ⟨S524288, .i32⟩
  | 65 => ⟨S524288, .i32⟩
  | 66 => ⟨S_, .i32⟩
  | 67 => ⟨S_, .i32⟩
  | 68 => ⟨S_, .i32⟩
  | 69 => ⟨S524288, .i32⟩
  | 70 => ⟨S524288, .i32⟩
  | 71 => ⟨S_, .i32⟩
  | 72 => ⟨S524288, .i32⟩
  | 73 => ⟨S524288, .i32⟩
  | 74 => ⟨S_, .i32⟩
  | 75 => ⟨S524288, .i32⟩
  | 76 => ⟨S524288, .i1⟩
  | 77 => ⟨S_, .i32⟩
  | 78 => ⟨S524288, .i32⟩
  | 79 => ⟨S524288, .i32⟩
  | 80 => ⟨S524288, .i32⟩
  | 81 => ⟨S_, .i32⟩
  | 82 => ⟨S524288, .i32⟩
  | 83 => ⟨S524288, .i1⟩
  | 84 => ⟨S_, .i32⟩
  | 85 => ⟨S524288, .i32⟩
  | 86 => ⟨S524288, .i32⟩
  | 87 => ⟨S524288, .i32⟩
  | 88 => ⟨S524288x1, .i32⟩
  | 89 => ⟨S524288x1, .i32⟩
  | 90 => ⟨S524288x2, .i32⟩
  | 91 => ⟨S32x524288, .f32⟩
  | 92 => ⟨S_, .i32⟩
  | 93 => ⟨S524288, .i32⟩
  | 94 => ⟨S524288, .i1⟩
  | 95 => ⟨S_, .i32⟩
  | 96 => ⟨S524288, .i32⟩
  | 97 => ⟨S524288, .i32⟩
  | 98 => ⟨S524288, .i32⟩
  | 99 => ⟨S_, .i32⟩
  | 100 => ⟨S524288, .i32⟩
  | 101 => ⟨S524288, .i1⟩
  | 102 => ⟨S_, .i32⟩
  | 103 => ⟨S524288, .i32⟩
  | 104 => ⟨S524288, .i32⟩
  | 105 => ⟨S524288, .i32⟩
  | 106 => ⟨S524288x1, .i32⟩
  | 107 => ⟨S524288x1, .i32⟩
  | 108 => ⟨S524288x2, .i32⟩
  | 109 => ⟨S32x524288, .f32⟩
  | 110 => ⟨S_, .i32⟩
  | 111 => ⟨S524288, .i32⟩
  | 112 => ⟨S524288, .i1⟩
  | 113 => ⟨S_, .i32⟩
  | 114 => ⟨S524288, .i32⟩
  | 115 => ⟨S524288, .i32⟩
  | 116 => ⟨S524288, .i32⟩
  | 117 => ⟨S_, .i32⟩
  | 118 => ⟨S524288, .i32⟩
  | 119 => ⟨S524288, .i1⟩
  | 120 => ⟨S_, .i32⟩
  | 121 => ⟨S524288, .i32⟩
  | 122 => ⟨S524288, .i32⟩
  | 123 => ⟨S524288, .i32⟩
  | 124 => ⟨S524288x1, .i32⟩
  | 125 => ⟨S524288x1, .i32⟩
  | 126 => ⟨S524288x2, .i32⟩
  | 127 => ⟨S32x524288, .f32⟩
  | _ => ⟨S524288x3, .f32⟩

abbrev hbmTy0_5 (i : Nat) : BufTy := match i % 128 with
  | 0 => ⟨S_, .i32⟩
  | 1 => ⟨S524288, .i32⟩
  | 2 => ⟨S524288, .i1⟩
  | 3 => ⟨S_, .i32⟩
  | 4 => ⟨S524288, .i32⟩
  | 5 => ⟨S524288, .i32⟩
  | 6 => ⟨S524288, .i32⟩
  | 7 => ⟨S_, .i32⟩
  | 8 => ⟨S524288, .i32⟩
  | 9 => ⟨S524288, .i1⟩
  | 10 => ⟨S_, .i32⟩
  | 11 => ⟨S524288, .i32⟩
  | 12 => ⟨S524288, .i32⟩
  | 13 => ⟨S524288, .i32⟩
  | 14 => ⟨S524288x1, .i32⟩
  | 15 => ⟨S524288x1, .i32⟩
  | 16 => ⟨S524288x2, .i32⟩
  | 17 => ⟨S32x524288, .f32⟩
  | 18 => ⟨S_, .f32⟩
  | 19 => ⟨S524288, .f32⟩
  | 20 => ⟨S524288, .f32⟩
  | 21 => ⟨S1x524288, .f32⟩
  | 22 => ⟨S32x524288, .f32⟩
  | 23 => ⟨S32x524288, .f32⟩
  | 24 => ⟨S1x524288, .f32⟩
  | 25 => ⟨S32x524288, .f32⟩
  | 26 => ⟨S32x524288, .f32⟩
  | 27 => ⟨S32x524288, .f32⟩
  | 28 => ⟨S_, .f32⟩
  | 29 => ⟨S524288, .f32⟩
  | 30 => ⟨S524288, .f32⟩
  | 31 => ⟨S1x524288, .f32⟩
  | 32 => ⟨S32x524288, .f32⟩
  | 33 => ⟨S32x524288, .f32⟩
  | 34 => ⟨S1x524288, .f32⟩
  | 35 => ⟨S32x524288, .f32⟩
  | 36 => ⟨S32x524288, .f32⟩
  | 37 => ⟨S32x524288, .f32⟩
  | 38 => ⟨S_, .f32⟩
  | 39 => ⟨S524288, .f32⟩
  | 40 => ⟨S524288, .f32⟩
  | 41 => ⟨S1x524288, .f32⟩
  | 42 => ⟨S32x524288, .f32⟩
  | 43 => ⟨S32x524288, .f32⟩
  | 44 => ⟨S1x524288, .f32⟩
  | 45 => ⟨S32x524288, .f32⟩
  | 46 => ⟨S32x524288, .f32⟩
  | 47 => ⟨S32x524288, .f32⟩
  | 48 => ⟨S_, .f32⟩
  | 49 => ⟨S32x524288, .f32⟩
  | 50 => ⟨S32x524288, .f32⟩
  | 51 => ⟨S524288x1, .f32⟩
  | 52 => ⟨S524288, .f32⟩
  | 53 => ⟨S524288x1, .f32⟩
  | 54 => ⟨S524288, .f32⟩
  | 55 => ⟨S_, .f32⟩
  | 56 => ⟨S524288, .f32⟩
  | 57 => ⟨S524288, .f32⟩
  | 58 => ⟨S_, .f32⟩
  | 59 => ⟨S524288, .f32⟩
  | 60 => ⟨S524288, .f32⟩
  | 61 => ⟨S_, .f32⟩
  | 62 => ⟨S524288, .f32⟩
  | 63 => ⟨S524288, .f32⟩
  | 64 => ⟨S_, .f32⟩
  | 65 => ⟨S524288, .f32⟩
  | 66 => ⟨S524288, .f32⟩
  | 67 => ⟨S_, .f32⟩
  | 68 => ⟨S524288, .f32⟩
  | 69 => ⟨S524288, .f32⟩
  | 70 => ⟨S_, .f32⟩
  | 71 => ⟨S524288, .f32⟩
  | 72 => ⟨S524288, .f32⟩
  | 73 => ⟨S524288, .f32⟩
  | 74 => ⟨S524288, .f32⟩
  | 75 => ⟨S524288, .f32⟩
  | 76 => ⟨S524288, .f32⟩
  | 77 => ⟨S524288, .i32⟩
  | 78 => ⟨S_, .i32⟩
  | 79 => ⟨S_, .i32⟩
  | 80 => ⟨S_, .i32⟩
  | 81 => ⟨S524288, .i32⟩
  | 82 => ⟨S524288, .i32⟩
  | 83 => ⟨S_, .i32⟩
  | 84 => ⟨S524288, .i32⟩
  | 85 => ⟨S524288, .i32⟩
  | 86 => ⟨S_, .i32⟩
  | 87 => ⟨S524288, .i32⟩
  | 88 => ⟨S524288, .i32⟩
  | 89 => ⟨S_, .i32⟩
  | 90 => ⟨S_, .i32⟩
  | 91 => ⟨S_, .i32⟩
  | 92 => ⟨S524288, .i32⟩
  | 93 => ⟨S524288, .i32⟩
  | 94 => ⟨S_, .i32⟩
  | 95 => ⟨S524288, .i32⟩
  | 96 => ⟨S524288, .i32⟩
  | 97 => ⟨S524288, .i32⟩
  | 98 => ⟨S_, .i32⟩
  | 99 => ⟨S_, .i32⟩
  | 100 => ⟨S_, .i32⟩
  | 101 => ⟨S524288, .i32⟩
  | 102 => ⟨S524288, .i32⟩
  | 103 => ⟨S_, .i32⟩
  | 104 => ⟨S524288, .i32⟩
  | 105 => ⟨S524288, .i32⟩
  | 106 => ⟨S_, .i32⟩
  | 107 => ⟨S524288, .i32⟩
  | 108 => ⟨S524288, .i32⟩
  | 109 => ⟨S_, .i32⟩
  | 110 => ⟨S_, .i32⟩
  | 111 => ⟨S_, .i32⟩
  | 112 => ⟨S524288, .i32⟩
  | 113 => ⟨S524288, .i32⟩
  | 114 => ⟨S_, .i32⟩
  | 115 => ⟨S524288, .i32⟩
  | 116 => ⟨S524288, .i32⟩
  | 117 => ⟨S_, .i32⟩
  | 118 => ⟨S524288, .i32⟩
  | 119 => ⟨S524288, .i1⟩
  | 120 => ⟨S_, .i32⟩
  | 121 => ⟨S524288, .i32⟩
  | 122 => ⟨S524288, .i32⟩
  | 123 => ⟨S524288, .i32⟩
  | 124 => ⟨S_, .i32⟩
  | 125 => ⟨S524288, .i32⟩
  | 126 => ⟨S524288, .i1⟩
  | 127 => ⟨S_, .i32⟩
  | _ => ⟨S524288x3, .f32⟩

abbrev hbmTy0_6 (i : Nat) : BufTy := match i % 128 with
  | 0 => ⟨S524288, .i32⟩
  | 1 => ⟨S524288, .i32⟩
  | 2 => ⟨S524288, .i32⟩
  | 3 => ⟨S524288x1, .i32⟩
  | 4 => ⟨S524288x1, .i32⟩
  | 5 => ⟨S524288x2, .i32⟩
  | 6 => ⟨S32x524288, .f32⟩
  | 7 => ⟨S_, .i32⟩
  | 8 => ⟨S524288, .i32⟩
  | 9 => ⟨S524288, .i1⟩
  | 10 => ⟨S_, .i32⟩
  | 11 => ⟨S524288, .i32⟩
  | 12 => ⟨S524288, .i32⟩
  | 13 => ⟨S524288, .i32⟩
  | 14 => ⟨S_, .i32⟩
  | 15 => ⟨S524288, .i32⟩
  | 16 => ⟨S524288, .i1⟩
  | 17 => ⟨S_, .i32⟩
  | 18 => ⟨S524288, .i32⟩
  | 19 => ⟨S524288, .i32⟩
  | 20 => ⟨S524288, .i32⟩
  | 21 => ⟨S524288x1, .i32⟩
  | 22 => ⟨S524288x1, .i32⟩
  | 23 => ⟨S524288x2, .i32⟩
  | 24 => ⟨S32x524288, .f32⟩
  | 25 => ⟨S_, .i32⟩
  | 26 => ⟨S524288, .i32⟩
  | 27 => ⟨S524288, .i1⟩
  | 28 => ⟨S_, .i32⟩
  | 29 => ⟨S524288, .i32⟩
  | 30 => ⟨S524288, .i32⟩
  | 31 => ⟨S524288, .i32⟩
  | 32 => ⟨S_, .i32⟩
  | 33 => ⟨S524288, .i32⟩
  | 34 => ⟨S524288, .i1⟩
  | 35 => ⟨S_, .i32⟩
  | 36 => ⟨S524288, .i32⟩
  | 37 => ⟨S524288, .i32⟩
  | 38 => ⟨S524288, .i32⟩
  | 39 => ⟨S524288x1, .i32⟩
  | 40 => ⟨S524288x1, .i32⟩
  | 41 => ⟨S524288x2, .i32⟩
  | 42 => ⟨S32x524288, .f32⟩
  | 43 => ⟨S_, .i32⟩
  | 44 => ⟨S524288, .i32⟩
  | 45 => ⟨S524288, .i1⟩
  | 46 => ⟨S_, .i32⟩
  | 47 => ⟨S524288, .i32⟩
  | 48 => ⟨S524288, .i32⟩
  | 49 => ⟨S524288, .i32⟩
  | 50 => ⟨S_, .i32⟩
  | 51 => ⟨S524288, .i32⟩
  | 52 => ⟨S524288, .i1⟩
  | 53 => ⟨S_, .i32⟩
  | 54 => ⟨S524288, .i32⟩
  | 55 => ⟨S524288, .i32⟩
  | 56 => ⟨S524288, .i32⟩
  | 57 => ⟨S524288x1, .i32⟩
  | 58 => ⟨S524288x1, .i32⟩
  | 59 => ⟨S524288x2, .i32⟩
  | 60 => ⟨S32x524288, .f32⟩
  | 61 => ⟨S_, .f32⟩
  | 62 => ⟨S524288, .f32⟩
  | 63 => ⟨S524288, .f32⟩
  | 64 => ⟨S1x524288, .f32⟩
  | 65 => ⟨S32x524288, .f32⟩
  | 66 => ⟨S32x524288, .f32⟩
  | 67 => ⟨S1x524288, .f32⟩
  | 68 => ⟨S32x524288, .f32⟩
  | 69 => ⟨S32x524288, .f32⟩
  | 70 => ⟨S32x524288, .f32⟩
  | 71 => ⟨S_, .f32⟩
  | 72 => ⟨S524288, .f32⟩
  | 73 => ⟨S524288, .f32⟩
  | 74 => ⟨S1x524288, .f32⟩
  | 75 => ⟨S32x524288, .f32⟩
  | 76 => ⟨S32x524288, .f32⟩
  | 77 => ⟨S1x524288, .f32⟩
  | 78 => ⟨S32x524288, .f32⟩
  | 79 => ⟨S32x524288, .f32⟩
  | 80 => ⟨S32x524288, .f32⟩
  | 81 => ⟨S_, .f32⟩
  | 82 => ⟨S524288, .f32⟩
  | 83 => ⟨S524288, .f32⟩
  | 84 => ⟨S1x524288, .f32⟩
  | 85 => ⟨S32x524288, .f32⟩
  | 86 => ⟨S32x524288, .f32⟩
  | 87 => ⟨S1x524288, .f32⟩
  | 88 => ⟨S32x524288, .f32⟩
  | 89 => ⟨S32x524288, .f32⟩
  | 90 => ⟨S32x524288, .f32⟩
  | 91 => ⟨S32x524288, .f32⟩
  | 92 => ⟨S524288x1, .f32⟩
  | 93 => ⟨S524288, .f32⟩
  | 94 => ⟨S524288x1, .f32⟩
  | 95 => ⟨S524288, .f32⟩
  | 96 => ⟨S_, .f32⟩
  | 97 => ⟨S524288, .f32⟩
  | 98 => ⟨S524288, .f32⟩
  | 99 => ⟨S_, .f32⟩
  | 100 => ⟨S524288, .f32⟩
  | 101 => ⟨S524288, .f32⟩
  | 102 => ⟨S_, .f32⟩
  | 103 => ⟨S524288, .f32⟩
  | 104 => ⟨S524288, .f32⟩
  | 105 => ⟨S_, .f32⟩
  | 106 => ⟨S524288, .f32⟩
  | 107 => ⟨S524288, .f32⟩
  | 108 => ⟨S_, .f32⟩
  | 109 => ⟨S524288, .f32⟩
  | 110 => ⟨S524288, .f32⟩
  | 111 => ⟨S_, .f32⟩
  | 112 => ⟨S524288, .f32⟩
  | 113 => ⟨S524288, .f32⟩
  | 114 => ⟨S524288, .f32⟩
  | 115 => ⟨S524288, .f32⟩
  | 116 => ⟨S524288, .f32⟩
  | 117 => ⟨S524288, .f32⟩
  | 118 => ⟨S524288, .i32⟩
  | 119 => ⟨S_, .i32⟩
  | 120 => ⟨S_, .i32⟩
  | 121 => ⟨S_, .i32⟩
  | 122 => ⟨S524288, .i32⟩
  | 123 => ⟨S524288, .i32⟩
  | 124 => ⟨S_, .i32⟩
  | 125 => ⟨S524288, .i32⟩
  | 126 => ⟨S524288, .i32⟩
  | 127 => ⟨S_, .i32⟩
  | _ => ⟨S524288x3, .f32⟩

abbrev hbmTy0_7 (i : Nat) : BufTy := match i % 128 with
  | 0 => ⟨S524288, .i32⟩
  | 1 => ⟨S524288, .i32⟩
  | 2 => ⟨S_, .i32⟩
  | 3 => ⟨S_, .i32⟩
  | 4 => ⟨S_, .i32⟩
  | 5 => ⟨S524288, .i32⟩
  | 6 => ⟨S524288, .i32⟩
  | 7 => ⟨S_, .i32⟩
  | 8 => ⟨S524288, .i32⟩
  | 9 => ⟨S524288, .i32⟩
  | 10 => ⟨S524288, .i32⟩
  | 11 => ⟨S_, .i32⟩
  | 12 => ⟨S_, .i32⟩
  | 13 => ⟨S_, .i32⟩
  | 14 => ⟨S524288, .i32⟩
  | 15 => ⟨S524288, .i32⟩
  | 16 => ⟨S_, .i32⟩
  | 17 => ⟨S524288, .i32⟩
  | 18 => ⟨S524288, .i32⟩
  | 19 => ⟨S_, .i32⟩
  | 20 => ⟨S524288, .i32⟩
  | 21 => ⟨S524288, .i32⟩
  | 22 => ⟨S_, .i32⟩
  | 23 => ⟨S_, .i32⟩
  | 24 => ⟨S_, .i32⟩
  | 25 => ⟨S524288, .i32⟩
  | 26 => ⟨S524288, .i32⟩
  | 27 => ⟨S_, .i32⟩
  | 28 => ⟨S524288, .i32⟩
  | 29 => ⟨S524288, .i32⟩
  | 30 => ⟨S_, .i32⟩
  | 31 => ⟨S524288, .i32⟩
  | 32 => ⟨S524288, .i1⟩
  | 33 => ⟨S_, .i32⟩
  | 34 => ⟨S524288, .i32⟩
  | 35 => ⟨S524288, .i32⟩
  | 36 => ⟨S524288, .i32⟩
  | 37 => ⟨S_, .i32⟩
  | 38 => ⟨S524288, .i32⟩
  | 39 => ⟨S524288, .i1⟩
  | 40 => ⟨S_, .i32⟩
  | 41 => ⟨S524288, .i32⟩
  | 42 => ⟨S524288, .i32⟩
  | 43 => ⟨S524288, .i32⟩
  | 44 => ⟨S524288x1, .i32⟩
  | 45 => ⟨S524288x1, .i32⟩
  | 46 => ⟨S524288x2, .i32⟩
  | 47 => ⟨S32x524288, .f32⟩
  | 48 => ⟨S_, .i32⟩
  | 49 => ⟨S524288, .i32⟩
  | 50 => ⟨S524288, .i1⟩
  | 51 => ⟨S_, .i32⟩
  | 52 => ⟨S524288, .i32⟩
  | 53 => ⟨S524288, .i32⟩
  | 54 => ⟨S524288, .i32⟩
  | 55 => ⟨S_, .i32⟩
  | 56 => ⟨S524288, .i32⟩
  | 57 => ⟨S524288, .i1⟩
  | 58 => ⟨S_, .i32⟩
  | 59 => ⟨S524288, .i32⟩
  | 60 => ⟨S524288, .i32⟩
  | 61 => ⟨S524288, .i32⟩
  | 62 => ⟨S524288x1, .i32⟩
  | 63 => ⟨S524288x1, .i32⟩
  | 64 => ⟨S524288x2, .i32⟩
  | 65 => ⟨S32x524288, .f32⟩
  | 66 => ⟨S_, .i32⟩
  | 67 => ⟨S524288, .i32⟩
  | 68 => ⟨S524288, .i1⟩
  | 69 => ⟨S_, .i32⟩
  | 70 => ⟨S524288, .i32⟩
  | 71 => ⟨S524288, .i32⟩
  | 72 => ⟨S524288, .i32⟩
  | 73 => ⟨S_, .i32⟩
  | 74 => ⟨S524288, .i32⟩
  | 75 => ⟨S524288, .i1⟩
  | 76 => ⟨S_, .i32⟩
  | 77 => ⟨S524288, .i32⟩
  | 78 => ⟨S524288, .i32⟩
  | 79 => ⟨S524288, .i32⟩
  | 80 => ⟨S524288x1, .i32⟩
  | 81 => ⟨S524288x1, .i32⟩
  | 82 => ⟨S524288x2, .i32⟩
  | 83 => ⟨S32x524288, .f32⟩
  | 84 => ⟨S_, .i32⟩
  | 85 => ⟨S524288, .i32⟩
  | 86 => ⟨S524288, .i1⟩
  | 87 => ⟨S_, .i32⟩
  | 88 => ⟨S524288, .i32⟩
  | 89 => ⟨S524288, .i32⟩
  | 90 => ⟨S524288, .i32⟩
  | 91 => ⟨S_, .i32⟩
  | 92 => ⟨S524288, .i32⟩
  | 93 => ⟨S524288, .i1⟩
  | 94 => ⟨S_, .i32⟩
  | 95 => ⟨S524288, .i32⟩
  | 96 => ⟨S524288, .i32⟩
  | 97 => ⟨S524288, .i32⟩
  | 98 => ⟨S524288x1, .i32⟩
  | 99 => ⟨S524288x1, .i32⟩
  | 100 => ⟨S524288x2, .i32⟩
  | 101 => ⟨S32x524288, .f32⟩
  | 102 => ⟨S_, .f32⟩
  | 103 => ⟨S524288, .f32⟩
  | 104 => ⟨S524288, .f32⟩
  | 105 => ⟨S1x524288, .f32⟩
  | 106 => ⟨S32x524288, .f32⟩
  | 107 => ⟨S32x524288, .f32⟩
  | 108 => ⟨S1x524288, .f32⟩
  | 109 => ⟨S32x524288, .f32⟩
  | 110 => ⟨S32x524288, .f32⟩
  | 111 => ⟨S32x524288, .f32⟩
  | 112 => ⟨S_, .f32⟩
  | 113 => ⟨S524288, .f32⟩
  | 114 => ⟨S524288, .f32⟩
  | 115 => ⟨S1x524288, .f32⟩
  | 116 => ⟨S32x524288, .f32⟩
  | 117 => ⟨S32x524288, .f32⟩
  | 118 => ⟨S1x524288, .f32⟩
  | 119 => ⟨S32x524288, .f32⟩
  | 120 => ⟨S32x524288, .f32⟩
  | 121 => ⟨S32x524288, .f32⟩
  | 122 => ⟨S_, .f32⟩
  | 123 => ⟨S524288, .f32⟩
  | 124 => ⟨S524288, .f32⟩
  | 125 => ⟨S1x524288, .f32⟩
  | 126 => ⟨S32x524288, .f32⟩
  | 127 => ⟨S32x524288, .f32⟩
  | _ => ⟨S524288x3, .f32⟩

abbrev hbmTy0_8 (i : Nat) : BufTy := match i % 128 with
  | 0 => ⟨S1x524288, .f32⟩
  | 1 => ⟨S32x524288, .f32⟩
  | 2 => ⟨S32x524288, .f32⟩
  | 3 => ⟨S32x524288, .f32⟩
  | 4 => ⟨S32x524288, .f32⟩
  | 5 => ⟨S524288x32, .f32⟩
  | 6 => ⟨S524288x1, .f32⟩
  | 7 => ⟨S524288, .f32⟩
  | 8 => ⟨S524288x1, .f32⟩
  | 9 => ⟨S524288, .f32⟩
  | 10 => ⟨S_, .f32⟩
  | 11 => ⟨S524288, .f32⟩
  | 12 => ⟨S524288, .f32⟩
  | 13 => ⟨S_, .f32⟩
  | 14 => ⟨S524288, .f32⟩
  | 15 => ⟨S524288, .f32⟩
  | 16 => ⟨S_, .f32⟩
  | 17 => ⟨S524288, .f32⟩
  | 18 => ⟨S524288, .f32⟩
  | 19 => ⟨S_, .f32⟩
  | 20 => ⟨S524288, .f32⟩
  | 21 => ⟨S524288, .f32⟩
  | 22 => ⟨S_, .f32⟩
  | 23 => ⟨S524288, .f32⟩
  | 24 => ⟨S524288, .f32⟩
  | 25 => ⟨S_, .f32⟩
  | 26 => ⟨S524288, .f32⟩
  | 27 => ⟨S524288, .f32⟩
  | 28 => ⟨S524288, .f32⟩
  | 29 => ⟨S524288, .f32⟩
  | 30 => ⟨S524288, .f32⟩
  | 31 => ⟨S524288, .f32⟩
  | 32 => ⟨S524288, .i32⟩
  | 33 => ⟨S_, .i32⟩
  | 34 => ⟨S_, .i32⟩
  | 35 => ⟨S_, .i32⟩
  | 36 => ⟨S524288, .i32⟩
  | 37 => ⟨S524288, .i32⟩
  | 38 => ⟨S_, .i32⟩
  | 39 => ⟨S524288, .i32⟩
  | 40 => ⟨S524288, .i32⟩
  | 41 => ⟨S_, .i32⟩
  | 42 => ⟨S524288, .i32⟩
  | 43 => ⟨S524288, .i32⟩
  | 44 => ⟨S_, .i32⟩
  | 45 => ⟨S_, .i32⟩
  | 46 => ⟨S_, .i32⟩
  | 47 => ⟨S524288, .i32⟩
  | 48 => ⟨S524288, .i32⟩
  | 49 => ⟨S_, .i32⟩
  | 50 => ⟨S524288, .i32⟩
  | 51 => ⟨S524288, .i32⟩
  | 52 => ⟨S524288, .i32⟩
  | 53 => ⟨S_, .i32⟩
  | 54 => ⟨S_, .i32⟩
  | 55 => ⟨S_, .i32⟩
  | 56 => ⟨S524288, .i32⟩
  | 57 => ⟨S524288, .i32⟩
  | 58 => ⟨S_, .i32⟩
  | 59 => ⟨S524288, .i32⟩
  | 60 => ⟨S524288, .i32⟩
  | 61 => ⟨S_, .i32⟩
  | 62 => ⟨S524288, .i32⟩
  | 63 => ⟨S524288, .i32⟩
  | 64 => ⟨S_, .i32⟩
  | 65 => ⟨S_, .i32⟩
  | 66 => ⟨S_, .i32⟩
  | 67 => ⟨S524288, .i32⟩
  | 68 => ⟨S524288, .i32⟩
  | 69 => ⟨S_, .i32⟩
  | 70 => ⟨S524288, .i32⟩
  | 71 => ⟨S524288, .i32⟩
  | 72 => ⟨S_, .i32⟩
  | 73 => ⟨S524288, .i32⟩
  | 74 => ⟨S524288, .i1⟩
  | 75 => ⟨S_, .i32⟩
  | 76 => ⟨S524288, .i32⟩
  | 77 => ⟨S524288, .i32⟩
  | 78 => ⟨S524288, .i32⟩
  | 79 => ⟨S_, .i32⟩
  | 80 => ⟨S524288, .i32⟩
  | 81 => ⟨S524288, .i1⟩
  | 82 => ⟨S_, .i32⟩
  | 83 => ⟨S524288, .i32⟩
  | 84 => ⟨S524288, .i32⟩
  | 85 => ⟨S524288, .i32⟩
  | 86 => ⟨S524288x1, .i32⟩
  | 87 => ⟨S524288x1, .i32⟩
  | 88 => ⟨S524288x2, .i32⟩
  | 89 => ⟨S32x524288, .f32⟩
  | 90 => ⟨S_, .i32⟩
  | 91 => ⟨S524288, .i32⟩
  | 92 => ⟨S524288, .i1⟩
  | 93 => ⟨S_, .i32⟩
  | 94 => ⟨S524288, .i32⟩
  | 95 => ⟨S524288, .i32⟩
  | 96 => ⟨S524288, .i32⟩
  | 97 => ⟨S_, .i32⟩
  | 98 => ⟨S524288, .i32⟩
  | 99 => ⟨S524288, .i1⟩
  | 100 => ⟨S_, .i32⟩
  | 101 => ⟨S524288, .i32⟩
  | 102 => ⟨S524288, .i32⟩
  | 103 => ⟨S524288, .i32⟩
  | 104 => ⟨S524288x1, .i32⟩
  | 105 => ⟨S524288x1, .i32⟩
  | 106 => ⟨S524288x2, .i32⟩
  | 107 => ⟨S32x524288, .f32⟩
  | 108 => ⟨S_, .i32⟩
  | 109 => ⟨S524288, .i32⟩
  | 110 => ⟨S524288, .i1⟩
  | 111 => ⟨S_, .i32⟩
  | 112 => ⟨S524288, .i32⟩
  | 113 => ⟨S524288, .i32⟩
  | 114 => ⟨S524288, .i32⟩
  | 115 => ⟨S_, .i32⟩
  | 116 => ⟨S524288, .i32⟩
  | 117 => ⟨S524288, .i1⟩
  | 118 => ⟨S_, .i32⟩
  | 119 => ⟨S524288, .i32⟩
  | 120 => ⟨S524288, .i32⟩
  | 121 => ⟨S524288, .i32⟩
  | 122 => ⟨S524288x1, .i32⟩
  | 123 => ⟨S524288x1, .i32⟩
  | 124 => ⟨S524288x2, .i32⟩
  | 125 => ⟨S32x524288, .f32⟩
  | 126 => ⟨S_, .i32⟩
  | 127 => ⟨S524288, .i32⟩
  | _ => ⟨S524288x3, .f32⟩

abbrev hbmTy0_9 (i : Nat) : BufTy := match i % 128 with
  | 0 => ⟨S524288, .i1⟩
  | 1 => ⟨S_, .i32⟩
  | 2 => ⟨S524288, .i32⟩
  | 3 => ⟨S524288, .i32⟩
  | 4 => ⟨S524288, .i32⟩
  | 5 => ⟨S_, .i32⟩
  | 6 => ⟨S524288, .i32⟩
  | 7 => ⟨S524288, .i1⟩
  | 8 => ⟨S_, .i32⟩
  | 9 => ⟨S524288, .i32⟩
  | 10 => ⟨S524288, .i32⟩
  | 11 => ⟨S524288, .i32⟩
  | 12 => ⟨S524288x1, .i32⟩
  | 13 => ⟨S524288x1, .i32⟩
  | 14 => ⟨S524288x2, .i32⟩
  | 15 => ⟨S32x524288, .f32⟩
  | 16 => ⟨S_, .f32⟩
  | 17 => ⟨S524288, .f32⟩
  | 18 => ⟨S524288, .f32⟩
  | 19 => ⟨S1x524288, .f32⟩
  | 20 => ⟨S32x524288, .f32⟩
  | 21 => ⟨S32x524288, .f32⟩
  | 22 => ⟨S1x524288, .f32⟩
  | 23 => ⟨S32x524288, .f32⟩
  | 24 => ⟨S32x524288, .f32⟩
  | 25 => ⟨S32x524288, .f32⟩
  | 26 => ⟨S_, .f32⟩
  | 27 => ⟨S524288, .f32⟩
  | 28 => ⟨S524288, .f32⟩
  | 29 => ⟨S1x524288, .f32⟩
  | 30 => ⟨S32x524288, .f32⟩
  | 31 => ⟨S32x524288, .f32⟩
  | 32 => ⟨S1x524288, .f32⟩
  | 33 => ⟨S32x524288, .f32⟩
  | 34 => ⟨S32x524288, .f32⟩
  | 35 => ⟨S32x524288, .f32⟩
  | 36 => ⟨S_, .f32⟩
  | 37 => ⟨S524288, .f32⟩
  | 38 => ⟨S524288, .f32⟩
  | 39 => ⟨S1x524288, .f32⟩
  | 40 => ⟨S32x524288, .f32⟩
  | 41 => ⟨S32x524288, .f32⟩
  | 42 => ⟨S1x524288, .f32⟩
  | 43 => ⟨S32x524288, .f32⟩
  | 44 => ⟨S32x524288, .f32⟩
  | 45 => ⟨S32x524288, .f32⟩
  | 46 => ⟨S_, .f32⟩
  | 47 => ⟨S32x524288, .f32⟩
  | 48 => ⟨S32x524288, .f32⟩
  | 49 => ⟨S524288x1, .f32⟩
  | 50 => ⟨S524288, .f32⟩
  | 51 => ⟨S524288x1, .f32⟩
  | 52 => ⟨S524288, .f32⟩
  | 53 => ⟨S_, .f32⟩
  | 54 => ⟨S524288, .f32⟩
  | 55 => ⟨S524288, .f32⟩
  | 56 => ⟨S_, .f32⟩
  | 57 => ⟨S524288, .f32⟩
  | 58 => ⟨S524288, .f32⟩
  | 59 => ⟨S_, .f32⟩
  | 60 => ⟨S524288, .f32⟩
  | 61 => ⟨S524288, .f32⟩
  | 62 => ⟨S_, .f32⟩
  | 63 => ⟨S524288, .f32⟩
  | 64 => ⟨S524288, .f32⟩
  | 65 => ⟨S_, .f32⟩
  | 66 => ⟨S524288, .f32⟩
  | 67 => ⟨S524288, .f32⟩
  | 68 => ⟨S_, .f32⟩
  | 69 => ⟨S524288, .f32⟩
  | 70 => ⟨S524288, .f32⟩
  | 71 => ⟨S524288, .f32⟩
  | 72 => ⟨S524288, .f32⟩
  | 73 => ⟨S524288, .f32⟩
  | 74 => ⟨S524288, .f32⟩
  | 75 => ⟨S524288, .i32⟩
  | 76 => ⟨S_, .i32⟩
  | 77 => ⟨S_, .i32⟩
  | 78 => ⟨S_, .i32⟩
  | 79 => ⟨S524288, .i32⟩
  | 80 => ⟨S524288, .i32⟩
  | 81 => ⟨S_, .i32⟩
  | 82 => ⟨S524288, .i32⟩
  | 83 => ⟨S524288, .i32⟩
  | 84 => ⟨S_, .i32⟩
  | 85 => ⟨S524288, .i32⟩
  | 86 => ⟨S524288, .i32⟩
  | 87 => ⟨S_, .i32⟩
  | 88 => ⟨S_, .i32⟩
  | 89 => ⟨S_, .i32⟩
  | 90 => ⟨S524288, .i32⟩
  | 91 => ⟨S524288, .i32⟩
  | 92 => ⟨S_, .i32⟩
  | 93 => ⟨S524288, .i32⟩
  | 94 => ⟨S524288, .i32⟩
  | 95 => ⟨S524288, .i32⟩
  | 96 => ⟨S_, .i32⟩
  | 97 => ⟨S_, .i32⟩
  | 98 => ⟨S_, .i32⟩
  | 99 => ⟨S524288, .i32⟩
  | 100 => ⟨S524288, .i32⟩
  | 101 => ⟨S_, .i32⟩
  | 102 => ⟨S524288, .i32⟩
  | 103 => ⟨S524288, .i32⟩
  | 104 => ⟨S_, .i32⟩
  | 105 => ⟨S524288, .i32⟩
  | 106 => ⟨S524288, .i32⟩
  | 107 => ⟨S_, .i32⟩
  | 108 => ⟨S_, .i32⟩
  | 109 => ⟨S_, .i32⟩
  | 110 => ⟨S524288, .i32⟩
  | 111 => ⟨S524288, .i32⟩
  | 112 => ⟨S_, .i32⟩
  | 113 => ⟨S524288, .i32⟩
  | 114 => ⟨S524288, .i32⟩
  | 115 => ⟨S_, .i32⟩
  | 116 => ⟨S524288, .i32⟩
  | 117 => ⟨S524288, .i1⟩
  | 118 => ⟨S_, .i32⟩
  | 119 => ⟨S524288, .i32⟩
  | 120 => ⟨S524288, .i32⟩
  | 121 => ⟨S524288, .i32⟩
  | 122 => ⟨S_, .i32⟩
  | 123 => ⟨S524288, .i32⟩
  | 124 => ⟨S524288, .i1⟩
  | 125 => ⟨S_, .i32⟩
  | 126 => ⟨S524288, .i32⟩
  | 127 => ⟨S524288, .i32⟩
  | _ => ⟨S524288x3, .f32⟩

abbrev hbmTy0_10 (i : Nat) : BufTy := match i % 128 with
  | 0 => ⟨S524288, .i32⟩
  | 1 => ⟨S524288x1, .i32⟩
  | 2 => ⟨S524288x1, .i32⟩
  | 3 => ⟨S524288x2, .i32⟩
  | 4 => ⟨S32x524288, .f32⟩
  | 5 => ⟨S_, .i32⟩
  | 6 => ⟨S524288, .i32⟩
  | 7 => ⟨S524288, .i1⟩
  | 8 => ⟨S_, .i32⟩
  | 9 => ⟨S524288, .i32⟩
  | 10 => ⟨S524288, .i32⟩
  | 11 => ⟨S524288, .i32⟩
  | 12 => ⟨S_, .i32⟩
  | 13 => ⟨S524288, .i32⟩
  | 14 => ⟨S524288, .i1⟩
  | 15 => ⟨S_, .i32⟩
  | 16 => ⟨S524288, .i32⟩
  | 17 => ⟨S524288, .i32⟩
  | 18 => ⟨S524288, .i32⟩
  | 19 => ⟨S524288x1, .i32⟩
  | 20 => ⟨S524288x1, .i32⟩
  | 21 => ⟨S524288x2, .i32⟩
  | 22 => ⟨S32x524288, .f32⟩
  | 23 => ⟨S_, .i32⟩
  | 24 => ⟨S524288, .i32⟩
  | 25 => ⟨S524288, .i1⟩
  | 26 => ⟨S_, .i32⟩
  | 27 => ⟨S524288, .i32⟩
  | 28 => ⟨S524288, .i32⟩
  | 29 => ⟨S524288, .i32⟩
  | 30 => ⟨S_, .i32⟩
  | 31 => ⟨S524288, .i32⟩
  | 32 => ⟨S524288, .i1⟩
  | 33 => ⟨S_, .i32⟩
  | 34 => ⟨S524288, .i32⟩
  | 35 => ⟨S524288, .i32⟩
  | 36 => ⟨S524288, .i32⟩
  | 37 => ⟨S524288x1, .i32⟩
  | 38 => ⟨S524288x1, .i32⟩
  | 39 => ⟨S524288x2, .i32⟩
  | 40 => ⟨S32x524288, .f32⟩
  | 41 => ⟨S_, .i32⟩
  | 42 => ⟨S524288, .i32⟩
  | 43 => ⟨S524288, .i1⟩
  | 44 => ⟨S_, .i32⟩
  | 45 => ⟨S524288, .i32⟩
  | 46 => ⟨S524288, .i32⟩
  | 47 => ⟨S524288, .i32⟩
  | 48 => ⟨S_, .i32⟩
  | 49 => ⟨S524288, .i32⟩
  | 50 => ⟨S524288, .i1⟩
  | 51 => ⟨S_, .i32⟩
  | 52 => ⟨S524288, .i32⟩
  | 53 => ⟨S524288, .i32⟩
  | 54 => ⟨S524288, .i32⟩
  | 55 => ⟨S524288x1, .i32⟩
  | 56 => ⟨S524288x1, .i32⟩
  | 57 => ⟨S524288x2, .i32⟩
  | 58 => ⟨S32x524288, .f32⟩
  | 59 => ⟨S_, .f32⟩
  | 60 => ⟨S524288, .f32⟩
  | 61 => ⟨S524288, .f32⟩
  | 62 => ⟨S1x524288, .f32⟩
  | 63 => ⟨S32x524288, .f32⟩
  | 64 => ⟨S32x524288, .f32⟩
  | 65 => ⟨S1x524288, .f32⟩
  | 66 => ⟨S32x524288, .f32⟩
  | 67 => ⟨S32x524288, .f32⟩
  | 68 => ⟨S32x524288, .f32⟩
  | 69 => ⟨S_, .f32⟩
  | 70 => ⟨S524288, .f32⟩
  | 71 => ⟨S524288, .f32⟩
  | 72 => ⟨S1x524288, .f32⟩
  | 73 => ⟨S32x524288, .f32⟩
  | 74 => ⟨S32x524288, .f32⟩
  | 75 => ⟨S1x524288, .f32⟩
  | 76 => ⟨S32x524288, .f32⟩
  | 77 => ⟨S32x524288, .f32⟩
  | 78 => ⟨S32x524288, .f32⟩
  | 79 => ⟨S_, .f32⟩
  | 80 => ⟨S524288, .f32⟩
  | 81 => ⟨S524288, .f32⟩
  | 82 => ⟨S1x524288, .f32⟩
  | 83 => ⟨S32x524288, .f32⟩
  | 84 => ⟨S32x524288, .f32⟩
  | 85 => ⟨S1x524288, .f32⟩
  | 86 => ⟨S32x524288, .f32⟩
  | 87 => ⟨S32x524288, .f32⟩
  | 88 => ⟨S32x524288, .f32⟩
  | 89 => ⟨S32x524288, .f32⟩
  | 90 => ⟨S524288x1, .f32⟩
  | 91 => ⟨S524288, .f32⟩
  | 92 => ⟨S524288x1, .f32⟩
  | 93 => ⟨S524288, .f32⟩
  | 94 => ⟨S_, .f32⟩
  | 95 => ⟨S524288, .f32⟩
  | 96 => ⟨S524288, .f32⟩
  | 97 => ⟨S_, .f32⟩
  | 98 => ⟨S524288, .f32⟩
  | 99 => ⟨S524288, .f32⟩
  | 100 => ⟨S_, .f32⟩
  | 101 => ⟨S524288, .f32⟩
  | 102 => ⟨S524288, .f32⟩
  | 103 => ⟨S_, .f32⟩
  | 104 => ⟨S524288, .f32⟩
  | 105 => ⟨S524288, .f32⟩
  | 106 => ⟨S_, .f32⟩
  | 107 => ⟨S524288, .f32⟩
  | 108 => ⟨S524288, .f32⟩
  | 109 => ⟨S_, .f32⟩
  | 110 => ⟨S524288, .f32⟩
  | 111 => ⟨S524288, .f32⟩
  | 112 => ⟨S524288, .f32⟩
  | 113 => ⟨S524288, .f32⟩
  | 114 => ⟨S524288, .f32⟩
  | 115 => ⟨S524288, .f32⟩
  | 116 => ⟨S524288, .i32⟩
  | 117 => ⟨S_, .i32⟩
  | 118 => ⟨S_, .i32⟩
  | 119 => ⟨S_, .i32⟩
  | 120 => ⟨S524288, .i32⟩
  | 121 => ⟨S524288, .i32⟩
  | 122 => ⟨S_, .i32⟩
  | 123 => ⟨S524288, .i32⟩
  | 124 => ⟨S524288, .i32⟩
  | 125 => ⟨S_, .i32⟩
  | 126 => ⟨S524288, .i32⟩
  | 127 => ⟨S524288, .i32⟩
  | _ => ⟨S524288x3, .f32⟩

abbrev hbmTy0_11 (i : Nat) : BufTy := match i % 128 with
  | 0 => ⟨S_, .i32⟩
  | 1 => ⟨S_, .i32⟩
  | 2 => ⟨S_, .i32⟩
  | 3 => ⟨S524288, .i32⟩
  | 4 => ⟨S524288, .i32⟩
  | 5 => ⟨S_, .i32⟩
  | 6 => ⟨S524288, .i32⟩
  | 7 => ⟨S524288, .i32⟩
  | 8 => ⟨S524288, .i32⟩
  | 9 => ⟨S_, .i32⟩
  | 10 => ⟨S_, .i32⟩
  | 11 => ⟨S_, .i32⟩
  | 12 => ⟨S524288, .i32⟩
  | 13 => ⟨S524288, .i32⟩
  | 14 => ⟨S_, .i32⟩
  | 15 => ⟨S524288, .i32⟩
  | 16 => ⟨S524288, .i32⟩
  | 17 => ⟨S_, .i32⟩
  | 18 => ⟨S524288, .i32⟩
  | 19 => ⟨S524288, .i32⟩
  | 20 => ⟨S_, .i32⟩
  | 21 => ⟨S_, .i32⟩
  | 22 => ⟨S_, .i32⟩
  | 23 => ⟨S524288, .i32⟩
  | 24 => ⟨S524288, .i32⟩
  | 25 => ⟨S_, .i32⟩
  | 26 => ⟨S524288, .i32⟩
  | 27 => ⟨S524288, .i32⟩
  | 28 => ⟨S_, .i32⟩
  | 29 => ⟨S524288, .i32⟩
  | 30 => ⟨S524288, .i1⟩
  | 31 => ⟨S_, .i32⟩
  | 32 => ⟨S524288, .i32⟩
  | 33 => ⟨S524288, .i32⟩
  | 34 => ⟨S524288, .i32⟩
  | 35 => ⟨S_, .i32⟩
  | 36 => ⟨S524288, .i32⟩
  | 37 => ⟨S524288, .i1⟩
  | 38 => ⟨S_, .i32⟩
  | 39 => ⟨S524288, .i32⟩
  | 40 => ⟨S524288, .i32⟩
  | 41 => ⟨S524288, .i32⟩
  | 42 => ⟨S524288x1, .i32⟩
  | 43 => ⟨S524288x1, .i32⟩
  | 44 => ⟨S524288x2, .i32⟩
  | 45 => ⟨S32x524288, .f32⟩
  | 46 => ⟨S_, .i32⟩
  | 47 => ⟨S524288, .i32⟩
  | 48 => ⟨S524288, .i1⟩
  | 49 => ⟨S_, .i32⟩
  | 50 => ⟨S524288, .i32⟩
  | 51 => ⟨S524288, .i32⟩
  | 52 => ⟨S524288, .i32⟩
  | 53 => ⟨S_, .i32⟩
  | 54 => ⟨S524288, .i32⟩
  | 55 => ⟨S524288, .i1⟩
  | 56 => ⟨S_, .i32⟩
  | 57 => ⟨S524288, .i32⟩
  | 58 => ⟨S524288, .i32⟩
  | 59 => ⟨S524288, .i32⟩
  | 60 => ⟨S524288x1, .i32⟩
  | 61 => ⟨S524288x1, .i32⟩
  | 62 => ⟨S524288x2, .i32⟩
  | 63 => ⟨S32x524288, .f32⟩
  | 64 => ⟨S_, .i32⟩
  | 65 => ⟨S524288, .i32⟩
  | 66 => ⟨S524288, .i1⟩
  | 67 => ⟨S_, .i32⟩
  | 68 => ⟨S524288, .i32⟩
  | 69 => ⟨S524288, .i32⟩
  | 70 => ⟨S524288, .i32⟩
  | 71 => ⟨S_, .i32⟩
  | 72 => ⟨S524288, .i32⟩
  | 73 => ⟨S524288, .i1⟩
  | 74 => ⟨S_, .i32⟩
  | 75 => ⟨S524288, .i32⟩
  | 76 => ⟨S524288, .i32⟩
  | 77 => ⟨S524288, .i32⟩
  | 78 => ⟨S524288x1, .i32⟩
  | 79 => ⟨S524288x1, .i32⟩
  | 80 => ⟨S524288x2, .i32⟩
  | 81 => ⟨S32x524288, .f32⟩
  | 82 => ⟨S_, .i32⟩
  | 83 => ⟨S524288, .i32⟩
  | 84 => ⟨S524288, .i1⟩
  | 85 => ⟨S_, .i32⟩
  | 86 => ⟨S524288, .i32⟩
  | 87 => ⟨S524288, .i32⟩
  | 88 => ⟨S524288, .i32⟩
  | 89 => ⟨S_, .i32⟩
  | 90 => ⟨S524288, .i32⟩
  | 91 => ⟨S524288, .i1⟩
  | 92 => ⟨S_, .i32⟩
  | 93 => ⟨S524288, .i32⟩
  | 94 => ⟨S524288, .i32⟩
  | 95 => ⟨S524288, .i32⟩
  | 96 => ⟨S524288x1, .i32⟩
  | 97 => ⟨S524288x1, .i32⟩
  | 98 => ⟨S524288x2, .i32⟩
  | 99 => ⟨S32x524288, .f32⟩
  | 100 => ⟨S_, .f32⟩
  | 101 => ⟨S524288, .f32⟩
  | 102 => ⟨S524288, .f32⟩
  | 103 => ⟨S1x524288, .f32⟩
  | 104 => ⟨S32x524288, .f32⟩
  | 105 => ⟨S32x524288, .f32⟩
  | 106 => ⟨S1x524288, .f32⟩
  | 107 => ⟨S32x524288, .f32⟩
  | 108 => ⟨S32x524288, .f32⟩
  | 109 => ⟨S32x524288, .f32⟩
  | 110 => ⟨S_, .f32⟩
  | 111 => ⟨S524288, .f32⟩
  | 112 => ⟨S524288, .f32⟩
  | 113 => ⟨S1x524288, .f32⟩
  | 114 => ⟨S32x524288, .f32⟩
  | 115 => ⟨S32x524288, .f32⟩
  | 116 => ⟨S1x524288, .f32⟩
  | 117 => ⟨S32x524288, .f32⟩
  | 118 => ⟨S32x524288, .f32⟩
  | 119 => ⟨S32x524288, .f32⟩
  | 120 => ⟨S_, .f32⟩
  | 121 => ⟨S524288, .f32⟩
  | 122 => ⟨S524288, .f32⟩
  | 123 => ⟨S1x524288, .f32⟩
  | 124 => ⟨S32x524288, .f32⟩
  | 125 => ⟨S32x524288, .f32⟩
  | 126 => ⟨S1x524288, .f32⟩
  | 127 => ⟨S32x524288, .f32⟩
  | _ => ⟨S524288x3, .f32⟩

abbrev hbmTy0_12 (i : Nat) : BufTy := match i % 128 with
  | 0 => ⟨S32x524288, .f32⟩
  | 1 => ⟨S32x524288, .f32⟩
  | 2 => ⟨S32x524288, .f32⟩
  | 3 => ⟨S524288x32, .f32⟩
  | 4 => ⟨S524288x96, .f32⟩
  | _ => ⟨S524288x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | _ => ⟨S524288x3, .f32⟩

abbrev bufTy : (tb : Table) → Fin (tcTables nBuf tb) → BufTy
  | .hbm, ⟨i, _⟩ => hbmTy i
  | _, _ => ⟨S524288x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c : Ref sig .tc := ⟨.hbm, 37, rfl⟩
abbrev main_c_5 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v21 : Ref sig .tc := ⟨.hbm, 44, rfl⟩
abbrev main_c_6 : Ref sig .tc := ⟨.hbm, 45, rfl⟩
abbrev main_v22 : Ref sig .tc := ⟨.hbm, 46, rfl⟩
abbrev main_v23 : Ref sig .tc := ⟨.hbm, 47, rfl⟩
abbrev main_c_7 : Ref sig .tc := ⟨.hbm, 48, rfl⟩
abbrev main_c_8 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v24 : Ref sig .tc := ⟨.hbm, 55, rfl⟩
abbrev main_v25 : Ref sig .tc := ⟨.hbm, 56, rfl⟩
abbrev main_c_9 : Ref sig .tc := ⟨.hbm, 57, rfl⟩
abbrev main_c_10 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v26 : Ref sig .tc := ⟨.hbm, 64, rfl⟩
abbrev main_c_11 : Ref sig .tc := ⟨.hbm, 65, rfl⟩
abbrev main_v27 : Ref sig .tc := ⟨.hbm, 66, rfl⟩
abbrev main_v28 : Ref sig .tc := ⟨.hbm, 67, rfl⟩
abbrev main_c_12 : Ref sig .tc := ⟨.hbm, 68, rfl⟩
abbrev main_c_13 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_v29 : Ref sig .tc := ⟨.hbm, 75, rfl⟩
abbrev main_c_14 : Ref sig .tc := ⟨.hbm, 76, rfl⟩
abbrev main_v30 : Ref sig .tc := ⟨.hbm, 77, rfl⟩
abbrev main_v31 : Ref sig .tc := ⟨.hbm, 78, rfl⟩
abbrev main_c_15 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_c_16 : Ref sig .tc := ⟨.hbm, 83, rfl⟩
abbrev main_v35 : Ref sig .tc := ⟨.hbm, 84, rfl⟩
abbrev main_v36 : Ref sig .tc := ⟨.hbm, 85, rfl⟩
abbrev main_c_17 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_c_18 : Ref sig .tc := ⟨.hbm, 94, rfl⟩
abbrev main_v44 : Ref sig .tc := ⟨.hbm, 95, rfl⟩
abbrev main_v45 : Ref sig .tc := ⟨.hbm, 96, rfl⟩
abbrev main_c_19 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_c_20 : Ref sig .tc := ⟨.hbm, 101, rfl⟩
abbrev main_v49 : Ref sig .tc := ⟨.hbm, 102, rfl⟩
abbrev main_v50 : Ref sig .tc := ⟨.hbm, 103, rfl⟩
abbrev main_c_21 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_c_22 : Ref sig .tc := ⟨.hbm, 112, rfl⟩
abbrev main_v58 : Ref sig .tc := ⟨.hbm, 113, rfl⟩
abbrev main_v59 : Ref sig .tc := ⟨.hbm, 114, rfl⟩
abbrev main_c_23 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_c_24 : Ref sig .tc := ⟨.hbm, 119, rfl⟩
abbrev main_v63 : Ref sig .tc := ⟨.hbm, 120, rfl⟩
abbrev main_v64 : Ref sig .tc := ⟨.hbm, 121, rfl⟩
abbrev main_c_25 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_c_26 : Ref sig .tc := ⟨.hbm, 130, rfl⟩
abbrev main_v72 : Ref sig .tc := ⟨.hbm, 131, rfl⟩
abbrev main_v73 : Ref sig .tc := ⟨.hbm, 132, rfl⟩
abbrev main_c_27 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_c_28 : Ref sig .tc := ⟨.hbm, 137, rfl⟩
abbrev main_v77 : Ref sig .tc := ⟨.hbm, 138, rfl⟩
abbrev main_v78 : Ref sig .tc := ⟨.hbm, 139, rfl⟩
abbrev main_c_29 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_cst_30 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_cst_31 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_cst_32 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_cst_33 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_cst_34 : Ref sig .tc := ⟨.hbm, 185, rfl⟩
abbrev main_v119 : Ref sig .tc := ⟨.hbm, 186, rfl⟩
abbrev main_v120 : Ref sig .tc := ⟨.hbm, 187, rfl⟩
abbrev main_cst_35 : Ref sig .tc := ⟨.hbm, 188, rfl⟩
abbrev main_v121 : Ref sig .tc := ⟨.hbm, 189, rfl⟩
abbrev main_v122 : Ref sig .tc := ⟨.hbm, 190, rfl⟩
abbrev main_cst_36 : Ref sig .tc := ⟨.hbm, 191, rfl⟩
abbrev main_v123 : Ref sig .tc := ⟨.hbm, 192, rfl⟩
abbrev main_v124 : Ref sig .tc := ⟨.hbm, 193, rfl⟩
abbrev main_cst_37 : Ref sig .tc := ⟨.hbm, 194, rfl⟩
abbrev main_v125 : Ref sig .tc := ⟨.hbm, 195, rfl⟩
abbrev main_v126 : Ref sig .tc := ⟨.hbm, 196, rfl⟩
abbrev main_cst_38 : Ref sig .tc := ⟨.hbm, 197, rfl⟩
abbrev main_v127 : Ref sig .tc := ⟨.hbm, 198, rfl⟩
abbrev main_v128 : Ref sig .tc := ⟨.hbm, 199, rfl⟩
abbrev main_cst_39 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_c_40 : Ref sig .tc := ⟨.hbm, 208, rfl⟩
abbrev main_c_41 : Ref sig .tc := ⟨.hbm, 209, rfl⟩
abbrev main_call4_v0 : Ref sig .tc := ⟨.hbm, 210, rfl⟩
abbrev main_call4_v1 : Ref sig .tc := ⟨.hbm, 211, rfl⟩
abbrev main_call4_v2 : Ref sig .tc := ⟨.hbm, 212, rfl⟩
abbrev main_call4_v3 : Ref sig .tc := ⟨.hbm, 213, rfl⟩
abbrev main_call4_v4 : Ref sig .tc := ⟨.hbm, 214, rfl⟩
abbrev main_v136 : Ref sig .tc := ⟨.hbm, 215, rfl⟩
abbrev main_c_42 : Ref sig .tc := ⟨.hbm, 216, rfl⟩
abbrev main_v137 : Ref sig .tc := ⟨.hbm, 217, rfl⟩
abbrev main_v138 : Ref sig .tc := ⟨.hbm, 218, rfl⟩
abbrev main_c_43 : Ref sig .tc := ⟨.hbm, 219, rfl⟩
abbrev main_c_44 : Ref sig .tc := ⟨.hbm, 220, rfl⟩
abbrev main_call5_v0 : Ref sig .tc := ⟨.hbm, 221, rfl⟩
abbrev main_call5_v1 : Ref sig .tc := ⟨.hbm, 222, rfl⟩
abbrev main_call5_v2 : Ref sig .tc := ⟨.hbm, 223, rfl⟩
abbrev main_call5_v3 : Ref sig .tc := ⟨.hbm, 224, rfl⟩
abbrev main_call5_v4 : Ref sig .tc := ⟨.hbm, 225, rfl⟩
abbrev main_v139 : Ref sig .tc := ⟨.hbm, 226, rfl⟩
abbrev main_v140 : Ref sig .tc := ⟨.hbm, 227, rfl⟩
abbrev main_c_45 : Ref sig .tc := ⟨.hbm, 228, rfl⟩
abbrev main_c_46 : Ref sig .tc := ⟨.hbm, 229, rfl⟩
abbrev main_call6_v0 : Ref sig .tc := ⟨.hbm, 230, rfl⟩
abbrev main_call6_v1 : Ref sig .tc := ⟨.hbm, 231, rfl⟩
abbrev main_call6_v2 : Ref sig .tc := ⟨.hbm, 232, rfl⟩
abbrev main_call6_v3 : Ref sig .tc := ⟨.hbm, 233, rfl⟩
abbrev main_call6_v4 : Ref sig .tc := ⟨.hbm, 234, rfl⟩
abbrev main_v141 : Ref sig .tc := ⟨.hbm, 235, rfl⟩
abbrev main_c_47 : Ref sig .tc := ⟨.hbm, 236, rfl⟩
abbrev main_v142 : Ref sig .tc := ⟨.hbm, 237, rfl⟩
abbrev main_v143 : Ref sig .tc := ⟨.hbm, 238, rfl⟩
abbrev main_c_48 : Ref sig .tc := ⟨.hbm, 239, rfl⟩
abbrev main_c_49 : Ref sig .tc := ⟨.hbm, 240, rfl⟩
abbrev main_call7_v0 : Ref sig .tc := ⟨.hbm, 241, rfl⟩
abbrev main_call7_v1 : Ref sig .tc := ⟨.hbm, 242, rfl⟩
abbrev main_call7_v2 : Ref sig .tc := ⟨.hbm, 243, rfl⟩
abbrev main_call7_v3 : Ref sig .tc := ⟨.hbm, 244, rfl⟩
abbrev main_call7_v4 : Ref sig .tc := ⟨.hbm, 245, rfl⟩
abbrev main_v144 : Ref sig .tc := ⟨.hbm, 246, rfl⟩
abbrev main_c_50 : Ref sig .tc := ⟨.hbm, 247, rfl⟩
abbrev main_v145 : Ref sig .tc := ⟨.hbm, 248, rfl⟩
abbrev main_v146 : Ref sig .tc := ⟨.hbm, 249, rfl⟩
abbrev main_c_51 : Ref sig .tc := ⟨.hbm, 250, rfl⟩
abbrev main_v147 : Ref sig .tc := ⟨.hbm, 251, rfl⟩
abbrev main_v148 : Ref sig .tc := ⟨.hbm, 252, rfl⟩
abbrev main_v149 : Ref sig .tc := ⟨.hbm, 253, rfl⟩
abbrev main_c_52 : Ref sig .tc := ⟨.hbm, 254, rfl⟩
abbrev main_v150 : Ref sig .tc := ⟨.hbm, 255, rfl⟩
abbrev main_v151 : Ref sig .tc := ⟨.hbm, 256, rfl⟩
abbrev main_c_53 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_v155 : Ref sig .tc := ⟨.hbm, 261, rfl⟩
abbrev main_v156 : Ref sig .tc := ⟨.hbm, 262, rfl⟩
abbrev main_v157 : Ref sig .tc := ⟨.hbm, 263, rfl⟩
abbrev main_v158 : Ref sig .tc := ⟨.hbm, 264, rfl⟩
abbrev main_c_54 : Ref sig .tc := ⟨.hbm, 265, rfl⟩
abbrev main_v159 : Ref sig .tc := ⟨.hbm, 266, rfl⟩
abbrev main_v160 : Ref sig .tc := ⟨.hbm, 267, rfl⟩
abbrev main_c_55 : Ref sig .tc := ⟨.hbm, 268, rfl⟩
abbrev main_v161 : Ref sig .tc := ⟨.hbm, 269, rfl⟩
abbrev main_v162 : Ref sig .tc := ⟨.hbm, 270, rfl⟩
abbrev main_v163 : Ref sig .tc := ⟨.hbm, 271, rfl⟩
abbrev main_c_56 : Ref sig .tc := ⟨.hbm, 272, rfl⟩
abbrev main_v164 : Ref sig .tc := ⟨.hbm, 273, rfl⟩
abbrev main_v165 : Ref sig .tc := ⟨.hbm, 274, rfl⟩
abbrev main_c_57 : Ref sig .tc := ⟨.hbm, 275, rfl⟩
abbrev main_v166 : Ref sig .tc := ⟨.hbm, 276, rfl⟩
abbrev main_v167 : Ref sig .tc := ⟨.hbm, 277, rfl⟩
abbrev main_v168 : Ref sig .tc := ⟨.hbm, 278, rfl⟩
abbrev main_v169 : Ref sig .tc := ⟨.hbm, 279, rfl⟩
abbrev main_v170 : Ref sig .tc := ⟨.hbm, 280, rfl⟩
abbrev main_v171 : Ref sig .tc := ⟨.hbm, 281, rfl⟩
abbrev main_v172 : Ref sig .tc := ⟨.hbm, 282, rfl⟩
abbrev main_c_58 : Ref sig .tc := ⟨.hbm, 283, rfl⟩
abbrev main_v173 : Ref sig .tc := ⟨.hbm, 284, rfl⟩
abbrev main_v174 : Ref sig .tc := ⟨.hbm, 285, rfl⟩
abbrev main_c_59 : Ref sig .tc := ⟨.hbm, 286, rfl⟩
abbrev main_v175 : Ref sig .tc := ⟨.hbm, 287, rfl⟩
abbrev main_v176 : Ref sig .tc := ⟨.hbm, 288, rfl⟩
abbrev main_v177 : Ref sig .tc := ⟨.hbm, 289, rfl⟩
abbrev main_c_60 : Ref sig .tc := ⟨.hbm, 290, rfl⟩
abbrev main_v178 : Ref sig .tc := ⟨.hbm, 291, rfl⟩
abbrev main_v179 : Ref sig .tc := ⟨.hbm, 292, rfl⟩
abbrev main_c_61 : Ref sig .tc := ⟨.hbm, 293, rfl⟩
abbrev main_v180 : Ref sig .tc := ⟨.hbm, 294, rfl⟩
abbrev main_v181 : Ref sig .tc := ⟨.hbm, 295, rfl⟩
abbrev main_v182 : Ref sig .tc := ⟨.hbm, 296, rfl⟩
abbrev main_v183 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_c_62 : Ref sig .tc := ⟨.hbm, 301, rfl⟩
abbrev main_v187 : Ref sig .tc := ⟨.hbm, 302, rfl⟩
abbrev main_v188 : Ref sig .tc := ⟨.hbm, 303, rfl⟩
abbrev main_c_63 : Ref sig .tc := ⟨.hbm, 304, rfl⟩
abbrev main_v189 : Ref sig .tc := ⟨.hbm, 305, rfl⟩
abbrev main_v190 : Ref sig .tc := ⟨.hbm, 306, rfl⟩
abbrev main_v191 : Ref sig .tc := ⟨.hbm, 307, rfl⟩
abbrev main_c_64 : Ref sig .tc := ⟨.hbm, 308, rfl⟩
abbrev main_v192 : Ref sig .tc := ⟨.hbm, 309, rfl⟩
abbrev main_v193 : Ref sig .tc := ⟨.hbm, 310, rfl⟩
abbrev main_c_65 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_v197 : Ref sig .tc := ⟨.hbm, 315, rfl⟩
abbrev main_v198 : Ref sig .tc := ⟨.hbm, 316, rfl⟩
abbrev main_v199 : Ref sig .tc := ⟨.hbm, 317, rfl⟩
abbrev main_v200 : Ref sig .tc := ⟨.hbm, 318, rfl⟩
abbrev main_cst_66 : Ref sig .tc := ⟨.hbm, 319, rfl⟩
abbrev main_v201 : Ref sig .tc := ⟨.hbm, 320, rfl⟩
abbrev main_v202 : Ref sig .tc := ⟨.hbm, 321, rfl⟩
abbrev main_v203 : Ref sig .tc := ⟨.hbm, 322, rfl⟩
abbrev main_v204 : Ref sig .tc := ⟨.hbm, 323, rfl⟩
abbrev main_v205 : Ref sig .tc := ⟨.hbm, 324, rfl⟩
abbrev main_v206 : Ref sig .tc := ⟨.hbm, 325, rfl⟩
abbrev main_v207 : Ref sig .tc := ⟨.hbm, 326, rfl⟩
abbrev main_v208 : Ref sig .tc := ⟨.hbm, 327, rfl⟩
abbrev main_v209 : Ref sig .tc := ⟨.hbm, 328, rfl⟩
abbrev main_cst_67 : Ref sig .tc := ⟨.hbm, 329, rfl⟩
abbrev main_v210 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_v214 : Ref sig .tc := ⟨.hbm, 334, rfl⟩
abbrev main_v215 : Ref sig .tc := ⟨.hbm, 335, rfl⟩
abbrev main_v216 : Ref sig .tc := ⟨.hbm, 336, rfl⟩
abbrev main_v217 : Ref sig .tc := ⟨.hbm, 337, rfl⟩
abbrev main_v218 : Ref sig .tc := ⟨.hbm, 338, rfl⟩
abbrev main_cst_68 : Ref sig .tc := ⟨.hbm, 339, rfl⟩
abbrev main_v219 : Ref sig .tc := ⟨.hbm, 340, rfl⟩
abbrev main_v220 : Ref sig .tc := ⟨.hbm, 341, rfl⟩
abbrev main_v221 : Ref sig .tc := ⟨.hbm, 342, rfl⟩
abbrev main_v222 : Ref sig .tc := ⟨.hbm, 343, rfl⟩
abbrev main_v223 : Ref sig .tc := ⟨.hbm, 344, rfl⟩
abbrev main_v224 : Ref sig .tc := ⟨.hbm, 345, rfl⟩
abbrev main_v225 : Ref sig .tc := ⟨.hbm, 346, rfl⟩
abbrev main_v226 : Ref sig .tc := ⟨.hbm, 347, rfl⟩
abbrev main_v227 : Ref sig .tc := ⟨.hbm, 348, rfl⟩
abbrev main_v228 : Ref sig .tc := ⟨.hbm, 349, rfl⟩
abbrev main_v229 : Ref sig .tc := ⟨.hbm, 350, rfl⟩
abbrev main_v230 : Ref sig .tc := ⟨.hbm, 351, rfl⟩
abbrev main_v231 : Ref sig .tc := ⟨.hbm, 352, rfl⟩
abbrev main_v232 : Ref sig .tc := ⟨.hbm, 353, rfl⟩
abbrev main_cst_69 : Ref sig .tc := ⟨.hbm, 354, rfl⟩
abbrev main_v233 : Ref sig .tc := ⟨.hbm, 355, rfl⟩
abbrev main_v234 : Ref sig .tc := ⟨.hbm, 356, rfl⟩
abbrev main_cst_70 : Ref sig .tc := ⟨.hbm, 357, rfl⟩
abbrev main_v235 : Ref sig .tc := ⟨.hbm, 358, rfl⟩
abbrev main_v236 : Ref sig .tc := ⟨.hbm, 359, rfl⟩
abbrev main_cst_71 : Ref sig .tc := ⟨.hbm, 360, rfl⟩
abbrev main_v237 : Ref sig .tc := ⟨.hbm, 361, rfl⟩
abbrev main_v238 : Ref sig .tc := ⟨.hbm, 362, rfl⟩
abbrev main_cst_72 : Ref sig .tc := ⟨.hbm, 363, rfl⟩
abbrev main_v239 : Ref sig .tc := ⟨.hbm, 364, rfl⟩
abbrev main_v240 : Ref sig .tc := ⟨.hbm, 365, rfl⟩
abbrev main_cst_73 : Ref sig .tc := ⟨.hbm, 366, rfl⟩
abbrev main_v241 : Ref sig .tc := ⟨.hbm, 367, rfl⟩
abbrev main_v242 : Ref sig .tc := ⟨.hbm, 368, rfl⟩
abbrev main_cst_74 : Ref sig .tc := ⟨.hbm, 369, rfl⟩
abbrev main_v243 : Ref sig .tc := ⟨.hbm, 370, rfl⟩
abbrev main_v244 : Ref sig .tc := ⟨.hbm, 371, rfl⟩
abbrev main_v245 : Ref sig .tc := ⟨.hbm, 372, rfl⟩
abbrev main_v246 : Ref sig .tc := ⟨.hbm, 373, rfl⟩
abbrev main_v247 : Ref sig .tc := ⟨.hbm, 374, rfl⟩
abbrev main_v248 : Ref sig .tc := ⟨.hbm, 375, rfl⟩
abbrev main_v249 : Ref sig .tc := ⟨.hbm, 376, rfl⟩
abbrev main_c_75 : Ref sig .tc := ⟨.hbm, 377, rfl⟩
abbrev main_c_76 : Ref sig .tc := ⟨.hbm, 378, rfl⟩
abbrev main_call8_v0 : Ref sig .tc := ⟨.hbm, 379, rfl⟩
abbrev main_call8_v1 : Ref sig .tc := ⟨.hbm, 380, rfl⟩
abbrev main_call8_v2 : Ref sig .tc := ⟨.hbm, 381, rfl⟩
abbrev main_call8_v3 : Ref sig .tc := ⟨.hbm, 382, rfl⟩
abbrev main_call8_v4 : Ref sig .tc := ⟨.hbm, 383, rfl⟩
abbrev main_v250 : Ref sig .tc := ⟨.hbm, 384, rfl⟩
abbrev main_c_77 : Ref sig .tc := ⟨.hbm, 385, rfl⟩
abbrev main_v251 : Ref sig .tc := ⟨.hbm, 386, rfl⟩
abbrev main_v252 : Ref sig .tc := ⟨.hbm, 387, rfl⟩
abbrev main_c_78 : Ref sig .tc := ⟨.hbm, 388, rfl⟩
abbrev main_c_79 : Ref sig .tc := ⟨.hbm, 389, rfl⟩
abbrev main_call9_v0 : Ref sig .tc := ⟨.hbm, 390, rfl⟩
abbrev main_call9_v1 : Ref sig .tc := ⟨.hbm, 391, rfl⟩
abbrev main_call9_v2 : Ref sig .tc := ⟨.hbm, 392, rfl⟩
abbrev main_call9_v3 : Ref sig .tc := ⟨.hbm, 393, rfl⟩
abbrev main_call9_v4 : Ref sig .tc := ⟨.hbm, 394, rfl⟩
abbrev main_v253 : Ref sig .tc := ⟨.hbm, 395, rfl⟩
abbrev main_v254 : Ref sig .tc := ⟨.hbm, 396, rfl⟩
abbrev main_c_80 : Ref sig .tc := ⟨.hbm, 397, rfl⟩
abbrev main_c_81 : Ref sig .tc := ⟨.hbm, 398, rfl⟩
abbrev main_call10_v0 : Ref sig .tc := ⟨.hbm, 399, rfl⟩
abbrev main_call10_v1 : Ref sig .tc := ⟨.hbm, 400, rfl⟩
abbrev main_call10_v2 : Ref sig .tc := ⟨.hbm, 401, rfl⟩
abbrev main_call10_v3 : Ref sig .tc := ⟨.hbm, 402, rfl⟩
abbrev main_call10_v4 : Ref sig .tc := ⟨.hbm, 403, rfl⟩
abbrev main_v255 : Ref sig .tc := ⟨.hbm, 404, rfl⟩
abbrev main_c_82 : Ref sig .tc := ⟨.hbm, 405, rfl⟩
abbrev main_v256 : Ref sig .tc := ⟨.hbm, 406, rfl⟩
abbrev main_v257 : Ref sig .tc := ⟨.hbm, 407, rfl⟩
abbrev main_c_83 : Ref sig .tc := ⟨.hbm, 408, rfl⟩
abbrev main_c_84 : Ref sig .tc := ⟨.hbm, 409, rfl⟩
abbrev main_call11_v0 : Ref sig .tc := ⟨.hbm, 410, rfl⟩
abbrev main_call11_v1 : Ref sig .tc := ⟨.hbm, 411, rfl⟩
abbrev main_call11_v2 : Ref sig .tc := ⟨.hbm, 412, rfl⟩
abbrev main_call11_v3 : Ref sig .tc := ⟨.hbm, 413, rfl⟩
abbrev main_call11_v4 : Ref sig .tc := ⟨.hbm, 414, rfl⟩
abbrev main_v258 : Ref sig .tc := ⟨.hbm, 415, rfl⟩
abbrev main_c_85 : Ref sig .tc := ⟨.hbm, 416, rfl⟩
abbrev main_v259 : Ref sig .tc := ⟨.hbm, 417, rfl⟩
abbrev main_v260 : Ref sig .tc := ⟨.hbm, 418, rfl⟩
abbrev main_c_86 : Ref sig .tc := ⟨.hbm, 419, rfl⟩
abbrev main_v261 : Ref sig .tc := ⟨.hbm, 420, rfl⟩
abbrev main_v262 : Ref sig .tc := ⟨.hbm, 421, rfl⟩
abbrev main_v263 : Ref sig .tc := ⟨.hbm, 422, rfl⟩
abbrev main_c_87 : Ref sig .tc := ⟨.hbm, 423, rfl⟩
abbrev main_v264 : Ref sig .tc := ⟨.hbm, 424, rfl⟩
abbrev main_v265 : Ref sig .tc := ⟨.hbm, 425, rfl⟩
abbrev main_c_88 : Ref sig .tc := ⟨.hbm, 426, rfl⟩
abbrev main_v266 : Ref sig .tc := ⟨.hbm, 427, rfl⟩
abbrev main_v267 : Ref sig .tc := ⟨.hbm, 428, rfl⟩
abbrev main_v268 : Ref sig .tc := ⟨.hbm, 429, rfl⟩
abbrev main_v269 : Ref sig .tc := ⟨.hbm, 430, rfl⟩
abbrev main_v270 : Ref sig .tc := ⟨.hbm, 431, rfl⟩
abbrev main_v271 : Ref sig .tc := ⟨.hbm, 432, rfl⟩
abbrev main_v272 : Ref sig .tc := ⟨.hbm, 433, rfl⟩
abbrev main_c_89 : Ref sig .tc := ⟨.hbm, 434, rfl⟩
abbrev main_v273 : Ref sig .tc := ⟨.hbm, 435, rfl⟩
abbrev main_v274 : Ref sig .tc := ⟨.hbm, 436, rfl⟩
abbrev main_c_90 : Ref sig .tc := ⟨.hbm, 437, rfl⟩
abbrev main_v275 : Ref sig .tc := ⟨.hbm, 438, rfl⟩
abbrev main_v276 : Ref sig .tc := ⟨.hbm, 439, rfl⟩
abbrev main_v277 : Ref sig .tc := ⟨.hbm, 440, rfl⟩
abbrev main_c_91 : Ref sig .tc := ⟨.hbm, 441, rfl⟩
abbrev main_v278 : Ref sig .tc := ⟨.hbm, 442, rfl⟩
abbrev main_v279 : Ref sig .tc := ⟨.hbm, 443, rfl⟩
abbrev main_c_92 : Ref sig .tc := ⟨.hbm, 444, rfl⟩
abbrev main_v280 : Ref sig .tc := ⟨.hbm, 445, rfl⟩
abbrev main_v281 : Ref sig .tc := ⟨.hbm, 446, rfl⟩
abbrev main_v282 : Ref sig .tc := ⟨.hbm, 447, rfl⟩
abbrev main_v283 : Ref sig .tc := ⟨.hbm, 448, rfl⟩
abbrev main_v284 : Ref sig .tc := ⟨.hbm, 449, rfl⟩
abbrev main_v285 : Ref sig .tc := ⟨.hbm, 450, rfl⟩
abbrev main_v286 : Ref sig .tc := ⟨.hbm, 451, rfl⟩
abbrev main_c_93 : Ref sig .tc := ⟨.hbm, 452, rfl⟩
abbrev main_v287 : Ref sig .tc := ⟨.hbm, 453, rfl⟩
abbrev main_v288 : Ref sig .tc := ⟨.hbm, 454, rfl⟩
abbrev main_c_94 : Ref sig .tc := ⟨.hbm, 455, rfl⟩
abbrev main_v289 : Ref sig .tc := ⟨.hbm, 456, rfl⟩
abbrev main_v290 : Ref sig .tc := ⟨.hbm, 457, rfl⟩
abbrev main_v291 : Ref sig .tc := ⟨.hbm, 458, rfl⟩
abbrev main_c_95 : Ref sig .tc := ⟨.hbm, 459, rfl⟩
abbrev main_v292 : Ref sig .tc := ⟨.hbm, 460, rfl⟩
abbrev main_v293 : Ref sig .tc := ⟨.hbm, 461, rfl⟩
abbrev main_c_96 : Ref sig .tc := ⟨.hbm, 462, rfl⟩
abbrev main_v294 : Ref sig .tc := ⟨.hbm, 463, rfl⟩
abbrev main_v295 : Ref sig .tc := ⟨.hbm, 464, rfl⟩
abbrev main_v296 : Ref sig .tc := ⟨.hbm, 465, rfl⟩
abbrev main_v297 : Ref sig .tc := ⟨.hbm, 466, rfl⟩
abbrev main_v298 : Ref sig .tc := ⟨.hbm, 467, rfl⟩
abbrev main_v299 : Ref sig .tc := ⟨.hbm, 468, rfl⟩
abbrev main_v300 : Ref sig .tc := ⟨.hbm, 469, rfl⟩
abbrev main_c_97 : Ref sig .tc := ⟨.hbm, 470, rfl⟩
abbrev main_v301 : Ref sig .tc := ⟨.hbm, 471, rfl⟩
abbrev main_v302 : Ref sig .tc := ⟨.hbm, 472, rfl⟩
abbrev main_c_98 : Ref sig .tc := ⟨.hbm, 473, rfl⟩
abbrev main_v303 : Ref sig .tc := ⟨.hbm, 474, rfl⟩
abbrev main_v304 : Ref sig .tc := ⟨.hbm, 475, rfl⟩
abbrev main_v305 : Ref sig .tc := ⟨.hbm, 476, rfl⟩
abbrev main_c_99 : Ref sig .tc := ⟨.hbm, 477, rfl⟩
abbrev main_v306 : Ref sig .tc := ⟨.hbm, 478, rfl⟩
abbrev main_v307 : Ref sig .tc := ⟨.hbm, 479, rfl⟩
abbrev main_c_100 : Ref sig .tc := ⟨.hbm, 480, rfl⟩
abbrev main_v308 : Ref sig .tc := ⟨.hbm, 481, rfl⟩
abbrev main_v309 : Ref sig .tc := ⟨.hbm, 482, rfl⟩
abbrev main_v310 : Ref sig .tc := ⟨.hbm, 483, rfl⟩
abbrev main_v311 : Ref sig .tc := ⟨.hbm, 484, rfl⟩
abbrev main_v312 : Ref sig .tc := ⟨.hbm, 485, rfl⟩
abbrev main_v313 : Ref sig .tc := ⟨.hbm, 486, rfl⟩
abbrev main_v314 : Ref sig .tc := ⟨.hbm, 487, rfl⟩
abbrev main_cst_101 : Ref sig .tc := ⟨.hbm, 488, rfl⟩
abbrev main_v315 : Ref sig .tc := ⟨.hbm, 489, rfl⟩
abbrev main_v316 : Ref sig .tc := ⟨.hbm, 490, rfl⟩
abbrev main_v317 : Ref sig .tc := ⟨.hbm, 491, rfl⟩
abbrev main_v318 : Ref sig .tc := ⟨.hbm, 492, rfl⟩
abbrev main_v319 : Ref sig .tc := ⟨.hbm, 493, rfl⟩
abbrev main_v320 : Ref sig .tc := ⟨.hbm, 494, rfl⟩
abbrev main_v321 : Ref sig .tc := ⟨.hbm, 495, rfl⟩
abbrev main_v322 : Ref sig .tc := ⟨.hbm, 496, rfl⟩
abbrev main_v323 : Ref sig .tc := ⟨.hbm, 497, rfl⟩
abbrev main_cst_102 : Ref sig .tc := ⟨.hbm, 498, rfl⟩
abbrev main_v324 : Ref sig .tc := ⟨.hbm, 499, rfl⟩
abbrev main_v325 : Ref sig .tc := ⟨.hbm, 500, rfl⟩
abbrev main_v326 : Ref sig .tc := ⟨.hbm, 501, rfl⟩
abbrev main_v327 : Ref sig .tc := ⟨.hbm, 502, rfl⟩
abbrev main_v328 : Ref sig .tc := ⟨.hbm, 503, rfl⟩
abbrev main_v329 : Ref sig .tc := ⟨.hbm, 504, rfl⟩
abbrev main_v330 : Ref sig .tc := ⟨.hbm, 505, rfl⟩
abbrev main_v331 : Ref sig .tc := ⟨.hbm, 506, rfl⟩
abbrev main_v332 : Ref sig .tc := ⟨.hbm, 507, rfl⟩
abbrev main_cst_103 : Ref sig .tc := ⟨.hbm, 508, rfl⟩
abbrev main_v333 : Ref sig .tc := ⟨.hbm, 509, rfl⟩
abbrev main_v334 : Ref sig .tc := ⟨.hbm, 510, rfl⟩
abbrev main_v335 : Ref sig .tc := ⟨.hbm, 511, rfl⟩
abbrev main_v336 : Ref sig .tc := ⟨.hbm, 512, rfl⟩
abbrev main_v337 : Ref sig .tc := ⟨.hbm, 513, rfl⟩
abbrev main_v338 : Ref sig .tc := ⟨.hbm, 514, rfl⟩
abbrev main_v339 : Ref sig .tc := ⟨.hbm, 515, rfl⟩
abbrev main_v340 : Ref sig .tc := ⟨.hbm, 516, rfl⟩
abbrev main_v341 : Ref sig .tc := ⟨.hbm, 517, rfl⟩
abbrev main_v342 : Ref sig .tc := ⟨.hbm, 518, rfl⟩
abbrev main_v343 : Ref sig .tc := ⟨.hbm, 519, rfl⟩
abbrev main_v344 : Ref sig .tc := ⟨.hbm, 520, rfl⟩
abbrev main_v345 : Ref sig .tc := ⟨.hbm, 521, rfl⟩
abbrev main_v346 : Ref sig .tc := ⟨.hbm, 522, rfl⟩
abbrev main_v347 : Ref sig .tc := ⟨.hbm, 523, rfl⟩
abbrev main_cst_104 : Ref sig .tc := ⟨.hbm, 524, rfl⟩
abbrev main_v348 : Ref sig .tc := ⟨.hbm, 525, rfl⟩
abbrev main_v349 : Ref sig .tc := ⟨.hbm, 526, rfl⟩
abbrev main_cst_105 : Ref sig .tc := ⟨.hbm, 527, rfl⟩
abbrev main_v350 : Ref sig .tc := ⟨.hbm, 528, rfl⟩
abbrev main_v351 : Ref sig .tc := ⟨.hbm, 529, rfl⟩
abbrev main_cst_106 : Ref sig .tc := ⟨.hbm, 530, rfl⟩
abbrev main_v352 : Ref sig .tc := ⟨.hbm, 531, rfl⟩
abbrev main_v353 : Ref sig .tc := ⟨.hbm, 532, rfl⟩
abbrev main_cst_107 : Ref sig .tc := ⟨.hbm, 533, rfl⟩
abbrev main_v354 : Ref sig .tc := ⟨.hbm, 534, rfl⟩
abbrev main_v355 : Ref sig .tc := ⟨.hbm, 535, rfl⟩
abbrev main_cst_108 : Ref sig .tc := ⟨.hbm, 536, rfl⟩
abbrev main_v356 : Ref sig .tc := ⟨.hbm, 537, rfl⟩
abbrev main_v357 : Ref sig .tc := ⟨.hbm, 538, rfl⟩
abbrev main_cst_109 : Ref sig .tc := ⟨.hbm, 539, rfl⟩
abbrev main_v358 : Ref sig .tc := ⟨.hbm, 540, rfl⟩
abbrev main_v359 : Ref sig .tc := ⟨.hbm, 541, rfl⟩
abbrev main_v360 : Ref sig .tc := ⟨.hbm, 542, rfl⟩
abbrev main_v361 : Ref sig .tc := ⟨.hbm, 543, rfl⟩
abbrev main_v362 : Ref sig .tc := ⟨.hbm, 544, rfl⟩
abbrev main_v363 : Ref sig .tc := ⟨.hbm, 545, rfl⟩
abbrev main_v364 : Ref sig .tc := ⟨.hbm, 546, rfl⟩
abbrev main_c_110 : Ref sig .tc := ⟨.hbm, 547, rfl⟩
abbrev main_c_111 : Ref sig .tc := ⟨.hbm, 548, rfl⟩
abbrev main_call12_v0 : Ref sig .tc := ⟨.hbm, 549, rfl⟩
abbrev main_call12_v1 : Ref sig .tc := ⟨.hbm, 550, rfl⟩
abbrev main_call12_v2 : Ref sig .tc := ⟨.hbm, 551, rfl⟩
abbrev main_call12_v3 : Ref sig .tc := ⟨.hbm, 552, rfl⟩
abbrev main_call12_v4 : Ref sig .tc := ⟨.hbm, 553, rfl⟩
abbrev main_v365 : Ref sig .tc := ⟨.hbm, 554, rfl⟩
abbrev main_c_112 : Ref sig .tc := ⟨.hbm, 555, rfl⟩
abbrev main_v366 : Ref sig .tc := ⟨.hbm, 556, rfl⟩
abbrev main_v367 : Ref sig .tc := ⟨.hbm, 557, rfl⟩
abbrev main_c_113 : Ref sig .tc := ⟨.hbm, 558, rfl⟩
abbrev main_c_114 : Ref sig .tc := ⟨.hbm, 559, rfl⟩
abbrev main_call13_v0 : Ref sig .tc := ⟨.hbm, 560, rfl⟩
abbrev main_call13_v1 : Ref sig .tc := ⟨.hbm, 561, rfl⟩
abbrev main_call13_v2 : Ref sig .tc := ⟨.hbm, 562, rfl⟩
abbrev main_call13_v3 : Ref sig .tc := ⟨.hbm, 563, rfl⟩
abbrev main_call13_v4 : Ref sig .tc := ⟨.hbm, 564, rfl⟩
abbrev main_v368 : Ref sig .tc := ⟨.hbm, 565, rfl⟩
abbrev main_v369 : Ref sig .tc := ⟨.hbm, 566, rfl⟩
abbrev main_c_115 : Ref sig .tc := ⟨.hbm, 567, rfl⟩
abbrev main_c_116 : Ref sig .tc := ⟨.hbm, 568, rfl⟩
abbrev main_call14_v0 : Ref sig .tc := ⟨.hbm, 569, rfl⟩
abbrev main_call14_v1 : Ref sig .tc := ⟨.hbm, 570, rfl⟩
abbrev main_call14_v2 : Ref sig .tc := ⟨.hbm, 571, rfl⟩
abbrev main_call14_v3 : Ref sig .tc := ⟨.hbm, 572, rfl⟩
abbrev main_call14_v4 : Ref sig .tc := ⟨.hbm, 573, rfl⟩
abbrev main_v370 : Ref sig .tc := ⟨.hbm, 574, rfl⟩
abbrev main_c_117 : Ref sig .tc := ⟨.hbm, 575, rfl⟩
abbrev main_v371 : Ref sig .tc := ⟨.hbm, 576, rfl⟩
abbrev main_v372 : Ref sig .tc := ⟨.hbm, 577, rfl⟩
abbrev main_c_118 : Ref sig .tc := ⟨.hbm, 578, rfl⟩
abbrev main_c_119 : Ref sig .tc := ⟨.hbm, 579, rfl⟩
abbrev main_call15_v0 : Ref sig .tc := ⟨.hbm, 580, rfl⟩
abbrev main_call15_v1 : Ref sig .tc := ⟨.hbm, 581, rfl⟩
abbrev main_call15_v2 : Ref sig .tc := ⟨.hbm, 582, rfl⟩
abbrev main_call15_v3 : Ref sig .tc := ⟨.hbm, 583, rfl⟩
abbrev main_call15_v4 : Ref sig .tc := ⟨.hbm, 584, rfl⟩
abbrev main_v373 : Ref sig .tc := ⟨.hbm, 585, rfl⟩
abbrev main_c_120 : Ref sig .tc := ⟨.hbm, 586, rfl⟩
abbrev main_v374 : Ref sig .tc := ⟨.hbm, 587, rfl⟩
abbrev main_v375 : Ref sig .tc := ⟨.hbm, 588, rfl⟩
abbrev main_c_121 : Ref sig .tc := ⟨.hbm, 589, rfl⟩
abbrev main_v376 : Ref sig .tc := ⟨.hbm, 590, rfl⟩
abbrev main_v377 : Ref sig .tc := ⟨.hbm, 591, rfl⟩
abbrev main_v378 : Ref sig .tc := ⟨.hbm, 592, rfl⟩
abbrev main_c_122 : Ref sig .tc := ⟨.hbm, 593, rfl⟩
abbrev main_v379 : Ref sig .tc := ⟨.hbm, 594, rfl⟩
abbrev main_v380 : Ref sig .tc := ⟨.hbm, 595, rfl⟩
abbrev main_c_123 : Ref sig .tc := ⟨.hbm, 596, rfl⟩
abbrev main_v381 : Ref sig .tc := ⟨.hbm, 597, rfl⟩
abbrev main_v382 : Ref sig .tc := ⟨.hbm, 598, rfl⟩
abbrev main_v383 : Ref sig .tc := ⟨.hbm, 599, rfl⟩
abbrev main_v384 : Ref sig .tc := ⟨.hbm, 600, rfl⟩
abbrev main_v385 : Ref sig .tc := ⟨.hbm, 601, rfl⟩
abbrev main_v386 : Ref sig .tc := ⟨.hbm, 602, rfl⟩
abbrev main_v387 : Ref sig .tc := ⟨.hbm, 603, rfl⟩
abbrev main_c_124 : Ref sig .tc := ⟨.hbm, 604, rfl⟩
abbrev main_v388 : Ref sig .tc := ⟨.hbm, 605, rfl⟩
abbrev main_v389 : Ref sig .tc := ⟨.hbm, 606, rfl⟩
abbrev main_c_125 : Ref sig .tc := ⟨.hbm, 607, rfl⟩
abbrev main_v390 : Ref sig .tc := ⟨.hbm, 608, rfl⟩
abbrev main_v391 : Ref sig .tc := ⟨.hbm, 609, rfl⟩
abbrev main_v392 : Ref sig .tc := ⟨.hbm, 610, rfl⟩
abbrev main_c_126 : Ref sig .tc := ⟨.hbm, 611, rfl⟩
abbrev main_v393 : Ref sig .tc := ⟨.hbm, 612, rfl⟩
abbrev main_v394 : Ref sig .tc := ⟨.hbm, 613, rfl⟩
abbrev main_c_127 : Ref sig .tc := ⟨.hbm, 614, rfl⟩
abbrev main_v395 : Ref sig .tc := ⟨.hbm, 615, rfl⟩
abbrev main_v396 : Ref sig .tc := ⟨.hbm, 616, rfl⟩
abbrev main_v397 : Ref sig .tc := ⟨.hbm, 617, rfl⟩
abbrev main_v398 : Ref sig .tc := ⟨.hbm, 618, rfl⟩
abbrev main_v399 : Ref sig .tc := ⟨.hbm, 619, rfl⟩
abbrev main_v400 : Ref sig .tc := ⟨.hbm, 620, rfl⟩
abbrev main_v401 : Ref sig .tc := ⟨.hbm, 621, rfl⟩
abbrev main_c_128 : Ref sig .tc := ⟨.hbm, 622, rfl⟩
abbrev main_v402 : Ref sig .tc := ⟨.hbm, 623, rfl⟩
abbrev main_v403 : Ref sig .tc := ⟨.hbm, 624, rfl⟩
abbrev main_c_129 : Ref sig .tc := ⟨.hbm, 625, rfl⟩
abbrev main_v404 : Ref sig .tc := ⟨.hbm, 626, rfl⟩
abbrev main_v405 : Ref sig .tc := ⟨.hbm, 627, rfl⟩
abbrev main_v406 : Ref sig .tc := ⟨.hbm, 628, rfl⟩
abbrev main_c_130 : Ref sig .tc := ⟨.hbm, 629, rfl⟩
abbrev main_v407 : Ref sig .tc := ⟨.hbm, 630, rfl⟩
abbrev main_v408 : Ref sig .tc := ⟨.hbm, 631, rfl⟩
abbrev main_c_131 : Ref sig .tc := ⟨.hbm, 632, rfl⟩
abbrev main_v409 : Ref sig .tc := ⟨.hbm, 633, rfl⟩
abbrev main_v410 : Ref sig .tc := ⟨.hbm, 634, rfl⟩
abbrev main_v411 : Ref sig .tc := ⟨.hbm, 635, rfl⟩
abbrev main_v412 : Ref sig .tc := ⟨.hbm, 636, rfl⟩
abbrev main_v413 : Ref sig .tc := ⟨.hbm, 637, rfl⟩
abbrev main_v414 : Ref sig .tc := ⟨.hbm, 638, rfl⟩
abbrev main_v415 : Ref sig .tc := ⟨.hbm, 639, rfl⟩
abbrev main_c_132 : Ref sig .tc := ⟨.hbm, 640, rfl⟩
abbrev main_v416 : Ref sig .tc := ⟨.hbm, 641, rfl⟩
abbrev main_v417 : Ref sig .tc := ⟨.hbm, 642, rfl⟩
abbrev main_c_133 : Ref sig .tc := ⟨.hbm, 643, rfl⟩
abbrev main_v418 : Ref sig .tc := ⟨.hbm, 644, rfl⟩
abbrev main_v419 : Ref sig .tc := ⟨.hbm, 645, rfl⟩
abbrev main_v420 : Ref sig .tc := ⟨.hbm, 646, rfl⟩
abbrev main_c_134 : Ref sig .tc := ⟨.hbm, 647, rfl⟩
abbrev main_v421 : Ref sig .tc := ⟨.hbm, 648, rfl⟩
abbrev main_v422 : Ref sig .tc := ⟨.hbm, 649, rfl⟩
abbrev main_c_135 : Ref sig .tc := ⟨.hbm, 650, rfl⟩
abbrev main_v423 : Ref sig .tc := ⟨.hbm, 651, rfl⟩
abbrev main_v424 : Ref sig .tc := ⟨.hbm, 652, rfl⟩
abbrev main_v425 : Ref sig .tc := ⟨.hbm, 653, rfl⟩
abbrev main_v426 : Ref sig .tc := ⟨.hbm, 654, rfl⟩
abbrev main_v427 : Ref sig .tc := ⟨.hbm, 655, rfl⟩
abbrev main_v428 : Ref sig .tc := ⟨.hbm, 656, rfl⟩
abbrev main_v429 : Ref sig .tc := ⟨.hbm, 657, rfl⟩
abbrev main_cst_136 : Ref sig .tc := ⟨.hbm, 658, rfl⟩
abbrev main_v430 : Ref sig .tc := ⟨.hbm, 659, rfl⟩
abbrev main_v431 : Ref sig .tc := ⟨.hbm, 660, rfl⟩
abbrev main_v432 : Ref sig .tc := ⟨.hbm, 661, rfl⟩
abbrev main_v433 : Ref sig .tc := ⟨.hbm, 662, rfl⟩
abbrev main_v434 : Ref sig .tc := ⟨.hbm, 663, rfl⟩
abbrev main_v435 : Ref sig .tc := ⟨.hbm, 664, rfl⟩
abbrev main_v436 : Ref sig .tc := ⟨.hbm, 665, rfl⟩
abbrev main_v437 : Ref sig .tc := ⟨.hbm, 666, rfl⟩
abbrev main_v438 : Ref sig .tc := ⟨.hbm, 667, rfl⟩
abbrev main_cst_137 : Ref sig .tc := ⟨.hbm, 668, rfl⟩
abbrev main_v439 : Ref sig .tc := ⟨.hbm, 669, rfl⟩
abbrev main_v440 : Ref sig .tc := ⟨.hbm, 670, rfl⟩
abbrev main_v441 : Ref sig .tc := ⟨.hbm, 671, rfl⟩
abbrev main_v442 : Ref sig .tc := ⟨.hbm, 672, rfl⟩
abbrev main_v443 : Ref sig .tc := ⟨.hbm, 673, rfl⟩
abbrev main_v444 : Ref sig .tc := ⟨.hbm, 674, rfl⟩
abbrev main_v445 : Ref sig .tc := ⟨.hbm, 675, rfl⟩
abbrev main_v446 : Ref sig .tc := ⟨.hbm, 676, rfl⟩
abbrev main_v447 : Ref sig .tc := ⟨.hbm, 677, rfl⟩
abbrev main_cst_138 : Ref sig .tc := ⟨.hbm, 678, rfl⟩
abbrev main_v448 : Ref sig .tc := ⟨.hbm, 679, rfl⟩
abbrev main_v449 : Ref sig .tc := ⟨.hbm, 680, rfl⟩
abbrev main_v450 : Ref sig .tc := ⟨.hbm, 681, rfl⟩
abbrev main_v451 : Ref sig .tc := ⟨.hbm, 682, rfl⟩
abbrev main_v452 : Ref sig .tc := ⟨.hbm, 683, rfl⟩
abbrev main_v453 : Ref sig .tc := ⟨.hbm, 684, rfl⟩
abbrev main_v454 : Ref sig .tc := ⟨.hbm, 685, rfl⟩
abbrev main_v455 : Ref sig .tc := ⟨.hbm, 686, rfl⟩
abbrev main_v456 : Ref sig .tc := ⟨.hbm, 687, rfl⟩
abbrev main_cst_139 : Ref sig .tc := ⟨.hbm, 688, rfl⟩
abbrev main_v457 : Ref sig .tc := ⟨.hbm, 689, rfl⟩
abbrev main_v458 : Ref sig .tc := ⟨.hbm, 690, rfl⟩
abbrev main_v459 : Ref sig .tc := ⟨.hbm, 691, rfl⟩
abbrev main_v460 : Ref sig .tc := ⟨.hbm, 692, rfl⟩
abbrev main_v461 : Ref sig .tc := ⟨.hbm, 693, rfl⟩
abbrev main_v462 : Ref sig .tc := ⟨.hbm, 694, rfl⟩
abbrev main_cst_140 : Ref sig .tc := ⟨.hbm, 695, rfl⟩
abbrev main_v463 : Ref sig .tc := ⟨.hbm, 696, rfl⟩
abbrev main_v464 : Ref sig .tc := ⟨.hbm, 697, rfl⟩
abbrev main_cst_141 : Ref sig .tc := ⟨.hbm, 698, rfl⟩
abbrev main_v465 : Ref sig .tc := ⟨.hbm, 699, rfl⟩
abbrev main_v466 : Ref sig .tc := ⟨.hbm, 700, rfl⟩
abbrev main_cst_142 : Ref sig .tc := ⟨.hbm, 701, rfl⟩
abbrev main_v467 : Ref sig .tc := ⟨.hbm, 702, rfl⟩
abbrev main_v468 : Ref sig .tc := ⟨.hbm, 703, rfl⟩
abbrev main_cst_143 : Ref sig .tc := ⟨.hbm, 704, rfl⟩
abbrev main_v469 : Ref sig .tc := ⟨.hbm, 705, rfl⟩
abbrev main_v470 : Ref sig .tc := ⟨.hbm, 706, rfl⟩
abbrev main_cst_144 : Ref sig .tc := ⟨.hbm, 707, rfl⟩
abbrev main_v471 : Ref sig .tc := ⟨.hbm, 708, rfl⟩
abbrev main_v472 : Ref sig .tc := ⟨.hbm, 709, rfl⟩
abbrev main_cst_145 : Ref sig .tc := ⟨.hbm, 710, rfl⟩
abbrev main_v473 : Ref sig .tc := ⟨.hbm, 711, rfl⟩
abbrev main_v474 : Ref sig .tc := ⟨.hbm, 712, rfl⟩
abbrev main_v475 : Ref sig .tc := ⟨.hbm, 713, rfl⟩
abbrev main_v476 : Ref sig .tc := ⟨.hbm, 714, rfl⟩
abbrev main_v477 : Ref sig .tc := ⟨.hbm, 715, rfl⟩
abbrev main_v478 : Ref sig .tc := ⟨.hbm, 716, rfl⟩
abbrev main_v479 : Ref sig .tc := ⟨.hbm, 717, rfl⟩
abbrev main_c_146 : Ref sig .tc := ⟨.hbm, 718, rfl⟩
abbrev main_c_147 : Ref sig .tc := ⟨.hbm, 719, rfl⟩
abbrev main_call16_v0 : Ref sig .tc := ⟨.hbm, 720, rfl⟩
abbrev main_call16_v1 : Ref sig .tc := ⟨.hbm, 721, rfl⟩
abbrev main_call16_v2 : Ref sig .tc := ⟨.hbm, 722, rfl⟩
abbrev main_call16_v3 : Ref sig .tc := ⟨.hbm, 723, rfl⟩
abbrev main_call16_v4 : Ref sig .tc := ⟨.hbm, 724, rfl⟩
abbrev main_v480 : Ref sig .tc := ⟨.hbm, 725, rfl⟩
abbrev main_c_148 : Ref sig .tc := ⟨.hbm, 726, rfl⟩
abbrev main_v481 : Ref sig .tc := ⟨.hbm, 727, rfl⟩
abbrev main_v482 : Ref sig .tc := ⟨.hbm, 728, rfl⟩
abbrev main_c_149 : Ref sig .tc := ⟨.hbm, 729, rfl⟩
abbrev main_c_150 : Ref sig .tc := ⟨.hbm, 730, rfl⟩
abbrev main_call17_v0 : Ref sig .tc := ⟨.hbm, 731, rfl⟩
abbrev main_call17_v1 : Ref sig .tc := ⟨.hbm, 732, rfl⟩
abbrev main_call17_v2 : Ref sig .tc := ⟨.hbm, 733, rfl⟩
abbrev main_call17_v3 : Ref sig .tc := ⟨.hbm, 734, rfl⟩
abbrev main_call17_v4 : Ref sig .tc := ⟨.hbm, 735, rfl⟩
abbrev main_v483 : Ref sig .tc := ⟨.hbm, 736, rfl⟩
abbrev main_v484 : Ref sig .tc := ⟨.hbm, 737, rfl⟩
abbrev main_c_151 : Ref sig .tc := ⟨.hbm, 738, rfl⟩
abbrev main_c_152 : Ref sig .tc := ⟨.hbm, 739, rfl⟩
abbrev main_call18_v0 : Ref sig .tc := ⟨.hbm, 740, rfl⟩
abbrev main_call18_v1 : Ref sig .tc := ⟨.hbm, 741, rfl⟩
abbrev main_call18_v2 : Ref sig .tc := ⟨.hbm, 742, rfl⟩
abbrev main_call18_v3 : Ref sig .tc := ⟨.hbm, 743, rfl⟩
abbrev main_call18_v4 : Ref sig .tc := ⟨.hbm, 744, rfl⟩
abbrev main_v485 : Ref sig .tc := ⟨.hbm, 745, rfl⟩
abbrev main_c_153 : Ref sig .tc := ⟨.hbm, 746, rfl⟩
abbrev main_v486 : Ref sig .tc := ⟨.hbm, 747, rfl⟩
abbrev main_v487 : Ref sig .tc := ⟨.hbm, 748, rfl⟩
abbrev main_c_154 : Ref sig .tc := ⟨.hbm, 749, rfl⟩
abbrev main_c_155 : Ref sig .tc := ⟨.hbm, 750, rfl⟩
abbrev main_call19_v0 : Ref sig .tc := ⟨.hbm, 751, rfl⟩
abbrev main_call19_v1 : Ref sig .tc := ⟨.hbm, 752, rfl⟩
abbrev main_call19_v2 : Ref sig .tc := ⟨.hbm, 753, rfl⟩
abbrev main_call19_v3 : Ref sig .tc := ⟨.hbm, 754, rfl⟩
abbrev main_call19_v4 : Ref sig .tc := ⟨.hbm, 755, rfl⟩
abbrev main_v488 : Ref sig .tc := ⟨.hbm, 756, rfl⟩
abbrev main_c_156 : Ref sig .tc := ⟨.hbm, 757, rfl⟩
abbrev main_v489 : Ref sig .tc := ⟨.hbm, 758, rfl⟩
abbrev main_v490 : Ref sig .tc := ⟨.hbm, 759, rfl⟩
abbrev main_c_157 : Ref sig .tc := ⟨.hbm, 760, rfl⟩
abbrev main_v491 : Ref sig .tc := ⟨.hbm, 761, rfl⟩
abbrev main_v492 : Ref sig .tc := ⟨.hbm, 762, rfl⟩
abbrev main_v493 : Ref sig .tc := ⟨.hbm, 763, rfl⟩
abbrev main_c_158 : Ref sig .tc := ⟨.hbm, 764, rfl⟩
abbrev main_v494 : Ref sig .tc := ⟨.hbm, 765, rfl⟩
abbrev main_v495 : Ref sig .tc := ⟨.hbm, 766, rfl⟩
abbrev main_c_159 : Ref sig .tc := ⟨.hbm, 767, rfl⟩
abbrev main_v496 : Ref sig .tc := ⟨.hbm, 768, rfl⟩
abbrev main_v497 : Ref sig .tc := ⟨.hbm, 769, rfl⟩
abbrev main_v498 : Ref sig .tc := ⟨.hbm, 770, rfl⟩
abbrev main_v499 : Ref sig .tc := ⟨.hbm, 771, rfl⟩
abbrev main_v500 : Ref sig .tc := ⟨.hbm, 772, rfl⟩
abbrev main_v501 : Ref sig .tc := ⟨.hbm, 773, rfl⟩
abbrev main_v502 : Ref sig .tc := ⟨.hbm, 774, rfl⟩
abbrev main_c_160 : Ref sig .tc := ⟨.hbm, 775, rfl⟩
abbrev main_v503 : Ref sig .tc := ⟨.hbm, 776, rfl⟩
abbrev main_v504 : Ref sig .tc := ⟨.hbm, 777, rfl⟩
abbrev main_c_161 : Ref sig .tc := ⟨.hbm, 778, rfl⟩
abbrev main_v505 : Ref sig .tc := ⟨.hbm, 779, rfl⟩
abbrev main_v506 : Ref sig .tc := ⟨.hbm, 780, rfl⟩
abbrev main_v507 : Ref sig .tc := ⟨.hbm, 781, rfl⟩
abbrev main_c_162 : Ref sig .tc := ⟨.hbm, 782, rfl⟩
abbrev main_v508 : Ref sig .tc := ⟨.hbm, 783, rfl⟩
abbrev main_v509 : Ref sig .tc := ⟨.hbm, 784, rfl⟩
abbrev main_c_163 : Ref sig .tc := ⟨.hbm, 785, rfl⟩
abbrev main_v510 : Ref sig .tc := ⟨.hbm, 786, rfl⟩
abbrev main_v511 : Ref sig .tc := ⟨.hbm, 787, rfl⟩
abbrev main_v512 : Ref sig .tc := ⟨.hbm, 788, rfl⟩
abbrev main_v513 : Ref sig .tc := ⟨.hbm, 789, rfl⟩
abbrev main_v514 : Ref sig .tc := ⟨.hbm, 790, rfl⟩
abbrev main_v515 : Ref sig .tc := ⟨.hbm, 791, rfl⟩
abbrev main_v516 : Ref sig .tc := ⟨.hbm, 792, rfl⟩
abbrev main_c_164 : Ref sig .tc := ⟨.hbm, 793, rfl⟩
abbrev main_v517 : Ref sig .tc := ⟨.hbm, 794, rfl⟩
abbrev main_v518 : Ref sig .tc := ⟨.hbm, 795, rfl⟩
abbrev main_c_165 : Ref sig .tc := ⟨.hbm, 796, rfl⟩
abbrev main_v519 : Ref sig .tc := ⟨.hbm, 797, rfl⟩
abbrev main_v520 : Ref sig .tc := ⟨.hbm, 798, rfl⟩
abbrev main_v521 : Ref sig .tc := ⟨.hbm, 799, rfl⟩
abbrev main_c_166 : Ref sig .tc := ⟨.hbm, 800, rfl⟩
abbrev main_v522 : Ref sig .tc := ⟨.hbm, 801, rfl⟩
abbrev main_v523 : Ref sig .tc := ⟨.hbm, 802, rfl⟩
abbrev main_c_167 : Ref sig .tc := ⟨.hbm, 803, rfl⟩
abbrev main_v524 : Ref sig .tc := ⟨.hbm, 804, rfl⟩
abbrev main_v525 : Ref sig .tc := ⟨.hbm, 805, rfl⟩
abbrev main_v526 : Ref sig .tc := ⟨.hbm, 806, rfl⟩
abbrev main_v527 : Ref sig .tc := ⟨.hbm, 807, rfl⟩
abbrev main_v528 : Ref sig .tc := ⟨.hbm, 808, rfl⟩
abbrev main_v529 : Ref sig .tc := ⟨.hbm, 809, rfl⟩
abbrev main_v530 : Ref sig .tc := ⟨.hbm, 810, rfl⟩
abbrev main_c_168 : Ref sig .tc := ⟨.hbm, 811, rfl⟩
abbrev main_v531 : Ref sig .tc := ⟨.hbm, 812, rfl⟩
abbrev main_v532 : Ref sig .tc := ⟨.hbm, 813, rfl⟩
abbrev main_c_169 : Ref sig .tc := ⟨.hbm, 814, rfl⟩
abbrev main_v533 : Ref sig .tc := ⟨.hbm, 815, rfl⟩
abbrev main_v534 : Ref sig .tc := ⟨.hbm, 816, rfl⟩
abbrev main_v535 : Ref sig .tc := ⟨.hbm, 817, rfl⟩
abbrev main_c_170 : Ref sig .tc := ⟨.hbm, 818, rfl⟩
abbrev main_v536 : Ref sig .tc := ⟨.hbm, 819, rfl⟩
abbrev main_v537 : Ref sig .tc := ⟨.hbm, 820, rfl⟩
abbrev main_c_171 : Ref sig .tc := ⟨.hbm, 821, rfl⟩
abbrev main_v538 : Ref sig .tc := ⟨.hbm, 822, rfl⟩
abbrev main_v539 : Ref sig .tc := ⟨.hbm, 823, rfl⟩
abbrev main_v540 : Ref sig .tc := ⟨.hbm, 824, rfl⟩
abbrev main_v541 : Ref sig .tc := ⟨.hbm, 825, rfl⟩
abbrev main_v542 : Ref sig .tc := ⟨.hbm, 826, rfl⟩
abbrev main_v543 : Ref sig .tc := ⟨.hbm, 827, rfl⟩
abbrev main_v544 : Ref sig .tc := ⟨.hbm, 828, rfl⟩
abbrev main_cst_172 : Ref sig .tc := ⟨.hbm, 829, rfl⟩
abbrev main_v545 : Ref sig .tc := ⟨.hbm, 830, rfl⟩
abbrev main_v546 : Ref sig .tc := ⟨.hbm, 831, rfl⟩
abbrev main_v547 : Ref sig .tc := ⟨.hbm, 832, rfl⟩
abbrev main_v548 : Ref sig .tc := ⟨.hbm, 833, rfl⟩
abbrev main_v549 : Ref sig .tc := ⟨.hbm, 834, rfl⟩
abbrev main_v550 : Ref sig .tc := ⟨.hbm, 835, rfl⟩
abbrev main_v551 : Ref sig .tc := ⟨.hbm, 836, rfl⟩
abbrev main_v552 : Ref sig .tc := ⟨.hbm, 837, rfl⟩
abbrev main_v553 : Ref sig .tc := ⟨.hbm, 838, rfl⟩
abbrev main_cst_173 : Ref sig .tc := ⟨.hbm, 839, rfl⟩
abbrev main_v554 : Ref sig .tc := ⟨.hbm, 840, rfl⟩
abbrev main_v555 : Ref sig .tc := ⟨.hbm, 841, rfl⟩
abbrev main_v556 : Ref sig .tc := ⟨.hbm, 842, rfl⟩
abbrev main_v557 : Ref sig .tc := ⟨.hbm, 843, rfl⟩
abbrev main_v558 : Ref sig .tc := ⟨.hbm, 844, rfl⟩
abbrev main_v559 : Ref sig .tc := ⟨.hbm, 845, rfl⟩
abbrev main_v560 : Ref sig .tc := ⟨.hbm, 846, rfl⟩
abbrev main_v561 : Ref sig .tc := ⟨.hbm, 847, rfl⟩
abbrev main_v562 : Ref sig .tc := ⟨.hbm, 848, rfl⟩
abbrev main_cst_174 : Ref sig .tc := ⟨.hbm, 849, rfl⟩
abbrev main_v563 : Ref sig .tc := ⟨.hbm, 850, rfl⟩
abbrev main_v564 : Ref sig .tc := ⟨.hbm, 851, rfl⟩
abbrev main_v565 : Ref sig .tc := ⟨.hbm, 852, rfl⟩
abbrev main_v566 : Ref sig .tc := ⟨.hbm, 853, rfl⟩
abbrev main_v567 : Ref sig .tc := ⟨.hbm, 854, rfl⟩
abbrev main_v568 : Ref sig .tc := ⟨.hbm, 855, rfl⟩
abbrev main_v569 : Ref sig .tc := ⟨.hbm, 856, rfl⟩
abbrev main_v570 : Ref sig .tc := ⟨.hbm, 857, rfl⟩
abbrev main_v571 : Ref sig .tc := ⟨.hbm, 858, rfl⟩
abbrev main_v572 : Ref sig .tc := ⟨.hbm, 859, rfl⟩
abbrev main_v573 : Ref sig .tc := ⟨.hbm, 860, rfl⟩
abbrev main_v574 : Ref sig .tc := ⟨.hbm, 861, rfl⟩
abbrev main_v575 : Ref sig .tc := ⟨.hbm, 862, rfl⟩
abbrev main_v576 : Ref sig .tc := ⟨.hbm, 863, rfl⟩
abbrev main_cst_175 : Ref sig .tc := ⟨.hbm, 864, rfl⟩
abbrev main_v577 : Ref sig .tc := ⟨.hbm, 865, rfl⟩
abbrev main_v578 : Ref sig .tc := ⟨.hbm, 866, rfl⟩
abbrev main_cst_176 : Ref sig .tc := ⟨.hbm, 867, rfl⟩
abbrev main_v579 : Ref sig .tc := ⟨.hbm, 868, rfl⟩
abbrev main_v580 : Ref sig .tc := ⟨.hbm, 869, rfl⟩
abbrev main_cst_177 : Ref sig .tc := ⟨.hbm, 870, rfl⟩
abbrev main_v581 : Ref sig .tc := ⟨.hbm, 871, rfl⟩
abbrev main_v582 : Ref sig .tc := ⟨.hbm, 872, rfl⟩
abbrev main_cst_178 : Ref sig .tc := ⟨.hbm, 873, rfl⟩
abbrev main_v583 : Ref sig .tc := ⟨.hbm, 874, rfl⟩
abbrev main_v584 : Ref sig .tc := ⟨.hbm, 875, rfl⟩
abbrev main_cst_179 : Ref sig .tc := ⟨.hbm, 876, rfl⟩
abbrev main_v585 : Ref sig .tc := ⟨.hbm, 877, rfl⟩
abbrev main_v586 : Ref sig .tc := ⟨.hbm, 878, rfl⟩
abbrev main_cst_180 : Ref sig .tc := ⟨.hbm, 879, rfl⟩
abbrev main_v587 : Ref sig .tc := ⟨.hbm, 880, rfl⟩
abbrev main_v588 : Ref sig .tc := ⟨.hbm, 881, rfl⟩
abbrev main_v589 : Ref sig .tc := ⟨.hbm, 882, rfl⟩
abbrev main_v590 : Ref sig .tc := ⟨.hbm, 883, rfl⟩
abbrev main_v591 : Ref sig .tc := ⟨.hbm, 884, rfl⟩
abbrev main_v592 : Ref sig .tc := ⟨.hbm, 885, rfl⟩
abbrev main_v593 : Ref sig .tc := ⟨.hbm, 886, rfl⟩
abbrev main_c_181 : Ref sig .tc := ⟨.hbm, 887, rfl⟩
abbrev main_c_182 : Ref sig .tc := ⟨.hbm, 888, rfl⟩
abbrev main_call20_v0 : Ref sig .tc := ⟨.hbm, 889, rfl⟩
abbrev main_call20_v1 : Ref sig .tc := ⟨.hbm, 890, rfl⟩
abbrev main_call20_v2 : Ref sig .tc := ⟨.hbm, 891, rfl⟩
abbrev main_call20_v3 : Ref sig .tc := ⟨.hbm, 892, rfl⟩
abbrev main_call20_v4 : Ref sig .tc := ⟨.hbm, 893, rfl⟩
abbrev main_v594 : Ref sig .tc := ⟨.hbm, 894, rfl⟩
abbrev main_c_183 : Ref sig .tc := ⟨.hbm, 895, rfl⟩
abbrev main_v595 : Ref sig .tc := ⟨.hbm, 896, rfl⟩
abbrev main_v596 : Ref sig .tc := ⟨.hbm, 897, rfl⟩
abbrev main_c_184 : Ref sig .tc := ⟨.hbm, 898, rfl⟩
abbrev main_c_185 : Ref sig .tc := ⟨.hbm, 899, rfl⟩
abbrev main_call21_v0 : Ref sig .tc := ⟨.hbm, 900, rfl⟩
abbrev main_call21_v1 : Ref sig .tc := ⟨.hbm, 901, rfl⟩
abbrev main_call21_v2 : Ref sig .tc := ⟨.hbm, 902, rfl⟩
abbrev main_call21_v3 : Ref sig .tc := ⟨.hbm, 903, rfl⟩
abbrev main_call21_v4 : Ref sig .tc := ⟨.hbm, 904, rfl⟩
abbrev main_v597 : Ref sig .tc := ⟨.hbm, 905, rfl⟩
abbrev main_v598 : Ref sig .tc := ⟨.hbm, 906, rfl⟩
abbrev main_c_186 : Ref sig .tc := ⟨.hbm, 907, rfl⟩
abbrev main_c_187 : Ref sig .tc := ⟨.hbm, 908, rfl⟩
abbrev main_call22_v0 : Ref sig .tc := ⟨.hbm, 909, rfl⟩
abbrev main_call22_v1 : Ref sig .tc := ⟨.hbm, 910, rfl⟩
abbrev main_call22_v2 : Ref sig .tc := ⟨.hbm, 911, rfl⟩
abbrev main_call22_v3 : Ref sig .tc := ⟨.hbm, 912, rfl⟩
abbrev main_call22_v4 : Ref sig .tc := ⟨.hbm, 913, rfl⟩
abbrev main_v599 : Ref sig .tc := ⟨.hbm, 914, rfl⟩
abbrev main_c_188 : Ref sig .tc := ⟨.hbm, 915, rfl⟩
abbrev main_v600 : Ref sig .tc := ⟨.hbm, 916, rfl⟩
abbrev main_v601 : Ref sig .tc := ⟨.hbm, 917, rfl⟩
abbrev main_c_189 : Ref sig .tc := ⟨.hbm, 918, rfl⟩
abbrev main_c_190 : Ref sig .tc := ⟨.hbm, 919, rfl⟩
abbrev main_call23_v0 : Ref sig .tc := ⟨.hbm, 920, rfl⟩
abbrev main_call23_v1 : Ref sig .tc := ⟨.hbm, 921, rfl⟩
abbrev main_call23_v2 : Ref sig .tc := ⟨.hbm, 922, rfl⟩
abbrev main_call23_v3 : Ref sig .tc := ⟨.hbm, 923, rfl⟩
abbrev main_call23_v4 : Ref sig .tc := ⟨.hbm, 924, rfl⟩
abbrev main_v602 : Ref sig .tc := ⟨.hbm, 925, rfl⟩
abbrev main_c_191 : Ref sig .tc := ⟨.hbm, 926, rfl⟩
abbrev main_v603 : Ref sig .tc := ⟨.hbm, 927, rfl⟩
abbrev main_v604 : Ref sig .tc := ⟨.hbm, 928, rfl⟩
abbrev main_c_192 : Ref sig .tc := ⟨.hbm, 929, rfl⟩
abbrev main_v605 : Ref sig .tc := ⟨.hbm, 930, rfl⟩
abbrev main_v606 : Ref sig .tc := ⟨.hbm, 931, rfl⟩
abbrev main_v607 : Ref sig .tc := ⟨.hbm, 932, rfl⟩
abbrev main_c_193 : Ref sig .tc := ⟨.hbm, 933, rfl⟩
abbrev main_v608 : Ref sig .tc := ⟨.hbm, 934, rfl⟩
abbrev main_v609 : Ref sig .tc := ⟨.hbm, 935, rfl⟩
abbrev main_c_194 : Ref sig .tc := ⟨.hbm, 936, rfl⟩
abbrev main_v610 : Ref sig .tc := ⟨.hbm, 937, rfl⟩
abbrev main_v611 : Ref sig .tc := ⟨.hbm, 938, rfl⟩
abbrev main_v612 : Ref sig .tc := ⟨.hbm, 939, rfl⟩
abbrev main_v613 : Ref sig .tc := ⟨.hbm, 940, rfl⟩
abbrev main_v614 : Ref sig .tc := ⟨.hbm, 941, rfl⟩
abbrev main_v615 : Ref sig .tc := ⟨.hbm, 942, rfl⟩
abbrev main_v616 : Ref sig .tc := ⟨.hbm, 943, rfl⟩
abbrev main_c_195 : Ref sig .tc := ⟨.hbm, 944, rfl⟩
abbrev main_v617 : Ref sig .tc := ⟨.hbm, 945, rfl⟩
abbrev main_v618 : Ref sig .tc := ⟨.hbm, 946, rfl⟩
abbrev main_c_196 : Ref sig .tc := ⟨.hbm, 947, rfl⟩
abbrev main_v619 : Ref sig .tc := ⟨.hbm, 948, rfl⟩
abbrev main_v620 : Ref sig .tc := ⟨.hbm, 949, rfl⟩
abbrev main_v621 : Ref sig .tc := ⟨.hbm, 950, rfl⟩
abbrev main_c_197 : Ref sig .tc := ⟨.hbm, 951, rfl⟩
abbrev main_v622 : Ref sig .tc := ⟨.hbm, 952, rfl⟩
abbrev main_v623 : Ref sig .tc := ⟨.hbm, 953, rfl⟩
abbrev main_c_198 : Ref sig .tc := ⟨.hbm, 954, rfl⟩
abbrev main_v624 : Ref sig .tc := ⟨.hbm, 955, rfl⟩
abbrev main_v625 : Ref sig .tc := ⟨.hbm, 956, rfl⟩
abbrev main_v626 : Ref sig .tc := ⟨.hbm, 957, rfl⟩
abbrev main_v627 : Ref sig .tc := ⟨.hbm, 958, rfl⟩
abbrev main_v628 : Ref sig .tc := ⟨.hbm, 959, rfl⟩
abbrev main_v629 : Ref sig .tc := ⟨.hbm, 960, rfl⟩
abbrev main_v630 : Ref sig .tc := ⟨.hbm, 961, rfl⟩
abbrev main_c_199 : Ref sig .tc := ⟨.hbm, 962, rfl⟩
abbrev main_v631 : Ref sig .tc := ⟨.hbm, 963, rfl⟩
abbrev main_v632 : Ref sig .tc := ⟨.hbm, 964, rfl⟩
abbrev main_c_200 : Ref sig .tc := ⟨.hbm, 965, rfl⟩
abbrev main_v633 : Ref sig .tc := ⟨.hbm, 966, rfl⟩
abbrev main_v634 : Ref sig .tc := ⟨.hbm, 967, rfl⟩
abbrev main_v635 : Ref sig .tc := ⟨.hbm, 968, rfl⟩
abbrev main_c_201 : Ref sig .tc := ⟨.hbm, 969, rfl⟩
abbrev main_v636 : Ref sig .tc := ⟨.hbm, 970, rfl⟩
abbrev main_v637 : Ref sig .tc := ⟨.hbm, 971, rfl⟩
abbrev main_c_202 : Ref sig .tc := ⟨.hbm, 972, rfl⟩
abbrev main_v638 : Ref sig .tc := ⟨.hbm, 973, rfl⟩
abbrev main_v639 : Ref sig .tc := ⟨.hbm, 974, rfl⟩
abbrev main_v640 : Ref sig .tc := ⟨.hbm, 975, rfl⟩
abbrev main_v641 : Ref sig .tc := ⟨.hbm, 976, rfl⟩
abbrev main_v642 : Ref sig .tc := ⟨.hbm, 977, rfl⟩
abbrev main_v643 : Ref sig .tc := ⟨.hbm, 978, rfl⟩
abbrev main_v644 : Ref sig .tc := ⟨.hbm, 979, rfl⟩
abbrev main_c_203 : Ref sig .tc := ⟨.hbm, 980, rfl⟩
abbrev main_v645 : Ref sig .tc := ⟨.hbm, 981, rfl⟩
abbrev main_v646 : Ref sig .tc := ⟨.hbm, 982, rfl⟩
abbrev main_c_204 : Ref sig .tc := ⟨.hbm, 983, rfl⟩
abbrev main_v647 : Ref sig .tc := ⟨.hbm, 984, rfl⟩
abbrev main_v648 : Ref sig .tc := ⟨.hbm, 985, rfl⟩
abbrev main_v649 : Ref sig .tc := ⟨.hbm, 986, rfl⟩
abbrev main_c_205 : Ref sig .tc := ⟨.hbm, 987, rfl⟩
abbrev main_v650 : Ref sig .tc := ⟨.hbm, 988, rfl⟩
abbrev main_v651 : Ref sig .tc := ⟨.hbm, 989, rfl⟩
abbrev main_c_206 : Ref sig .tc := ⟨.hbm, 990, rfl⟩
abbrev main_v652 : Ref sig .tc := ⟨.hbm, 991, rfl⟩
abbrev main_v653 : Ref sig .tc := ⟨.hbm, 992, rfl⟩
abbrev main_v654 : Ref sig .tc := ⟨.hbm, 993, rfl⟩
abbrev main_v655 : Ref sig .tc := ⟨.hbm, 994, rfl⟩
abbrev main_v656 : Ref sig .tc := ⟨.hbm, 995, rfl⟩
abbrev main_v657 : Ref sig .tc := ⟨.hbm, 996, rfl⟩
abbrev main_v658 : Ref sig .tc := ⟨.hbm, 997, rfl⟩
abbrev main_cst_207 : Ref sig .tc := ⟨.hbm, 998, rfl⟩
abbrev main_v659 : Ref sig .tc := ⟨.hbm, 999, rfl⟩
abbrev main_v660 : Ref sig .tc := ⟨.hbm, 1000, rfl⟩
abbrev main_v661 : Ref sig .tc := ⟨.hbm, 1001, rfl⟩
abbrev main_v662 : Ref sig .tc := ⟨.hbm, 1002, rfl⟩
abbrev main_v663 : Ref sig .tc := ⟨.hbm, 1003, rfl⟩
abbrev main_v664 : Ref sig .tc := ⟨.hbm, 1004, rfl⟩
abbrev main_v665 : Ref sig .tc := ⟨.hbm, 1005, rfl⟩
abbrev main_v666 : Ref sig .tc := ⟨.hbm, 1006, rfl⟩
abbrev main_v667 : Ref sig .tc := ⟨.hbm, 1007, rfl⟩
abbrev main_cst_208 : Ref sig .tc := ⟨.hbm, 1008, rfl⟩
abbrev main_v668 : Ref sig .tc := ⟨.hbm, 1009, rfl⟩
abbrev main_v669 : Ref sig .tc := ⟨.hbm, 1010, rfl⟩
abbrev main_v670 : Ref sig .tc := ⟨.hbm, 1011, rfl⟩
abbrev main_v671 : Ref sig .tc := ⟨.hbm, 1012, rfl⟩
abbrev main_v672 : Ref sig .tc := ⟨.hbm, 1013, rfl⟩
abbrev main_v673 : Ref sig .tc := ⟨.hbm, 1014, rfl⟩
abbrev main_v674 : Ref sig .tc := ⟨.hbm, 1015, rfl⟩
abbrev main_v675 : Ref sig .tc := ⟨.hbm, 1016, rfl⟩
abbrev main_v676 : Ref sig .tc := ⟨.hbm, 1017, rfl⟩
abbrev main_cst_209 : Ref sig .tc := ⟨.hbm, 1018, rfl⟩
abbrev main_v677 : Ref sig .tc := ⟨.hbm, 1019, rfl⟩
abbrev main_v678 : Ref sig .tc := ⟨.hbm, 1020, rfl⟩
abbrev main_v679 : Ref sig .tc := ⟨.hbm, 1021, rfl⟩
abbrev main_v680 : Ref sig .tc := ⟨.hbm, 1022, rfl⟩
abbrev main_v681 : Ref sig .tc := ⟨.hbm, 1023, rfl⟩
abbrev main_v682 : Ref sig .tc := ⟨.hbm, 1024, rfl⟩
abbrev main_v683 : Ref sig .tc := ⟨.hbm, 1025, rfl⟩
abbrev main_v684 : Ref sig .tc := ⟨.hbm, 1026, rfl⟩
abbrev main_v685 : Ref sig .tc := ⟨.hbm, 1027, rfl⟩
abbrev main_v686 : Ref sig .tc := ⟨.hbm, 1028, rfl⟩
abbrev main_v687 : Ref sig .tc := ⟨.hbm, 1029, rfl⟩
abbrev main_v688 : Ref sig .tc := ⟨.hbm, 1030, rfl⟩
abbrev main_v689 : Ref sig .tc := ⟨.hbm, 1031, rfl⟩
abbrev main_v690 : Ref sig .tc := ⟨.hbm, 1032, rfl⟩
abbrev main_v691 : Ref sig .tc := ⟨.hbm, 1033, rfl⟩
abbrev main_cst_210 : Ref sig .tc := ⟨.hbm, 1034, rfl⟩
abbrev main_v692 : Ref sig .tc := ⟨.hbm, 1035, rfl⟩
abbrev main_v693 : Ref sig .tc := ⟨.hbm, 1036, rfl⟩
abbrev main_cst_211 : Ref sig .tc := ⟨.hbm, 1037, rfl⟩
abbrev main_v694 : Ref sig .tc := ⟨.hbm, 1038, rfl⟩
abbrev main_v695 : Ref sig .tc := ⟨.hbm, 1039, rfl⟩
abbrev main_cst_212 : Ref sig .tc := ⟨.hbm, 1040, rfl⟩
abbrev main_v696 : Ref sig .tc := ⟨.hbm, 1041, rfl⟩
abbrev main_v697 : Ref sig .tc := ⟨.hbm, 1042, rfl⟩
abbrev main_cst_213 : Ref sig .tc := ⟨.hbm, 1043, rfl⟩
abbrev main_v698 : Ref sig .tc := ⟨.hbm, 1044, rfl⟩
abbrev main_v699 : Ref sig .tc := ⟨.hbm, 1045, rfl⟩
abbrev main_cst_214 : Ref sig .tc := ⟨.hbm, 1046, rfl⟩
abbrev main_v700 : Ref sig .tc := ⟨.hbm, 1047, rfl⟩
abbrev main_v701 : Ref sig .tc := ⟨.hbm, 1048, rfl⟩
abbrev main_cst_215 : Ref sig .tc := ⟨.hbm, 1049, rfl⟩
abbrev main_v702 : Ref sig .tc := ⟨.hbm, 1050, rfl⟩
abbrev main_v703 : Ref sig .tc := ⟨.hbm, 1051, rfl⟩
abbrev main_v704 : Ref sig .tc := ⟨.hbm, 1052, rfl⟩
abbrev main_v705 : Ref sig .tc := ⟨.hbm, 1053, rfl⟩
abbrev main_v706 : Ref sig .tc := ⟨.hbm, 1054, rfl⟩
abbrev main_v707 : Ref sig .tc := ⟨.hbm, 1055, rfl⟩
abbrev main_v708 : Ref sig .tc := ⟨.hbm, 1056, rfl⟩
abbrev main_c_216 : Ref sig .tc := ⟨.hbm, 1057, rfl⟩
abbrev main_c_217 : Ref sig .tc := ⟨.hbm, 1058, rfl⟩
abbrev main_call24_v0 : Ref sig .tc := ⟨.hbm, 1059, rfl⟩
abbrev main_call24_v1 : Ref sig .tc := ⟨.hbm, 1060, rfl⟩
abbrev main_call24_v2 : Ref sig .tc := ⟨.hbm, 1061, rfl⟩
abbrev main_call24_v3 : Ref sig .tc := ⟨.hbm, 1062, rfl⟩
abbrev main_call24_v4 : Ref sig .tc := ⟨.hbm, 1063, rfl⟩
abbrev main_v709 : Ref sig .tc := ⟨.hbm, 1064, rfl⟩
abbrev main_c_218 : Ref sig .tc := ⟨.hbm, 1065, rfl⟩
abbrev main_v710 : Ref sig .tc := ⟨.hbm, 1066, rfl⟩
abbrev main_v711 : Ref sig .tc := ⟨.hbm, 1067, rfl⟩
abbrev main_c_219 : Ref sig .tc := ⟨.hbm, 1068, rfl⟩
abbrev main_c_220 : Ref sig .tc := ⟨.hbm, 1069, rfl⟩
abbrev main_call25_v0 : Ref sig .tc := ⟨.hbm, 1070, rfl⟩
abbrev main_call25_v1 : Ref sig .tc := ⟨.hbm, 1071, rfl⟩
abbrev main_call25_v2 : Ref sig .tc := ⟨.hbm, 1072, rfl⟩
abbrev main_call25_v3 : Ref sig .tc := ⟨.hbm, 1073, rfl⟩
abbrev main_call25_v4 : Ref sig .tc := ⟨.hbm, 1074, rfl⟩
abbrev main_v712 : Ref sig .tc := ⟨.hbm, 1075, rfl⟩
abbrev main_v713 : Ref sig .tc := ⟨.hbm, 1076, rfl⟩
abbrev main_c_221 : Ref sig .tc := ⟨.hbm, 1077, rfl⟩
abbrev main_c_222 : Ref sig .tc := ⟨.hbm, 1078, rfl⟩
abbrev main_call26_v0 : Ref sig .tc := ⟨.hbm, 1079, rfl⟩
abbrev main_call26_v1 : Ref sig .tc := ⟨.hbm, 1080, rfl⟩
abbrev main_call26_v2 : Ref sig .tc := ⟨.hbm, 1081, rfl⟩
abbrev main_call26_v3 : Ref sig .tc := ⟨.hbm, 1082, rfl⟩
abbrev main_call26_v4 : Ref sig .tc := ⟨.hbm, 1083, rfl⟩
abbrev main_v714 : Ref sig .tc := ⟨.hbm, 1084, rfl⟩
abbrev main_c_223 : Ref sig .tc := ⟨.hbm, 1085, rfl⟩
abbrev main_v715 : Ref sig .tc := ⟨.hbm, 1086, rfl⟩
abbrev main_v716 : Ref sig .tc := ⟨.hbm, 1087, rfl⟩
abbrev main_c_224 : Ref sig .tc := ⟨.hbm, 1088, rfl⟩
abbrev main_c_225 : Ref sig .tc := ⟨.hbm, 1089, rfl⟩
abbrev main_call27_v0 : Ref sig .tc := ⟨.hbm, 1090, rfl⟩
abbrev main_call27_v1 : Ref sig .tc := ⟨.hbm, 1091, rfl⟩
abbrev main_call27_v2 : Ref sig .tc := ⟨.hbm, 1092, rfl⟩
abbrev main_call27_v3 : Ref sig .tc := ⟨.hbm, 1093, rfl⟩
abbrev main_call27_v4 : Ref sig .tc := ⟨.hbm, 1094, rfl⟩
abbrev main_v717 : Ref sig .tc := ⟨.hbm, 1095, rfl⟩
abbrev main_c_226 : Ref sig .tc := ⟨.hbm, 1096, rfl⟩
abbrev main_v718 : Ref sig .tc := ⟨.hbm, 1097, rfl⟩
abbrev main_v719 : Ref sig .tc := ⟨.hbm, 1098, rfl⟩
abbrev main_c_227 : Ref sig .tc := ⟨.hbm, 1099, rfl⟩
abbrev main_v720 : Ref sig .tc := ⟨.hbm, 1100, rfl⟩
abbrev main_v721 : Ref sig .tc := ⟨.hbm, 1101, rfl⟩
abbrev main_v722 : Ref sig .tc := ⟨.hbm, 1102, rfl⟩
abbrev main_c_228 : Ref sig .tc := ⟨.hbm, 1103, rfl⟩
abbrev main_v723 : Ref sig .tc := ⟨.hbm, 1104, rfl⟩
abbrev main_v724 : Ref sig .tc := ⟨.hbm, 1105, rfl⟩
abbrev main_c_229 : Ref sig .tc := ⟨.hbm, 1106, rfl⟩
abbrev main_v725 : Ref sig .tc := ⟨.hbm, 1107, rfl⟩
abbrev main_v726 : Ref sig .tc := ⟨.hbm, 1108, rfl⟩
abbrev main_v727 : Ref sig .tc := ⟨.hbm, 1109, rfl⟩
abbrev main_v728 : Ref sig .tc := ⟨.hbm, 1110, rfl⟩
abbrev main_v729 : Ref sig .tc := ⟨.hbm, 1111, rfl⟩
abbrev main_v730 : Ref sig .tc := ⟨.hbm, 1112, rfl⟩
abbrev main_v731 : Ref sig .tc := ⟨.hbm, 1113, rfl⟩
abbrev main_c_230 : Ref sig .tc := ⟨.hbm, 1114, rfl⟩
abbrev main_v732 : Ref sig .tc := ⟨.hbm, 1115, rfl⟩
abbrev main_v733 : Ref sig .tc := ⟨.hbm, 1116, rfl⟩
abbrev main_c_231 : Ref sig .tc := ⟨.hbm, 1117, rfl⟩
abbrev main_v734 : Ref sig .tc := ⟨.hbm, 1118, rfl⟩
abbrev main_v735 : Ref sig .tc := ⟨.hbm, 1119, rfl⟩
abbrev main_v736 : Ref sig .tc := ⟨.hbm, 1120, rfl⟩
abbrev main_c_232 : Ref sig .tc := ⟨.hbm, 1121, rfl⟩
abbrev main_v737 : Ref sig .tc := ⟨.hbm, 1122, rfl⟩
abbrev main_v738 : Ref sig .tc := ⟨.hbm, 1123, rfl⟩
abbrev main_c_233 : Ref sig .tc := ⟨.hbm, 1124, rfl⟩
abbrev main_v739 : Ref sig .tc := ⟨.hbm, 1125, rfl⟩
abbrev main_v740 : Ref sig .tc := ⟨.hbm, 1126, rfl⟩
abbrev main_v741 : Ref sig .tc := ⟨.hbm, 1127, rfl⟩
abbrev main_v742 : Ref sig .tc := ⟨.hbm, 1128, rfl⟩
abbrev main_v743 : Ref sig .tc := ⟨.hbm, 1129, rfl⟩
abbrev main_v744 : Ref sig .tc := ⟨.hbm, 1130, rfl⟩
abbrev main_v745 : Ref sig .tc := ⟨.hbm, 1131, rfl⟩
abbrev main_c_234 : Ref sig .tc := ⟨.hbm, 1132, rfl⟩
abbrev main_v746 : Ref sig .tc := ⟨.hbm, 1133, rfl⟩
abbrev main_v747 : Ref sig .tc := ⟨.hbm, 1134, rfl⟩
abbrev main_c_235 : Ref sig .tc := ⟨.hbm, 1135, rfl⟩
abbrev main_v748 : Ref sig .tc := ⟨.hbm, 1136, rfl⟩
abbrev main_v749 : Ref sig .tc := ⟨.hbm, 1137, rfl⟩
abbrev main_v750 : Ref sig .tc := ⟨.hbm, 1138, rfl⟩
abbrev main_c_236 : Ref sig .tc := ⟨.hbm, 1139, rfl⟩
abbrev main_v751 : Ref sig .tc := ⟨.hbm, 1140, rfl⟩
abbrev main_v752 : Ref sig .tc := ⟨.hbm, 1141, rfl⟩
abbrev main_c_237 : Ref sig .tc := ⟨.hbm, 1142, rfl⟩
abbrev main_v753 : Ref sig .tc := ⟨.hbm, 1143, rfl⟩
abbrev main_v754 : Ref sig .tc := ⟨.hbm, 1144, rfl⟩
abbrev main_v755 : Ref sig .tc := ⟨.hbm, 1145, rfl⟩
abbrev main_v756 : Ref sig .tc := ⟨.hbm, 1146, rfl⟩
abbrev main_v757 : Ref sig .tc := ⟨.hbm, 1147, rfl⟩
abbrev main_v758 : Ref sig .tc := ⟨.hbm, 1148, rfl⟩
abbrev main_v759 : Ref sig .tc := ⟨.hbm, 1149, rfl⟩
abbrev main_c_238 : Ref sig .tc := ⟨.hbm, 1150, rfl⟩
abbrev main_v760 : Ref sig .tc := ⟨.hbm, 1151, rfl⟩
abbrev main_v761 : Ref sig .tc := ⟨.hbm, 1152, rfl⟩
abbrev main_c_239 : Ref sig .tc := ⟨.hbm, 1153, rfl⟩
abbrev main_v762 : Ref sig .tc := ⟨.hbm, 1154, rfl⟩
abbrev main_v763 : Ref sig .tc := ⟨.hbm, 1155, rfl⟩
abbrev main_v764 : Ref sig .tc := ⟨.hbm, 1156, rfl⟩
abbrev main_c_240 : Ref sig .tc := ⟨.hbm, 1157, rfl⟩
abbrev main_v765 : Ref sig .tc := ⟨.hbm, 1158, rfl⟩
abbrev main_v766 : Ref sig .tc := ⟨.hbm, 1159, rfl⟩
abbrev main_c_241 : Ref sig .tc := ⟨.hbm, 1160, rfl⟩
abbrev main_v767 : Ref sig .tc := ⟨.hbm, 1161, rfl⟩
abbrev main_v768 : Ref sig .tc := ⟨.hbm, 1162, rfl⟩
abbrev main_v769 : Ref sig .tc := ⟨.hbm, 1163, rfl⟩
abbrev main_v770 : Ref sig .tc := ⟨.hbm, 1164, rfl⟩
abbrev main_v771 : Ref sig .tc := ⟨.hbm, 1165, rfl⟩
abbrev main_v772 : Ref sig .tc := ⟨.hbm, 1166, rfl⟩
abbrev main_v773 : Ref sig .tc := ⟨.hbm, 1167, rfl⟩
abbrev main_cst_242 : Ref sig .tc := ⟨.hbm, 1168, rfl⟩
abbrev main_v774 : Ref sig .tc := ⟨.hbm, 1169, rfl⟩
abbrev main_v775 : Ref sig .tc := ⟨.hbm, 1170, rfl⟩
abbrev main_v776 : Ref sig .tc := ⟨.hbm, 1171, rfl⟩
abbrev main_v777 : Ref sig .tc := ⟨.hbm, 1172, rfl⟩
abbrev main_v778 : Ref sig .tc := ⟨.hbm, 1173, rfl⟩
abbrev main_v779 : Ref sig .tc := ⟨.hbm, 1174, rfl⟩
abbrev main_v780 : Ref sig .tc := ⟨.hbm, 1175, rfl⟩
abbrev main_v781 : Ref sig .tc := ⟨.hbm, 1176, rfl⟩
abbrev main_v782 : Ref sig .tc := ⟨.hbm, 1177, rfl⟩
abbrev main_cst_243 : Ref sig .tc := ⟨.hbm, 1178, rfl⟩
abbrev main_v783 : Ref sig .tc := ⟨.hbm, 1179, rfl⟩
abbrev main_v784 : Ref sig .tc := ⟨.hbm, 1180, rfl⟩
abbrev main_v785 : Ref sig .tc := ⟨.hbm, 1181, rfl⟩
abbrev main_v786 : Ref sig .tc := ⟨.hbm, 1182, rfl⟩
abbrev main_v787 : Ref sig .tc := ⟨.hbm, 1183, rfl⟩
abbrev main_v788 : Ref sig .tc := ⟨.hbm, 1184, rfl⟩
abbrev main_v789 : Ref sig .tc := ⟨.hbm, 1185, rfl⟩
abbrev main_v790 : Ref sig .tc := ⟨.hbm, 1186, rfl⟩
abbrev main_v791 : Ref sig .tc := ⟨.hbm, 1187, rfl⟩
abbrev main_cst_244 : Ref sig .tc := ⟨.hbm, 1188, rfl⟩
abbrev main_v792 : Ref sig .tc := ⟨.hbm, 1189, rfl⟩
abbrev main_v793 : Ref sig .tc := ⟨.hbm, 1190, rfl⟩
abbrev main_v794 : Ref sig .tc := ⟨.hbm, 1191, rfl⟩
abbrev main_v795 : Ref sig .tc := ⟨.hbm, 1192, rfl⟩
abbrev main_v796 : Ref sig .tc := ⟨.hbm, 1193, rfl⟩
abbrev main_v797 : Ref sig .tc := ⟨.hbm, 1194, rfl⟩
abbrev main_v798 : Ref sig .tc := ⟨.hbm, 1195, rfl⟩
abbrev main_v799 : Ref sig .tc := ⟨.hbm, 1196, rfl⟩
abbrev main_v800 : Ref sig .tc := ⟨.hbm, 1197, rfl⟩
abbrev main_cst_245 : Ref sig .tc := ⟨.hbm, 1198, rfl⟩
abbrev main_v801 : Ref sig .tc := ⟨.hbm, 1199, rfl⟩
abbrev main_v802 : Ref sig .tc := ⟨.hbm, 1200, rfl⟩
abbrev main_v803 : Ref sig .tc := ⟨.hbm, 1201, rfl⟩
abbrev main_v804 : Ref sig .tc := ⟨.hbm, 1202, rfl⟩
abbrev main_v805 : Ref sig .tc := ⟨.hbm, 1203, rfl⟩
abbrev main_v806 : Ref sig .tc := ⟨.hbm, 1204, rfl⟩
abbrev main_cst_246 : Ref sig .tc := ⟨.hbm, 1205, rfl⟩
abbrev main_v807 : Ref sig .tc := ⟨.hbm, 1206, rfl⟩
abbrev main_v808 : Ref sig .tc := ⟨.hbm, 1207, rfl⟩
abbrev main_cst_247 : Ref sig .tc := ⟨.hbm, 1208, rfl⟩
abbrev main_v809 : Ref sig .tc := ⟨.hbm, 1209, rfl⟩
abbrev main_v810 : Ref sig .tc := ⟨.hbm, 1210, rfl⟩
abbrev main_cst_248 : Ref sig .tc := ⟨.hbm, 1211, rfl⟩
abbrev main_v811 : Ref sig .tc := ⟨.hbm, 1212, rfl⟩
abbrev main_v812 : Ref sig .tc := ⟨.hbm, 1213, rfl⟩
abbrev main_cst_249 : Ref sig .tc := ⟨.hbm, 1214, rfl⟩
abbrev main_v813 : Ref sig .tc := ⟨.hbm, 1215, rfl⟩
abbrev main_v814 : Ref sig .tc := ⟨.hbm, 1216, rfl⟩
abbrev main_cst_250 : Ref sig .tc := ⟨.hbm, 1217, rfl⟩
abbrev main_v815 : Ref sig .tc := ⟨.hbm, 1218, rfl⟩
abbrev main_v816 : Ref sig .tc := ⟨.hbm, 1219, rfl⟩
abbrev main_cst_251 : Ref sig .tc := ⟨.hbm, 1220, rfl⟩
abbrev main_v817 : Ref sig .tc := ⟨.hbm, 1221, rfl⟩
abbrev main_v818 : Ref sig .tc := ⟨.hbm, 1222, rfl⟩
abbrev main_v819 : Ref sig .tc := ⟨.hbm, 1223, rfl⟩
abbrev main_v820 : Ref sig .tc := ⟨.hbm, 1224, rfl⟩
abbrev main_v821 : Ref sig .tc := ⟨.hbm, 1225, rfl⟩
abbrev main_v822 : Ref sig .tc := ⟨.hbm, 1226, rfl⟩
abbrev main_v823 : Ref sig .tc := ⟨.hbm, 1227, rfl⟩
abbrev main_c_252 : Ref sig .tc := ⟨.hbm, 1228, rfl⟩
abbrev main_c_253 : Ref sig .tc := ⟨.hbm, 1229, rfl⟩
abbrev main_call28_v0 : Ref sig .tc := ⟨.hbm, 1230, rfl⟩
abbrev main_call28_v1 : Ref sig .tc := ⟨.hbm, 1231, rfl⟩
abbrev main_call28_v2 : Ref sig .tc := ⟨.hbm, 1232, rfl⟩
abbrev main_call28_v3 : Ref sig .tc := ⟨.hbm, 1233, rfl⟩
abbrev main_call28_v4 : Ref sig .tc := ⟨.hbm, 1234, rfl⟩
abbrev main_v824 : Ref sig .tc := ⟨.hbm, 1235, rfl⟩
abbrev main_c_254 : Ref sig .tc := ⟨.hbm, 1236, rfl⟩
abbrev main_v825 : Ref sig .tc := ⟨.hbm, 1237, rfl⟩
abbrev main_v826 : Ref sig .tc := ⟨.hbm, 1238, rfl⟩
abbrev main_c_255 : Ref sig .tc := ⟨.hbm, 1239, rfl⟩
abbrev main_c_256 : Ref sig .tc := ⟨.hbm, 1240, rfl⟩
abbrev main_call29_v0 : Ref sig .tc := ⟨.hbm, 1241, rfl⟩
abbrev main_call29_v1 : Ref sig .tc := ⟨.hbm, 1242, rfl⟩
abbrev main_call29_v2 : Ref sig .tc := ⟨.hbm, 1243, rfl⟩
abbrev main_call29_v3 : Ref sig .tc := ⟨.hbm, 1244, rfl⟩
abbrev main_call29_v4 : Ref sig .tc := ⟨.hbm, 1245, rfl⟩
abbrev main_v827 : Ref sig .tc := ⟨.hbm, 1246, rfl⟩
abbrev main_v828 : Ref sig .tc := ⟨.hbm, 1247, rfl⟩
abbrev main_c_257 : Ref sig .tc := ⟨.hbm, 1248, rfl⟩
abbrev main_c_258 : Ref sig .tc := ⟨.hbm, 1249, rfl⟩
abbrev main_call30_v0 : Ref sig .tc := ⟨.hbm, 1250, rfl⟩
abbrev main_call30_v1 : Ref sig .tc := ⟨.hbm, 1251, rfl⟩
abbrev main_call30_v2 : Ref sig .tc := ⟨.hbm, 1252, rfl⟩
abbrev main_call30_v3 : Ref sig .tc := ⟨.hbm, 1253, rfl⟩
abbrev main_call30_v4 : Ref sig .tc := ⟨.hbm, 1254, rfl⟩
abbrev main_v829 : Ref sig .tc := ⟨.hbm, 1255, rfl⟩
abbrev main_c_259 : Ref sig .tc := ⟨.hbm, 1256, rfl⟩
abbrev main_v830 : Ref sig .tc := ⟨.hbm, 1257, rfl⟩
abbrev main_v831 : Ref sig .tc := ⟨.hbm, 1258, rfl⟩
abbrev main_c_260 : Ref sig .tc := ⟨.hbm, 1259, rfl⟩
abbrev main_c_261 : Ref sig .tc := ⟨.hbm, 1260, rfl⟩
abbrev main_call31_v0 : Ref sig .tc := ⟨.hbm, 1261, rfl⟩
abbrev main_call31_v1 : Ref sig .tc := ⟨.hbm, 1262, rfl⟩
abbrev main_call31_v2 : Ref sig .tc := ⟨.hbm, 1263, rfl⟩
abbrev main_call31_v3 : Ref sig .tc := ⟨.hbm, 1264, rfl⟩
abbrev main_call31_v4 : Ref sig .tc := ⟨.hbm, 1265, rfl⟩
abbrev main_v832 : Ref sig .tc := ⟨.hbm, 1266, rfl⟩
abbrev main_c_262 : Ref sig .tc := ⟨.hbm, 1267, rfl⟩
abbrev main_v833 : Ref sig .tc := ⟨.hbm, 1268, rfl⟩
abbrev main_v834 : Ref sig .tc := ⟨.hbm, 1269, rfl⟩
abbrev main_c_263 : Ref sig .tc := ⟨.hbm, 1270, rfl⟩
abbrev main_v835 : Ref sig .tc := ⟨.hbm, 1271, rfl⟩
abbrev main_v836 : Ref sig .tc := ⟨.hbm, 1272, rfl⟩
abbrev main_v837 : Ref sig .tc := ⟨.hbm, 1273, rfl⟩
abbrev main_c_264 : Ref sig .tc := ⟨.hbm, 1274, rfl⟩
abbrev main_v838 : Ref sig .tc := ⟨.hbm, 1275, rfl⟩
abbrev main_v839 : Ref sig .tc := ⟨.hbm, 1276, rfl⟩
abbrev main_c_265 : Ref sig .tc := ⟨.hbm, 1277, rfl⟩
abbrev main_v840 : Ref sig .tc := ⟨.hbm, 1278, rfl⟩
abbrev main_v841 : Ref sig .tc := ⟨.hbm, 1279, rfl⟩
abbrev main_v842 : Ref sig .tc := ⟨.hbm, 1280, rfl⟩
abbrev main_v843 : Ref sig .tc := ⟨.hbm, 1281, rfl⟩
abbrev main_v844 : Ref sig .tc := ⟨.hbm, 1282, rfl⟩
abbrev main_v845 : Ref sig .tc := ⟨.hbm, 1283, rfl⟩
abbrev main_v846 : Ref sig .tc := ⟨.hbm, 1284, rfl⟩
abbrev main_c_266 : Ref sig .tc := ⟨.hbm, 1285, rfl⟩
abbrev main_v847 : Ref sig .tc := ⟨.hbm, 1286, rfl⟩
abbrev main_v848 : Ref sig .tc := ⟨.hbm, 1287, rfl⟩
abbrev main_c_267 : Ref sig .tc := ⟨.hbm, 1288, rfl⟩
abbrev main_v849 : Ref sig .tc := ⟨.hbm, 1289, rfl⟩
abbrev main_v850 : Ref sig .tc := ⟨.hbm, 1290, rfl⟩
abbrev main_v851 : Ref sig .tc := ⟨.hbm, 1291, rfl⟩
abbrev main_c_268 : Ref sig .tc := ⟨.hbm, 1292, rfl⟩
abbrev main_v852 : Ref sig .tc := ⟨.hbm, 1293, rfl⟩
abbrev main_v853 : Ref sig .tc := ⟨.hbm, 1294, rfl⟩
abbrev main_c_269 : Ref sig .tc := ⟨.hbm, 1295, rfl⟩
abbrev main_v854 : Ref sig .tc := ⟨.hbm, 1296, rfl⟩
abbrev main_v855 : Ref sig .tc := ⟨.hbm, 1297, rfl⟩
abbrev main_v856 : Ref sig .tc := ⟨.hbm, 1298, rfl⟩
abbrev main_v857 : Ref sig .tc := ⟨.hbm, 1299, rfl⟩
abbrev main_v858 : Ref sig .tc := ⟨.hbm, 1300, rfl⟩
abbrev main_v859 : Ref sig .tc := ⟨.hbm, 1301, rfl⟩
abbrev main_v860 : Ref sig .tc := ⟨.hbm, 1302, rfl⟩
abbrev main_c_270 : Ref sig .tc := ⟨.hbm, 1303, rfl⟩
abbrev main_v861 : Ref sig .tc := ⟨.hbm, 1304, rfl⟩
abbrev main_v862 : Ref sig .tc := ⟨.hbm, 1305, rfl⟩
abbrev main_c_271 : Ref sig .tc := ⟨.hbm, 1306, rfl⟩
abbrev main_v863 : Ref sig .tc := ⟨.hbm, 1307, rfl⟩
abbrev main_v864 : Ref sig .tc := ⟨.hbm, 1308, rfl⟩
abbrev main_v865 : Ref sig .tc := ⟨.hbm, 1309, rfl⟩
abbrev main_c_272 : Ref sig .tc := ⟨.hbm, 1310, rfl⟩
abbrev main_v866 : Ref sig .tc := ⟨.hbm, 1311, rfl⟩
abbrev main_v867 : Ref sig .tc := ⟨.hbm, 1312, rfl⟩
abbrev main_c_273 : Ref sig .tc := ⟨.hbm, 1313, rfl⟩
abbrev main_v868 : Ref sig .tc := ⟨.hbm, 1314, rfl⟩
abbrev main_v869 : Ref sig .tc := ⟨.hbm, 1315, rfl⟩
abbrev main_v870 : Ref sig .tc := ⟨.hbm, 1316, rfl⟩
abbrev main_v871 : Ref sig .tc := ⟨.hbm, 1317, rfl⟩
abbrev main_v872 : Ref sig .tc := ⟨.hbm, 1318, rfl⟩
abbrev main_v873 : Ref sig .tc := ⟨.hbm, 1319, rfl⟩
abbrev main_v874 : Ref sig .tc := ⟨.hbm, 1320, rfl⟩
abbrev main_c_274 : Ref sig .tc := ⟨.hbm, 1321, rfl⟩
abbrev main_v875 : Ref sig .tc := ⟨.hbm, 1322, rfl⟩
abbrev main_v876 : Ref sig .tc := ⟨.hbm, 1323, rfl⟩
abbrev main_c_275 : Ref sig .tc := ⟨.hbm, 1324, rfl⟩
abbrev main_v877 : Ref sig .tc := ⟨.hbm, 1325, rfl⟩
abbrev main_v878 : Ref sig .tc := ⟨.hbm, 1326, rfl⟩
abbrev main_v879 : Ref sig .tc := ⟨.hbm, 1327, rfl⟩
abbrev main_c_276 : Ref sig .tc := ⟨.hbm, 1328, rfl⟩
abbrev main_v880 : Ref sig .tc := ⟨.hbm, 1329, rfl⟩
abbrev main_v881 : Ref sig .tc := ⟨.hbm, 1330, rfl⟩
abbrev main_c_277 : Ref sig .tc := ⟨.hbm, 1331, rfl⟩
abbrev main_v882 : Ref sig .tc := ⟨.hbm, 1332, rfl⟩
abbrev main_v883 : Ref sig .tc := ⟨.hbm, 1333, rfl⟩
abbrev main_v884 : Ref sig .tc := ⟨.hbm, 1334, rfl⟩
abbrev main_v885 : Ref sig .tc := ⟨.hbm, 1335, rfl⟩
abbrev main_v886 : Ref sig .tc := ⟨.hbm, 1336, rfl⟩
abbrev main_v887 : Ref sig .tc := ⟨.hbm, 1337, rfl⟩
abbrev main_v888 : Ref sig .tc := ⟨.hbm, 1338, rfl⟩
abbrev main_cst_278 : Ref sig .tc := ⟨.hbm, 1339, rfl⟩
abbrev main_v889 : Ref sig .tc := ⟨.hbm, 1340, rfl⟩
abbrev main_v890 : Ref sig .tc := ⟨.hbm, 1341, rfl⟩
abbrev main_v891 : Ref sig .tc := ⟨.hbm, 1342, rfl⟩
abbrev main_v892 : Ref sig .tc := ⟨.hbm, 1343, rfl⟩
abbrev main_v893 : Ref sig .tc := ⟨.hbm, 1344, rfl⟩
abbrev main_v894 : Ref sig .tc := ⟨.hbm, 1345, rfl⟩
abbrev main_v895 : Ref sig .tc := ⟨.hbm, 1346, rfl⟩
abbrev main_v896 : Ref sig .tc := ⟨.hbm, 1347, rfl⟩
abbrev main_v897 : Ref sig .tc := ⟨.hbm, 1348, rfl⟩
abbrev main_cst_279 : Ref sig .tc := ⟨.hbm, 1349, rfl⟩
abbrev main_v898 : Ref sig .tc := ⟨.hbm, 1350, rfl⟩
abbrev main_v899 : Ref sig .tc := ⟨.hbm, 1351, rfl⟩
abbrev main_v900 : Ref sig .tc := ⟨.hbm, 1352, rfl⟩
abbrev main_v901 : Ref sig .tc := ⟨.hbm, 1353, rfl⟩
abbrev main_v902 : Ref sig .tc := ⟨.hbm, 1354, rfl⟩
abbrev main_v903 : Ref sig .tc := ⟨.hbm, 1355, rfl⟩
abbrev main_v904 : Ref sig .tc := ⟨.hbm, 1356, rfl⟩
abbrev main_v905 : Ref sig .tc := ⟨.hbm, 1357, rfl⟩
abbrev main_v906 : Ref sig .tc := ⟨.hbm, 1358, rfl⟩
abbrev main_cst_280 : Ref sig .tc := ⟨.hbm, 1359, rfl⟩
abbrev main_v907 : Ref sig .tc := ⟨.hbm, 1360, rfl⟩
abbrev main_v908 : Ref sig .tc := ⟨.hbm, 1361, rfl⟩
abbrev main_v909 : Ref sig .tc := ⟨.hbm, 1362, rfl⟩
abbrev main_v910 : Ref sig .tc := ⟨.hbm, 1363, rfl⟩
abbrev main_v911 : Ref sig .tc := ⟨.hbm, 1364, rfl⟩
abbrev main_v912 : Ref sig .tc := ⟨.hbm, 1365, rfl⟩
abbrev main_v913 : Ref sig .tc := ⟨.hbm, 1366, rfl⟩
abbrev main_v914 : Ref sig .tc := ⟨.hbm, 1367, rfl⟩
abbrev main_v915 : Ref sig .tc := ⟨.hbm, 1368, rfl⟩
abbrev main_v916 : Ref sig .tc := ⟨.hbm, 1369, rfl⟩
abbrev main_v917 : Ref sig .tc := ⟨.hbm, 1370, rfl⟩
abbrev main_v918 : Ref sig .tc := ⟨.hbm, 1371, rfl⟩
abbrev main_v919 : Ref sig .tc := ⟨.hbm, 1372, rfl⟩
abbrev main_v920 : Ref sig .tc := ⟨.hbm, 1373, rfl⟩
abbrev main_cst_281 : Ref sig .tc := ⟨.hbm, 1374, rfl⟩
abbrev main_v921 : Ref sig .tc := ⟨.hbm, 1375, rfl⟩
abbrev main_v922 : Ref sig .tc := ⟨.hbm, 1376, rfl⟩
abbrev main_cst_282 : Ref sig .tc := ⟨.hbm, 1377, rfl⟩
abbrev main_v923 : Ref sig .tc := ⟨.hbm, 1378, rfl⟩
abbrev main_v924 : Ref sig .tc := ⟨.hbm, 1379, rfl⟩
abbrev main_cst_283 : Ref sig .tc := ⟨.hbm, 1380, rfl⟩
abbrev main_v925 : Ref sig .tc := ⟨.hbm, 1381, rfl⟩
abbrev main_v926 : Ref sig .tc := ⟨.hbm, 1382, rfl⟩
abbrev main_cst_284 : Ref sig .tc := ⟨.hbm, 1383, rfl⟩
abbrev main_v927 : Ref sig .tc := ⟨.hbm, 1384, rfl⟩
abbrev main_v928 : Ref sig .tc := ⟨.hbm, 1385, rfl⟩
abbrev main_cst_285 : Ref sig .tc := ⟨.hbm, 1386, rfl⟩
abbrev main_v929 : Ref sig .tc := ⟨.hbm, 1387, rfl⟩
abbrev main_v930 : Ref sig .tc := ⟨.hbm, 1388, rfl⟩
abbrev main_cst_286 : Ref sig .tc := ⟨.hbm, 1389, rfl⟩
abbrev main_v931 : Ref sig .tc := ⟨.hbm, 1390, rfl⟩
abbrev main_v932 : Ref sig .tc := ⟨.hbm, 1391, rfl⟩
abbrev main_v933 : Ref sig .tc := ⟨.hbm, 1392, rfl⟩
abbrev main_v934 : Ref sig .tc := ⟨.hbm, 1393, rfl⟩
abbrev main_v935 : Ref sig .tc := ⟨.hbm, 1394, rfl⟩
abbrev main_v936 : Ref sig .tc := ⟨.hbm, 1395, rfl⟩
abbrev main_v937 : Ref sig .tc := ⟨.hbm, 1396, rfl⟩
abbrev main_c_287 : Ref sig .tc := ⟨.hbm, 1397, rfl⟩
abbrev main_c_288 : Ref sig .tc := ⟨.hbm, 1398, rfl⟩
abbrev main_call32_v0 : Ref sig .tc := ⟨.hbm, 1399, rfl⟩
abbrev main_call32_v1 : Ref sig .tc := ⟨.hbm, 1400, rfl⟩
abbrev main_call32_v2 : Ref sig .tc := ⟨.hbm, 1401, rfl⟩
abbrev main_call32_v3 : Ref sig .tc := ⟨.hbm, 1402, rfl⟩
abbrev main_call32_v4 : Ref sig .tc := ⟨.hbm, 1403, rfl⟩
abbrev main_v938 : Ref sig .tc := ⟨.hbm, 1404, rfl⟩
abbrev main_c_289 : Ref sig .tc := ⟨.hbm, 1405, rfl⟩
abbrev main_v939 : Ref sig .tc := ⟨.hbm, 1406, rfl⟩
abbrev main_v940 : Ref sig .tc := ⟨.hbm, 1407, rfl⟩
abbrev main_c_290 : Ref sig .tc := ⟨.hbm, 1408, rfl⟩
abbrev main_c_291 : Ref sig .tc := ⟨.hbm, 1409, rfl⟩
abbrev main_call33_v0 : Ref sig .tc := ⟨.hbm, 1410, rfl⟩
abbrev main_call33_v1 : Ref sig .tc := ⟨.hbm, 1411, rfl⟩
abbrev main_call33_v2 : Ref sig .tc := ⟨.hbm, 1412, rfl⟩
abbrev main_call33_v3 : Ref sig .tc := ⟨.hbm, 1413, rfl⟩
abbrev main_call33_v4 : Ref sig .tc := ⟨.hbm, 1414, rfl⟩
abbrev main_v941 : Ref sig .tc := ⟨.hbm, 1415, rfl⟩
abbrev main_v942 : Ref sig .tc := ⟨.hbm, 1416, rfl⟩
abbrev main_c_292 : Ref sig .tc := ⟨.hbm, 1417, rfl⟩
abbrev main_c_293 : Ref sig .tc := ⟨.hbm, 1418, rfl⟩
abbrev main_call34_v0 : Ref sig .tc := ⟨.hbm, 1419, rfl⟩
abbrev main_call34_v1 : Ref sig .tc := ⟨.hbm, 1420, rfl⟩
abbrev main_call34_v2 : Ref sig .tc := ⟨.hbm, 1421, rfl⟩
abbrev main_call34_v3 : Ref sig .tc := ⟨.hbm, 1422, rfl⟩
abbrev main_call34_v4 : Ref sig .tc := ⟨.hbm, 1423, rfl⟩
abbrev main_v943 : Ref sig .tc := ⟨.hbm, 1424, rfl⟩
abbrev main_c_294 : Ref sig .tc := ⟨.hbm, 1425, rfl⟩
abbrev main_v944 : Ref sig .tc := ⟨.hbm, 1426, rfl⟩
abbrev main_v945 : Ref sig .tc := ⟨.hbm, 1427, rfl⟩
abbrev main_c_295 : Ref sig .tc := ⟨.hbm, 1428, rfl⟩
abbrev main_c_296 : Ref sig .tc := ⟨.hbm, 1429, rfl⟩
abbrev main_call35_v0 : Ref sig .tc := ⟨.hbm, 1430, rfl⟩
abbrev main_call35_v1 : Ref sig .tc := ⟨.hbm, 1431, rfl⟩
abbrev main_call35_v2 : Ref sig .tc := ⟨.hbm, 1432, rfl⟩
abbrev main_call35_v3 : Ref sig .tc := ⟨.hbm, 1433, rfl⟩
abbrev main_call35_v4 : Ref sig .tc := ⟨.hbm, 1434, rfl⟩
abbrev main_v946 : Ref sig .tc := ⟨.hbm, 1435, rfl⟩
abbrev main_c_297 : Ref sig .tc := ⟨.hbm, 1436, rfl⟩
abbrev main_v947 : Ref sig .tc := ⟨.hbm, 1437, rfl⟩
abbrev main_v948 : Ref sig .tc := ⟨.hbm, 1438, rfl⟩
abbrev main_c_298 : Ref sig .tc := ⟨.hbm, 1439, rfl⟩
abbrev main_v949 : Ref sig .tc := ⟨.hbm, 1440, rfl⟩
abbrev main_v950 : Ref sig .tc := ⟨.hbm, 1441, rfl⟩
abbrev main_v951 : Ref sig .tc := ⟨.hbm, 1442, rfl⟩
abbrev main_c_299 : Ref sig .tc := ⟨.hbm, 1443, rfl⟩
abbrev main_v952 : Ref sig .tc := ⟨.hbm, 1444, rfl⟩
abbrev main_v953 : Ref sig .tc := ⟨.hbm, 1445, rfl⟩
abbrev main_c_300 : Ref sig .tc := ⟨.hbm, 1446, rfl⟩
abbrev main_v954 : Ref sig .tc := ⟨.hbm, 1447, rfl⟩
abbrev main_v955 : Ref sig .tc := ⟨.hbm, 1448, rfl⟩
abbrev main_v956 : Ref sig .tc := ⟨.hbm, 1449, rfl⟩
abbrev main_v957 : Ref sig .tc := ⟨.hbm, 1450, rfl⟩
abbrev main_v958 : Ref sig .tc := ⟨.hbm, 1451, rfl⟩
abbrev main_v959 : Ref sig .tc := ⟨.hbm, 1452, rfl⟩
abbrev main_v960 : Ref sig .tc := ⟨.hbm, 1453, rfl⟩
abbrev main_c_301 : Ref sig .tc := ⟨.hbm, 1454, rfl⟩
abbrev main_v961 : Ref sig .tc := ⟨.hbm, 1455, rfl⟩
abbrev main_v962 : Ref sig .tc := ⟨.hbm, 1456, rfl⟩
abbrev main_c_302 : Ref sig .tc := ⟨.hbm, 1457, rfl⟩
abbrev main_v963 : Ref sig .tc := ⟨.hbm, 1458, rfl⟩
abbrev main_v964 : Ref sig .tc := ⟨.hbm, 1459, rfl⟩
abbrev main_v965 : Ref sig .tc := ⟨.hbm, 1460, rfl⟩
abbrev main_c_303 : Ref sig .tc := ⟨.hbm, 1461, rfl⟩
abbrev main_v966 : Ref sig .tc := ⟨.hbm, 1462, rfl⟩
abbrev main_v967 : Ref sig .tc := ⟨.hbm, 1463, rfl⟩
abbrev main_c_304 : Ref sig .tc := ⟨.hbm, 1464, rfl⟩
abbrev main_v968 : Ref sig .tc := ⟨.hbm, 1465, rfl⟩
abbrev main_v969 : Ref sig .tc := ⟨.hbm, 1466, rfl⟩
abbrev main_v970 : Ref sig .tc := ⟨.hbm, 1467, rfl⟩
abbrev main_v971 : Ref sig .tc := ⟨.hbm, 1468, rfl⟩
abbrev main_v972 : Ref sig .tc := ⟨.hbm, 1469, rfl⟩
abbrev main_v973 : Ref sig .tc := ⟨.hbm, 1470, rfl⟩
abbrev main_v974 : Ref sig .tc := ⟨.hbm, 1471, rfl⟩
abbrev main_c_305 : Ref sig .tc := ⟨.hbm, 1472, rfl⟩
abbrev main_v975 : Ref sig .tc := ⟨.hbm, 1473, rfl⟩
abbrev main_v976 : Ref sig .tc := ⟨.hbm, 1474, rfl⟩
abbrev main_c_306 : Ref sig .tc := ⟨.hbm, 1475, rfl⟩
abbrev main_v977 : Ref sig .tc := ⟨.hbm, 1476, rfl⟩
abbrev main_v978 : Ref sig .tc := ⟨.hbm, 1477, rfl⟩
abbrev main_v979 : Ref sig .tc := ⟨.hbm, 1478, rfl⟩
abbrev main_c_307 : Ref sig .tc := ⟨.hbm, 1479, rfl⟩
abbrev main_v980 : Ref sig .tc := ⟨.hbm, 1480, rfl⟩
abbrev main_v981 : Ref sig .tc := ⟨.hbm, 1481, rfl⟩
abbrev main_c_308 : Ref sig .tc := ⟨.hbm, 1482, rfl⟩
abbrev main_v982 : Ref sig .tc := ⟨.hbm, 1483, rfl⟩
abbrev main_v983 : Ref sig .tc := ⟨.hbm, 1484, rfl⟩
abbrev main_v984 : Ref sig .tc := ⟨.hbm, 1485, rfl⟩
abbrev main_v985 : Ref sig .tc := ⟨.hbm, 1486, rfl⟩
abbrev main_v986 : Ref sig .tc := ⟨.hbm, 1487, rfl⟩
abbrev main_v987 : Ref sig .tc := ⟨.hbm, 1488, rfl⟩
abbrev main_v988 : Ref sig .tc := ⟨.hbm, 1489, rfl⟩
abbrev main_c_309 : Ref sig .tc := ⟨.hbm, 1490, rfl⟩
abbrev main_v989 : Ref sig .tc := ⟨.hbm, 1491, rfl⟩
abbrev main_v990 : Ref sig .tc := ⟨.hbm, 1492, rfl⟩
abbrev main_c_310 : Ref sig .tc := ⟨.hbm, 1493, rfl⟩
abbrev main_v991 : Ref sig .tc := ⟨.hbm, 1494, rfl⟩
abbrev main_v992 : Ref sig .tc := ⟨.hbm, 1495, rfl⟩
abbrev main_v993 : Ref sig .tc := ⟨.hbm, 1496, rfl⟩
abbrev main_c_311 : Ref sig .tc := ⟨.hbm, 1497, rfl⟩
abbrev main_v994 : Ref sig .tc := ⟨.hbm, 1498, rfl⟩
abbrev main_v995 : Ref sig .tc := ⟨.hbm, 1499, rfl⟩
abbrev main_c_312 : Ref sig .tc := ⟨.hbm, 1500, rfl⟩
abbrev main_v996 : Ref sig .tc := ⟨.hbm, 1501, rfl⟩
abbrev main_v997 : Ref sig .tc := ⟨.hbm, 1502, rfl⟩
abbrev main_v998 : Ref sig .tc := ⟨.hbm, 1503, rfl⟩
abbrev main_v999 : Ref sig .tc := ⟨.hbm, 1504, rfl⟩
abbrev main_v1000 : Ref sig .tc := ⟨.hbm, 1505, rfl⟩
abbrev main_v1001 : Ref sig .tc := ⟨.hbm, 1506, rfl⟩
abbrev main_v1002 : Ref sig .tc := ⟨.hbm, 1507, rfl⟩
abbrev main_cst_313 : Ref sig .tc := ⟨.hbm, 1508, rfl⟩
abbrev main_v1003 : Ref sig .tc := ⟨.hbm, 1509, rfl⟩
abbrev main_v1004 : Ref sig .tc := ⟨.hbm, 1510, rfl⟩
abbrev main_v1005 : Ref sig .tc := ⟨.hbm, 1511, rfl⟩
abbrev main_v1006 : Ref sig .tc := ⟨.hbm, 1512, rfl⟩
abbrev main_v1007 : Ref sig .tc := ⟨.hbm, 1513, rfl⟩
abbrev main_v1008 : Ref sig .tc := ⟨.hbm, 1514, rfl⟩
abbrev main_v1009 : Ref sig .tc := ⟨.hbm, 1515, rfl⟩
abbrev main_v1010 : Ref sig .tc := ⟨.hbm, 1516, rfl⟩
abbrev main_v1011 : Ref sig .tc := ⟨.hbm, 1517, rfl⟩
abbrev main_cst_314 : Ref sig .tc := ⟨.hbm, 1518, rfl⟩
abbrev main_v1012 : Ref sig .tc := ⟨.hbm, 1519, rfl⟩
abbrev main_v1013 : Ref sig .tc := ⟨.hbm, 1520, rfl⟩
abbrev main_v1014 : Ref sig .tc := ⟨.hbm, 1521, rfl⟩
abbrev main_v1015 : Ref sig .tc := ⟨.hbm, 1522, rfl⟩
abbrev main_v1016 : Ref sig .tc := ⟨.hbm, 1523, rfl⟩
abbrev main_v1017 : Ref sig .tc := ⟨.hbm, 1524, rfl⟩
abbrev main_v1018 : Ref sig .tc := ⟨.hbm, 1525, rfl⟩
abbrev main_v1019 : Ref sig .tc := ⟨.hbm, 1526, rfl⟩
abbrev main_v1020 : Ref sig .tc := ⟨.hbm, 1527, rfl⟩
abbrev main_cst_315 : Ref sig .tc := ⟨.hbm, 1528, rfl⟩
abbrev main_v1021 : Ref sig .tc := ⟨.hbm, 1529, rfl⟩
abbrev main_v1022 : Ref sig .tc := ⟨.hbm, 1530, rfl⟩
abbrev main_v1023 : Ref sig .tc := ⟨.hbm, 1531, rfl⟩
abbrev main_v1024 : Ref sig .tc := ⟨.hbm, 1532, rfl⟩
abbrev main_v1025 : Ref sig .tc := ⟨.hbm, 1533, rfl⟩
abbrev main_v1026 : Ref sig .tc := ⟨.hbm, 1534, rfl⟩
abbrev main_v1027 : Ref sig .tc := ⟨.hbm, 1535, rfl⟩
abbrev main_v1028 : Ref sig .tc := ⟨.hbm, 1536, rfl⟩
abbrev main_v1029 : Ref sig .tc := ⟨.hbm, 1537, rfl⟩
abbrev main_v1030 : Ref sig .tc := ⟨.hbm, 1538, rfl⟩
abbrev main_v1031 : Ref sig .tc := ⟨.hbm, 1539, rfl⟩
abbrev main_v1032 : Ref sig .tc := ⟨.hbm, 1540, rfl⟩

abbrev nD : Nat := 1
abbrev τ : Topo := Topo.v7x

variable {F : FTy → Type} [FloatOps F]

class Facts₀ : Prop where
  slices_S524288x3_S524288x1_0_0 : S524288x3.Slices ![0, 0] S524288x1
  shapeCasts_S524288x1_S524288 : S524288x1.ShapeCasts S524288
  slices_S524288x3_S524288x1_0_1 : S524288x3.Slices ![0, 1] S524288x1
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  bcast_S524288_S1x524288_1 : S524288.BroadcastsInDim S1x524288 (![1] : Fin 1 → Fin S1x524288.rank)
  bcast_S1x524288_S32x524288_0_1 : S1x524288.BroadcastsInDim S32x524288 (![0, 1] : Fin 2 → Fin S32x524288.rank)
  bcast_S_S32x524288 : S_.BroadcastsInDim S32x524288 (![] : Fin 0 → Fin S32x524288.rank)
  slices_S524288x3_S524288x1_0_2 : S524288x3.Slices ![0, 2] S524288x1
  transposes_S32x524288_S524288x32_1_0 : S32x524288.Transposes [1, 0] S524288x32
  concatenates_S524288x32_S524288x32_S524288x32_S524288x96_d1 : Shape.Concatenates [S524288x32, S524288x32, S524288x32] S524288x96 1
  gather_S32x64x64_S524288x2_S32x524288_0_12_n_n_12_1_3211_wf : GatherDims.WF S32x64x64 S524288x2 S32x524288 [0] [1, 2] [] [1, 2] [] 1 ![32, 1, 1]
  gather_S32x128x128_S524288x2_S32x524288_0_12_n_n_12_1_3211_wf : GatherDims.WF S32x128x128 S524288x2 S32x524288 [0] [1, 2] [] [1, 2] [] 1 ![32, 1, 1]
  gather_S32x256x256_S524288x2_S32x524288_0_12_n_n_12_1_3211_wf : GatherDims.WF S32x256x256 S524288x2 S32x524288 [0] [1, 2] [] [1, 2] [] 1 ![32, 1, 1]

variable [Facts₀]

def gather_S32x64x64_S524288x2_S32x524288_0_12_n_n_12_1_3211 : GatherDims S32x64x64 S524288x2 S32x524288 where
  offsetDims := [0]
  collapsedSliceDims := [1, 2]
  operandBatchingDims := []
  startIndicesBatchingDims := []
  startIndexMap := [1, 2]
  indexVectorDim := 1
  sliceSizes := ![32, 1, 1]
  wf := gather_S32x64x64_S524288x2_S32x524288_0_12_n_n_12_1_3211_wf
def gather_S32x128x128_S524288x2_S32x524288_0_12_n_n_12_1_3211 : GatherDims S32x128x128 S524288x2 S32x524288 where
  offsetDims := [0]
  collapsedSliceDims := [1, 2]
  operandBatchingDims := []
  startIndicesBatchingDims := []
  startIndexMap := [1, 2]
  indexVectorDim := 1
  sliceSizes := ![32, 1, 1]
  wf := gather_S32x128x128_S524288x2_S32x524288_0_12_n_n_12_1_3211_wf
def gather_S32x256x256_S524288x2_S32x524288_0_12_n_n_12_1_3211 : GatherDims S32x256x256 S524288x2 S32x524288 where
  offsetDims := [0]
  collapsedSliceDims := [1, 2]
  operandBatchingDims := []
  startIndicesBatchingDims := []
  startIndexMap := [1, 2]
  indexVectorDim := 1
  sliceSizes := ![32, 1, 1]
  wf := gather_S32x256x256_S524288x2_S32x524288_0_12_n_n_12_1_3211_wf

class Facts : Prop extends Facts₀ where

variable [Facts]
-- ==== Proof.LibKeepdims.lean ====
/-
  A column kept as a unit axis: the two layout operations a row-wise reduction with its axis kept goes through.

  * A length-a vector cast to an a×1 array reads, at (i, u), the vector at i (the unit coordinate u is 0).
  * An a×1 array broadcast to a×b reads, at (p, c), the column's entry at (p, 0), whatever the column c.
-/
import Idealize.ShloMosaic.Lib.Pipeline.Value
import Idealize.ShloMosaic.Lib.ValueIdx
import Idealize.ShloMosaic.Lib.ValueLayout

noncomputable section

namespace Idealize.ShloMosaic.Keepdims

open Idealize.ShloMosaic Idealize.ShloMosaic.ValueIdx

variable {α : Type}

/-- A vector of length a cast to a×1 reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column broadcast to a×b reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.LibVecRead.lean ====
/-
  Vector operations read at an index: the integer operations element by element, a column of a two-axis block taken
  as a slice and flattened, a lane counter along either axis, and thirty-two copies of one block laid side by side
  (column j of the result is column j mod S of the block).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.VecRead

open Idealize.ShloMosaic Idealize.ShloMosaic.ValueIdx Idealize.ShloMosaic.TcCoe

section Reads
variable {α : Type} {s : Shape}

theorem cmpi_apply {w : Nat} (p : CmpIPredicate) (x y : IVec s w) (i : s.Idx) : cmpi p x y i = IntOp.cmpi p (x i) (y i) := rfl
theorem maxsi_apply {w : Nat} (x y : IVec s w) (i : s.Idx) : maxsi x y i = IntOp.maxsi (x i) (y i) := rfl
theorem minsi_apply {w : Nat} (x y : IVec s w) (i : s.Idx) : minsi x y i = IntOp.minsi (x i) (y i) := rfl
theorem addi_apply {w : Nat} (x y : IVec s w) (i : s.Idx) : addi x y i = IntOp.addi (x i) (y i) := rfl
theorem subi_apply {w : Nat} (x y : IVec s w) (i : s.Idx) : subi x y i = IntOp.subi (x i) (y i) := rfl
theorem andi_apply {w : Nat} (x y : IVec s w) (i : s.Idx) : andi x y i = IntOp.andi (x i) (y i) := rfl
theorem divsi_apply {w : Nat} (x y : IVec s w) (i : s.Idx) : divsi x y i = IntOp.divsi .vector (x i) (y i) := rfl
theorem remsi_apply {w : Nat} (x y : IVec s w) (i : s.Idx) : remsi x y i = IntOp.remsi .vector (x i) (y i) := rfl
theorem floor_apply {φ : FTy} (x : FVec Ideal s φ) (i : s.Idx) : floor x i = Ideal.liftRound Int.floor (x i) := rfl
theorem fptosi_apply {φ : FTy} (w : Nat) (x : FVec Ideal s φ) (i : s.Idx) : fptosi w x i = Ideal.fptosi w (x i) := rfl

/-- Column o of an a×n array, taken as an a×1 slice and flattened, reads the array at (b, o). -/
theorem column_apply {a n : Nat} (o : Nat) (x : (⟨2, ![a, n]⟩ : Shape).Idx → α)
    (h : (⟨2, ![a, n]⟩ : Shape).Slices ![0, o] ⟨2, ![a, 1]⟩) (h' : (⟨2, ![a, 1]⟩ : Shape).ShapeCasts ⟨1, ![a]⟩) (b : Fin a) :
    shapeCast ⟨1, ![a]⟩ (extractStridedSlice ⟨2, ![a, 1]⟩ ![0, o] x h) h' (ix1 b) = x (ix2 b ⟨o, Nat.lt_of_succ_le (h.2 (1 : Fin 2))⟩) := by
  rw [shapeCast_apply _ h' (ix1 b) (ix2 b (0 : Fin 1)) (by
    rw [Shape.rowMajor_val_two, Shape.rowMajor_val_one]; show b.val * 1 + 0 = b.val; omega)]
  exact extractStridedSlice_apply _ x h _ _ (fun ax => by
    match ax with
    | ⟨0, _⟩ => show b.val = 0 + b.val; omega
    | ⟨1, _⟩ => show o = o + 0; omega)

/-- A lane counter along the second axis of an a×n array reads the column number. -/
theorem iota1_apply {a n : Nat} (h : (⟨2, ![a, n]⟩ : Shape).Iotas .tc 32 [1]) (b : Fin a) (l : Fin n) :
    iota .tc ⟨2, ![a, n]⟩ 32 [1] h (ix2 b l) = BitVec.ofNat 32 l.val :=
  iota_single_apply .tc _ 32 1 h (ix2 b l)
/-- A counter along the first axis reads the row number. -/
theorem iota0_apply {a n : Nat} (h : (⟨2, ![a, n]⟩ : Shape).Iotas .tc 32 [0]) (b : Fin a) (l : Fin n) :
    iota .tc ⟨2, ![a, n]⟩ 32 [0] h (ix2 b l) = BitVec.ofNat 32 b.val :=
  iota_single_apply .tc _ 32 0 h (ix2 b l)

end Reads

/-- Thirty-two copies of one 128×64 block laid side by side read, at column j, the block at column j mod 64. -/
theorem concat32_64_apply {α : Type} (x : (⟨2, ![128, 64]⟩ : Shape).Idx → α)
    (h : Shape.Concatenates (([⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩] : List ((s : Shape) × (s.Idx → α))).map (·.1)) ⟨2, ![128, 2048]⟩ 1)
    (b : Fin 128) (j : Fin 2048) :
    concatenate ⟨2, ![128, 2048]⟩ 1 [⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩, ⟨⟨2, ![128, 64]⟩, x⟩] h (ix2 b j) = x (ix2 b ⟨j.val % 64, Nat.mod_lt _ (by decide)⟩) :=
  concatenate_replicate_apply (t := ⟨2, ![128, 2048]⟩) (s₁ := ⟨2, ![128, 64]⟩) 1 32 x h rfl (ix2 b j) (ix2 b ⟨j.val % 64, Nat.mod_lt _ (by decide)⟩)
    rfl (fun a ha => by
      match a with
      | ⟨0, _⟩ => rfl
      | ⟨1, _⟩ => exact absurd rfl ha)

/-- Thirty-two copies of one 128×128 block laid side by side read, at column j, the block at column j mod 128. -/
theorem concat32_128_apply {α : Type} (x : (⟨2, ![128, 128]⟩ : Shape).Idx → α)
    (h : Shape.Concatenates (([⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩] : List ((s : Shape) × (s.Idx → α))).map (·.1)) ⟨2, ![128, 4096]⟩ 1)
    (b : Fin 128) (j : Fin 4096) :
    concatenate ⟨2, ![128, 4096]⟩ 1 [⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩, ⟨⟨2, ![128, 128]⟩, x⟩] h (ix2 b j) = x (ix2 b ⟨j.val % 128, Nat.mod_lt _ (by decide)⟩) :=
  concatenate_replicate_apply (t := ⟨2, ![128, 4096]⟩) (s₁ := ⟨2, ![128, 128]⟩) 1 32 x h rfl (ix2 b j) (ix2 b ⟨j.val % 128, Nat.mod_lt _ (by decide)⟩)
    rfl (fun a ha => by
      match a with
      | ⟨0, _⟩ => rfl
      | ⟨1, _⟩ => exact absurd rfl ha)

/-- Thirty-two copies of one 128×256 block laid side by side read, at column j, the block at column j mod 256. -/
theorem concat32_256_apply {α : Type} (x : (⟨2, ![128, 256]⟩ : Shape).Idx → α)
    (h : Shape.Concatenates (([⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩] : List ((s : Shape) × (s.Idx → α))).map (·.1)) ⟨2, ![128, 8192]⟩ 1)
    (b : Fin 128) (j : Fin 8192) :
    concatenate ⟨2, ![128, 8192]⟩ 1 [⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩, ⟨⟨2, ![128, 256]⟩, x⟩] h (ix2 b j) = x (ix2 b ⟨j.val % 256, Nat.mod_lt _ (by decide)⟩) :=
  concatenate_replicate_apply (t := ⟨2, ![128, 8192]⟩) (s₁ := ⟨2, ![128, 256]⟩) 1 32 x h rfl (ix2 b j) (ix2 b ⟨j.val % 256, Nat.mod_lt _ (by decide)⟩)
    rfl (fun a ha => by
      match a with
      | ⟨0, _⟩ => rfl
      | ⟨1, _⟩ => exact absurd rfl ha)

end Cert.VecRead

end
-- ==== Proof.Spec.lean ====
/-
  The function both programs compute, index by index, on the extended reals.

  A point b has coordinates (x, y, z) = row b of the coordinate array.  For one resolution S (64, 128, 256) and one
  feature plane P : 32 × S × S, a coordinate g in [-1, 1] is sent to the pixel position p = ((g + 1) · ½) · (S − 1); its
  integer part, clamped into [0, S − 1], is the lower corner, the next integer (clamped again) the upper corner, and
  the fractional part w = p − ⌊p⌋ the weight of the upper corner.  The bilinear sample of channel c is
      (P[c, y₀, x₀]·(1 − wx) + P[c, y₀, x₁]·wx)·(1 − wy) + (P[c, y₁, x₀]·(1 − wx) + P[c, y₁, x₁]·wx)·wy.
  A resolution's 32 features are the product 1 · s(xy) · s(xz) · s(yz) of the samples of its three planes at the three
  coordinate pairs, and the result row is the three resolutions' features side by side (96 columns).
-/
import Idealize.ShloMosaic.PureOps.Ideal
import Idealize.ShloMosaic.Lib.ValueIdx

noncomputable section

namespace Cert.Spec

open Idealize.ShloMosaic Idealize.ShloMosaic.ValueIdx

/-- The literal 1.0. -/
abbrev one : EReal := Ideal.ofBits .f32 0x3F800000#32
/-- The literal 0.5. -/
abbrev half : EReal := Ideal.ofBits .f32 0x3F000000#32

/-- The pixel position of a coordinate: ((g + 1) · ½) · s1, with s1 the literal S − 1. -/
def pix (s1 g : EReal) : EReal := ((g + one) * half) * s1

/-- The fractional part p − ⌊p⌋. -/
def frac (p : EReal) : EReal := p - Ideal.liftRound Int.floor p

/-- A 32-bit word clamped into [0, hi] as signed integers. -/
def clamp (hi z : BitVec 32) : BitVec 32 := IntOp.minsi hi (IntOp.maxsi 0#32 z)

/-- The lower corner: ⌊p⌋ as a 32-bit signed integer, clamped into [0, hi]. -/
def lo (hi : BitVec 32) (p : EReal) : BitVec 32 := clamp hi (Ideal.fptosi 32 (Ideal.liftRound Int.floor p))

/-- The upper corner: the lower corner plus one, clamped again. -/
def up (hi : BitVec 32) (p : EReal) : BitVec 32 := clamp hi (IntOp.addi (lo hi p) 1#32)

/-- A signed word read as a position on an axis of extent S, clamped into the axis. -/
def pos (S : Nat) (hS : 0 < S) (z : BitVec 32) : Fin S := ⟨min z.toInt.toNat (S - 1), by omega⟩

/-- The bilinear combination of four corner values with the weights wx, wy of the upper corners. -/
def bilin (v00 v01 v10 v11 wx wy : EReal) : EReal :=
  (v00 * (one - wx) + v01 * wx) * (one - wy) + (v10 * (one - wx) + v11 * wx) * wy

/-- The bilinear sample of one S × S channel Q (rows indexed by the second coordinate gy, columns by the first, gx). -/
def sample (S : Nat) (hS : 0 < S) (s1 : EReal) (hi : BitVec 32) (Q : Fin S → Fin S → EReal) (gx gy : EReal) : EReal :=
  bilin (Q (pos S hS (lo hi (pix s1 gy))) (pos S hS (lo hi (pix s1 gx))))
        (Q (pos S hS (lo hi (pix s1 gy))) (pos S hS (up hi (pix s1 gx))))
        (Q (pos S hS (up hi (pix s1 gy))) (pos S hS (lo hi (pix s1 gx))))
        (Q (pos S hS (up hi (pix s1 gy))) (pos S hS (up hi (pix s1 gx))))
        (frac (pix s1 gx)) (frac (pix s1 gy))

/-- One resolution's feature for channel c: 1 · sample of plane 0 at (x, y) · sample of plane 1 at (x, z) · sample of plane 2 at (y, z). -/
def feat (S : Nat) (hS : 0 < S) (s1 : EReal) (hi : BitVec 32) (P0 P1 P2 : Fin S → Fin S → EReal) (x y z : EReal) : EReal :=
  ((one * sample S hS s1 hi P0 x y) * sample S hS s1 hi P1 x z) * sample S hS s1 hi P2 y z

/-- The literals S − 1 as floats: 63.0, 127.0, 255.0. -/
abbrev s63 : EReal := Ideal.ofBits .f32 0x427C0000#32
abbrev s127 : EReal := Ideal.ofBits .f32 0x42FE0000#32
abbrev s255 : EReal := Ideal.ofBits .f32 0x437F0000#32

abbrev S524288x3 : Shape := ⟨2, ![524288, 3]⟩
abbrev S32x64x64 : Shape := ⟨3, ![32, 64, 64]⟩
abbrev S32x128x128 : Shape := ⟨3, ![32, 128, 128]⟩
abbrev S32x256x256 : Shape := ⟨3, ![32, 256, 256]⟩
abbrev S524288x96 : Shape := ⟨2, ![524288, 96]⟩

/-- ONE ROW of the result, from the point's coordinates (x, y, z): column j < 32 is the low-resolution feature of channel j, column
    32 ≤ j < 64 the mid-resolution feature of channel j − 32, column 64 ≤ j the high-resolution feature of channel j − 64. -/
def row (x y z : EReal) (L0 L1 L2 : S32x64x64.Idx → EReal) (M0 M1 M2 : S32x128x128.Idx → EReal)
    (H0 H1 H2 : S32x256x256.Idx → EReal) (j : Fin 96) : EReal :=
  if h : j.val < 32 then
    feat 64 (by decide) s63 63#32 (fun h' w => L0 (ix3 (⟨j.val, h⟩ : Fin 32) h' w)) (fun h' w => L1 (ix3 (⟨j.val, h⟩ : Fin 32) h' w)) (fun h' w => L2 (ix3 (⟨j.val, h⟩ : Fin 32) h' w)) x y z
  else if h2 : j.val < 64 then
    feat 128 (by decide) s127 127#32 (fun h' w => M0 (ix3 (⟨j.val - 32, by omega⟩ : Fin 32) h' w)) (fun h' w => M1 (ix3 (⟨j.val - 32, by omega⟩ : Fin 32) h' w))
      (fun h' w => M2 (ix3 (⟨j.val - 32, by omega⟩ : Fin 32) h' w)) x y z
  else
    feat 256 (by decide) s255 255#32 (fun h' w => H0 (ix3 (⟨j.val - 64, by have := j.isLt; omega⟩ : Fin 32) h' w)) (fun h' w => H1 (ix3 (⟨j.val - 64, by have := j.isLt; omega⟩ : Fin 32) h' w))
      (fun h' w => H2 (ix3 (⟨j.val - 64, by have := j.isLt; omega⟩ : Fin 32) h' w)) x y z

theorem row_low (x y z : EReal) (L0 L1 L2 : S32x64x64.Idx → EReal) (M0 M1 M2 : S32x128x128.Idx → EReal) (H0 H1 H2 : S32x256x256.Idx → EReal)
    (j : Fin 96) (c : Fin 32) (hj : j.val = c.val) :
    row x y z L0 L1 L2 M0 M1 M2 H0 H1 H2 j
      = feat 64 (by decide) s63 63#32 (fun h' w => L0 (ix3 c h' w)) (fun h' w => L1 (ix3 c h' w)) (fun h' w => L2 (ix3 c h' w)) x y z := by
  have hc := c.isLt
  unfold row
  rw [dif_pos (by omega)]
  have e : (⟨j.val, by omega⟩ : Fin 32) = c := Fin.ext hj
  rw [e]

theorem row_mid (x y z : EReal) (L0 L1 L2 : S32x64x64.Idx → EReal) (M0 M1 M2 : S32x128x128.Idx → EReal) (H0 H1 H2 : S32x256x256.Idx → EReal)
    (j : Fin 96) (c : Fin 32) (hj : j.val = 32 + c.val) :
    row x y z L0 L1 L2 M0 M1 M2 H0 H1 H2 j
      = feat 128 (by decide) s127 127#32 (fun h' w => M0 (ix3 c h' w)) (fun h' w => M1 (ix3 c h' w)) (fun h' w => M2 (ix3 c h' w)) x y z := by
  have hc := c.isLt
  unfold row
  rw [dif_neg (by omega), dif_pos (by omega)]
  have e : (⟨j.val - 32, by omega⟩ : Fin 32) = c := Fin.ext (by simp only; omega)
  rw [e]

theorem row_high (x y z : EReal) (L0 L1 L2 : S32x64x64.Idx → EReal) (M0 M1 M2 : S32x128x128.Idx → EReal) (H0 H1 H2 : S32x256x256.Idx → EReal)
    (j : Fin 96) (c : Fin 32) (hj : j.val = 64 + c.val) :
    row x y z L0 L1 L2 M0 M1 M2 H0 H1 H2 j
      = feat 256 (by decide) s255 255#32 (fun h' w => H0 (ix3 c h' w)) (fun h' w => H1 (ix3 c h' w)) (fun h' w => H2 (ix3 c h' w)) x y z := by
  have hc := c.isLt
  unfold row
  rw [dif_neg (by omega), dif_neg (by omega)]
  have e : (⟨j.val - 64, by omega⟩ : Fin 32) = c := Fin.ext (by simp only; omega)
  rw [e]

/-- THE RESULT: row b is the row of point b's coordinates. -/
def G (X : S524288x3.Idx → EReal) (L0 L1 L2 : S32x64x64.Idx → EReal) (M0 M1 M2 : S32x128x128.Idx → EReal)
    (H0 H1 H2 : S32x256x256.Idx → EReal) : S524288x96.Idx → EReal := fun i =>
  row (X (ix2 (i 0) (0 : Fin 3))) (X (ix2 (i 0) (1 : Fin 3))) (X (ix2 (i 0) (2 : Fin 3))) L0 L1 L2 M0 M1 M2 H0 H1 H2 (i 1)

end Cert.Spec

end
-- ==== Proof.OnehotReal.lean ====
/-
  The arithmetic that joins the two sides.

  One side reads the four corner values of a channel directly and combines them bilinearly.  The other multiplies a
  one-hot row vector over the rows (weights 1 − wy and wy at the two corner rows) into the whole table of all 32
  channels laid side by side (column c·S + w holds channel c's column w), multiplies the result column by column with a
  one-hot vector over the columns repeated once per channel, and adds up each channel's S columns with a 0/1 matrix.
  Over the reals these are the same number: a sum against a one-hot vector picks out one entry, and the sum over the
  32·S columns weighted by "column j belongs to channel c" is the sum over channel c's S columns.
-/
import Mathlib.Algebra.BigOperators.Fin
import Mathlib.Algebra.BigOperators.Ring.Finset
import Mathlib.Logic.Equiv.Fin.Basic
import Mathlib.Data.Real.Basic
import Mathlib.Tactic.Ring
import Mathlib.Tactic.Linarith

noncomputable section

open scoped BigOperators

namespace Cert.Onehot

/-! ## Real arithmetic -/

/-- A sum against the sum of two one-hot vectors picks out the two entries. -/
theorem sum_two_hot {S : Nat} (z z' : Fin S) (a a' : ℝ) (g : Fin S → ℝ) :
    ∑ l : Fin S, ((if l.val = z.val then a else 0) + (if l.val = z'.val then a' else 0)) * g l = a * g z + a' * g z' := by
  have e : ∀ (y : Fin S) (r : ℝ), ∑ l : Fin S, (if l.val = y.val then r else 0) * g l = r * g y := by
    intro y r
    rw [Finset.sum_eq_single y]
    · rw [if_pos rfl]
    · intro l _ hl
      rw [if_neg (fun h => hl (Fin.ext h)), zero_mul]
    · intro h; exact absurd (Finset.mem_univ y) h
  simp only [add_mul, Finset.sum_add_distrib, e]

/-- The columns of the side-by-side table, summed with the channel-membership weights, are the channel's own columns. -/
theorem sum_segment {S : Nat} (c : Fin 32) (f : Fin 32 → Fin S → ℝ) (F : Fin (32 * S) → ℝ)
    (hF : ∀ (c' : Fin 32) (w : Fin S), F (finProdFinEquiv (c', w)) = f c' w) :
    ∑ j : Fin (32 * S), F j * (if j.val / S = c.val then (1 : ℝ) else 0) = ∑ w : Fin S, f c w := by
  rw [← Equiv.sum_comp finProdFinEquiv, Fintype.sum_prod_type, Finset.sum_eq_single c]
  · refine Finset.sum_congr rfl fun w _ => ?_
    have hS : 0 < S := Nat.pos_of_ne_zero (fun h => by subst h; exact w.elim0)
    have : (finProdFinEquiv (c, w)).val / S = c.val := by
      show (w.val + S * c.val) / S = c.val
      rw [Nat.add_mul_div_left _ _ hS, Nat.div_eq_of_lt w.isLt, Nat.zero_add]
    rw [hF, if_pos this, mul_one]
  · intro c' _ hc'
    refine Finset.sum_eq_zero fun w _ => ?_
    have hS : 0 < S := Nat.pos_of_ne_zero (fun h => by subst h; exact w.elim0)
    have : (finProdFinEquiv (c', w)).val / S = c'.val := by
      show (w.val + S * c'.val) / S = c'.val
      rw [Nat.add_mul_div_left _ _ hS, Nat.div_eq_of_lt w.isLt, Nat.zero_add]
    rw [if_neg (fun h => hc' (Fin.ext (this.symm.trans h))), mul_zero]
  · intro h; exact absurd (Finset.mem_univ c) h

/-- THE IDENTITY over the reals: the two matrix products with one-hot vectors give the bilinear combination of the four corners. -/
theorem onehot_products {S : Nat} (c : Fin 32) (P : Fin 32 → Fin S → Fin S → ℝ) (x0 x1 y0 y1 : Fin S) (a a' b b' : ℝ) :
    ∑ j : Fin (32 * S),
        ((∑ h : Fin S, ((if h.val = y0.val then b else 0) + (if h.val = y1.val then b' else 0))
            * P ⟨j.val / S, Nat.div_lt_of_lt_mul (Nat.mul_comm 32 S ▸ j.isLt)⟩ h
                ⟨j.val % S, Nat.mod_lt _ (Nat.pos_of_ne_zero (fun h0 => by subst h0; exact x0.elim0))⟩)
          * ((if j.val % S = x0.val then a else 0) + (if j.val % S = x1.val then a' else 0)))
        * (if j.val / S = c.val then (1 : ℝ) else 0)
      = (P c y0 x0 * a + P c y0 x1 * a') * b + (P c y1 x0 * a + P c y1 x1 * a') * b' := by
  have hS : 0 < S := Nat.pos_of_ne_zero (fun h0 => by subst h0; exact x0.elim0)
  rw [sum_segment c (fun c' w => (∑ h : Fin S, ((if h.val = y0.val then b else 0) + (if h.val = y1.val then b' else 0)) * P c' h w)
      * ((if w.val = x0.val then a else 0) + (if w.val = x1.val then a' else 0)))]
  · simp only [sum_two_hot]
    have := sum_two_hot x0 x1 a a' (fun w => b * P c y0 w + b' * P c y1 w)
    simp only [mul_comm (b * P c y0 _ + b' * P c y1 _)]
    rw [this]; ring
  · intro c' w
    have h1 : (finProdFinEquiv (c', w)).val / S = c'.val := by
      show (w.val + S * c'.val) / S = c'.val
      rw [Nat.add_mul_div_left _ _ hS, Nat.div_eq_of_lt w.isLt, Nat.zero_add]
    have h2 : (finProdFinEquiv (c', w)).val % S = w.val := by
      show (w.val + S * c'.val) % S = w.val
      rw [Nat.add_mul_mod_self_left, Nat.mod_eq_of_lt w.isLt]
    simp only [h1, h2, Fin.eta]

end Cert.Onehot

end
-- ==== Proof.Onehot.lean ====
/-
  The one-hot arithmetic on the extended reals.

  A lane counter compared with a clamped index word selects one lane: the selected weight at that lane, zero elsewhere.
  For real weights and a real table the kernel's two matrix products — the one-hot row vector into the side-by-side
  table, the column weights repeated per channel, the 0/1 channel-membership matrix — add up to the bilinear combination
  of the four corner entries (the real identity of OnehotReal, carried across the coercion of the reals into the extended
  reals, where products do not distribute over sums in general).
-/
import proofs.«123486_j78099685310709_1_alg».proof.Proof.Spec
import proofs.«123486_j78099685310709_1_alg».proof.Proof.OnehotReal
import Idealize.ShloMosaic.PureOps.Ideal.Laws

noncomputable section

open scoped BigOperators

namespace Cert.Spec

open Idealize.ShloMosaic Cert.Onehot

/-- A word is a position on an axis of extent S when, read signed, it is non-negative and below S. -/
def InAxis (S : Nat) (z : BitVec 32) : Prop := 0 ≤ z.toInt ∧ z.toInt < (S : Int)

theorem slt_iff (x y : BitVec 32) : x.slt y = true ↔ x.toInt < y.toInt := by simp [BitVec.slt]

/-- Clamping into [0, hi] gives a position on an axis of extent above hi. -/
theorem clamp_inAxis (hi z : BitVec 32) (S : Nat) (h0 : 0 ≤ hi.toInt) (hS : hi.toInt < (S : Int)) : InAxis S (clamp hi z) := by
  have e0 : (0#32 : BitVec 32).toInt = 0 := by decide
  unfold clamp IntOp.minsi IntOp.maxsi InAxis
  by_cases h1 : z.slt 0#32 = true
  · rw [if_pos h1]
    by_cases h2 : hi.slt 0#32 = true
    · rw [if_pos h2]; exact ⟨h0, hS⟩
    · rw [if_neg h2, e0]; exact ⟨le_refl _, by omega⟩
  · rw [if_neg h1]
    have hz : 0 ≤ z.toInt := by
      have := (slt_iff z 0#32).not.mp h1
      rw [e0] at this; omega
    by_cases h2 : hi.slt z = true
    · rw [if_pos h2]; exact ⟨h0, hS⟩
    · rw [if_neg h2]
      have := (slt_iff hi z).not.mp h2
      exact ⟨hz, by omega⟩

/-- On an axis of extent at most 2^31, such a word's position is its unsigned value. -/
theorem pos_val {S : Nat} (hS : 0 < S) (z : BitVec 32) (h : InAxis S z) : (pos S hS z).val = z.toNat ∧ z.toNat < S := by
  obtain ⟨h0, h1⟩ := h
  have := BitVec.toInt_eq_toNat_cond z
  have hlt := z.isLt
  unfold pos
  simp only
  split at this <;> omega

/-- The one-hot weight: a at the lane whose number is the word z, the zero literal elsewhere. -/
theorem select_lane {S : Nat} (hS : 0 < S) (hS32 : S ≤ 2 ^ 32) (z : BitVec 32) (h : InAxis S z) (a : ℝ) (l : Nat) (hl : l < S) :
    Scalar.select (IntOp.cmpi .eq (BitVec.ofNat 32 l) z) (a : EReal) (Ideal.ofBits .f32 0x00000000#32)
      = ((if l = (pos S hS z).val then a else 0 : ℝ) : EReal) := by
  obtain ⟨hp, hz⟩ := pos_val hS z h
  rw [hp]
  have e : (BitVec.ofNat 32 l = z) ↔ l = z.toNat := by
    constructor
    · intro he; rw [← he, BitVec.toNat_ofNat, Nat.mod_eq_of_lt (by omega)]
    · intro he; rw [he]; apply BitVec.eq_of_toNat_eq; rw [BitVec.toNat_ofNat, Nat.mod_eq_of_lt z.isLt]
  unfold Scalar.select IntOp.cmpi
  by_cases hc : l = z.toNat
  · rw [if_pos hc, if_pos]
    simp [e.mpr hc]
  · rw [if_neg hc, if_neg]
    · exact Ideal.ofBits_zero_f32
    · have hne : ¬ BitVec.ofNat 32 l = z := fun he => hc (e.mp he)
      have hb : (BitVec.ofNat 32 l == z) = false := by simpa using hne
      rw [hb]; exact (by decide : ¬ BitVec.ofBool false = 1#1)

end Cert.Spec

namespace Cert.Spec
open Idealize.ShloMosaic Cert.Onehot

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE IDENTITY on the extended reals, for real weights and a real table: the two matrix products with one-hot
    vectors (as the vector unit computes them: selects against a lane counter, the 0/1 matrix of channel membership)
    give the bilinear combination of the four corner values. -/
theorem kernel_plane_eq {S N : Nat} (hS : 0 < S) (hS32 : S ≤ 2 ^ 32) (hN : N = 32 * S)
    (T : Fin S → Fin N → EReal) (seg : Fin N → EReal) (c : Fin 32) (P : Fin 32 → Fin S → Fin S → ℝ)
    (hT : ∀ (h : Fin S) (x : Fin N), T h x = (P ⟨x.val / S, Nat.div_lt_of_lt_mul (by rw [Nat.mul_comm, ← hN]; exact x.isLt)⟩ h ⟨x.val % S, Nat.mod_lt _ hS⟩ : ℝ))
    (hseg : ∀ x : Fin N, seg x = ((if x.val / S = c.val then 1 else 0 : ℝ) : EReal))
    (x0 x1 y0 y1 : BitVec 32) (hx0 : InAxis S x0) (hx1 : InAxis S x1) (hy0 : InAxis S y0) (hy1 : InAxis S y1) (a a' b b' : ℝ) :
    ∑ x : Fin N, ((∑ h : Fin S, (Scalar.select (IntOp.cmpi .eq (BitVec.ofNat 32 h.val) y0) (b : EReal) (Ideal.ofBits .f32 0x00000000#32)
            + Scalar.select (IntOp.cmpi .eq (BitVec.ofNat 32 h.val) y1) (b' : EReal) (Ideal.ofBits .f32 0x00000000#32)) * T h x)
          * (Scalar.select (IntOp.cmpi .eq (BitVec.ofNat 32 (x.val % S)) x0) (a : EReal) (Ideal.ofBits .f32 0x00000000#32)
            + Scalar.select (IntOp.cmpi .eq (BitVec.ofNat 32 (x.val % S)) x1) (a' : EReal) (Ideal.ofBits .f32 0x00000000#32))) * seg x
      = (((P c (pos S hS y0) (pos S hS x0) * a + P c (pos S hS y0) (pos S hS x1) * a') * b
          + (P c (pos S hS y1) (pos S hS x0) * a + P c (pos S hS y1) (pos S hS x1) * a') * b' : ℝ) : EReal) := by
  subst hN
  rw [← onehot_products c P (pos S hS x0) (pos S hS x1) (pos S hS y0) (pos S hS y1) a a' b b', coe_sum]
  refine Finset.sum_congr rfl fun x _ => ?_
  rw [hseg x, select_lane hS hS32 x0 hx0 a _ (Nat.mod_lt _ hS), select_lane hS hS32 x1 hx1 a' _ (Nat.mod_lt _ hS),
    EReal.coe_mul, EReal.coe_mul, EReal.coe_add, coe_sum]
  congr 2
  refine Finset.sum_congr rfl fun h _ => ?_
  rw [hT h x, select_lane hS hS32 y0 hy0 b _ h.isLt, select_lane hS hS32 y1 hy1 b' _ h.isLt, EReal.coe_mul, EReal.coe_add]

end Cert.Spec

namespace Cert.Spec
open Idealize.ShloMosaic Cert.Onehot

/-- A single-precision word whose exponent field is not all ones denotes a real number. -/
theorem ofBits_f32_real (w : BitVec 32) (h : (w.extractLsb' 23 8).toNat ≠ 2 ^ 8 - 1) : ∃ r : ℝ, Ideal.ofBits .f32 w = (r : EReal) := by
  show ∃ r : ℝ, Ideal.ieee 8 23 w = (r : EReal)
  unfold Ideal.ieee
  simp only [if_neg h]
  split_ifs <;> exact ⟨_, rfl⟩

theorem one_real : ∃ r : ℝ, one = (r : EReal) := ofBits_f32_real _ (by decide)
theorem half_real : ∃ r : ℝ, half = (r : EReal) := ofBits_f32_real _ (by decide)
theorem s63_real : ∃ r : ℝ, s63 = (r : EReal) := ofBits_f32_real _ (by decide)
theorem s127_real : ∃ r : ℝ, s127 = (r : EReal) := ofBits_f32_real _ (by decide)
theorem s255_real : ∃ r : ℝ, s255 = (r : EReal) := ofBits_f32_real _ (by decide)

/-- The pixel position of a real coordinate is real. -/
theorem pix_real (s1 g : EReal) (hs : ∃ r : ℝ, s1 = (r : EReal)) (hg : ∃ r : ℝ, g = (r : EReal)) : ∃ r : ℝ, pix s1 g = (r : EReal) := by
  obtain ⟨rs, rfl⟩ := hs; obtain ⟨rg, rfl⟩ := hg
  obtain ⟨r1, h1⟩ := one_real; obtain ⟨rh, hh⟩ := half_real
  unfold pix; rw [h1, hh]
  exact ⟨(rg + r1) * rh * rs, by rw [EReal.coe_mul, EReal.coe_mul, EReal.coe_add]⟩

/-- The fractional part of a real is real. -/
theorem frac_coe (r : ℝ) : frac (r : EReal) = ((r - (⌊r⌋ : ℝ) : ℝ) : EReal) := by
  unfold frac
  show (r : EReal) - (((⌊r⌋ : ℤ) : ℝ) : EReal) = _
  rw [← EReal.coe_sub]

/-- THE KERNEL'S SAMPLE IS THE BILINEAR SAMPLE, for real coordinates and a real table. -/
theorem kernel_sample_eq {S N : Nat} (hS : 0 < S) (hS32 : S ≤ 2 ^ 32) (hN : N = 32 * S) (hi : BitVec 32)
    (hhi0 : 0 ≤ hi.toInt) (hhiS : hi.toInt < (S : Int)) (s1 : EReal) (hs1 : ∃ r : ℝ, s1 = (r : EReal))
    (T : Fin S → Fin N → EReal) (seg : Fin N → EReal) (c : Fin 32) (Q : Fin 32 → Fin S → Fin S → EReal)
    (hQ : ∀ c h w, ∃ r : ℝ, Q c h w = (r : EReal))
    (hT : ∀ (h : Fin S) (x : Fin N), T h x = Q ⟨x.val / S, Nat.div_lt_of_lt_mul (by rw [Nat.mul_comm, ← hN]; exact x.isLt)⟩ h ⟨x.val % S, Nat.mod_lt _ hS⟩)
    (hseg : ∀ x : Fin N, seg x = ((if x.val / S = c.val then 1 else 0 : ℝ) : EReal))
    (gx gy : EReal) (hgx : ∃ r : ℝ, gx = (r : EReal)) (hgy : ∃ r : ℝ, gy = (r : EReal)) :
    ∑ x : Fin N, ((∑ h : Fin S, (Scalar.select (IntOp.cmpi .eq (BitVec.ofNat 32 h.val) (lo hi (pix s1 gy))) (one - frac (pix s1 gy)) (Ideal.ofBits .f32 0x00000000#32)
            + Scalar.select (IntOp.cmpi .eq (BitVec.ofNat 32 h.val) (up hi (pix s1 gy))) (frac (pix s1 gy)) (Ideal.ofBits .f32 0x00000000#32)) * T h x)
          * (Scalar.select (IntOp.cmpi .eq (BitVec.ofNat 32 (x.val % S)) (lo hi (pix s1 gx))) (one - frac (pix s1 gx)) (Ideal.ofBits .f32 0x00000000#32)
            + Scalar.select (IntOp.cmpi .eq (BitVec.ofNat 32 (x.val % S)) (up hi (pix s1 gx))) (frac (pix s1 gx)) (Ideal.ofBits .f32 0x00000000#32))) * seg x
      = sample S hS s1 hi (Q c) gx gy := by
  obtain ⟨px, hpx⟩ := pix_real s1 gx hs1 hgx
  obtain ⟨py, hpy⟩ := pix_real s1 gy hs1 hgy
  obtain ⟨r1, h1⟩ := one_real
  have hQ' : ∀ c h w, Q c h w = (((Q c h w).toReal : ℝ) : EReal) := fun c h w => by
    obtain ⟨r, hr⟩ := hQ c h w; rw [hr, EReal.toReal_coe]
  unfold sample bilin
  rw [hpx, hpy, frac_coe, frac_coe, h1, ← EReal.coe_sub, ← EReal.coe_sub]
  rw [kernel_plane_eq hS hS32 hN T seg c (fun c h w => (Q c h w).toReal) (fun h x => (hT h x).trans (hQ' _ _ _)) hseg
    (lo hi (px : EReal)) (up hi (px : EReal)) (lo hi (py : EReal)) (up hi (py : EReal))
    (clamp_inAxis hi _ S hhi0 hhiS) (clamp_inAxis hi _ S hhi0 hhiS) (clamp_inAxis hi _ S hhi0 hhiS) (clamp_inAxis hi _ S hhi0 hhiS)]
  simp only [EReal.coe_mul, EReal.coe_add, ← hQ']

end Cert.Spec

namespace Cert.Spec
open Idealize.ShloMosaic
theorem pix_fold (s1 g : EReal) : ((g + Ideal.ofBits .f32 0x3F800000#32) * Ideal.ofBits .f32 0x3F000000#32) * s1 = pix s1 g := rfl
theorem frac_fold (p : EReal) : p - Ideal.liftRound Int.floor p = frac p := rfl
theorem lo_fold (hi : BitVec 32) (p : EReal) : IntOp.minsi hi (IntOp.maxsi 0#32 (Ideal.fptosi 32 (Ideal.liftRound Int.floor p))) = lo hi p := rfl
theorem up_fold (hi : BitVec 32) (p : EReal) : IntOp.minsi hi (IntOp.maxsi 0#32 (IntOp.addi (lo hi p) 1#32)) = up hi p := rfl
end Cert.Spec

end
-- ==== Proof.LibSegWord.lean ====
/-
  Words as numbers: signed division and remainder of non-negative 32-bit words by a positive word are the quotient and
  remainder of the numbers, and the vector unit's spelling of floor division (truncated quotient, minus one when the
  signs differ and the remainder is not zero) of a non-negative row number k by the block width D is k / D. So the 0/1
  matrix "row k belongs to channel c" has its one exactly where k / D = c.
-/
import Idealize.ShloMosaic.PureOps.Ideal
import Idealize.ShloMosaic.PureOps.Ideal.Laws
import Idealize.ShloMosaic.Lib.ValueIdx
import Mathlib.Data.Real.Basic
import Mathlib.Tactic.Linarith

noncomputable section

open scoped BigOperators

namespace Cert.Spec
open Idealize.ShloMosaic

theorem toNat_ofNat_lt (k : Nat) (hk : k < 2 ^ 32) : (BitVec.ofNat 32 k).toNat = k := by
  rw [BitVec.toNat_ofNat, Nat.mod_eq_of_lt hk]

theorem msb_ofNat_lt (k : Nat) (hk : k < 2 ^ 31) : (BitVec.ofNat 32 k).msb = false := by
  rw [BitVec.msb_eq_decide, toNat_ofNat_lt k (by omega)]
  simp only [decide_eq_false_iff_not, Nat.not_le]
  omega

theorem not_corner (k D : Nat) (hD0 : 0 < D) (hD : D < 2 ^ 31) : ¬ IntOp.SDivCorner (BitVec.ofNat 32 k) (BitVec.ofNat 32 D) := by
  rintro (h | ⟨_, h⟩)
  · have := congrArg BitVec.toNat h
    rw [toNat_ofNat_lt D (by omega)] at this
    simp at this; omega
  · have := congrArg BitVec.toNat h
    rw [toNat_ofNat_lt D (by omega)] at this
    simp at this; omega

/-- Signed division of non-negative words by a positive word is the quotient of the numbers. -/
theorem divsi_nonneg (k D : Nat) (hk : k < 2 ^ 31) (hD0 : 0 < D) (hD : D < 2 ^ 31) :
    IntOp.divsi .vector (BitVec.ofNat 32 k) (BitVec.ofNat 32 D) = BitVec.ofNat 32 (k / D) := by
  unfold IntOp.divsi
  rw [if_neg (not_corner k D hD0 hD), BitVec.sdiv_eq, msb_ofNat_lt k hk, msb_ofNat_lt D hD]
  apply BitVec.eq_of_toNat_eq
  have hq : k / D < 2 ^ 32 := lt_of_le_of_lt (Nat.div_le_self _ _) (by omega)
  simp only [BitVec.udiv_eq, BitVec.toNat_udiv]
  rw [toNat_ofNat_lt k (by omega), toNat_ofNat_lt D (by omega), toNat_ofNat_lt _ hq]

/-- The signed remainder likewise. -/
theorem remsi_nonneg (k D : Nat) (hk : k < 2 ^ 31) (hD0 : 0 < D) (hD : D < 2 ^ 31) :
    IntOp.remsi .vector (BitVec.ofNat 32 k) (BitVec.ofNat 32 D) = BitVec.ofNat 32 (k % D) := by
  unfold IntOp.remsi
  rw [if_neg (not_corner k D hD0 hD), BitVec.srem_eq, msb_ofNat_lt k hk, msb_ofNat_lt D hD]
  apply BitVec.eq_of_toNat_eq
  have hq : k % D < 2 ^ 32 := lt_of_lt_of_le (Nat.mod_lt _ hD0) (by omega)
  simp only [BitVec.toNat_umod]
  rw [toNat_ofNat_lt k (by omega), toNat_ofNat_lt D (by omega), toNat_ofNat_lt _ hq]

theorem toInt_ofNat_lt (k : Nat) (hk : k < 2 ^ 31) : (BitVec.ofNat 32 k).toInt = (k : Int) := by
  have := BitVec.toInt_eq_toNat_cond (BitVec.ofNat 32 k)
  rw [toNat_ofNat_lt k (by omega)] at this
  split at this <;> omega

theorem slt_iff' (x y : BitVec 32) : x.slt y = true ↔ x.toInt < y.toInt := by simp [BitVec.slt]

/-- The sign of a non-negative word as the vector unit computes it: (word > 0) − (word < 0), each comparison widened to 32 bits. -/
theorem sign_word (k : Nat) (hk : k < 2 ^ 31) :
    IntOp.subi (BitVec.setWidth 32 (IntOp.cmpi .sgt (BitVec.ofNat 32 k) 0#32)) (BitVec.setWidth 32 (IntOp.cmpi .slt (BitVec.ofNat 32 k) 0#32))
      = if 0 < k then 1#32 else 0#32 := by
  have e0 : (0#32 : BitVec 32).toInt = 0 := by decide
  have h1 : (BitVec.ofNat 32 k).slt 0#32 = false := by
    apply Bool.eq_false_iff.mpr; intro h
    have := (slt_iff' _ _).mp h
    rw [toInt_ofNat_lt k hk, e0] at this; omega
  unfold IntOp.cmpi IntOp.subi
  simp only [h1]
  by_cases hk0 : 0 < k
  · have h2 : (0#32 : BitVec 32).slt (BitVec.ofNat 32 k) = true := by
      apply (slt_iff' _ _).mpr; rw [toInt_ofNat_lt k hk, e0]; omega
    rw [h2, if_pos hk0]; decide
  · have h2 : (0#32 : BitVec 32).slt (BitVec.ofNat 32 k) = false := by
      apply Bool.eq_false_iff.mpr; intro h
      have := (slt_iff' _ _).mp h
      rw [toInt_ofNat_lt k hk, e0] at this; omega
    rw [h2, if_neg hk0]; decide

/-- THE CHANNEL-MEMBERSHIP ENTRY: row k of the 0/1 matrix has its one in column k / D (the floor division as the
    vector unit spells it: truncated quotient, corrected when the signs differ and the remainder is not zero). -/
theorem seg_word (D k c : Nat) (hD0 : 0 < D) (hD : D < 2 ^ 31) (hk : k < 2 ^ 31) (hc : c < 2 ^ 31) :
    FloatOps.sitofp (F := Ideal) .f32 (BitVec.setWidth 32 (IntOp.cmpi .eq
      (Scalar.select
        (IntOp.andi
          (IntOp.cmpi .ne
            (IntOp.subi (BitVec.setWidth 32 (IntOp.cmpi .sgt (BitVec.ofNat 32 k) 0#32)) (BitVec.setWidth 32 (IntOp.cmpi .slt (BitVec.ofNat 32 k) 0#32)))
            (Scalar.subi (Scalar.extui (Scalar.cmpi .sgt (BitVec.ofNat 32 D) 0#32)) (Scalar.extui (Scalar.cmpi .slt (BitVec.ofNat 32 D) 0#32))))
          (IntOp.cmpi .ne (IntOp.remsi .vector (BitVec.ofNat 32 k) (BitVec.ofNat 32 D)) 0#32))
        (IntOp.subi (IntOp.divsi .vector (BitVec.ofNat 32 k) (BitVec.ofNat 32 D)) 1#32)
        (IntOp.divsi .vector (BitVec.ofNat 32 k) (BitVec.ofNat 32 D)))
      (BitVec.ofNat 32 c)))
      = ((if k / D = c then 1 else 0 : ℝ) : EReal) := by
  have hsD : Scalar.subi (Scalar.extui (Scalar.cmpi .sgt (BitVec.ofNat 32 D) 0#32)) (Scalar.extui (Scalar.cmpi .slt (BitVec.ofNat 32 D) 0#32)) = 1#32 := by
    have := sign_word D hD
    rw [if_pos hD0] at this
    exact this
  have hcond : IntOp.andi
          (IntOp.cmpi .ne
            (IntOp.subi (BitVec.setWidth 32 (IntOp.cmpi .sgt (BitVec.ofNat 32 k) 0#32)) (BitVec.setWidth 32 (IntOp.cmpi .slt (BitVec.ofNat 32 k) 0#32)))
            (Scalar.subi (Scalar.extui (Scalar.cmpi .sgt (BitVec.ofNat 32 D) 0#32)) (Scalar.extui (Scalar.cmpi .slt (BitVec.ofNat 32 D) 0#32))))
          (IntOp.cmpi .ne (IntOp.remsi .vector (BitVec.ofNat 32 k) (BitVec.ofNat 32 D)) 0#32) = 0#1 := by
    rw [hsD, sign_word k hk, remsi_nonneg k D hk hD0 hD]
    by_cases hk0 : 0 < k
    · rw [if_pos hk0]; unfold IntOp.andi IntOp.cmpi; simp
    · have : k = 0 := by omega
      subst this
      rw [if_neg hk0, Nat.zero_mod]; unfold IntOp.andi IntOp.cmpi; decide
  rw [hcond, ValueIdx.select_zero, divsi_nonneg k D hk hD0 hD]
  have hq : k / D < 2 ^ 32 := lt_of_le_of_lt (Nat.div_le_self _ _) (by omega)
  have e : (BitVec.ofNat 32 (k / D) = BitVec.ofNat 32 c) ↔ k / D = c := by
    constructor
    · intro he
      have := congrArg BitVec.toNat he
      rwa [toNat_ofNat_lt _ hq, toNat_ofNat_lt c (by omega)] at this
    · intro he; rw [he]
  unfold IntOp.cmpi
  by_cases hkc : k / D = c
  · rw [if_pos hkc]
    have : (BitVec.ofNat 32 (k / D) == BitVec.ofNat 32 c) = true := by simpa using e.mpr hkc
    simp only [this]
    show (((BitVec.setWidth 32 (BitVec.ofBool true)).toInt : ℝ) : EReal) = _
    have : (BitVec.setWidth 32 (BitVec.ofBool true)).toInt = 1 := by decide
    rw [this]; norm_num
  · rw [if_neg hkc]
    have : (BitVec.ofNat 32 (k / D) == BitVec.ofNat 32 c) = false := by simpa using (fun he => hkc (e.mp he))
    simp only [this]
    show (((BitVec.setWidth 32 (BitVec.ofBool false)).toInt : ℝ) : EReal) = _
    have : (BitVec.setWidth 32 (BitVec.ofBool false)).toInt = 0 := by decide
    rw [this]; norm_num

end Cert.Spec

end
-- ==== Proof.KernelPlanes.lean ====
/-
  The kernel body's value, index by index.

  For each resolution the body computes, plane by plane, the running product of the plane's bilinear sample: the
  coordinates' pixel positions, their clamped integer corners and fractional weights, the one-hot row and column vectors,
  the matrix product with the plane's side-by-side table, the column weights repeated per channel, and the sum over each
  channel's columns by a 0/1 matrix. Read at (point b, channel c) each plane's stage is the running product times the
  plane's sample (the one-hot identity), so each 32-column piece of the 128×96 output block holds one resolution's
  features and row r of the block is the result row of the coordinates in row r of the input block.
-/
import proofs.«123486_j78099685310709_1_alg».proof.Proof.Gen.KernelIdeal.Frame
import proofs.«123486_j78099685310709_1_alg».proof.Proof.LibKeepdims
import proofs.«123486_j78099685310709_1_alg».proof.Proof.LibPlainDot
import proofs.«123486_j78099685310709_1_alg».proof.Proof.LibVecRead
import proofs.«123486_j78099685310709_1_alg».proof.Proof.Onehot
import proofs.«123486_j78099685310709_1_alg».proof.Proof.LibSegWord

noncomputable section

open scoped BigOperators

namespace Cert.KernelIdeal.Planes

open Idealize.ShloMosaic Idealize.ShloMosaic.ValueIdx Idealize.ShloMosaic.TcCoe
open Cert.KernelIdeal Cert.KernelIdeal.Gen
open Idealize.ShloMosaic.Keepdims Idealize.ShloMosaic.PlainDot Cert.VecRead

theorem dotA_low : dot_S128x64_S64x2048_S128x2048_1_0_0_1_n_n = DotDims.plain 128 64 2048 := rfl
theorem dotB_low : dot_S128x2048_S2048x32_S128x32_1_0_0_1_n_n = DotDims.plain 128 2048 32 := rfl
theorem dotA_mid : dot_S128x128_S128x4096_S128x4096_1_0_0_1_n_n = DotDims.plain 128 128 4096 := rfl
theorem dotB_mid : dot_S128x4096_S4096x32_S128x32_1_0_0_1_n_n = DotDims.plain 128 4096 32 := rfl
theorem dotA_high : dot_S128x256_S256x8192_S128x8192_1_0_0_1_n_n = DotDims.plain 128 256 8192 := rfl
theorem dotB_high : dot_S128x8192_S8192x32_S128x32_1_0_0_1_n_n = DotDims.plain 128 8192 32 := rfl

/-- The 0/1 channel-membership matrix of the low resolution, read at (x, c): one exactly when column x of the side-by-side table belongs to channel c. -/
theorem seg_low_apply (x : Fin 2048) (c : Fin 32) :
    (k0_pay2 (F := Ideal)) (ix2 x c) = ((if x.val / 64 = c.val then 1 else 0 : ℝ) : EReal) := by
  simp only [k0_pay2, ValueIdx.truncf_apply, ValueIdx.sitofp_apply, ValueIdx.extui_apply, cmpi_apply, ValueIdx.select_apply, subi_apply, andi_apply, divsi_apply, remsi_apply, ValueIdx.broadcast_apply]
  generalize hio : iota .tc S2048x32 32 [0] iota_S2048x32_d0_w32 = io0
  generalize hi1 : iota .tc S2048x32 32 [1] iota_S2048x32_d1_w32 = io1
  have hio' : ∀ (b : Fin 2048) (l : Fin 32), io0 (ix2 b l) = BitVec.ofNat 32 b.val := fun b l => hio ▸ iota0_apply _ b l
  have hi1' : ∀ (b : Fin 2048) (l : Fin 32), io1 (ix2 b l) = BitVec.ofNat 32 l.val := fun b l => hi1 ▸ iota1_apply _ b l
  simp only [hio', hi1']
  exact Cert.Spec.seg_word 64 x.val c.val (by decide) (by decide) (by have := x.isLt; omega) (by have := c.isLt; omega)

/-- The 0/1 channel-membership matrix of the mid resolution, read at (x, c): one exactly when column x of the side-by-side table belongs to channel c. -/
theorem seg_mid_apply (x : Fin 4096) (c : Fin 32) :
    (k0_pay42 (F := Ideal) (iota .tc S4096x32 32 [1] iota_S4096x32_d1_w32) k0_pay39 k0_pay40 k0_pay41) (ix2 x c) = ((if x.val / 128 = c.val then 1 else 0 : ℝ) : EReal) := by
  simp only [k0_pay42, k0_pay41, k0_pay40, k0_pay39, ValueIdx.truncf_apply, ValueIdx.sitofp_apply, ValueIdx.extui_apply, cmpi_apply, ValueIdx.select_apply, subi_apply, andi_apply, divsi_apply, remsi_apply, ValueIdx.broadcast_apply]
  generalize hio : iota .tc S4096x32 32 [0] iota_S4096x32_d0_w32 = io0
  generalize hi1 : iota .tc S4096x32 32 [1] iota_S4096x32_d1_w32 = io1
  have hio' : ∀ (b : Fin 4096) (l : Fin 32), io0 (ix2 b l) = BitVec.ofNat 32 b.val := fun b l => hio ▸ iota0_apply _ b l
  have hi1' : ∀ (b : Fin 4096) (l : Fin 32), io1 (ix2 b l) = BitVec.ofNat 32 l.val := fun b l => hi1 ▸ iota1_apply _ b l
  simp only [hio', hi1']
  exact Cert.Spec.seg_word 128 x.val c.val (by decide) (by decide) (by have := x.isLt; omega) (by have := c.isLt; omega)

/-- The 0/1 channel-membership matrix of the high resolution, read at (x, c): one exactly when column x of the side-by-side table belongs to channel c. -/
theorem seg_high_apply (x : Fin 8192) (c : Fin 32) :
    (k0_pay81 (F := Ideal)) (ix2 x c) = ((if x.val / 256 = c.val then 1 else 0 : ℝ) : EReal) := by
  simp only [k0_pay81, ValueIdx.truncf_apply, ValueIdx.sitofp_apply, ValueIdx.extui_apply, cmpi_apply, ValueIdx.select_apply, subi_apply, andi_apply, divsi_apply, remsi_apply, ValueIdx.broadcast_apply]
  generalize hio : iota .tc S8192x32 32 [0] iota_S8192x32_d0_w32 = io0
  generalize hi1 : iota .tc S8192x32 32 [1] iota_S8192x32_d1_w32 = io1
  have hio' : ∀ (b : Fin 8192) (l : Fin 32), io0 (ix2 b l) = BitVec.ofNat 32 b.val := fun b l => hio ▸ iota0_apply _ b l
  have hi1' : ∀ (b : Fin 8192) (l : Fin 32), io1 (ix2 b l) = BitVec.ofNat 32 l.val := fun b l => hi1 ▸ iota1_apply _ b l
  simp only [hio', hi1']
  exact Cert.Spec.seg_word 256 x.val c.val (by decide) (by decide) (by have := x.isLt; omega) (by have := c.isLt; omega)

set_option maxHeartbeats 1000000 in
open Cert.Spec in
/-- Plane 0 of the low resolution: the running product times the bilinear sample at coordinates (0, 1). -/
theorem plane_low0 (X : Vec Ideal S128x3 .f32) (T : Vec Ideal S64x2048 .bf16) (A : Cert.Spec.S32x64x64.Idx → EReal)
    (sg : FVec Ideal S2048x32 .bf16) (acc : FVec Ideal S128x32 .f32)
    (hX : ∀ i, ∃ r : ℝ, X i = (r : EReal)) (hA : ∀ i, ∃ r : ℝ, A i = (r : EReal))
    (hT : ∀ (h : Fin 64) (x : Fin 2048), T (ix2 h x) = A (ix3 ⟨x.val / 64, by have := x.isLt; omega⟩ h ⟨x.val % 64, Nat.mod_lt _ (by decide)⟩))
    (hsg : ∀ (x : Fin 2048) (c : Fin 32), sg (ix2 x c) = ((if x.val / 64 = c.val then 1 else 0 : ℝ) : EReal))
    (b : Fin 128) (c : Fin 32) :
    k0_pay17 (F := Ideal) sg acc (k0_pay10 (k0_pay5 X) (Scalar.ofBits .f32 0x3F000000#32)) (k0_pay12 (k0_pay5 X) (Scalar.ofBits .f32 0x3F000000#32)) (k0_pay13 (k0_pay5 X) (Scalar.ofBits .f32 0x3F000000#32)) (iota .tc S128x64 32 [1] iota_S128x64_d1_w32) (k0_pay14 (k0_pay4 X)) (k0_pay15 (k0_pay4 X)) (Scalar.ofBits .f32 0x00000000#32) (k0_pay16 (k0_pay4 X)) T (ix2 b c)
      = acc (ix2 b c) * sample 64 (by decide) s63 63#32 (fun h w => A (ix3 c h w)) (X (ix2 b ⟨0, by decide⟩)) (X (ix2 b ⟨1, by decide⟩)) := by
  try simp only [k0_pay17, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay16, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay15, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay14, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay13, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay12, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay11, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay10, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay9, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay8, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay7, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay6, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay5, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay4, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  generalize hio : iota .tc S128x64 32 [1] iota_S128x64_d1_w32 = io
  have hio' : ∀ (b : Fin 128) (l : Fin 64), io (ix2 b l) = BitVec.ofNat 32 l.val := fun b l => hio ▸ iota1_apply _ b l
  simp only [hio', Ideal.ofBits_def, pix_fold, frac_fold, lo_fold, up_fold]
  exact congrArg (HMul.hMul (acc (ix2 b c))) (kernel_sample_eq (S := 64) (N := 2048) (by decide) (by decide) rfl 63#32 (by decide) (by decide) s63 s63_real
    (fun h x => T (ix2 h x)) (fun x => sg (ix2 x c)) c (fun c h w => A (ix3 c h w)) (fun c h w => hA _) hT (fun x => hsg x c)
    (X (ix2 b ⟨0, by decide⟩)) (X (ix2 b ⟨1, by decide⟩)) (hX _) (hX _))

set_option maxHeartbeats 1000000 in
open Cert.Spec in
/-- Plane 1 of the low resolution: the running product times the bilinear sample at coordinates (0, 2). -/
theorem plane_low1 (X : Vec Ideal S128x3 .f32) (T : Vec Ideal S64x2048 .bf16) (A : Cert.Spec.S32x64x64.Idx → EReal)
    (sg : FVec Ideal S2048x32 .bf16) (acc : FVec Ideal S128x32 .f32)
    (hX : ∀ i, ∃ r : ℝ, X i = (r : EReal)) (hA : ∀ i, ∃ r : ℝ, A i = (r : EReal))
    (hT : ∀ (h : Fin 64) (x : Fin 2048), T (ix2 h x) = A (ix3 ⟨x.val / 64, by have := x.isLt; omega⟩ h ⟨x.val % 64, Nat.mod_lt _ (by decide)⟩))
    (hsg : ∀ (x : Fin 2048) (c : Fin 32), sg (ix2 x c) = ((if x.val / 64 = c.val then 1 else 0 : ℝ) : EReal))
    (b : Fin 128) (c : Fin 32) :
    k0_pay27 (F := Ideal) sg acc (k0_pay23 (k0_pay19 X) (k0_pay20 (F := Ideal))) (k0_pay24 (k0_pay19 X) (k0_pay20 (F := Ideal))) (k0_pay25 (k0_pay19 X) (k0_pay20 (F := Ideal))) (iota .tc S128x64 32 [1] iota_S128x64_d1_w32) (k0_pay26 (k0_pay18 X)) T (ix2 b c)
      = acc (ix2 b c) * sample 64 (by decide) s63 63#32 (fun h w => A (ix3 c h w)) (X (ix2 b ⟨0, by decide⟩)) (X (ix2 b ⟨2, by decide⟩)) := by
  try simp only [k0_pay27, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay26, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay25, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay24, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay23, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay22, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay21, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay20, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay19, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay18, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  generalize hio : iota .tc S128x64 32 [1] iota_S128x64_d1_w32 = io
  have hio' : ∀ (b : Fin 128) (l : Fin 64), io (ix2 b l) = BitVec.ofNat 32 l.val := fun b l => hio ▸ iota1_apply _ b l
  simp only [hio', Ideal.ofBits_def, pix_fold, frac_fold, lo_fold, up_fold]
  exact congrArg (HMul.hMul (acc (ix2 b c))) (kernel_sample_eq (S := 64) (N := 2048) (by decide) (by decide) rfl 63#32 (by decide) (by decide) s63 s63_real
    (fun h x => T (ix2 h x)) (fun x => sg (ix2 x c)) c (fun c h w => A (ix3 c h w)) (fun c h w => hA _) hT (fun x => hsg x c)
    (X (ix2 b ⟨0, by decide⟩)) (X (ix2 b ⟨2, by decide⟩)) (hX _) (hX _))

set_option maxHeartbeats 1000000 in
open Cert.Spec in
/-- Plane 2 of the low resolution: the running product times the bilinear sample at coordinates (1, 2). -/
theorem plane_low2 (X : Vec Ideal S128x3 .f32) (T : Vec Ideal S64x2048 .bf16) (A : Cert.Spec.S32x64x64.Idx → EReal)
    (sg : FVec Ideal S2048x32 .bf16) (acc : FVec Ideal S128x32 .f32)
    (hX : ∀ i, ∃ r : ℝ, X i = (r : EReal)) (hA : ∀ i, ∃ r : ℝ, A i = (r : EReal))
    (hT : ∀ (h : Fin 64) (x : Fin 2048), T (ix2 h x) = A (ix3 ⟨x.val / 64, by have := x.isLt; omega⟩ h ⟨x.val % 64, Nat.mod_lt _ (by decide)⟩))
    (hsg : ∀ (x : Fin 2048) (c : Fin 32), sg (ix2 x c) = ((if x.val / 64 = c.val then 1 else 0 : ℝ) : EReal))
    (b : Fin 128) (c : Fin 32) :
    k0_pay38 (F := Ideal) sg acc (k0_pay33 (k0_pay29 X) (k0_pay31 X)) (iota .tc S128x64 32 [1] iota_S128x64_d1_w32) (k0_pay35 (k0_pay30 X) (k0_pay32 X)) (k0_pay36 (k0_pay31 X)) (k0_pay37 (k0_pay31 X)) T (ix2 b c)
      = acc (ix2 b c) * sample 64 (by decide) s63 63#32 (fun h w => A (ix3 c h w)) (X (ix2 b ⟨1, by decide⟩)) (X (ix2 b ⟨2, by decide⟩)) := by
  try simp only [k0_pay38, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay37, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay36, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay35, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay34, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay33, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay32, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay31, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay30, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay29, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay28, dotA_low, dotB_low, ValueIdx.mulf_apply, matmul_zero_apply, ValueIdx.truncf_apply, concat32_64_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  generalize hio : iota .tc S128x64 32 [1] iota_S128x64_d1_w32 = io
  have hio' : ∀ (b : Fin 128) (l : Fin 64), io (ix2 b l) = BitVec.ofNat 32 l.val := fun b l => hio ▸ iota1_apply _ b l
  simp only [hio', Ideal.ofBits_def, pix_fold, frac_fold, lo_fold, up_fold]
  exact congrArg (HMul.hMul (acc (ix2 b c))) (kernel_sample_eq (S := 64) (N := 2048) (by decide) (by decide) rfl 63#32 (by decide) (by decide) s63 s63_real
    (fun h x => T (ix2 h x)) (fun x => sg (ix2 x c)) c (fun c h w => A (ix3 c h w)) (fun c h w => hA _) hT (fun x => hsg x c)
    (X (ix2 b ⟨1, by decide⟩)) (X (ix2 b ⟨2, by decide⟩)) (hX _) (hX _))

set_option maxHeartbeats 1000000 in
open Cert.Spec in
/-- Plane 0 of the mid resolution: the running product times the bilinear sample at coordinates (0, 1). -/
theorem plane_mid0 (X : Vec Ideal S128x3 .f32) (T : Vec Ideal S128x4096 .bf16) (A : Cert.Spec.S32x128x128.Idx → EReal)
    (sg : FVec Ideal S4096x32 .bf16) (acc : FVec Ideal S128x32 .f32)
    (hX : ∀ i, ∃ r : ℝ, X i = (r : EReal)) (hA : ∀ i, ∃ r : ℝ, A i = (r : EReal))
    (hT : ∀ (h : Fin 128) (x : Fin 4096), T (ix2 h x) = A (ix3 ⟨x.val / 128, by have := x.isLt; omega⟩ h ⟨x.val % 128, Nat.mod_lt _ (by decide)⟩))
    (hsg : ∀ (x : Fin 4096) (c : Fin 32), sg (ix2 x c) = ((if x.val / 128 = c.val then 1 else 0 : ℝ) : EReal))
    (b : Fin 128) (c : Fin 32) :
    k0_pay56 (F := Ideal) sg acc (k0_pay54 (k0_pay48 X) (k0_pay50 X) (k0_pay51 X)) (k0_pay55 (k0_pay49 X) (k0_pay52 X) 127#32 k0_pay53) T (ix2 b c)
      = acc (ix2 b c) * sample 128 (by decide) s127 127#32 (fun h w => A (ix3 c h w)) (X (ix2 b ⟨0, by decide⟩)) (X (ix2 b ⟨1, by decide⟩)) := by
  try simp only [k0_pay56, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay55, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay54, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay53, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay52, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay51, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay50, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay49, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay48, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay47, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay46, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay45, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay44, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  generalize hio : iota .tc S128x128 32 [1] iota_S128x128_d1_w32 = io
  have hio' : ∀ (b : Fin 128) (l : Fin 128), io (ix2 b l) = BitVec.ofNat 32 l.val := fun b l => hio ▸ iota1_apply _ b l
  simp only [hio', Ideal.ofBits_def, pix_fold, frac_fold, lo_fold, up_fold]
  exact congrArg (HMul.hMul (acc (ix2 b c))) (kernel_sample_eq (S := 128) (N := 4096) (by decide) (by decide) rfl 127#32 (by decide) (by decide) s127 s127_real
    (fun h x => T (ix2 h x)) (fun x => sg (ix2 x c)) c (fun c h w => A (ix3 c h w)) (fun c h w => hA _) hT (fun x => hsg x c)
    (X (ix2 b ⟨0, by decide⟩)) (X (ix2 b ⟨1, by decide⟩)) (hX _) (hX _))

set_option maxHeartbeats 1000000 in
open Cert.Spec in
/-- Plane 1 of the mid resolution: the running product times the bilinear sample at coordinates (0, 2). -/
theorem plane_mid1 (X : Vec Ideal S128x3 .f32) (T : Vec Ideal S128x4096 .bf16) (A : Cert.Spec.S32x128x128.Idx → EReal)
    (sg : FVec Ideal S4096x32 .bf16) (acc : FVec Ideal S128x32 .f32)
    (hX : ∀ i, ∃ r : ℝ, X i = (r : EReal)) (hA : ∀ i, ∃ r : ℝ, A i = (r : EReal))
    (hT : ∀ (h : Fin 128) (x : Fin 4096), T (ix2 h x) = A (ix3 ⟨x.val / 128, by have := x.isLt; omega⟩ h ⟨x.val % 128, Nat.mod_lt _ (by decide)⟩))
    (hsg : ∀ (x : Fin 4096) (c : Fin 32), sg (ix2 x c) = ((if x.val / 128 = c.val then 1 else 0 : ℝ) : EReal))
    (b : Fin 128) (c : Fin 32) :
    k0_pay68 (F := Ideal) sg acc (k0_pay66 (k0_pay61 X) (k0_pay63 X) (k0_pay64 X)) (k0_pay67 (k0_pay62 X) (k0_pay65 X) 1#32 T) (ix2 b c)
      = acc (ix2 b c) * sample 128 (by decide) s127 127#32 (fun h w => A (ix3 c h w)) (X (ix2 b ⟨0, by decide⟩)) (X (ix2 b ⟨2, by decide⟩)) := by
  try simp only [k0_pay68, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay67, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay66, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay65, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay64, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay63, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay62, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay61, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay60, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay59, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay58, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay57, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  generalize hio : iota .tc S128x128 32 [1] iota_S128x128_d1_w32 = io
  have hio' : ∀ (b : Fin 128) (l : Fin 128), io (ix2 b l) = BitVec.ofNat 32 l.val := fun b l => hio ▸ iota1_apply _ b l
  simp only [hio', Ideal.ofBits_def, pix_fold, frac_fold, lo_fold, up_fold]
  exact congrArg (HMul.hMul (acc (ix2 b c))) (kernel_sample_eq (S := 128) (N := 4096) (by decide) (by decide) rfl 127#32 (by decide) (by decide) s127 s127_real
    (fun h x => T (ix2 h x)) (fun x => sg (ix2 x c)) c (fun c h w => A (ix3 c h w)) (fun c h w => hA _) hT (fun x => hsg x c)
    (X (ix2 b ⟨0, by decide⟩)) (X (ix2 b ⟨2, by decide⟩)) (hX _) (hX _))

set_option maxHeartbeats 1000000 in
open Cert.Spec in
/-- Plane 2 of the mid resolution: the running product times the bilinear sample at coordinates (1, 2). -/
theorem plane_mid2 (X : Vec Ideal S128x3 .f32) (T : Vec Ideal S128x4096 .bf16) (A : Cert.Spec.S32x128x128.Idx → EReal)
    (sg : FVec Ideal S4096x32 .bf16) (acc : FVec Ideal S128x32 .f32)
    (hX : ∀ i, ∃ r : ℝ, X i = (r : EReal)) (hA : ∀ i, ∃ r : ℝ, A i = (r : EReal))
    (hT : ∀ (h : Fin 128) (x : Fin 4096), T (ix2 h x) = A (ix3 ⟨x.val / 128, by have := x.isLt; omega⟩ h ⟨x.val % 128, Nat.mod_lt _ (by decide)⟩))
    (hsg : ∀ (x : Fin 4096) (c : Fin 32), sg (ix2 x c) = ((if x.val / 128 = c.val then 1 else 0 : ℝ) : EReal))
    (b : Fin 128) (c : Fin 32) :
    k0_pay80 (F := Ideal) sg acc (k0_pay79 (k0_pay73 X) (k0_pay74 X) (k0_pay75 X) (k0_pay76 X) (k0_pay77 X) (k0_pay78 X) 0#32 127#32 T) (constant S128x32 .f32 0x00000000#32) (ix2 b c)
      = acc (ix2 b c) * sample 128 (by decide) s127 127#32 (fun h w => A (ix3 c h w)) (X (ix2 b ⟨1, by decide⟩)) (X (ix2 b ⟨2, by decide⟩)) := by
  try simp only [k0_pay80, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay79, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay78, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay77, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay76, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay75, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay74, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay73, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay72, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay71, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay70, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay69, dotA_mid, dotB_mid, ValueIdx.mulf_apply, matmul_zero_apply, ValueIdx.truncf_apply, concat32_128_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  generalize hio : iota .tc S128x128 32 [1] iota_S128x128_d1_w32 = io
  have hio' : ∀ (b : Fin 128) (l : Fin 128), io (ix2 b l) = BitVec.ofNat 32 l.val := fun b l => hio ▸ iota1_apply _ b l
  simp only [hio', Ideal.ofBits_def, pix_fold, frac_fold, lo_fold, up_fold]
  exact congrArg (HMul.hMul (acc (ix2 b c))) (kernel_sample_eq (S := 128) (N := 4096) (by decide) (by decide) rfl 127#32 (by decide) (by decide) s127 s127_real
    (fun h x => T (ix2 h x)) (fun x => sg (ix2 x c)) c (fun c h w => A (ix3 c h w)) (fun c h w => hA _) hT (fun x => hsg x c)
    (X (ix2 b ⟨1, by decide⟩)) (X (ix2 b ⟨2, by decide⟩)) (hX _) (hX _))

set_option maxHeartbeats 1000000 in
open Cert.Spec in
/-- Plane 0 of the high resolution: the running product times the bilinear sample at coordinates (0, 1). -/
theorem plane_high0 (X : Vec Ideal S128x3 .f32) (T : Vec Ideal S256x8192 .bf16) (A : Cert.Spec.S32x256x256.Idx → EReal)
    (sg : FVec Ideal S8192x32 .bf16) (acc : FVec Ideal S128x32 .f32)
    (hX : ∀ i, ∃ r : ℝ, X i = (r : EReal)) (hA : ∀ i, ∃ r : ℝ, A i = (r : EReal))
    (hT : ∀ (h : Fin 256) (x : Fin 8192), T (ix2 h x) = A (ix3 ⟨x.val / 256, by have := x.isLt; omega⟩ h ⟨x.val % 256, Nat.mod_lt _ (by decide)⟩))
    (hsg : ∀ (x : Fin 8192) (c : Fin 32), sg (ix2 x c) = ((if x.val / 256 = c.val then 1 else 0 : ℝ) : EReal))
    (b : Fin 128) (c : Fin 32) :
    k0_pay97 (F := Ideal) sg acc (k0_pay90 (k0_pay83 X) (k0_pay85 (F := Ideal))) (k0_pay92 (k0_pay83 X) (k0_pay85 (F := Ideal))) (k0_pay93 (k0_pay83 X) (k0_pay85 (F := Ideal))) (iota .tc S128x256 32 [1] iota_S128x256_d1_w32) (k0_pay94 (k0_pay84 X)) (k0_pay95 (k0_pay84 X)) (k0_pay96 (k0_pay84 X)) T (ix2 b c)
      = acc (ix2 b c) * sample 256 (by decide) s255 255#32 (fun h w => A (ix3 c h w)) (X (ix2 b ⟨0, by decide⟩)) (X (ix2 b ⟨1, by decide⟩)) := by
  try simp only [k0_pay97, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay96, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay95, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay94, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay93, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay92, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay91, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay90, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay89, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay88, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay87, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay86, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay85, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay84, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay83, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  generalize hio : iota .tc S128x256 32 [1] iota_S128x256_d1_w32 = io
  have hio' : ∀ (b : Fin 128) (l : Fin 256), io (ix2 b l) = BitVec.ofNat 32 l.val := fun b l => hio ▸ iota1_apply _ b l
  simp only [hio', Ideal.ofBits_def, pix_fold, frac_fold, lo_fold, up_fold]
  exact congrArg (HMul.hMul (acc (ix2 b c))) (kernel_sample_eq (S := 256) (N := 8192) (by decide) (by decide) rfl 255#32 (by decide) (by decide) s255 s255_real
    (fun h x => T (ix2 h x)) (fun x => sg (ix2 x c)) c (fun c h w => A (ix3 c h w)) (fun c h w => hA _) hT (fun x => hsg x c)
    (X (ix2 b ⟨0, by decide⟩)) (X (ix2 b ⟨1, by decide⟩)) (hX _) (hX _))

set_option maxHeartbeats 1000000 in
open Cert.Spec in
/-- Plane 1 of the high resolution: the running product times the bilinear sample at coordinates (0, 2). -/
theorem plane_high1 (X : Vec Ideal S128x3 .f32) (T : Vec Ideal S256x8192 .bf16) (A : Cert.Spec.S32x256x256.Idx → EReal)
    (sg : FVec Ideal S8192x32 .bf16) (acc : FVec Ideal S128x32 .f32)
    (hX : ∀ i, ∃ r : ℝ, X i = (r : EReal)) (hA : ∀ i, ∃ r : ℝ, A i = (r : EReal))
    (hT : ∀ (h : Fin 256) (x : Fin 8192), T (ix2 h x) = A (ix3 ⟨x.val / 256, by have := x.isLt; omega⟩ h ⟨x.val % 256, Nat.mod_lt _ (by decide)⟩))
    (hsg : ∀ (x : Fin 8192) (c : Fin 32), sg (ix2 x c) = ((if x.val / 256 = c.val then 1 else 0 : ℝ) : EReal))
    (b : Fin 128) (c : Fin 32) :
    k0_pay112 (F := Ideal) sg acc (k0_pay104 (k0_pay99 X)) (k0_pay106 (k0_pay99 X)) (k0_pay107 (k0_pay99 X)) (iota .tc S128x256 32 [1] iota_S128x256_d1_w32) (k0_pay108 (k0_pay98 X)) (k0_pay109 (k0_pay98 X)) (k0_pay110 (k0_pay98 X)) (k0_pay111 (F := Ideal)) T (ix2 b c)
      = acc (ix2 b c) * sample 256 (by decide) s255 255#32 (fun h w => A (ix3 c h w)) (X (ix2 b ⟨0, by decide⟩)) (X (ix2 b ⟨2, by decide⟩)) := by
  try simp only [k0_pay112, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay111, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay110, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay109, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay108, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay107, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay106, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay105, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay104, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay103, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay102, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay101, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay100, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay99, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay98, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  generalize hio : iota .tc S128x256 32 [1] iota_S128x256_d1_w32 = io
  have hio' : ∀ (b : Fin 128) (l : Fin 256), io (ix2 b l) = BitVec.ofNat 32 l.val := fun b l => hio ▸ iota1_apply _ b l
  simp only [hio', Ideal.ofBits_def, pix_fold, frac_fold, lo_fold, up_fold]
  exact congrArg (HMul.hMul (acc (ix2 b c))) (kernel_sample_eq (S := 256) (N := 8192) (by decide) (by decide) rfl 255#32 (by decide) (by decide) s255 s255_real
    (fun h x => T (ix2 h x)) (fun x => sg (ix2 x c)) c (fun c h w => A (ix3 c h w)) (fun c h w => hA _) hT (fun x => hsg x c)
    (X (ix2 b ⟨0, by decide⟩)) (X (ix2 b ⟨2, by decide⟩)) (hX _) (hX _))

set_option maxHeartbeats 1000000 in
open Cert.Spec in
/-- Plane 2 of the high resolution: the running product times the bilinear sample at coordinates (1, 2). -/
theorem plane_high2 (X : Vec Ideal S128x3 .f32) (T : Vec Ideal S256x8192 .bf16) (A : Cert.Spec.S32x256x256.Idx → EReal)
    (sg : FVec Ideal S8192x32 .bf16) (acc : FVec Ideal S128x32 .f32)
    (hX : ∀ i, ∃ r : ℝ, X i = (r : EReal)) (hA : ∀ i, ∃ r : ℝ, A i = (r : EReal))
    (hT : ∀ (h : Fin 256) (x : Fin 8192), T (ix2 h x) = A (ix3 ⟨x.val / 256, by have := x.isLt; omega⟩ h ⟨x.val % 256, Nat.mod_lt _ (by decide)⟩))
    (hsg : ∀ (x : Fin 8192) (c : Fin 32), sg (ix2 x c) = ((if x.val / 256 = c.val then 1 else 0 : ℝ) : EReal))
    (b : Fin 128) (c : Fin 32) :
    k0_pay1 (F := Ideal) sg acc (k0_pay117 (k0_pay114 X)) (k0_pay119 (k0_pay114 X)) (iota .tc S128x256 32 [1] iota_S128x256_d1_w32) (k0_pay120 (k0_pay113 X) (k0_pay115 X)) (k0_pay121 (k0_pay114 X)) T (ix2 b c)
      = acc (ix2 b c) * sample 256 (by decide) s255 255#32 (fun h w => A (ix3 c h w)) (X (ix2 b ⟨1, by decide⟩)) (X (ix2 b ⟨2, by decide⟩)) := by
  try simp only [k0_pay1, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay121, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay120, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay119, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay118, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay117, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay116, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay115, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay114, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  try simp only [k0_pay113, dotA_high, dotB_high, ValueIdx.mulf_apply, matmul_zero_apply, ValueIdx.truncf_apply, concat32_256_apply, ValueIdx.addf_apply, ValueIdx.subf_apply, ValueIdx.select_apply, cmpi_apply, maxsi_apply, minsi_apply, addi_apply, floor_apply, fptosi_apply, column_apply, broadcastTo_a1_ab_apply, shapeCast_a_a1_apply, shapeCast_self, ValueIdx.broadcast_apply]
  generalize hio : iota .tc S128x256 32 [1] iota_S128x256_d1_w32 = io
  have hio' : ∀ (b : Fin 128) (l : Fin 256), io (ix2 b l) = BitVec.ofNat 32 l.val := fun b l => hio ▸ iota1_apply _ b l
  simp only [hio', Ideal.ofBits_def, pix_fold, frac_fold, lo_fold, up_fold]
  exact congrArg (HMul.hMul (acc (ix2 b c))) (kernel_sample_eq (S := 256) (N := 8192) (by decide) (by decide) rfl 255#32 (by decide) (by decide) s255 s255_real
    (fun h x => T (ix2 h x)) (fun x => sg (ix2 x c)) c (fun c h w => A (ix3 c h w)) (fun c h w => hA _) hT (fun x => hsg x c)
    (X (ix2 b ⟨1, by decide⟩)) (X (ix2 b ⟨2, by decide⟩)) (hX _) (hX _))

theorem hz2 : (![0, 0] : Fin 2 → Nat) = fun _ => 0 := funext fun a => by fin_cases a <;> rfl

set_option maxHeartbeats 1000000 in
open Cert.Spec in
/-- THE BLOCK THE BODY LEAVES: row r of the 128×96 output block is the result row of the coordinates in row r of the
    128×3 input block — the three 32-column pieces are the three resolutions' features. -/
theorem out_block (X : Vec Ideal S128x3 .f32) (T1 T2 T3 : Vec Ideal S64x2048 .bf16) (T4 T5 T6 : Vec Ideal S128x4096 .bf16) (T7 T8 T9 : Vec Ideal S256x8192 .bf16)
    (L0 L1 L2 : Cert.Spec.S32x64x64.Idx → EReal) (M0 M1 M2 : Cert.Spec.S32x128x128.Idx → EReal) (H0 H1 H2 : Cert.Spec.S32x256x256.Idx → EReal)
    (hX : ∀ i, ∃ r : ℝ, X i = (r : EReal))
    (hL0 : ∀ i, ∃ r : ℝ, L0 i = (r : EReal)) (hL1 : ∀ i, ∃ r : ℝ, L1 i = (r : EReal)) (hL2 : ∀ i, ∃ r : ℝ, L2 i = (r : EReal))
    (hM0 : ∀ i, ∃ r : ℝ, M0 i = (r : EReal)) (hM1 : ∀ i, ∃ r : ℝ, M1 i = (r : EReal)) (hM2 : ∀ i, ∃ r : ℝ, M2 i = (r : EReal))
    (hH0 : ∀ i, ∃ r : ℝ, H0 i = (r : EReal)) (hH1 : ∀ i, ∃ r : ℝ, H1 i = (r : EReal)) (hH2 : ∀ i, ∃ r : ℝ, H2 i = (r : EReal))
    (hT1 : ∀ (h : Fin 64) (x : Fin 2048), T1 (ix2 h x) = L0 (ix3 ⟨x.val / 64, by have := x.isLt; omega⟩ h ⟨x.val % 64, Nat.mod_lt _ (by decide)⟩)) (hT2 : ∀ (h : Fin 64) (x : Fin 2048), T2 (ix2 h x) = L1 (ix3 ⟨x.val / 64, by have := x.isLt; omega⟩ h ⟨x.val % 64, Nat.mod_lt _ (by decide)⟩)) (hT3 : ∀ (h : Fin 64) (x : Fin 2048), T3 (ix2 h x) = L2 (ix3 ⟨x.val / 64, by have := x.isLt; omega⟩ h ⟨x.val % 64, Nat.mod_lt _ (by decide)⟩))
    (hT4 : ∀ (h : Fin 128) (x : Fin 4096), T4 (ix2 h x) = M0 (ix3 ⟨x.val / 128, by have := x.isLt; omega⟩ h ⟨x.val % 128, Nat.mod_lt _ (by decide)⟩)) (hT5 : ∀ (h : Fin 128) (x : Fin 4096), T5 (ix2 h x) = M1 (ix3 ⟨x.val / 128, by have := x.isLt; omega⟩ h ⟨x.val % 128, Nat.mod_lt _ (by decide)⟩)) (hT6 : ∀ (h : Fin 128) (x : Fin 4096), T6 (ix2 h x) = M2 (ix3 ⟨x.val / 128, by have := x.isLt; omega⟩ h ⟨x.val % 128, Nat.mod_lt _ (by decide)⟩))
    (hT7 : ∀ (h : Fin 256) (x : Fin 8192), T7 (ix2 h x) = H0 (ix3 ⟨x.val / 256, by have := x.isLt; omega⟩ h ⟨x.val % 256, Nat.mod_lt _ (by decide)⟩)) (hT8 : ∀ (h : Fin 256) (x : Fin 8192), T8 (ix2 h x) = H1 (ix3 ⟨x.val / 256, by have := x.isLt; omega⟩ h ⟨x.val % 256, Nat.mod_lt _ (by decide)⟩)) (hT9 : ∀ (h : Fin 256) (x : Fin 8192), T9 (ix2 h x) = H2 (ix3 ⟨x.val / 256, by have := x.isLt; omega⟩ h ⟨x.val % 256, Nat.mod_lt _ (by decide)⟩))
    (y : S128x96.Idx) :
    out0_10 (F := Ideal) X T1 T2 T3 T4 T5 T6 T7 T8 T9 y
      = row (X (ix2 (y 0) ⟨0, by decide⟩)) (X (ix2 (y 0) ⟨1, by decide⟩)) (X (ix2 (y 0) ⟨2, by decide⟩)) L0 L1 L2 M0 M1 M2 H0 H1 H2 (y 1) := by
  unfold out0_10
  refine View.canon_apply_of_pieces (Val := Elt Ideal) (e := .f32) (fun y => row (X (ix2 (y 0) ⟨0, by decide⟩)) (X (ix2 (y 0) ⟨1, by decide⟩)) (X (ix2 (y 0) ⟨2, by decide⟩)) L0 L1 L2 M0 M1 M2 H0 H1 H2 (y 1)) _ ?_ y (cover0_10 (F := Ideal) _ _ _ y)
  intro p hp x
  simp only [List.mem_cons, List.not_mem_nil, or_false] at hp
  rcases hp with rfl | rfl | rfl
  · obtain ⟨b, c, rfl⟩ : ∃ (b : Fin 128) (c : Fin 32), x = ix2 b c := ⟨x 0, x 1, eq_ix2 x⟩
    simp only [View.ld_unit_zero (S := S128x3) hz2, View.ld_unit_zero (S := S256x8192) hz2]
    rw [plane_high2 X T9 H2 _ _ hX hH2 hT9 seg_high_apply, plane_high1 X T8 H1 _ _ hX hH1 hT8 seg_high_apply, plane_high0 X T7 H0 _ _ hX hH0 hT7 seg_high_apply]
    rw [row_high _ _ _ _ _ _ _ _ _ _ _ _ _ c (show ((r0_6.emb (ix2 b c)) 1).val = 64 + c.val from by show 64 + 1 * c.val = _; omega)]
    rw [show (r0_6.emb (ix2 b c)) 0 = b from Fin.ext (by show 0 + 1 * b.val = _; omega)]
    simp only [k0_pay82, ValueIdx.broadcast_apply]
    rfl
  · obtain ⟨b, c, rfl⟩ : ∃ (b : Fin 128) (c : Fin 32), x = ix2 b c := ⟨x 0, x 1, eq_ix2 x⟩
    simp only [View.ld_unit_zero (S := S128x3) hz2, View.ld_unit_zero (S := S128x4096) hz2]
    rw [plane_mid2 X T6 M2 _ _ hX hM2 hT6 seg_mid_apply, plane_mid1 X T5 M1 _ _ hX hM1 hT5 seg_mid_apply, plane_mid0 X T4 M0 _ _ hX hM0 hT4 seg_mid_apply]
    rw [row_mid _ _ _ _ _ _ _ _ _ _ _ _ _ c (show ((r0_4.emb (ix2 b c)) 1).val = 32 + c.val from by show 32 + 1 * c.val = _; omega)]
    rw [show (r0_4.emb (ix2 b c)) 0 = b from Fin.ext (by show 0 + 1 * b.val = _; omega)]
    simp only [k0_pay43, ValueIdx.broadcast_apply]
    rfl
  · obtain ⟨b, c, rfl⟩ : ∃ (b : Fin 128) (c : Fin 32), x = ix2 b c := ⟨x 0, x 1, eq_ix2 x⟩
    simp only [View.ld_unit_zero (S := S128x3) hz2, View.ld_unit_zero (S := S64x2048) hz2]
    rw [plane_low2 X T3 L2 _ _ hX hL2 hT3 seg_low_apply, plane_low1 X T2 L1 _ _ hX hL1 hT2 seg_low_apply, plane_low0 X T1 L0 _ _ hX hL0 hT1 seg_low_apply]
    rw [row_low _ _ _ _ _ _ _ _ _ _ _ _ _ c (show ((r0_2.emb (ix2 b c)) 1).val = c.val from by show 0 + 1 * c.val = _; omega)]
    rw [show (r0_2.emb (ix2 b c)) 0 = b from Fin.ext (by show 0 + 1 * b.val = _; omega)]
    simp only [k0_pay3, ValueIdx.broadcast_apply]
    rfl

end Cert.KernelIdeal.Planes

end
-- ==== Proof.KernelValue.lean ====
/-
  From blocks to the array: the kernel's result array after the run.

  The coordinate window and the output window move down the rows with the grid point (point t holds rows 128·t …
  128·t + 127); each table window holds its whole table at every point, and the table is the plane with its channel axis
  moved inside (row h, column c·S + w is the plane's entry (c, h, w)). So what point t writes back is block t of the
  specification of the argument arrays, the blocks cover the array, and the run ends with the result array at the
  specification.
-/
import proofs.«123486_j78099685310709_1_alg».proof.Proof.Gen.KernelIdeal.Value
import proofs.«123486_j78099685310709_1_alg».proof.Proof.KernelPlanes
import Idealize.ShloMosaic.Lib.StableHlo.Run

noncomputable section

open scoped BigOperators

open Cert.KernelIdeal.Planes

namespace Cert.KernelIdeal.KValue
open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The coordinate and output windows move down the rows with the grid point; the table windows do not move. -/
theorem idx_rows : ∀ t : Fin cfg0.N, win0_0.index t (0 : Fin 2) = t.val ∧ win0_0.index t (1 : Fin 2) = 0
    ∧ win0_10.index t (0 : Fin 2) = t.val ∧ win0_10.index t (1 : Fin 2) = 0 :=
  (by decide +kernel : ∀ t : Fin grid0.N, _)
theorem idx_tbl1 : ∀ t : Fin cfg0.N, win0_1.index t (0 : Fin 2) = 0 ∧ win0_1.index t (1 : Fin 2) = 0 :=
  (by decide +kernel : ∀ t : Fin grid0.N, _)
theorem idx_tbl2 : ∀ t : Fin cfg0.N, win0_2.index t (0 : Fin 2) = 0 ∧ win0_2.index t (1 : Fin 2) = 0 :=
  (by decide +kernel : ∀ t : Fin grid0.N, _)
theorem idx_tbl3 : ∀ t : Fin cfg0.N, win0_3.index t (0 : Fin 2) = 0 ∧ win0_3.index t (1 : Fin 2) = 0 :=
  (by decide +kernel : ∀ t : Fin grid0.N, _)
theorem idx_tbl4 : ∀ t : Fin cfg0.N, win0_4.index t (0 : Fin 2) = 0 ∧ win0_4.index t (1 : Fin 2) = 0 :=
  (by decide +kernel : ∀ t : Fin grid0.N, _)
theorem idx_tbl5 : ∀ t : Fin cfg0.N, win0_5.index t (0 : Fin 2) = 0 ∧ win0_5.index t (1 : Fin 2) = 0 :=
  (by decide +kernel : ∀ t : Fin grid0.N, _)
theorem idx_tbl6 : ∀ t : Fin cfg0.N, win0_6.index t (0 : Fin 2) = 0 ∧ win0_6.index t (1 : Fin 2) = 0 :=
  (by decide +kernel : ∀ t : Fin grid0.N, _)
theorem idx_tbl7 : ∀ t : Fin cfg0.N, win0_7.index t (0 : Fin 2) = 0 ∧ win0_7.index t (1 : Fin 2) = 0 :=
  (by decide +kernel : ∀ t : Fin grid0.N, _)
theorem idx_tbl8 : ∀ t : Fin cfg0.N, win0_8.index t (0 : Fin 2) = 0 ∧ win0_8.index t (1 : Fin 2) = 0 :=
  (by decide +kernel : ∀ t : Fin grid0.N, _)
theorem idx_tbl9 : ∀ t : Fin cfg0.N, win0_9.index t (0 : Fin 2) = 0 ∧ win0_9.index t (1 : Fin 2) = 0 :=
  (by decide +kernel : ∀ t : Fin grid0.N, _)

/-- The table window 1 stages: plane 0 of its resolution with the channel axis moved inside — row h, column c·64 + w is the plane's entry (c, h, w). -/
theorem tbl_v2 (c : Dev nD) (h : Fin 64) (x : Fin 2048) :
    (V m c main_v2 : S64x2048.Idx → EReal) (ix2 h x)
      = (m ((c : Thread nD τ).loc main_arg1) : S32x64x64.Idx → EReal) (ix3 ⟨x.val / 64, by have := x.isLt; omega⟩ h ⟨x.val % 64, Nat.mod_lt _ (by decide)⟩) := by
  have e : (V m c main_v2 : S64x2048.Idx → EReal)
      = (truncf (F := Ideal) .bf16 (shapeCast S64x2048 (transpose S64x32x64 [1, 0, 2] (m ((c : Thread nD τ).loc main_arg1) : S32x64x64.Idx → EReal) transposes_S32x64x64_S64x32x64_1_0_2) shapeCasts_S64x32x64_S64x2048) bitsLt_bf16_f32 : FVec Ideal S64x2048 .bf16) := by
    dsimp only [V, hostOps0]; after_results; rfl
  rw [e]
  show shapeCast S64x2048 (transpose S64x32x64 [1, 0, 2] (m ((c : Thread nD τ).loc main_arg1) : S32x64x64.Idx → EReal) transposes_S32x64x64_S64x32x64_1_0_2) shapeCasts_S64x32x64_S64x2048 (ix2 h x) = _
  rw [shapeCast_apply _ _ (ix2 h x) (ix3 h (⟨x.val / 64, by have := x.isLt; omega⟩ : Fin 32) (⟨x.val % 64, Nat.mod_lt _ (by decide)⟩ : Fin 64)) (by
    rw [Shape.rowMajor_val_three, Shape.rowMajor_val_two]
    show (h.val * 32 + x.val / 64) * 64 + x.val % 64 = h.val * 2048 + x.val
    have := Nat.div_add_mod x.val 64; omega)]
  exact transpose_apply _ _ _ _ _ (fun b => by match b with | ⟨0, _⟩ => rfl | ⟨1, _⟩ => rfl | ⟨2, _⟩ => rfl)

/-- Window 1's block is its whole table at every grid point. -/
theorem iblk1_apply (c : Dev nD) (t : Fin cfg0.N) (h : Fin 64) (x : Fin 2048) :
    iblk m c 1 t (ix2 h x) = (V m c main_v2 : S64x2048.Idx → EReal) (ix2 h x) := by
  show (V m c (Pipeline.arrRef spec0 1) : S64x2048.Idx → EReal) (((cfg0.win 1).blk t).view.emb (ix2 h x)) = _
  refine congrArg _ (funext fun a => Fin.ext ?_)
  obtain ⟨e0, e1⟩ := idx_tbl1 t
  match a with
  | ⟨0, _⟩ => show win0_1.index t (0 : Fin 2) * 64 + 1 * h.val = h.val; omega
  | ⟨1, _⟩ => show win0_1.index t (1 : Fin 2) * 2048 + 1 * x.val = x.val; omega

/-- The table window 2 stages: plane 1 of its resolution with the channel axis moved inside — row h, column c·64 + w is the plane's entry (c, h, w). -/
theorem tbl_v5 (c : Dev nD) (h : Fin 64) (x : Fin 2048) :
    (V m c main_v5 : S64x2048.Idx → EReal) (ix2 h x)
      = (m ((c : Thread nD τ).loc main_arg2) : S32x64x64.Idx → EReal) (ix3 ⟨x.val / 64, by have := x.isLt; omega⟩ h ⟨x.val % 64, Nat.mod_lt _ (by decide)⟩) := by
  have e : (V m c main_v5 : S64x2048.Idx → EReal)
      = (truncf (F := Ideal) .bf16 (shapeCast S64x2048 (transpose S64x32x64 [1, 0, 2] (m ((c : Thread nD τ).loc main_arg2) : S32x64x64.Idx → EReal) transposes_S32x64x64_S64x32x64_1_0_2) shapeCasts_S64x32x64_S64x2048) bitsLt_bf16_f32 : FVec Ideal S64x2048 .bf16) := by
    dsimp only [V, hostOps0]; after_results; rfl
  rw [e]
  show shapeCast S64x2048 (transpose S64x32x64 [1, 0, 2] (m ((c : Thread nD τ).loc main_arg2) : S32x64x64.Idx → EReal) transposes_S32x64x64_S64x32x64_1_0_2) shapeCasts_S64x32x64_S64x2048 (ix2 h x) = _
  rw [shapeCast_apply _ _ (ix2 h x) (ix3 h (⟨x.val / 64, by have := x.isLt; omega⟩ : Fin 32) (⟨x.val % 64, Nat.mod_lt _ (by decide)⟩ : Fin 64)) (by
    rw [Shape.rowMajor_val_three, Shape.rowMajor_val_two]
    show (h.val * 32 + x.val / 64) * 64 + x.val % 64 = h.val * 2048 + x.val
    have := Nat.div_add_mod x.val 64; omega)]
  exact transpose_apply _ _ _ _ _ (fun b => by match b with | ⟨0, _⟩ => rfl | ⟨1, _⟩ => rfl | ⟨2, _⟩ => rfl)

/-- Window 2's block is its whole table at every grid point. -/
theorem iblk2_apply (c : Dev nD) (t : Fin cfg0.N) (h : Fin 64) (x : Fin 2048) :
    iblk m c 2 t (ix2 h x) = (V m c main_v5 : S64x2048.Idx → EReal) (ix2 h x) := by
  show (V m c (Pipeline.arrRef spec0 2) : S64x2048.Idx → EReal) (((cfg0.win 2).blk t).view.emb (ix2 h x)) = _
  refine congrArg _ (funext fun a => Fin.ext ?_)
  obtain ⟨e0, e1⟩ := idx_tbl2 t
  match a with
  | ⟨0, _⟩ => show win0_2.index t (0 : Fin 2) * 64 + 1 * h.val = h.val; omega
  | ⟨1, _⟩ => show win0_2.index t (1 : Fin 2) * 2048 + 1 * x.val = x.val; omega

/-- The table window 3 stages: plane 2 of its resolution with the channel axis moved inside — row h, column c·64 + w is the plane's entry (c, h, w). -/
theorem tbl_v8 (c : Dev nD) (h : Fin 64) (x : Fin 2048) :
    (V m c main_v8 : S64x2048.Idx → EReal) (ix2 h x)
      = (m ((c : Thread nD τ).loc main_arg3) : S32x64x64.Idx → EReal) (ix3 ⟨x.val / 64, by have := x.isLt; omega⟩ h ⟨x.val % 64, Nat.mod_lt _ (by decide)⟩) := by
  have e : (V m c main_v8 : S64x2048.Idx → EReal)
      = (truncf (F := Ideal) .bf16 (shapeCast S64x2048 (transpose S64x32x64 [1, 0, 2] (m ((c : Thread nD τ).loc main_arg3) : S32x64x64.Idx → EReal) transposes_S32x64x64_S64x32x64_1_0_2) shapeCasts_S64x32x64_S64x2048) bitsLt_bf16_f32 : FVec Ideal S64x2048 .bf16) := by
    dsimp only [V, hostOps0]; after_results; rfl
  rw [e]
  show shapeCast S64x2048 (transpose S64x32x64 [1, 0, 2] (m ((c : Thread nD τ).loc main_arg3) : S32x64x64.Idx → EReal) transposes_S32x64x64_S64x32x64_1_0_2) shapeCasts_S64x32x64_S64x2048 (ix2 h x) = _
  rw [shapeCast_apply _ _ (ix2 h x) (ix3 h (⟨x.val / 64, by have := x.isLt; omega⟩ : Fin 32) (⟨x.val % 64, Nat.mod_lt _ (by decide)⟩ : Fin 64)) (by
    rw [Shape.rowMajor_val_three, Shape.rowMajor_val_two]
    show (h.val * 32 + x.val / 64) * 64 + x.val % 64 = h.val * 2048 + x.val
    have := Nat.div_add_mod x.val 64; omega)]
  exact transpose_apply _ _ _ _ _ (fun b => by match b with | ⟨0, _⟩ => rfl | ⟨1, _⟩ => rfl | ⟨2, _⟩ => rfl)

/-- Window 3's block is its whole table at every grid point. -/
theorem iblk3_apply (c : Dev nD) (t : Fin cfg0.N) (h : Fin 64) (x : Fin 2048) :
    iblk m c 3 t (ix2 h x) = (V m c main_v8 : S64x2048.Idx → EReal) (ix2 h x) := by
  show (V m c (Pipeline.arrRef spec0 3) : S64x2048.Idx → EReal) (((cfg0.win 3).blk t).view.emb (ix2 h x)) = _
  refine congrArg _ (funext fun a => Fin.ext ?_)
  obtain ⟨e0, e1⟩ := idx_tbl3 t
  match a with
  | ⟨0, _⟩ => show win0_3.index t (0 : Fin 2) * 64 + 1 * h.val = h.val; omega
  | ⟨1, _⟩ => show win0_3.index t (1 : Fin 2) * 2048 + 1 * x.val = x.val; omega

/-- The table window 4 stages: plane 0 of its resolution with the channel axis moved inside — row h, column c·128 + w is the plane's entry (c, h, w). -/
theorem tbl_v11 (c : Dev nD) (h : Fin 128) (x : Fin 4096) :
    (V m c main_v11 : S128x4096.Idx → EReal) (ix2 h x)
      = (m ((c : Thread nD τ).loc main_arg4) : S32x128x128.Idx → EReal) (ix3 ⟨x.val / 128, by have := x.isLt; omega⟩ h ⟨x.val % 128, Nat.mod_lt _ (by decide)⟩) := by
  have e : (V m c main_v11 : S128x4096.Idx → EReal)
      = (truncf (F := Ideal) .bf16 (shapeCast S128x4096 (transpose S128x32x128 [1, 0, 2] (m ((c : Thread nD τ).loc main_arg4) : S32x128x128.Idx → EReal) transposes_S32x128x128_S128x32x128_1_0_2) shapeCasts_S128x32x128_S128x4096) bitsLt_bf16_f32 : FVec Ideal S128x4096 .bf16) := by
    dsimp only [V, hostOps0]; after_results; rfl
  rw [e]
  show shapeCast S128x4096 (transpose S128x32x128 [1, 0, 2] (m ((c : Thread nD τ).loc main_arg4) : S32x128x128.Idx → EReal) transposes_S32x128x128_S128x32x128_1_0_2) shapeCasts_S128x32x128_S128x4096 (ix2 h x) = _
  rw [shapeCast_apply _ _ (ix2 h x) (ix3 h (⟨x.val / 128, by have := x.isLt; omega⟩ : Fin 32) (⟨x.val % 128, Nat.mod_lt _ (by decide)⟩ : Fin 128)) (by
    rw [Shape.rowMajor_val_three, Shape.rowMajor_val_two]
    show (h.val * 32 + x.val / 128) * 128 + x.val % 128 = h.val * 4096 + x.val
    have := Nat.div_add_mod x.val 128; omega)]
  exact transpose_apply _ _ _ _ _ (fun b => by match b with | ⟨0, _⟩ => rfl | ⟨1, _⟩ => rfl | ⟨2, _⟩ => rfl)

/-- Window 4's block is its whole table at every grid point. -/
theorem iblk4_apply (c : Dev nD) (t : Fin cfg0.N) (h : Fin 128) (x : Fin 4096) :
    iblk m c 4 t (ix2 h x) = (V m c main_v11 : S128x4096.Idx → EReal) (ix2 h x) := by
  show (V m c (Pipeline.arrRef spec0 4) : S128x4096.Idx → EReal) (((cfg0.win 4).blk t).view.emb (ix2 h x)) = _
  refine congrArg _ (funext fun a => Fin.ext ?_)
  obtain ⟨e0, e1⟩ := idx_tbl4 t
  match a with
  | ⟨0, _⟩ => show win0_4.index t (0 : Fin 2) * 128 + 1 * h.val = h.val; omega
  | ⟨1, _⟩ => show win0_4.index t (1 : Fin 2) * 4096 + 1 * x.val = x.val; omega

/-- The table window 5 stages: plane 1 of its resolution with the channel axis moved inside — row h, column c·128 + w is the plane's entry (c, h, w). -/
theorem tbl_v14 (c : Dev nD) (h : Fin 128) (x : Fin 4096) :
    (V m c main_v14 : S128x4096.Idx → EReal) (ix2 h x)
      = (m ((c : Thread nD τ).loc main_arg5) : S32x128x128.Idx → EReal) (ix3 ⟨x.val / 128, by have := x.isLt; omega⟩ h ⟨x.val % 128, Nat.mod_lt _ (by decide)⟩) := by
  have e : (V m c main_v14 : S128x4096.Idx → EReal)
      = (truncf (F := Ideal) .bf16 (shapeCast S128x4096 (transpose S128x32x128 [1, 0, 2] (m ((c : Thread nD τ).loc main_arg5) : S32x128x128.Idx → EReal) transposes_S32x128x128_S128x32x128_1_0_2) shapeCasts_S128x32x128_S128x4096) bitsLt_bf16_f32 : FVec Ideal S128x4096 .bf16) := by
    dsimp only [V, hostOps0]; after_results; rfl
  rw [e]
  show shapeCast S128x4096 (transpose S128x32x128 [1, 0, 2] (m ((c : Thread nD τ).loc main_arg5) : S32x128x128.Idx → EReal) transposes_S32x128x128_S128x32x128_1_0_2) shapeCasts_S128x32x128_S128x4096 (ix2 h x) = _
  rw [shapeCast_apply _ _ (ix2 h x) (ix3 h (⟨x.val / 128, by have := x.isLt; omega⟩ : Fin 32) (⟨x.val % 128, Nat.mod_lt _ (by decide)⟩ : Fin 128)) (by
    rw [Shape.rowMajor_val_three, Shape.rowMajor_val_two]
    show (h.val * 32 + x.val / 128) * 128 + x.val % 128 = h.val * 4096 + x.val
    have := Nat.div_add_mod x.val 128; omega)]
  exact transpose_apply _ _ _ _ _ (fun b => by match b with | ⟨0, _⟩ => rfl | ⟨1, _⟩ => rfl | ⟨2, _⟩ => rfl)

/-- Window 5's block is its whole table at every grid point. -/
theorem iblk5_apply (c : Dev nD) (t : Fin cfg0.N) (h : Fin 128) (x : Fin 4096) :
    iblk m c 5 t (ix2 h x) = (V m c main_v14 : S128x4096.Idx → EReal) (ix2 h x) := by
  show (V m c (Pipeline.arrRef spec0 5) : S128x4096.Idx → EReal) (((cfg0.win 5).blk t).view.emb (ix2 h x)) = _
  refine congrArg _ (funext fun a => Fin.ext ?_)
  obtain ⟨e0, e1⟩ := idx_tbl5 t
  match a with
  | ⟨0, _⟩ => show win0_5.index t (0 : Fin 2) * 128 + 1 * h.val = h.val; omega
  | ⟨1, _⟩ => show win0_5.index t (1 : Fin 2) * 4096 + 1 * x.val = x.val; omega

/-- The table window 6 stages: plane 2 of its resolution with the channel axis moved inside — row h, column c·128 + w is the plane's entry (c, h, w). -/
theorem tbl_v17 (c : Dev nD) (h : Fin 128) (x : Fin 4096) :
    (V m c main_v17 : S128x4096.Idx → EReal) (ix2 h x)
      = (m ((c : Thread nD τ).loc main_arg6) : S32x128x128.Idx → EReal) (ix3 ⟨x.val / 128, by have := x.isLt; omega⟩ h ⟨x.val % 128, Nat.mod_lt _ (by decide)⟩) := by
  have e : (V m c main_v17 : S128x4096.Idx → EReal)
      = (truncf (F := Ideal) .bf16 (shapeCast S128x4096 (transpose S128x32x128 [1, 0, 2] (m ((c : Thread nD τ).loc main_arg6) : S32x128x128.Idx → EReal) transposes_S32x128x128_S128x32x128_1_0_2) shapeCasts_S128x32x128_S128x4096) bitsLt_bf16_f32 : FVec Ideal S128x4096 .bf16) := by
    dsimp only [V, hostOps0]; after_results; rfl
  rw [e]
  show shapeCast S128x4096 (transpose S128x32x128 [1, 0, 2] (m ((c : Thread nD τ).loc main_arg6) : S32x128x128.Idx → EReal) transposes_S32x128x128_S128x32x128_1_0_2) shapeCasts_S128x32x128_S128x4096 (ix2 h x) = _
  rw [shapeCast_apply _ _ (ix2 h x) (ix3 h (⟨x.val / 128, by have := x.isLt; omega⟩ : Fin 32) (⟨x.val % 128, Nat.mod_lt _ (by decide)⟩ : Fin 128)) (by
    rw [Shape.rowMajor_val_three, Shape.rowMajor_val_two]
    show (h.val * 32 + x.val / 128) * 128 + x.val % 128 = h.val * 4096 + x.val
    have := Nat.div_add_mod x.val 128; omega)]
  exact transpose_apply _ _ _ _ _ (fun b => by match b with | ⟨0, _⟩ => rfl | ⟨1, _⟩ => rfl | ⟨2, _⟩ => rfl)

/-- Window 6's block is its whole table at every grid point. -/
theorem iblk6_apply (c : Dev nD) (t : Fin cfg0.N) (h : Fin 128) (x : Fin 4096) :
    iblk m c 6 t (ix2 h x) = (V m c main_v17 : S128x4096.Idx → EReal) (ix2 h x) := by
  show (V m c (Pipeline.arrRef spec0 6) : S128x4096.Idx → EReal) (((cfg0.win 6).blk t).view.emb (ix2 h x)) = _
  refine congrArg _ (funext fun a => Fin.ext ?_)
  obtain ⟨e0, e1⟩ := idx_tbl6 t
  match a with
  | ⟨0, _⟩ => show win0_6.index t (0 : Fin 2) * 128 + 1 * h.val = h.val; omega
  | ⟨1, _⟩ => show win0_6.index t (1 : Fin 2) * 4096 + 1 * x.val = x.val; omega

/-- The table window 7 stages: plane 0 of its resolution with the channel axis moved inside — row h, column c·256 + w is the plane's entry (c, h, w). -/
theorem tbl_v20 (c : Dev nD) (h : Fin 256) (x : Fin 8192) :
    (V m c main_v20 : S256x8192.Idx → EReal) (ix2 h x)
      = (m ((c : Thread nD τ).loc main_arg7) : S32x256x256.Idx → EReal) (ix3 ⟨x.val / 256, by have := x.isLt; omega⟩ h ⟨x.val % 256, Nat.mod_lt _ (by decide)⟩) := by
  have e : (V m c main_v20 : S256x8192.Idx → EReal)
      = (truncf (F := Ideal) .bf16 (shapeCast S256x8192 (transpose S256x32x256 [1, 0, 2] (m ((c : Thread nD τ).loc main_arg7) : S32x256x256.Idx → EReal) transposes_S32x256x256_S256x32x256_1_0_2) shapeCasts_S256x32x256_S256x8192) bitsLt_bf16_f32 : FVec Ideal S256x8192 .bf16) := by
    dsimp only [V, hostOps0]; after_results; rfl
  rw [e]
  show shapeCast S256x8192 (transpose S256x32x256 [1, 0, 2] (m ((c : Thread nD τ).loc main_arg7) : S32x256x256.Idx → EReal) transposes_S32x256x256_S256x32x256_1_0_2) shapeCasts_S256x32x256_S256x8192 (ix2 h x) = _
  rw [shapeCast_apply _ _ (ix2 h x) (ix3 h (⟨x.val / 256, by have := x.isLt; omega⟩ : Fin 32) (⟨x.val % 256, Nat.mod_lt _ (by decide)⟩ : Fin 256)) (by
    rw [Shape.rowMajor_val_three, Shape.rowMajor_val_two]
    show (h.val * 32 + x.val / 256) * 256 + x.val % 256 = h.val * 8192 + x.val
    have := Nat.div_add_mod x.val 256; omega)]
  exact transpose_apply _ _ _ _ _ (fun b => by match b with | ⟨0, _⟩ => rfl | ⟨1, _⟩ => rfl | ⟨2, _⟩ => rfl)

/-- Window 7's block is its whole table at every grid point. -/
theorem iblk7_apply (c : Dev nD) (t : Fin cfg0.N) (h : Fin 256) (x : Fin 8192) :
    iblk m c 7 t (ix2 h x) = (V m c main_v20 : S256x8192.Idx → EReal) (ix2 h x) := by
  show (V m c (Pipeline.arrRef spec0 7) : S256x8192.Idx → EReal) (((cfg0.win 7).blk t).view.emb (ix2 h x)) = _
  refine congrArg _ (funext fun a => Fin.ext ?_)
  obtain ⟨e0, e1⟩ := idx_tbl7 t
  match a with
  | ⟨0, _⟩ => show win0_7.index t (0 : Fin 2) * 256 + 1 * h.val = h.val; omega
  | ⟨1, _⟩ => show win0_7.index t (1 : Fin 2) * 8192 + 1 * x.val = x.val; omega

/-- The table window 8 stages: plane 1 of its resolution with the channel axis moved inside — row h, column c·256 + w is the plane's entry (c, h, w). -/
theorem tbl_v23 (c : Dev nD) (h : Fin 256) (x : Fin 8192) :
    (V m c main_v23 : S256x8192.Idx → EReal) (ix2 h x)
      = (m ((c : Thread nD τ).loc main_arg8) : S32x256x256.Idx → EReal) (ix3 ⟨x.val / 256, by have := x.isLt; omega⟩ h ⟨x.val % 256, Nat.mod_lt _ (by decide)⟩) := by
  have e : (V m c main_v23 : S256x8192.Idx → EReal)
      = (truncf (F := Ideal) .bf16 (shapeCast S256x8192 (transpose S256x32x256 [1, 0, 2] (m ((c : Thread nD τ).loc main_arg8) : S32x256x256.Idx → EReal) transposes_S32x256x256_S256x32x256_1_0_2) shapeCasts_S256x32x256_S256x8192) bitsLt_bf16_f32 : FVec Ideal S256x8192 .bf16) := by
    dsimp only [V, hostOps0]; after_results; rfl
  rw [e]
  show shapeCast S256x8192 (transpose S256x32x256 [1, 0, 2] (m ((c : Thread nD τ).loc main_arg8) : S32x256x256.Idx → EReal) transposes_S32x256x256_S256x32x256_1_0_2) shapeCasts_S256x32x256_S256x8192 (ix2 h x) = _
  rw [shapeCast_apply _ _ (ix2 h x) (ix3 h (⟨x.val / 256, by have := x.isLt; omega⟩ : Fin 32) (⟨x.val % 256, Nat.mod_lt _ (by decide)⟩ : Fin 256)) (by
    rw [Shape.rowMajor_val_three, Shape.rowMajor_val_two]
    show (h.val * 32 + x.val / 256) * 256 + x.val % 256 = h.val * 8192 + x.val
    have := Nat.div_add_mod x.val 256; omega)]
  exact transpose_apply _ _ _ _ _ (fun b => by match b with | ⟨0, _⟩ => rfl | ⟨1, _⟩ => rfl | ⟨2, _⟩ => rfl)

/-- Window 8's block is its whole table at every grid point. -/
theorem iblk8_apply (c : Dev nD) (t : Fin cfg0.N) (h : Fin 256) (x : Fin 8192) :
    iblk m c 8 t (ix2 h x) = (V m c main_v23 : S256x8192.Idx → EReal) (ix2 h x) := by
  show (V m c (Pipeline.arrRef spec0 8) : S256x8192.Idx → EReal) (((cfg0.win 8).blk t).view.emb (ix2 h x)) = _
  refine congrArg _ (funext fun a => Fin.ext ?_)
  obtain ⟨e0, e1⟩ := idx_tbl8 t
  match a with
  | ⟨0, _⟩ => show win0_8.index t (0 : Fin 2) * 256 + 1 * h.val = h.val; omega
  | ⟨1, _⟩ => show win0_8.index t (1 : Fin 2) * 8192 + 1 * x.val = x.val; omega

/-- The table window 9 stages: plane 2 of its resolution with the channel axis moved inside — row h, column c·256 + w is the plane's entry (c, h, w). -/
theorem tbl_v26 (c : Dev nD) (h : Fin 256) (x : Fin 8192) :
    (V m c main_v26 : S256x8192.Idx → EReal) (ix2 h x)
      = (m ((c : Thread nD τ).loc main_arg9) : S32x256x256.Idx → EReal) (ix3 ⟨x.val / 256, by have := x.isLt; omega⟩ h ⟨x.val % 256, Nat.mod_lt _ (by decide)⟩) := by
  have e : (V m c main_v26 : S256x8192.Idx → EReal)
      = (truncf (F := Ideal) .bf16 (shapeCast S256x8192 (transpose S256x32x256 [1, 0, 2] (m ((c : Thread nD τ).loc main_arg9) : S32x256x256.Idx → EReal) transposes_S32x256x256_S256x32x256_1_0_2) shapeCasts_S256x32x256_S256x8192) bitsLt_bf16_f32 : FVec Ideal S256x8192 .bf16) := by
    dsimp only [V, hostOps0]; after_results; rfl
  rw [e]
  show shapeCast S256x8192 (transpose S256x32x256 [1, 0, 2] (m ((c : Thread nD τ).loc main_arg9) : S32x256x256.Idx → EReal) transposes_S32x256x256_S256x32x256_1_0_2) shapeCasts_S256x32x256_S256x8192 (ix2 h x) = _
  rw [shapeCast_apply _ _ (ix2 h x) (ix3 h (⟨x.val / 256, by have := x.isLt; omega⟩ : Fin 32) (⟨x.val % 256, Nat.mod_lt _ (by decide)⟩ : Fin 256)) (by
    rw [Shape.rowMajor_val_three, Shape.rowMajor_val_two]
    show (h.val * 32 + x.val / 256) * 256 + x.val % 256 = h.val * 8192 + x.val
    have := Nat.div_add_mod x.val 256; omega)]
  exact transpose_apply _ _ _ _ _ (fun b => by match b with | ⟨0, _⟩ => rfl | ⟨1, _⟩ => rfl | ⟨2, _⟩ => rfl)

/-- Window 9's block is its whole table at every grid point. -/
theorem iblk9_apply (c : Dev nD) (t : Fin cfg0.N) (h : Fin 256) (x : Fin 8192) :
    iblk m c 9 t (ix2 h x) = (V m c main_v26 : S256x8192.Idx → EReal) (ix2 h x) := by
  show (V m c (Pipeline.arrRef spec0 9) : S256x8192.Idx → EReal) (((cfg0.win 9).blk t).view.emb (ix2 h x)) = _
  refine congrArg _ (funext fun a => Fin.ext ?_)
  obtain ⟨e0, e1⟩ := idx_tbl9 t
  match a with
  | ⟨0, _⟩ => show win0_9.index t (0 : Fin 2) * 256 + 1 * h.val = h.val; omega
  | ⟨1, _⟩ => show win0_9.index t (1 : Fin 2) * 8192 + 1 * x.val = x.val; omega

end Cert.KernelIdeal.KValue

namespace Cert.KernelIdeal.KValue
open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Every entry of every argument array is a real number (what the precondition gives). -/
def RealArgs (c : Dev nD) : Prop :=
  (∀ i, ∃ r : ℝ, (m ((c : Thread nD τ).loc main_arg0) : S524288x3.Idx → EReal) i = (r : EReal))
  ∧ (∀ i, ∃ r : ℝ, (m ((c : Thread nD τ).loc main_arg1) : S32x64x64.Idx → EReal) i = (r : EReal))
  ∧ (∀ i, ∃ r : ℝ, (m ((c : Thread nD τ).loc main_arg2) : S32x64x64.Idx → EReal) i = (r : EReal))
  ∧ (∀ i, ∃ r : ℝ, (m ((c : Thread nD τ).loc main_arg3) : S32x64x64.Idx → EReal) i = (r : EReal))
  ∧ (∀ i, ∃ r : ℝ, (m ((c : Thread nD τ).loc main_arg4) : S32x128x128.Idx → EReal) i = (r : EReal))
  ∧ (∀ i, ∃ r : ℝ, (m ((c : Thread nD τ).loc main_arg5) : S32x128x128.Idx → EReal) i = (r : EReal))
  ∧ (∀ i, ∃ r : ℝ, (m ((c : Thread nD τ).loc main_arg6) : S32x128x128.Idx → EReal) i = (r : EReal))
  ∧ (∀ i, ∃ r : ℝ, (m ((c : Thread nD τ).loc main_arg7) : S32x256x256.Idx → EReal) i = (r : EReal))
  ∧ (∀ i, ∃ r : ℝ, (m ((c : Thread nD τ).loc main_arg8) : S32x256x256.Idx → EReal) i = (r : EReal))
  ∧ (∀ i, ∃ r : ℝ, (m ((c : Thread nD τ).loc main_arg9) : S32x256x256.Idx → EReal) i = (r : EReal))

/-- Row r of the coordinate block at point t is row 128·t + r of the coordinate array. -/
theorem iblk0_apply (c : Dev nD) (t : Fin cfg0.N) (r : Fin 128) (k : Fin 3) :
    iblk m c 0 t (ix2 r k) = (m ((c : Thread nD τ).loc main_arg0) : S524288x3.Idx → EReal) (ix2 ⟨t.val * 128 + r.val, by have := t.isLt; have h : cfg0.N = 4096 := N_0; have := r.isLt; omega⟩ k) := by
  show (V m c (Pipeline.arrRef spec0 0) : S524288x3.Idx → EReal) (((cfg0.win 0).blk t).view.emb (ix2 r k)) = _
  rw [show V m c (Pipeline.arrRef spec0 0) = V m c main_arg0 from rfl, V_main_arg0]
  refine congrArg _ (funext fun a => Fin.ext ?_)
  obtain ⟨e0, e1, _, _⟩ := idx_rows t
  match a with
  | ⟨0, _⟩ => show win0_0.index t (0 : Fin 2) * 128 + 1 * r.val = t.val * 128 + r.val; omega
  | ⟨1, _⟩ => show win0_0.index t (1 : Fin 2) * 3 + 1 * k.val = k.val; omega

set_option maxHeartbeats 1000000 in
/-- WHAT POINT t WRITES BACK is block t of the specification of the argument arrays. -/
theorem flushed_eq (c : Dev nD) (hR : RealArgs m c) (t : Fin cfg0.N) :
    (dats m 0 c).flushed 10 t = ((cfg0.win 10).blk t).view.read (Elt Ideal)
      (Cert.Spec.G (m ((c : Thread nD τ).loc main_arg0) : S524288x3.Idx → EReal) (m ((c : Thread nD τ).loc main_arg1) : S32x64x64.Idx → EReal) (m ((c : Thread nD τ).loc main_arg2) : S32x64x64.Idx → EReal) (m ((c : Thread nD τ).loc main_arg3) : S32x64x64.Idx → EReal) (m ((c : Thread nD τ).loc main_arg4) : S32x128x128.Idx → EReal) (m ((c : Thread nD τ).loc main_arg5) : S32x128x128.Idx → EReal) (m ((c : Thread nD τ).loc main_arg6) : S32x128x128.Idx → EReal) (m ((c : Thread nD τ).loc main_arg7) : S32x256x256.Idx → EReal) (m ((c : Thread nD τ).loc main_arg8) : S32x256x256.Idx → EReal) (m ((c : Thread nD τ).loc main_arg9) : S32x256x256.Idx → EReal)) := by
  obtain ⟨h0, h1, h2, h3, h4, h5, h6, h7, h8, h9⟩ := hR
  rw [Cert.KernelIdeal.Value.flushed10]
  funext y
  show out0_10 (iblk m c 0 t) (iblk m c 1 t) (iblk m c 2 t) (iblk m c 3 t) (iblk m c 4 t) (iblk m c 5 t) (iblk m c 6 t) (iblk m c 7 t) (iblk m c 8 t) (iblk m c 9 t) y
    = Cert.Spec.G (m ((c : Thread nD τ).loc main_arg0) : S524288x3.Idx → EReal) (m ((c : Thread nD τ).loc main_arg1) : S32x64x64.Idx → EReal) (m ((c : Thread nD τ).loc main_arg2) : S32x64x64.Idx → EReal) (m ((c : Thread nD τ).loc main_arg3) : S32x64x64.Idx → EReal) (m ((c : Thread nD τ).loc main_arg4) : S32x128x128.Idx → EReal) (m ((c : Thread nD τ).loc main_arg5) : S32x128x128.Idx → EReal) (m ((c : Thread nD τ).loc main_arg6) : S32x128x128.Idx → EReal) (m ((c : Thread nD τ).loc main_arg7) : S32x256x256.Idx → EReal) (m ((c : Thread nD τ).loc main_arg8) : S32x256x256.Idx → EReal) (m ((c : Thread nD τ).loc main_arg9) : S32x256x256.Idx → EReal) (((cfg0.win 10).blk t).view.emb y)
  have hXb : ∀ i, ∃ r : ℝ, iblk m c 0 t i = (r : EReal) := fun i => by
    obtain ⟨r, k, rfl⟩ : ∃ (r : Fin 128) (k : Fin 3), i = ix2 r k := ⟨i 0, i 1, eq_ix2 i⟩
    rw [iblk0_apply]; exact h0 _
  rw [out_block (iblk m c 0 t) (iblk m c 1 t) (iblk m c 2 t) (iblk m c 3 t) (iblk m c 4 t) (iblk m c 5 t) (iblk m c 6 t) (iblk m c 7 t) (iblk m c 8 t) (iblk m c 9 t)
    (m ((c : Thread nD τ).loc main_arg1) : S32x64x64.Idx → EReal) (m ((c : Thread nD τ).loc main_arg2) : S32x64x64.Idx → EReal) (m ((c : Thread nD τ).loc main_arg3) : S32x64x64.Idx → EReal) (m ((c : Thread nD τ).loc main_arg4) : S32x128x128.Idx → EReal) (m ((c : Thread nD τ).loc main_arg5) : S32x128x128.Idx → EReal) (m ((c : Thread nD τ).loc main_arg6) : S32x128x128.Idx → EReal) (m ((c : Thread nD τ).loc main_arg7) : S32x256x256.Idx → EReal) (m ((c : Thread nD τ).loc main_arg8) : S32x256x256.Idx → EReal) (m ((c : Thread nD τ).loc main_arg9) : S32x256x256.Idx → EReal) hXb h1 h2 h3 h4 h5 h6 h7 h8 h9
    (fun h x => (iblk1_apply m c t h x).trans (tbl_v2 m c h x))
    (fun h x => (iblk2_apply m c t h x).trans (tbl_v5 m c h x))
    (fun h x => (iblk3_apply m c t h x).trans (tbl_v8 m c h x))
    (fun h x => (iblk4_apply m c t h x).trans (tbl_v11 m c h x))
    (fun h x => (iblk5_apply m c t h x).trans (tbl_v14 m c h x))
    (fun h x => (iblk6_apply m c t h x).trans (tbl_v17 m c h x))
    (fun h x => (iblk7_apply m c t h x).trans (tbl_v20 m c h x))
    (fun h x => (iblk8_apply m c t h x).trans (tbl_v23 m c h x))
    (fun h x => (iblk9_apply m c t h x).trans (tbl_v26 m c h x)) y]
  obtain ⟨_, _, e0, e1⟩ := idx_rows t
  have hy0 : (y 0).val < 128 := (y 0).isLt
  have ht := t.isLt
  have hN : cfg0.N = 4096 := N_0
  have er : (((cfg0.win 10).blk t).view.emb y) 0 = (⟨t.val * 128 + (y 0).val, by omega⟩ : Fin 524288) :=
    Fin.ext (by show win0_10.index t (0 : Fin 2) * 128 + 1 * (y 0).val = t.val * 128 + (y 0).val; omega)
  have ec : (((cfg0.win 10).blk t).view.emb y) 1 = y 1 :=
    Fin.ext (by show win0_10.index t (1 : Fin 2) * 96 + 1 * (y 1).val = (y 1).val; omega)
  unfold Cert.Spec.G
  rw [er, ec]
  have eX : ∀ k : Fin 3, iblk m c 0 t (ix2 (n0 := 128) (n1 := 3) (y 0) k)
      = (m ((c : Thread nD τ).loc main_arg0) : S524288x3.Idx → EReal) (ix2 (⟨t.val * 128 + (y 0).val, by omega⟩ : Fin 524288) k) := fun k => iblk0_apply m c t (y 0) k
  rw [eX ⟨0, by decide⟩, eX ⟨1, by decide⟩, eX ⟨2, by decide⟩]
  rfl

/-- An index of the result array is in point t's block iff each coordinate is in the block's range on its axis. -/
theorem mem_blk (t : Fin cfg0.N) (i : S524288x96.Idx) :
    i ∈ ((cfg0.win 10).blk t).view.set ↔ ∀ a : Fin 2, win0_10.index t a * S128x96.size a ≤ (i a).val ∧ (i a).val < win0_10.index t a * S128x96.size a + S128x96.size a := by
  show i ∈ ((View.whole main_v27).slice (win0_10.rect t)).set ↔ _
  rw [View.set_slice_whole, Rect.mem_set_unit]
  exact Iff.rfl

/-- Every row of the result lies in some grid point's block: row r in the block of point r / 128. -/
theorem cover (i : S524288x96.Idx) : ∃ t : Fin cfg0.N, (cfg0.win 10).flush t = true ∧ i ∈ ((cfg0.win 10).blk t).view.set := by
  have hi0 : (i 0).val < 524288 := (i 0).isLt
  have hi1 : (i 1).val < 96 := (i 1).isLt
  have hN : cfg0.N = 4096 := N_0
  have hlt : (i 0).val / 128 < cfg0.N := by rw [hN]; omega
  refine ⟨⟨(i 0).val / 128, hlt⟩, flush0_10 _, ?_⟩
  rw [mem_blk]
  obtain ⟨_, _, e0, e1⟩ := idx_rows ⟨(i 0).val / 128, hlt⟩
  intro a
  match a with
  | ⟨0, _⟩ =>
    show win0_10.index ⟨(i 0).val / 128, hlt⟩ (0 : Fin 2) * 128 ≤ (i 0).val ∧ (i 0).val < win0_10.index ⟨(i 0).val / 128, hlt⟩ (0 : Fin 2) * 128 + 128
    rw [e0]
    show (i 0).val / 128 * 128 ≤ (i 0).val ∧ (i 0).val < (i 0).val / 128 * 128 + 128
    have := Nat.div_add_mod (i 0).val 128; have := Nat.mod_lt (i 0).val (by decide : 0 < 128); omega
  | ⟨1, _⟩ =>
    show win0_10.index ⟨(i 0).val / 128, hlt⟩ (1 : Fin 2) * 96 ≤ (i 1).val ∧ (i 1).val < win0_10.index ⟨(i 0).val / 128, hlt⟩ (1 : Fin 2) * 96 + 96
    rw [e1]; omega

/-- THE ARRAY after the run is the specification of the argument arrays. -/
theorem final (c : Dev nD) (hR : RealArgs m c) :
    (dats m 0 c).arrAt 10 cfg0.N = Cert.Spec.G (m ((c : Thread nD τ).loc main_arg0) : S524288x3.Idx → EReal) (m ((c : Thread nD τ).loc main_arg1) : S32x64x64.Idx → EReal) (m ((c : Thread nD τ).loc main_arg2) : S32x64x64.Idx → EReal) (m ((c : Thread nD τ).loc main_arg3) : S32x64x64.Idx → EReal) (m ((c : Thread nD τ).loc main_arg4) : S32x128x128.Idx → EReal) (m ((c : Thread nD τ).loc main_arg5) : S32x128x128.Idx → EReal) (m ((c : Thread nD τ).loc main_arg6) : S32x128x128.Idx → EReal) (m ((c : Thread nD τ).loc main_arg7) : S32x256x256.Idx → EReal) (m ((c : Thread nD τ).loc main_arg8) : S32x256x256.Idx → EReal) (m ((c : Thread nD τ).loc main_arg9) : S32x256x256.Idx → EReal) :=
  (dats m 0 c).arrAt_eq_of_cover 10 _ (fun t _ => flushed_eq m c hR t) cover

/-- The kernel's run: it terminates with the result array at the specification and the arguments unchanged. -/
theorem run (hR : ∀ c, RealArgs m c) : θ_run defs (onTc (τ := τ) (main (F := Ideal))) ⟨m, fun _ => 0, ρ⟩ fun r => ∀ c : Dev nD,
      r.2.mem ((c : Thread nD τ).loc main_v27) = Cert.Spec.G (m ((c : Thread nD τ).loc main_arg0) : S524288x3.Idx → EReal) (m ((c : Thread nD τ).loc main_arg1) : S32x64x64.Idx → EReal) (m ((c : Thread nD τ).loc main_arg2) : S32x64x64.Idx → EReal) (m ((c : Thread nD τ).loc main_arg3) : S32x64x64.Idx → EReal) (m ((c : Thread nD τ).loc main_arg4) : S32x128x128.Idx → EReal) (m ((c : Thread nD τ).loc main_arg5) : S32x128x128.Idx → EReal) (m ((c : Thread nD τ).loc main_arg6) : S32x128x128.Idx → EReal) (m ((c : Thread nD τ).loc main_arg7) : S32x256x256.Idx → EReal) (m ((c : Thread nD τ).loc main_arg8) : S32x256x256.Idx → EReal) (m ((c : Thread nD τ).loc main_arg9) : S32x256x256.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c (hR c)), (h c).2⟩) (Cert.KernelIdeal.Value.run_blocks m ρ)

end Cert.KernelIdeal.KValue

end
-- ==== Proof.Finite.lean ====
/-
  From the precondition to real entries.

  The precondition is the conjunction, over the ten argument arrays, of "every entry has absolute value below +∞". Each
  conjunct is an and-reduction over the whole array of the comparison bits, so a conjunct that is one makes every
  comparison one, and an extended real whose absolute value is below +∞ is a real number.
-/
import proofs.«123486_j78099685310709_1_alg».proof.Defs
import proofs.«123486_j78099685310709_1_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

open scoped BigOperators

namespace Cert.Spec
open Idealize.ShloMosaic

/-- An extended real whose absolute value is below +∞ (the single-precision infinity word) is a real number. -/
theorem real_of_abs_lt_inf (x : EReal) (h : FloatOps.cmpf (F := Ideal) (φ := .f32) .olt (FloatOps.hostAbsf (F := Ideal) (φ := .f32) x) (Ideal.ofBits .f32 0x7F800000#32) = 1#1) :
    ∃ r : ℝ, x = (r : EReal) := by
  have ht : Ideal.ofBits .f32 0x7F800000#32 = ⊤ := by simp [Ideal.ofBits, Ideal.ieee]
  rw [ht] at h
  induction x using EReal.rec with
  | bot =>
    have e : FloatOps.cmpf (F := Ideal) (φ := .f32) .olt (FloatOps.hostAbsf (F := Ideal) (φ := .f32) (⊥ : EReal)) (⊤ : EReal)
        = BitVec.ofBool (decide (max (⊥ : EReal) (-⊥) < ⊤)) := rfl
    rw [e] at h
    simp at h
  | top =>
    have e : FloatOps.cmpf (F := Ideal) (φ := .f32) .olt (FloatOps.hostAbsf (F := Ideal) (φ := .f32) (⊤ : EReal)) (⊤ : EReal)
        = BitVec.ofBool (decide (max (⊤ : EReal) (-⊤) < ⊤)) := rfl
    rw [e] at h
    simp at h
  | coe r => exact ⟨r, rfl⟩

instance : Subsingleton (⟨0, ![]⟩ : Shape).Idx := ⟨fun a b => funext fun d => d.elim0⟩

end Cert.Spec

namespace Cert.KernelIdeal.Finite
open Cert.KernelIdeal Idealize.ShloMosaic Idealize.ShloMosaic.TcCoe Idealize.SL.Sem Idealize.ShloMosaic.ValueIdx

/-- One conjunct of the precondition: an "all entries have absolute value below +∞" bit that is one makes every entry real. -/
theorem real_of_all {s : Shape} (A : FVec Ideal s .f32) (hb : (⟨0, ![]⟩ : Shape).BroadcastsInDim s ![]) {axes : List (Fin s.rank)}
    (hred : s.ReducesTo axes ⟨0, ![]⟩) (hu : 0 < (⟨0, ![]⟩ : Shape).numel)
    (e : Host.reduce IntOp.andi (cmpf .olt (Host.absf A) (broadcastInDim s ![] hb (constant (F := Ideal) ⟨0, ![]⟩ .f32 0x7F800000#32)))
      (constantI ⟨0, ![]⟩ 1 1#1) hred hu ix0 = 1#1) (i : s.Idx) : ∃ r : ℝ, A i = (r : EReal) :=
  Cert.Spec.real_of_abs_lt_inf (A i) (Host.reduce_andi_all _ _ hred hu ix0 e i)

/-- THE PRECONDITION MAKES EVERY ARGUMENT ENTRY REAL. -/
theorem real_of_pre (m : (ℓ : Loc nD τ sig) → Buf (Elt Ideal) ℓ)
    (h : Cert.Pre_KernelIdeal (hPre_finite_inputs := Cert.Pre_finite_inputs.Gen.facts) m) (c : Dev nD) :
    (∀ i, ∃ r : ℝ, (m ((c : Thread nD τ).loc main_arg0) : S524288x3.Idx → EReal) i = (r : EReal))
    ∧ (∀ i, ∃ r : ℝ, (m ((c : Thread nD τ).loc main_arg1) : S32x64x64.Idx → EReal) i = (r : EReal))
    ∧ (∀ i, ∃ r : ℝ, (m ((c : Thread nD τ).loc main_arg2) : S32x64x64.Idx → EReal) i = (r : EReal))
    ∧ (∀ i, ∃ r : ℝ, (m ((c : Thread nD τ).loc main_arg3) : S32x64x64.Idx → EReal) i = (r : EReal))
    ∧ (∀ i, ∃ r : ℝ, (m ((c : Thread nD τ).loc main_arg4) : S32x128x128.Idx → EReal) i = (r : EReal))
    ∧ (∀ i, ∃ r : ℝ, (m ((c : Thread nD τ).loc main_arg5) : S32x128x128.Idx → EReal) i = (r : EReal))
    ∧ (∀ i, ∃ r : ℝ, (m ((c : Thread nD τ).loc main_arg6) : S32x128x128.Idx → EReal) i = (r : EReal))
    ∧ (∀ i, ∃ r : ℝ, (m ((c : Thread nD τ).loc main_arg7) : S32x256x256.Idx → EReal) i = (r : EReal))
    ∧ (∀ i, ∃ r : ℝ, (m ((c : Thread nD τ).loc main_arg8) : S32x256x256.Idx → EReal) i = (r : EReal))
    ∧ (∀ i, ∃ r : ℝ, (m ((c : Thread nD τ).loc main_arg9) : S32x256x256.Idx → EReal) i = (r : EReal)) := by
  have h0 := congrFun (h c) ix0
  dsimp only [Cert.Pre_finite_inputs.fn, Cert.Pre_finite_inputs.fn_part1, Cert.Pre_finite_inputs.fn_part2] at h0
  obtain ⟨h0, h9⟩ := IntOp.andi_eq_one.mp h0
  obtain ⟨h0, h8⟩ := IntOp.andi_eq_one.mp h0
  obtain ⟨h0, h7⟩ := IntOp.andi_eq_one.mp h0
  obtain ⟨h0, h6⟩ := IntOp.andi_eq_one.mp h0
  obtain ⟨h0, h5⟩ := IntOp.andi_eq_one.mp h0
  obtain ⟨h0, h4⟩ := IntOp.andi_eq_one.mp h0
  obtain ⟨h0, h3⟩ := IntOp.andi_eq_one.mp h0
  obtain ⟨h0, h2⟩ := IntOp.andi_eq_one.mp h0
  obtain ⟨h0, h1⟩ := IntOp.andi_eq_one.mp h0
  exact ⟨real_of_all _ _ _ _ h0, real_of_all _ _ _ _ h1, real_of_all _ _ _ _ h2, real_of_all _ _ _ _ h3, real_of_all _ _ _ _ h4,
    real_of_all _ _ _ _ h5, real_of_all _ _ _ _ h6, real_of_all _ _ _ _ h7, real_of_all _ _ _ _ h8, real_of_all _ _ _ _ h9⟩

end Cert.KernelIdeal.Finite

end
-- ==== Proof.RefIdx.lean ====
/-
  The reference's layout operations and gathers read at an index by coordinates.

  Each layout operation of the reference (a slice of a column, a reshape that drops or adds a unit axis, a broadcast
  along a new axis, a transpose) reads its operand at an index computed from the result's coordinates; here each such
  index function is evaluated at an index given by its coordinates. A gather of one corner reads, for channel c and
  point b, the plane at (c, row, column) with the row and the column the point's two start indices name, each read as
  a signed integer and clamped into the axis; the two index columns are laid side by side, column 0 the row and column
  1 the column. A clamped index is not negative, so the wrap-around that adds the axis extent to a negative index
  leaves it unchanged.
-/
import proofs.«123486_j78099685310709_1_alg».proof.Proof.RefRead
import proofs.«123486_j78099685310709_1_alg».proof.Proof.Spec
import proofs.«123486_j78099685310709_1_alg».proof.Proof.Onehot
import Idealize.ShloMosaic.Lib.Pipeline.Value
import Idealize.ShloMosaic.Lib.ValueIdx
import Idealize.ShloMosaic.PureOps.Ideal.Laws

noncomputable section

open scoped BigOperators

namespace Cert.Spec
open Idealize.ShloMosaic
/-- A clamped word is not negative, so the wrap-around of a negative index leaves it alone. -/
theorem slt_iff2 (x y : BitVec 32) : x.slt y = true ↔ x.toInt < y.toInt := by simp [BitVec.slt]

theorem wrap_clamp (hi z S : BitVec 32) (h0 : 0 ≤ hi.toInt) :
    Scalar.select (IntOp.cmpi .slt (clamp hi z) 0#32) (IntOp.addi (clamp hi z) S) (clamp hi z) = clamp hi z := by
  have e0 : (0#32 : BitVec 32).toInt = 0 := by decide
  have hc : 0 ≤ (clamp hi z).toInt := by
    unfold clamp IntOp.minsi IntOp.maxsi
    by_cases h1 : z.slt 0#32 = true
    · rw [if_pos h1]
      by_cases h2 : hi.slt 0#32 = true
      · rw [if_pos h2]; exact h0
      · rw [if_neg h2, e0]
    · rw [if_neg h1]
      have hz : 0 ≤ z.toInt := by
        have := (slt_iff2 z 0#32).not.mp h1
        rw [e0] at this; omega
      by_cases h2 : hi.slt z = true
      · rw [if_pos h2]; exact h0
      · rw [if_neg h2]; exact hz
  have hs : (clamp hi z).slt 0#32 = false := by
    apply Bool.eq_false_iff.mpr; intro h
    have := (slt_iff2 _ _).mp h
    rw [e0] at this; omega
  unfold IntOp.cmpi
  simp only [hs]
  exact if_neg (by decide)
theorem wrap_lo63 (p : EReal) : Scalar.select (IntOp.cmpi .slt (lo 63#32 p) 0#32) (IntOp.addi (lo 63#32 p) 64#32) (lo 63#32 p) = lo 63#32 p := wrap_clamp _ _ _ (by decide)
theorem wrap_up63 (p : EReal) : Scalar.select (IntOp.cmpi .slt (up 63#32 p) 0#32) (IntOp.addi (up 63#32 p) 64#32) (up 63#32 p) = up 63#32 p := wrap_clamp _ _ _ (by decide)
theorem wrap_lo127 (p : EReal) : Scalar.select (IntOp.cmpi .slt (lo 127#32 p) 0#32) (IntOp.addi (lo 127#32 p) 128#32) (lo 127#32 p) = lo 127#32 p := wrap_clamp _ _ _ (by decide)
theorem wrap_up127 (p : EReal) : Scalar.select (IntOp.cmpi .slt (up 127#32 p) 0#32) (IntOp.addi (up 127#32 p) 128#32) (up 127#32 p) = up 127#32 p := wrap_clamp _ _ _ (by decide)
theorem wrap_lo255 (p : EReal) : Scalar.select (IntOp.cmpi .slt (lo 255#32 p) 0#32) (IntOp.addi (lo 255#32 p) 256#32) (lo 255#32 p) = lo 255#32 p := wrap_clamp _ _ _ (by decide)
theorem wrap_up255 (p : EReal) : Scalar.select (IntOp.cmpi .slt (up 255#32 p) 0#32) (IntOp.addi (up 255#32 p) 256#32) (up 255#32 p) = up 255#32 p := wrap_clamp _ _ _ (by decide)
theorem fptosi_ideal (w : Nat) (x : EReal) : FloatOps.fptosi (F := Ideal) (φ := .f32) w x = Ideal.fptosi w x := rfl
end Cert.Spec

namespace Cert.ReferenceIdeal.RefValue

open Idealize.ShloMosaic Idealize.ShloMosaic.ValueIdx
open Cert.ReferenceIdeal Cert.ReferenceIdeal.Gen Cert.ReferenceIdeal.Read

/-- The reference's gather of one corner: result element (c, b) is the plane at channel c, at the row and column the
    point's two start indices name, each read signed and clamped into the axis. -/
theorem gather64_apply {α : Type} (x : S32x64x64.Idx → α) (idx : IVec S524288x2 32) (c : Fin 32) (b : Fin 524288) :
    Host.gather gather_S32x64x64_S524288x2_S32x524288_0_12_n_n_12_1_3211 x idx (ix2 c b)
      = x (ix3 c (Cert.Spec.pos 64 (by decide) (idx (ix2 b (0 : Fin 2)))) (Cert.Spec.pos 64 (by decide) (idx (ix2 b (1 : Fin 2))))) := by
  unfold Host.gather
  congr 1
  funext a
  refine Fin.ext ?_
  show gather_S32x64x64_S524288x2_S32x524288_0_12_n_n_12_1_3211.start (ix2 c b) idx a + gather_S32x64x64_S524288x2_S32x524288_0_12_n_n_12_1_3211.batchCoord (ix2 c b) a + gather_S32x64x64_S524288x2_S32x524288_0_12_n_n_12_1_3211.offCoord (ix2 c b) a = _
  rw [GatherDims.batchCoord_eq_zero _ _ _ List.not_mem_nil]
  match a with
  | ⟨0, _⟩ =>
    have h0 : (⟨0, by decide⟩ : Fin 3) ∉ gather_S32x64x64_S524288x2_S32x524288_0_12_n_n_12_1_3211.startIndexMap := by decide
    unfold GatherDims.start GatherDims.offCoord
    rw [dif_neg h0, dif_pos (show (⟨0, by decide⟩ : Fin 3) ∈ gather_S32x64x64_S524288x2_S32x524288_0_12_n_n_12_1_3211.sKept from by decide)]
    simp only [Nat.zero_add]
    rfl
  | ⟨1, _⟩ =>
    have h1 : (⟨1, by decide⟩ : Fin 3) ∈ gather_S32x64x64_S524288x2_S32x524288_0_12_n_n_12_1_3211.startIndexMap := by decide
    rw [GatherDims.offCoord_eq_zero _ _ _ (show (⟨1, by decide⟩ : Fin 3) ∉ gather_S32x64x64_S524288x2_S32x524288_0_12_n_n_12_1_3211.sKept from by decide)]
    unfold GatherDims.start
    rw [dif_pos h1]
    have hsi : gather_S32x64x64_S524288x2_S32x524288_0_12_n_n_12_1_3211.siIdx (ix2 c b) ⟨List.idxOf (⟨1, by decide⟩ : Fin 3) gather_S32x64x64_S524288x2_S32x524288_0_12_n_n_12_1_3211.startIndexMap, List.idxOf_lt_length_iff.2 h1⟩ = ix2 b (0 : Fin 2) := by
      funext k; refine Fin.ext ?_
      match k with
      | ⟨0, _⟩ => rfl
      | ⟨1, _⟩ => rfl
    rw [hsi]; rfl
  | ⟨2, _⟩ =>
    have h2 : (⟨2, by decide⟩ : Fin 3) ∈ gather_S32x64x64_S524288x2_S32x524288_0_12_n_n_12_1_3211.startIndexMap := by decide
    rw [GatherDims.offCoord_eq_zero _ _ _ (show (⟨2, by decide⟩ : Fin 3) ∉ gather_S32x64x64_S524288x2_S32x524288_0_12_n_n_12_1_3211.sKept from by decide)]
    unfold GatherDims.start
    rw [dif_pos h2]
    have hsi : gather_S32x64x64_S524288x2_S32x524288_0_12_n_n_12_1_3211.siIdx (ix2 c b) ⟨List.idxOf (⟨2, by decide⟩ : Fin 3) gather_S32x64x64_S524288x2_S32x524288_0_12_n_n_12_1_3211.startIndexMap, List.idxOf_lt_length_iff.2 h2⟩ = ix2 b (1 : Fin 2) := by
      funext k; refine Fin.ext ?_
      match k with
      | ⟨0, _⟩ => rfl
      | ⟨1, _⟩ => rfl
    rw [hsi]; rfl

/-- The reference's gather of one corner: result element (c, b) is the plane at channel c, at the row and column the
    point's two start indices name, each read signed and clamped into the axis. -/
theorem gather128_apply {α : Type} (x : S32x128x128.Idx → α) (idx : IVec S524288x2 32) (c : Fin 32) (b : Fin 524288) :
    Host.gather gather_S32x128x128_S524288x2_S32x524288_0_12_n_n_12_1_3211 x idx (ix2 c b)
      = x (ix3 c (Cert.Spec.pos 128 (by decide) (idx (ix2 b (0 : Fin 2)))) (Cert.Spec.pos 128 (by decide) (idx (ix2 b (1 : Fin 2))))) := by
  unfold Host.gather
  congr 1
  funext a
  refine Fin.ext ?_
  show gather_S32x128x128_S524288x2_S32x524288_0_12_n_n_12_1_3211.start (ix2 c b) idx a + gather_S32x128x128_S524288x2_S32x524288_0_12_n_n_12_1_3211.batchCoord (ix2 c b) a + gather_S32x128x128_S524288x2_S32x524288_0_12_n_n_12_1_3211.offCoord (ix2 c b) a = _
  rw [GatherDims.batchCoord_eq_zero _ _ _ List.not_mem_nil]
  match a with
  | ⟨0, _⟩ =>
    have h0 : (⟨0, by decide⟩ : Fin 3) ∉ gather_S32x128x128_S524288x2_S32x524288_0_12_n_n_12_1_3211.startIndexMap := by decide
    unfold GatherDims.start GatherDims.offCoord
    rw [dif_neg h0, dif_pos (show (⟨0, by decide⟩ : Fin 3) ∈ gather_S32x128x128_S524288x2_S32x524288_0_12_n_n_12_1_3211.sKept from by decide)]
    simp only [Nat.zero_add]
    rfl
  | ⟨1, _⟩ =>
    have h1 : (⟨1, by decide⟩ : Fin 3) ∈ gather_S32x128x128_S524288x2_S32x524288_0_12_n_n_12_1_3211.startIndexMap := by decide
    rw [GatherDims.offCoord_eq_zero _ _ _ (show (⟨1, by decide⟩ : Fin 3) ∉ gather_S32x128x128_S524288x2_S32x524288_0_12_n_n_12_1_3211.sKept from by decide)]
    unfold GatherDims.start
    rw [dif_pos h1]
    have hsi : gather_S32x128x128_S524288x2_S32x524288_0_12_n_n_12_1_3211.siIdx (ix2 c b) ⟨List.idxOf (⟨1, by decide⟩ : Fin 3) gather_S32x128x128_S524288x2_S32x524288_0_12_n_n_12_1_3211.startIndexMap, List.idxOf_lt_length_iff.2 h1⟩ = ix2 b (0 : Fin 2) := by
      funext k; refine Fin.ext ?_
      match k with
      | ⟨0, _⟩ => rfl
      | ⟨1, _⟩ => rfl
    rw [hsi]; rfl
  | ⟨2, _⟩ =>
    have h2 : (⟨2, by decide⟩ : Fin 3) ∈ gather_S32x128x128_S524288x2_S32x524288_0_12_n_n_12_1_3211.startIndexMap := by decide
    rw [GatherDims.offCoord_eq_zero _ _ _ (show (⟨2, by decide⟩ : Fin 3) ∉ gather_S32x128x128_S524288x2_S32x524288_0_12_n_n_12_1_3211.sKept from by decide)]
    unfold GatherDims.start
    rw [dif_pos h2]
    have hsi : gather_S32x128x128_S524288x2_S32x524288_0_12_n_n_12_1_3211.siIdx (ix2 c b) ⟨List.idxOf (⟨2, by decide⟩ : Fin 3) gather_S32x128x128_S524288x2_S32x524288_0_12_n_n_12_1_3211.startIndexMap, List.idxOf_lt_length_iff.2 h2⟩ = ix2 b (1 : Fin 2) := by
      funext k; refine Fin.ext ?_
      match k with
      | ⟨0, _⟩ => rfl
      | ⟨1, _⟩ => rfl
    rw [hsi]; rfl

/-- The reference's gather of one corner: result element (c, b) is the plane at channel c, at the row and column the
    point's two start indices name, each read signed and clamped into the axis. -/
theorem gather256_apply {α : Type} (x : S32x256x256.Idx → α) (idx : IVec S524288x2 32) (c : Fin 32) (b : Fin 524288) :
    Host.gather gather_S32x256x256_S524288x2_S32x524288_0_12_n_n_12_1_3211 x idx (ix2 c b)
      = x (ix3 c (Cert.Spec.pos 256 (by decide) (idx (ix2 b (0 : Fin 2)))) (Cert.Spec.pos 256 (by decide) (idx (ix2 b (1 : Fin 2))))) := by
  unfold Host.gather
  congr 1
  funext a
  refine Fin.ext ?_
  show gather_S32x256x256_S524288x2_S32x524288_0_12_n_n_12_1_3211.start (ix2 c b) idx a + gather_S32x256x256_S524288x2_S32x524288_0_12_n_n_12_1_3211.batchCoord (ix2 c b) a + gather_S32x256x256_S524288x2_S32x524288_0_12_n_n_12_1_3211.offCoord (ix2 c b) a = _
  rw [GatherDims.batchCoord_eq_zero _ _ _ List.not_mem_nil]
  match a with
  | ⟨0, _⟩ =>
    have h0 : (⟨0, by decide⟩ : Fin 3) ∉ gather_S32x256x256_S524288x2_S32x524288_0_12_n_n_12_1_3211.startIndexMap := by decide
    unfold GatherDims.start GatherDims.offCoord
    rw [dif_neg h0, dif_pos (show (⟨0, by decide⟩ : Fin 3) ∈ gather_S32x256x256_S524288x2_S32x524288_0_12_n_n_12_1_3211.sKept from by decide)]
    simp only [Nat.zero_add]
    rfl
  | ⟨1, _⟩ =>
    have h1 : (⟨1, by decide⟩ : Fin 3) ∈ gather_S32x256x256_S524288x2_S32x524288_0_12_n_n_12_1_3211.startIndexMap := by decide
    rw [GatherDims.offCoord_eq_zero _ _ _ (show (⟨1, by decide⟩ : Fin 3) ∉ gather_S32x256x256_S524288x2_S32x524288_0_12_n_n_12_1_3211.sKept from by decide)]
    unfold GatherDims.start
    rw [dif_pos h1]
    have hsi : gather_S32x256x256_S524288x2_S32x524288_0_12_n_n_12_1_3211.siIdx (ix2 c b) ⟨List.idxOf (⟨1, by decide⟩ : Fin 3) gather_S32x256x256_S524288x2_S32x524288_0_12_n_n_12_1_3211.startIndexMap, List.idxOf_lt_length_iff.2 h1⟩ = ix2 b (0 : Fin 2) := by
      funext k; refine Fin.ext ?_
      match k with
      | ⟨0, _⟩ => rfl
      | ⟨1, _⟩ => rfl
    rw [hsi]; rfl
  | ⟨2, _⟩ =>
    have h2 : (⟨2, by decide⟩ : Fin 3) ∈ gather_S32x256x256_S524288x2_S32x524288_0_12_n_n_12_1_3211.startIndexMap := by decide
    rw [GatherDims.offCoord_eq_zero _ _ _ (show (⟨2, by decide⟩ : Fin 3) ∉ gather_S32x256x256_S524288x2_S32x524288_0_12_n_n_12_1_3211.sKept from by decide)]
    unfold GatherDims.start
    rw [dif_pos h2]
    have hsi : gather_S32x256x256_S524288x2_S32x524288_0_12_n_n_12_1_3211.siIdx (ix2 c b) ⟨List.idxOf (⟨2, by decide⟩ : Fin 3) gather_S32x256x256_S524288x2_S32x524288_0_12_n_n_12_1_3211.startIndexMap, List.idxOf_lt_length_iff.2 h2⟩ = ix2 b (1 : Fin 2) := by
      funext k; refine Fin.ext ?_
      match k with
      | ⟨0, _⟩ => rfl
      | ⟨1, _⟩ => rfl
    rw [hsi]; rfl

section Cat2
variable {α : Type}
/-- Two index columns laid side by side: column 0 is the first, -/
theorem cat2_left (A B : S524288x1.Idx → α) (h : Shape.Concatenates [S524288x1, S524288x1] S524288x2 1) (b : Fin 524288) :
    concatenate S524288x2 1 [⟨S524288x1, A⟩, ⟨S524288x1, B⟩] h (ix2 b (0 : Fin 2)) = A (ix2 b (0 : Fin 1)) :=
  concatenate_pair_apply_left (t := S524288x2) (s₁ := S524288x1) (s₂ := S524288x1) 1 A B h (ix2 b (0 : Fin 2)) rfl (ix2 b (0 : Fin 1))
    (fun a => by match a with | ⟨0, _⟩ => rfl | ⟨1, _⟩ => rfl)
/-- and column 1 the second. -/
theorem cat2_right (A B : S524288x1.Idx → α) (h : Shape.Concatenates [S524288x1, S524288x1] S524288x2 1) (b : Fin 524288) :
    concatenate S524288x2 1 [⟨S524288x1, A⟩, ⟨S524288x1, B⟩] h (ix2 b (1 : Fin 2)) = B (ix2 b (0 : Fin 1)) :=
  concatenate_pair_apply_right (t := S524288x2) (s₁ := S524288x1) (s₂ := S524288x1) 1 A B h (ix2 b (1 : Fin 2)) rfl rfl (ix2 b (0 : Fin 1))
    (fun a ha => by match a with | ⟨0, _⟩ => rfl | ⟨1, _⟩ => exact absurd rfl ha) rfl
end Cat2

theorem idx_main_v0_ix (a0 : Fin 524288) (a1 : Fin 1) : idx_main_v0 (ix2 a0 a1) = ix2 (⟨a0.val, by have h0 := a0.isLt; have h1 := a1.isLt; omega⟩ : Fin 524288) (⟨a1.val, by have h0 := a0.isLt; have h1 := a1.isLt; omega⟩ : Fin 3) := by
  funext a; refine Fin.ext ?_
  match a with
  | ⟨0, _⟩ => rfl
  | ⟨1, _⟩ => rfl
theorem idx_main_v1_ix (a0 : Fin 524288) : idx_main_v1 (ix1 a0) = ix2 (⟨a0.val / 1, by have h0 := a0.isLt; omega⟩ : Fin 524288) (⟨0, by have h0 := a0.isLt; omega⟩ : Fin 1) := by
  funext a; refine Fin.ext ?_
  match a with
  | ⟨0, _⟩ => rfl
  | ⟨1, _⟩ => rfl
theorem idx_main_v2_ix (a0 : Fin 524288) (a1 : Fin 1) : idx_main_v2 (ix2 a0 a1) = ix2 (⟨a0.val, by have h0 := a0.isLt; have h1 := a1.isLt; omega⟩ : Fin 524288) (⟨1 + a1.val, by have h0 := a0.isLt; have h1 := a1.isLt; omega⟩ : Fin 3) := by
  funext a; refine Fin.ext ?_
  match a with
  | ⟨0, _⟩ => rfl
  | ⟨1, _⟩ => rfl
theorem idx_main_v3_ix (a0 : Fin 524288) : idx_main_v3 (ix1 a0) = ix2 (⟨a0.val / 1, by have h0 := a0.isLt; omega⟩ : Fin 524288) (⟨0, by have h0 := a0.isLt; omega⟩ : Fin 1) := by
  funext a; refine Fin.ext ?_
  match a with
  | ⟨0, _⟩ => rfl
  | ⟨1, _⟩ => rfl
theorem idx_main_v40_ix (a0 : Fin 524288) (a1 : Fin 1) : idx_main_v40 (ix2 a0 a1) = ix1 (⟨a0.val, by have h0 := a0.isLt; have h1 := a1.isLt; omega⟩ : Fin 524288) := by
  funext a; refine Fin.ext ?_
  match a with
  | ⟨0, _⟩ => rfl
theorem idx_main_v41_ix (a0 : Fin 524288) (a1 : Fin 1) : idx_main_v41 (ix2 a0 a1) = ix1 (⟨a0.val, by have h0 := a0.isLt; have h1 := a1.isLt; omega⟩ : Fin 524288) := by
  funext a; refine Fin.ext ?_
  match a with
  | ⟨0, _⟩ => rfl
theorem idx_main_v54_ix (a0 : Fin 524288) (a1 : Fin 1) : idx_main_v54 (ix2 a0 a1) = ix1 (⟨a0.val, by have h0 := a0.isLt; have h1 := a1.isLt; omega⟩ : Fin 524288) := by
  funext a; refine Fin.ext ?_
  match a with
  | ⟨0, _⟩ => rfl
theorem idx_main_v55_ix (a0 : Fin 524288) (a1 : Fin 1) : idx_main_v55 (ix2 a0 a1) = ix1 (⟨a0.val, by have h0 := a0.isLt; have h1 := a1.isLt; omega⟩ : Fin 524288) := by
  funext a; refine Fin.ext ?_
  match a with
  | ⟨0, _⟩ => rfl
theorem idx_main_v68_ix (a0 : Fin 524288) (a1 : Fin 1) : idx_main_v68 (ix2 a0 a1) = ix1 (⟨a0.val, by have h0 := a0.isLt; have h1 := a1.isLt; omega⟩ : Fin 524288) := by
  funext a; refine Fin.ext ?_
  match a with
  | ⟨0, _⟩ => rfl
theorem idx_main_v69_ix (a0 : Fin 524288) (a1 : Fin 1) : idx_main_v69 (ix2 a0 a1) = ix1 (⟨a0.val, by have h0 := a0.isLt; have h1 := a1.isLt; omega⟩ : Fin 524288) := by
  funext a; refine Fin.ext ?_
  match a with
  | ⟨0, _⟩ => rfl
theorem idx_main_v82_ix (a0 : Fin 524288) (a1 : Fin 1) : idx_main_v82 (ix2 a0 a1) = ix1 (⟨a0.val, by have h0 := a0.isLt; have h1 := a1.isLt; omega⟩ : Fin 524288) := by
  funext a; refine Fin.ext ?_
  match a with
  | ⟨0, _⟩ => rfl
theorem idx_main_v83_ix (a0 : Fin 524288) (a1 : Fin 1) : idx_main_v83 (ix2 a0 a1) = ix1 (⟨a0.val, by have h0 := a0.isLt; have h1 := a1.isLt; omega⟩ : Fin 524288) := by
  funext a; refine Fin.ext ?_
  match a with
  | ⟨0, _⟩ => rfl
theorem idx_main_v88_ix (a0 : Fin 1) (a1 : Fin 524288) : idx_main_v88 (ix2 a0 a1) = ix1 (⟨a1.val, by have h0 := a0.isLt; have h1 := a1.isLt; omega⟩ : Fin 524288) := by
  funext a; refine Fin.ext ?_
  match a with
  | ⟨0, _⟩ => rfl
theorem idx_main_v89_ix (a0 : Fin 32) (a1 : Fin 524288) : idx_main_v89 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v91_ix (a0 : Fin 1) (a1 : Fin 524288) : idx_main_v91 (ix2 a0 a1) = ix1 (⟨a1.val, by have h0 := a0.isLt; have h1 := a1.isLt; omega⟩ : Fin 524288) := by
  funext a; refine Fin.ext ?_
  match a with
  | ⟨0, _⟩ => rfl
theorem idx_main_v92_ix (a0 : Fin 32) (a1 : Fin 524288) : idx_main_v92 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v97_ix (a0 : Fin 1) (a1 : Fin 524288) : idx_main_v97 (ix2 a0 a1) = ix1 (⟨a1.val, by have h0 := a0.isLt; have h1 := a1.isLt; omega⟩ : Fin 524288) := by
  funext a; refine Fin.ext ?_
  match a with
  | ⟨0, _⟩ => rfl
theorem idx_main_v98_ix (a0 : Fin 32) (a1 : Fin 524288) : idx_main_v98 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v100_ix (a0 : Fin 1) (a1 : Fin 524288) : idx_main_v100 (ix2 a0 a1) = ix1 (⟨a1.val, by have h0 := a0.isLt; have h1 := a1.isLt; omega⟩ : Fin 524288) := by
  funext a; refine Fin.ext ?_
  match a with
  | ⟨0, _⟩ => rfl
theorem idx_main_v101_ix (a0 : Fin 32) (a1 : Fin 524288) : idx_main_v101 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v106_ix (a0 : Fin 1) (a1 : Fin 524288) : idx_main_v106 (ix2 a0 a1) = ix1 (⟨a1.val, by have h0 := a0.isLt; have h1 := a1.isLt; omega⟩ : Fin 524288) := by
  funext a; refine Fin.ext ?_
  match a with
  | ⟨0, _⟩ => rfl
theorem idx_main_v107_ix (a0 : Fin 32) (a1 : Fin 524288) : idx_main_v107 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v109_ix (a0 : Fin 1) (a1 : Fin 524288) : idx_main_v109 (ix2 a0 a1) = ix1 (⟨a1.val, by have h0 := a0.isLt; have h1 := a1.isLt; omega⟩ : Fin 524288) := by
  funext a; refine Fin.ext ?_
  match a with
  | ⟨0, _⟩ => rfl
theorem idx_main_v110_ix (a0 : Fin 32) (a1 : Fin 524288) : idx_main_v110 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v115_ix (a0 : Fin 524288) (a1 : Fin 1) : idx_main_v115 (ix2 a0 a1) = ix2 (⟨a0.val, by have h0 := a0.isLt; have h1 := a1.isLt; omega⟩ : Fin 524288) (⟨a1.val, by have h0 := a0.isLt; have h1 := a1.isLt; omega⟩ : Fin 3) := by
  funext a; refine Fin.ext ?_
  match a with
  | ⟨0, _⟩ => rfl
  | ⟨1, _⟩ => rfl
theorem idx_main_v116_ix (a0 : Fin 524288) : idx_main_v116 (ix1 a0) = ix2 (⟨a0.val / 1, by have h0 := a0.isLt; omega⟩ : Fin 524288) (⟨0, by have h0 := a0.isLt; omega⟩ : Fin 1) := by
  funext a; refine Fin.ext ?_
  match a with
  | ⟨0, _⟩ => rfl
  | ⟨1, _⟩ => rfl
theorem idx_main_v117_ix (a0 : Fin 524288) (a1 : Fin 1) : idx_main_v117 (ix2 a0 a1) = ix2 (⟨a0.val, by have h0 := a0.isLt; have h1 := a1.isLt; omega⟩ : Fin 524288) (⟨2 + a1.val, by have h0 := a0.isLt; have h1 := a1.isLt; omega⟩ : Fin 3) := by
  funext a; refine Fin.ext ?_
  match a with
  | ⟨0, _⟩ => rfl
  | ⟨1, _⟩ => rfl
theorem idx_main_v118_ix (a0 : Fin 524288) : idx_main_v118 (ix1 a0) = ix2 (⟨a0.val / 1, by have h0 := a0.isLt; omega⟩ : Fin 524288) (⟨0, by have h0 := a0.isLt; omega⟩ : Fin 1) := by
  funext a; refine Fin.ext ?_
  match a with
  | ⟨0, _⟩ => rfl
  | ⟨1, _⟩ => rfl
theorem idx_main_v155_ix (a0 : Fin 524288) (a1 : Fin 1) : idx_main_v155 (ix2 a0 a1) = ix1 (⟨a0.val, by have h0 := a0.isLt; have h1 := a1.isLt; omega⟩ : Fin 524288) := by
  funext a; refine Fin.ext ?_
  match a with
  | ⟨0, _⟩ => rfl
theorem idx_main_v156_ix (a0 : Fin 524288) (a1 : Fin 1) : idx_main_v156 (ix2 a0 a1) = ix1 (⟨a0.val, by have h0 := a0.isLt; have h1 := a1.isLt; omega⟩ : Fin 524288) := by
  funext a; refine Fin.ext ?_
  match a with
  | ⟨0, _⟩ => rfl
theorem idx_main_v169_ix (a0 : Fin 524288) (a1 : Fin 1) : idx_main_v169 (ix2 a0 a1) = ix1 (⟨a0.val, by have h0 := a0.isLt; have h1 := a1.isLt; omega⟩ : Fin 524288) := by
  funext a; refine Fin.ext ?_
  match a with
  | ⟨0, _⟩ => rfl
theorem idx_main_v170_ix (a0 : Fin 524288) (a1 : Fin 1) : idx_main_v170 (ix2 a0 a1) = ix1 (⟨a0.val, by have h0 := a0.isLt; have h1 := a1.isLt; omega⟩ : Fin 524288) := by
  funext a; refine Fin.ext ?_
  match a with
  | ⟨0, _⟩ => rfl
theorem idx_main_v183_ix (a0 : Fin 524288) (a1 : Fin 1) : idx_main_v183 (ix2 a0 a1) = ix1 (⟨a0.val, by have h0 := a0.isLt; have h1 := a1.isLt; omega⟩ : Fin 524288) := by
  funext a; refine Fin.ext ?_
  match a with
  | ⟨0, _⟩ => rfl
theorem idx_main_v184_ix (a0 : Fin 524288) (a1 : Fin 1) : idx_main_v184 (ix2 a0 a1) = ix1 (⟨a0.val, by have h0 := a0.isLt; have h1 := a1.isLt; omega⟩ : Fin 524288) := by
  funext a; refine Fin.ext ?_
  match a with
  | ⟨0, _⟩ => rfl
theorem idx_main_v197_ix (a0 : Fin 524288) (a1 : Fin 1) : idx_main_v197 (ix2 a0 a1) = ix1 (⟨a0.val, by have h0 := a0.isLt; have h1 := a1.isLt; omega⟩ : Fin 524288) := by
  funext a; refine Fin.ext ?_
  match a with
  | ⟨0, _⟩ => rfl
theorem idx_main_v198_ix (a0 : Fin 524288) (a1 : Fin 1) : idx_main_v198 (ix2 a0 a1) = ix1 (⟨a0.val, by have h0 := a0.isLt; have h1 := a1.isLt; omega⟩ : Fin 524288) := by
  funext a; refine Fin.ext ?_
  match a with
  | ⟨0, _⟩ => rfl
theorem idx_main_v203_ix (a0 : Fin 1) (a1 : Fin 524288) : idx_main_v203 (ix2 a0 a1) = ix1 (⟨a1.val, by have h0 := a0.isLt; have h1 := a1.isLt; omega⟩ : Fin 524288) := by
  funext a; refine Fin.ext ?_
  match a with
  | ⟨0, _⟩ => rfl
theorem idx_main_v204_ix (a0 : Fin 32) (a1 : Fin 524288) : idx_main_v204 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v206_ix (a0 : Fin 1) (a1 : Fin 524288) : idx_main_v206 (ix2 a0 a1) = ix1 (⟨a1.val, by have h0 := a0.isLt; have h1 := a1.isLt; omega⟩ : Fin 524288) := by
  funext a; refine Fin.ext ?_
  match a with
  | ⟨0, _⟩ => rfl
theorem idx_main_v207_ix (a0 : Fin 32) (a1 : Fin 524288) : idx_main_v207 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v212_ix (a0 : Fin 1) (a1 : Fin 524288) : idx_main_v212 (ix2 a0 a1) = ix1 (⟨a1.val, by have h0 := a0.isLt; have h1 := a1.isLt; omega⟩ : Fin 524288) := by
  funext a; refine Fin.ext ?_
  match a with
  | ⟨0, _⟩ => rfl
theorem idx_main_v213_ix (a0 : Fin 32) (a1 : Fin 524288) : idx_main_v213 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v215_ix (a0 : Fin 1) (a1 : Fin 524288) : idx_main_v215 (ix2 a0 a1) = ix1 (⟨a1.val, by have h0 := a0.isLt; have h1 := a1.isLt; omega⟩ : Fin 524288) := by
  funext a; refine Fin.ext ?_
  match a with
  | ⟨0, _⟩ => rfl
theorem idx_main_v216_ix (a0 : Fin 32) (a1 : Fin 524288) : idx_main_v216 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v221_ix (a0 : Fin 1) (a1 : Fin 524288) : idx_main_v221 (ix2 a0 a1) = ix1 (⟨a1.val, by have h0 := a0.isLt; have h1 := a1.isLt; omega⟩ : Fin 524288) := by
  funext a; refine Fin.ext ?_
  match a with
  | ⟨0, _⟩ => rfl
theorem idx_main_v222_ix (a0 : Fin 32) (a1 : Fin 524288) : idx_main_v222 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v224_ix (a0 : Fin 1) (a1 : Fin 524288) : idx_main_v224 (ix2 a0 a1) = ix1 (⟨a1.val, by have h0 := a0.isLt; have h1 := a1.isLt; omega⟩ : Fin 524288) := by
  funext a; refine Fin.ext ?_
  match a with
  | ⟨0, _⟩ => rfl
theorem idx_main_v225_ix (a0 : Fin 32) (a1 : Fin 524288) : idx_main_v225 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v229_ix (a0 : Fin 524288) (a1 : Fin 1) : idx_main_v229 (ix2 a0 a1) = ix2 (⟨a0.val, by have h0 := a0.isLt; have h1 := a1.isLt; omega⟩ : Fin 524288) (⟨1 + a1.val, by have h0 := a0.isLt; have h1 := a1.isLt; omega⟩ : Fin 3) := by
  funext a; refine Fin.ext ?_
  match a with
  | ⟨0, _⟩ => rfl
  | ⟨1, _⟩ => rfl
theorem idx_main_v230_ix (a0 : Fin 524288) : idx_main_v230 (ix1 a0) = ix2 (⟨a0.val / 1, by have h0 := a0.isLt; omega⟩ : Fin 524288) (⟨0, by have h0 := a0.isLt; omega⟩ : Fin 1) := by
  funext a; refine Fin.ext ?_
  match a with
  | ⟨0, _⟩ => rfl
  | ⟨1, _⟩ => rfl
theorem idx_main_v231_ix (a0 : Fin 524288) (a1 : Fin 1) : idx_main_v231 (ix2 a0 a1) = ix2 (⟨a0.val, by have h0 := a0.isLt; have h1 := a1.isLt; omega⟩ : Fin 524288) (⟨2 + a1.val, by have h0 := a0.isLt; have h1 := a1.isLt; omega⟩ : Fin 3) := by
  funext a; refine Fin.ext ?_
  match a with
  | ⟨0, _⟩ => rfl
  | ⟨1, _⟩ => rfl
theorem idx_main_v232_ix (a0 : Fin 524288) : idx_main_v232 (ix1 a0) = ix2 (⟨a0.val / 1, by have h0 := a0.isLt; omega⟩ : Fin 524288) (⟨0, by have h0 := a0.isLt; omega⟩ : Fin 1) := by
  funext a; refine Fin.ext ?_
  match a with
  | ⟨0, _⟩ => rfl
  | ⟨1, _⟩ => rfl
theorem idx_main_v269_ix (a0 : Fin 524288) (a1 : Fin 1) : idx_main_v269 (ix2 a0 a1) = ix1 (⟨a0.val, by have h0 := a0.isLt; have h1 := a1.isLt; omega⟩ : Fin 524288) := by
  funext a; refine Fin.ext ?_
  match a with
  | ⟨0, _⟩ => rfl
theorem idx_main_v270_ix (a0 : Fin 524288) (a1 : Fin 1) : idx_main_v270 (ix2 a0 a1) = ix1 (⟨a0.val, by have h0 := a0.isLt; have h1 := a1.isLt; omega⟩ : Fin 524288) := by
  funext a; refine Fin.ext ?_
  match a with
  | ⟨0, _⟩ => rfl
theorem idx_main_v283_ix (a0 : Fin 524288) (a1 : Fin 1) : idx_main_v283 (ix2 a0 a1) = ix1 (⟨a0.val, by have h0 := a0.isLt; have h1 := a1.isLt; omega⟩ : Fin 524288) := by
  funext a; refine Fin.ext ?_
  match a with
  | ⟨0, _⟩ => rfl
theorem idx_main_v284_ix (a0 : Fin 524288) (a1 : Fin 1) : idx_main_v284 (ix2 a0 a1) = ix1 (⟨a0.val, by have h0 := a0.isLt; have h1 := a1.isLt; omega⟩ : Fin 524288) := by
  funext a; refine Fin.ext ?_
  match a with
  | ⟨0, _⟩ => rfl
theorem idx_main_v297_ix (a0 : Fin 524288) (a1 : Fin 1) : idx_main_v297 (ix2 a0 a1) = ix1 (⟨a0.val, by have h0 := a0.isLt; have h1 := a1.isLt; omega⟩ : Fin 524288) := by
  funext a; refine Fin.ext ?_
  match a with
  | ⟨0, _⟩ => rfl
theorem idx_main_v298_ix (a0 : Fin 524288) (a1 : Fin 1) : idx_main_v298 (ix2 a0 a1) = ix1 (⟨a0.val, by have h0 := a0.isLt; have h1 := a1.isLt; omega⟩ : Fin 524288) := by
  funext a; refine Fin.ext ?_
  match a with
  | ⟨0, _⟩ => rfl
theorem idx_main_v311_ix (a0 : Fin 524288) (a1 : Fin 1) : idx_main_v311 (ix2 a0 a1) = ix1 (⟨a0.val, by have h0 := a0.isLt; have h1 := a1.isLt; omega⟩ : Fin 524288) := by
  funext a; refine Fin.ext ?_
  match a with
  | ⟨0, _⟩ => rfl
theorem idx_main_v312_ix (a0 : Fin 524288) (a1 : Fin 1) : idx_main_v312 (ix2 a0 a1) = ix1 (⟨a0.val, by have h0 := a0.isLt; have h1 := a1.isLt; omega⟩ : Fin 524288) := by
  funext a; refine Fin.ext ?_
  match a with
  | ⟨0, _⟩ => rfl
theorem idx_main_v317_ix (a0 : Fin 1) (a1 : Fin 524288) : idx_main_v317 (ix2 a0 a1) = ix1 (⟨a1.val, by have h0 := a0.isLt; have h1 := a1.isLt; omega⟩ : Fin 524288) := by
  funext a; refine Fin.ext ?_
  match a with
  | ⟨0, _⟩ => rfl
theorem idx_main_v318_ix (a0 : Fin 32) (a1 : Fin 524288) : idx_main_v318 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v320_ix (a0 : Fin 1) (a1 : Fin 524288) : idx_main_v320 (ix2 a0 a1) = ix1 (⟨a1.val, by have h0 := a0.isLt; have h1 := a1.isLt; omega⟩ : Fin 524288) := by
  funext a; refine Fin.ext ?_
  match a with
  | ⟨0, _⟩ => rfl
theorem idx_main_v321_ix (a0 : Fin 32) (a1 : Fin 524288) : idx_main_v321 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v326_ix (a0 : Fin 1) (a1 : Fin 524288) : idx_main_v326 (ix2 a0 a1) = ix1 (⟨a1.val, by have h0 := a0.isLt; have h1 := a1.isLt; omega⟩ : Fin 524288) := by
  funext a; refine Fin.ext ?_
  match a with
  | ⟨0, _⟩ => rfl
theorem idx_main_v327_ix (a0 : Fin 32) (a1 : Fin 524288) : idx_main_v327 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v329_ix (a0 : Fin 1) (a1 : Fin 524288) : idx_main_v329 (ix2 a0 a1) = ix1 (⟨a1.val, by have h0 := a0.isLt; have h1 := a1.isLt; omega⟩ : Fin 524288) := by
  funext a; refine Fin.ext ?_
  match a with
  | ⟨0, _⟩ => rfl
theorem idx_main_v330_ix (a0 : Fin 32) (a1 : Fin 524288) : idx_main_v330 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v335_ix (a0 : Fin 1) (a1 : Fin 524288) : idx_main_v335 (ix2 a0 a1) = ix1 (⟨a1.val, by have h0 := a0.isLt; have h1 := a1.isLt; omega⟩ : Fin 524288) := by
  funext a; refine Fin.ext ?_
  match a with
  | ⟨0, _⟩ => rfl
theorem idx_main_v336_ix (a0 : Fin 32) (a1 : Fin 524288) : idx_main_v336 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v338_ix (a0 : Fin 1) (a1 : Fin 524288) : idx_main_v338 (ix2 a0 a1) = ix1 (⟨a1.val, by have h0 := a0.isLt; have h1 := a1.isLt; omega⟩ : Fin 524288) := by
  funext a; refine Fin.ext ?_
  match a with
  | ⟨0, _⟩ => rfl
theorem idx_main_v339_ix (a0 : Fin 32) (a1 : Fin 524288) : idx_main_v339 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v343_ix (a0 : Fin 524288) (a1 : Fin 32) : idx_main_v343 (ix2 a0 a1) = ix2 (⟨a1.val, by have h0 := a0.isLt; have h1 := a1.isLt; omega⟩ : Fin 32) (⟨a0.val, by have h0 := a0.isLt; have h1 := a1.isLt; omega⟩ : Fin 524288) := by
  funext a; refine Fin.ext ?_
  match a with
  | ⟨0, _⟩ => rfl
  | ⟨1, _⟩ => rfl
theorem idx_main_v344_ix (a0 : Fin 524288) (a1 : Fin 1) : idx_main_v344 (ix2 a0 a1) = ix2 (⟨a0.val, by have h0 := a0.isLt; have h1 := a1.isLt; omega⟩ : Fin 524288) (⟨a1.val, by have h0 := a0.isLt; have h1 := a1.isLt; omega⟩ : Fin 3) := by
  funext a; refine Fin.ext ?_
  match a with
  | ⟨0, _⟩ => rfl
  | ⟨1, _⟩ => rfl
theorem idx_main_v345_ix (a0 : Fin 524288) : idx_main_v345 (ix1 a0) = ix2 (⟨a0.val / 1, by have h0 := a0.isLt; omega⟩ : Fin 524288) (⟨0, by have h0 := a0.isLt; omega⟩ : Fin 1) := by
  funext a; refine Fin.ext ?_
  match a with
  | ⟨0, _⟩ => rfl
  | ⟨1, _⟩ => rfl
theorem idx_main_v346_ix (a0 : Fin 524288) (a1 : Fin 1) : idx_main_v346 (ix2 a0 a1) = ix2 (⟨a0.val, by have h0 := a0.isLt; have h1 := a1.isLt; omega⟩ : Fin 524288) (⟨1 + a1.val, by have h0 := a0.isLt; have h1 := a1.isLt; omega⟩ : Fin 3) := by
  funext a; refine Fin.ext ?_
  match a with
  | ⟨0, _⟩ => rfl
  | ⟨1, _⟩ => rfl
theorem idx_main_v347_ix (a0 : Fin 524288) : idx_main_v347 (ix1 a0) = ix2 (⟨a0.val / 1, by have h0 := a0.isLt; omega⟩ : Fin 524288) (⟨0, by have h0 := a0.isLt; omega⟩ : Fin 1) := by
  funext a; refine Fin.ext ?_
  match a with
  | ⟨0, _⟩ => rfl
  | ⟨1, _⟩ => rfl
theorem idx_main_v384_ix (a0 : Fin 524288) (a1 : Fin 1) : idx_main_v384 (ix2 a0 a1) = ix1 (⟨a0.val, by have h0 := a0.isLt; have h1 := a1.isLt; omega⟩ : Fin 524288) := by
  funext a; refine Fin.ext ?_
  match a with
  | ⟨0, _⟩ => rfl
theorem idx_main_v385_ix (a0 : Fin 524288) (a1 : Fin 1) : idx_main_v385 (ix2 a0 a1) = ix1 (⟨a0.val, by have h0 := a0.isLt; have h1 := a1.isLt; omega⟩ : Fin 524288) := by
  funext a; refine Fin.ext ?_
  match a with
  | ⟨0, _⟩ => rfl
theorem idx_main_v398_ix (a0 : Fin 524288) (a1 : Fin 1) : idx_main_v398 (ix2 a0 a1) = ix1 (⟨a0.val, by have h0 := a0.isLt; have h1 := a1.isLt; omega⟩ : Fin 524288) := by
  funext a; refine Fin.ext ?_
  match a with
  | ⟨0, _⟩ => rfl
theorem idx_main_v399_ix (a0 : Fin 524288) (a1 : Fin 1) : idx_main_v399 (ix2 a0 a1) = ix1 (⟨a0.val, by have h0 := a0.isLt; have h1 := a1.isLt; omega⟩ : Fin 524288) := by
  funext a; refine Fin.ext ?_
  match a with
  | ⟨0, _⟩ => rfl
theorem idx_main_v412_ix (a0 : Fin 524288) (a1 : Fin 1) : idx_main_v412 (ix2 a0 a1) = ix1 (⟨a0.val, by have h0 := a0.isLt; have h1 := a1.isLt; omega⟩ : Fin 524288) := by
  funext a; refine Fin.ext ?_
  match a with
  | ⟨0, _⟩ => rfl
theorem idx_main_v413_ix (a0 : Fin 524288) (a1 : Fin 1) : idx_main_v413 (ix2 a0 a1) = ix1 (⟨a0.val, by have h0 := a0.isLt; have h1 := a1.isLt; omega⟩ : Fin 524288) := by
  funext a; refine Fin.ext ?_
  match a with
  | ⟨0, _⟩ => rfl
theorem idx_main_v426_ix (a0 : Fin 524288) (a1 : Fin 1) : idx_main_v426 (ix2 a0 a1) = ix1 (⟨a0.val, by have h0 := a0.isLt; have h1 := a1.isLt; omega⟩ : Fin 524288) := by
  funext a; refine Fin.ext ?_
  match a with
  | ⟨0, _⟩ => rfl
theorem idx_main_v427_ix (a0 : Fin 524288) (a1 : Fin 1) : idx_main_v427 (ix2 a0 a1) = ix1 (⟨a0.val, by have h0 := a0.isLt; have h1 := a1.isLt; omega⟩ : Fin 524288) := by
  funext a; refine Fin.ext ?_
  match a with
  | ⟨0, _⟩ => rfl
theorem idx_main_v432_ix (a0 : Fin 1) (a1 : Fin 524288) : idx_main_v432 (ix2 a0 a1) = ix1 (⟨a1.val, by have h0 := a0.isLt; have h1 := a1.isLt; omega⟩ : Fin 524288) := by
  funext a; refine Fin.ext ?_
  match a with
  | ⟨0, _⟩ => rfl
theorem idx_main_v433_ix (a0 : Fin 32) (a1 : Fin 524288) : idx_main_v433 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v435_ix (a0 : Fin 1) (a1 : Fin 524288) : idx_main_v435 (ix2 a0 a1) = ix1 (⟨a1.val, by have h0 := a0.isLt; have h1 := a1.isLt; omega⟩ : Fin 524288) := by
  funext a; refine Fin.ext ?_
  match a with
  | ⟨0, _⟩ => rfl
theorem idx_main_v436_ix (a0 : Fin 32) (a1 : Fin 524288) : idx_main_v436 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v441_ix (a0 : Fin 1) (a1 : Fin 524288) : idx_main_v441 (ix2 a0 a1) = ix1 (⟨a1.val, by have h0 := a0.isLt; have h1 := a1.isLt; omega⟩ : Fin 524288) := by
  funext a; refine Fin.ext ?_
  match a with
  | ⟨0, _⟩ => rfl
theorem idx_main_v442_ix (a0 : Fin 32) (a1 : Fin 524288) : idx_main_v442 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v444_ix (a0 : Fin 1) (a1 : Fin 524288) : idx_main_v444 (ix2 a0 a1) = ix1 (⟨a1.val, by have h0 := a0.isLt; have h1 := a1.isLt; omega⟩ : Fin 524288) := by
  funext a; refine Fin.ext ?_
  match a with
  | ⟨0, _⟩ => rfl
theorem idx_main_v445_ix (a0 : Fin 32) (a1 : Fin 524288) : idx_main_v445 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v450_ix (a0 : Fin 1) (a1 : Fin 524288) : idx_main_v450 (ix2 a0 a1) = ix1 (⟨a1.val, by have h0 := a0.isLt; have h1 := a1.isLt; omega⟩ : Fin 524288) := by
  funext a; refine Fin.ext ?_
  match a with
  | ⟨0, _⟩ => rfl
theorem idx_main_v451_ix (a0 : Fin 32) (a1 : Fin 524288) : idx_main_v451 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v453_ix (a0 : Fin 1) (a1 : Fin 524288) : idx_main_v453 (ix2 a0 a1) = ix1 (⟨a1.val, by have h0 := a0.isLt; have h1 := a1.isLt; omega⟩ : Fin 524288) := by
  funext a; refine Fin.ext ?_
  match a with
  | ⟨0, _⟩ => rfl
theorem idx_main_v454_ix (a0 : Fin 32) (a1 : Fin 524288) : idx_main_v454 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v459_ix (a0 : Fin 524288) (a1 : Fin 1) : idx_main_v459 (ix2 a0 a1) = ix2 (⟨a0.val, by have h0 := a0.isLt; have h1 := a1.isLt; omega⟩ : Fin 524288) (⟨a1.val, by have h0 := a0.isLt; have h1 := a1.isLt; omega⟩ : Fin 3) := by
  funext a; refine Fin.ext ?_
  match a with
  | ⟨0, _⟩ => rfl
  | ⟨1, _⟩ => rfl
theorem idx_main_v460_ix (a0 : Fin 524288) : idx_main_v460 (ix1 a0) = ix2 (⟨a0.val / 1, by have h0 := a0.isLt; omega⟩ : Fin 524288) (⟨0, by have h0 := a0.isLt; omega⟩ : Fin 1) := by
  funext a; refine Fin.ext ?_
  match a with
  | ⟨0, _⟩ => rfl
  | ⟨1, _⟩ => rfl
theorem idx_main_v461_ix (a0 : Fin 524288) (a1 : Fin 1) : idx_main_v461 (ix2 a0 a1) = ix2 (⟨a0.val, by have h0 := a0.isLt; have h1 := a1.isLt; omega⟩ : Fin 524288) (⟨2 + a1.val, by have h0 := a0.isLt; have h1 := a1.isLt; omega⟩ : Fin 3) := by
  funext a; refine Fin.ext ?_
  match a with
  | ⟨0, _⟩ => rfl
  | ⟨1, _⟩ => rfl
theorem idx_main_v462_ix (a0 : Fin 524288) : idx_main_v462 (ix1 a0) = ix2 (⟨a0.val / 1, by have h0 := a0.isLt; omega⟩ : Fin 524288) (⟨0, by have h0 := a0.isLt; omega⟩ : Fin 1) := by
  funext a; refine Fin.ext ?_
  match a with
  | ⟨0, _⟩ => rfl
  | ⟨1, _⟩ => rfl
theorem idx_main_v499_ix (a0 : Fin 524288) (a1 : Fin 1) : idx_main_v499 (ix2 a0 a1) = ix1 (⟨a0.val, by have h0 := a0.isLt; have h1 := a1.isLt; omega⟩ : Fin 524288) := by
  funext a; refine Fin.ext ?_
  match a with
  | ⟨0, _⟩ => rfl
theorem idx_main_v500_ix (a0 : Fin 524288) (a1 : Fin 1) : idx_main_v500 (ix2 a0 a1) = ix1 (⟨a0.val, by have h0 := a0.isLt; have h1 := a1.isLt; omega⟩ : Fin 524288) := by
  funext a; refine Fin.ext ?_
  match a with
  | ⟨0, _⟩ => rfl
theorem idx_main_v513_ix (a0 : Fin 524288) (a1 : Fin 1) : idx_main_v513 (ix2 a0 a1) = ix1 (⟨a0.val, by have h0 := a0.isLt; have h1 := a1.isLt; omega⟩ : Fin 524288) := by
  funext a; refine Fin.ext ?_
  match a with
  | ⟨0, _⟩ => rfl
theorem idx_main_v514_ix (a0 : Fin 524288) (a1 : Fin 1) : idx_main_v514 (ix2 a0 a1) = ix1 (⟨a0.val, by have h0 := a0.isLt; have h1 := a1.isLt; omega⟩ : Fin 524288) := by
  funext a; refine Fin.ext ?_
  match a with
  | ⟨0, _⟩ => rfl
theorem idx_main_v527_ix (a0 : Fin 524288) (a1 : Fin 1) : idx_main_v527 (ix2 a0 a1) = ix1 (⟨a0.val, by have h0 := a0.isLt; have h1 := a1.isLt; omega⟩ : Fin 524288) := by
  funext a; refine Fin.ext ?_
  match a with
  | ⟨0, _⟩ => rfl
theorem idx_main_v528_ix (a0 : Fin 524288) (a1 : Fin 1) : idx_main_v528 (ix2 a0 a1) = ix1 (⟨a0.val, by have h0 := a0.isLt; have h1 := a1.isLt; omega⟩ : Fin 524288) := by
  funext a; refine Fin.ext ?_
  match a with
  | ⟨0, _⟩ => rfl
theorem idx_main_v541_ix (a0 : Fin 524288) (a1 : Fin 1) : idx_main_v541 (ix2 a0 a1) = ix1 (⟨a0.val, by have h0 := a0.isLt; have h1 := a1.isLt; omega⟩ : Fin 524288) := by
  funext a; refine Fin.ext ?_
  match a with
  | ⟨0, _⟩ => rfl
theorem idx_main_v542_ix (a0 : Fin 524288) (a1 : Fin 1) : idx_main_v542 (ix2 a0 a1) = ix1 (⟨a0.val, by have h0 := a0.isLt; have h1 := a1.isLt; omega⟩ : Fin 524288) := by
  funext a; refine Fin.ext ?_
  match a with
  | ⟨0, _⟩ => rfl
theorem idx_main_v547_ix (a0 : Fin 1) (a1 : Fin 524288) : idx_main_v547 (ix2 a0 a1) = ix1 (⟨a1.val, by have h0 := a0.isLt; have h1 := a1.isLt; omega⟩ : Fin 524288) := by
  funext a; refine Fin.ext ?_
  match a with
  | ⟨0, _⟩ => rfl
theorem idx_main_v548_ix (a0 : Fin 32) (a1 : Fin 524288) : idx_main_v548 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v550_ix (a0 : Fin 1) (a1 : Fin 524288) : idx_main_v550 (ix2 a0 a1) = ix1 (⟨a1.val, by have h0 := a0.isLt; have h1 := a1.isLt; omega⟩ : Fin 524288) := by
  funext a; refine Fin.ext ?_
  match a with
  | ⟨0, _⟩ => rfl
theorem idx_main_v551_ix (a0 : Fin 32) (a1 : Fin 524288) : idx_main_v551 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v556_ix (a0 : Fin 1) (a1 : Fin 524288) : idx_main_v556 (ix2 a0 a1) = ix1 (⟨a1.val, by have h0 := a0.isLt; have h1 := a1.isLt; omega⟩ : Fin 524288) := by
  funext a; refine Fin.ext ?_
  match a with
  | ⟨0, _⟩ => rfl
theorem idx_main_v557_ix (a0 : Fin 32) (a1 : Fin 524288) : idx_main_v557 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v559_ix (a0 : Fin 1) (a1 : Fin 524288) : idx_main_v559 (ix2 a0 a1) = ix1 (⟨a1.val, by have h0 := a0.isLt; have h1 := a1.isLt; omega⟩ : Fin 524288) := by
  funext a; refine Fin.ext ?_
  match a with
  | ⟨0, _⟩ => rfl
theorem idx_main_v560_ix (a0 : Fin 32) (a1 : Fin 524288) : idx_main_v560 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v565_ix (a0 : Fin 1) (a1 : Fin 524288) : idx_main_v565 (ix2 a0 a1) = ix1 (⟨a1.val, by have h0 := a0.isLt; have h1 := a1.isLt; omega⟩ : Fin 524288) := by
  funext a; refine Fin.ext ?_
  match a with
  | ⟨0, _⟩ => rfl
theorem idx_main_v566_ix (a0 : Fin 32) (a1 : Fin 524288) : idx_main_v566 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v568_ix (a0 : Fin 1) (a1 : Fin 524288) : idx_main_v568 (ix2 a0 a1) = ix1 (⟨a1.val, by have h0 := a0.isLt; have h1 := a1.isLt; omega⟩ : Fin 524288) := by
  funext a; refine Fin.ext ?_
  match a with
  | ⟨0, _⟩ => rfl
theorem idx_main_v569_ix (a0 : Fin 32) (a1 : Fin 524288) : idx_main_v569 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v573_ix (a0 : Fin 524288) (a1 : Fin 1) : idx_main_v573 (ix2 a0 a1) = ix2 (⟨a0.val, by have h0 := a0.isLt; have h1 := a1.isLt; omega⟩ : Fin 524288) (⟨1 + a1.val, by have h0 := a0.isLt; have h1 := a1.isLt; omega⟩ : Fin 3) := by
  funext a; refine Fin.ext ?_
  match a with
  | ⟨0, _⟩ => rfl
  | ⟨1, _⟩ => rfl
theorem idx_main_v574_ix (a0 : Fin 524288) : idx_main_v574 (ix1 a0) = ix2 (⟨a0.val / 1, by have h0 := a0.isLt; omega⟩ : Fin 524288) (⟨0, by have h0 := a0.isLt; omega⟩ : Fin 1) := by
  funext a; refine Fin.ext ?_
  match a with
  | ⟨0, _⟩ => rfl
  | ⟨1, _⟩ => rfl
theorem idx_main_v575_ix (a0 : Fin 524288) (a1 : Fin 1) : idx_main_v575 (ix2 a0 a1) = ix2 (⟨a0.val, by have h0 := a0.isLt; have h1 := a1.isLt; omega⟩ : Fin 524288) (⟨2 + a1.val, by have h0 := a0.isLt; have h1 := a1.isLt; omega⟩ : Fin 3) := by
  funext a; refine Fin.ext ?_
  match a with
  | ⟨0, _⟩ => rfl
  | ⟨1, _⟩ => rfl
theorem idx_main_v576_ix (a0 : Fin 524288) : idx_main_v576 (ix1 a0) = ix2 (⟨a0.val / 1, by have h0 := a0.isLt; omega⟩ : Fin 524288) (⟨0, by have h0 := a0.isLt; omega⟩ : Fin 1) := by
  funext a; refine Fin.ext ?_
  match a with
  | ⟨0, _⟩ => rfl
  | ⟨1, _⟩ => rfl
theorem idx_main_v613_ix (a0 : Fin 524288) (a1 : Fin 1) : idx_main_v613 (ix2 a0 a1) = ix1 (⟨a0.val, by have h0 := a0.isLt; have h1 := a1.isLt; omega⟩ : Fin 524288) := by
  funext a; refine Fin.ext ?_
  match a with
  | ⟨0, _⟩ => rfl
theorem idx_main_v614_ix (a0 : Fin 524288) (a1 : Fin 1) : idx_main_v614 (ix2 a0 a1) = ix1 (⟨a0.val, by have h0 := a0.isLt; have h1 := a1.isLt; omega⟩ : Fin 524288) := by
  funext a; refine Fin.ext ?_
  match a with
  | ⟨0, _⟩ => rfl
theorem idx_main_v627_ix (a0 : Fin 524288) (a1 : Fin 1) : idx_main_v627 (ix2 a0 a1) = ix1 (⟨a0.val, by have h0 := a0.isLt; have h1 := a1.isLt; omega⟩ : Fin 524288) := by
  funext a; refine Fin.ext ?_
  match a with
  | ⟨0, _⟩ => rfl
theorem idx_main_v628_ix (a0 : Fin 524288) (a1 : Fin 1) : idx_main_v628 (ix2 a0 a1) = ix1 (⟨a0.val, by have h0 := a0.isLt; have h1 := a1.isLt; omega⟩ : Fin 524288) := by
  funext a; refine Fin.ext ?_
  match a with
  | ⟨0, _⟩ => rfl
theorem idx_main_v641_ix (a0 : Fin 524288) (a1 : Fin 1) : idx_main_v641 (ix2 a0 a1) = ix1 (⟨a0.val, by have h0 := a0.isLt; have h1 := a1.isLt; omega⟩ : Fin 524288) := by
  funext a; refine Fin.ext ?_
  match a with
  | ⟨0, _⟩ => rfl
theorem idx_main_v642_ix (a0 : Fin 524288) (a1 : Fin 1) : idx_main_v642 (ix2 a0 a1) = ix1 (⟨a0.val, by have h0 := a0.isLt; have h1 := a1.isLt; omega⟩ : Fin 524288) := by
  funext a; refine Fin.ext ?_
  match a with
  | ⟨0, _⟩ => rfl
theorem idx_main_v655_ix (a0 : Fin 524288) (a1 : Fin 1) : idx_main_v655 (ix2 a0 a1) = ix1 (⟨a0.val, by have h0 := a0.isLt; have h1 := a1.isLt; omega⟩ : Fin 524288) := by
  funext a; refine Fin.ext ?_
  match a with
  | ⟨0, _⟩ => rfl
theorem idx_main_v656_ix (a0 : Fin 524288) (a1 : Fin 1) : idx_main_v656 (ix2 a0 a1) = ix1 (⟨a0.val, by have h0 := a0.isLt; have h1 := a1.isLt; omega⟩ : Fin 524288) := by
  funext a; refine Fin.ext ?_
  match a with
  | ⟨0, _⟩ => rfl
theorem idx_main_v661_ix (a0 : Fin 1) (a1 : Fin 524288) : idx_main_v661 (ix2 a0 a1) = ix1 (⟨a1.val, by have h0 := a0.isLt; have h1 := a1.isLt; omega⟩ : Fin 524288) := by
  funext a; refine Fin.ext ?_
  match a with
  | ⟨0, _⟩ => rfl
theorem idx_main_v662_ix (a0 : Fin 32) (a1 : Fin 524288) : idx_main_v662 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v664_ix (a0 : Fin 1) (a1 : Fin 524288) : idx_main_v664 (ix2 a0 a1) = ix1 (⟨a1.val, by have h0 := a0.isLt; have h1 := a1.isLt; omega⟩ : Fin 524288) := by
  funext a; refine Fin.ext ?_
  match a with
  | ⟨0, _⟩ => rfl
theorem idx_main_v665_ix (a0 : Fin 32) (a1 : Fin 524288) : idx_main_v665 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v670_ix (a0 : Fin 1) (a1 : Fin 524288) : idx_main_v670 (ix2 a0 a1) = ix1 (⟨a1.val, by have h0 := a0.isLt; have h1 := a1.isLt; omega⟩ : Fin 524288) := by
  funext a; refine Fin.ext ?_
  match a with
  | ⟨0, _⟩ => rfl
theorem idx_main_v671_ix (a0 : Fin 32) (a1 : Fin 524288) : idx_main_v671 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v673_ix (a0 : Fin 1) (a1 : Fin 524288) : idx_main_v673 (ix2 a0 a1) = ix1 (⟨a1.val, by have h0 := a0.isLt; have h1 := a1.isLt; omega⟩ : Fin 524288) := by
  funext a; refine Fin.ext ?_
  match a with
  | ⟨0, _⟩ => rfl
theorem idx_main_v674_ix (a0 : Fin 32) (a1 : Fin 524288) : idx_main_v674 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v679_ix (a0 : Fin 1) (a1 : Fin 524288) : idx_main_v679 (ix2 a0 a1) = ix1 (⟨a1.val, by have h0 := a0.isLt; have h1 := a1.isLt; omega⟩ : Fin 524288) := by
  funext a; refine Fin.ext ?_
  match a with
  | ⟨0, _⟩ => rfl
theorem idx_main_v680_ix (a0 : Fin 32) (a1 : Fin 524288) : idx_main_v680 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v682_ix (a0 : Fin 1) (a1 : Fin 524288) : idx_main_v682 (ix2 a0 a1) = ix1 (⟨a1.val, by have h0 := a0.isLt; have h1 := a1.isLt; omega⟩ : Fin 524288) := by
  funext a; refine Fin.ext ?_
  match a with
  | ⟨0, _⟩ => rfl
theorem idx_main_v683_ix (a0 : Fin 32) (a1 : Fin 524288) : idx_main_v683 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v687_ix (a0 : Fin 524288) (a1 : Fin 32) : idx_main_v687 (ix2 a0 a1) = ix2 (⟨a1.val, by have h0 := a0.isLt; have h1 := a1.isLt; omega⟩ : Fin 32) (⟨a0.val, by have h0 := a0.isLt; have h1 := a1.isLt; omega⟩ : Fin 524288) := by
  funext a; refine Fin.ext ?_
  match a with
  | ⟨0, _⟩ => rfl
  | ⟨1, _⟩ => rfl
theorem idx_main_v688_ix (a0 : Fin 524288) (a1 : Fin 1) : idx_main_v688 (ix2 a0 a1) = ix2 (⟨a0.val, by have h0 := a0.isLt; have h1 := a1.isLt; omega⟩ : Fin 524288) (⟨a1.val, by have h0 := a0.isLt; have h1 := a1.isLt; omega⟩ : Fin 3) := by
  funext a; refine Fin.ext ?_
  match a with
  | ⟨0, _⟩ => rfl
  | ⟨1, _⟩ => rfl
theorem idx_main_v689_ix (a0 : Fin 524288) : idx_main_v689 (ix1 a0) = ix2 (⟨a0.val / 1, by have h0 := a0.isLt; omega⟩ : Fin 524288) (⟨0, by have h0 := a0.isLt; omega⟩ : Fin 1) := by
  funext a; refine Fin.ext ?_
  match a with
  | ⟨0, _⟩ => rfl
  | ⟨1, _⟩ => rfl
theorem idx_main_v690_ix (a0 : Fin 524288) (a1 : Fin 1) : idx_main_v690 (ix2 a0 a1) = ix2 (⟨a0.val, by have h0 := a0.isLt; have h1 := a1.isLt; omega⟩ : Fin 524288) (⟨1 + a1.val, by have h0 := a0.isLt; have h1 := a1.isLt; omega⟩ : Fin 3) := by
  funext a; refine Fin.ext ?_
  match a with
  | ⟨0, _⟩ => rfl
  | ⟨1, _⟩ => rfl
theorem idx_main_v691_ix (a0 : Fin 524288) : idx_main_v691 (ix1 a0) = ix2 (⟨a0.val / 1, by have h0 := a0.isLt; omega⟩ : Fin 524288) (⟨0, by have h0 := a0.isLt; omega⟩ : Fin 1) := by
  funext a; refine Fin.ext ?_
  match a with
  | ⟨0, _⟩ => rfl
  | ⟨1, _⟩ => rfl
theorem idx_main_v728_ix (a0 : Fin 524288) (a1 : Fin 1) : idx_main_v728 (ix2 a0 a1) = ix1 (⟨a0.val, by have h0 := a0.isLt; have h1 := a1.isLt; omega⟩ : Fin 524288) := by
  funext a; refine Fin.ext ?_
  match a with
  | ⟨0, _⟩ => rfl
theorem idx_main_v729_ix (a0 : Fin 524288) (a1 : Fin 1) : idx_main_v729 (ix2 a0 a1) = ix1 (⟨a0.val, by have h0 := a0.isLt; have h1 := a1.isLt; omega⟩ : Fin 524288) := by
  funext a; refine Fin.ext ?_
  match a with
  | ⟨0, _⟩ => rfl
theorem idx_main_v742_ix (a0 : Fin 524288) (a1 : Fin 1) : idx_main_v742 (ix2 a0 a1) = ix1 (⟨a0.val, by have h0 := a0.isLt; have h1 := a1.isLt; omega⟩ : Fin 524288) := by
  funext a; refine Fin.ext ?_
  match a with
  | ⟨0, _⟩ => rfl
theorem idx_main_v743_ix (a0 : Fin 524288) (a1 : Fin 1) : idx_main_v743 (ix2 a0 a1) = ix1 (⟨a0.val, by have h0 := a0.isLt; have h1 := a1.isLt; omega⟩ : Fin 524288) := by
  funext a; refine Fin.ext ?_
  match a with
  | ⟨0, _⟩ => rfl
theorem idx_main_v756_ix (a0 : Fin 524288) (a1 : Fin 1) : idx_main_v756 (ix2 a0 a1) = ix1 (⟨a0.val, by have h0 := a0.isLt; have h1 := a1.isLt; omega⟩ : Fin 524288) := by
  funext a; refine Fin.ext ?_
  match a with
  | ⟨0, _⟩ => rfl
theorem idx_main_v757_ix (a0 : Fin 524288) (a1 : Fin 1) : idx_main_v757 (ix2 a0 a1) = ix1 (⟨a0.val, by have h0 := a0.isLt; have h1 := a1.isLt; omega⟩ : Fin 524288) := by
  funext a; refine Fin.ext ?_
  match a with
  | ⟨0, _⟩ => rfl
theorem idx_main_v770_ix (a0 : Fin 524288) (a1 : Fin 1) : idx_main_v770 (ix2 a0 a1) = ix1 (⟨a0.val, by have h0 := a0.isLt; have h1 := a1.isLt; omega⟩ : Fin 524288) := by
  funext a; refine Fin.ext ?_
  match a with
  | ⟨0, _⟩ => rfl
theorem idx_main_v771_ix (a0 : Fin 524288) (a1 : Fin 1) : idx_main_v771 (ix2 a0 a1) = ix1 (⟨a0.val, by have h0 := a0.isLt; have h1 := a1.isLt; omega⟩ : Fin 524288) := by
  funext a; refine Fin.ext ?_
  match a with
  | ⟨0, _⟩ => rfl
theorem idx_main_v776_ix (a0 : Fin 1) (a1 : Fin 524288) : idx_main_v776 (ix2 a0 a1) = ix1 (⟨a1.val, by have h0 := a0.isLt; have h1 := a1.isLt; omega⟩ : Fin 524288) := by
  funext a; refine Fin.ext ?_
  match a with
  | ⟨0, _⟩ => rfl
theorem idx_main_v777_ix (a0 : Fin 32) (a1 : Fin 524288) : idx_main_v777 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v779_ix (a0 : Fin 1) (a1 : Fin 524288) : idx_main_v779 (ix2 a0 a1) = ix1 (⟨a1.val, by have h0 := a0.isLt; have h1 := a1.isLt; omega⟩ : Fin 524288) := by
  funext a; refine Fin.ext ?_
  match a with
  | ⟨0, _⟩ => rfl
theorem idx_main_v780_ix (a0 : Fin 32) (a1 : Fin 524288) : idx_main_v780 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v785_ix (a0 : Fin 1) (a1 : Fin 524288) : idx_main_v785 (ix2 a0 a1) = ix1 (⟨a1.val, by have h0 := a0.isLt; have h1 := a1.isLt; omega⟩ : Fin 524288) := by
  funext a; refine Fin.ext ?_
  match a with
  | ⟨0, _⟩ => rfl
theorem idx_main_v786_ix (a0 : Fin 32) (a1 : Fin 524288) : idx_main_v786 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v788_ix (a0 : Fin 1) (a1 : Fin 524288) : idx_main_v788 (ix2 a0 a1) = ix1 (⟨a1.val, by have h0 := a0.isLt; have h1 := a1.isLt; omega⟩ : Fin 524288) := by
  funext a; refine Fin.ext ?_
  match a with
  | ⟨0, _⟩ => rfl
theorem idx_main_v789_ix (a0 : Fin 32) (a1 : Fin 524288) : idx_main_v789 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v794_ix (a0 : Fin 1) (a1 : Fin 524288) : idx_main_v794 (ix2 a0 a1) = ix1 (⟨a1.val, by have h0 := a0.isLt; have h1 := a1.isLt; omega⟩ : Fin 524288) := by
  funext a; refine Fin.ext ?_
  match a with
  | ⟨0, _⟩ => rfl
theorem idx_main_v795_ix (a0 : Fin 32) (a1 : Fin 524288) : idx_main_v795 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v797_ix (a0 : Fin 1) (a1 : Fin 524288) : idx_main_v797 (ix2 a0 a1) = ix1 (⟨a1.val, by have h0 := a0.isLt; have h1 := a1.isLt; omega⟩ : Fin 524288) := by
  funext a; refine Fin.ext ?_
  match a with
  | ⟨0, _⟩ => rfl
theorem idx_main_v798_ix (a0 : Fin 32) (a1 : Fin 524288) : idx_main_v798 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v803_ix (a0 : Fin 524288) (a1 : Fin 1) : idx_main_v803 (ix2 a0 a1) = ix2 (⟨a0.val, by have h0 := a0.isLt; have h1 := a1.isLt; omega⟩ : Fin 524288) (⟨a1.val, by have h0 := a0.isLt; have h1 := a1.isLt; omega⟩ : Fin 3) := by
  funext a; refine Fin.ext ?_
  match a with
  | ⟨0, _⟩ => rfl
  | ⟨1, _⟩ => rfl
theorem idx_main_v804_ix (a0 : Fin 524288) : idx_main_v804 (ix1 a0) = ix2 (⟨a0.val / 1, by have h0 := a0.isLt; omega⟩ : Fin 524288) (⟨0, by have h0 := a0.isLt; omega⟩ : Fin 1) := by
  funext a; refine Fin.ext ?_
  match a with
  | ⟨0, _⟩ => rfl
  | ⟨1, _⟩ => rfl
theorem idx_main_v805_ix (a0 : Fin 524288) (a1 : Fin 1) : idx_main_v805 (ix2 a0 a1) = ix2 (⟨a0.val, by have h0 := a0.isLt; have h1 := a1.isLt; omega⟩ : Fin 524288) (⟨2 + a1.val, by have h0 := a0.isLt; have h1 := a1.isLt; omega⟩ : Fin 3) := by
  funext a; refine Fin.ext ?_
  match a with
  | ⟨0, _⟩ => rfl
  | ⟨1, _⟩ => rfl
theorem idx_main_v806_ix (a0 : Fin 524288) : idx_main_v806 (ix1 a0) = ix2 (⟨a0.val / 1, by have h0 := a0.isLt; omega⟩ : Fin 524288) (⟨0, by have h0 := a0.isLt; omega⟩ : Fin 1) := by
  funext a; refine Fin.ext ?_
  match a with
  | ⟨0, _⟩ => rfl
  | ⟨1, _⟩ => rfl
theorem idx_main_v843_ix (a0 : Fin 524288) (a1 : Fin 1) : idx_main_v843 (ix2 a0 a1) = ix1 (⟨a0.val, by have h0 := a0.isLt; have h1 := a1.isLt; omega⟩ : Fin 524288) := by
  funext a; refine Fin.ext ?_
  match a with
  | ⟨0, _⟩ => rfl
theorem idx_main_v844_ix (a0 : Fin 524288) (a1 : Fin 1) : idx_main_v844 (ix2 a0 a1) = ix1 (⟨a0.val, by have h0 := a0.isLt; have h1 := a1.isLt; omega⟩ : Fin 524288) := by
  funext a; refine Fin.ext ?_
  match a with
  | ⟨0, _⟩ => rfl
theorem idx_main_v857_ix (a0 : Fin 524288) (a1 : Fin 1) : idx_main_v857 (ix2 a0 a1) = ix1 (⟨a0.val, by have h0 := a0.isLt; have h1 := a1.isLt; omega⟩ : Fin 524288) := by
  funext a; refine Fin.ext ?_
  match a with
  | ⟨0, _⟩ => rfl
theorem idx_main_v858_ix (a0 : Fin 524288) (a1 : Fin 1) : idx_main_v858 (ix2 a0 a1) = ix1 (⟨a0.val, by have h0 := a0.isLt; have h1 := a1.isLt; omega⟩ : Fin 524288) := by
  funext a; refine Fin.ext ?_
  match a with
  | ⟨0, _⟩ => rfl
theorem idx_main_v871_ix (a0 : Fin 524288) (a1 : Fin 1) : idx_main_v871 (ix2 a0 a1) = ix1 (⟨a0.val, by have h0 := a0.isLt; have h1 := a1.isLt; omega⟩ : Fin 524288) := by
  funext a; refine Fin.ext ?_
  match a with
  | ⟨0, _⟩ => rfl
theorem idx_main_v872_ix (a0 : Fin 524288) (a1 : Fin 1) : idx_main_v872 (ix2 a0 a1) = ix1 (⟨a0.val, by have h0 := a0.isLt; have h1 := a1.isLt; omega⟩ : Fin 524288) := by
  funext a; refine Fin.ext ?_
  match a with
  | ⟨0, _⟩ => rfl
theorem idx_main_v885_ix (a0 : Fin 524288) (a1 : Fin 1) : idx_main_v885 (ix2 a0 a1) = ix1 (⟨a0.val, by have h0 := a0.isLt; have h1 := a1.isLt; omega⟩ : Fin 524288) := by
  funext a; refine Fin.ext ?_
  match a with
  | ⟨0, _⟩ => rfl
theorem idx_main_v886_ix (a0 : Fin 524288) (a1 : Fin 1) : idx_main_v886 (ix2 a0 a1) = ix1 (⟨a0.val, by have h0 := a0.isLt; have h1 := a1.isLt; omega⟩ : Fin 524288) := by
  funext a; refine Fin.ext ?_
  match a with
  | ⟨0, _⟩ => rfl
theorem idx_main_v891_ix (a0 : Fin 1) (a1 : Fin 524288) : idx_main_v891 (ix2 a0 a1) = ix1 (⟨a1.val, by have h0 := a0.isLt; have h1 := a1.isLt; omega⟩ : Fin 524288) := by
  funext a; refine Fin.ext ?_
  match a with
  | ⟨0, _⟩ => rfl
theorem idx_main_v892_ix (a0 : Fin 32) (a1 : Fin 524288) : idx_main_v892 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v894_ix (a0 : Fin 1) (a1 : Fin 524288) : idx_main_v894 (ix2 a0 a1) = ix1 (⟨a1.val, by have h0 := a0.isLt; have h1 := a1.isLt; omega⟩ : Fin 524288) := by
  funext a; refine Fin.ext ?_
  match a with
  | ⟨0, _⟩ => rfl
theorem idx_main_v895_ix (a0 : Fin 32) (a1 : Fin 524288) : idx_main_v895 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v900_ix (a0 : Fin 1) (a1 : Fin 524288) : idx_main_v900 (ix2 a0 a1) = ix1 (⟨a1.val, by have h0 := a0.isLt; have h1 := a1.isLt; omega⟩ : Fin 524288) := by
  funext a; refine Fin.ext ?_
  match a with
  | ⟨0, _⟩ => rfl
theorem idx_main_v901_ix (a0 : Fin 32) (a1 : Fin 524288) : idx_main_v901 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v903_ix (a0 : Fin 1) (a1 : Fin 524288) : idx_main_v903 (ix2 a0 a1) = ix1 (⟨a1.val, by have h0 := a0.isLt; have h1 := a1.isLt; omega⟩ : Fin 524288) := by
  funext a; refine Fin.ext ?_
  match a with
  | ⟨0, _⟩ => rfl
theorem idx_main_v904_ix (a0 : Fin 32) (a1 : Fin 524288) : idx_main_v904 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v909_ix (a0 : Fin 1) (a1 : Fin 524288) : idx_main_v909 (ix2 a0 a1) = ix1 (⟨a1.val, by have h0 := a0.isLt; have h1 := a1.isLt; omega⟩ : Fin 524288) := by
  funext a; refine Fin.ext ?_
  match a with
  | ⟨0, _⟩ => rfl
theorem idx_main_v910_ix (a0 : Fin 32) (a1 : Fin 524288) : idx_main_v910 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v912_ix (a0 : Fin 1) (a1 : Fin 524288) : idx_main_v912 (ix2 a0 a1) = ix1 (⟨a1.val, by have h0 := a0.isLt; have h1 := a1.isLt; omega⟩ : Fin 524288) := by
  funext a; refine Fin.ext ?_
  match a with
  | ⟨0, _⟩ => rfl
theorem idx_main_v913_ix (a0 : Fin 32) (a1 : Fin 524288) : idx_main_v913 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v917_ix (a0 : Fin 524288) (a1 : Fin 1) : idx_main_v917 (ix2 a0 a1) = ix2 (⟨a0.val, by have h0 := a0.isLt; have h1 := a1.isLt; omega⟩ : Fin 524288) (⟨1 + a1.val, by have h0 := a0.isLt; have h1 := a1.isLt; omega⟩ : Fin 3) := by
  funext a; refine Fin.ext ?_
  match a with
  | ⟨0, _⟩ => rfl
  | ⟨1, _⟩ => rfl
theorem idx_main_v918_ix (a0 : Fin 524288) : idx_main_v918 (ix1 a0) = ix2 (⟨a0.val / 1, by have h0 := a0.isLt; omega⟩ : Fin 524288) (⟨0, by have h0 := a0.isLt; omega⟩ : Fin 1) := by
  funext a; refine Fin.ext ?_
  match a with
  | ⟨0, _⟩ => rfl
  | ⟨1, _⟩ => rfl
theorem idx_main_v919_ix (a0 : Fin 524288) (a1 : Fin 1) : idx_main_v919 (ix2 a0 a1) = ix2 (⟨a0.val, by have h0 := a0.isLt; have h1 := a1.isLt; omega⟩ : Fin 524288) (⟨2 + a1.val, by have h0 := a0.isLt; have h1 := a1.isLt; omega⟩ : Fin 3) := by
  funext a; refine Fin.ext ?_
  match a with
  | ⟨0, _⟩ => rfl
  | ⟨1, _⟩ => rfl
theorem idx_main_v920_ix (a0 : Fin 524288) : idx_main_v920 (ix1 a0) = ix2 (⟨a0.val / 1, by have h0 := a0.isLt; omega⟩ : Fin 524288) (⟨0, by have h0 := a0.isLt; omega⟩ : Fin 1) := by
  funext a; refine Fin.ext ?_
  match a with
  | ⟨0, _⟩ => rfl
  | ⟨1, _⟩ => rfl
theorem idx_main_v957_ix (a0 : Fin 524288) (a1 : Fin 1) : idx_main_v957 (ix2 a0 a1) = ix1 (⟨a0.val, by have h0 := a0.isLt; have h1 := a1.isLt; omega⟩ : Fin 524288) := by
  funext a; refine Fin.ext ?_
  match a with
  | ⟨0, _⟩ => rfl
theorem idx_main_v958_ix (a0 : Fin 524288) (a1 : Fin 1) : idx_main_v958 (ix2 a0 a1) = ix1 (⟨a0.val, by have h0 := a0.isLt; have h1 := a1.isLt; omega⟩ : Fin 524288) := by
  funext a; refine Fin.ext ?_
  match a with
  | ⟨0, _⟩ => rfl
theorem idx_main_v971_ix (a0 : Fin 524288) (a1 : Fin 1) : idx_main_v971 (ix2 a0 a1) = ix1 (⟨a0.val, by have h0 := a0.isLt; have h1 := a1.isLt; omega⟩ : Fin 524288) := by
  funext a; refine Fin.ext ?_
  match a with
  | ⟨0, _⟩ => rfl
theorem idx_main_v972_ix (a0 : Fin 524288) (a1 : Fin 1) : idx_main_v972 (ix2 a0 a1) = ix1 (⟨a0.val, by have h0 := a0.isLt; have h1 := a1.isLt; omega⟩ : Fin 524288) := by
  funext a; refine Fin.ext ?_
  match a with
  | ⟨0, _⟩ => rfl
theorem idx_main_v985_ix (a0 : Fin 524288) (a1 : Fin 1) : idx_main_v985 (ix2 a0 a1) = ix1 (⟨a0.val, by have h0 := a0.isLt; have h1 := a1.isLt; omega⟩ : Fin 524288) := by
  funext a; refine Fin.ext ?_
  match a with
  | ⟨0, _⟩ => rfl
theorem idx_main_v986_ix (a0 : Fin 524288) (a1 : Fin 1) : idx_main_v986 (ix2 a0 a1) = ix1 (⟨a0.val, by have h0 := a0.isLt; have h1 := a1.isLt; omega⟩ : Fin 524288) := by
  funext a; refine Fin.ext ?_
  match a with
  | ⟨0, _⟩ => rfl
theorem idx_main_v999_ix (a0 : Fin 524288) (a1 : Fin 1) : idx_main_v999 (ix2 a0 a1) = ix1 (⟨a0.val, by have h0 := a0.isLt; have h1 := a1.isLt; omega⟩ : Fin 524288) := by
  funext a; refine Fin.ext ?_
  match a with
  | ⟨0, _⟩ => rfl
theorem idx_main_v1000_ix (a0 : Fin 524288) (a1 : Fin 1) : idx_main_v1000 (ix2 a0 a1) = ix1 (⟨a0.val, by have h0 := a0.isLt; have h1 := a1.isLt; omega⟩ : Fin 524288) := by
  funext a; refine Fin.ext ?_
  match a with
  | ⟨0, _⟩ => rfl
theorem idx_main_v1005_ix (a0 : Fin 1) (a1 : Fin 524288) : idx_main_v1005 (ix2 a0 a1) = ix1 (⟨a1.val, by have h0 := a0.isLt; have h1 := a1.isLt; omega⟩ : Fin 524288) := by
  funext a; refine Fin.ext ?_
  match a with
  | ⟨0, _⟩ => rfl
theorem idx_main_v1006_ix (a0 : Fin 32) (a1 : Fin 524288) : idx_main_v1006 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v1008_ix (a0 : Fin 1) (a1 : Fin 524288) : idx_main_v1008 (ix2 a0 a1) = ix1 (⟨a1.val, by have h0 := a0.isLt; have h1 := a1.isLt; omega⟩ : Fin 524288) := by
  funext a; refine Fin.ext ?_
  match a with
  | ⟨0, _⟩ => rfl
theorem idx_main_v1009_ix (a0 : Fin 32) (a1 : Fin 524288) : idx_main_v1009 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v1014_ix (a0 : Fin 1) (a1 : Fin 524288) : idx_main_v1014 (ix2 a0 a1) = ix1 (⟨a1.val, by have h0 := a0.isLt; have h1 := a1.isLt; omega⟩ : Fin 524288) := by
  funext a; refine Fin.ext ?_
  match a with
  | ⟨0, _⟩ => rfl
theorem idx_main_v1015_ix (a0 : Fin 32) (a1 : Fin 524288) : idx_main_v1015 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v1017_ix (a0 : Fin 1) (a1 : Fin 524288) : idx_main_v1017 (ix2 a0 a1) = ix1 (⟨a1.val, by have h0 := a0.isLt; have h1 := a1.isLt; omega⟩ : Fin 524288) := by
  funext a; refine Fin.ext ?_
  match a with
  | ⟨0, _⟩ => rfl
theorem idx_main_v1018_ix (a0 : Fin 32) (a1 : Fin 524288) : idx_main_v1018 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v1023_ix (a0 : Fin 1) (a1 : Fin 524288) : idx_main_v1023 (ix2 a0 a1) = ix1 (⟨a1.val, by have h0 := a0.isLt; have h1 := a1.isLt; omega⟩ : Fin 524288) := by
  funext a; refine Fin.ext ?_
  match a with
  | ⟨0, _⟩ => rfl
theorem idx_main_v1024_ix (a0 : Fin 32) (a1 : Fin 524288) : idx_main_v1024 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v1026_ix (a0 : Fin 1) (a1 : Fin 524288) : idx_main_v1026 (ix2 a0 a1) = ix1 (⟨a1.val, by have h0 := a0.isLt; have h1 := a1.isLt; omega⟩ : Fin 524288) := by
  funext a; refine Fin.ext ?_
  match a with
  | ⟨0, _⟩ => rfl
theorem idx_main_v1027_ix (a0 : Fin 32) (a1 : Fin 524288) : idx_main_v1027 (ix2 a0 a1) = ix2 (⟨0, by have h0 := a0.isLt; have h1 := a1.isLt; omega⟩ : Fin 1) (⟨a1.val, by have h0 := a0.isLt; have h1 := a1.isLt; omega⟩ : Fin 524288) := by
  funext a; refine Fin.ext ?_
  match a with
  | ⟨0, _⟩ => rfl
  | ⟨1, _⟩ => rfl
theorem idx_main_v1031_ix (a0 : Fin 524288) (a1 : Fin 32) : idx_main_v1031 (ix2 a0 a1) = ix2 (⟨a1.val, by have h0 := a0.isLt; have h1 := a1.isLt; omega⟩ : Fin 32) (⟨a0.val, by have h0 := a0.isLt; have h1 := a1.isLt; omega⟩ : Fin 524288) := by
  funext a; refine Fin.ext ?_
  match a with
  | ⟨0, _⟩ => rfl
  | ⟨1, _⟩ => rfl

end Cert.ReferenceIdeal.RefValue

end
-- ==== Proof.RefValue.lean ====
/-
  The reference's result is the specification.

  Plane by plane the reference computes the pixel positions, the clamped corners and the fractional weights, gathers the
  four corner values and combines them bilinearly; read at (channel c, point b) that is the specification's sample. A
  resolution's features are the product 1 · plane 0 · plane 1 · plane 2, transposed to (point, channel), and the result
  row is the three resolutions' 32 features side by side.
-/
import proofs.«123486_j78099685310709_1_alg».proof.Proof.RefIdx

noncomputable section

open scoped BigOperators

namespace Cert.ReferenceIdeal.RefValue

open Idealize.ShloMosaic Idealize.ShloMosaic.ValueIdx
open Cert.ReferenceIdeal Cert.ReferenceIdeal.Gen Cert.ReferenceIdeal.Read

/-- Gather 43: channel c of point b is the plane at the row and column the two index vectors name. -/
theorem gather_v43 (x0 : (⟨S524288x3, .f32⟩ : BufTy).Contents (Elt Ideal)) (xk : (⟨S32x64x64, .f32⟩ : BufTy).Contents (Elt Ideal)) (c : Fin 32) (b : Fin 524288) :
    val_main_v43 (F := Ideal) x0 xk (ix2 c b)
      = xk (ix3 c (Cert.Spec.pos 64 (by decide) (val_main_v34 (F := Ideal) x0 (ix1 b))) (Cert.Spec.pos 64 (by decide) (val_main_v39 (F := Ideal) x0 (ix1 b)))) := by
  unfold val_main_v43 val_main_v42
  rw [gather64_apply]
  rw [cat2_left, cat2_right, val_main_v40_apply, val_main_v41_apply, idx_main_v40_ix, idx_main_v41_ix]

/-- Gather 57: channel c of point b is the plane at the row and column the two index vectors name. -/
theorem gather_v57 (x0 : (⟨S524288x3, .f32⟩ : BufTy).Contents (Elt Ideal)) (xk : (⟨S32x64x64, .f32⟩ : BufTy).Contents (Elt Ideal)) (c : Fin 32) (b : Fin 524288) :
    val_main_v57 (F := Ideal) x0 xk (ix2 c b)
      = xk (ix3 c (Cert.Spec.pos 64 (by decide) (val_main_v48 (F := Ideal) x0 (ix1 b))) (Cert.Spec.pos 64 (by decide) (val_main_v53 (F := Ideal) x0 (ix1 b)))) := by
  unfold val_main_v57 val_main_v56
  rw [gather64_apply]
  rw [cat2_left, cat2_right, val_main_v54_apply, val_main_v55_apply, idx_main_v54_ix, idx_main_v55_ix]

/-- Gather 71: channel c of point b is the plane at the row and column the two index vectors name. -/
theorem gather_v71 (x0 : (⟨S524288x3, .f32⟩ : BufTy).Contents (Elt Ideal)) (xk : (⟨S32x64x64, .f32⟩ : BufTy).Contents (Elt Ideal)) (c : Fin 32) (b : Fin 524288) :
    val_main_v71 (F := Ideal) x0 xk (ix2 c b)
      = xk (ix3 c (Cert.Spec.pos 64 (by decide) (val_main_v62 (F := Ideal) x0 (ix1 b))) (Cert.Spec.pos 64 (by decide) (val_main_v67 (F := Ideal) x0 (ix1 b)))) := by
  unfold val_main_v71 val_main_v70
  rw [gather64_apply]
  rw [cat2_left, cat2_right, val_main_v68_apply, val_main_v69_apply, idx_main_v68_ix, idx_main_v69_ix]

/-- Gather 85: channel c of point b is the plane at the row and column the two index vectors name. -/
theorem gather_v85 (x0 : (⟨S524288x3, .f32⟩ : BufTy).Contents (Elt Ideal)) (xk : (⟨S32x64x64, .f32⟩ : BufTy).Contents (Elt Ideal)) (c : Fin 32) (b : Fin 524288) :
    val_main_v85 (F := Ideal) x0 xk (ix2 c b)
      = xk (ix3 c (Cert.Spec.pos 64 (by decide) (val_main_v76 (F := Ideal) x0 (ix1 b))) (Cert.Spec.pos 64 (by decide) (val_main_v81 (F := Ideal) x0 (ix1 b)))) := by
  unfold val_main_v85 val_main_v84
  rw [gather64_apply]
  rw [cat2_left, cat2_right, val_main_v82_apply, val_main_v83_apply, idx_main_v82_ix, idx_main_v83_ix]

set_option maxHeartbeats 2000000 in
/-- The reference's bilinear sample of plane 0 of the low resolution, at channel c and point b. -/
theorem ref_plane_low0 (x0 : (⟨S524288x3, .f32⟩ : BufTy).Contents (Elt Ideal)) (xk : (⟨S32x64x64, .f32⟩ : BufTy).Contents (Elt Ideal)) (c : Fin 32) (b : Fin 524288) :
    val_main_v112 (F := Ideal) x0 xk (ix2 c b)
      = Cert.Spec.sample 64 (by decide) Cert.Spec.s63 63#32 (fun h w => xk (ix3 c h w)) (x0 (ix2 b ⟨0, by decide⟩)) (x0 (ix2 b ⟨1, by decide⟩)) := by
  simp only [val_main_v0_apply, val_main_v1_apply, val_main_v2_apply, val_main_v3_apply, val_main_cst_apply, val_main_v4_apply, val_main_v5_apply, val_main_cst_0_apply, val_main_v6_apply, val_main_v7_apply, val_main_cst_1_apply, val_main_v8_apply, val_main_v9_apply, val_main_cst_2_apply, val_main_v10_apply, val_main_v11_apply, val_main_cst_3_apply, val_main_v12_apply, val_main_v13_apply, val_main_cst_4_apply, val_main_v14_apply, val_main_v15_apply, val_main_v16_apply, val_main_v17_apply, val_main_v18_apply, val_main_v19_apply, val_main_v20_apply, val_main_c_apply, val_main_c_5_apply, val_main_call0_v0_apply, val_main_call0_v1_apply, val_main_call0_v2_apply, val_main_call0_v3_apply, val_main_call0_v4_apply, val_main_v21_apply, val_main_c_6_apply, val_main_v22_apply, val_main_v23_apply, val_main_c_7_apply, val_main_c_8_apply, val_main_call1_v0_apply, val_main_call1_v1_apply, val_main_call1_v2_apply, val_main_call1_v3_apply, val_main_call1_v4_apply, val_main_v24_apply, val_main_v25_apply, val_main_c_9_apply, val_main_c_10_apply, val_main_call2_v0_apply, val_main_call2_v1_apply, val_main_call2_v2_apply, val_main_call2_v3_apply, val_main_call2_v4_apply, val_main_v26_apply, val_main_c_11_apply, val_main_v27_apply, val_main_v28_apply, val_main_c_12_apply, val_main_c_13_apply, val_main_call3_v0_apply, val_main_call3_v1_apply, val_main_call3_v2_apply, val_main_call3_v3_apply, val_main_call3_v4_apply, val_main_v29_apply, val_main_c_14_apply, val_main_v30_apply, val_main_v31_apply, val_main_c_15_apply, val_main_v32_apply, val_main_v33_apply, val_main_v34_apply, val_main_c_16_apply, val_main_v35_apply, val_main_v36_apply, val_main_c_17_apply, val_main_v37_apply, val_main_v38_apply, val_main_v39_apply, val_main_v40_apply, val_main_v41_apply, val_main_c_18_apply, val_main_v44_apply, val_main_v45_apply, val_main_c_19_apply, val_main_v46_apply, val_main_v47_apply, val_main_v48_apply, val_main_c_20_apply, val_main_v49_apply, val_main_v50_apply, val_main_c_21_apply, val_main_v51_apply, val_main_v52_apply, val_main_v53_apply, val_main_v54_apply, val_main_v55_apply, val_main_c_22_apply, val_main_v58_apply, val_main_v59_apply, val_main_c_23_apply, val_main_v60_apply, val_main_v61_apply, val_main_v62_apply, val_main_c_24_apply, val_main_v63_apply, val_main_v64_apply, val_main_c_25_apply, val_main_v65_apply, val_main_v66_apply, val_main_v67_apply, val_main_v68_apply, val_main_v69_apply, val_main_c_26_apply, val_main_v72_apply, val_main_v73_apply, val_main_c_27_apply, val_main_v74_apply, val_main_v75_apply, val_main_v76_apply, val_main_c_28_apply, val_main_v77_apply, val_main_v78_apply, val_main_c_29_apply, val_main_v79_apply, val_main_v80_apply, val_main_v81_apply, val_main_v82_apply, val_main_v83_apply, val_main_cst_30_apply, val_main_v86_apply, val_main_v87_apply, val_main_v88_apply, val_main_v89_apply, val_main_v90_apply, val_main_v91_apply, val_main_v92_apply, val_main_v93_apply, val_main_v94_apply, val_main_cst_31_apply, val_main_v95_apply, val_main_v96_apply, val_main_v97_apply, val_main_v98_apply, val_main_v99_apply, val_main_v100_apply, val_main_v101_apply, val_main_v102_apply, val_main_v103_apply, val_main_cst_32_apply, val_main_v104_apply, val_main_v105_apply, val_main_v106_apply, val_main_v107_apply, val_main_v108_apply, val_main_v109_apply, val_main_v110_apply, val_main_v111_apply, val_main_v112_apply, idx_main_v0_ix, idx_main_v1_ix, idx_main_v2_ix, idx_main_v3_ix, idx_main_v40_ix, idx_main_v41_ix, idx_main_v54_ix, idx_main_v55_ix, idx_main_v68_ix, idx_main_v69_ix, idx_main_v82_ix, idx_main_v83_ix, idx_main_v88_ix, idx_main_v89_ix, idx_main_v91_ix, idx_main_v92_ix, idx_main_v97_ix, idx_main_v98_ix, idx_main_v100_ix, idx_main_v101_ix, idx_main_v106_ix, idx_main_v107_ix, idx_main_v109_ix, idx_main_v110_ix, gather_v43, gather_v57, gather_v71, gather_v85,
    Nat.div_one, Nat.zero_add, Nat.add_zero, Fin.eta, Ideal.addf_def, Ideal.mulf_def, Ideal.subf_def, Ideal.hostUnary_floor_def, Cert.Spec.fptosi_ideal, Ideal.ofBits_def]
  simp only [Cert.Spec.pix_fold, Cert.Spec.frac_fold, Cert.Spec.lo_fold, Cert.Spec.up_fold, Cert.Spec.wrap_lo63, Cert.Spec.wrap_up63]
  rfl

/-- Gather 158: channel c of point b is the plane at the row and column the two index vectors name. -/
theorem gather_v158 (x0 : (⟨S524288x3, .f32⟩ : BufTy).Contents (Elt Ideal)) (xk : (⟨S32x64x64, .f32⟩ : BufTy).Contents (Elt Ideal)) (c : Fin 32) (b : Fin 524288) :
    val_main_v158 (F := Ideal) x0 xk (ix2 c b)
      = xk (ix3 c (Cert.Spec.pos 64 (by decide) (val_main_v149 (F := Ideal) x0 (ix1 b))) (Cert.Spec.pos 64 (by decide) (val_main_v154 (F := Ideal) x0 (ix1 b)))) := by
  unfold val_main_v158 val_main_v157
  rw [gather64_apply]
  rw [cat2_left, cat2_right, val_main_v155_apply, val_main_v156_apply, idx_main_v155_ix, idx_main_v156_ix]

/-- Gather 172: channel c of point b is the plane at the row and column the two index vectors name. -/
theorem gather_v172 (x0 : (⟨S524288x3, .f32⟩ : BufTy).Contents (Elt Ideal)) (xk : (⟨S32x64x64, .f32⟩ : BufTy).Contents (Elt Ideal)) (c : Fin 32) (b : Fin 524288) :
    val_main_v172 (F := Ideal) x0 xk (ix2 c b)
      = xk (ix3 c (Cert.Spec.pos 64 (by decide) (val_main_v163 (F := Ideal) x0 (ix1 b))) (Cert.Spec.pos 64 (by decide) (val_main_v168 (F := Ideal) x0 (ix1 b)))) := by
  unfold val_main_v172 val_main_v171
  rw [gather64_apply]
  rw [cat2_left, cat2_right, val_main_v169_apply, val_main_v170_apply, idx_main_v169_ix, idx_main_v170_ix]

/-- Gather 186: channel c of point b is the plane at the row and column the two index vectors name. -/
theorem gather_v186 (x0 : (⟨S524288x3, .f32⟩ : BufTy).Contents (Elt Ideal)) (xk : (⟨S32x64x64, .f32⟩ : BufTy).Contents (Elt Ideal)) (c : Fin 32) (b : Fin 524288) :
    val_main_v186 (F := Ideal) x0 xk (ix2 c b)
      = xk (ix3 c (Cert.Spec.pos 64 (by decide) (val_main_v177 (F := Ideal) x0 (ix1 b))) (Cert.Spec.pos 64 (by decide) (val_main_v182 (F := Ideal) x0 (ix1 b)))) := by
  unfold val_main_v186 val_main_v185
  rw [gather64_apply]
  rw [cat2_left, cat2_right, val_main_v183_apply, val_main_v184_apply, idx_main_v183_ix, idx_main_v184_ix]

/-- Gather 200: channel c of point b is the plane at the row and column the two index vectors name. -/
theorem gather_v200 (x0 : (⟨S524288x3, .f32⟩ : BufTy).Contents (Elt Ideal)) (xk : (⟨S32x64x64, .f32⟩ : BufTy).Contents (Elt Ideal)) (c : Fin 32) (b : Fin 524288) :
    val_main_v200 (F := Ideal) x0 xk (ix2 c b)
      = xk (ix3 c (Cert.Spec.pos 64 (by decide) (val_main_v191 (F := Ideal) x0 (ix1 b))) (Cert.Spec.pos 64 (by decide) (val_main_v196 (F := Ideal) x0 (ix1 b)))) := by
  unfold val_main_v200 val_main_v199
  rw [gather64_apply]
  rw [cat2_left, cat2_right, val_main_v197_apply, val_main_v198_apply, idx_main_v197_ix, idx_main_v198_ix]

set_option maxHeartbeats 2000000 in
/-- The reference's bilinear sample of plane 1 of the low resolution, at channel c and point b. -/
theorem ref_plane_low1 (x0 : (⟨S524288x3, .f32⟩ : BufTy).Contents (Elt Ideal)) (xk : (⟨S32x64x64, .f32⟩ : BufTy).Contents (Elt Ideal)) (c : Fin 32) (b : Fin 524288) :
    val_main_v227 (F := Ideal) x0 xk (ix2 c b)
      = Cert.Spec.sample 64 (by decide) Cert.Spec.s63 63#32 (fun h w => xk (ix3 c h w)) (x0 (ix2 b ⟨0, by decide⟩)) (x0 (ix2 b ⟨2, by decide⟩)) := by
  simp only [val_main_v115_apply, val_main_v116_apply, val_main_v117_apply, val_main_v118_apply, val_main_cst_34_apply, val_main_v119_apply, val_main_v120_apply, val_main_cst_35_apply, val_main_v121_apply, val_main_v122_apply, val_main_cst_36_apply, val_main_v123_apply, val_main_v124_apply, val_main_cst_37_apply, val_main_v125_apply, val_main_v126_apply, val_main_cst_38_apply, val_main_v127_apply, val_main_v128_apply, val_main_cst_39_apply, val_main_v129_apply, val_main_v130_apply, val_main_v131_apply, val_main_v132_apply, val_main_v133_apply, val_main_v134_apply, val_main_v135_apply, val_main_c_40_apply, val_main_c_41_apply, val_main_call4_v0_apply, val_main_call4_v1_apply, val_main_call4_v2_apply, val_main_call4_v3_apply, val_main_call4_v4_apply, val_main_v136_apply, val_main_c_42_apply, val_main_v137_apply, val_main_v138_apply, val_main_c_43_apply, val_main_c_44_apply, val_main_call5_v0_apply, val_main_call5_v1_apply, val_main_call5_v2_apply, val_main_call5_v3_apply, val_main_call5_v4_apply, val_main_v139_apply, val_main_v140_apply, val_main_c_45_apply, val_main_c_46_apply, val_main_call6_v0_apply, val_main_call6_v1_apply, val_main_call6_v2_apply, val_main_call6_v3_apply, val_main_call6_v4_apply, val_main_v141_apply, val_main_c_47_apply, val_main_v142_apply, val_main_v143_apply, val_main_c_48_apply, val_main_c_49_apply, val_main_call7_v0_apply, val_main_call7_v1_apply, val_main_call7_v2_apply, val_main_call7_v3_apply, val_main_call7_v4_apply, val_main_v144_apply, val_main_c_50_apply, val_main_v145_apply, val_main_v146_apply, val_main_c_51_apply, val_main_v147_apply, val_main_v148_apply, val_main_v149_apply, val_main_c_52_apply, val_main_v150_apply, val_main_v151_apply, val_main_c_53_apply, val_main_v152_apply, val_main_v153_apply, val_main_v154_apply, val_main_v155_apply, val_main_v156_apply, val_main_c_54_apply, val_main_v159_apply, val_main_v160_apply, val_main_c_55_apply, val_main_v161_apply, val_main_v162_apply, val_main_v163_apply, val_main_c_56_apply, val_main_v164_apply, val_main_v165_apply, val_main_c_57_apply, val_main_v166_apply, val_main_v167_apply, val_main_v168_apply, val_main_v169_apply, val_main_v170_apply, val_main_c_58_apply, val_main_v173_apply, val_main_v174_apply, val_main_c_59_apply, val_main_v175_apply, val_main_v176_apply, val_main_v177_apply, val_main_c_60_apply, val_main_v178_apply, val_main_v179_apply, val_main_c_61_apply, val_main_v180_apply, val_main_v181_apply, val_main_v182_apply, val_main_v183_apply, val_main_v184_apply, val_main_c_62_apply, val_main_v187_apply, val_main_v188_apply, val_main_c_63_apply, val_main_v189_apply, val_main_v190_apply, val_main_v191_apply, val_main_c_64_apply, val_main_v192_apply, val_main_v193_apply, val_main_c_65_apply, val_main_v194_apply, val_main_v195_apply, val_main_v196_apply, val_main_v197_apply, val_main_v198_apply, val_main_cst_66_apply, val_main_v201_apply, val_main_v202_apply, val_main_v203_apply, val_main_v204_apply, val_main_v205_apply, val_main_v206_apply, val_main_v207_apply, val_main_v208_apply, val_main_v209_apply, val_main_cst_67_apply, val_main_v210_apply, val_main_v211_apply, val_main_v212_apply, val_main_v213_apply, val_main_v214_apply, val_main_v215_apply, val_main_v216_apply, val_main_v217_apply, val_main_v218_apply, val_main_cst_68_apply, val_main_v219_apply, val_main_v220_apply, val_main_v221_apply, val_main_v222_apply, val_main_v223_apply, val_main_v224_apply, val_main_v225_apply, val_main_v226_apply, val_main_v227_apply, idx_main_v115_ix, idx_main_v116_ix, idx_main_v117_ix, idx_main_v118_ix, idx_main_v155_ix, idx_main_v156_ix, idx_main_v169_ix, idx_main_v170_ix, idx_main_v183_ix, idx_main_v184_ix, idx_main_v197_ix, idx_main_v198_ix, idx_main_v203_ix, idx_main_v204_ix, idx_main_v206_ix, idx_main_v207_ix, idx_main_v212_ix, idx_main_v213_ix, idx_main_v215_ix, idx_main_v216_ix, idx_main_v221_ix, idx_main_v222_ix, idx_main_v224_ix, idx_main_v225_ix, gather_v158, gather_v172, gather_v186, gather_v200,
    Nat.div_one, Nat.zero_add, Nat.add_zero, Fin.eta, Ideal.addf_def, Ideal.mulf_def, Ideal.subf_def, Ideal.hostUnary_floor_def, Cert.Spec.fptosi_ideal, Ideal.ofBits_def]
  simp only [Cert.Spec.pix_fold, Cert.Spec.frac_fold, Cert.Spec.lo_fold, Cert.Spec.up_fold, Cert.Spec.wrap_lo63, Cert.Spec.wrap_up63]
  rfl

/-- Gather 272: channel c of point b is the plane at the row and column the two index vectors name. -/
theorem gather_v272 (x0 : (⟨S524288x3, .f32⟩ : BufTy).Contents (Elt Ideal)) (xk : (⟨S32x64x64, .f32⟩ : BufTy).Contents (Elt Ideal)) (c : Fin 32) (b : Fin 524288) :
    val_main_v272 (F := Ideal) x0 xk (ix2 c b)
      = xk (ix3 c (Cert.Spec.pos 64 (by decide) (val_main_v263 (F := Ideal) x0 (ix1 b))) (Cert.Spec.pos 64 (by decide) (val_main_v268 (F := Ideal) x0 (ix1 b)))) := by
  unfold val_main_v272 val_main_v271
  rw [gather64_apply]
  rw [cat2_left, cat2_right, val_main_v269_apply, val_main_v270_apply, idx_main_v269_ix, idx_main_v270_ix]

/-- Gather 286: channel c of point b is the plane at the row and column the two index vectors name. -/
theorem gather_v286 (x0 : (⟨S524288x3, .f32⟩ : BufTy).Contents (Elt Ideal)) (xk : (⟨S32x64x64, .f32⟩ : BufTy).Contents (Elt Ideal)) (c : Fin 32) (b : Fin 524288) :
    val_main_v286 (F := Ideal) x0 xk (ix2 c b)
      = xk (ix3 c (Cert.Spec.pos 64 (by decide) (val_main_v277 (F := Ideal) x0 (ix1 b))) (Cert.Spec.pos 64 (by decide) (val_main_v282 (F := Ideal) x0 (ix1 b)))) := by
  unfold val_main_v286 val_main_v285
  rw [gather64_apply]
  rw [cat2_left, cat2_right, val_main_v283_apply, val_main_v284_apply, idx_main_v283_ix, idx_main_v284_ix]

/-- Gather 300: channel c of point b is the plane at the row and column the two index vectors name. -/
theorem gather_v300 (x0 : (⟨S524288x3, .f32⟩ : BufTy).Contents (Elt Ideal)) (xk : (⟨S32x64x64, .f32⟩ : BufTy).Contents (Elt Ideal)) (c : Fin 32) (b : Fin 524288) :
    val_main_v300 (F := Ideal) x0 xk (ix2 c b)
      = xk (ix3 c (Cert.Spec.pos 64 (by decide) (val_main_v291 (F := Ideal) x0 (ix1 b))) (Cert.Spec.pos 64 (by decide) (val_main_v296 (F := Ideal) x0 (ix1 b)))) := by
  unfold val_main_v300 val_main_v299
  rw [gather64_apply]
  rw [cat2_left, cat2_right, val_main_v297_apply, val_main_v298_apply, idx_main_v297_ix, idx_main_v298_ix]

/-- Gather 314: channel c of point b is the plane at the row and column the two index vectors name. -/
theorem gather_v314 (x0 : (⟨S524288x3, .f32⟩ : BufTy).Contents (Elt Ideal)) (xk : (⟨S32x64x64, .f32⟩ : BufTy).Contents (Elt Ideal)) (c : Fin 32) (b : Fin 524288) :
    val_main_v314 (F := Ideal) x0 xk (ix2 c b)
      = xk (ix3 c (Cert.Spec.pos 64 (by decide) (val_main_v305 (F := Ideal) x0 (ix1 b))) (Cert.Spec.pos 64 (by decide) (val_main_v310 (F := Ideal) x0 (ix1 b)))) := by
  unfold val_main_v314 val_main_v313
  rw [gather64_apply]
  rw [cat2_left, cat2_right, val_main_v311_apply, val_main_v312_apply, idx_main_v311_ix, idx_main_v312_ix]

set_option maxHeartbeats 2000000 in
/-- The reference's bilinear sample of plane 2 of the low resolution, at channel c and point b. -/
theorem ref_plane_low2 (x0 : (⟨S524288x3, .f32⟩ : BufTy).Contents (Elt Ideal)) (xk : (⟨S32x64x64, .f32⟩ : BufTy).Contents (Elt Ideal)) (c : Fin 32) (b : Fin 524288) :
    val_main_v341 (F := Ideal) x0 xk (ix2 c b)
      = Cert.Spec.sample 64 (by decide) Cert.Spec.s63 63#32 (fun h w => xk (ix3 c h w)) (x0 (ix2 b ⟨1, by decide⟩)) (x0 (ix2 b ⟨2, by decide⟩)) := by
  simp only [val_main_v229_apply, val_main_v230_apply, val_main_v231_apply, val_main_v232_apply, val_main_cst_69_apply, val_main_v233_apply, val_main_v234_apply, val_main_cst_70_apply, val_main_v235_apply, val_main_v236_apply, val_main_cst_71_apply, val_main_v237_apply, val_main_v238_apply, val_main_cst_72_apply, val_main_v239_apply, val_main_v240_apply, val_main_cst_73_apply, val_main_v241_apply, val_main_v242_apply, val_main_cst_74_apply, val_main_v243_apply, val_main_v244_apply, val_main_v245_apply, val_main_v246_apply, val_main_v247_apply, val_main_v248_apply, val_main_v249_apply, val_main_c_75_apply, val_main_c_76_apply, val_main_call8_v0_apply, val_main_call8_v1_apply, val_main_call8_v2_apply, val_main_call8_v3_apply, val_main_call8_v4_apply, val_main_v250_apply, val_main_c_77_apply, val_main_v251_apply, val_main_v252_apply, val_main_c_78_apply, val_main_c_79_apply, val_main_call9_v0_apply, val_main_call9_v1_apply, val_main_call9_v2_apply, val_main_call9_v3_apply, val_main_call9_v4_apply, val_main_v253_apply, val_main_v254_apply, val_main_c_80_apply, val_main_c_81_apply, val_main_call10_v0_apply, val_main_call10_v1_apply, val_main_call10_v2_apply, val_main_call10_v3_apply, val_main_call10_v4_apply, val_main_v255_apply, val_main_c_82_apply, val_main_v256_apply, val_main_v257_apply, val_main_c_83_apply, val_main_c_84_apply, val_main_call11_v0_apply, val_main_call11_v1_apply, val_main_call11_v2_apply, val_main_call11_v3_apply, val_main_call11_v4_apply, val_main_v258_apply, val_main_c_85_apply, val_main_v259_apply, val_main_v260_apply, val_main_c_86_apply, val_main_v261_apply, val_main_v262_apply, val_main_v263_apply, val_main_c_87_apply, val_main_v264_apply, val_main_v265_apply, val_main_c_88_apply, val_main_v266_apply, val_main_v267_apply, val_main_v268_apply, val_main_v269_apply, val_main_v270_apply, val_main_c_89_apply, val_main_v273_apply, val_main_v274_apply, val_main_c_90_apply, val_main_v275_apply, val_main_v276_apply, val_main_v277_apply, val_main_c_91_apply, val_main_v278_apply, val_main_v279_apply, val_main_c_92_apply, val_main_v280_apply, val_main_v281_apply, val_main_v282_apply, val_main_v283_apply, val_main_v284_apply, val_main_c_93_apply, val_main_v287_apply, val_main_v288_apply, val_main_c_94_apply, val_main_v289_apply, val_main_v290_apply, val_main_v291_apply, val_main_c_95_apply, val_main_v292_apply, val_main_v293_apply, val_main_c_96_apply, val_main_v294_apply, val_main_v295_apply, val_main_v296_apply, val_main_v297_apply, val_main_v298_apply, val_main_c_97_apply, val_main_v301_apply, val_main_v302_apply, val_main_c_98_apply, val_main_v303_apply, val_main_v304_apply, val_main_v305_apply, val_main_c_99_apply, val_main_v306_apply, val_main_v307_apply, val_main_c_100_apply, val_main_v308_apply, val_main_v309_apply, val_main_v310_apply, val_main_v311_apply, val_main_v312_apply, val_main_cst_101_apply, val_main_v315_apply, val_main_v316_apply, val_main_v317_apply, val_main_v318_apply, val_main_v319_apply, val_main_v320_apply, val_main_v321_apply, val_main_v322_apply, val_main_v323_apply, val_main_cst_102_apply, val_main_v324_apply, val_main_v325_apply, val_main_v326_apply, val_main_v327_apply, val_main_v328_apply, val_main_v329_apply, val_main_v330_apply, val_main_v331_apply, val_main_v332_apply, val_main_cst_103_apply, val_main_v333_apply, val_main_v334_apply, val_main_v335_apply, val_main_v336_apply, val_main_v337_apply, val_main_v338_apply, val_main_v339_apply, val_main_v340_apply, val_main_v341_apply, idx_main_v229_ix, idx_main_v230_ix, idx_main_v231_ix, idx_main_v232_ix, idx_main_v269_ix, idx_main_v270_ix, idx_main_v283_ix, idx_main_v284_ix, idx_main_v297_ix, idx_main_v298_ix, idx_main_v311_ix, idx_main_v312_ix, idx_main_v317_ix, idx_main_v318_ix, idx_main_v320_ix, idx_main_v321_ix, idx_main_v326_ix, idx_main_v327_ix, idx_main_v329_ix, idx_main_v330_ix, idx_main_v335_ix, idx_main_v336_ix, idx_main_v338_ix, idx_main_v339_ix, gather_v272, gather_v286, gather_v300, gather_v314,
    Nat.div_one, Nat.zero_add, Nat.add_zero, Fin.eta, Ideal.addf_def, Ideal.mulf_def, Ideal.subf_def, Ideal.hostUnary_floor_def, Cert.Spec.fptosi_ideal, Ideal.ofBits_def]
  simp only [Cert.Spec.pix_fold, Cert.Spec.frac_fold, Cert.Spec.lo_fold, Cert.Spec.up_fold, Cert.Spec.wrap_lo63, Cert.Spec.wrap_up63]
  rfl

/-- Gather 387: channel c of point b is the plane at the row and column the two index vectors name. -/
theorem gather_v387 (x0 : (⟨S524288x3, .f32⟩ : BufTy).Contents (Elt Ideal)) (xk : (⟨S32x128x128, .f32⟩ : BufTy).Contents (Elt Ideal)) (c : Fin 32) (b : Fin 524288) :
    val_main_v387 (F := Ideal) x0 xk (ix2 c b)
      = xk (ix3 c (Cert.Spec.pos 128 (by decide) (val_main_v378 (F := Ideal) x0 (ix1 b))) (Cert.Spec.pos 128 (by decide) (val_main_v383 (F := Ideal) x0 (ix1 b)))) := by
  unfold val_main_v387 val_main_v386
  rw [gather128_apply]
  rw [cat2_left, cat2_right, val_main_v384_apply, val_main_v385_apply, idx_main_v384_ix, idx_main_v385_ix]

/-- Gather 401: channel c of point b is the plane at the row and column the two index vectors name. -/
theorem gather_v401 (x0 : (⟨S524288x3, .f32⟩ : BufTy).Contents (Elt Ideal)) (xk : (⟨S32x128x128, .f32⟩ : BufTy).Contents (Elt Ideal)) (c : Fin 32) (b : Fin 524288) :
    val_main_v401 (F := Ideal) x0 xk (ix2 c b)
      = xk (ix3 c (Cert.Spec.pos 128 (by decide) (val_main_v392 (F := Ideal) x0 (ix1 b))) (Cert.Spec.pos 128 (by decide) (val_main_v397 (F := Ideal) x0 (ix1 b)))) := by
  unfold val_main_v401 val_main_v400
  rw [gather128_apply]
  rw [cat2_left, cat2_right, val_main_v398_apply, val_main_v399_apply, idx_main_v398_ix, idx_main_v399_ix]

/-- Gather 415: channel c of point b is the plane at the row and column the two index vectors name. -/
theorem gather_v415 (x0 : (⟨S524288x3, .f32⟩ : BufTy).Contents (Elt Ideal)) (xk : (⟨S32x128x128, .f32⟩ : BufTy).Contents (Elt Ideal)) (c : Fin 32) (b : Fin 524288) :
    val_main_v415 (F := Ideal) x0 xk (ix2 c b)
      = xk (ix3 c (Cert.Spec.pos 128 (by decide) (val_main_v406 (F := Ideal) x0 (ix1 b))) (Cert.Spec.pos 128 (by decide) (val_main_v411 (F := Ideal) x0 (ix1 b)))) := by
  unfold val_main_v415 val_main_v414
  rw [gather128_apply]
  rw [cat2_left, cat2_right, val_main_v412_apply, val_main_v413_apply, idx_main_v412_ix, idx_main_v413_ix]

/-- Gather 429: channel c of point b is the plane at the row and column the two index vectors name. -/
theorem gather_v429 (x0 : (⟨S524288x3, .f32⟩ : BufTy).Contents (Elt Ideal)) (xk : (⟨S32x128x128, .f32⟩ : BufTy).Contents (Elt Ideal)) (c : Fin 32) (b : Fin 524288) :
    val_main_v429 (F := Ideal) x0 xk (ix2 c b)
      = xk (ix3 c (Cert.Spec.pos 128 (by decide) (val_main_v420 (F := Ideal) x0 (ix1 b))) (Cert.Spec.pos 128 (by decide) (val_main_v425 (F := Ideal) x0 (ix1 b)))) := by
  unfold val_main_v429 val_main_v428
  rw [gather128_apply]
  rw [cat2_left, cat2_right, val_main_v426_apply, val_main_v427_apply, idx_main_v426_ix, idx_main_v427_ix]

set_option maxHeartbeats 2000000 in
/-- The reference's bilinear sample of plane 0 of the mid resolution, at channel c and point b. -/
theorem ref_plane_mid0 (x0 : (⟨S524288x3, .f32⟩ : BufTy).Contents (Elt Ideal)) (xk : (⟨S32x128x128, .f32⟩ : BufTy).Contents (Elt Ideal)) (c : Fin 32) (b : Fin 524288) :
    val_main_v456 (F := Ideal) x0 xk (ix2 c b)
      = Cert.Spec.sample 128 (by decide) Cert.Spec.s127 127#32 (fun h w => xk (ix3 c h w)) (x0 (ix2 b ⟨0, by decide⟩)) (x0 (ix2 b ⟨1, by decide⟩)) := by
  simp only [val_main_v344_apply, val_main_v345_apply, val_main_v346_apply, val_main_v347_apply, val_main_cst_104_apply, val_main_v348_apply, val_main_v349_apply, val_main_cst_105_apply, val_main_v350_apply, val_main_v351_apply, val_main_cst_106_apply, val_main_v352_apply, val_main_v353_apply, val_main_cst_107_apply, val_main_v354_apply, val_main_v355_apply, val_main_cst_108_apply, val_main_v356_apply, val_main_v357_apply, val_main_cst_109_apply, val_main_v358_apply, val_main_v359_apply, val_main_v360_apply, val_main_v361_apply, val_main_v362_apply, val_main_v363_apply, val_main_v364_apply, val_main_c_110_apply, val_main_c_111_apply, val_main_call12_v0_apply, val_main_call12_v1_apply, val_main_call12_v2_apply, val_main_call12_v3_apply, val_main_call12_v4_apply, val_main_v365_apply, val_main_c_112_apply, val_main_v366_apply, val_main_v367_apply, val_main_c_113_apply, val_main_c_114_apply, val_main_call13_v0_apply, val_main_call13_v1_apply, val_main_call13_v2_apply, val_main_call13_v3_apply, val_main_call13_v4_apply, val_main_v368_apply, val_main_v369_apply, val_main_c_115_apply, val_main_c_116_apply, val_main_call14_v0_apply, val_main_call14_v1_apply, val_main_call14_v2_apply, val_main_call14_v3_apply, val_main_call14_v4_apply, val_main_v370_apply, val_main_c_117_apply, val_main_v371_apply, val_main_v372_apply, val_main_c_118_apply, val_main_c_119_apply, val_main_call15_v0_apply, val_main_call15_v1_apply, val_main_call15_v2_apply, val_main_call15_v3_apply, val_main_call15_v4_apply, val_main_v373_apply, val_main_c_120_apply, val_main_v374_apply, val_main_v375_apply, val_main_c_121_apply, val_main_v376_apply, val_main_v377_apply, val_main_v378_apply, val_main_c_122_apply, val_main_v379_apply, val_main_v380_apply, val_main_c_123_apply, val_main_v381_apply, val_main_v382_apply, val_main_v383_apply, val_main_v384_apply, val_main_v385_apply, val_main_c_124_apply, val_main_v388_apply, val_main_v389_apply, val_main_c_125_apply, val_main_v390_apply, val_main_v391_apply, val_main_v392_apply, val_main_c_126_apply, val_main_v393_apply, val_main_v394_apply, val_main_c_127_apply, val_main_v395_apply, val_main_v396_apply, val_main_v397_apply, val_main_v398_apply, val_main_v399_apply, val_main_c_128_apply, val_main_v402_apply, val_main_v403_apply, val_main_c_129_apply, val_main_v404_apply, val_main_v405_apply, val_main_v406_apply, val_main_c_130_apply, val_main_v407_apply, val_main_v408_apply, val_main_c_131_apply, val_main_v409_apply, val_main_v410_apply, val_main_v411_apply, val_main_v412_apply, val_main_v413_apply, val_main_c_132_apply, val_main_v416_apply, val_main_v417_apply, val_main_c_133_apply, val_main_v418_apply, val_main_v419_apply, val_main_v420_apply, val_main_c_134_apply, val_main_v421_apply, val_main_v422_apply, val_main_c_135_apply, val_main_v423_apply, val_main_v424_apply, val_main_v425_apply, val_main_v426_apply, val_main_v427_apply, val_main_cst_136_apply, val_main_v430_apply, val_main_v431_apply, val_main_v432_apply, val_main_v433_apply, val_main_v434_apply, val_main_v435_apply, val_main_v436_apply, val_main_v437_apply, val_main_v438_apply, val_main_cst_137_apply, val_main_v439_apply, val_main_v440_apply, val_main_v441_apply, val_main_v442_apply, val_main_v443_apply, val_main_v444_apply, val_main_v445_apply, val_main_v446_apply, val_main_v447_apply, val_main_cst_138_apply, val_main_v448_apply, val_main_v449_apply, val_main_v450_apply, val_main_v451_apply, val_main_v452_apply, val_main_v453_apply, val_main_v454_apply, val_main_v455_apply, val_main_v456_apply, idx_main_v344_ix, idx_main_v345_ix, idx_main_v346_ix, idx_main_v347_ix, idx_main_v384_ix, idx_main_v385_ix, idx_main_v398_ix, idx_main_v399_ix, idx_main_v412_ix, idx_main_v413_ix, idx_main_v426_ix, idx_main_v427_ix, idx_main_v432_ix, idx_main_v433_ix, idx_main_v435_ix, idx_main_v436_ix, idx_main_v441_ix, idx_main_v442_ix, idx_main_v444_ix, idx_main_v445_ix, idx_main_v450_ix, idx_main_v451_ix, idx_main_v453_ix, idx_main_v454_ix, gather_v387, gather_v401, gather_v415, gather_v429,
    Nat.div_one, Nat.zero_add, Nat.add_zero, Fin.eta, Ideal.addf_def, Ideal.mulf_def, Ideal.subf_def, Ideal.hostUnary_floor_def, Cert.Spec.fptosi_ideal, Ideal.ofBits_def]
  simp only [Cert.Spec.pix_fold, Cert.Spec.frac_fold, Cert.Spec.lo_fold, Cert.Spec.up_fold, Cert.Spec.wrap_lo127, Cert.Spec.wrap_up127]
  rfl

/-- Gather 502: channel c of point b is the plane at the row and column the two index vectors name. -/
theorem gather_v502 (x0 : (⟨S524288x3, .f32⟩ : BufTy).Contents (Elt Ideal)) (xk : (⟨S32x128x128, .f32⟩ : BufTy).Contents (Elt Ideal)) (c : Fin 32) (b : Fin 524288) :
    val_main_v502 (F := Ideal) x0 xk (ix2 c b)
      = xk (ix3 c (Cert.Spec.pos 128 (by decide) (val_main_v493 (F := Ideal) x0 (ix1 b))) (Cert.Spec.pos 128 (by decide) (val_main_v498 (F := Ideal) x0 (ix1 b)))) := by
  unfold val_main_v502 val_main_v501
  rw [gather128_apply]
  rw [cat2_left, cat2_right, val_main_v499_apply, val_main_v500_apply, idx_main_v499_ix, idx_main_v500_ix]

/-- Gather 516: channel c of point b is the plane at the row and column the two index vectors name. -/
theorem gather_v516 (x0 : (⟨S524288x3, .f32⟩ : BufTy).Contents (Elt Ideal)) (xk : (⟨S32x128x128, .f32⟩ : BufTy).Contents (Elt Ideal)) (c : Fin 32) (b : Fin 524288) :
    val_main_v516 (F := Ideal) x0 xk (ix2 c b)
      = xk (ix3 c (Cert.Spec.pos 128 (by decide) (val_main_v507 (F := Ideal) x0 (ix1 b))) (Cert.Spec.pos 128 (by decide) (val_main_v512 (F := Ideal) x0 (ix1 b)))) := by
  unfold val_main_v516 val_main_v515
  rw [gather128_apply]
  rw [cat2_left, cat2_right, val_main_v513_apply, val_main_v514_apply, idx_main_v513_ix, idx_main_v514_ix]

/-- Gather 530: channel c of point b is the plane at the row and column the two index vectors name. -/
theorem gather_v530 (x0 : (⟨S524288x3, .f32⟩ : BufTy).Contents (Elt Ideal)) (xk : (⟨S32x128x128, .f32⟩ : BufTy).Contents (Elt Ideal)) (c : Fin 32) (b : Fin 524288) :
    val_main_v530 (F := Ideal) x0 xk (ix2 c b)
      = xk (ix3 c (Cert.Spec.pos 128 (by decide) (val_main_v521 (F := Ideal) x0 (ix1 b))) (Cert.Spec.pos 128 (by decide) (val_main_v526 (F := Ideal) x0 (ix1 b)))) := by
  unfold val_main_v530 val_main_v529
  rw [gather128_apply]
  rw [cat2_left, cat2_right, val_main_v527_apply, val_main_v528_apply, idx_main_v527_ix, idx_main_v528_ix]

/-- Gather 544: channel c of point b is the plane at the row and column the two index vectors name. -/
theorem gather_v544 (x0 : (⟨S524288x3, .f32⟩ : BufTy).Contents (Elt Ideal)) (xk : (⟨S32x128x128, .f32⟩ : BufTy).Contents (Elt Ideal)) (c : Fin 32) (b : Fin 524288) :
    val_main_v544 (F := Ideal) x0 xk (ix2 c b)
      = xk (ix3 c (Cert.Spec.pos 128 (by decide) (val_main_v535 (F := Ideal) x0 (ix1 b))) (Cert.Spec.pos 128 (by decide) (val_main_v540 (F := Ideal) x0 (ix1 b)))) := by
  unfold val_main_v544 val_main_v543
  rw [gather128_apply]
  rw [cat2_left, cat2_right, val_main_v541_apply, val_main_v542_apply, idx_main_v541_ix, idx_main_v542_ix]

set_option maxHeartbeats 2000000 in
/-- The reference's bilinear sample of plane 1 of the mid resolution, at channel c and point b. -/
theorem ref_plane_mid1 (x0 : (⟨S524288x3, .f32⟩ : BufTy).Contents (Elt Ideal)) (xk : (⟨S32x128x128, .f32⟩ : BufTy).Contents (Elt Ideal)) (c : Fin 32) (b : Fin 524288) :
    val_main_v571 (F := Ideal) x0 xk (ix2 c b)
      = Cert.Spec.sample 128 (by decide) Cert.Spec.s127 127#32 (fun h w => xk (ix3 c h w)) (x0 (ix2 b ⟨0, by decide⟩)) (x0 (ix2 b ⟨2, by decide⟩)) := by
  simp only [val_main_v459_apply, val_main_v460_apply, val_main_v461_apply, val_main_v462_apply, val_main_cst_140_apply, val_main_v463_apply, val_main_v464_apply, val_main_cst_141_apply, val_main_v465_apply, val_main_v466_apply, val_main_cst_142_apply, val_main_v467_apply, val_main_v468_apply, val_main_cst_143_apply, val_main_v469_apply, val_main_v470_apply, val_main_cst_144_apply, val_main_v471_apply, val_main_v472_apply, val_main_cst_145_apply, val_main_v473_apply, val_main_v474_apply, val_main_v475_apply, val_main_v476_apply, val_main_v477_apply, val_main_v478_apply, val_main_v479_apply, val_main_c_146_apply, val_main_c_147_apply, val_main_call16_v0_apply, val_main_call16_v1_apply, val_main_call16_v2_apply, val_main_call16_v3_apply, val_main_call16_v4_apply, val_main_v480_apply, val_main_c_148_apply, val_main_v481_apply, val_main_v482_apply, val_main_c_149_apply, val_main_c_150_apply, val_main_call17_v0_apply, val_main_call17_v1_apply, val_main_call17_v2_apply, val_main_call17_v3_apply, val_main_call17_v4_apply, val_main_v483_apply, val_main_v484_apply, val_main_c_151_apply, val_main_c_152_apply, val_main_call18_v0_apply, val_main_call18_v1_apply, val_main_call18_v2_apply, val_main_call18_v3_apply, val_main_call18_v4_apply, val_main_v485_apply, val_main_c_153_apply, val_main_v486_apply, val_main_v487_apply, val_main_c_154_apply, val_main_c_155_apply, val_main_call19_v0_apply, val_main_call19_v1_apply, val_main_call19_v2_apply, val_main_call19_v3_apply, val_main_call19_v4_apply, val_main_v488_apply, val_main_c_156_apply, val_main_v489_apply, val_main_v490_apply, val_main_c_157_apply, val_main_v491_apply, val_main_v492_apply, val_main_v493_apply, val_main_c_158_apply, val_main_v494_apply, val_main_v495_apply, val_main_c_159_apply, val_main_v496_apply, val_main_v497_apply, val_main_v498_apply, val_main_v499_apply, val_main_v500_apply, val_main_c_160_apply, val_main_v503_apply, val_main_v504_apply, val_main_c_161_apply, val_main_v505_apply, val_main_v506_apply, val_main_v507_apply, val_main_c_162_apply, val_main_v508_apply, val_main_v509_apply, val_main_c_163_apply, val_main_v510_apply, val_main_v511_apply, val_main_v512_apply, val_main_v513_apply, val_main_v514_apply, val_main_c_164_apply, val_main_v517_apply, val_main_v518_apply, val_main_c_165_apply, val_main_v519_apply, val_main_v520_apply, val_main_v521_apply, val_main_c_166_apply, val_main_v522_apply, val_main_v523_apply, val_main_c_167_apply, val_main_v524_apply, val_main_v525_apply, val_main_v526_apply, val_main_v527_apply, val_main_v528_apply, val_main_c_168_apply, val_main_v531_apply, val_main_v532_apply, val_main_c_169_apply, val_main_v533_apply, val_main_v534_apply, val_main_v535_apply, val_main_c_170_apply, val_main_v536_apply, val_main_v537_apply, val_main_c_171_apply, val_main_v538_apply, val_main_v539_apply, val_main_v540_apply, val_main_v541_apply, val_main_v542_apply, val_main_cst_172_apply, val_main_v545_apply, val_main_v546_apply, val_main_v547_apply, val_main_v548_apply, val_main_v549_apply, val_main_v550_apply, val_main_v551_apply, val_main_v552_apply, val_main_v553_apply, val_main_cst_173_apply, val_main_v554_apply, val_main_v555_apply, val_main_v556_apply, val_main_v557_apply, val_main_v558_apply, val_main_v559_apply, val_main_v560_apply, val_main_v561_apply, val_main_v562_apply, val_main_cst_174_apply, val_main_v563_apply, val_main_v564_apply, val_main_v565_apply, val_main_v566_apply, val_main_v567_apply, val_main_v568_apply, val_main_v569_apply, val_main_v570_apply, val_main_v571_apply, idx_main_v459_ix, idx_main_v460_ix, idx_main_v461_ix, idx_main_v462_ix, idx_main_v499_ix, idx_main_v500_ix, idx_main_v513_ix, idx_main_v514_ix, idx_main_v527_ix, idx_main_v528_ix, idx_main_v541_ix, idx_main_v542_ix, idx_main_v547_ix, idx_main_v548_ix, idx_main_v550_ix, idx_main_v551_ix, idx_main_v556_ix, idx_main_v557_ix, idx_main_v559_ix, idx_main_v560_ix, idx_main_v565_ix, idx_main_v566_ix, idx_main_v568_ix, idx_main_v569_ix, gather_v502, gather_v516, gather_v530, gather_v544,
    Nat.div_one, Nat.zero_add, Nat.add_zero, Fin.eta, Ideal.addf_def, Ideal.mulf_def, Ideal.subf_def, Ideal.hostUnary_floor_def, Cert.Spec.fptosi_ideal, Ideal.ofBits_def]
  simp only [Cert.Spec.pix_fold, Cert.Spec.frac_fold, Cert.Spec.lo_fold, Cert.Spec.up_fold, Cert.Spec.wrap_lo127, Cert.Spec.wrap_up127]
  rfl

/-- Gather 616: channel c of point b is the plane at the row and column the two index vectors name. -/
theorem gather_v616 (x0 : (⟨S524288x3, .f32⟩ : BufTy).Contents (Elt Ideal)) (xk : (⟨S32x128x128, .f32⟩ : BufTy).Contents (Elt Ideal)) (c : Fin 32) (b : Fin 524288) :
    val_main_v616 (F := Ideal) x0 xk (ix2 c b)
      = xk (ix3 c (Cert.Spec.pos 128 (by decide) (val_main_v607 (F := Ideal) x0 (ix1 b))) (Cert.Spec.pos 128 (by decide) (val_main_v612 (F := Ideal) x0 (ix1 b)))) := by
  unfold val_main_v616 val_main_v615
  rw [gather128_apply]
  rw [cat2_left, cat2_right, val_main_v613_apply, val_main_v614_apply, idx_main_v613_ix, idx_main_v614_ix]

/-- Gather 630: channel c of point b is the plane at the row and column the two index vectors name. -/
theorem gather_v630 (x0 : (⟨S524288x3, .f32⟩ : BufTy).Contents (Elt Ideal)) (xk : (⟨S32x128x128, .f32⟩ : BufTy).Contents (Elt Ideal)) (c : Fin 32) (b : Fin 524288) :
    val_main_v630 (F := Ideal) x0 xk (ix2 c b)
      = xk (ix3 c (Cert.Spec.pos 128 (by decide) (val_main_v621 (F := Ideal) x0 (ix1 b))) (Cert.Spec.pos 128 (by decide) (val_main_v626 (F := Ideal) x0 (ix1 b)))) := by
  unfold val_main_v630 val_main_v629
  rw [gather128_apply]
  rw [cat2_left, cat2_right, val_main_v627_apply, val_main_v628_apply, idx_main_v627_ix, idx_main_v628_ix]

/-- Gather 644: channel c of point b is the plane at the row and column the two index vectors name. -/
theorem gather_v644 (x0 : (⟨S524288x3, .f32⟩ : BufTy).Contents (Elt Ideal)) (xk : (⟨S32x128x128, .f32⟩ : BufTy).Contents (Elt Ideal)) (c : Fin 32) (b : Fin 524288) :
    val_main_v644 (F := Ideal) x0 xk (ix2 c b)
      = xk (ix3 c (Cert.Spec.pos 128 (by decide) (val_main_v635 (F := Ideal) x0 (ix1 b))) (Cert.Spec.pos 128 (by decide) (val_main_v640 (F := Ideal) x0 (ix1 b)))) := by
  unfold val_main_v644 val_main_v643
  rw [gather128_apply]
  rw [cat2_left, cat2_right, val_main_v641_apply, val_main_v642_apply, idx_main_v641_ix, idx_main_v642_ix]

/-- Gather 658: channel c of point b is the plane at the row and column the two index vectors name. -/
theorem gather_v658 (x0 : (⟨S524288x3, .f32⟩ : BufTy).Contents (Elt Ideal)) (xk : (⟨S32x128x128, .f32⟩ : BufTy).Contents (Elt Ideal)) (c : Fin 32) (b : Fin 524288) :
    val_main_v658 (F := Ideal) x0 xk (ix2 c b)
      = xk (ix3 c (Cert.Spec.pos 128 (by decide) (val_main_v649 (F := Ideal) x0 (ix1 b))) (Cert.Spec.pos 128 (by decide) (val_main_v654 (F := Ideal) x0 (ix1 b)))) := by
  unfold val_main_v658 val_main_v657
  rw [gather128_apply]
  rw [cat2_left, cat2_right, val_main_v655_apply, val_main_v656_apply, idx_main_v655_ix, idx_main_v656_ix]

set_option maxHeartbeats 2000000 in
/-- The reference's bilinear sample of plane 2 of the mid resolution, at channel c and point b. -/
theorem ref_plane_mid2 (x0 : (⟨S524288x3, .f32⟩ : BufTy).Contents (Elt Ideal)) (xk : (⟨S32x128x128, .f32⟩ : BufTy).Contents (Elt Ideal)) (c : Fin 32) (b : Fin 524288) :
    val_main_v685 (F := Ideal) x0 xk (ix2 c b)
      = Cert.Spec.sample 128 (by decide) Cert.Spec.s127 127#32 (fun h w => xk (ix3 c h w)) (x0 (ix2 b ⟨1, by decide⟩)) (x0 (ix2 b ⟨2, by decide⟩)) := by
  simp only [val_main_v573_apply, val_main_v574_apply, val_main_v575_apply, val_main_v576_apply, val_main_cst_175_apply, val_main_v577_apply, val_main_v578_apply, val_main_cst_176_apply, val_main_v579_apply, val_main_v580_apply, val_main_cst_177_apply, val_main_v581_apply, val_main_v582_apply, val_main_cst_178_apply, val_main_v583_apply, val_main_v584_apply, val_main_cst_179_apply, val_main_v585_apply, val_main_v586_apply, val_main_cst_180_apply, val_main_v587_apply, val_main_v588_apply, val_main_v589_apply, val_main_v590_apply, val_main_v591_apply, val_main_v592_apply, val_main_v593_apply, val_main_c_181_apply, val_main_c_182_apply, val_main_call20_v0_apply, val_main_call20_v1_apply, val_main_call20_v2_apply, val_main_call20_v3_apply, val_main_call20_v4_apply, val_main_v594_apply, val_main_c_183_apply, val_main_v595_apply, val_main_v596_apply, val_main_c_184_apply, val_main_c_185_apply, val_main_call21_v0_apply, val_main_call21_v1_apply, val_main_call21_v2_apply, val_main_call21_v3_apply, val_main_call21_v4_apply, val_main_v597_apply, val_main_v598_apply, val_main_c_186_apply, val_main_c_187_apply, val_main_call22_v0_apply, val_main_call22_v1_apply, val_main_call22_v2_apply, val_main_call22_v3_apply, val_main_call22_v4_apply, val_main_v599_apply, val_main_c_188_apply, val_main_v600_apply, val_main_v601_apply, val_main_c_189_apply, val_main_c_190_apply, val_main_call23_v0_apply, val_main_call23_v1_apply, val_main_call23_v2_apply, val_main_call23_v3_apply, val_main_call23_v4_apply, val_main_v602_apply, val_main_c_191_apply, val_main_v603_apply, val_main_v604_apply, val_main_c_192_apply, val_main_v605_apply, val_main_v606_apply, val_main_v607_apply, val_main_c_193_apply, val_main_v608_apply, val_main_v609_apply, val_main_c_194_apply, val_main_v610_apply, val_main_v611_apply, val_main_v612_apply, val_main_v613_apply, val_main_v614_apply, val_main_c_195_apply, val_main_v617_apply, val_main_v618_apply, val_main_c_196_apply, val_main_v619_apply, val_main_v620_apply, val_main_v621_apply, val_main_c_197_apply, val_main_v622_apply, val_main_v623_apply, val_main_c_198_apply, val_main_v624_apply, val_main_v625_apply, val_main_v626_apply, val_main_v627_apply, val_main_v628_apply, val_main_c_199_apply, val_main_v631_apply, val_main_v632_apply, val_main_c_200_apply, val_main_v633_apply, val_main_v634_apply, val_main_v635_apply, val_main_c_201_apply, val_main_v636_apply, val_main_v637_apply, val_main_c_202_apply, val_main_v638_apply, val_main_v639_apply, val_main_v640_apply, val_main_v641_apply, val_main_v642_apply, val_main_c_203_apply, val_main_v645_apply, val_main_v646_apply, val_main_c_204_apply, val_main_v647_apply, val_main_v648_apply, val_main_v649_apply, val_main_c_205_apply, val_main_v650_apply, val_main_v651_apply, val_main_c_206_apply, val_main_v652_apply, val_main_v653_apply, val_main_v654_apply, val_main_v655_apply, val_main_v656_apply, val_main_cst_207_apply, val_main_v659_apply, val_main_v660_apply, val_main_v661_apply, val_main_v662_apply, val_main_v663_apply, val_main_v664_apply, val_main_v665_apply, val_main_v666_apply, val_main_v667_apply, val_main_cst_208_apply, val_main_v668_apply, val_main_v669_apply, val_main_v670_apply, val_main_v671_apply, val_main_v672_apply, val_main_v673_apply, val_main_v674_apply, val_main_v675_apply, val_main_v676_apply, val_main_cst_209_apply, val_main_v677_apply, val_main_v678_apply, val_main_v679_apply, val_main_v680_apply, val_main_v681_apply, val_main_v682_apply, val_main_v683_apply, val_main_v684_apply, val_main_v685_apply, idx_main_v573_ix, idx_main_v574_ix, idx_main_v575_ix, idx_main_v576_ix, idx_main_v613_ix, idx_main_v614_ix, idx_main_v627_ix, idx_main_v628_ix, idx_main_v641_ix, idx_main_v642_ix, idx_main_v655_ix, idx_main_v656_ix, idx_main_v661_ix, idx_main_v662_ix, idx_main_v664_ix, idx_main_v665_ix, idx_main_v670_ix, idx_main_v671_ix, idx_main_v673_ix, idx_main_v674_ix, idx_main_v679_ix, idx_main_v680_ix, idx_main_v682_ix, idx_main_v683_ix, gather_v616, gather_v630, gather_v644, gather_v658,
    Nat.div_one, Nat.zero_add, Nat.add_zero, Fin.eta, Ideal.addf_def, Ideal.mulf_def, Ideal.subf_def, Ideal.hostUnary_floor_def, Cert.Spec.fptosi_ideal, Ideal.ofBits_def]
  simp only [Cert.Spec.pix_fold, Cert.Spec.frac_fold, Cert.Spec.lo_fold, Cert.Spec.up_fold, Cert.Spec.wrap_lo127, Cert.Spec.wrap_up127]
  rfl

/-- Gather 731: channel c of point b is the plane at the row and column the two index vectors name. -/
theorem gather_v731 (x0 : (⟨S524288x3, .f32⟩ : BufTy).Contents (Elt Ideal)) (xk : (⟨S32x256x256, .f32⟩ : BufTy).Contents (Elt Ideal)) (c : Fin 32) (b : Fin 524288) :
    val_main_v731 (F := Ideal) x0 xk (ix2 c b)
      = xk (ix3 c (Cert.Spec.pos 256 (by decide) (val_main_v722 (F := Ideal) x0 (ix1 b))) (Cert.Spec.pos 256 (by decide) (val_main_v727 (F := Ideal) x0 (ix1 b)))) := by
  unfold val_main_v731 val_main_v730
  rw [gather256_apply]
  rw [cat2_left, cat2_right, val_main_v728_apply, val_main_v729_apply, idx_main_v728_ix, idx_main_v729_ix]

/-- Gather 745: channel c of point b is the plane at the row and column the two index vectors name. -/
theorem gather_v745 (x0 : (⟨S524288x3, .f32⟩ : BufTy).Contents (Elt Ideal)) (xk : (⟨S32x256x256, .f32⟩ : BufTy).Contents (Elt Ideal)) (c : Fin 32) (b : Fin 524288) :
    val_main_v745 (F := Ideal) x0 xk (ix2 c b)
      = xk (ix3 c (Cert.Spec.pos 256 (by decide) (val_main_v736 (F := Ideal) x0 (ix1 b))) (Cert.Spec.pos 256 (by decide) (val_main_v741 (F := Ideal) x0 (ix1 b)))) := by
  unfold val_main_v745 val_main_v744
  rw [gather256_apply]
  rw [cat2_left, cat2_right, val_main_v742_apply, val_main_v743_apply, idx_main_v742_ix, idx_main_v743_ix]

/-- Gather 759: channel c of point b is the plane at the row and column the two index vectors name. -/
theorem gather_v759 (x0 : (⟨S524288x3, .f32⟩ : BufTy).Contents (Elt Ideal)) (xk : (⟨S32x256x256, .f32⟩ : BufTy).Contents (Elt Ideal)) (c : Fin 32) (b : Fin 524288) :
    val_main_v759 (F := Ideal) x0 xk (ix2 c b)
      = xk (ix3 c (Cert.Spec.pos 256 (by decide) (val_main_v750 (F := Ideal) x0 (ix1 b))) (Cert.Spec.pos 256 (by decide) (val_main_v755 (F := Ideal) x0 (ix1 b)))) := by
  unfold val_main_v759 val_main_v758
  rw [gather256_apply]
  rw [cat2_left, cat2_right, val_main_v756_apply, val_main_v757_apply, idx_main_v756_ix, idx_main_v757_ix]

/-- Gather 773: channel c of point b is the plane at the row and column the two index vectors name. -/
theorem gather_v773 (x0 : (⟨S524288x3, .f32⟩ : BufTy).Contents (Elt Ideal)) (xk : (⟨S32x256x256, .f32⟩ : BufTy).Contents (Elt Ideal)) (c : Fin 32) (b : Fin 524288) :
    val_main_v773 (F := Ideal) x0 xk (ix2 c b)
      = xk (ix3 c (Cert.Spec.pos 256 (by decide) (val_main_v764 (F := Ideal) x0 (ix1 b))) (Cert.Spec.pos 256 (by decide) (val_main_v769 (F := Ideal) x0 (ix1 b)))) := by
  unfold val_main_v773 val_main_v772
  rw [gather256_apply]
  rw [cat2_left, cat2_right, val_main_v770_apply, val_main_v771_apply, idx_main_v770_ix, idx_main_v771_ix]

set_option maxHeartbeats 2000000 in
/-- The reference's bilinear sample of plane 0 of the high resolution, at channel c and point b. -/
theorem ref_plane_high0 (x0 : (⟨S524288x3, .f32⟩ : BufTy).Contents (Elt Ideal)) (xk : (⟨S32x256x256, .f32⟩ : BufTy).Contents (Elt Ideal)) (c : Fin 32) (b : Fin 524288) :
    val_main_v800 (F := Ideal) x0 xk (ix2 c b)
      = Cert.Spec.sample 256 (by decide) Cert.Spec.s255 255#32 (fun h w => xk (ix3 c h w)) (x0 (ix2 b ⟨0, by decide⟩)) (x0 (ix2 b ⟨1, by decide⟩)) := by
  simp only [val_main_v688_apply, val_main_v689_apply, val_main_v690_apply, val_main_v691_apply, val_main_cst_210_apply, val_main_v692_apply, val_main_v693_apply, val_main_cst_211_apply, val_main_v694_apply, val_main_v695_apply, val_main_cst_212_apply, val_main_v696_apply, val_main_v697_apply, val_main_cst_213_apply, val_main_v698_apply, val_main_v699_apply, val_main_cst_214_apply, val_main_v700_apply, val_main_v701_apply, val_main_cst_215_apply, val_main_v702_apply, val_main_v703_apply, val_main_v704_apply, val_main_v705_apply, val_main_v706_apply, val_main_v707_apply, val_main_v708_apply, val_main_c_216_apply, val_main_c_217_apply, val_main_call24_v0_apply, val_main_call24_v1_apply, val_main_call24_v2_apply, val_main_call24_v3_apply, val_main_call24_v4_apply, val_main_v709_apply, val_main_c_218_apply, val_main_v710_apply, val_main_v711_apply, val_main_c_219_apply, val_main_c_220_apply, val_main_call25_v0_apply, val_main_call25_v1_apply, val_main_call25_v2_apply, val_main_call25_v3_apply, val_main_call25_v4_apply, val_main_v712_apply, val_main_v713_apply, val_main_c_221_apply, val_main_c_222_apply, val_main_call26_v0_apply, val_main_call26_v1_apply, val_main_call26_v2_apply, val_main_call26_v3_apply, val_main_call26_v4_apply, val_main_v714_apply, val_main_c_223_apply, val_main_v715_apply, val_main_v716_apply, val_main_c_224_apply, val_main_c_225_apply, val_main_call27_v0_apply, val_main_call27_v1_apply, val_main_call27_v2_apply, val_main_call27_v3_apply, val_main_call27_v4_apply, val_main_v717_apply, val_main_c_226_apply, val_main_v718_apply, val_main_v719_apply, val_main_c_227_apply, val_main_v720_apply, val_main_v721_apply, val_main_v722_apply, val_main_c_228_apply, val_main_v723_apply, val_main_v724_apply, val_main_c_229_apply, val_main_v725_apply, val_main_v726_apply, val_main_v727_apply, val_main_v728_apply, val_main_v729_apply, val_main_c_230_apply, val_main_v732_apply, val_main_v733_apply, val_main_c_231_apply, val_main_v734_apply, val_main_v735_apply, val_main_v736_apply, val_main_c_232_apply, val_main_v737_apply, val_main_v738_apply, val_main_c_233_apply, val_main_v739_apply, val_main_v740_apply, val_main_v741_apply, val_main_v742_apply, val_main_v743_apply, val_main_c_234_apply, val_main_v746_apply, val_main_v747_apply, val_main_c_235_apply, val_main_v748_apply, val_main_v749_apply, val_main_v750_apply, val_main_c_236_apply, val_main_v751_apply, val_main_v752_apply, val_main_c_237_apply, val_main_v753_apply, val_main_v754_apply, val_main_v755_apply, val_main_v756_apply, val_main_v757_apply, val_main_c_238_apply, val_main_v760_apply, val_main_v761_apply, val_main_c_239_apply, val_main_v762_apply, val_main_v763_apply, val_main_v764_apply, val_main_c_240_apply, val_main_v765_apply, val_main_v766_apply, val_main_c_241_apply, val_main_v767_apply, val_main_v768_apply, val_main_v769_apply, val_main_v770_apply, val_main_v771_apply, val_main_cst_242_apply, val_main_v774_apply, val_main_v775_apply, val_main_v776_apply, val_main_v777_apply, val_main_v778_apply, val_main_v779_apply, val_main_v780_apply, val_main_v781_apply, val_main_v782_apply, val_main_cst_243_apply, val_main_v783_apply, val_main_v784_apply, val_main_v785_apply, val_main_v786_apply, val_main_v787_apply, val_main_v788_apply, val_main_v789_apply, val_main_v790_apply, val_main_v791_apply, val_main_cst_244_apply, val_main_v792_apply, val_main_v793_apply, val_main_v794_apply, val_main_v795_apply, val_main_v796_apply, val_main_v797_apply, val_main_v798_apply, val_main_v799_apply, val_main_v800_apply, idx_main_v688_ix, idx_main_v689_ix, idx_main_v690_ix, idx_main_v691_ix, idx_main_v728_ix, idx_main_v729_ix, idx_main_v742_ix, idx_main_v743_ix, idx_main_v756_ix, idx_main_v757_ix, idx_main_v770_ix, idx_main_v771_ix, idx_main_v776_ix, idx_main_v777_ix, idx_main_v779_ix, idx_main_v780_ix, idx_main_v785_ix, idx_main_v786_ix, idx_main_v788_ix, idx_main_v789_ix, idx_main_v794_ix, idx_main_v795_ix, idx_main_v797_ix, idx_main_v798_ix, gather_v731, gather_v745, gather_v759, gather_v773,
    Nat.div_one, Nat.zero_add, Nat.add_zero, Fin.eta, Ideal.addf_def, Ideal.mulf_def, Ideal.subf_def, Ideal.hostUnary_floor_def, Cert.Spec.fptosi_ideal, Ideal.ofBits_def]
  simp only [Cert.Spec.pix_fold, Cert.Spec.frac_fold, Cert.Spec.lo_fold, Cert.Spec.up_fold, Cert.Spec.wrap_lo255, Cert.Spec.wrap_up255]
  rfl

/-- Gather 846: channel c of point b is the plane at the row and column the two index vectors name. -/
theorem gather_v846 (x0 : (⟨S524288x3, .f32⟩ : BufTy).Contents (Elt Ideal)) (xk : (⟨S32x256x256, .f32⟩ : BufTy).Contents (Elt Ideal)) (c : Fin 32) (b : Fin 524288) :
    val_main_v846 (F := Ideal) x0 xk (ix2 c b)
      = xk (ix3 c (Cert.Spec.pos 256 (by decide) (val_main_v837 (F := Ideal) x0 (ix1 b))) (Cert.Spec.pos 256 (by decide) (val_main_v842 (F := Ideal) x0 (ix1 b)))) := by
  unfold val_main_v846 val_main_v845
  rw [gather256_apply]
  rw [cat2_left, cat2_right, val_main_v843_apply, val_main_v844_apply, idx_main_v843_ix, idx_main_v844_ix]

/-- Gather 860: channel c of point b is the plane at the row and column the two index vectors name. -/
theorem gather_v860 (x0 : (⟨S524288x3, .f32⟩ : BufTy).Contents (Elt Ideal)) (xk : (⟨S32x256x256, .f32⟩ : BufTy).Contents (Elt Ideal)) (c : Fin 32) (b : Fin 524288) :
    val_main_v860 (F := Ideal) x0 xk (ix2 c b)
      = xk (ix3 c (Cert.Spec.pos 256 (by decide) (val_main_v851 (F := Ideal) x0 (ix1 b))) (Cert.Spec.pos 256 (by decide) (val_main_v856 (F := Ideal) x0 (ix1 b)))) := by
  unfold val_main_v860 val_main_v859
  rw [gather256_apply]
  rw [cat2_left, cat2_right, val_main_v857_apply, val_main_v858_apply, idx_main_v857_ix, idx_main_v858_ix]

/-- Gather 874: channel c of point b is the plane at the row and column the two index vectors name. -/
theorem gather_v874 (x0 : (⟨S524288x3, .f32⟩ : BufTy).Contents (Elt Ideal)) (xk : (⟨S32x256x256, .f32⟩ : BufTy).Contents (Elt Ideal)) (c : Fin 32) (b : Fin 524288) :
    val_main_v874 (F := Ideal) x0 xk (ix2 c b)
      = xk (ix3 c (Cert.Spec.pos 256 (by decide) (val_main_v865 (F := Ideal) x0 (ix1 b))) (Cert.Spec.pos 256 (by decide) (val_main_v870 (F := Ideal) x0 (ix1 b)))) := by
  unfold val_main_v874 val_main_v873
  rw [gather256_apply]
  rw [cat2_left, cat2_right, val_main_v871_apply, val_main_v872_apply, idx_main_v871_ix, idx_main_v872_ix]

/-- Gather 888: channel c of point b is the plane at the row and column the two index vectors name. -/
theorem gather_v888 (x0 : (⟨S524288x3, .f32⟩ : BufTy).Contents (Elt Ideal)) (xk : (⟨S32x256x256, .f32⟩ : BufTy).Contents (Elt Ideal)) (c : Fin 32) (b : Fin 524288) :
    val_main_v888 (F := Ideal) x0 xk (ix2 c b)
      = xk (ix3 c (Cert.Spec.pos 256 (by decide) (val_main_v879 (F := Ideal) x0 (ix1 b))) (Cert.Spec.pos 256 (by decide) (val_main_v884 (F := Ideal) x0 (ix1 b)))) := by
  unfold val_main_v888 val_main_v887
  rw [gather256_apply]
  rw [cat2_left, cat2_right, val_main_v885_apply, val_main_v886_apply, idx_main_v885_ix, idx_main_v886_ix]

set_option maxHeartbeats 2000000 in
/-- The reference's bilinear sample of plane 1 of the high resolution, at channel c and point b. -/
theorem ref_plane_high1 (x0 : (⟨S524288x3, .f32⟩ : BufTy).Contents (Elt Ideal)) (xk : (⟨S32x256x256, .f32⟩ : BufTy).Contents (Elt Ideal)) (c : Fin 32) (b : Fin 524288) :
    val_main_v915 (F := Ideal) x0 xk (ix2 c b)
      = Cert.Spec.sample 256 (by decide) Cert.Spec.s255 255#32 (fun h w => xk (ix3 c h w)) (x0 (ix2 b ⟨0, by decide⟩)) (x0 (ix2 b ⟨2, by decide⟩)) := by
  simp only [val_main_v803_apply, val_main_v804_apply, val_main_v805_apply, val_main_v806_apply, val_main_cst_246_apply, val_main_v807_apply, val_main_v808_apply, val_main_cst_247_apply, val_main_v809_apply, val_main_v810_apply, val_main_cst_248_apply, val_main_v811_apply, val_main_v812_apply, val_main_cst_249_apply, val_main_v813_apply, val_main_v814_apply, val_main_cst_250_apply, val_main_v815_apply, val_main_v816_apply, val_main_cst_251_apply, val_main_v817_apply, val_main_v818_apply, val_main_v819_apply, val_main_v820_apply, val_main_v821_apply, val_main_v822_apply, val_main_v823_apply, val_main_c_252_apply, val_main_c_253_apply, val_main_call28_v0_apply, val_main_call28_v1_apply, val_main_call28_v2_apply, val_main_call28_v3_apply, val_main_call28_v4_apply, val_main_v824_apply, val_main_c_254_apply, val_main_v825_apply, val_main_v826_apply, val_main_c_255_apply, val_main_c_256_apply, val_main_call29_v0_apply, val_main_call29_v1_apply, val_main_call29_v2_apply, val_main_call29_v3_apply, val_main_call29_v4_apply, val_main_v827_apply, val_main_v828_apply, val_main_c_257_apply, val_main_c_258_apply, val_main_call30_v0_apply, val_main_call30_v1_apply, val_main_call30_v2_apply, val_main_call30_v3_apply, val_main_call30_v4_apply, val_main_v829_apply, val_main_c_259_apply, val_main_v830_apply, val_main_v831_apply, val_main_c_260_apply, val_main_c_261_apply, val_main_call31_v0_apply, val_main_call31_v1_apply, val_main_call31_v2_apply, val_main_call31_v3_apply, val_main_call31_v4_apply, val_main_v832_apply, val_main_c_262_apply, val_main_v833_apply, val_main_v834_apply, val_main_c_263_apply, val_main_v835_apply, val_main_v836_apply, val_main_v837_apply, val_main_c_264_apply, val_main_v838_apply, val_main_v839_apply, val_main_c_265_apply, val_main_v840_apply, val_main_v841_apply, val_main_v842_apply, val_main_v843_apply, val_main_v844_apply, val_main_c_266_apply, val_main_v847_apply, val_main_v848_apply, val_main_c_267_apply, val_main_v849_apply, val_main_v850_apply, val_main_v851_apply, val_main_c_268_apply, val_main_v852_apply, val_main_v853_apply, val_main_c_269_apply, val_main_v854_apply, val_main_v855_apply, val_main_v856_apply, val_main_v857_apply, val_main_v858_apply, val_main_c_270_apply, val_main_v861_apply, val_main_v862_apply, val_main_c_271_apply, val_main_v863_apply, val_main_v864_apply, val_main_v865_apply, val_main_c_272_apply, val_main_v866_apply, val_main_v867_apply, val_main_c_273_apply, val_main_v868_apply, val_main_v869_apply, val_main_v870_apply, val_main_v871_apply, val_main_v872_apply, val_main_c_274_apply, val_main_v875_apply, val_main_v876_apply, val_main_c_275_apply, val_main_v877_apply, val_main_v878_apply, val_main_v879_apply, val_main_c_276_apply, val_main_v880_apply, val_main_v881_apply, val_main_c_277_apply, val_main_v882_apply, val_main_v883_apply, val_main_v884_apply, val_main_v885_apply, val_main_v886_apply, val_main_cst_278_apply, val_main_v889_apply, val_main_v890_apply, val_main_v891_apply, val_main_v892_apply, val_main_v893_apply, val_main_v894_apply, val_main_v895_apply, val_main_v896_apply, val_main_v897_apply, val_main_cst_279_apply, val_main_v898_apply, val_main_v899_apply, val_main_v900_apply, val_main_v901_apply, val_main_v902_apply, val_main_v903_apply, val_main_v904_apply, val_main_v905_apply, val_main_v906_apply, val_main_cst_280_apply, val_main_v907_apply, val_main_v908_apply, val_main_v909_apply, val_main_v910_apply, val_main_v911_apply, val_main_v912_apply, val_main_v913_apply, val_main_v914_apply, val_main_v915_apply, idx_main_v803_ix, idx_main_v804_ix, idx_main_v805_ix, idx_main_v806_ix, idx_main_v843_ix, idx_main_v844_ix, idx_main_v857_ix, idx_main_v858_ix, idx_main_v871_ix, idx_main_v872_ix, idx_main_v885_ix, idx_main_v886_ix, idx_main_v891_ix, idx_main_v892_ix, idx_main_v894_ix, idx_main_v895_ix, idx_main_v900_ix, idx_main_v901_ix, idx_main_v903_ix, idx_main_v904_ix, idx_main_v909_ix, idx_main_v910_ix, idx_main_v912_ix, idx_main_v913_ix, gather_v846, gather_v860, gather_v874, gather_v888,
    Nat.div_one, Nat.zero_add, Nat.add_zero, Fin.eta, Ideal.addf_def, Ideal.mulf_def, Ideal.subf_def, Ideal.hostUnary_floor_def, Cert.Spec.fptosi_ideal, Ideal.ofBits_def]
  simp only [Cert.Spec.pix_fold, Cert.Spec.frac_fold, Cert.Spec.lo_fold, Cert.Spec.up_fold, Cert.Spec.wrap_lo255, Cert.Spec.wrap_up255]
  rfl

/-- Gather 960: channel c of point b is the plane at the row and column the two index vectors name. -/
theorem gather_v960 (x0 : (⟨S524288x3, .f32⟩ : BufTy).Contents (Elt Ideal)) (xk : (⟨S32x256x256, .f32⟩ : BufTy).Contents (Elt Ideal)) (c : Fin 32) (b : Fin 524288) :
    val_main_v960 (F := Ideal) x0 xk (ix2 c b)
      = xk (ix3 c (Cert.Spec.pos 256 (by decide) (val_main_v951 (F := Ideal) x0 (ix1 b))) (Cert.Spec.pos 256 (by decide) (val_main_v956 (F := Ideal) x0 (ix1 b)))) := by
  unfold val_main_v960 val_main_v959
  rw [gather256_apply]
  rw [cat2_left, cat2_right, val_main_v957_apply, val_main_v958_apply, idx_main_v957_ix, idx_main_v958_ix]

/-- Gather 974: channel c of point b is the plane at the row and column the two index vectors name. -/
theorem gather_v974 (x0 : (⟨S524288x3, .f32⟩ : BufTy).Contents (Elt Ideal)) (xk : (⟨S32x256x256, .f32⟩ : BufTy).Contents (Elt Ideal)) (c : Fin 32) (b : Fin 524288) :
    val_main_v974 (F := Ideal) x0 xk (ix2 c b)
      = xk (ix3 c (Cert.Spec.pos 256 (by decide) (val_main_v965 (F := Ideal) x0 (ix1 b))) (Cert.Spec.pos 256 (by decide) (val_main_v970 (F := Ideal) x0 (ix1 b)))) := by
  unfold val_main_v974 val_main_v973
  rw [gather256_apply]
  rw [cat2_left, cat2_right, val_main_v971_apply, val_main_v972_apply, idx_main_v971_ix, idx_main_v972_ix]

/-- Gather 988: channel c of point b is the plane at the row and column the two index vectors name. -/
theorem gather_v988 (x0 : (⟨S524288x3, .f32⟩ : BufTy).Contents (Elt Ideal)) (xk : (⟨S32x256x256, .f32⟩ : BufTy).Contents (Elt Ideal)) (c : Fin 32) (b : Fin 524288) :
    val_main_v988 (F := Ideal) x0 xk (ix2 c b)
      = xk (ix3 c (Cert.Spec.pos 256 (by decide) (val_main_v979 (F := Ideal) x0 (ix1 b))) (Cert.Spec.pos 256 (by decide) (val_main_v984 (F := Ideal) x0 (ix1 b)))) := by
  unfold val_main_v988 val_main_v987
  rw [gather256_apply]
  rw [cat2_left, cat2_right, val_main_v985_apply, val_main_v986_apply, idx_main_v985_ix, idx_main_v986_ix]

/-- Gather 1002: channel c of point b is the plane at the row and column the two index vectors name. -/
theorem gather_v1002 (x0 : (⟨S524288x3, .f32⟩ : BufTy).Contents (Elt Ideal)) (xk : (⟨S32x256x256, .f32⟩ : BufTy).Contents (Elt Ideal)) (c : Fin 32) (b : Fin 524288) :
    val_main_v1002 (F := Ideal) x0 xk (ix2 c b)
      = xk (ix3 c (Cert.Spec.pos 256 (by decide) (val_main_v993 (F := Ideal) x0 (ix1 b))) (Cert.Spec.pos 256 (by decide) (val_main_v998 (F := Ideal) x0 (ix1 b)))) := by
  unfold val_main_v1002 val_main_v1001
  rw [gather256_apply]
  rw [cat2_left, cat2_right, val_main_v999_apply, val_main_v1000_apply, idx_main_v999_ix, idx_main_v1000_ix]

set_option maxHeartbeats 2000000 in
/-- The reference's bilinear sample of plane 2 of the high resolution, at channel c and point b. -/
theorem ref_plane_high2 (x0 : (⟨S524288x3, .f32⟩ : BufTy).Contents (Elt Ideal)) (xk : (⟨S32x256x256, .f32⟩ : BufTy).Contents (Elt Ideal)) (c : Fin 32) (b : Fin 524288) :
    val_main_v1029 (F := Ideal) x0 xk (ix2 c b)
      = Cert.Spec.sample 256 (by decide) Cert.Spec.s255 255#32 (fun h w => xk (ix3 c h w)) (x0 (ix2 b ⟨1, by decide⟩)) (x0 (ix2 b ⟨2, by decide⟩)) := by
  simp only [val_main_v917_apply, val_main_v918_apply, val_main_v919_apply, val_main_v920_apply, val_main_cst_281_apply, val_main_v921_apply, val_main_v922_apply, val_main_cst_282_apply, val_main_v923_apply, val_main_v924_apply, val_main_cst_283_apply, val_main_v925_apply, val_main_v926_apply, val_main_cst_284_apply, val_main_v927_apply, val_main_v928_apply, val_main_cst_285_apply, val_main_v929_apply, val_main_v930_apply, val_main_cst_286_apply, val_main_v931_apply, val_main_v932_apply, val_main_v933_apply, val_main_v934_apply, val_main_v935_apply, val_main_v936_apply, val_main_v937_apply, val_main_c_287_apply, val_main_c_288_apply, val_main_call32_v0_apply, val_main_call32_v1_apply, val_main_call32_v2_apply, val_main_call32_v3_apply, val_main_call32_v4_apply, val_main_v938_apply, val_main_c_289_apply, val_main_v939_apply, val_main_v940_apply, val_main_c_290_apply, val_main_c_291_apply, val_main_call33_v0_apply, val_main_call33_v1_apply, val_main_call33_v2_apply, val_main_call33_v3_apply, val_main_call33_v4_apply, val_main_v941_apply, val_main_v942_apply, val_main_c_292_apply, val_main_c_293_apply, val_main_call34_v0_apply, val_main_call34_v1_apply, val_main_call34_v2_apply, val_main_call34_v3_apply, val_main_call34_v4_apply, val_main_v943_apply, val_main_c_294_apply, val_main_v944_apply, val_main_v945_apply, val_main_c_295_apply, val_main_c_296_apply, val_main_call35_v0_apply, val_main_call35_v1_apply, val_main_call35_v2_apply, val_main_call35_v3_apply, val_main_call35_v4_apply, val_main_v946_apply, val_main_c_297_apply, val_main_v947_apply, val_main_v948_apply, val_main_c_298_apply, val_main_v949_apply, val_main_v950_apply, val_main_v951_apply, val_main_c_299_apply, val_main_v952_apply, val_main_v953_apply, val_main_c_300_apply, val_main_v954_apply, val_main_v955_apply, val_main_v956_apply, val_main_v957_apply, val_main_v958_apply, val_main_c_301_apply, val_main_v961_apply, val_main_v962_apply, val_main_c_302_apply, val_main_v963_apply, val_main_v964_apply, val_main_v965_apply, val_main_c_303_apply, val_main_v966_apply, val_main_v967_apply, val_main_c_304_apply, val_main_v968_apply, val_main_v969_apply, val_main_v970_apply, val_main_v971_apply, val_main_v972_apply, val_main_c_305_apply, val_main_v975_apply, val_main_v976_apply, val_main_c_306_apply, val_main_v977_apply, val_main_v978_apply, val_main_v979_apply, val_main_c_307_apply, val_main_v980_apply, val_main_v981_apply, val_main_c_308_apply, val_main_v982_apply, val_main_v983_apply, val_main_v984_apply, val_main_v985_apply, val_main_v986_apply, val_main_c_309_apply, val_main_v989_apply, val_main_v990_apply, val_main_c_310_apply, val_main_v991_apply, val_main_v992_apply, val_main_v993_apply, val_main_c_311_apply, val_main_v994_apply, val_main_v995_apply, val_main_c_312_apply, val_main_v996_apply, val_main_v997_apply, val_main_v998_apply, val_main_v999_apply, val_main_v1000_apply, val_main_cst_313_apply, val_main_v1003_apply, val_main_v1004_apply, val_main_v1005_apply, val_main_v1006_apply, val_main_v1007_apply, val_main_v1008_apply, val_main_v1009_apply, val_main_v1010_apply, val_main_v1011_apply, val_main_cst_314_apply, val_main_v1012_apply, val_main_v1013_apply, val_main_v1014_apply, val_main_v1015_apply, val_main_v1016_apply, val_main_v1017_apply, val_main_v1018_apply, val_main_v1019_apply, val_main_v1020_apply, val_main_cst_315_apply, val_main_v1021_apply, val_main_v1022_apply, val_main_v1023_apply, val_main_v1024_apply, val_main_v1025_apply, val_main_v1026_apply, val_main_v1027_apply, val_main_v1028_apply, val_main_v1029_apply, idx_main_v917_ix, idx_main_v918_ix, idx_main_v919_ix, idx_main_v920_ix, idx_main_v957_ix, idx_main_v958_ix, idx_main_v971_ix, idx_main_v972_ix, idx_main_v985_ix, idx_main_v986_ix, idx_main_v999_ix, idx_main_v1000_ix, idx_main_v1005_ix, idx_main_v1006_ix, idx_main_v1008_ix, idx_main_v1009_ix, idx_main_v1014_ix, idx_main_v1015_ix, idx_main_v1017_ix, idx_main_v1018_ix, idx_main_v1023_ix, idx_main_v1024_ix, idx_main_v1026_ix, idx_main_v1027_ix, gather_v960, gather_v974, gather_v988, gather_v1002,
    Nat.div_one, Nat.zero_add, Nat.add_zero, Fin.eta, Ideal.addf_def, Ideal.mulf_def, Ideal.subf_def, Ideal.hostUnary_floor_def, Cert.Spec.fptosi_ideal, Ideal.ofBits_def]
  simp only [Cert.Spec.pix_fold, Cert.Spec.frac_fold, Cert.Spec.lo_fold, Cert.Spec.up_fold, Cert.Spec.wrap_lo255, Cert.Spec.wrap_up255]
  rfl

set_option maxHeartbeats 1000000 in
/-- The reference's low-resolution feature of channel c at point b: the product 1 · plane 0 · plane 1 · plane 2 of the three samples. -/
theorem ref_feat_low (x0 : (⟨S524288x3, .f32⟩ : BufTy).Contents (Elt Ideal)) (xa xb xc : (⟨S32x64x64, .f32⟩ : BufTy).Contents (Elt Ideal)) (c : Fin 32) (b : Fin 524288) :
    val_main_v342 (F := Ideal) x0 xa xb xc (ix2 c b)
      = Cert.Spec.feat 64 (by decide) Cert.Spec.s63 63#32 (fun h w => xa (ix3 c h w)) (fun h w => xb (ix3 c h w)) (fun h w => xc (ix3 c h w))
          (x0 (ix2 b ⟨0, by decide⟩)) (x0 (ix2 b ⟨1, by decide⟩)) (x0 (ix2 b ⟨2, by decide⟩)) := by
  simp only [val_main_v342_apply, val_main_v228_apply, val_main_v114_apply, val_main_cst_33_apply, val_main_v113_apply, ref_plane_low0, ref_plane_low1, ref_plane_low2, Ideal.mulf_def, Ideal.ofBits_def]
  rfl

set_option maxHeartbeats 1000000 in
/-- The reference's mid-resolution feature of channel c at point b: the product 1 · plane 0 · plane 1 · plane 2 of the three samples. -/
theorem ref_feat_mid (x0 : (⟨S524288x3, .f32⟩ : BufTy).Contents (Elt Ideal)) (xa xb xc : (⟨S32x128x128, .f32⟩ : BufTy).Contents (Elt Ideal)) (c : Fin 32) (b : Fin 524288) :
    val_main_v686 (F := Ideal) x0 xa xb xc (ix2 c b)
      = Cert.Spec.feat 128 (by decide) Cert.Spec.s127 127#32 (fun h w => xa (ix3 c h w)) (fun h w => xb (ix3 c h w)) (fun h w => xc (ix3 c h w))
          (x0 (ix2 b ⟨0, by decide⟩)) (x0 (ix2 b ⟨1, by decide⟩)) (x0 (ix2 b ⟨2, by decide⟩)) := by
  simp only [val_main_v686_apply, val_main_v572_apply, val_main_v458_apply, val_main_cst_139_apply, val_main_v457_apply, ref_plane_mid0, ref_plane_mid1, ref_plane_mid2, Ideal.mulf_def, Ideal.ofBits_def]
  rfl

set_option maxHeartbeats 1000000 in
/-- The reference's high-resolution feature of channel c at point b: the product 1 · plane 0 · plane 1 · plane 2 of the three samples. -/
theorem ref_feat_high (x0 : (⟨S524288x3, .f32⟩ : BufTy).Contents (Elt Ideal)) (xa xb xc : (⟨S32x256x256, .f32⟩ : BufTy).Contents (Elt Ideal)) (c : Fin 32) (b : Fin 524288) :
    val_main_v1030 (F := Ideal) x0 xa xb xc (ix2 c b)
      = Cert.Spec.feat 256 (by decide) Cert.Spec.s255 255#32 (fun h w => xa (ix3 c h w)) (fun h w => xb (ix3 c h w)) (fun h w => xc (ix3 c h w))
          (x0 (ix2 b ⟨0, by decide⟩)) (x0 (ix2 b ⟨1, by decide⟩)) (x0 (ix2 b ⟨2, by decide⟩)) := by
  simp only [val_main_v1030_apply, val_main_v916_apply, val_main_v802_apply, val_main_cst_245_apply, val_main_v801_apply, ref_plane_high0, ref_plane_high1, ref_plane_high2, Ideal.mulf_def, Ideal.ofBits_def]
  rfl

set_option maxHeartbeats 1000000 in
/-- THE REFERENCE'S RESULT is the specification: row b, column j is the feature of the resolution and channel that column names. -/
theorem ref_value (x0 : (⟨S524288x3, .f32⟩ : BufTy).Contents (Elt Ideal)) (x1 x2 x3 : (⟨S32x64x64, .f32⟩ : BufTy).Contents (Elt Ideal))
    (x4 x5 x6 : (⟨S32x128x128, .f32⟩ : BufTy).Contents (Elt Ideal)) (x7 x8 x9 : (⟨S32x256x256, .f32⟩ : BufTy).Contents (Elt Ideal)) :
    val_main_v1032 (F := Ideal) x0 x1 x2 x3 x4 x5 x6 x7 x8 x9 = Cert.Spec.G x0 x1 x2 x3 x4 x5 x6 x7 x8 x9 := by
  funext i
  obtain ⟨b, j, rfl⟩ : ∃ (b : Fin 524288) (j : Fin 96), i = ix2 b j := ⟨i 0, i 1, eq_ix2 i⟩
  unfold val_main_v1032 Cert.Spec.G
  have hj := j.isLt
  by_cases h1 : j.val < 32
  · rw [concatenate_apply_piece (t := S524288x96) 1 _ _ (ix2 b j) 0 (by simp) S524288x32 _ rfl rfl 0 rfl (ix2 b (⟨j.val, h1⟩ : Fin 32))
        (fun a ha => by match a with | ⟨0, _⟩ => rfl | ⟨1, _⟩ => exact absurd rfl ha) (by show 0 + j.val = j.val; omega),
      val_main_v343_apply, idx_main_v343_ix, ref_feat_low,
      Cert.Spec.row_low _ _ _ _ _ _ _ _ _ _ _ _ _ (⟨j.val, h1⟩ : Fin 32) rfl]
    rfl
  · by_cases h2 : j.val < 64
    · rw [concatenate_apply_piece (t := S524288x96) 1 _ _ (ix2 b j) 1 (by simp) S524288x32 _ rfl rfl 32 rfl (ix2 b (⟨j.val - 32, by omega⟩ : Fin 32))
          (fun a ha => by match a with | ⟨0, _⟩ => rfl | ⟨1, _⟩ => exact absurd rfl ha) (by show 32 + (j.val - 32) = j.val; omega),
        val_main_v687_apply, idx_main_v687_ix, ref_feat_mid,
        Cert.Spec.row_mid _ _ _ _ _ _ _ _ _ _ _ _ _ (⟨j.val - 32, by omega⟩ : Fin 32) (by show j.val = 32 + (j.val - 32); omega)]
      rfl
    · rw [concatenate_apply_piece (t := S524288x96) 1 _ _ (ix2 b j) 2 (by simp) S524288x32 _ rfl rfl 64 rfl (ix2 b (⟨j.val - 64, by omega⟩ : Fin 32))
          (fun a ha => by match a with | ⟨0, _⟩ => rfl | ⟨1, _⟩ => exact absurd rfl ha) (by show 64 + (j.val - 64) = j.val; omega),
        val_main_v1031_apply, idx_main_v1031_ix, ref_feat_high,
        Cert.Spec.row_high _ _ _ _ _ _ _ _ _ _ _ _ _ (⟨j.val - 64, by omega⟩ : Fin 32) (by show j.val = 64 + (j.val - 64); omega)]
      rfl

end Cert.ReferenceIdeal.RefValue

end
-- ==== Proof.ClaimOfRun.lean ====
/-
  The claim, given the reference's run.

  The kernel samples three resolutions of three feature planes bilinearly at each point and multiplies the three samples
  of a resolution; the reference does the same with gathers of the four corner values. The kernel replaces each gather
  by two matrix products with one-hot vectors (a row vector over the plane's rows into the plane's table of all 32
  channels side by side, then a 0/1 matrix that adds up each channel's columns weighted by a one-hot vector over the
  columns). For finite inputs every quantity is a real number, and over the reals a sum against a one-hot vector picks
  out one entry, so both programs compute the same bilinear combination of the same four entries.

  Here: if every weakly fair execution of the reference terminates with its result buffer at the reference's value of the
  arguments (its operations' composed function, read one operation at a time) and its arguments unchanged, then the whole
  claim holds — the two frames of the kernel, the reference's frame, and the equality of the two results, both being the
  specification of the arguments.

  The kernel's value: Proof/KernelPlanes.lean (the body, index by index) and Proof/KernelValue.lean (from blocks to the
  array). The reference's value: Proof/RefIdx.lean and Proof/RefValue.lean. The arithmetic: Proof/OnehotReal.lean and
  Proof/Onehot.lean. The specification both meet: Proof/Spec.lean. Finiteness from the precondition: Proof/Finite.lean.
-/
import proofs.«123486_j78099685310709_1_alg».proof.Defs
import proofs.«123486_j78099685310709_1_alg».proof.Proof.Gen.Kernel
import proofs.«123486_j78099685310709_1_alg».proof.Proof.Gen.Kernel.Skeleton
import proofs.«123486_j78099685310709_1_alg».proof.Proof.Gen.Kernel.Launch
import proofs.«123486_j78099685310709_1_alg».proof.Proof.Gen.Kernel.Points
import proofs.«123486_j78099685310709_1_alg».proof.Proof.Gen.Kernel.Frame
import proofs.«123486_j78099685310709_1_alg».proof.Proof.Gen.KernelIdeal
import proofs.«123486_j78099685310709_1_alg».proof.Proof.Gen.KernelIdeal.Skeleton
import proofs.«123486_j78099685310709_1_alg».proof.Proof.Gen.KernelIdeal.Launch
import proofs.«123486_j78099685310709_1_alg».proof.Proof.Gen.KernelIdeal.Points
import proofs.«123486_j78099685310709_1_alg».proof.Proof.Gen.KernelIdeal.Frame
import proofs.«123486_j78099685310709_1_alg».proof.Proof.Gen.KernelIdeal.Value
import proofs.«123486_j78099685310709_1_alg».proof.Proof.Gen.ReferenceIdeal
import proofs.«123486_j78099685310709_1_alg».proof.Proof.Gen.Pre_finite_inputs
import proofs.«123486_j78099685310709_1_alg».proof.Proof.KernelValue
import proofs.«123486_j78099685310709_1_alg».proof.Proof.Finite
import proofs.«123486_j78099685310709_1_alg».proof.Proof.RefValue
import Idealize.ShloMosaic.Adequacy
import Idealize.ShloMosaic.Init

noncomputable section

namespace Cert.Proof

open Idealize.ShloMosaic Idealize.SL.Sem

/-- The reference's run: it terminates with the result buffer at the reference's value of the arguments, the arguments unchanged. -/
def ReferenceRuns : Prop :=
  ∀ (m : (ℓ : Loc Cert.ReferenceIdeal.nD Cert.ReferenceIdeal.τ Cert.ReferenceIdeal.sig) → Buf (Elt Ideal) ℓ) (ρ : Dev Cert.ReferenceIdeal.nD → PrngReg),
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v1032)
        = Cert.ReferenceIdeal.Read.val_main_v1032 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)

theorem frame_p : Cert.frame_Kernel (hKernel := Cert.Kernel.Gen.facts) (hPre_finite_inputs := Cert.Pre_finite_inputs.Gen.facts) :=
  fun m ρ _ => Cert.Kernel.Gen.frame m ρ

theorem frame_pi : Cert.frame_KernelIdeal (hKernelIdeal := Cert.KernelIdeal.Gen.facts) (hPre_finite_inputs := Cert.Pre_finite_inputs.Gen.facts) :=
  fun m ρ _ => Cert.KernelIdeal.Gen.frame m ρ

theorem frame_ri (hrun : ReferenceRuns) :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (hrun m ρ)

/-- From memories agreeing on the arguments the kernel's result array and the reference's are the same function of the
    arguments: the specification. -/
theorem algebraic (hrun : ReferenceRuns) : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.KValue.run m ρ (fun c => Cert.KernelIdeal.Finite.real_of_pre m hpre c), ?_⟩
  refine (θ_run Cert.ReferenceIdeal.defs _ _).mono (fun _ h c => ⟨(h c).1.trans ?_, (h c).2⟩) (hrun m' ρ')
  rw [Cert.ReferenceIdeal.RefValue.ref_value,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]

/-- THE CLAIM, GIVEN THE REFERENCE'S RUN. -/
theorem claim_of_run (hrun : ReferenceRuns) : Cert.Claim :=
  ⟨Cert.Kernel.Gen.facts, Cert.KernelIdeal.Gen.facts, Cert.ReferenceIdeal.Gen.facts, Cert.Pre_finite_inputs.Gen.facts,
    frame_p, frame_pi, frame_ri hrun, trivial, algebraic hrun⟩

end Cert.Proof

end
-- ==== Proof.RefCk1.lean ====
/-
  The reference's host operations 1 to 40 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck1 : List (HloOp τ sig (Elt F)) :=
  [ unary main_arg0 main_v0 ((extractStridedSlice S524288x1 ![0, 0] · slices_S524288x3_S524288x1_0_0) : (⟨S524288x3, .f32⟩ : BufTy).Contents (Elt F) → (⟨S524288x1, .f32⟩ : BufTy).Contents (Elt F)),
    reshape main_v0 main_v1 rfl shapeCasts_S524288x1_S524288,
    unary main_arg0 main_v2 ((extractStridedSlice S524288x1 ![0, 1] · slices_S524288x3_S524288x1_0_1) : (⟨S524288x3, .f32⟩ : BufTy).Contents (Elt F) → (⟨S524288x1, .f32⟩ : BufTy).Contents (Elt F)),
    reshape main_v2 main_v3 rfl shapeCasts_S524288x1_S524288,
    nullary main_cst (constant S_ .f32 0x3F800000#32),
    unary main_cst main_v4 (broadcastInDim S524288 ![] bcast_S_S524288 : (⟨S_, .f32⟩ : BufTy).Contents (Elt F) → (⟨S524288, .f32⟩ : BufTy).Contents (Elt F)),
    binary main_v1 main_v4 main_v5 (addf : (⟨S524288, .f32⟩ : BufTy).Contents (Elt F) → (⟨S524288, .f32⟩ : BufTy).Contents (Elt F) → (⟨S524288, .f32⟩ : BufTy).Contents (Elt F)),
    nullary main_cst_0 (constant S_ .f32 0x3F000000#32),
    unary main_cst_0 main_v6 (broadcastInDim S524288 ![] bcast_S_S524288 : (⟨S_, .f32⟩ : BufTy).Contents (Elt F) → (⟨S524288, .f32⟩ : BufTy).Contents (Elt F)),
    binary main_v5 main_v6 main_v7 (mulf : (⟨S524288, .f32⟩ : BufTy).Contents (Elt F) → (⟨S524288, .f32⟩ : BufTy).Contents (Elt F) → (⟨S524288, .f32⟩ : BufTy).Contents (Elt F)),
    nullary main_cst_1 (constant S_ .f32 0x427C0000#32),
    unary main_cst_1 main_v8 (broadcastInDim S524288 ![] bcast_S_S524288 : (⟨S_, .f32⟩ : BufTy).Contents (Elt F) → (⟨S524288, .f32⟩ : BufTy).Contents (Elt F)),
    binary main_v7 main_v8 main_v9 (mulf : (⟨S524288, .f32⟩ : BufTy).Contents (Elt F) → (⟨S524288, .f32⟩ : BufTy).Contents (Elt F) → (⟨S524288, .f32⟩ : BufTy).Contents (Elt F)),
    nullary main_cst_2 (constant S_ .f32 0x3F800000#32),
    unary main_cst_2 main_v10 (broadcastInDim S524288 ![] bcast_S_S524288 : (⟨S_, .f32⟩ : BufTy).Contents (Elt F) → (⟨S524288, .f32⟩ : BufTy).Contents (Elt F)),
    binary main_v3 main_v10 main_v11 (addf : (⟨S524288, .f32⟩ : BufTy).Contents (Elt F) → (⟨S524288, .f32⟩ : BufTy).Contents (Elt F) → (⟨S524288, .f32⟩ : BufTy).Contents (Elt F)),
    nullary main_cst_3 (constant S_ .f32 0x3F000000#32),
    unary main_cst_3 main_v12 (broadcastInDim S524288 ![] bcast_S_S524288 : (⟨S_, .f32⟩ : BufTy).Contents (Elt F) → (⟨S524288, .f32⟩ : BufTy).Contents (Elt F)),
    binary main_v11 main_v12 main_v13 (mulf : (⟨S524288, .f32⟩ : BufTy).Contents (Elt F) → (⟨S524288, .f32⟩ : BufTy).Contents (Elt F) → (⟨S524288, .f32⟩ : BufTy).Contents (Elt F)),
    nullary main_cst_4 (constant S_ .f32 0x427C0000#32),
    unary main_cst_4 main_v14 (broadcastInDim S524288 ![] bcast_S_S524288 : (⟨S_, .f32⟩ : BufTy).Contents (Elt F) → (⟨S524288, .f32⟩ : BufTy).Contents (Elt F)),
    binary main_v13 main_v14 main_v15 (mulf : (⟨S524288, .f32⟩ : BufTy).Contents (Elt F) → (⟨S524288, .f32⟩ : BufTy).Contents (Elt F) → (⟨S524288, .f32⟩ : BufTy).Contents (Elt F)),
    unary main_v9 main_v16 (Host.floor : (⟨S524288, .f32⟩ : BufTy).Contents (Elt F) → (⟨S524288, .f32⟩ : BufTy).Contents (Elt F)),
    unary main_v15 main_v17 (Host.floor : (⟨S524288, .f32⟩ : BufTy).Contents (Elt F) → (⟨S524288, .f32⟩ : BufTy).Contents (Elt F)),
    binary main_v9 main_v16 main_v18 (subf : (⟨S524288, .f32⟩ : BufTy).Contents (Elt F) → (⟨S524288, .f32⟩ : BufTy).Contents (Elt F) → (⟨S524288, .f32⟩ : BufTy).Contents (Elt F)),
    binary main_v15 main_v17 main_v19 (subf : (⟨S524288, .f32⟩ : BufTy).Contents (Elt F) → (⟨S524288, .f32⟩ : BufTy).Contents (Elt F) → (⟨S524288, .f32⟩ : BufTy).Contents (Elt F)),
    unary main_v16 main_v20 (fptosi 32 : (⟨S524288, .f32⟩ : BufTy).Contents (Elt F) → (⟨S524288, .i32⟩ : BufTy).Contents (Elt F)),
    nullary main_c (constantI S_ 32 0#32),
    nullary main_c_5 (constantI S_ 32 63#32),
    TRef.unary (TRef.of (T := ⟨S_, .i32⟩) main_c) (TRef.of (T := ⟨S_, .i32⟩) main_call0_v0) id,
    TRef.unary (TRef.of (T := ⟨S_, .i32⟩) main_call0_v0) (TRef.of (T := ⟨S524288, .i32⟩) main_call0_v1) (broadcastInDim S524288 ![] bcast_S_S524288),
    TRef.binary (TRef.of (T := ⟨S524288, .i32⟩) main_call0_v1) (TRef.of (T := ⟨S524288, .i32⟩) main_v20) (TRef.of (T := ⟨S524288, .i32⟩) main_call0_v2) maxsi,
    TRef.unary (TRef.of (T := ⟨S_, .i32⟩) main_c_5) (TRef.of (T := ⟨S_, .i32⟩) main_call0_v3) id,
    TRef.unary (TRef.of (T := ⟨S_, .i32⟩) main_call0_v3) (TRef.of (T := ⟨S524288, .i32⟩) main_call0_v4) (broadcastInDim S524288 ![] bcast_S_S524288),
    TRef.binary (TRef.of (T := ⟨S524288, .i32⟩) main_call0_v4) (TRef.of (T := ⟨S524288, .i32⟩) main_call0_v2) (TRef.of (T := ⟨S524288, .i32⟩) main_v21) minsi,
    nullary main_c_6 (constantI S_ 32 1#32),
    unary main_c_6 main_v22 (broadcastInDim S524288 ![] bcast_S_S524288 : (⟨S_, .i32⟩ : BufTy).Contents (Elt F) → (⟨S524288, .i32⟩ : BufTy).Contents (Elt F)),
    binary main_v21 main_v22 main_v23 (addi : (⟨S524288, .i32⟩ : BufTy).Contents (Elt F) → (⟨S524288, .i32⟩ : BufTy).Contents (Elt F) → (⟨S524288, .i32⟩ : BufTy).Contents (Elt F)),
    nullary main_c_7 (constantI S_ 32 0#32),
    nullary main_c_8 (constantI S_ 32 63#32) ]

set_option maxRecDepth 8192 in
set_option maxHeartbeats 40000000 in
/-- After the stretch, main_v17 holds its stage of the arguments, given that the buffers the stretch reads from before it hold theirs. -/
theorem ck1_main_v17 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck1 W (Proc.devRef .tc main_v17) = (val_main_v17 (F := F) x0) := by
  after_results_simp
  try simp only [val_main_v17, val_main_v15, val_main_v14, val_main_cst_4, val_main_v13, val_main_v12, val_main_cst_3, val_main_v11, val_main_v10, val_main_cst_2, val_main_v3, val_main_v2]
  try rw [← h0]
  try rfl

set_option maxRecDepth 8192 in
set_option maxHeartbeats 40000000 in
/-- After the stretch, main_v18 holds its stage of the arguments, given that the buffers the stretch reads from before it hold theirs. -/
theorem ck1_main_v18 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck1 W (Proc.devRef .tc main_v18) = (val_main_v18 (F := F) x0) := by
  after_results_simp
  try simp only [val_main_v18, val_main_v16, val_main_v9, val_main_v8, val_main_cst_1, val_main_v7, val_main_v6, val_main_cst_0, val_main_v5, val_main_v4, val_main_cst, val_main_v1, val_main_v0]
  try rw [← h0]
  try rfl

set_option maxRecDepth 8192 in
set_option maxHeartbeats 40000000 in
/-- After the stretch, main_v19 holds its stage of the arguments, given that the buffers the stretch reads from before it hold theirs. -/
theorem ck1_main_v19 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck1 W (Proc.devRef .tc main_v19) = (val_main_v19 (F := F) x0) := by
  after_results_simp
  try simp only [val_main_v19, val_main_v17, val_main_v15, val_main_v14, val_main_cst_4, val_main_v13, val_main_v12, val_main_cst_3, val_main_v11, val_main_v10, val_main_cst_2, val_main_v3, val_main_v2]
  try rw [← h0]
  try rfl

set_option maxRecDepth 8192 in
set_option maxHeartbeats 40000000 in
/-- After the stretch, main_v21 holds its stage of the arguments, given that the buffers the stretch reads from before it hold theirs. -/
theorem ck1_main_v21 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck1 W (Proc.devRef .tc main_v21) = (val_main_v21 (F := F) x0) := by
  after_results_simp
  try simp only [val_main_v21, val_main_call0_v4, val_main_call0_v3, val_main_call0_v2, val_main_call0_v1, val_main_call0_v0, val_main_c_5, val_main_c, val_main_v20, val_main_v16, val_main_v9, val_main_v8, val_main_cst_1, val_main_v7, val_main_v6, val_main_cst_0, val_main_v5, val_main_v4, val_main_cst, val_main_v1, val_main_v0]
  try rw [← h0]
  try rfl

set_option maxRecDepth 8192 in
set_option maxHeartbeats 40000000 in
/-- After the stretch, main_v23 holds its stage of the arguments, given that the buffers the stretch reads from before it hold theirs. -/
theorem ck1_main_v23 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck1 W (Proc.devRef .tc main_v23) = (val_main_v23 (F := F) x0) := by
  after_results_simp
  try simp only [val_main_v23, val_main_v22, val_main_c_6, val_main_v21, val_main_call0_v4, val_main_call0_v3, val_main_call0_v2, val_main_call0_v1, val_main_call0_v0, val_main_c_5, val_main_c, val_main_v20, val_main_v16, val_main_v9, val_main_v8, val_main_cst_1, val_main_v7, val_main_v6, val_main_cst_0, val_main_v5, val_main_v4, val_main_cst, val_main_v1, val_main_v0]
  try rw [← h0]
  try rfl

set_option maxRecDepth 8192 in
set_option maxHeartbeats 40000000 in
/-- After the stretch, main_c_7 holds its stage of the arguments, given that the buffers the stretch reads from before it hold theirs. -/
theorem ck1_main_c_7 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck1 W (Proc.devRef .tc main_c_7) = (val_main_c_7 (F := F)) := by
  after_results_simp
  try simp only [val_main_c_7]

  try rfl

set_option maxRecDepth 8192 in
set_option maxHeartbeats 40000000 in
/-- After the stretch, main_c_8 holds its stage of the arguments, given that the buffers the stretch reads from before it hold theirs. -/
theorem ck1_main_c_8 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck1 W (Proc.devRef .tc main_c_8) = (val_main_c_8 (F := F)) := by
  after_results_simp
  try simp only [val_main_c_8]

  try rfl

set_option maxRecDepth 8192 in
set_option maxHeartbeats 40000000 in
/-- The stretch does not write main_arg0. -/
theorem ck1_pass_main_arg0 (W : Valuation τ sig (Elt F)) : after ck1 W (Proc.devRef .tc main_arg0) = W (Proc.devRef .tc main_arg0) := by
  after_results_simp <;> rfl

set_option maxRecDepth 8192 in
set_option maxHeartbeats 40000000 in
/-- The stretch does not write main_arg1. -/
theorem ck1_pass_main_arg1 (W : Valuation τ sig (Elt F)) : after ck1 W (Proc.devRef .tc main_arg1) = W (Proc.devRef .tc main_arg1) := by
  after_results_simp <;> rfl

set_option maxRecDepth 8192 in
set_option maxHeartbeats 40000000 in
/-- The stretch does not write main_arg2. -/
theorem ck1_pass_main_arg2 (W : Valuation τ sig (Elt F)) : after ck1 W (Proc.devRef .tc main_arg2) = W (Proc.devRef .tc main_arg2) := by
  after_results_simp <;> rfl

set_option maxRecDepth 8192 in
set_option maxHeartbeats 40000000 in
/-- The stretch does not write main_arg3. -/
theorem ck1_pass_main_arg3 (W : Valuation τ sig (Elt F)) : after ck1 W (Proc.devRef .tc main_arg3) = W (Proc.devRef .tc main_arg3) := by
  after_results_simp <;> rfl

set_option maxRecDepth 8192 in
set_option maxHeartbeats 40000000 in
/-- The stretch does not write main_arg4. -/
theorem ck1_pass_main_arg4 (W : Valuation τ sig (Elt F)) : after ck1 W (Proc.devRef .tc main_arg4) = W (Proc.devRef .tc main_arg4) := by
  after_results_simp <;> rfl

set_option maxRecDepth 8192 in
set_option maxHeartbeats 40000000 in
/-- The stretch does not write main_arg5. -/
theorem ck1_pass_main_arg5 (W : Valuation τ sig (Elt F)) : after ck1 W (Proc.devRef .tc main_arg5) = W (Proc.devRef .tc main_arg5) := by
  after_results_simp <;> rfl

set_option maxRecDepth 8192 in
set_option maxHeartbeats 40000000 in
/-- The stretch does not write main_arg6. -/
theorem ck1_pass_main_arg6 (W : Valuation τ sig (Elt F)) : after ck1 W (Proc.devRef .tc main_arg6) = W (Proc.devRef .tc main_arg6) := by
  after_results_simp <;> rfl

set_option maxRecDepth 8192 in
set_option maxHeartbeats 40000000 in
/-- The stretch does not write main_arg7. -/
theorem ck1_pass_main_arg7 (W : Valuation τ sig (Elt F)) : after ck1 W (Proc.devRef .tc main_arg7) = W (Proc.devRef .tc main_arg7) := by
  after_results_simp <;> rfl

set_option maxRecDepth 8192 in
set_option maxHeartbeats 40000000 in
/-- The stretch does not write main_arg8. -/
theorem ck1_pass_main_arg8 (W : Valuation τ sig (Elt F)) : after ck1 W (Proc.devRef .tc main_arg8) = W (Proc.devRef .tc main_arg8) := by
  after_results_simp <;> rfl

set_option maxRecDepth 8192 in
set_option maxHeartbeats 40000000 in
/-- The stretch does not write main_arg9. -/
theorem ck1_pass_main_arg9 (W : Valuation τ sig (Elt F)) : after ck1 W (Proc.devRef .tc main_arg9) = W (Proc.devRef .tc main_arg9) := by
  after_results_simp <;> rfl

end Cert.ReferenceIdeal.Seg

end
-- ==== Proof.RefCk2.lean ====
/-
  The reference's host operations 41 to 80 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck2 : List (HloOp τ sig (Elt F)) :=
  [ TRef.unary (TRef.of (T := ⟨S_, .i32⟩) main_c_7) (TRef.of (T := ⟨S_, .i32⟩) main_call1_v0) id,
    TRef.unary (TRef.of (T := ⟨S_, .i32⟩) main_call1_v0) (TRef.of (T := ⟨S524288, .i32⟩) main_call1_v1) (broadcastInDim S524288 ![] bcast_S_S524288),
    TRef.binary (TRef.of (T := ⟨S524288, .i32⟩) main_call1_v1) (TRef.of (T := ⟨S524288, .i32⟩) main_v23) (TRef.of (T := ⟨S524288, .i32⟩) main_call1_v2) maxsi,
    TRef.unary (TRef.of (T := ⟨S_, .i32⟩) main_c_8) (TRef.of (T := ⟨S_, .i32⟩) main_call1_v3) id,
    TRef.unary (TRef.of (T := ⟨S_, .i32⟩) main_call1_v3) (TRef.of (T := ⟨S524288, .i32⟩) main_call1_v4) (broadcastInDim S524288 ![] bcast_S_S524288),
    TRef.binary (TRef.of (T := ⟨S524288, .i32⟩) main_call1_v4) (TRef.of (T := ⟨S524288, .i32⟩) main_call1_v2) (TRef.of (T := ⟨S524288, .i32⟩) main_v24) minsi,
    unary main_v17 main_v25 (fptosi 32 : (⟨S524288, .f32⟩ : BufTy).Contents (Elt F) → (⟨S524288, .i32⟩ : BufTy).Contents (Elt F)),
    nullary main_c_9 (constantI S_ 32 0#32),
    nullary main_c_10 (constantI S_ 32 63#32),
    TRef.unary (TRef.of (T := ⟨S_, .i32⟩) main_c_9) (TRef.of (T := ⟨S_, .i32⟩) main_call2_v0) id,
    TRef.unary (TRef.of (T := ⟨S_, .i32⟩) main_call2_v0) (TRef.of (T := ⟨S524288, .i32⟩) main_call2_v1) (broadcastInDim S524288 ![] bcast_S_S524288),
    TRef.binary (TRef.of (T := ⟨S524288, .i32⟩) main_call2_v1) (TRef.of (T := ⟨S524288, .i32⟩) main_v25) (TRef.of (T := ⟨S524288, .i32⟩) main_call2_v2) maxsi,
    TRef.unary (TRef.of (T := ⟨S_, .i32⟩) main_c_10) (TRef.of (T := ⟨S_, .i32⟩) main_call2_v3) id,
    TRef.unary (TRef.of (T := ⟨S_, .i32⟩) main_call2_v3) (TRef.of (T := ⟨S524288, .i32⟩) main_call2_v4) (broadcastInDim S524288 ![] bcast_S_S524288),
    TRef.binary (TRef.of (T := ⟨S524288, .i32⟩) main_call2_v4) (TRef.of (T := ⟨S524288, .i32⟩) main_call2_v2) (TRef.of (T := ⟨S524288, .i32⟩) main_v26) minsi,
    nullary main_c_11 (constantI S_ 32 1#32),
    unary main_c_11 main_v27 (broadcastInDim S524288 ![] bcast_S_S524288 : (⟨S_, .i32⟩ : BufTy).Contents (Elt F) → (⟨S524288, .i32⟩ : BufTy).Contents (Elt F)),
    binary main_v26 main_v27 main_v28 (addi : (⟨S524288, .i32⟩ : BufTy).Contents (Elt F) → (⟨S524288, .i32⟩ : BufTy).Contents (Elt F) → (⟨S524288, .i32⟩ : BufTy).Contents (Elt F)),
    nullary main_c_12 (constantI S_ 32 0#32),
    nullary main_c_13 (constantI S_ 32 63#32),
    TRef.unary (TRef.of (T := ⟨S_, .i32⟩) main_c_12) (TRef.of (T := ⟨S_, .i32⟩) main_call3_v0) id,
    TRef.unary (TRef.of (T := ⟨S_, .i32⟩) main_call3_v0) (TRef.of (T := ⟨S524288, .i32⟩) main_call3_v1) (broadcastInDim S524288 ![] bcast_S_S524288),
    TRef.binary (TRef.of (T := ⟨S524288, .i32⟩) main_call3_v1) (TRef.of (T := ⟨S524288, .i32⟩) main_v28) (TRef.of (T := ⟨S524288, .i32⟩) main_call3_v2) maxsi,
    TRef.unary (TRef.of (T := ⟨S_, .i32⟩) main_c_13) (TRef.of (T := ⟨S_, .i32⟩) main_call3_v3) id,
    TRef.unary (TRef.of (T := ⟨S_, .i32⟩) main_call3_v3) (TRef.of (T := ⟨S524288, .i32⟩) main_call3_v4) (broadcastInDim S524288 ![] bcast_S_S524288),
    TRef.binary (TRef.of (T := ⟨S524288, .i32⟩) main_call3_v4) (TRef.of (T := ⟨S524288, .i32⟩) main_call3_v2) (TRef.of (T := ⟨S524288, .i32⟩) main_v29) minsi,
    nullary main_c_14 (constantI S_ 32 0#32),
    unary main_c_14 main_v30 (broadcastInDim S524288 ![] bcast_S_S524288 : (⟨S_, .i32⟩ : BufTy).Contents (Elt F) → (⟨S524288, .i32⟩ : BufTy).Contents (Elt F)),
    binary main_v26 main_v30 main_v31 (cmpi .slt : (⟨S524288, .i32⟩ : BufTy).Contents (Elt F) → (⟨S524288, .i32⟩ : BufTy).Contents (Elt F) → (⟨S524288, .i1⟩ : BufTy).Contents (Elt F)),
    nullary main_c_15 (constantI S_ 32 64#32),
    unary main_c_15 main_v32 (broadcastInDim S524288 ![] bcast_S_S524288 : (⟨S_, .i32⟩ : BufTy).Contents (Elt F) → (⟨S524288, .i32⟩ : BufTy).Contents (Elt F)),
    binary main_v26 main_v32 main_v33 (addi : (⟨S524288, .i32⟩ : BufTy).Contents (Elt F) → (⟨S524288, .i32⟩ : BufTy).Contents (Elt F) → (⟨S524288, .i32⟩ : BufTy).Contents (Elt F)),
    ternary main_v31 main_v33 main_v26 main_v34 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_16 (constantI S_ 32 0#32),
    unary main_c_16 main_v35 (broadcastInDim S524288 ![] bcast_S_S524288 : (⟨S_, .i32⟩ : BufTy).Contents (Elt F) → (⟨S524288, .i32⟩ : BufTy).Contents (Elt F)),
    binary main_v21 main_v35 main_v36 (cmpi .slt : (⟨S524288, .i32⟩ : BufTy).Contents (Elt F) → (⟨S524288, .i32⟩ : BufTy).Contents (Elt F) → (⟨S524288, .i1⟩ : BufTy).Contents (Elt F)),
    nullary main_c_17 (constantI S_ 32 64#32),
    unary main_c_17 main_v37 (broadcastInDim S524288 ![] bcast_S_S524288 : (⟨S_, .i32⟩ : BufTy).Contents (Elt F) → (⟨S524288, .i32⟩ : BufTy).Contents (Elt F)),
    binary main_v21 main_v37 main_v38 (addi : (⟨S524288, .i32⟩ : BufTy).Contents (Elt F) → (⟨S524288, .i32⟩ : BufTy).Contents (Elt F) → (⟨S524288, .i32⟩ : BufTy).Contents (Elt F)),
    ternary main_v36 main_v38 main_v21 main_v39 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)) ]

set_option maxRecDepth 8192 in
set_option maxHeartbeats 40000000 in
/-- After the stretch, main_v24 holds its stage of the arguments, given that the buffers the stretch reads from before it hold theirs. -/
theorem ck2_main_v24 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_c_8) = (val_main_c_8 (F := F)))
    (h1 : W (Proc.devRef .tc main_c_7) = (val_main_c_7 (F := F)))
    (h2 : W (Proc.devRef .tc main_v23) = (val_main_v23 (F := F) x0)) :
    after ck2 W (Proc.devRef .tc main_v24) = (val_main_v24 (F := F) x0) := by
  after_results_simp
  try simp only [val_main_v24, val_main_call1_v4, val_main_call1_v3, val_main_call1_v2, val_main_call1_v1, val_main_call1_v0]
  try rw [← h0]
  try rw [← h1]
  try rw [← h2]
  try rfl

set_option maxRecDepth 8192 in
set_option maxHeartbeats 40000000 in
/-- After the stretch, main_v26 holds its stage of the arguments, given that the buffers the stretch reads from before it hold theirs. -/
theorem ck2_main_v26 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v17) = (val_main_v17 (F := F) x0)) :
    after ck2 W (Proc.devRef .tc main_v26) = (val_main_v26 (F := F) x0) := by
  after_results_simp
  try simp only [val_main_v26, val_main_call2_v4, val_main_call2_v3, val_main_call2_v2, val_main_call2_v1, val_main_call2_v0, val_main_c_10, val_main_c_9, val_main_v25]
  try rw [← h0]
  try rfl

set_option maxRecDepth 8192 in
set_option maxHeartbeats 40000000 in
/-- After the stretch, main_v29 holds its stage of the arguments, given that the buffers the stretch reads from before it hold theirs. -/
theorem ck2_main_v29 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v17) = (val_main_v17 (F := F) x0)) :
    after ck2 W (Proc.devRef .tc main_v29) = (val_main_v29 (F := F) x0) := by
  after_results_simp
  try simp only [val_main_v29, val_main_call3_v4, val_main_call3_v3, val_main_call3_v2, val_main_call3_v1, val_main_call3_v0, val_main_c_13, val_main_c_12, val_main_v28, val_main_v27, val_main_c_11, val_main_v26, val_main_call2_v4, val_main_call2_v3, val_main_call2_v2, val_main_call2_v1, val_main_call2_v0, val_main_c_10, val_main_c_9, val_main_v25]
  try rw [← h0]
  try rfl

set_option maxRecDepth 8192 in
set_option maxHeartbeats 40000000 in
/-- After the stretch, main_v34 holds its stage of the arguments, given that the buffers the stretch reads from before it hold theirs. -/
theorem ck2_main_v34 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v17) = (val_main_v17 (F := F) x0)) :
    after ck2 W (Proc.devRef .tc main_v34) = (val_main_v34 (F := F) x0) := by
  after_results_simp
  try simp only [val_main_v34, val_main_v33, val_main_v32, val_main_c_15, val_main_v31, val_main_v30, val_main_c_14, val_main_v26, val_main_call2_v4, val_main_call2_v3, val_main_call2_v2, val_main_call2_v1, val_main_call2_v0, val_main_c_10, val_main_c_9, val_main_v25]
  try rw [← h0]
  try rfl

set_option maxRecDepth 8192 in
set_option maxHeartbeats 40000000 in
/-- After the stretch, main_v39 holds its stage of the arguments, given that the buffers the stretch reads from before it hold theirs. -/
theorem ck2_main_v39 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v21) = (val_main_v21 (F := F) x0)) :
    after ck2 W (Proc.devRef .tc main_v39) = (val_main_v39 (F := F) x0) := by
  after_results_simp
  try simp only [val_main_v39, val_main_v38, val_main_v37, val_main_c_17, val_main_v36, val_main_v35, val_main_c_16]
  try rw [← h0]
  try rfl

set_option maxRecDepth 8192 in
set_option maxHeartbeats 40000000 in
/-- The stretch does not write main_arg0. -/
theorem ck2_pass_main_arg0 (W : Valuation τ sig (Elt F)) : after ck2 W (Proc.devRef .tc main_arg0) = W (Proc.devRef .tc main_arg0) := by
  after_results_simp <;> rfl

set_option maxRecDepth 8192 in
set_option maxHeartbeats 40000000 in
/-- The stretch does not write main_v21. -/
theorem ck2_pass_main_v21 (W : Valuation τ sig (Elt F)) : after ck2 W (Proc.devRef .tc main_v21) = W (Proc.devRef .tc main_v21) := by
  after_results_simp <;> rfl

set_option maxRecDepth 8192 in
set_option maxHeartbeats 40000000 in
/-- The stretch does not write main_arg1. -/
theorem ck2_pass_main_arg1 (W : Valuation τ sig (Elt F)) : after ck2 W (Proc.devRef .tc main_arg1) = W (Proc.devRef .tc main_arg1) := by
  after_results_simp <;> rfl

set_option maxRecDepth 8192 in
set_option maxHeartbeats 40000000 in
/-- The stretch does not write main_v18. -/
theorem ck2_pass_main_v18 (W : Valuation τ sig (Elt F)) : after ck2 W (Proc.devRef .tc main_v18) = W (Proc.devRef .tc main_v18) := by
  after_results_simp <;> rfl

set_option maxRecDepth 8192 in
set_option maxHeartbeats 40000000 in
/-- The stretch does not write main_v19. -/
theorem ck2_pass_main_v19 (W : Valuation τ sig (Elt F)) : after ck2 W (Proc.devRef .tc main_v19) = W (Proc.devRef .tc main_v19) := by
  after_results_simp <;> rfl

set_option maxRecDepth 8192 in
set_option maxHeartbeats 40000000 in
/-- The stretch does not write main_arg2. -/
theorem ck2_pass_main_arg2 (W : Valuation τ sig (Elt F)) : after ck2 W (Proc.devRef .tc main_arg2) = W (Proc.devRef .tc main_arg2) := by
  after_results_simp <;> rfl

set_option maxRecDepth 8192 in
set_option maxHeartbeats 40000000 in
/-- The stretch does not write main_arg3. -/
theorem ck2_pass_main_arg3 (W : Valuation τ sig (Elt F)) : after ck2 W (Proc.devRef .tc main_arg3) = W (Proc.devRef .tc main_arg3) := by
  after_results_simp <;> rfl

set_option maxRecDepth 8192 in
set_option maxHeartbeats 40000000 in
/-- The stretch does not write main_arg4. -/
theorem ck2_pass_main_arg4 (W : Valuation τ sig (Elt F)) : after ck2 W (Proc.devRef .tc main_arg4) = W (Proc.devRef .tc main_arg4) := by
  after_results_simp <;> rfl

set_option maxRecDepth 8192 in
set_option maxHeartbeats 40000000 in
/-- The stretch does not write main_arg5. -/
theorem ck2_pass_main_arg5 (W : Valuation τ sig (Elt F)) : after ck2 W (Proc.devRef .tc main_arg5) = W (Proc.devRef .tc main_arg5) := by
  after_results_simp <;> rfl

set_option maxRecDepth 8192 in
set_option maxHeartbeats 40000000 in
/-- The stretch does not write main_arg6. -/
theorem ck2_pass_main_arg6 (W : Valuation τ sig (Elt F)) : after ck2 W (Proc.devRef .tc main_arg6) = W (Proc.devRef .tc main_arg6) := by
  after_results_simp <;> rfl

set_option maxRecDepth 8192 in
set_option maxHeartbeats 40000000 in
/-- The stretch does not write main_arg7. -/
theorem ck2_pass_main_arg7 (W : Valuation τ sig (Elt F)) : after ck2 W (Proc.devRef .tc main_arg7) = W (Proc.devRef .tc main_arg7) := by
  after_results_simp <;> rfl

set_option maxRecDepth 8192 in
set_option maxHeartbeats 40000000 in
/-- The stretch does not write main_arg8. -/
theorem ck2_pass_main_arg8 (W : Valuation τ sig (Elt F)) : after ck2 W (Proc.devRef .tc main_arg8) = W (Proc.devRef .tc main_arg8) := by
  after_results_simp <;> rfl

set_option maxRecDepth 8192 in
set_option maxHeartbeats 40000000 in
/-- The stretch does not write main_arg9. -/
theorem ck2_pass_main_arg9 (W : Valuation τ sig (Elt F)) : after ck2 W (Proc.devRef .tc main_arg9) = W (Proc.devRef .tc main_arg9) := by
  after_results_simp <;> rfl

end Cert.ReferenceIdeal.Seg

end
-- ==== Proof.RefCk3.lean ====
/-
  The reference's host operations 81 to 120 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck3 : List (HloOp τ sig (Elt F)) :=
  [ unary main_v34 main_v40 (broadcastInDim S524288x1 ![0] bcast_S524288_S524288x1_0 : (⟨S524288, .i32⟩ : BufTy).Contents (Elt F) → (⟨S524288x1, .i32⟩ : BufTy).Contents (Elt F)),
    unary main_v39 main_v41 (broadcastInDim S524288x1 ![0] bcast_S524288_S524288x1_0 : (⟨S524288, .i32⟩ : BufTy).Contents (Elt F) → (⟨S524288x1, .i32⟩ : BufTy).Contents (Elt F)),
    binary main_v40 main_v41 main_v42 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg1 main_v42 main_v43 ((fun x i => Host.gather gather_S32x64x64_S524288x2_S32x524288_0_12_n_n_12_1_3211 x i) : (⟨S32x64x64, .f32⟩ : BufTy).Contents (Elt F) → (⟨S524288x2, .i32⟩ : BufTy).Contents (Elt F) → (⟨S32x524288, .f32⟩ : BufTy).Contents (Elt F)),
    nullary main_c_18 (constantI S_ 32 0#32),
    unary main_c_18 main_v44 (broadcastInDim S524288 ![] bcast_S_S524288 : (⟨S_, .i32⟩ : BufTy).Contents (Elt F) → (⟨S524288, .i32⟩ : BufTy).Contents (Elt F)),
    binary main_v26 main_v44 main_v45 (cmpi .slt : (⟨S524288, .i32⟩ : BufTy).Contents (Elt F) → (⟨S524288, .i32⟩ : BufTy).Contents (Elt F) → (⟨S524288, .i1⟩ : BufTy).Contents (Elt F)),
    nullary main_c_19 (constantI S_ 32 64#32),
    unary main_c_19 main_v46 (broadcastInDim S524288 ![] bcast_S_S524288 : (⟨S_, .i32⟩ : BufTy).Contents (Elt F) → (⟨S524288, .i32⟩ : BufTy).Contents (Elt F)),
    binary main_v26 main_v46 main_v47 (addi : (⟨S524288, .i32⟩ : BufTy).Contents (Elt F) → (⟨S524288, .i32⟩ : BufTy).Contents (Elt F) → (⟨S524288, .i32⟩ : BufTy).Contents (Elt F)),
    ternary main_v45 main_v47 main_v26 main_v48 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_20 (constantI S_ 32 0#32),
    unary main_c_20 main_v49 (broadcastInDim S524288 ![] bcast_S_S524288 : (⟨S_, .i32⟩ : BufTy).Contents (Elt F) → (⟨S524288, .i32⟩ : BufTy).Contents (Elt F)),
    binary main_v24 main_v49 main_v50 (cmpi .slt : (⟨S524288, .i32⟩ : BufTy).Contents (Elt F) → (⟨S524288, .i32⟩ : BufTy).Contents (Elt F) → (⟨S524288, .i1⟩ : BufTy).Contents (Elt F)),
    nullary main_c_21 (constantI S_ 32 64#32),
    unary main_c_21 main_v51 (broadcastInDim S524288 ![] bcast_S_S524288 : (⟨S_, .i32⟩ : BufTy).Contents (Elt F) → (⟨S524288, .i32⟩ : BufTy).Contents (Elt F)),
    binary main_v24 main_v51 main_v52 (addi : (⟨S524288, .i32⟩ : BufTy).Contents (Elt F) → (⟨S524288, .i32⟩ : BufTy).Contents (Elt F) → (⟨S524288, .i32⟩ : BufTy).Contents (Elt F)),
    ternary main_v50 main_v52 main_v24 main_v53 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v48 main_v54 (broadcastInDim S524288x1 ![0] bcast_S524288_S524288x1_0 : (⟨S524288, .i32⟩ : BufTy).Contents (Elt F) → (⟨S524288x1, .i32⟩ : BufTy).Contents (Elt F)),
    unary main_v53 main_v55 (broadcastInDim S524288x1 ![0] bcast_S524288_S524288x1_0 : (⟨S524288, .i32⟩ : BufTy).Contents (Elt F) → (⟨S524288x1, .i32⟩ : BufTy).Contents (Elt F)),
    binary main_v54 main_v55 main_v56 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg1 main_v56 main_v57 ((fun x i => Host.gather gather_S32x64x64_S524288x2_S32x524288_0_12_n_n_12_1_3211 x i) : (⟨S32x64x64, .f32⟩ : BufTy).Contents (Elt F) → (⟨S524288x2, .i32⟩ : BufTy).Contents (Elt F) → (⟨S32x524288, .f32⟩ : BufTy).Contents (Elt F)),
    nullary main_c_22 (constantI S_ 32 0#32),
    unary main_c_22 main_v58 (broadcastInDim S524288 ![] bcast_S_S524288 : (⟨S_, .i32⟩ : BufTy).Contents (Elt F) → (⟨S524288, .i32⟩ : BufTy).Contents (Elt F)),
    binary main_v29 main_v58 main_v59 (cmpi .slt : (⟨S524288, .i32⟩ : BufTy).Contents (Elt F) → (⟨S524288, .i32⟩ : BufTy).Contents (Elt F) → (⟨S524288, .i1⟩ : BufTy).Contents (Elt F)),
    nullary main_c_23 (constantI S_ 32 64#32),
    unary main_c_23 main_v60 (broadcastInDim S524288 ![] bcast_S_S524288 : (⟨S_, .i32⟩ : BufTy).Contents (Elt F) → (⟨S524288, .i32⟩ : BufTy).Contents (Elt F)),
    binary main_v29 main_v60 main_v61 (addi : (⟨S524288, .i32⟩ : BufTy).Contents (Elt F) → (⟨S524288, .i32⟩ : BufTy).Contents (Elt F) → (⟨S524288, .i32⟩ : BufTy).Contents (Elt F)),
    ternary main_v59 main_v61 main_v29 main_v62 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_24 (constantI S_ 32 0#32),
    unary main_c_24 main_v63 (broadcastInDim S524288 ![] bcast_S_S524288 : (⟨S_, .i32⟩ : BufTy).Contents (Elt F) → (⟨S524288, .i32⟩ : BufTy).Contents (Elt F)),
    binary main_v21 main_v63 main_v64 (cmpi .slt : (⟨S524288, .i32⟩ : BufTy).Contents (Elt F) → (⟨S524288, .i32⟩ : BufTy).Contents (Elt F) → (⟨S524288, .i1⟩ : BufTy).Contents (Elt F)),
    nullary main_c_25 (constantI S_ 32 64#32),
    unary main_c_25 main_v65 (broadcastInDim S524288 ![] bcast_S_S524288 : (⟨S_, .i32⟩ : BufTy).Contents (Elt F) → (⟨S524288, .i32⟩ : BufTy).Contents (Elt F)),
    binary main_v21 main_v65 main_v66 (addi : (⟨S524288, .i32⟩ : BufTy).Contents (Elt F) → (⟨S524288, .i32⟩ : BufTy).Contents (Elt F) → (⟨S524288, .i32⟩ : BufTy).Contents (Elt F)),
    ternary main_v64 main_v66 main_v21 main_v67 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v62 main_v68 (broadcastInDim S524288x1 ![0] bcast_S524288_S524288x1_0 : (⟨S524288, .i32⟩ : BufTy).Contents (Elt F) → (⟨S524288x1, .i32⟩ : BufTy).Contents (Elt F)),
    unary main_v67 main_v69 (broadcastInDim S524288x1 ![0] bcast_S524288_S524288x1_0 : (⟨S524288, .i32⟩ : BufTy).Contents (Elt F) → (⟨S524288x1, .i32⟩ : BufTy).Contents (Elt F)),
    binary main_v68 main_v69 main_v70 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg1 main_v70 main_v71 ((fun x i => Host.gather gather_S32x64x64_S524288x2_S32x524288_0_12_n_n_12_1_3211 x i) : (⟨S32x64x64, .f32⟩ : BufTy).Contents (Elt F) → (⟨S524288x2, .i32⟩ : BufTy).Contents (Elt F) → (⟨S32x524288, .f32⟩ : BufTy).Contents (Elt F)) ]

set_option maxRecDepth 8192 in
set_option maxHeartbeats 40000000 in
/-- After the stretch, main_v43 holds its stage of the arguments, given that the buffers the stretch reads from before it hold theirs. -/
theorem ck3_main_v43 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg1) = x1)
    (h1 : W (Proc.devRef .tc main_v34) = (val_main_v34 (F := F) x0))
    (h2 : W (Proc.devRef .tc main_v39) = (val_main_v39 (F := F) x0)) :
    after ck3 W (Proc.devRef .tc main_v43) = (val_main_v43 (F := F) x0 x1) := by
  after_results_simp
  try simp only [val_main_v43, val_main_v42, val_main_v41, val_main_v40]
  try rw [← h0]
  try rw [← h1]
  try rw [← h2]
  try rfl

set_option maxRecDepth 8192 in
set_option maxHeartbeats 40000000 in
/-- After the stretch, main_v57 holds its stage of the arguments, given that the buffers the stretch reads from before it hold theirs. -/
theorem ck3_main_v57 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg1) = x1)
    (h1 : W (Proc.devRef .tc main_v26) = (val_main_v26 (F := F) x0))
    (h2 : W (Proc.devRef .tc main_v24) = (val_main_v24 (F := F) x0)) :
    after ck3 W (Proc.devRef .tc main_v57) = (val_main_v57 (F := F) x0 x1) := by
  after_results_simp
  try simp only [val_main_v57, val_main_v56, val_main_v55, val_main_v54, val_main_v53, val_main_v52, val_main_v51, val_main_c_21, val_main_v50, val_main_v49, val_main_c_20, val_main_v48, val_main_v47, val_main_v46, val_main_c_19, val_main_v45, val_main_v44, val_main_c_18]
  try rw [← h0]
  try rw [← h1]
  try rw [← h2]
  try rfl

set_option maxRecDepth 8192 in
set_option maxHeartbeats 40000000 in
/-- After the stretch, main_v71 holds its stage of the arguments, given that the buffers the stretch reads from before it hold theirs. -/
theorem ck3_main_v71 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg1) = x1)
    (h1 : W (Proc.devRef .tc main_v29) = (val_main_v29 (F := F) x0))
    (h2 : W (Proc.devRef .tc main_v21) = (val_main_v21 (F := F) x0)) :
    after ck3 W (Proc.devRef .tc main_v71) = (val_main_v71 (F := F) x0 x1) := by
  after_results_simp
  try simp only [val_main_v71, val_main_v70, val_main_v69, val_main_v68, val_main_v67, val_main_v66, val_main_v65, val_main_c_25, val_main_v64, val_main_v63, val_main_c_24, val_main_v62, val_main_v61, val_main_v60, val_main_c_23, val_main_v59, val_main_v58, val_main_c_22]
  try rw [← h0]
  try rw [← h1]
  try rw [← h2]
  try rfl

set_option maxRecDepth 8192 in
set_option maxHeartbeats 40000000 in
/-- The stretch does not write main_arg0. -/
theorem ck3_pass_main_arg0 (W : Valuation τ sig (Elt F)) : after ck3 W (Proc.devRef .tc main_arg0) = W (Proc.devRef .tc main_arg0) := by
  after_results_simp <;> rfl

set_option maxRecDepth 8192 in
set_option maxHeartbeats 40000000 in
/-- The stretch does not write main_arg1. -/
theorem ck3_pass_main_arg1 (W : Valuation τ sig (Elt F)) : after ck3 W (Proc.devRef .tc main_arg1) = W (Proc.devRef .tc main_arg1) := by
  after_results_simp <;> rfl

set_option maxRecDepth 8192 in
set_option maxHeartbeats 40000000 in
/-- The stretch does not write main_v24. -/
theorem ck3_pass_main_v24 (W : Valuation τ sig (Elt F)) : after ck3 W (Proc.devRef .tc main_v24) = W (Proc.devRef .tc main_v24) := by
  after_results_simp <;> rfl

set_option maxRecDepth 8192 in
set_option maxHeartbeats 40000000 in
/-- The stretch does not write main_v29. -/
theorem ck3_pass_main_v29 (W : Valuation τ sig (Elt F)) : after ck3 W (Proc.devRef .tc main_v29) = W (Proc.devRef .tc main_v29) := by
  after_results_simp <;> rfl

set_option maxRecDepth 8192 in
set_option maxHeartbeats 40000000 in
/-- The stretch does not write main_v18. -/
theorem ck3_pass_main_v18 (W : Valuation τ sig (Elt F)) : after ck3 W (Proc.devRef .tc main_v18) = W (Proc.devRef .tc main_v18) := by
  after_results_simp <;> rfl

set_option maxRecDepth 8192 in
set_option maxHeartbeats 40000000 in
/-- The stretch does not write main_v19. -/
theorem ck3_pass_main_v19 (W : Valuation τ sig (Elt F)) : after ck3 W (Proc.devRef .tc main_v19) = W (Proc.devRef .tc main_v19) := by
  after_results_simp <;> rfl

set_option maxRecDepth 8192 in
set_option maxHeartbeats 40000000 in
/-- The stretch does not write main_arg2. -/
theorem ck3_pass_main_arg2 (W : Valuation τ sig (Elt F)) : after ck3 W (Proc.devRef .tc main_arg2) = W (Proc.devRef .tc main_arg2) := by
  after_results_simp <;> rfl

set_option maxRecDepth 8192 in
set_option maxHeartbeats 40000000 in
/-- The stretch does not write main_arg3. -/
theorem ck3_pass_main_arg3 (W : Valuation τ sig (Elt F)) : after ck3 W (Proc.devRef .tc main_arg3) = W (Proc.devRef .tc main_arg3) := by
  after_results_simp <;> rfl

set_option maxRecDepth 8192 in
set_option maxHeartbeats 40000000 in
/-- The stretch does not write main_arg4. -/
theorem ck3_pass_main_arg4 (W : Valuation τ sig (Elt F)) : after ck3 W (Proc.devRef .tc main_arg4) = W (Proc.devRef .tc main_arg4) := by
  after_results_simp <;> rfl

set_option maxRecDepth 8192 in
set_option maxHeartbeats 40000000 in
/-- The stretch does not write main_arg5. -/
theorem ck3_pass_main_arg5 (W : Valuation τ sig (Elt F)) : after ck3 W (Proc.devRef .tc main_arg5) = W (Proc.devRef .tc main_arg5) := by
  after_results_simp <;> rfl

set_option maxRecDepth 8192 in
set_option maxHeartbeats 40000000 in
/-- The stretch does not write main_arg6. -/
theorem ck3_pass_main_arg6 (W : Valuation τ sig (Elt F)) : after ck3 W (Proc.devRef .tc main_arg6) = W (Proc.devRef .tc main_arg6) := by
  after_results_simp <;> rfl

set_option maxRecDepth 8192 in
set_option maxHeartbeats 40000000 in
/-- The stretch does not write main_arg7. -/
theorem ck3_pass_main_arg7 (W : Valuation τ sig (Elt F)) : after ck3 W (Proc.devRef .tc main_arg7) = W (Proc.devRef .tc main_arg7) := by
  after_results_simp <;> rfl

set_option maxRecDepth 8192 in
set_option maxHeartbeats 40000000 in
/-- The stretch does not write main_arg8. -/
theorem ck3_pass_main_arg8 (W : Valuation τ sig (Elt F)) : after ck3 W (Proc.devRef .tc main_arg8) = W (Proc.devRef .tc main_arg8) := by
  after_results_simp <;> rfl

set_option maxRecDepth 8192 in
set_option maxHeartbeats 40000000 in
/-- The stretch does not write main_arg9. -/
theorem ck3_pass_main_arg9 (W : Valuation τ sig (Elt F)) : after ck3 W (Proc.devRef .tc main_arg9) = W (Proc.devRef .tc main_arg9) := by
  after_results_simp <;> rfl

end Cert.ReferenceIdeal.Seg

end
-- ==== Proof.RefCk4.lean ====
/-
  The reference's host operations 121 to 160 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck4 : List (HloOp τ sig (Elt F)) :=
  [ nullary main_c_26 (constantI S_ 32 0#32),
    unary main_c_26 main_v72 (broadcastInDim S524288 ![] bcast_S_S524288 : (⟨S_, .i32⟩ : BufTy).Contents (Elt F) → (⟨S524288, .i32⟩ : BufTy).Contents (Elt F)),
    binary main_v29 main_v72 main_v73 (cmpi .slt : (⟨S524288, .i32⟩ : BufTy).Contents (Elt F) → (⟨S524288, .i32⟩ : BufTy).Contents (Elt F) → (⟨S524288, .i1⟩ : BufTy).Contents (Elt F)),
    nullary main_c_27 (constantI S_ 32 64#32),
    unary main_c_27 main_v74 (broadcastInDim S524288 ![] bcast_S_S524288 : (⟨S_, .i32⟩ : BufTy).Contents (Elt F) → (⟨S524288, .i32⟩ : BufTy).Contents (Elt F)),
    binary main_v29 main_v74 main_v75 (addi : (⟨S524288, .i32⟩ : BufTy).Contents (Elt F) → (⟨S524288, .i32⟩ : BufTy).Contents (Elt F) → (⟨S524288, .i32⟩ : BufTy).Contents (Elt F)),
    ternary main_v73 main_v75 main_v29 main_v76 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_28 (constantI S_ 32 0#32),
    unary main_c_28 main_v77 (broadcastInDim S524288 ![] bcast_S_S524288 : (⟨S_, .i32⟩ : BufTy).Contents (Elt F) → (⟨S524288, .i32⟩ : BufTy).Contents (Elt F)),
    binary main_v24 main_v77 main_v78 (cmpi .slt : (⟨S524288, .i32⟩ : BufTy).Contents (Elt F) → (⟨S524288, .i32⟩ : BufTy).Contents (Elt F) → (⟨S524288, .i1⟩ : BufTy).Contents (Elt F)),
    nullary main_c_29 (constantI S_ 32 64#32),
    unary main_c_29 main_v79 (broadcastInDim S524288 ![] bcast_S_S524288 : (⟨S_, .i32⟩ : BufTy).Contents (Elt F) → (⟨S524288, .i32⟩ : BufTy).Contents (Elt F)),
    binary main_v24 main_v79 main_v80 (addi : (⟨S524288, .i32⟩ : BufTy).Contents (Elt F) → (⟨S524288, .i32⟩ : BufTy).Contents (Elt F) → (⟨S524288, .i32⟩ : BufTy).Contents (Elt F)),
    ternary main_v78 main_v80 main_v24 main_v81 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v76 main_v82 (broadcastInDim S524288x1 ![0] bcast_S524288_S524288x1_0 : (⟨S524288, .i32⟩ : BufTy).Contents (Elt F) → (⟨S524288x1, .i32⟩ : BufTy).Contents (Elt F)),
    unary main_v81 main_v83 (broadcastInDim S524288x1 ![0] bcast_S524288_S524288x1_0 : (⟨S524288, .i32⟩ : BufTy).Contents (Elt F) → (⟨S524288x1, .i32⟩ : BufTy).Contents (Elt F)),
    binary main_v82 main_v83 main_v84 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg1 main_v84 main_v85 ((fun x i => Host.gather gather_S32x64x64_S524288x2_S32x524288_0_12_n_n_12_1_3211 x i) : (⟨S32x64x64, .f32⟩ : BufTy).Contents (Elt F) → (⟨S524288x2, .i32⟩ : BufTy).Contents (Elt F) → (⟨S32x524288, .f32⟩ : BufTy).Contents (Elt F)),
    nullary main_cst_30 (constant S_ .f32 0x3F800000#32),
    unary main_cst_30 main_v86 (broadcastInDim S524288 ![] bcast_S_S524288 : (⟨S_, .f32⟩ : BufTy).Contents (Elt F) → (⟨S524288, .f32⟩ : BufTy).Contents (Elt F)),
    binary main_v86 main_v18 main_v87 (subf : (⟨S524288, .f32⟩ : BufTy).Contents (Elt F) → (⟨S524288, .f32⟩ : BufTy).Contents (Elt F) → (⟨S524288, .f32⟩ : BufTy).Contents (Elt F)),
    unary main_v87 main_v88 (broadcastInDim S1x524288 ![1] bcast_S524288_S1x524288_1 : (⟨S524288, .f32⟩ : BufTy).Contents (Elt F) → (⟨S1x524288, .f32⟩ : BufTy).Contents (Elt F)),
    unary main_v88 main_v89 (broadcastInDim S32x524288 ![0, 1] bcast_S1x524288_S32x524288_0_1 : (⟨S1x524288, .f32⟩ : BufTy).Contents (Elt F) → (⟨S32x524288, .f32⟩ : BufTy).Contents (Elt F)),
    binary main_v43 main_v89 main_v90 (mulf : (⟨S32x524288, .f32⟩ : BufTy).Contents (Elt F) → (⟨S32x524288, .f32⟩ : BufTy).Contents (Elt F) → (⟨S32x524288, .f32⟩ : BufTy).Contents (Elt F)),
    unary main_v18 main_v91 (broadcastInDim S1x524288 ![1] bcast_S524288_S1x524288_1 : (⟨S524288, .f32⟩ : BufTy).Contents (Elt F) → (⟨S1x524288, .f32⟩ : BufTy).Contents (Elt F)),
    unary main_v91 main_v92 (broadcastInDim S32x524288 ![0, 1] bcast_S1x524288_S32x524288_0_1 : (⟨S1x524288, .f32⟩ : BufTy).Contents (Elt F) → (⟨S32x524288, .f32⟩ : BufTy).Contents (Elt F)),
    binary main_v57 main_v92 main_v93 (mulf : (⟨S32x524288, .f32⟩ : BufTy).Contents (Elt F) → (⟨S32x524288, .f32⟩ : BufTy).Contents (Elt F) → (⟨S32x524288, .f32⟩ : BufTy).Contents (Elt F)),
    binary main_v90 main_v93 main_v94 (addf : (⟨S32x524288, .f32⟩ : BufTy).Contents (Elt F) → (⟨S32x524288, .f32⟩ : BufTy).Contents (Elt F) → (⟨S32x524288, .f32⟩ : BufTy).Contents (Elt F)),
    nullary main_cst_31 (constant S_ .f32 0x3F800000#32),
    unary main_cst_31 main_v95 (broadcastInDim S524288 ![] bcast_S_S524288 : (⟨S_, .f32⟩ : BufTy).Contents (Elt F) → (⟨S524288, .f32⟩ : BufTy).Contents (Elt F)),
    binary main_v95 main_v18 main_v96 (subf : (⟨S524288, .f32⟩ : BufTy).Contents (Elt F) → (⟨S524288, .f32⟩ : BufTy).Contents (Elt F) → (⟨S524288, .f32⟩ : BufTy).Contents (Elt F)),
    unary main_v96 main_v97 (broadcastInDim S1x524288 ![1] bcast_S524288_S1x524288_1 : (⟨S524288, .f32⟩ : BufTy).Contents (Elt F) → (⟨S1x524288, .f32⟩ : BufTy).Contents (Elt F)),
    unary main_v97 main_v98 (broadcastInDim S32x524288 ![0, 1] bcast_S1x524288_S32x524288_0_1 : (⟨S1x524288, .f32⟩ : BufTy).Contents (Elt F) → (⟨S32x524288, .f32⟩ : BufTy).Contents (Elt F)),
    binary main_v71 main_v98 main_v99 (mulf : (⟨S32x524288, .f32⟩ : BufTy).Contents (Elt F) → (⟨S32x524288, .f32⟩ : BufTy).Contents (Elt F) → (⟨S32x524288, .f32⟩ : BufTy).Contents (Elt F)),
    unary main_v18 main_v100 (broadcastInDim S1x524288 ![1] bcast_S524288_S1x524288_1 : (⟨S524288, .f32⟩ : BufTy).Contents (Elt F) → (⟨S1x524288, .f32⟩ : BufTy).Contents (Elt F)),
    unary main_v100 main_v101 (broadcastInDim S32x524288 ![0, 1] bcast_S1x524288_S32x524288_0_1 : (⟨S1x524288, .f32⟩ : BufTy).Contents (Elt F) → (⟨S32x524288, .f32⟩ : BufTy).Contents (Elt F)),
    binary main_v85 main_v101 main_v102 (mulf : (⟨S32x524288, .f32⟩ : BufTy).Contents (Elt F) → (⟨S32x524288, .f32⟩ : BufTy).Contents (Elt F) → (⟨S32x524288, .f32⟩ : BufTy).Contents (Elt F)),
    binary main_v99 main_v102 main_v103 (addf : (⟨S32x524288, .f32⟩ : BufTy).Contents (Elt F) → (⟨S32x524288, .f32⟩ : BufTy).Contents (Elt F) → (⟨S32x524288, .f32⟩ : BufTy).Contents (Elt F)),
    nullary main_cst_32 (constant S_ .f32 0x3F800000#32),
    unary main_cst_32 main_v104 (broadcastInDim S524288 ![] bcast_S_S524288 : (⟨S_, .f32⟩ : BufTy).Contents (Elt F) → (⟨S524288, .f32⟩ : BufTy).Contents (Elt F)) ]

set_option maxRecDepth 8192 in
set_option maxHeartbeats 40000000 in
/-- After the stretch, main_v94 holds its stage of the arguments, given that the buffers the stretch reads from before it hold theirs. -/
theorem ck4_main_v94 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v43) = (val_main_v43 (F := F) x0 x1))
    (h1 : W (Proc.devRef .tc main_v18) = (val_main_v18 (F := F) x0))
    (h2 : W (Proc.devRef .tc main_v57) = (val_main_v57 (F := F) x0 x1)) :
    after ck4 W (Proc.devRef .tc main_v94) = (val_main_v94 (F := F) x0 x1) := by
  after_results_simp
  try simp only [val_main_v94, val_main_v93, val_main_v92, val_main_v91, val_main_v90, val_main_v89, val_main_v88, val_main_v87, val_main_v86, val_main_cst_30]
  try rw [← h0]
  try rw [← h1]
  try rw [← h2]
  try rfl

set_option maxRecDepth 8192 in
set_option maxHeartbeats 40000000 in
/-- After the stretch, main_v103 holds its stage of the arguments, given that the buffers the stretch reads from before it hold theirs. -/
theorem ck4_main_v103 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v71) = (val_main_v71 (F := F) x0 x1))
    (h1 : W (Proc.devRef .tc main_v18) = (val_main_v18 (F := F) x0))
    (h2 : W (Proc.devRef .tc main_arg1) = x1)
    (h3 : W (Proc.devRef .tc main_v29) = (val_main_v29 (F := F) x0))
    (h4 : W (Proc.devRef .tc main_v24) = (val_main_v24 (F := F) x0)) :
    after ck4 W (Proc.devRef .tc main_v103) = (val_main_v103 (F := F) x0 x1) := by
  after_results_simp
  try simp only [val_main_v103, val_main_v102, val_main_v101, val_main_v100, val_main_v99, val_main_v98, val_main_v97, val_main_v96, val_main_v95, val_main_cst_31, val_main_v85, val_main_v84, val_main_v83, val_main_v82, val_main_v81, val_main_v80, val_main_v79, val_main_c_29, val_main_v78, val_main_v77, val_main_c_28, val_main_v76, val_main_v75, val_main_v74, val_main_c_27, val_main_v73, val_main_v72, val_main_c_26]
  try rw [← h0]
  try rw [← h1]
  try rw [← h2]
  try rw [← h3]
  try rw [← h4]
  try rfl

set_option maxRecDepth 8192 in
set_option maxHeartbeats 40000000 in
/-- After the stretch, main_v104 holds its stage of the arguments, given that the buffers the stretch reads from before it hold theirs. -/
theorem ck4_main_v104 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck4 W (Proc.devRef .tc main_v104) = (val_main_v104 (F := F)) := by
  after_results_simp
  try simp only [val_main_v104, val_main_cst_32]

  try rfl

set_option maxRecDepth 8192 in
set_option maxHeartbeats 40000000 in
/-- The stretch does not write main_arg0. -/
theorem ck4_pass_main_arg0 (W : Valuation τ sig (Elt F)) : after ck4 W (Proc.devRef .tc main_arg0) = W (Proc.devRef .tc main_arg0) := by
  after_results_simp <;> rfl

set_option maxRecDepth 8192 in
set_option maxHeartbeats 40000000 in
/-- The stretch does not write main_arg1. -/
theorem ck4_pass_main_arg1 (W : Valuation τ sig (Elt F)) : after ck4 W (Proc.devRef .tc main_arg1) = W (Proc.devRef .tc main_arg1) := by
  after_results_simp <;> rfl

set_option maxRecDepth 8192 in
set_option maxHeartbeats 40000000 in
/-- The stretch does not write main_v19. -/
theorem ck4_pass_main_v19 (W : Valuation τ sig (Elt F)) : after ck4 W (Proc.devRef .tc main_v19) = W (Proc.devRef .tc main_v19) := by
  after_results_simp <;> rfl

set_option maxRecDepth 8192 in
set_option maxHeartbeats 40000000 in
/-- The stretch does not write main_arg2. -/
theorem ck4_pass_main_arg2 (W : Valuation τ sig (Elt F)) : after ck4 W (Proc.devRef .tc main_arg2) = W (Proc.devRef .tc main_arg2) := by
  after_results_simp <;> rfl

set_option maxRecDepth 8192 in
set_option maxHeartbeats 40000000 in
/-- The stretch does not write main_arg3. -/
theorem ck4_pass_main_arg3 (W : Valuation τ sig (Elt F)) : after ck4 W (Proc.devRef .tc main_arg3) = W (Proc.devRef .tc main_arg3) := by
  after_results_simp <;> rfl

set_option maxRecDepth 8192 in
set_option maxHeartbeats 40000000 in
/-- The stretch does not write main_arg4. -/
theorem ck4_pass_main_arg4 (W : Valuation τ sig (Elt F)) : after ck4 W (Proc.devRef .tc main_arg4) = W (Proc.devRef .tc main_arg4) := by
  after_results_simp <;> rfl

set_option maxRecDepth 8192 in
set_option maxHeartbeats 40000000 in
/-- The stretch does not write main_arg5. -/
theorem ck4_pass_main_arg5 (W : Valuation τ sig (Elt F)) : after ck4 W (Proc.devRef .tc main_arg5) = W (Proc.devRef .tc main_arg5) := by
  after_results_simp <;> rfl

set_option maxRecDepth 8192 in
set_option maxHeartbeats 40000000 in
/-- The stretch does not write main_arg6. -/
theorem ck4_pass_main_arg6 (W : Valuation τ sig (Elt F)) : after ck4 W (Proc.devRef .tc main_arg6) = W (Proc.devRef .tc main_arg6) := by
  after_results_simp <;> rfl

set_option maxRecDepth 8192 in
set_option maxHeartbeats 40000000 in
/-- The stretch does not write main_arg7. -/
theorem ck4_pass_main_arg7 (W : Valuation τ sig (Elt F)) : after ck4 W (Proc.devRef .tc main_arg7) = W (Proc.devRef .tc main_arg7) := by
  after_results_simp <;> rfl

set_option maxRecDepth 8192 in
set_option maxHeartbeats 40000000 in
/-- The stretch does not write main_arg8. -/
theorem ck4_pass_main_arg8 (W : Valuation τ sig (Elt F)) : after ck4 W (Proc.devRef .tc main_arg8) = W (Proc.devRef .tc main_arg8) := by
  after_results_simp <;> rfl

set_option maxRecDepth 8192 in
set_option maxHeartbeats 40000000 in
/-- The stretch does not write main_arg9. -/
theorem ck4_pass_main_arg9 (W : Valuation τ sig (Elt F)) : after ck4 W (Proc.devRef .tc main_arg9) = W (Proc.devRef .tc main_arg9) := by
  after_results_simp <;> rfl

end Cert.ReferenceIdeal.Seg

end
-- ==== Proof.RefCk5.lean ====
/-
  The reference's host operations 161 to 200 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck5 : List (HloOp τ sig (Elt F)) :=
  [ binary main_v104 main_v19 main_v105 (subf : (⟨S524288, .f32⟩ : BufTy).Contents (Elt F) → (⟨S524288, .f32⟩ : BufTy).Contents (Elt F) → (⟨S524288, .f32⟩ : BufTy).Contents (Elt F)),
    unary main_v105 main_v106 (broadcastInDim S1x524288 ![1] bcast_S524288_S1x524288_1 : (⟨S524288, .f32⟩ : BufTy).Contents (Elt F) → (⟨S1x524288, .f32⟩ : BufTy).Contents (Elt F)),
    unary main_v106 main_v107 (broadcastInDim S32x524288 ![0, 1] bcast_S1x524288_S32x524288_0_1 : (⟨S1x524288, .f32⟩ : BufTy).Contents (Elt F) → (⟨S32x524288, .f32⟩ : BufTy).Contents (Elt F)),
    binary main_v94 main_v107 main_v108 (mulf : (⟨S32x524288, .f32⟩ : BufTy).Contents (Elt F) → (⟨S32x524288, .f32⟩ : BufTy).Contents (Elt F) → (⟨S32x524288, .f32⟩ : BufTy).Contents (Elt F)),
    unary main_v19 main_v109 (broadcastInDim S1x524288 ![1] bcast_S524288_S1x524288_1 : (⟨S524288, .f32⟩ : BufTy).Contents (Elt F) → (⟨S1x524288, .f32⟩ : BufTy).Contents (Elt F)),
    unary main_v109 main_v110 (broadcastInDim S32x524288 ![0, 1] bcast_S1x524288_S32x524288_0_1 : (⟨S1x524288, .f32⟩ : BufTy).Contents (Elt F) → (⟨S32x524288, .f32⟩ : BufTy).Contents (Elt F)),
    binary main_v103 main_v110 main_v111 (mulf : (⟨S32x524288, .f32⟩ : BufTy).Contents (Elt F) → (⟨S32x524288, .f32⟩ : BufTy).Contents (Elt F) → (⟨S32x524288, .f32⟩ : BufTy).Contents (Elt F)),
    binary main_v108 main_v111 main_v112 (addf : (⟨S32x524288, .f32⟩ : BufTy).Contents (Elt F) → (⟨S32x524288, .f32⟩ : BufTy).Contents (Elt F) → (⟨S32x524288, .f32⟩ : BufTy).Contents (Elt F)),
    nullary main_cst_33 (constant S_ .f32 0x3F800000#32),
    unary main_cst_33 main_v113 (broadcastInDim S32x524288 ![] bcast_S_S32x524288 : (⟨S_, .f32⟩ : BufTy).Contents (Elt F) → (⟨S32x524288, .f32⟩ : BufTy).Contents (Elt F)),
    binary main_v113 main_v112 main_v114 (mulf : (⟨S32x524288, .f32⟩ : BufTy).Contents (Elt F) → (⟨S32x524288, .f32⟩ : BufTy).Contents (Elt F) → (⟨S32x524288, .f32⟩ : BufTy).Contents (Elt F)),
    unary main_arg0 main_v115 ((extractStridedSlice S524288x1 ![0, 0] · slices_S524288x3_S524288x1_0_0) : (⟨S524288x3, .f32⟩ : BufTy).Contents (Elt F) → (⟨S524288x1, .f32⟩ : BufTy).Contents (Elt F)),
    reshape main_v115 main_v116 rfl shapeCasts_S524288x1_S524288,
    unary main_arg0 main_v117 ((extractStridedSlice S524288x1 ![0, 2] · slices_S524288x3_S524288x1_0_2) : (⟨S524288x3, .f32⟩ : BufTy).Contents (Elt F) → (⟨S524288x1, .f32⟩ : BufTy).Contents (Elt F)),
    reshape main_v117 main_v118 rfl shapeCasts_S524288x1_S524288,
    nullary main_cst_34 (constant S_ .f32 0x3F800000#32),
    unary main_cst_34 main_v119 (broadcastInDim S524288 ![] bcast_S_S524288 : (⟨S_, .f32⟩ : BufTy).Contents (Elt F) → (⟨S524288, .f32⟩ : BufTy).Contents (Elt F)),
    binary main_v116 main_v119 main_v120 (addf : (⟨S524288, .f32⟩ : BufTy).Contents (Elt F) → (⟨S524288, .f32⟩ : BufTy).Contents (Elt F) → (⟨S524288, .f32⟩ : BufTy).Contents (Elt F)),
    nullary main_cst_35 (constant S_ .f32 0x3F000000#32),
    unary main_cst_35 main_v121 (broadcastInDim S524288 ![] bcast_S_S524288 : (⟨S_, .f32⟩ : BufTy).Contents (Elt F) → (⟨S524288, .f32⟩ : BufTy).Contents (Elt F)),
    binary main_v120 main_v121 main_v122 (mulf : (⟨S524288, .f32⟩ : BufTy).Contents (Elt F) → (⟨S524288, .f32⟩ : BufTy).Contents (Elt F) → (⟨S524288, .f32⟩ : BufTy).Contents (Elt F)),
    nullary main_cst_36 (constant S_ .f32 0x427C0000#32),
    unary main_cst_36 main_v123 (broadcastInDim S524288 ![] bcast_S_S524288 : (⟨S_, .f32⟩ : BufTy).Contents (Elt F) → (⟨S524288, .f32⟩ : BufTy).Contents (Elt F)),
    binary main_v122 main_v123 main_v124 (mulf : (⟨S524288, .f32⟩ : BufTy).Contents (Elt F) → (⟨S524288, .f32⟩ : BufTy).Contents (Elt F) → (⟨S524288, .f32⟩ : BufTy).Contents (Elt F)),
    nullary main_cst_37 (constant S_ .f32 0x3F800000#32),
    unary main_cst_37 main_v125 (broadcastInDim S524288 ![] bcast_S_S524288 : (⟨S_, .f32⟩ : BufTy).Contents (Elt F) → (⟨S524288, .f32⟩ : BufTy).Contents (Elt F)),
    binary main_v118 main_v125 main_v126 (addf : (⟨S524288, .f32⟩ : BufTy).Contents (Elt F) → (⟨S524288, .f32⟩ : BufTy).Contents (Elt F) → (⟨S524288, .f32⟩ : BufTy).Contents (Elt F)),
    nullary main_cst_38 (constant S_ .f32 0x3F000000#32),
    unary main_cst_38 main_v127 (broadcastInDim S524288 ![] bcast_S_S524288 : (⟨S_, .f32⟩ : BufTy).Contents (Elt F) → (⟨S524288, .f32⟩ : BufTy).Contents (Elt F)),
    binary main_v126 main_v127 main_v128 (mulf : (⟨S524288, .f32⟩ : BufTy).Contents (Elt F) → (⟨S524288, .f32⟩ : BufTy).Contents (Elt F) → (⟨S524288, .f32⟩ : BufTy).Contents (Elt F)),
    nullary main_cst_39 (constant S_ .f32 0x427C0000#32),
    unary main_cst_39 main_v129 (broadcastInDim S524288 ![] bcast_S_S524288 : (⟨S_, .f32⟩ : BufTy).Contents (Elt F) → (⟨S524288, .f32⟩ : BufTy).Contents (Elt F)),
    binary main_v128 main_v129 main_v130 (mulf : (⟨S524288, .f32⟩ : BufTy).Contents (Elt F) → (⟨S524288, .f32⟩ : BufTy).Contents (Elt F) → (⟨S524288, .f32⟩ : BufTy).Contents (Elt F)),
    unary main_v124 main_v131 (Host.floor : (⟨S524288, .f32⟩ : BufTy).Contents (Elt F) → (⟨S524288, .f32⟩ : BufTy).Contents (Elt F)),
    unary main_v130 main_v132 (Host.floor : (⟨S524288, .f32⟩ : BufTy).Contents (Elt F) → (⟨S524288, .f32⟩ : BufTy).Contents (Elt F)),
    binary main_v124 main_v131 main_v133 (subf : (⟨S524288, .f32⟩ : BufTy).Contents (Elt F) → (⟨S524288, .f32⟩ : BufTy).Contents (Elt F) → (⟨S524288, .f32⟩ : BufTy).Contents (Elt F)),
    binary main_v130 main_v132 main_v134 (subf : (⟨S524288, .f32⟩ : BufTy).Contents (Elt F) → (⟨S524288, .f32⟩ : BufTy).Contents (Elt F) → (⟨S524288, .f32⟩ : BufTy).Contents (Elt F)),
    unary main_v131 main_v135 (fptosi 32 : (⟨S524288, .f32⟩ : BufTy).Contents (Elt F) → (⟨S524288, .i32⟩ : BufTy).Contents (Elt F)),
    nullary main_c_40 (constantI S_ 32 0#32),
    nullary main_c_41 (constantI S_ 32 63#32) ]

set_option maxRecDepth 8192 in
set_option maxHeartbeats 40000000 in
/-- After the stretch, main_v114 holds its stage of the arguments, given that the buffers the stretch reads from before it hold theirs. -/
theorem ck5_main_v114 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v94) = (val_main_v94 (F := F) x0 x1))
    (h1 : W (Proc.devRef .tc main_v104) = (val_main_v104 (F := F)))
    (h2 : W (Proc.devRef .tc main_v19) = (val_main_v19 (F := F) x0))
    (h3 : W (Proc.devRef .tc main_v103) = (val_main_v103 (F := F) x0 x1)) :
    after ck5 W (Proc.devRef .tc main_v114) = (val_main_v114 (F := F) x0 x1) := by
  after_results_simp
  try simp only [val_main_v114, val_main_v113, val_main_cst_33, val_main_v112, val_main_v111, val_main_v110, val_main_v109, val_main_v108, val_main_v107, val_main_v106, val_main_v105]
  try rw [← h0]
  try rw [← h1]
  try rw [← h2]
  try rw [← h3]
  try rfl

set_option maxRecDepth 8192 in
set_option maxHeartbeats 40000000 in
/-- After the stretch, main_v132 holds its stage of the arguments, given that the buffers the stretch reads from before it hold theirs. -/
theorem ck5_main_v132 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck5 W (Proc.devRef .tc main_v132) = (val_main_v132 (F := F) x0) := by
  after_results_simp
  try simp only [val_main_v132, val_main_v130, val_main_v129, val_main_cst_39, val_main_v128, val_main_v127, val_main_cst_38, val_main_v126, val_main_v125, val_main_cst_37, val_main_v118, val_main_v117]
  try rw [← h0]
  try rfl

set_option maxRecDepth 8192 in
set_option maxHeartbeats 40000000 in
/-- After the stretch, main_v133 holds its stage of the arguments, given that the buffers the stretch reads from before it hold theirs. -/
theorem ck5_main_v133 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck5 W (Proc.devRef .tc main_v133) = (val_main_v133 (F := F) x0) := by
  after_results_simp
  try simp only [val_main_v133, val_main_v131, val_main_v124, val_main_v123, val_main_cst_36, val_main_v122, val_main_v121, val_main_cst_35, val_main_v120, val_main_v119, val_main_cst_34, val_main_v116, val_main_v115]
  try rw [← h0]
  try rfl

set_option maxRecDepth 8192 in
set_option maxHeartbeats 40000000 in
/-- After the stretch, main_v134 holds its stage of the arguments, given that the buffers the stretch reads from before it hold theirs. -/
theorem ck5_main_v134 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck5 W (Proc.devRef .tc main_v134) = (val_main_v134 (F := F) x0) := by
  after_results_simp
  try simp only [val_main_v134, val_main_v132, val_main_v130, val_main_v129, val_main_cst_39, val_main_v128, val_main_v127, val_main_cst_38, val_main_v126, val_main_v125, val_main_cst_37, val_main_v118, val_main_v117]
  try rw [← h0]
  try rfl

set_option maxRecDepth 8192 in
set_option maxHeartbeats 40000000 in
/-- After the stretch, main_v135 holds its stage of the arguments, given that the buffers the stretch reads from before it hold theirs. -/
theorem ck5_main_v135 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck5 W (Proc.devRef .tc main_v135) = (val_main_v135 (F := F) x0) := by
  after_results_simp
  try simp only [val_main_v135, val_main_v131, val_main_v124, val_main_v123, val_main_cst_36, val_main_v122, val_main_v121, val_main_cst_35, val_main_v120, val_main_v119, val_main_cst_34, val_main_v116, val_main_v115]
  try rw [← h0]
  try rfl

set_option maxRecDepth 8192 in
set_option maxHeartbeats 40000000 in
/-- After the stretch, main_c_40 holds its stage of the arguments, given that the buffers the stretch reads from before it hold theirs. -/
theorem ck5_main_c_40 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck5 W (Proc.devRef .tc main_c_40) = (val_main_c_40 (F := F)) := by
  after_results_simp
  try simp only [val_main_c_40]

  try rfl

set_option maxRecDepth 8192 in
set_option maxHeartbeats 40000000 in
/-- After the stretch, main_c_41 holds its stage of the arguments, given that the buffers the stretch reads from before it hold theirs. -/
theorem ck5_main_c_41 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck5 W (Proc.devRef .tc main_c_41) = (val_main_c_41 (F := F)) := by
  after_results_simp
  try simp only [val_main_c_41]

  try rfl

set_option maxRecDepth 8192 in
set_option maxHeartbeats 40000000 in
/-- The stretch does not write main_arg0. -/
theorem ck5_pass_main_arg0 (W : Valuation τ sig (Elt F)) : after ck5 W (Proc.devRef .tc main_arg0) = W (Proc.devRef .tc main_arg0) := by
  after_results_simp <;> rfl

set_option maxRecDepth 8192 in
set_option maxHeartbeats 40000000 in
/-- The stretch does not write main_arg1. -/
theorem ck5_pass_main_arg1 (W : Valuation τ sig (Elt F)) : after ck5 W (Proc.devRef .tc main_arg1) = W (Proc.devRef .tc main_arg1) := by
  after_results_simp <;> rfl

set_option maxRecDepth 8192 in
set_option maxHeartbeats 40000000 in
/-- The stretch does not write main_arg2. -/
theorem ck5_pass_main_arg2 (W : Valuation τ sig (Elt F)) : after ck5 W (Proc.devRef .tc main_arg2) = W (Proc.devRef .tc main_arg2) := by
  after_results_simp <;> rfl

set_option maxRecDepth 8192 in
set_option maxHeartbeats 40000000 in
/-- The stretch does not write main_arg3. -/
theorem ck5_pass_main_arg3 (W : Valuation τ sig (Elt F)) : after ck5 W (Proc.devRef .tc main_arg3) = W (Proc.devRef .tc main_arg3) := by
  after_results_simp <;> rfl

set_option maxRecDepth 8192 in
set_option maxHeartbeats 40000000 in
/-- The stretch does not write main_arg4. -/
theorem ck5_pass_main_arg4 (W : Valuation τ sig (Elt F)) : after ck5 W (Proc.devRef .tc main_arg4) = W (Proc.devRef .tc main_arg4) := by
  after_results_simp <;> rfl

set_option maxRecDepth 8192 in
set_option maxHeartbeats 40000000 in
/-- The stretch does not write main_arg5. -/
theorem ck5_pass_main_arg5 (W : Valuation τ sig (Elt F)) : after ck5 W (Proc.devRef .tc main_arg5) = W (Proc.devRef .tc main_arg5) := by
  after_results_simp <;> rfl

set_option maxRecDepth 8192 in
set_option maxHeartbeats 40000000 in
/-- The stretch does not write main_arg6. -/
theorem ck5_pass_main_arg6 (W : Valuation τ sig (Elt F)) : after ck5 W (Proc.devRef .tc main_arg6) = W (Proc.devRef .tc main_arg6) := by
  after_results_simp <;> rfl

set_option maxRecDepth 8192 in
set_option maxHeartbeats 40000000 in
/-- The stretch does not write main_arg7. -/
theorem ck5_pass_main_arg7 (W : Valuation τ sig (Elt F)) : after ck5 W (Proc.devRef .tc main_arg7) = W (Proc.devRef .tc main_arg7) := by
  after_results_simp <;> rfl

set_option maxRecDepth 8192 in
set_option maxHeartbeats 40000000 in
/-- The stretch does not write main_arg8. -/
theorem ck5_pass_main_arg8 (W : Valuation τ sig (Elt F)) : after ck5 W (Proc.devRef .tc main_arg8) = W (Proc.devRef .tc main_arg8) := by
  after_results_simp <;> rfl

set_option maxRecDepth 8192 in
set_option maxHeartbeats 40000000 in
/-- The stretch does not write main_arg9. -/
theorem ck5_pass_main_arg9 (W : Valuation τ sig (Elt F)) : after ck5 W (Proc.devRef .tc main_arg9) = W (Proc.devRef .tc main_arg9) := by
  after_results_simp <;> rfl

end Cert.ReferenceIdeal.Seg

end
-- ==== Proof.RefCk6.lean ====
/-
  The reference's host operations 201 to 240 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck6 : List (HloOp τ sig (Elt F)) :=
  [ TRef.unary (TRef.of (T := ⟨S_, .i32⟩) main_c_40) (TRef.of (T := ⟨S_, .i32⟩) main_call4_v0) id,
    TRef.unary (TRef.of (T := ⟨S_, .i32⟩) main_call4_v0) (TRef.of (T := ⟨S524288, .i32⟩) main_call4_v1) (broadcastInDim S524288 ![] bcast_S_S524288),
    TRef.binary (TRef.of (T := ⟨S524288, .i32⟩) main_call4_v1) (TRef.of (T := ⟨S524288, .i32⟩) main_v135) (TRef.of (T := ⟨S524288, .i32⟩) main_call4_v2) maxsi,
    TRef.unary (TRef.of (T := ⟨S_, .i32⟩) main_c_41) (TRef.of (T := ⟨S_, .i32⟩) main_call4_v3) id,
    TRef.unary (TRef.of (T := ⟨S_, .i32⟩) main_call4_v3) (TRef.of (T := ⟨S524288, .i32⟩) main_call4_v4) (broadcastInDim S524288 ![] bcast_S_S524288),
    TRef.binary (TRef.of (T := ⟨S524288, .i32⟩) main_call4_v4) (TRef.of (T := ⟨S524288, .i32⟩) main_call4_v2) (TRef.of (T := ⟨S524288, .i32⟩) main_v136) minsi,
    nullary main_c_42 (constantI S_ 32 1#32),
    unary main_c_42 main_v137 (broadcastInDim S524288 ![] bcast_S_S524288 : (⟨S_, .i32⟩ : BufTy).Contents (Elt F) → (⟨S524288, .i32⟩ : BufTy).Contents (Elt F)),
    binary main_v136 main_v137 main_v138 (addi : (⟨S524288, .i32⟩ : BufTy).Contents (Elt F) → (⟨S524288, .i32⟩ : BufTy).Contents (Elt F) → (⟨S524288, .i32⟩ : BufTy).Contents (Elt F)),
    nullary main_c_43 (constantI S_ 32 0#32),
    nullary main_c_44 (constantI S_ 32 63#32),
    TRef.unary (TRef.of (T := ⟨S_, .i32⟩) main_c_43) (TRef.of (T := ⟨S_, .i32⟩) main_call5_v0) id,
    TRef.unary (TRef.of (T := ⟨S_, .i32⟩) main_call5_v0) (TRef.of (T := ⟨S524288, .i32⟩) main_call5_v1) (broadcastInDim S524288 ![] bcast_S_S524288),
    TRef.binary (TRef.of (T := ⟨S524288, .i32⟩) main_call5_v1) (TRef.of (T := ⟨S524288, .i32⟩) main_v138) (TRef.of (T := ⟨S524288, .i32⟩) main_call5_v2) maxsi,
    TRef.unary (TRef.of (T := ⟨S_, .i32⟩) main_c_44) (TRef.of (T := ⟨S_, .i32⟩) main_call5_v3) id,
    TRef.unary (TRef.of (T := ⟨S_, .i32⟩) main_call5_v3) (TRef.of (T := ⟨S524288, .i32⟩) main_call5_v4) (broadcastInDim S524288 ![] bcast_S_S524288),
    TRef.binary (TRef.of (T := ⟨S524288, .i32⟩) main_call5_v4) (TRef.of (T := ⟨S524288, .i32⟩) main_call5_v2) (TRef.of (T := ⟨S524288, .i32⟩) main_v139) minsi,
    unary main_v132 main_v140 (fptosi 32 : (⟨S524288, .f32⟩ : BufTy).Contents (Elt F) → (⟨S524288, .i32⟩ : BufTy).Contents (Elt F)),
    nullary main_c_45 (constantI S_ 32 0#32),
    nullary main_c_46 (constantI S_ 32 63#32),
    TRef.unary (TRef.of (T := ⟨S_, .i32⟩) main_c_45) (TRef.of (T := ⟨S_, .i32⟩) main_call6_v0) id,
    TRef.unary (TRef.of (T := ⟨S_, .i32⟩) main_call6_v0) (TRef.of (T := ⟨S524288, .i32⟩) main_call6_v1) (broadcastInDim S524288 ![] bcast_S_S524288),
    TRef.binary (TRef.of (T := ⟨S524288, .i32⟩) main_call6_v1) (TRef.of (T := ⟨S524288, .i32⟩) main_v140) (TRef.of (T := ⟨S524288, .i32⟩) main_call6_v2) maxsi,
    TRef.unary (TRef.of (T := ⟨S_, .i32⟩) main_c_46) (TRef.of (T := ⟨S_, .i32⟩) main_call6_v3) id,
    TRef.unary (TRef.of (T := ⟨S_, .i32⟩) main_call6_v3) (TRef.of (T := ⟨S524288, .i32⟩) main_call6_v4) (broadcastInDim S524288 ![] bcast_S_S524288),
    TRef.binary (TRef.of (T := ⟨S524288, .i32⟩) main_call6_v4) (TRef.of (T := ⟨S524288, .i32⟩) main_call6_v2) (TRef.of (T := ⟨S524288, .i32⟩) main_v141) minsi,
    nullary main_c_47 (constantI S_ 32 1#32),
    unary main_c_47 main_v142 (broadcastInDim S524288 ![] bcast_S_S524288 : (⟨S_, .i32⟩ : BufTy).Contents (Elt F) → (⟨S524288, .i32⟩ : BufTy).Contents (Elt F)),
    binary main_v141 main_v142 main_v143 (addi : (⟨S524288, .i32⟩ : BufTy).Contents (Elt F) → (⟨S524288, .i32⟩ : BufTy).Contents (Elt F) → (⟨S524288, .i32⟩ : BufTy).Contents (Elt F)),
    nullary main_c_48 (constantI S_ 32 0#32),
    nullary main_c_49 (constantI S_ 32 63#32),
    TRef.unary (TRef.of (T := ⟨S_, .i32⟩) main_c_48) (TRef.of (T := ⟨S_, .i32⟩) main_call7_v0) id,
    TRef.unary (TRef.of (T := ⟨S_, .i32⟩) main_call7_v0) (TRef.of (T := ⟨S524288, .i32⟩) main_call7_v1) (broadcastInDim S524288 ![] bcast_S_S524288),
    TRef.binary (TRef.of (T := ⟨S524288, .i32⟩) main_call7_v1) (TRef.of (T := ⟨S524288, .i32⟩) main_v143) (TRef.of (T := ⟨S524288, .i32⟩) main_call7_v2) maxsi,
    TRef.unary (TRef.of (T := ⟨S_, .i32⟩) main_c_49) (TRef.of (T := ⟨S_, .i32⟩) main_call7_v3) id,
    TRef.unary (TRef.of (T := ⟨S_, .i32⟩) main_call7_v3) (TRef.of (T := ⟨S524288, .i32⟩) main_call7_v4) (broadcastInDim S524288 ![] bcast_S_S524288),
    TRef.binary (TRef.of (T := ⟨S524288, .i32⟩) main_call7_v4) (TRef.of (T := ⟨S524288, .i32⟩) main_call7_v2) (TRef.of (T := ⟨S524288, .i32⟩) main_v144) minsi,
    nullary main_c_50 (constantI S_ 32 0#32),
    unary main_c_50 main_v145 (broadcastInDim S524288 ![] bcast_S_S524288 : (⟨S_, .i32⟩ : BufTy).Contents (Elt F) → (⟨S524288, .i32⟩ : BufTy).Contents (Elt F)),
    binary main_v141 main_v145 main_v146 (cmpi .slt : (⟨S524288, .i32⟩ : BufTy).Contents (Elt F) → (⟨S524288, .i32⟩ : BufTy).Contents (Elt F) → (⟨S524288, .i1⟩ : BufTy).Contents (Elt F)) ]

set_option maxRecDepth 8192 in
set_option maxHeartbeats 40000000 in
/-- After the stretch, main_v136 holds its stage of the arguments, given that the buffers the stretch reads from before it hold theirs. -/
theorem ck6_main_v136 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_c_41) = (val_main_c_41 (F := F)))
    (h1 : W (Proc.devRef .tc main_c_40) = (val_main_c_40 (F := F)))
    (h2 : W (Proc.devRef .tc main_v135) = (val_main_v135 (F := F) x0)) :
    after ck6 W (Proc.devRef .tc main_v136) = (val_main_v136 (F := F) x0) := by
  after_results_simp
  try simp only [val_main_v136, val_main_call4_v4, val_main_call4_v3, val_main_call4_v2, val_main_call4_v1, val_main_call4_v0]
  try rw [← h0]
  try rw [← h1]
  try rw [← h2]
  try rfl

set_option maxRecDepth 8192 in
set_option maxHeartbeats 40000000 in
/-- After the stretch, main_v139 holds its stage of the arguments, given that the buffers the stretch reads from before it hold theirs. -/
theorem ck6_main_v139 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_c_41) = (val_main_c_41 (F := F)))
    (h1 : W (Proc.devRef .tc main_c_40) = (val_main_c_40 (F := F)))
    (h2 : W (Proc.devRef .tc main_v135) = (val_main_v135 (F := F) x0)) :
    after ck6 W (Proc.devRef .tc main_v139) = (val_main_v139 (F := F) x0) := by
  after_results_simp
  try simp only [val_main_v139, val_main_call5_v4, val_main_call5_v3, val_main_call5_v2, val_main_call5_v1, val_main_call5_v0, val_main_c_44, val_main_c_43, val_main_v138, val_main_v137, val_main_c_42, val_main_v136, val_main_call4_v4, val_main_call4_v3, val_main_call4_v2, val_main_call4_v1, val_main_call4_v0]
  try rw [← h0]
  try rw [← h1]
  try rw [← h2]
  try rfl

set_option maxRecDepth 8192 in
set_option maxHeartbeats 40000000 in
/-- After the stretch, main_v141 holds its stage of the arguments, given that the buffers the stretch reads from before it hold theirs. -/
theorem ck6_main_v141 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v132) = (val_main_v132 (F := F) x0)) :
    after ck6 W (Proc.devRef .tc main_v141) = (val_main_v141 (F := F) x0) := by
  after_results_simp
  try simp only [val_main_v141, val_main_call6_v4, val_main_call6_v3, val_main_call6_v2, val_main_call6_v1, val_main_call6_v0, val_main_c_46, val_main_c_45, val_main_v140]
  try rw [← h0]
  try rfl

set_option maxRecDepth 8192 in
set_option maxHeartbeats 40000000 in
/-- After the stretch, main_v144 holds its stage of the arguments, given that the buffers the stretch reads from before it hold theirs. -/
theorem ck6_main_v144 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v132) = (val_main_v132 (F := F) x0)) :
    after ck6 W (Proc.devRef .tc main_v144) = (val_main_v144 (F := F) x0) := by
  after_results_simp
  try simp only [val_main_v144, val_main_call7_v4, val_main_call7_v3, val_main_call7_v2, val_main_call7_v1, val_main_call7_v0, val_main_c_49, val_main_c_48, val_main_v143, val_main_v142, val_main_c_47, val_main_v141, val_main_call6_v4, val_main_call6_v3, val_main_call6_v2, val_main_call6_v1, val_main_call6_v0, val_main_c_46, val_main_c_45, val_main_v140]
  try rw [← h0]
  try rfl

set_option maxRecDepth 8192 in
set_option maxHeartbeats 40000000 in
/-- After the stretch, main_v146 holds its stage of the arguments, given that the buffers the stretch reads from before it hold theirs. -/
theorem ck6_main_v146 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v132) = (val_main_v132 (F := F) x0)) :
    after ck6 W (Proc.devRef .tc main_v146) = (val_main_v146 (F := F) x0) := by
  after_results_simp
  try simp only [val_main_v146, val_main_v145, val_main_c_50, val_main_v141, val_main_call6_v4, val_main_call6_v3, val_main_call6_v2, val_main_call6_v1, val_main_call6_v0, val_main_c_46, val_main_c_45, val_main_v140]
  try rw [← h0]
  try rfl

set_option maxRecDepth 8192 in
set_option maxHeartbeats 40000000 in
/-- The stretch does not write main_arg0. -/
theorem ck6_pass_main_arg0 (W : Valuation τ sig (Elt F)) : after ck6 W (Proc.devRef .tc main_arg0) = W (Proc.devRef .tc main_arg0) := by
  after_results_simp <;> rfl

set_option maxRecDepth 8192 in
set_option maxHeartbeats 40000000 in
/-- The stretch does not write main_arg1. -/
theorem ck6_pass_main_arg1 (W : Valuation τ sig (Elt F)) : after ck6 W (Proc.devRef .tc main_arg1) = W (Proc.devRef .tc main_arg1) := by
  after_results_simp <;> rfl

set_option maxRecDepth 8192 in
set_option maxHeartbeats 40000000 in
/-- The stretch does not write main_arg2. -/
theorem ck6_pass_main_arg2 (W : Valuation τ sig (Elt F)) : after ck6 W (Proc.devRef .tc main_arg2) = W (Proc.devRef .tc main_arg2) := by
  after_results_simp <;> rfl

set_option maxRecDepth 8192 in
set_option maxHeartbeats 40000000 in
/-- The stretch does not write main_v133. -/
theorem ck6_pass_main_v133 (W : Valuation τ sig (Elt F)) : after ck6 W (Proc.devRef .tc main_v133) = W (Proc.devRef .tc main_v133) := by
  after_results_simp <;> rfl

set_option maxRecDepth 8192 in
set_option maxHeartbeats 40000000 in
/-- The stretch does not write main_v134. -/
theorem ck6_pass_main_v134 (W : Valuation τ sig (Elt F)) : after ck6 W (Proc.devRef .tc main_v134) = W (Proc.devRef .tc main_v134) := by
  after_results_simp <;> rfl

set_option maxRecDepth 8192 in
set_option maxHeartbeats 40000000 in
/-- The stretch does not write main_v114. -/
theorem ck6_pass_main_v114 (W : Valuation τ sig (Elt F)) : after ck6 W (Proc.devRef .tc main_v114) = W (Proc.devRef .tc main_v114) := by
  after_results_simp <;> rfl

set_option maxRecDepth 8192 in
set_option maxHeartbeats 40000000 in
/-- The stretch does not write main_arg3. -/
theorem ck6_pass_main_arg3 (W : Valuation τ sig (Elt F)) : after ck6 W (Proc.devRef .tc main_arg3) = W (Proc.devRef .tc main_arg3) := by
  after_results_simp <;> rfl

set_option maxRecDepth 8192 in
set_option maxHeartbeats 40000000 in
/-- The stretch does not write main_arg4. -/
theorem ck6_pass_main_arg4 (W : Valuation τ sig (Elt F)) : after ck6 W (Proc.devRef .tc main_arg4) = W (Proc.devRef .tc main_arg4) := by
  after_results_simp <;> rfl

set_option maxRecDepth 8192 in
set_option maxHeartbeats 40000000 in
/-- The stretch does not write main_arg5. -/
theorem ck6_pass_main_arg5 (W : Valuation τ sig (Elt F)) : after ck6 W (Proc.devRef .tc main_arg5) = W (Proc.devRef .tc main_arg5) := by
  after_results_simp <;> rfl

set_option maxRecDepth 8192 in
set_option maxHeartbeats 40000000 in
/-- The stretch does not write main_arg6. -/
theorem ck6_pass_main_arg6 (W : Valuation τ sig (Elt F)) : after ck6 W (Proc.devRef .tc main_arg6) = W (Proc.devRef .tc main_arg6) := by
  after_results_simp <;> rfl

set_option maxRecDepth 8192 in
set_option maxHeartbeats 40000000 in
/-- The stretch does not write main_arg7. -/
theorem ck6_pass_main_arg7 (W : Valuation τ sig (Elt F)) : after ck6 W (Proc.devRef .tc main_arg7) = W (Proc.devRef .tc main_arg7) := by
  after_results_simp <;> rfl

set_option maxRecDepth 8192 in
set_option maxHeartbeats 40000000 in
/-- The stretch does not write main_arg8. -/
theorem ck6_pass_main_arg8 (W : Valuation τ sig (Elt F)) : after ck6 W (Proc.devRef .tc main_arg8) = W (Proc.devRef .tc main_arg8) := by
  after_results_simp <;> rfl

set_option maxRecDepth 8192 in
set_option maxHeartbeats 40000000 in
/-- The stretch does not write main_arg9. -/
theorem ck6_pass_main_arg9 (W : Valuation τ sig (Elt F)) : after ck6 W (Proc.devRef .tc main_arg9) = W (Proc.devRef .tc main_arg9) := by
  after_results_simp <;> rfl

end Cert.ReferenceIdeal.Seg

end
-- ==== Proof.RefCk7.lean ====
/-
  The reference's host operations 241 to 280 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck7 : List (HloOp τ sig (Elt F)) :=
  [ nullary main_c_51 (constantI S_ 32 64#32),
    unary main_c_51 main_v147 (broadcastInDim S524288 ![] bcast_S_S524288 : (⟨S_, .i32⟩ : BufTy).Contents (Elt F) → (⟨S524288, .i32⟩ : BufTy).Contents (Elt F)),
    binary main_v141 main_v147 main_v148 (addi : (⟨S524288, .i32⟩ : BufTy).Contents (Elt F) → (⟨S524288, .i32⟩ : BufTy).Contents (Elt F) → (⟨S524288, .i32⟩ : BufTy).Contents (Elt F)),
    ternary main_v146 main_v148 main_v141 main_v149 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_52 (constantI S_ 32 0#32),
    unary main_c_52 main_v150 (broadcastInDim S524288 ![] bcast_S_S524288 : (⟨S_, .i32⟩ : BufTy).Contents (Elt F) → (⟨S524288, .i32⟩ : BufTy).Contents (Elt F)),
    binary main_v136 main_v150 main_v151 (cmpi .slt : (⟨S524288, .i32⟩ : BufTy).Contents (Elt F) → (⟨S524288, .i32⟩ : BufTy).Contents (Elt F) → (⟨S524288, .i1⟩ : BufTy).Contents (Elt F)),
    nullary main_c_53 (constantI S_ 32 64#32),
    unary main_c_53 main_v152 (broadcastInDim S524288 ![] bcast_S_S524288 : (⟨S_, .i32⟩ : BufTy).Contents (Elt F) → (⟨S524288, .i32⟩ : BufTy).Contents (Elt F)),
    binary main_v136 main_v152 main_v153 (addi : (⟨S524288, .i32⟩ : BufTy).Contents (Elt F) → (⟨S524288, .i32⟩ : BufTy).Contents (Elt F) → (⟨S524288, .i32⟩ : BufTy).Contents (Elt F)),
    ternary main_v151 main_v153 main_v136 main_v154 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v149 main_v155 (broadcastInDim S524288x1 ![0] bcast_S524288_S524288x1_0 : (⟨S524288, .i32⟩ : BufTy).Contents (Elt F) → (⟨S524288x1, .i32⟩ : BufTy).Contents (Elt F)),
    unary main_v154 main_v156 (broadcastInDim S524288x1 ![0] bcast_S524288_S524288x1_0 : (⟨S524288, .i32⟩ : BufTy).Contents (Elt F) → (⟨S524288x1, .i32⟩ : BufTy).Contents (Elt F)),
    binary main_v155 main_v156 main_v157 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg2 main_v157 main_v158 ((fun x i => Host.gather gather_S32x64x64_S524288x2_S32x524288_0_12_n_n_12_1_3211 x i) : (⟨S32x64x64, .f32⟩ : BufTy).Contents (Elt F) → (⟨S524288x2, .i32⟩ : BufTy).Contents (Elt F) → (⟨S32x524288, .f32⟩ : BufTy).Contents (Elt F)),
    nullary main_c_54 (constantI S_ 32 0#32),
    unary main_c_54 main_v159 (broadcastInDim S524288 ![] bcast_S_S524288 : (⟨S_, .i32⟩ : BufTy).Contents (Elt F) → (⟨S524288, .i32⟩ : BufTy).Contents (Elt F)),
    binary main_v141 main_v159 main_v160 (cmpi .slt : (⟨S524288, .i32⟩ : BufTy).Contents (Elt F) → (⟨S524288, .i32⟩ : BufTy).Contents (Elt F) → (⟨S524288, .i1⟩ : BufTy).Contents (Elt F)),
    nullary main_c_55 (constantI S_ 32 64#32),
    unary main_c_55 main_v161 (broadcastInDim S524288 ![] bcast_S_S524288 : (⟨S_, .i32⟩ : BufTy).Contents (Elt F) → (⟨S524288, .i32⟩ : BufTy).Contents (Elt F)),
    binary main_v141 main_v161 main_v162 (addi : (⟨S524288, .i32⟩ : BufTy).Contents (Elt F) → (⟨S524288, .i32⟩ : BufTy).Contents (Elt F) → (⟨S524288, .i32⟩ : BufTy).Contents (Elt F)),
    ternary main_v160 main_v162 main_v141 main_v163 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_56 (constantI S_ 32 0#32),
    unary main_c_56 main_v164 (broadcastInDim S524288 ![] bcast_S_S524288 : (⟨S_, .i32⟩ : BufTy).Contents (Elt F) → (⟨S524288, .i32⟩ : BufTy).Contents (Elt F)),
    binary main_v139 main_v164 main_v165 (cmpi .slt : (⟨S524288, .i32⟩ : BufTy).Contents (Elt F) → (⟨S524288, .i32⟩ : BufTy).Contents (Elt F) → (⟨S524288, .i1⟩ : BufTy).Contents (Elt F)),
    nullary main_c_57 (constantI S_ 32 64#32),
    unary main_c_57 main_v166 (broadcastInDim S524288 ![] bcast_S_S524288 : (⟨S_, .i32⟩ : BufTy).Contents (Elt F) → (⟨S524288, .i32⟩ : BufTy).Contents (Elt F)),
    binary main_v139 main_v166 main_v167 (addi : (⟨S524288, .i32⟩ : BufTy).Contents (Elt F) → (⟨S524288, .i32⟩ : BufTy).Contents (Elt F) → (⟨S524288, .i32⟩ : BufTy).Contents (Elt F)),
    ternary main_v165 main_v167 main_v139 main_v168 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v163 main_v169 (broadcastInDim S524288x1 ![0] bcast_S524288_S524288x1_0 : (⟨S524288, .i32⟩ : BufTy).Contents (Elt F) → (⟨S524288x1, .i32⟩ : BufTy).Contents (Elt F)),
    unary main_v168 main_v170 (broadcastInDim S524288x1 ![0] bcast_S524288_S524288x1_0 : (⟨S524288, .i32⟩ : BufTy).Contents (Elt F) → (⟨S524288x1, .i32⟩ : BufTy).Contents (Elt F)),
    binary main_v169 main_v170 main_v171 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg2 main_v171 main_v172 ((fun x i => Host.gather gather_S32x64x64_S524288x2_S32x524288_0_12_n_n_12_1_3211 x i) : (⟨S32x64x64, .f32⟩ : BufTy).Contents (Elt F) → (⟨S524288x2, .i32⟩ : BufTy).Contents (Elt F) → (⟨S32x524288, .f32⟩ : BufTy).Contents (Elt F)),
    nullary main_c_58 (constantI S_ 32 0#32),
    unary main_c_58 main_v173 (broadcastInDim S524288 ![] bcast_S_S524288 : (⟨S_, .i32⟩ : BufTy).Contents (Elt F) → (⟨S524288, .i32⟩ : BufTy).Contents (Elt F)),
    binary main_v144 main_v173 main_v174 (cmpi .slt : (⟨S524288, .i32⟩ : BufTy).Contents (Elt F) → (⟨S524288, .i32⟩ : BufTy).Contents (Elt F) → (⟨S524288, .i1⟩ : BufTy).Contents (Elt F)),
    nullary main_c_59 (constantI S_ 32 64#32),
    unary main_c_59 main_v175 (broadcastInDim S524288 ![] bcast_S_S524288 : (⟨S_, .i32⟩ : BufTy).Contents (Elt F) → (⟨S524288, .i32⟩ : BufTy).Contents (Elt F)),
    binary main_v144 main_v175 main_v176 (addi : (⟨S524288, .i32⟩ : BufTy).Contents (Elt F) → (⟨S524288, .i32⟩ : BufTy).Contents (Elt F) → (⟨S524288, .i32⟩ : BufTy).Contents (Elt F)),
    ternary main_v174 main_v176 main_v144 main_v177 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)) ]

set_option maxRecDepth 8192 in
set_option maxHeartbeats 40000000 in
/-- After the stretch, main_v158 holds its stage of the arguments, given that the buffers the stretch reads from before it hold theirs. -/
theorem ck7_main_v158 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg2) = x2)
    (h1 : W (Proc.devRef .tc main_v146) = (val_main_v146 (F := F) x0))
    (h2 : W (Proc.devRef .tc main_v141) = (val_main_v141 (F := F) x0))
    (h3 : W (Proc.devRef .tc main_v136) = (val_main_v136 (F := F) x0)) :
    after ck7 W (Proc.devRef .tc main_v158) = (val_main_v158 (F := F) x0 x2) := by
  after_results_simp
  try simp only [val_main_v158, val_main_v157, val_main_v156, val_main_v155, val_main_v154, val_main_v153, val_main_v152, val_main_c_53, val_main_v151, val_main_v150, val_main_c_52, val_main_v149, val_main_v148, val_main_v147, val_main_c_51]
  try rw [← h0]
  try rw [← h1]
  try rw [← h2]
  try rw [← h3]
  try rfl

set_option maxRecDepth 8192 in
set_option maxHeartbeats 40000000 in
/-- After the stretch, main_v172 holds its stage of the arguments, given that the buffers the stretch reads from before it hold theirs. -/
theorem ck7_main_v172 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg2) = x2)
    (h1 : W (Proc.devRef .tc main_v141) = (val_main_v141 (F := F) x0))
    (h2 : W (Proc.devRef .tc main_v139) = (val_main_v139 (F := F) x0)) :
    after ck7 W (Proc.devRef .tc main_v172) = (val_main_v172 (F := F) x0 x2) := by
  after_results_simp
  try simp only [val_main_v172, val_main_v171, val_main_v170, val_main_v169, val_main_v168, val_main_v167, val_main_v166, val_main_c_57, val_main_v165, val_main_v164, val_main_c_56, val_main_v163, val_main_v162, val_main_v161, val_main_c_55, val_main_v160, val_main_v159, val_main_c_54]
  try rw [← h0]
  try rw [← h1]
  try rw [← h2]
  try rfl

set_option maxRecDepth 8192 in
set_option maxHeartbeats 40000000 in
/-- After the stretch, main_v177 holds its stage of the arguments, given that the buffers the stretch reads from before it hold theirs. -/
theorem ck7_main_v177 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v144) = (val_main_v144 (F := F) x0)) :
    after ck7 W (Proc.devRef .tc main_v177) = (val_main_v177 (F := F) x0) := by
  after_results_simp
  try simp only [val_main_v177, val_main_v176, val_main_v175, val_main_c_59, val_main_v174, val_main_v173, val_main_c_58]
  try rw [← h0]
  try rfl

set_option maxRecDepth 8192 in
set_option maxHeartbeats 40000000 in
/-- The stretch does not write main_arg0. -/
theorem ck7_pass_main_arg0 (W : Valuation τ sig (Elt F)) : after ck7 W (Proc.devRef .tc main_arg0) = W (Proc.devRef .tc main_arg0) := by
  after_results_simp <;> rfl

set_option maxRecDepth 8192 in
set_option maxHeartbeats 40000000 in
/-- The stretch does not write main_arg1. -/
theorem ck7_pass_main_arg1 (W : Valuation τ sig (Elt F)) : after ck7 W (Proc.devRef .tc main_arg1) = W (Proc.devRef .tc main_arg1) := by
  after_results_simp <;> rfl

set_option maxRecDepth 8192 in
set_option maxHeartbeats 40000000 in
/-- The stretch does not write main_v136. -/
theorem ck7_pass_main_v136 (W : Valuation τ sig (Elt F)) : after ck7 W (Proc.devRef .tc main_v136) = W (Proc.devRef .tc main_v136) := by
  after_results_simp <;> rfl

set_option maxRecDepth 8192 in
set_option maxHeartbeats 40000000 in
/-- The stretch does not write main_arg2. -/
theorem ck7_pass_main_arg2 (W : Valuation τ sig (Elt F)) : after ck7 W (Proc.devRef .tc main_arg2) = W (Proc.devRef .tc main_arg2) := by
  after_results_simp <;> rfl

set_option maxRecDepth 8192 in
set_option maxHeartbeats 40000000 in
/-- The stretch does not write main_v139. -/
theorem ck7_pass_main_v139 (W : Valuation τ sig (Elt F)) : after ck7 W (Proc.devRef .tc main_v139) = W (Proc.devRef .tc main_v139) := by
  after_results_simp <;> rfl

set_option maxRecDepth 8192 in
set_option maxHeartbeats 40000000 in
/-- The stretch does not write main_v144. -/
theorem ck7_pass_main_v144 (W : Valuation τ sig (Elt F)) : after ck7 W (Proc.devRef .tc main_v144) = W (Proc.devRef .tc main_v144) := by
  after_results_simp <;> rfl

set_option maxRecDepth 8192 in
set_option maxHeartbeats 40000000 in
/-- The stretch does not write main_v133. -/
theorem ck7_pass_main_v133 (W : Valuation τ sig (Elt F)) : after ck7 W (Proc.devRef .tc main_v133) = W (Proc.devRef .tc main_v133) := by
  after_results_simp <;> rfl

set_option maxRecDepth 8192 in
set_option maxHeartbeats 40000000 in
/-- The stretch does not write main_v134. -/
theorem ck7_pass_main_v134 (W : Valuation τ sig (Elt F)) : after ck7 W (Proc.devRef .tc main_v134) = W (Proc.devRef .tc main_v134) := by
  after_results_simp <;> rfl

set_option maxRecDepth 8192 in
set_option maxHeartbeats 40000000 in
/-- The stretch does not write main_v114. -/
theorem ck7_pass_main_v114 (W : Valuation τ sig (Elt F)) : after ck7 W (Proc.devRef .tc main_v114) = W (Proc.devRef .tc main_v114) := by
  after_results_simp <;> rfl

set_option maxRecDepth 8192 in
set_option maxHeartbeats 40000000 in
/-- The stretch does not write main_arg3. -/
theorem ck7_pass_main_arg3 (W : Valuation τ sig (Elt F)) : after ck7 W (Proc.devRef .tc main_arg3) = W (Proc.devRef .tc main_arg3) := by
  after_results_simp <;> rfl

set_option maxRecDepth 8192 in
set_option maxHeartbeats 40000000 in
/-- The stretch does not write main_arg4. -/
theorem ck7_pass_main_arg4 (W : Valuation τ sig (Elt F)) : after ck7 W (Proc.devRef .tc main_arg4) = W (Proc.devRef .tc main_arg4) := by
  after_results_simp <;> rfl

set_option maxRecDepth 8192 in
set_option maxHeartbeats 40000000 in
/-- The stretch does not write main_arg5. -/
theorem ck7_pass_main_arg5 (W : Valuation τ sig (Elt F)) : after ck7 W (Proc.devRef .tc main_arg5) = W (Proc.devRef .tc main_arg5) := by
  after_results_simp <;> rfl

set_option maxRecDepth 8192 in
set_option maxHeartbeats 40000000 in
/-- The stretch does not write main_arg6. -/
theorem ck7_pass_main_arg6 (W : Valuation τ sig (Elt F)) : after ck7 W (Proc.devRef .tc main_arg6) = W (Proc.devRef .tc main_arg6) := by
  after_results_simp <;> rfl

set_option maxRecDepth 8192 in
set_option maxHeartbeats 40000000 in
/-- The stretch does not write main_arg7. -/
theorem ck7_pass_main_arg7 (W : Valuation τ sig (Elt F)) : after ck7 W (Proc.devRef .tc main_arg7) = W (Proc.devRef .tc main_arg7) := by
  after_results_simp <;> rfl

set_option maxRecDepth 8192 in
set_option maxHeartbeats 40000000 in
/-- The stretch does not write main_arg8. -/
theorem ck7_pass_main_arg8 (W : Valuation τ sig (Elt F)) : after ck7 W (Proc.devRef .tc main_arg8) = W (Proc.devRef .tc main_arg8) := by
  after_results_simp <;> rfl

set_option maxRecDepth 8192 in
set_option maxHeartbeats 40000000 in
/-- The stretch does not write main_arg9. -/
theorem ck7_pass_main_arg9 (W : Valuation τ sig (Elt F)) : after ck7 W (Proc.devRef .tc main_arg9) = W (Proc.devRef .tc main_arg9) := by
  after_results_simp <;> rfl

end Cert.ReferenceIdeal.Seg

end
-- ==== Proof.RefCk8.lean ====
/-
  The reference's host operations 281 to 320 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck8 : List (HloOp τ sig (Elt F)) :=
  [ nullary main_c_60 (constantI S_ 32 0#32),
    unary main_c_60 main_v178 (broadcastInDim S524288 ![] bcast_S_S524288 : (⟨S_, .i32⟩ : BufTy).Contents (Elt F) → (⟨S524288, .i32⟩ : BufTy).Contents (Elt F)),
    binary main_v136 main_v178 main_v179 (cmpi .slt : (⟨S524288, .i32⟩ : BufTy).Contents (Elt F) → (⟨S524288, .i32⟩ : BufTy).Contents (Elt F) → (⟨S524288, .i1⟩ : BufTy).Contents (Elt F)),
    nullary main_c_61 (constantI S_ 32 64#32),
    unary main_c_61 main_v180 (broadcastInDim S524288 ![] bcast_S_S524288 : (⟨S_, .i32⟩ : BufTy).Contents (Elt F) → (⟨S524288, .i32⟩ : BufTy).Contents (Elt F)),
    binary main_v136 main_v180 main_v181 (addi : (⟨S524288, .i32⟩ : BufTy).Contents (Elt F) → (⟨S524288, .i32⟩ : BufTy).Contents (Elt F) → (⟨S524288, .i32⟩ : BufTy).Contents (Elt F)),
    ternary main_v179 main_v181 main_v136 main_v182 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v177 main_v183 (broadcastInDim S524288x1 ![0] bcast_S524288_S524288x1_0 : (⟨S524288, .i32⟩ : BufTy).Contents (Elt F) → (⟨S524288x1, .i32⟩ : BufTy).Contents (Elt F)),
    unary main_v182 main_v184 (broadcastInDim S524288x1 ![0] bcast_S524288_S524288x1_0 : (⟨S524288, .i32⟩ : BufTy).Contents (Elt F) → (⟨S524288x1, .i32⟩ : BufTy).Contents (Elt F)),
    binary main_v183 main_v184 main_v185 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg2 main_v185 main_v186 ((fun x i => Host.gather gather_S32x64x64_S524288x2_S32x524288_0_12_n_n_12_1_3211 x i) : (⟨S32x64x64, .f32⟩ : BufTy).Contents (Elt F) → (⟨S524288x2, .i32⟩ : BufTy).Contents (Elt F) → (⟨S32x524288, .f32⟩ : BufTy).Contents (Elt F)),
    nullary main_c_62 (constantI S_ 32 0#32),
    unary main_c_62 main_v187 (broadcastInDim S524288 ![] bcast_S_S524288 : (⟨S_, .i32⟩ : BufTy).Contents (Elt F) → (⟨S524288, .i32⟩ : BufTy).Contents (Elt F)),
    binary main_v144 main_v187 main_v188 (cmpi .slt : (⟨S524288, .i32⟩ : BufTy).Contents (Elt F) → (⟨S524288, .i32⟩ : BufTy).Contents (Elt F) → (⟨S524288, .i1⟩ : BufTy).Contents (Elt F)),
    nullary main_c_63 (constantI S_ 32 64#32),
    unary main_c_63 main_v189 (broadcastInDim S524288 ![] bcast_S_S524288 : (⟨S_, .i32⟩ : BufTy).Contents (Elt F) → (⟨S524288, .i32⟩ : BufTy).Contents (Elt F)),
    binary main_v144 main_v189 main_v190 (addi : (⟨S524288, .i32⟩ : BufTy).Contents (Elt F) → (⟨S524288, .i32⟩ : BufTy).Contents (Elt F) → (⟨S524288, .i32⟩ : BufTy).Contents (Elt F)),
    ternary main_v188 main_v190 main_v144 main_v191 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_64 (constantI S_ 32 0#32),
    unary main_c_64 main_v192 (broadcastInDim S524288 ![] bcast_S_S524288 : (⟨S_, .i32⟩ : BufTy).Contents (Elt F) → (⟨S524288, .i32⟩ : BufTy).Contents (Elt F)),
    binary main_v139 main_v192 main_v193 (cmpi .slt : (⟨S524288, .i32⟩ : BufTy).Contents (Elt F) → (⟨S524288, .i32⟩ : BufTy).Contents (Elt F) → (⟨S524288, .i1⟩ : BufTy).Contents (Elt F)),
    nullary main_c_65 (constantI S_ 32 64#32),
    unary main_c_65 main_v194 (broadcastInDim S524288 ![] bcast_S_S524288 : (⟨S_, .i32⟩ : BufTy).Contents (Elt F) → (⟨S524288, .i32⟩ : BufTy).Contents (Elt F)),
    binary main_v139 main_v194 main_v195 (addi : (⟨S524288, .i32⟩ : BufTy).Contents (Elt F) → (⟨S524288, .i32⟩ : BufTy).Contents (Elt F) → (⟨S524288, .i32⟩ : BufTy).Contents (Elt F)),
    ternary main_v193 main_v195 main_v139 main_v196 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v191 main_v197 (broadcastInDim S524288x1 ![0] bcast_S524288_S524288x1_0 : (⟨S524288, .i32⟩ : BufTy).Contents (Elt F) → (⟨S524288x1, .i32⟩ : BufTy).Contents (Elt F)),
    unary main_v196 main_v198 (broadcastInDim S524288x1 ![0] bcast_S524288_S524288x1_0 : (⟨S524288, .i32⟩ : BufTy).Contents (Elt F) → (⟨S524288x1, .i32⟩ : BufTy).Contents (Elt F)),
    binary main_v197 main_v198 main_v199 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg2 main_v199 main_v200 ((fun x i => Host.gather gather_S32x64x64_S524288x2_S32x524288_0_12_n_n_12_1_3211 x i) : (⟨S32x64x64, .f32⟩ : BufTy).Contents (Elt F) → (⟨S524288x2, .i32⟩ : BufTy).Contents (Elt F) → (⟨S32x524288, .f32⟩ : BufTy).Contents (Elt F)),
    nullary main_cst_66 (constant S_ .f32 0x3F800000#32),
    unary main_cst_66 main_v201 (broadcastInDim S524288 ![] bcast_S_S524288 : (⟨S_, .f32⟩ : BufTy).Contents (Elt F) → (⟨S524288, .f32⟩ : BufTy).Contents (Elt F)),
    binary main_v201 main_v133 main_v202 (subf : (⟨S524288, .f32⟩ : BufTy).Contents (Elt F) → (⟨S524288, .f32⟩ : BufTy).Contents (Elt F) → (⟨S524288, .f32⟩ : BufTy).Contents (Elt F)),
    unary main_v202 main_v203 (broadcastInDim S1x524288 ![1] bcast_S524288_S1x524288_1 : (⟨S524288, .f32⟩ : BufTy).Contents (Elt F) → (⟨S1x524288, .f32⟩ : BufTy).Contents (Elt F)),
    unary main_v203 main_v204 (broadcastInDim S32x524288 ![0, 1] bcast_S1x524288_S32x524288_0_1 : (⟨S1x524288, .f32⟩ : BufTy).Contents (Elt F) → (⟨S32x524288, .f32⟩ : BufTy).Contents (Elt F)),
    binary main_v158 main_v204 main_v205 (mulf : (⟨S32x524288, .f32⟩ : BufTy).Contents (Elt F) → (⟨S32x524288, .f32⟩ : BufTy).Contents (Elt F) → (⟨S32x524288, .f32⟩ : BufTy).Contents (Elt F)),
    unary main_v133 main_v206 (broadcastInDim S1x524288 ![1] bcast_S524288_S1x524288_1 : (⟨S524288, .f32⟩ : BufTy).Contents (Elt F) → (⟨S1x524288, .f32⟩ : BufTy).Contents (Elt F)),
    unary main_v206 main_v207 (broadcastInDim S32x524288 ![0, 1] bcast_S1x524288_S32x524288_0_1 : (⟨S1x524288, .f32⟩ : BufTy).Contents (Elt F) → (⟨S32x524288, .f32⟩ : BufTy).Contents (Elt F)),
    binary main_v172 main_v207 main_v208 (mulf : (⟨S32x524288, .f32⟩ : BufTy).Contents (Elt F) → (⟨S32x524288, .f32⟩ : BufTy).Contents (Elt F) → (⟨S32x524288, .f32⟩ : BufTy).Contents (Elt F)),
    binary main_v205 main_v208 main_v209 (addf : (⟨S32x524288, .f32⟩ : BufTy).Contents (Elt F) → (⟨S32x524288, .f32⟩ : BufTy).Contents (Elt F) → (⟨S32x524288, .f32⟩ : BufTy).Contents (Elt F)),
    nullary main_cst_67 (constant S_ .f32 0x3F800000#32) ]

set_option maxRecDepth 8192 in
set_option maxHeartbeats 40000000 in
/-- After the stretch, main_v186 holds its stage of the arguments, given that the buffers the stretch reads from before it hold theirs. -/
theorem ck8_main_v186 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg2) = x2)
    (h1 : W (Proc.devRef .tc main_v177) = (val_main_v177 (F := F) x0))
    (h2 : W (Proc.devRef .tc main_v136) = (val_main_v136 (F := F) x0)) :
    after ck8 W (Proc.devRef .tc main_v186) = (val_main_v186 (F := F) x0 x2) := by
  after_results_simp
  try simp only [val_main_v186, val_main_v185, val_main_v184, val_main_v183, val_main_v182, val_main_v181, val_main_v180, val_main_c_61, val_main_v179, val_main_v178, val_main_c_60]
  try rw [← h0]
  try rw [← h1]
  try rw [← h2]
  try rfl

set_option maxRecDepth 8192 in
set_option maxHeartbeats 40000000 in
/-- After the stretch, main_v200 holds its stage of the arguments, given that the buffers the stretch reads from before it hold theirs. -/
theorem ck8_main_v200 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg2) = x2)
    (h1 : W (Proc.devRef .tc main_v144) = (val_main_v144 (F := F) x0))
    (h2 : W (Proc.devRef .tc main_v139) = (val_main_v139 (F := F) x0)) :
    after ck8 W (Proc.devRef .tc main_v200) = (val_main_v200 (F := F) x0 x2) := by
  after_results_simp
  try simp only [val_main_v200, val_main_v199, val_main_v198, val_main_v197, val_main_v196, val_main_v195, val_main_v194, val_main_c_65, val_main_v193, val_main_v192, val_main_c_64, val_main_v191, val_main_v190, val_main_v189, val_main_c_63, val_main_v188, val_main_v187, val_main_c_62]
  try rw [← h0]
  try rw [← h1]
  try rw [← h2]
  try rfl

set_option maxRecDepth 8192 in
set_option maxHeartbeats 40000000 in
/-- After the stretch, main_v209 holds its stage of the arguments, given that the buffers the stretch reads from before it hold theirs. -/
theorem ck8_main_v209 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v158) = (val_main_v158 (F := F) x0 x2))
    (h1 : W (Proc.devRef .tc main_v133) = (val_main_v133 (F := F) x0))
    (h2 : W (Proc.devRef .tc main_v172) = (val_main_v172 (F := F) x0 x2)) :
    after ck8 W (Proc.devRef .tc main_v209) = (val_main_v209 (F := F) x0 x2) := by
  after_results_simp
  try simp only [val_main_v209, val_main_v208, val_main_v207, val_main_v206, val_main_v205, val_main_v204, val_main_v203, val_main_v202, val_main_v201, val_main_cst_66]
  try rw [← h0]
  try rw [← h1]
  try rw [← h2]
  try rfl

set_option maxRecDepth 8192 in
set_option maxHeartbeats 40000000 in
/-- After the stretch, main_cst_67 holds its stage of the arguments, given that the buffers the stretch reads from before it hold theirs. -/
theorem ck8_main_cst_67 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck8 W (Proc.devRef .tc main_cst_67) = (val_main_cst_67 (F := F)) := by
  after_results_simp
  try simp only [val_main_cst_67]

  try rfl

set_option maxRecDepth 8192 in
set_option maxHeartbeats 40000000 in
/-- The stretch does not write main_arg0. -/
theorem ck8_pass_main_arg0 (W : Valuation τ sig (Elt F)) : after ck8 W (Proc.devRef .tc main_arg0) = W (Proc.devRef .tc main_arg0) := by
  after_results_simp <;> rfl

set_option maxRecDepth 8192 in
set_option maxHeartbeats 40000000 in
/-- The stretch does not write main_arg1. -/
theorem ck8_pass_main_arg1 (W : Valuation τ sig (Elt F)) : after ck8 W (Proc.devRef .tc main_arg1) = W (Proc.devRef .tc main_arg1) := by
  after_results_simp <;> rfl

set_option maxRecDepth 8192 in
set_option maxHeartbeats 40000000 in
/-- The stretch does not write main_arg2. -/
theorem ck8_pass_main_arg2 (W : Valuation τ sig (Elt F)) : after ck8 W (Proc.devRef .tc main_arg2) = W (Proc.devRef .tc main_arg2) := by
  after_results_simp <;> rfl

set_option maxRecDepth 8192 in
set_option maxHeartbeats 40000000 in
/-- The stretch does not write main_v133. -/
theorem ck8_pass_main_v133 (W : Valuation τ sig (Elt F)) : after ck8 W (Proc.devRef .tc main_v133) = W (Proc.devRef .tc main_v133) := by
  after_results_simp <;> rfl

set_option maxRecDepth 8192 in
set_option maxHeartbeats 40000000 in
/-- The stretch does not write main_v134. -/
theorem ck8_pass_main_v134 (W : Valuation τ sig (Elt F)) : after ck8 W (Proc.devRef .tc main_v134) = W (Proc.devRef .tc main_v134) := by
  after_results_simp <;> rfl

set_option maxRecDepth 8192 in
set_option maxHeartbeats 40000000 in
/-- The stretch does not write main_v114. -/
theorem ck8_pass_main_v114 (W : Valuation τ sig (Elt F)) : after ck8 W (Proc.devRef .tc main_v114) = W (Proc.devRef .tc main_v114) := by
  after_results_simp <;> rfl

set_option maxRecDepth 8192 in
set_option maxHeartbeats 40000000 in
/-- The stretch does not write main_arg3. -/
theorem ck8_pass_main_arg3 (W : Valuation τ sig (Elt F)) : after ck8 W (Proc.devRef .tc main_arg3) = W (Proc.devRef .tc main_arg3) := by
  after_results_simp <;> rfl

set_option maxRecDepth 8192 in
set_option maxHeartbeats 40000000 in
/-- The stretch does not write main_arg4. -/
theorem ck8_pass_main_arg4 (W : Valuation τ sig (Elt F)) : after ck8 W (Proc.devRef .tc main_arg4) = W (Proc.devRef .tc main_arg4) := by
  after_results_simp <;> rfl

set_option maxRecDepth 8192 in
set_option maxHeartbeats 40000000 in
/-- The stretch does not write main_arg5. -/
theorem ck8_pass_main_arg5 (W : Valuation τ sig (Elt F)) : after ck8 W (Proc.devRef .tc main_arg5) = W (Proc.devRef .tc main_arg5) := by
  after_results_simp <;> rfl

set_option maxRecDepth 8192 in
set_option maxHeartbeats 40000000 in
/-- The stretch does not write main_arg6. -/
theorem ck8_pass_main_arg6 (W : Valuation τ sig (Elt F)) : after ck8 W (Proc.devRef .tc main_arg6) = W (Proc.devRef .tc main_arg6) := by
  after_results_simp <;> rfl

set_option maxRecDepth 8192 in
set_option maxHeartbeats 40000000 in
/-- The stretch does not write main_arg7. -/
theorem ck8_pass_main_arg7 (W : Valuation τ sig (Elt F)) : after ck8 W (Proc.devRef .tc main_arg7) = W (Proc.devRef .tc main_arg7) := by
  after_results_simp <;> rfl

set_option maxRecDepth 8192 in
set_option maxHeartbeats 40000000 in
/-- The stretch does not write main_arg8. -/
theorem ck8_pass_main_arg8 (W : Valuation τ sig (Elt F)) : after ck8 W (Proc.devRef .tc main_arg8) = W (Proc.devRef .tc main_arg8) := by
  after_results_simp <;> rfl

set_option maxRecDepth 8192 in
set_option maxHeartbeats 40000000 in
/-- The stretch does not write main_arg9. -/
theorem ck8_pass_main_arg9 (W : Valuation τ sig (Elt F)) : after ck8 W (Proc.devRef .tc main_arg9) = W (Proc.devRef .tc main_arg9) := by
  after_results_simp <;> rfl

end Cert.ReferenceIdeal.Seg

end
-- ==== Proof.RefCk9.lean ====
/-
  The reference's host operations 321 to 360 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck9 : List (HloOp τ sig (Elt F)) :=
  [ unary main_cst_67 main_v210 (broadcastInDim S524288 ![] bcast_S_S524288 : (⟨S_, .f32⟩ : BufTy).Contents (Elt F) → (⟨S524288, .f32⟩ : BufTy).Contents (Elt F)),
    binary main_v210 main_v133 main_v211 (subf : (⟨S524288, .f32⟩ : BufTy).Contents (Elt F) → (⟨S524288, .f32⟩ : BufTy).Contents (Elt F) → (⟨S524288, .f32⟩ : BufTy).Contents (Elt F)),
    unary main_v211 main_v212 (broadcastInDim S1x524288 ![1] bcast_S524288_S1x524288_1 : (⟨S524288, .f32⟩ : BufTy).Contents (Elt F) → (⟨S1x524288, .f32⟩ : BufTy).Contents (Elt F)),
    unary main_v212 main_v213 (broadcastInDim S32x524288 ![0, 1] bcast_S1x524288_S32x524288_0_1 : (⟨S1x524288, .f32⟩ : BufTy).Contents (Elt F) → (⟨S32x524288, .f32⟩ : BufTy).Contents (Elt F)),
    binary main_v186 main_v213 main_v214 (mulf : (⟨S32x524288, .f32⟩ : BufTy).Contents (Elt F) → (⟨S32x524288, .f32⟩ : BufTy).Contents (Elt F) → (⟨S32x524288, .f32⟩ : BufTy).Contents (Elt F)),
    unary main_v133 main_v215 (broadcastInDim S1x524288 ![1] bcast_S524288_S1x524288_1 : (⟨S524288, .f32⟩ : BufTy).Contents (Elt F) → (⟨S1x524288, .f32⟩ : BufTy).Contents (Elt F)),
    unary main_v215 main_v216 (broadcastInDim S32x524288 ![0, 1] bcast_S1x524288_S32x524288_0_1 : (⟨S1x524288, .f32⟩ : BufTy).Contents (Elt F) → (⟨S32x524288, .f32⟩ : BufTy).Contents (Elt F)),
    binary main_v200 main_v216 main_v217 (mulf : (⟨S32x524288, .f32⟩ : BufTy).Contents (Elt F) → (⟨S32x524288, .f32⟩ : BufTy).Contents (Elt F) → (⟨S32x524288, .f32⟩ : BufTy).Contents (Elt F)),
    binary main_v214 main_v217 main_v218 (addf : (⟨S32x524288, .f32⟩ : BufTy).Contents (Elt F) → (⟨S32x524288, .f32⟩ : BufTy).Contents (Elt F) → (⟨S32x524288, .f32⟩ : BufTy).Contents (Elt F)),
    nullary main_cst_68 (constant S_ .f32 0x3F800000#32),
    unary main_cst_68 main_v219 (broadcastInDim S524288 ![] bcast_S_S524288 : (⟨S_, .f32⟩ : BufTy).Contents (Elt F) → (⟨S524288, .f32⟩ : BufTy).Contents (Elt F)),
    binary main_v219 main_v134 main_v220 (subf : (⟨S524288, .f32⟩ : BufTy).Contents (Elt F) → (⟨S524288, .f32⟩ : BufTy).Contents (Elt F) → (⟨S524288, .f32⟩ : BufTy).Contents (Elt F)),
    unary main_v220 main_v221 (broadcastInDim S1x524288 ![1] bcast_S524288_S1x524288_1 : (⟨S524288, .f32⟩ : BufTy).Contents (Elt F) → (⟨S1x524288, .f32⟩ : BufTy).Contents (Elt F)),
    unary main_v221 main_v222 (broadcastInDim S32x524288 ![0, 1] bcast_S1x524288_S32x524288_0_1 : (⟨S1x524288, .f32⟩ : BufTy).Contents (Elt F) → (⟨S32x524288, .f32⟩ : BufTy).Contents (Elt F)),
    binary main_v209 main_v222 main_v223 (mulf : (⟨S32x524288, .f32⟩ : BufTy).Contents (Elt F) → (⟨S32x524288, .f32⟩ : BufTy).Contents (Elt F) → (⟨S32x524288, .f32⟩ : BufTy).Contents (Elt F)),
    unary main_v134 main_v224 (broadcastInDim S1x524288 ![1] bcast_S524288_S1x524288_1 : (⟨S524288, .f32⟩ : BufTy).Contents (Elt F) → (⟨S1x524288, .f32⟩ : BufTy).Contents (Elt F)),
    unary main_v224 main_v225 (broadcastInDim S32x524288 ![0, 1] bcast_S1x524288_S32x524288_0_1 : (⟨S1x524288, .f32⟩ : BufTy).Contents (Elt F) → (⟨S32x524288, .f32⟩ : BufTy).Contents (Elt F)),
    binary main_v218 main_v225 main_v226 (mulf : (⟨S32x524288, .f32⟩ : BufTy).Contents (Elt F) → (⟨S32x524288, .f32⟩ : BufTy).Contents (Elt F) → (⟨S32x524288, .f32⟩ : BufTy).Contents (Elt F)),
    binary main_v223 main_v226 main_v227 (addf : (⟨S32x524288, .f32⟩ : BufTy).Contents (Elt F) → (⟨S32x524288, .f32⟩ : BufTy).Contents (Elt F) → (⟨S32x524288, .f32⟩ : BufTy).Contents (Elt F)),
    binary main_v114 main_v227 main_v228 (mulf : (⟨S32x524288, .f32⟩ : BufTy).Contents (Elt F) → (⟨S32x524288, .f32⟩ : BufTy).Contents (Elt F) → (⟨S32x524288, .f32⟩ : BufTy).Contents (Elt F)),
    unary main_arg0 main_v229 ((extractStridedSlice S524288x1 ![0, 1] · slices_S524288x3_S524288x1_0_1) : (⟨S524288x3, .f32⟩ : BufTy).Contents (Elt F) → (⟨S524288x1, .f32⟩ : BufTy).Contents (Elt F)),
    reshape main_v229 main_v230 rfl shapeCasts_S524288x1_S524288,
    unary main_arg0 main_v231 ((extractStridedSlice S524288x1 ![0, 2] · slices_S524288x3_S524288x1_0_2) : (⟨S524288x3, .f32⟩ : BufTy).Contents (Elt F) → (⟨S524288x1, .f32⟩ : BufTy).Contents (Elt F)),
    reshape main_v231 main_v232 rfl shapeCasts_S524288x1_S524288,
    nullary main_cst_69 (constant S_ .f32 0x3F800000#32),
    unary main_cst_69 main_v233 (broadcastInDim S524288 ![] bcast_S_S524288 : (⟨S_, .f32⟩ : BufTy).Contents (Elt F) → (⟨S524288, .f32⟩ : BufTy).Contents (Elt F)),
    binary main_v230 main_v233 main_v234 (addf : (⟨S524288, .f32⟩ : BufTy).Contents (Elt F) → (⟨S524288, .f32⟩ : BufTy).Contents (Elt F) → (⟨S524288, .f32⟩ : BufTy).Contents (Elt F)),
    nullary main_cst_70 (constant S_ .f32 0x3F000000#32),
    unary main_cst_70 main_v235 (broadcastInDim S524288 ![] bcast_S_S524288 : (⟨S_, .f32⟩ : BufTy).Contents (Elt F) → (⟨S524288, .f32⟩ : BufTy).Contents (Elt F)),
    binary main_v234 main_v235 main_v236 (mulf : (⟨S524288, .f32⟩ : BufTy).Contents (Elt F) → (⟨S524288, .f32⟩ : BufTy).Contents (Elt F) → (⟨S524288, .f32⟩ : BufTy).Contents (Elt F)),
    nullary main_cst_71 (constant S_ .f32 0x427C0000#32),
    unary main_cst_71 main_v237 (broadcastInDim S524288 ![] bcast_S_S524288 : (⟨S_, .f32⟩ : BufTy).Contents (Elt F) → (⟨S524288, .f32⟩ : BufTy).Contents (Elt F)),
    binary main_v236 main_v237 main_v238 (mulf : (⟨S524288, .f32⟩ : BufTy).Contents (Elt F) → (⟨S524288, .f32⟩ : BufTy).Contents (Elt F) → (⟨S524288, .f32⟩ : BufTy).Contents (Elt F)),
    nullary main_cst_72 (constant S_ .f32 0x3F800000#32),
    unary main_cst_72 main_v239 (broadcastInDim S524288 ![] bcast_S_S524288 : (⟨S_, .f32⟩ : BufTy).Contents (Elt F) → (⟨S524288, .f32⟩ : BufTy).Contents (Elt F)),
    binary main_v232 main_v239 main_v240 (addf : (⟨S524288, .f32⟩ : BufTy).Contents (Elt F) → (⟨S524288, .f32⟩ : BufTy).Contents (Elt F) → (⟨S524288, .f32⟩ : BufTy).Contents (Elt F)),
    nullary main_cst_73 (constant S_ .f32 0x3F000000#32),
    unary main_cst_73 main_v241 (broadcastInDim S524288 ![] bcast_S_S524288 : (⟨S_, .f32⟩ : BufTy).Contents (Elt F) → (⟨S524288, .f32⟩ : BufTy).Contents (Elt F)),
    binary main_v240 main_v241 main_v242 (mulf : (⟨S524288, .f32⟩ : BufTy).Contents (Elt F) → (⟨S524288, .f32⟩ : BufTy).Contents (Elt F) → (⟨S524288, .f32⟩ : BufTy).Contents (Elt F)),
    nullary main_cst_74 (constant S_ .f32 0x427C0000#32) ]

set_option maxRecDepth 8192 in
set_option maxHeartbeats 40000000 in
/-- After the stretch, main_v228 holds its stage of the arguments, given that the buffers the stretch reads from before it hold theirs. -/
theorem ck9_main_v228 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v114) = (val_main_v114 (F := F) x0 x1))
    (h1 : W (Proc.devRef .tc main_v209) = (val_main_v209 (F := F) x0 x2))
    (h2 : W (Proc.devRef .tc main_v134) = (val_main_v134 (F := F) x0))
    (h3 : W (Proc.devRef .tc main_v186) = (val_main_v186 (F := F) x0 x2))
    (h4 : W (Proc.devRef .tc main_cst_67) = (val_main_cst_67 (F := F)))
    (h5 : W (Proc.devRef .tc main_v133) = (val_main_v133 (F := F) x0))
    (h6 : W (Proc.devRef .tc main_v200) = (val_main_v200 (F := F) x0 x2)) :
    after ck9 W (Proc.devRef .tc main_v228) = (val_main_v228 (F := F) x0 x1 x2) := by
  after_results_simp
  try simp only [val_main_v228, val_main_v227, val_main_v226, val_main_v225, val_main_v224, val_main_v223, val_main_v222, val_main_v221, val_main_v220, val_main_v219, val_main_cst_68, val_main_v218, val_main_v217, val_main_v216, val_main_v215, val_main_v214, val_main_v213, val_main_v212, val_main_v211, val_main_v210]
  try rw [← h0]
  try rw [← h1]
  try rw [← h2]
  try rw [← h3]
  try rw [← h4]
  try rw [← h5]
  try rw [← h6]
  try rfl

set_option maxRecDepth 8192 in
set_option maxHeartbeats 40000000 in
/-- After the stretch, main_v238 holds its stage of the arguments, given that the buffers the stretch reads from before it hold theirs. -/
theorem ck9_main_v238 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck9 W (Proc.devRef .tc main_v238) = (val_main_v238 (F := F) x0) := by
  after_results_simp
  try simp only [val_main_v238, val_main_v237, val_main_cst_71, val_main_v236, val_main_v235, val_main_cst_70, val_main_v234, val_main_v233, val_main_cst_69, val_main_v230, val_main_v229]
  try rw [← h0]
  try rfl

set_option maxRecDepth 8192 in
set_option maxHeartbeats 40000000 in
/-- After the stretch, main_v242 holds its stage of the arguments, given that the buffers the stretch reads from before it hold theirs. -/
theorem ck9_main_v242 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck9 W (Proc.devRef .tc main_v242) = (val_main_v242 (F := F) x0) := by
  after_results_simp
  try simp only [val_main_v242, val_main_v241, val_main_cst_73, val_main_v240, val_main_v239, val_main_cst_72, val_main_v232, val_main_v231]
  try rw [← h0]
  try rfl

set_option maxRecDepth 8192 in
set_option maxHeartbeats 40000000 in
/-- After the stretch, main_cst_74 holds its stage of the arguments, given that the buffers the stretch reads from before it hold theirs. -/
theorem ck9_main_cst_74 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck9 W (Proc.devRef .tc main_cst_74) = (val_main_cst_74 (F := F)) := by
  after_results_simp
  try simp only [val_main_cst_74]

  try rfl

set_option maxRecDepth 8192 in
set_option maxHeartbeats 40000000 in
/-- The stretch does not write main_arg0. -/
theorem ck9_pass_main_arg0 (W : Valuation τ sig (Elt F)) : after ck9 W (Proc.devRef .tc main_arg0) = W (Proc.devRef .tc main_arg0) := by
  after_results_simp <;> rfl

set_option maxRecDepth 8192 in
set_option maxHeartbeats 40000000 in
/-- The stretch does not write main_arg1. -/
theorem ck9_pass_main_arg1 (W : Valuation τ sig (Elt F)) : after ck9 W (Proc.devRef .tc main_arg1) = W (Proc.devRef .tc main_arg1) := by
  after_results_simp <;> rfl

set_option maxRecDepth 8192 in
set_option maxHeartbeats 40000000 in
/-- The stretch does not write main_arg2. -/
theorem ck9_pass_main_arg2 (W : Valuation τ sig (Elt F)) : after ck9 W (Proc.devRef .tc main_arg2) = W (Proc.devRef .tc main_arg2) := by
  after_results_simp <;> rfl

set_option maxRecDepth 8192 in
set_option maxHeartbeats 40000000 in
/-- The stretch does not write main_arg3. -/
theorem ck9_pass_main_arg3 (W : Valuation τ sig (Elt F)) : after ck9 W (Proc.devRef .tc main_arg3) = W (Proc.devRef .tc main_arg3) := by
  after_results_simp <;> rfl

set_option maxRecDepth 8192 in
set_option maxHeartbeats 40000000 in
/-- The stretch does not write main_arg4. -/
theorem ck9_pass_main_arg4 (W : Valuation τ sig (Elt F)) : after ck9 W (Proc.devRef .tc main_arg4) = W (Proc.devRef .tc main_arg4) := by
  after_results_simp <;> rfl

set_option maxRecDepth 8192 in
set_option maxHeartbeats 40000000 in
/-- The stretch does not write main_arg5. -/
theorem ck9_pass_main_arg5 (W : Valuation τ sig (Elt F)) : after ck9 W (Proc.devRef .tc main_arg5) = W (Proc.devRef .tc main_arg5) := by
  after_results_simp <;> rfl

set_option maxRecDepth 8192 in
set_option maxHeartbeats 40000000 in
/-- The stretch does not write main_arg6. -/
theorem ck9_pass_main_arg6 (W : Valuation τ sig (Elt F)) : after ck9 W (Proc.devRef .tc main_arg6) = W (Proc.devRef .tc main_arg6) := by
  after_results_simp <;> rfl

set_option maxRecDepth 8192 in
set_option maxHeartbeats 40000000 in
/-- The stretch does not write main_arg7. -/
theorem ck9_pass_main_arg7 (W : Valuation τ sig (Elt F)) : after ck9 W (Proc.devRef .tc main_arg7) = W (Proc.devRef .tc main_arg7) := by
  after_results_simp <;> rfl

set_option maxRecDepth 8192 in
set_option maxHeartbeats 40000000 in
/-- The stretch does not write main_arg8. -/
theorem ck9_pass_main_arg8 (W : Valuation τ sig (Elt F)) : after ck9 W (Proc.devRef .tc main_arg8) = W (Proc.devRef .tc main_arg8) := by
  after_results_simp <;> rfl

set_option maxRecDepth 8192 in
set_option maxHeartbeats 40000000 in
/-- The stretch does not write main_arg9. -/
theorem ck9_pass_main_arg9 (W : Valuation τ sig (Elt F)) : after ck9 W (Proc.devRef .tc main_arg9) = W (Proc.devRef .tc main_arg9) := by
  after_results_simp <;> rfl

end Cert.ReferenceIdeal.Seg

end
-- ==== Proof.RefCk10.lean ====
/-
  The reference's host operations 361 to 400 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck10 : List (HloOp τ sig (Elt F)) :=
  [ unary main_cst_74 main_v243 (broadcastInDim S524288 ![] bcast_S_S524288 : (⟨S_, .f32⟩ : BufTy).Contents (Elt F) → (⟨S524288, .f32⟩ : BufTy).Contents (Elt F)),
    binary main_v242 main_v243 main_v244 (mulf : (⟨S524288, .f32⟩ : BufTy).Contents (Elt F) → (⟨S524288, .f32⟩ : BufTy).Contents (Elt F) → (⟨S524288, .f32⟩ : BufTy).Contents (Elt F)),
    unary main_v238 main_v245 (Host.floor : (⟨S524288, .f32⟩ : BufTy).Contents (Elt F) → (⟨S524288, .f32⟩ : BufTy).Contents (Elt F)),
    unary main_v244 main_v246 (Host.floor : (⟨S524288, .f32⟩ : BufTy).Contents (Elt F) → (⟨S524288, .f32⟩ : BufTy).Contents (Elt F)),
    binary main_v238 main_v245 main_v247 (subf : (⟨S524288, .f32⟩ : BufTy).Contents (Elt F) → (⟨S524288, .f32⟩ : BufTy).Contents (Elt F) → (⟨S524288, .f32⟩ : BufTy).Contents (Elt F)),
    binary main_v244 main_v246 main_v248 (subf : (⟨S524288, .f32⟩ : BufTy).Contents (Elt F) → (⟨S524288, .f32⟩ : BufTy).Contents (Elt F) → (⟨S524288, .f32⟩ : BufTy).Contents (Elt F)),
    unary main_v245 main_v249 (fptosi 32 : (⟨S524288, .f32⟩ : BufTy).Contents (Elt F) → (⟨S524288, .i32⟩ : BufTy).Contents (Elt F)),
    nullary main_c_75 (constantI S_ 32 0#32),
    nullary main_c_76 (constantI S_ 32 63#32),
    TRef.unary (TRef.of (T := ⟨S_, .i32⟩) main_c_75) (TRef.of (T := ⟨S_, .i32⟩) main_call8_v0) id,
    TRef.unary (TRef.of (T := ⟨S_, .i32⟩) main_call8_v0) (TRef.of (T := ⟨S524288, .i32⟩) main_call8_v1) (broadcastInDim S524288 ![] bcast_S_S524288),
    TRef.binary (TRef.of (T := ⟨S524288, .i32⟩) main_call8_v1) (TRef.of (T := ⟨S524288, .i32⟩) main_v249) (TRef.of (T := ⟨S524288, .i32⟩) main_call8_v2) maxsi,
    TRef.unary (TRef.of (T := ⟨S_, .i32⟩) main_c_76) (TRef.of (T := ⟨S_, .i32⟩) main_call8_v3) id,
    TRef.unary (TRef.of (T := ⟨S_, .i32⟩) main_call8_v3) (TRef.of (T := ⟨S524288, .i32⟩) main_call8_v4) (broadcastInDim S524288 ![] bcast_S_S524288),
    TRef.binary (TRef.of (T := ⟨S524288, .i32⟩) main_call8_v4) (TRef.of (T := ⟨S524288, .i32⟩) main_call8_v2) (TRef.of (T := ⟨S524288, .i32⟩) main_v250) minsi,
    nullary main_c_77 (constantI S_ 32 1#32),
    unary main_c_77 main_v251 (broadcastInDim S524288 ![] bcast_S_S524288 : (⟨S_, .i32⟩ : BufTy).Contents (Elt F) → (⟨S524288, .i32⟩ : BufTy).Contents (Elt F)),
    binary main_v250 main_v251 main_v252 (addi : (⟨S524288, .i32⟩ : BufTy).Contents (Elt F) → (⟨S524288, .i32⟩ : BufTy).Contents (Elt F) → (⟨S524288, .i32⟩ : BufTy).Contents (Elt F)),
    nullary main_c_78 (constantI S_ 32 0#32),
    nullary main_c_79 (constantI S_ 32 63#32),
    TRef.unary (TRef.of (T := ⟨S_, .i32⟩) main_c_78) (TRef.of (T := ⟨S_, .i32⟩) main_call9_v0) id,
    TRef.unary (TRef.of (T := ⟨S_, .i32⟩) main_call9_v0) (TRef.of (T := ⟨S524288, .i32⟩) main_call9_v1) (broadcastInDim S524288 ![] bcast_S_S524288),
    TRef.binary (TRef.of (T := ⟨S524288, .i32⟩) main_call9_v1) (TRef.of (T := ⟨S524288, .i32⟩) main_v252) (TRef.of (T := ⟨S524288, .i32⟩) main_call9_v2) maxsi,
    TRef.unary (TRef.of (T := ⟨S_, .i32⟩) main_c_79) (TRef.of (T := ⟨S_, .i32⟩) main_call9_v3) id,
    TRef.unary (TRef.of (T := ⟨S_, .i32⟩) main_call9_v3) (TRef.of (T := ⟨S524288, .i32⟩) main_call9_v4) (broadcastInDim S524288 ![] bcast_S_S524288),
    TRef.binary (TRef.of (T := ⟨S524288, .i32⟩) main_call9_v4) (TRef.of (T := ⟨S524288, .i32⟩) main_call9_v2) (TRef.of (T := ⟨S524288, .i32⟩) main_v253) minsi,
    unary main_v246 main_v254 (fptosi 32 : (⟨S524288, .f32⟩ : BufTy).Contents (Elt F) → (⟨S524288, .i32⟩ : BufTy).Contents (Elt F)),
    nullary main_c_80 (constantI S_ 32 0#32),
    nullary main_c_81 (constantI S_ 32 63#32),
    TRef.unary (TRef.of (T := ⟨S_, .i32⟩) main_c_80) (TRef.of (T := ⟨S_, .i32⟩) main_call10_v0) id,
    TRef.unary (TRef.of (T := ⟨S_, .i32⟩) main_call10_v0) (TRef.of (T := ⟨S524288, .i32⟩) main_call10_v1) (broadcastInDim S524288 ![] bcast_S_S524288),
    TRef.binary (TRef.of (T := ⟨S524288, .i32⟩) main_call10_v1) (TRef.of (T := ⟨S524288, .i32⟩) main_v254) (TRef.of (T := ⟨S524288, .i32⟩) main_call10_v2) maxsi,
    TRef.unary (TRef.of (T := ⟨S_, .i32⟩) main_c_81) (TRef.of (T := ⟨S_, .i32⟩) main_call10_v3) id,
    TRef.unary (TRef.of (T := ⟨S_, .i32⟩) main_call10_v3) (TRef.of (T := ⟨S524288, .i32⟩) main_call10_v4) (broadcastInDim S524288 ![] bcast_S_S524288),
    TRef.binary (TRef.of (T := ⟨S524288, .i32⟩) main_call10_v4) (TRef.of (T := ⟨S524288, .i32⟩) main_call10_v2) (TRef.of (T := ⟨S524288, .i32⟩) main_v255) minsi,
    nullary main_c_82 (constantI S_ 32 1#32),
    unary main_c_82 main_v256 (broadcastInDim S524288 ![] bcast_S_S524288 : (⟨S_, .i32⟩ : BufTy).Contents (Elt F) → (⟨S524288, .i32⟩ : BufTy).Contents (Elt F)),
    binary main_v255 main_v256 main_v257 (addi : (⟨S524288, .i32⟩ : BufTy).Contents (Elt F) → (⟨S524288, .i32⟩ : BufTy).Contents (Elt F) → (⟨S524288, .i32⟩ : BufTy).Contents (Elt F)),
    nullary main_c_83 (constantI S_ 32 0#32),
    nullary main_c_84 (constantI S_ 32 63#32) ]

set_option maxRecDepth 8192 in
set_option maxHeartbeats 40000000 in
/-- After the stretch, main_v247 holds its stage of the arguments, given that the buffers the stretch reads from before it hold theirs. -/
theorem ck10_main_v247 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v238) = (val_main_v238 (F := F) x0)) :
    after ck10 W (Proc.devRef .tc main_v247) = (val_main_v247 (F := F) x0) := by
  after_results_simp
  try simp only [val_main_v247, val_main_v245]
  try rw [← h0]
  try rfl

set_option maxRecDepth 8192 in
set_option maxHeartbeats 40000000 in
/-- After the stretch, main_v248 holds its stage of the arguments, given that the buffers the stretch reads from before it hold theirs. -/
theorem ck10_main_v248 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v242) = (val_main_v242 (F := F) x0))
    (h1 : W (Proc.devRef .tc main_cst_74) = (val_main_cst_74 (F := F))) :
    after ck10 W (Proc.devRef .tc main_v248) = (val_main_v248 (F := F) x0) := by
  after_results_simp
  try simp only [val_main_v248, val_main_v246, val_main_v244, val_main_v243]
  try rw [← h0]
  try rw [← h1]
  try rfl

set_option maxRecDepth 8192 in
set_option maxHeartbeats 40000000 in
/-- After the stretch, main_v250 holds its stage of the arguments, given that the buffers the stretch reads from before it hold theirs. -/
theorem ck10_main_v250 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v238) = (val_main_v238 (F := F) x0)) :
    after ck10 W (Proc.devRef .tc main_v250) = (val_main_v250 (F := F) x0) := by
  after_results_simp
  try simp only [val_main_v250, val_main_call8_v4, val_main_call8_v3, val_main_call8_v2, val_main_call8_v1, val_main_call8_v0, val_main_c_76, val_main_c_75, val_main_v249, val_main_v245]
  try rw [← h0]
  try rfl

set_option maxRecDepth 8192 in
set_option maxHeartbeats 40000000 in
/-- After the stretch, main_v253 holds its stage of the arguments, given that the buffers the stretch reads from before it hold theirs. -/
theorem ck10_main_v253 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v238) = (val_main_v238 (F := F) x0)) :
    after ck10 W (Proc.devRef .tc main_v253) = (val_main_v253 (F := F) x0) := by
  after_results_simp
  try simp only [val_main_v253, val_main_call9_v4, val_main_call9_v3, val_main_call9_v2, val_main_call9_v1, val_main_call9_v0, val_main_c_79, val_main_c_78, val_main_v252, val_main_v251, val_main_c_77, val_main_v250, val_main_call8_v4, val_main_call8_v3, val_main_call8_v2, val_main_call8_v1, val_main_call8_v0, val_main_c_76, val_main_c_75, val_main_v249, val_main_v245]
  try rw [← h0]
  try rfl

set_option maxRecDepth 8192 in
set_option maxHeartbeats 40000000 in
/-- After the stretch, main_v255 holds its stage of the arguments, given that the buffers the stretch reads from before it hold theirs. -/
theorem ck10_main_v255 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v242) = (val_main_v242 (F := F) x0))
    (h1 : W (Proc.devRef .tc main_cst_74) = (val_main_cst_74 (F := F))) :
    after ck10 W (Proc.devRef .tc main_v255) = (val_main_v255 (F := F) x0) := by
  after_results_simp
  try simp only [val_main_v255, val_main_call10_v4, val_main_call10_v3, val_main_call10_v2, val_main_call10_v1, val_main_call10_v0, val_main_c_81, val_main_c_80, val_main_v254, val_main_v246, val_main_v244, val_main_v243]
  try rw [← h0]
  try rw [← h1]
  try rfl

set_option maxRecDepth 8192 in
set_option maxHeartbeats 40000000 in
/-- After the stretch, main_v257 holds its stage of the arguments, given that the buffers the stretch reads from before it hold theirs. -/
theorem ck10_main_v257 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v242) = (val_main_v242 (F := F) x0))
    (h1 : W (Proc.devRef .tc main_cst_74) = (val_main_cst_74 (F := F))) :
    after ck10 W (Proc.devRef .tc main_v257) = (val_main_v257 (F := F) x0) := by
  after_results_simp
  try simp only [val_main_v257, val_main_v256, val_main_c_82, val_main_v255, val_main_call10_v4, val_main_call10_v3, val_main_call10_v2, val_main_call10_v1, val_main_call10_v0, val_main_c_81, val_main_c_80, val_main_v254, val_main_v246, val_main_v244, val_main_v243]
  try rw [← h0]
  try rw [← h1]
  try rfl

set_option maxRecDepth 8192 in
set_option maxHeartbeats 40000000 in
/-- After the stretch, main_c_83 holds its stage of the arguments, given that the buffers the stretch reads from before it hold theirs. -/
theorem ck10_main_c_83 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck10 W (Proc.devRef .tc main_c_83) = (val_main_c_83 (F := F)) := by
  after_results_simp
  try simp only [val_main_c_83]

  try rfl

set_option maxRecDepth 8192 in
set_option maxHeartbeats 40000000 in
/-- After the stretch, main_c_84 holds its stage of the arguments, given that the buffers the stretch reads from before it hold theirs. -/
theorem ck10_main_c_84 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck10 W (Proc.devRef .tc main_c_84) = (val_main_c_84 (F := F)) := by
  after_results_simp
  try simp only [val_main_c_84]

  try rfl

set_option maxRecDepth 8192 in
set_option maxHeartbeats 40000000 in
/-- The stretch does not write main_arg0. -/
theorem ck10_pass_main_arg0 (W : Valuation τ sig (Elt F)) : after ck10 W (Proc.devRef .tc main_arg0) = W (Proc.devRef .tc main_arg0) := by
  after_results_simp <;> rfl

set_option maxRecDepth 8192 in
set_option maxHeartbeats 40000000 in
/-- The stretch does not write main_arg1. -/
theorem ck10_pass_main_arg1 (W : Valuation τ sig (Elt F)) : after ck10 W (Proc.devRef .tc main_arg1) = W (Proc.devRef .tc main_arg1) := by
  after_results_simp <;> rfl

set_option maxRecDepth 8192 in
set_option maxHeartbeats 40000000 in
/-- The stretch does not write main_arg2. -/
theorem ck10_pass_main_arg2 (W : Valuation τ sig (Elt F)) : after ck10 W (Proc.devRef .tc main_arg2) = W (Proc.devRef .tc main_arg2) := by
  after_results_simp <;> rfl

set_option maxRecDepth 8192 in
set_option maxHeartbeats 40000000 in
/-- The stretch does not write main_arg3. -/
theorem ck10_pass_main_arg3 (W : Valuation τ sig (Elt F)) : after ck10 W (Proc.devRef .tc main_arg3) = W (Proc.devRef .tc main_arg3) := by
  after_results_simp <;> rfl

set_option maxRecDepth 8192 in
set_option maxHeartbeats 40000000 in
/-- The stretch does not write main_v228. -/
theorem ck10_pass_main_v228 (W : Valuation τ sig (Elt F)) : after ck10 W (Proc.devRef .tc main_v228) = W (Proc.devRef .tc main_v228) := by
  after_results_simp <;> rfl

set_option maxRecDepth 8192 in
set_option maxHeartbeats 40000000 in
/-- The stretch does not write main_arg4. -/
theorem ck10_pass_main_arg4 (W : Valuation τ sig (Elt F)) : after ck10 W (Proc.devRef .tc main_arg4) = W (Proc.devRef .tc main_arg4) := by
  after_results_simp <;> rfl

set_option maxRecDepth 8192 in
set_option maxHeartbeats 40000000 in
/-- The stretch does not write main_arg5. -/
theorem ck10_pass_main_arg5 (W : Valuation τ sig (Elt F)) : after ck10 W (Proc.devRef .tc main_arg5) = W (Proc.devRef .tc main_arg5) := by
  after_results_simp <;> rfl

set_option maxRecDepth 8192 in
set_option maxHeartbeats 40000000 in
/-- The stretch does not write main_arg6. -/
theorem ck10_pass_main_arg6 (W : Valuation τ sig (Elt F)) : after ck10 W (Proc.devRef .tc main_arg6) = W (Proc.devRef .tc main_arg6) := by
  after_results_simp <;> rfl

set_option maxRecDepth 8192 in
set_option maxHeartbeats 40000000 in
/-- The stretch does not write main_arg7. -/
theorem ck10_pass_main_arg7 (W : Valuation τ sig (Elt F)) : after ck10 W (Proc.devRef .tc main_arg7) = W (Proc.devRef .tc main_arg7) := by
  after_results_simp <;> rfl

set_option maxRecDepth 8192 in
set_option maxHeartbeats 40000000 in
/-- The stretch does not write main_arg8. -/
theorem ck10_pass_main_arg8 (W : Valuation τ sig (Elt F)) : after ck10 W (Proc.devRef .tc main_arg8) = W (Proc.devRef .tc main_arg8) := by
  after_results_simp <;> rfl

set_option maxRecDepth 8192 in
set_option maxHeartbeats 40000000 in
/-- The stretch does not write main_arg9. -/
theorem ck10_pass_main_arg9 (W : Valuation τ sig (Elt F)) : after ck10 W (Proc.devRef .tc main_arg9) = W (Proc.devRef .tc main_arg9) := by
  after_results_simp <;> rfl

end Cert.ReferenceIdeal.Seg

end
-- ==== Proof.RefCk11.lean ====
/-
  The reference's host operations 401 to 440 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck11 : List (HloOp τ sig (Elt F)) :=
  [ TRef.unary (TRef.of (T := ⟨S_, .i32⟩) main_c_83) (TRef.of (T := ⟨S_, .i32⟩) main_call11_v0) id,
    TRef.unary (TRef.of (T := ⟨S_, .i32⟩) main_call11_v0) (TRef.of (T := ⟨S524288, .i32⟩) main_call11_v1) (broadcastInDim S524288 ![] bcast_S_S524288),
    TRef.binary (TRef.of (T := ⟨S524288, .i32⟩) main_call11_v1) (TRef.of (T := ⟨S524288, .i32⟩) main_v257) (TRef.of (T := ⟨S524288, .i32⟩) main_call11_v2) maxsi,
    TRef.unary (TRef.of (T := ⟨S_, .i32⟩) main_c_84) (TRef.of (T := ⟨S_, .i32⟩) main_call11_v3) id,
    TRef.unary (TRef.of (T := ⟨S_, .i32⟩) main_call11_v3) (TRef.of (T := ⟨S524288, .i32⟩) main_call11_v4) (broadcastInDim S524288 ![] bcast_S_S524288),
    TRef.binary (TRef.of (T := ⟨S524288, .i32⟩) main_call11_v4) (TRef.of (T := ⟨S524288, .i32⟩) main_call11_v2) (TRef.of (T := ⟨S524288, .i32⟩) main_v258) minsi,
    nullary main_c_85 (constantI S_ 32 0#32),
    unary main_c_85 main_v259 (broadcastInDim S524288 ![] bcast_S_S524288 : (⟨S_, .i32⟩ : BufTy).Contents (Elt F) → (⟨S524288, .i32⟩ : BufTy).Contents (Elt F)),
    binary main_v255 main_v259 main_v260 (cmpi .slt : (⟨S524288, .i32⟩ : BufTy).Contents (Elt F) → (⟨S524288, .i32⟩ : BufTy).Contents (Elt F) → (⟨S524288, .i1⟩ : BufTy).Contents (Elt F)),
    nullary main_c_86 (constantI S_ 32 64#32),
    unary main_c_86 main_v261 (broadcastInDim S524288 ![] bcast_S_S524288 : (⟨S_, .i32⟩ : BufTy).Contents (Elt F) → (⟨S524288, .i32⟩ : BufTy).Contents (Elt F)),
    binary main_v255 main_v261 main_v262 (addi : (⟨S524288, .i32⟩ : BufTy).Contents (Elt F) → (⟨S524288, .i32⟩ : BufTy).Contents (Elt F) → (⟨S524288, .i32⟩ : BufTy).Contents (Elt F)),
    ternary main_v260 main_v262 main_v255 main_v263 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_87 (constantI S_ 32 0#32),
    unary main_c_87 main_v264 (broadcastInDim S524288 ![] bcast_S_S524288 : (⟨S_, .i32⟩ : BufTy).Contents (Elt F) → (⟨S524288, .i32⟩ : BufTy).Contents (Elt F)),
    binary main_v250 main_v264 main_v265 (cmpi .slt : (⟨S524288, .i32⟩ : BufTy).Contents (Elt F) → (⟨S524288, .i32⟩ : BufTy).Contents (Elt F) → (⟨S524288, .i1⟩ : BufTy).Contents (Elt F)),
    nullary main_c_88 (constantI S_ 32 64#32),
    unary main_c_88 main_v266 (broadcastInDim S524288 ![] bcast_S_S524288 : (⟨S_, .i32⟩ : BufTy).Contents (Elt F) → (⟨S524288, .i32⟩ : BufTy).Contents (Elt F)),
    binary main_v250 main_v266 main_v267 (addi : (⟨S524288, .i32⟩ : BufTy).Contents (Elt F) → (⟨S524288, .i32⟩ : BufTy).Contents (Elt F) → (⟨S524288, .i32⟩ : BufTy).Contents (Elt F)),
    ternary main_v265 main_v267 main_v250 main_v268 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v263 main_v269 (broadcastInDim S524288x1 ![0] bcast_S524288_S524288x1_0 : (⟨S524288, .i32⟩ : BufTy).Contents (Elt F) → (⟨S524288x1, .i32⟩ : BufTy).Contents (Elt F)),
    unary main_v268 main_v270 (broadcastInDim S524288x1 ![0] bcast_S524288_S524288x1_0 : (⟨S524288, .i32⟩ : BufTy).Contents (Elt F) → (⟨S524288x1, .i32⟩ : BufTy).Contents (Elt F)),
    binary main_v269 main_v270 main_v271 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg3 main_v271 main_v272 ((fun x i => Host.gather gather_S32x64x64_S524288x2_S32x524288_0_12_n_n_12_1_3211 x i) : (⟨S32x64x64, .f32⟩ : BufTy).Contents (Elt F) → (⟨S524288x2, .i32⟩ : BufTy).Contents (Elt F) → (⟨S32x524288, .f32⟩ : BufTy).Contents (Elt F)),
    nullary main_c_89 (constantI S_ 32 0#32),
    unary main_c_89 main_v273 (broadcastInDim S524288 ![] bcast_S_S524288 : (⟨S_, .i32⟩ : BufTy).Contents (Elt F) → (⟨S524288, .i32⟩ : BufTy).Contents (Elt F)),
    binary main_v255 main_v273 main_v274 (cmpi .slt : (⟨S524288, .i32⟩ : BufTy).Contents (Elt F) → (⟨S524288, .i32⟩ : BufTy).Contents (Elt F) → (⟨S524288, .i1⟩ : BufTy).Contents (Elt F)),
    nullary main_c_90 (constantI S_ 32 64#32),
    unary main_c_90 main_v275 (broadcastInDim S524288 ![] bcast_S_S524288 : (⟨S_, .i32⟩ : BufTy).Contents (Elt F) → (⟨S524288, .i32⟩ : BufTy).Contents (Elt F)),
    binary main_v255 main_v275 main_v276 (addi : (⟨S524288, .i32⟩ : BufTy).Contents (Elt F) → (⟨S524288, .i32⟩ : BufTy).Contents (Elt F) → (⟨S524288, .i32⟩ : BufTy).Contents (Elt F)),
    ternary main_v274 main_v276 main_v255 main_v277 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_91 (constantI S_ 32 0#32),
    unary main_c_91 main_v278 (broadcastInDim S524288 ![] bcast_S_S524288 : (⟨S_, .i32⟩ : BufTy).Contents (Elt F) → (⟨S524288, .i32⟩ : BufTy).Contents (Elt F)),
    binary main_v253 main_v278 main_v279 (cmpi .slt : (⟨S524288, .i32⟩ : BufTy).Contents (Elt F) → (⟨S524288, .i32⟩ : BufTy).Contents (Elt F) → (⟨S524288, .i1⟩ : BufTy).Contents (Elt F)),
    nullary main_c_92 (constantI S_ 32 64#32),
    unary main_c_92 main_v280 (broadcastInDim S524288 ![] bcast_S_S524288 : (⟨S_, .i32⟩ : BufTy).Contents (Elt F) → (⟨S524288, .i32⟩ : BufTy).Contents (Elt F)),
    binary main_v253 main_v280 main_v281 (addi : (⟨S524288, .i32⟩ : BufTy).Contents (Elt F) → (⟨S524288, .i32⟩ : BufTy).Contents (Elt F) → (⟨S524288, .i32⟩ : BufTy).Contents (Elt F)),
    ternary main_v279 main_v281 main_v253 main_v282 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v277 main_v283 (broadcastInDim S524288x1 ![0] bcast_S524288_S524288x1_0 : (⟨S524288, .i32⟩ : BufTy).Contents (Elt F) → (⟨S524288x1, .i32⟩ : BufTy).Contents (Elt F)),
    unary main_v282 main_v284 (broadcastInDim S524288x1 ![0] bcast_S524288_S524288x1_0 : (⟨S524288, .i32⟩ : BufTy).Contents (Elt F) → (⟨S524288x1, .i32⟩ : BufTy).Contents (Elt F)) ]

set_option maxRecDepth 8192 in
set_option maxHeartbeats 40000000 in
/-- After the stretch, main_v258 holds its stage of the arguments, given that the buffers the stretch reads from before it hold theirs. -/
theorem ck11_main_v258 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_c_84) = (val_main_c_84 (F := F)))
    (h1 : W (Proc.devRef .tc main_c_83) = (val_main_c_83 (F := F)))
    (h2 : W (Proc.devRef .tc main_v257) = (val_main_v257 (F := F) x0)) :
    after ck11 W (Proc.devRef .tc main_v258) = (val_main_v258 (F := F) x0) := by
  after_results_simp
  try simp only [val_main_v258, val_main_call11_v4, val_main_call11_v3, val_main_call11_v2, val_main_call11_v1, val_main_call11_v0]
  try rw [← h0]
  try rw [← h1]
  try rw [← h2]
  try rfl

set_option maxRecDepth 8192 in
set_option maxHeartbeats 40000000 in
/-- After the stretch, main_v272 holds its stage of the arguments, given that the buffers the stretch reads from before it hold theirs. -/
theorem ck11_main_v272 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg3) = x3)
    (h1 : W (Proc.devRef .tc main_v255) = (val_main_v255 (F := F) x0))
    (h2 : W (Proc.devRef .tc main_v250) = (val_main_v250 (F := F) x0)) :
    after ck11 W (Proc.devRef .tc main_v272) = (val_main_v272 (F := F) x0 x3) := by
  after_results_simp
  try simp only [val_main_v272, val_main_v271, val_main_v270, val_main_v269, val_main_v268, val_main_v267, val_main_v266, val_main_c_88, val_main_v265, val_main_v264, val_main_c_87, val_main_v263, val_main_v262, val_main_v261, val_main_c_86, val_main_v260, val_main_v259, val_main_c_85]
  try rw [← h0]
  try rw [← h1]
  try rw [← h2]
  try rfl

set_option maxRecDepth 8192 in
set_option maxHeartbeats 40000000 in
/-- After the stretch, main_v283 holds its stage of the arguments, given that the buffers the stretch reads from before it hold theirs. -/
theorem ck11_main_v283 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v255) = (val_main_v255 (F := F) x0)) :
    after ck11 W (Proc.devRef .tc main_v283) = (val_main_v283 (F := F) x0) := by
  after_results_simp
  try simp only [val_main_v283, val_main_v277, val_main_v276, val_main_v275, val_main_c_90, val_main_v274, val_main_v273, val_main_c_89]
  try rw [← h0]
  try rfl

set_option maxRecDepth 8192 in
set_option maxHeartbeats 40000000 in
/-- After the stretch, main_v284 holds its stage of the arguments, given that the buffers the stretch reads from before it hold theirs. -/
theorem ck11_main_v284 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v253) = (val_main_v253 (F := F) x0)) :
    after ck11 W (Proc.devRef .tc main_v284) = (val_main_v284 (F := F) x0) := by
  after_results_simp
  try simp only [val_main_v284, val_main_v282, val_main_v281, val_main_v280, val_main_c_92, val_main_v279, val_main_v278, val_main_c_91]
  try rw [← h0]
  try rfl

set_option maxRecDepth 8192 in
set_option maxHeartbeats 40000000 in
/-- The stretch does not write main_arg0. -/
theorem ck11_pass_main_arg0 (W : Valuation τ sig (Elt F)) : after ck11 W (Proc.devRef .tc main_arg0) = W (Proc.devRef .tc main_arg0) := by
  after_results_simp <;> rfl

set_option maxRecDepth 8192 in
set_option maxHeartbeats 40000000 in
/-- The stretch does not write main_arg1. -/
theorem ck11_pass_main_arg1 (W : Valuation τ sig (Elt F)) : after ck11 W (Proc.devRef .tc main_arg1) = W (Proc.devRef .tc main_arg1) := by
  after_results_simp <;> rfl

set_option maxRecDepth 8192 in
set_option maxHeartbeats 40000000 in
/-- The stretch does not write main_arg2. -/
theorem ck11_pass_main_arg2 (W : Valuation τ sig (Elt F)) : after ck11 W (Proc.devRef .tc main_arg2) = W (Proc.devRef .tc main_arg2) := by
  after_results_simp <;> rfl

set_option maxRecDepth 8192 in
set_option maxHeartbeats 40000000 in
/-- The stretch does not write main_v250. -/
theorem ck11_pass_main_v250 (W : Valuation τ sig (Elt F)) : after ck11 W (Proc.devRef .tc main_v250) = W (Proc.devRef .tc main_v250) := by
  after_results_simp <;> rfl

set_option maxRecDepth 8192 in
set_option maxHeartbeats 40000000 in
/-- The stretch does not write main_arg3. -/
theorem ck11_pass_main_arg3 (W : Valuation τ sig (Elt F)) : after ck11 W (Proc.devRef .tc main_arg3) = W (Proc.devRef .tc main_arg3) := by
  after_results_simp <;> rfl

set_option maxRecDepth 8192 in
set_option maxHeartbeats 40000000 in
/-- The stretch does not write main_v253. -/
theorem ck11_pass_main_v253 (W : Valuation τ sig (Elt F)) : after ck11 W (Proc.devRef .tc main_v253) = W (Proc.devRef .tc main_v253) := by
  after_results_simp <;> rfl

set_option maxRecDepth 8192 in
set_option maxHeartbeats 40000000 in
/-- The stretch does not write main_v247. -/
theorem ck11_pass_main_v247 (W : Valuation τ sig (Elt F)) : after ck11 W (Proc.devRef .tc main_v247) = W (Proc.devRef .tc main_v247) := by
  after_results_simp <;> rfl

set_option maxRecDepth 8192 in
set_option maxHeartbeats 40000000 in
/-- The stretch does not write main_v248. -/
theorem ck11_pass_main_v248 (W : Valuation τ sig (Elt F)) : after ck11 W (Proc.devRef .tc main_v248) = W (Proc.devRef .tc main_v248) := by
  after_results_simp <;> rfl

set_option maxRecDepth 8192 in
set_option maxHeartbeats 40000000 in
/-- The stretch does not write main_v228. -/
theorem ck11_pass_main_v228 (W : Valuation τ sig (Elt F)) : after ck11 W (Proc.devRef .tc main_v228) = W (Proc.devRef .tc main_v228) := by
  after_results_simp <;> rfl

set_option maxRecDepth 8192 in
set_option maxHeartbeats 40000000 in
/-- The stretch does not write main_arg4. -/
theorem ck11_pass_main_arg4 (W : Valuation τ sig (Elt F)) : after ck11 W (Proc.devRef .tc main_arg4) = W (Proc.devRef .tc main_arg4) := by
  after_results_simp <;> rfl

set_option maxRecDepth 8192 in
set_option maxHeartbeats 40000000 in
/-- The stretch does not write main_arg5. -/
theorem ck11_pass_main_arg5 (W : Valuation τ sig (Elt F)) : after ck11 W (Proc.devRef .tc main_arg5) = W (Proc.devRef .tc main_arg5) := by
  after_results_simp <;> rfl

set_option maxRecDepth 8192 in
set_option maxHeartbeats 40000000 in
/-- The stretch does not write main_arg6. -/
theorem ck11_pass_main_arg6 (W : Valuation τ sig (Elt F)) : after ck11 W (Proc.devRef .tc main_arg6) = W (Proc.devRef .tc main_arg6) := by
  after_results_simp <;> rfl

set_option maxRecDepth 8192 in
set_option maxHeartbeats 40000000 in
/-- The stretch does not write main_arg7. -/
theorem ck11_pass_main_arg7 (W : Valuation τ sig (Elt F)) : after ck11 W (Proc.devRef .tc main_arg7) = W (Proc.devRef .tc main_arg7) := by
  after_results_simp <;> rfl

set_option maxRecDepth 8192 in
set_option maxHeartbeats 40000000 in
/-- The stretch does not write main_arg8. -/
theorem ck11_pass_main_arg8 (W : Valuation τ sig (Elt F)) : after ck11 W (Proc.devRef .tc main_arg8) = W (Proc.devRef .tc main_arg8) := by
  after_results_simp <;> rfl

set_option maxRecDepth 8192 in
set_option maxHeartbeats 40000000 in
/-- The stretch does not write main_arg9. -/
theorem ck11_pass_main_arg9 (W : Valuation τ sig (Elt F)) : after ck11 W (Proc.devRef .tc main_arg9) = W (Proc.devRef .tc main_arg9) := by
  after_results_simp <;> rfl

end Cert.ReferenceIdeal.Seg

end
-- ==== Proof.RefCk12.lean ====
/-
  The reference's host operations 441 to 480 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck12 : List (HloOp τ sig (Elt F)) :=
  [ binary main_v283 main_v284 main_v285 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg3 main_v285 main_v286 ((fun x i => Host.gather gather_S32x64x64_S524288x2_S32x524288_0_12_n_n_12_1_3211 x i) : (⟨S32x64x64, .f32⟩ : BufTy).Contents (Elt F) → (⟨S524288x2, .i32⟩ : BufTy).Contents (Elt F) → (⟨S32x524288, .f32⟩ : BufTy).Contents (Elt F)),
    nullary main_c_93 (constantI S_ 32 0#32),
    unary main_c_93 main_v287 (broadcastInDim S524288 ![] bcast_S_S524288 : (⟨S_, .i32⟩ : BufTy).Contents (Elt F) → (⟨S524288, .i32⟩ : BufTy).Contents (Elt F)),
    binary main_v258 main_v287 main_v288 (cmpi .slt : (⟨S524288, .i32⟩ : BufTy).Contents (Elt F) → (⟨S524288, .i32⟩ : BufTy).Contents (Elt F) → (⟨S524288, .i1⟩ : BufTy).Contents (Elt F)),
    nullary main_c_94 (constantI S_ 32 64#32),
    unary main_c_94 main_v289 (broadcastInDim S524288 ![] bcast_S_S524288 : (⟨S_, .i32⟩ : BufTy).Contents (Elt F) → (⟨S524288, .i32⟩ : BufTy).Contents (Elt F)),
    binary main_v258 main_v289 main_v290 (addi : (⟨S524288, .i32⟩ : BufTy).Contents (Elt F) → (⟨S524288, .i32⟩ : BufTy).Contents (Elt F) → (⟨S524288, .i32⟩ : BufTy).Contents (Elt F)),
    ternary main_v288 main_v290 main_v258 main_v291 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_95 (constantI S_ 32 0#32),
    unary main_c_95 main_v292 (broadcastInDim S524288 ![] bcast_S_S524288 : (⟨S_, .i32⟩ : BufTy).Contents (Elt F) → (⟨S524288, .i32⟩ : BufTy).Contents (Elt F)),
    binary main_v250 main_v292 main_v293 (cmpi .slt : (⟨S524288, .i32⟩ : BufTy).Contents (Elt F) → (⟨S524288, .i32⟩ : BufTy).Contents (Elt F) → (⟨S524288, .i1⟩ : BufTy).Contents (Elt F)),
    nullary main_c_96 (constantI S_ 32 64#32),
    unary main_c_96 main_v294 (broadcastInDim S524288 ![] bcast_S_S524288 : (⟨S_, .i32⟩ : BufTy).Contents (Elt F) → (⟨S524288, .i32⟩ : BufTy).Contents (Elt F)),
    binary main_v250 main_v294 main_v295 (addi : (⟨S524288, .i32⟩ : BufTy).Contents (Elt F) → (⟨S524288, .i32⟩ : BufTy).Contents (Elt F) → (⟨S524288, .i32⟩ : BufTy).Contents (Elt F)),
    ternary main_v293 main_v295 main_v250 main_v296 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v291 main_v297 (broadcastInDim S524288x1 ![0] bcast_S524288_S524288x1_0 : (⟨S524288, .i32⟩ : BufTy).Contents (Elt F) → (⟨S524288x1, .i32⟩ : BufTy).Contents (Elt F)),
    unary main_v296 main_v298 (broadcastInDim S524288x1 ![0] bcast_S524288_S524288x1_0 : (⟨S524288, .i32⟩ : BufTy).Contents (Elt F) → (⟨S524288x1, .i32⟩ : BufTy).Contents (Elt F)),
    binary main_v297 main_v298 main_v299 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg3 main_v299 main_v300 ((fun x i => Host.gather gather_S32x64x64_S524288x2_S32x524288_0_12_n_n_12_1_3211 x i) : (⟨S32x64x64, .f32⟩ : BufTy).Contents (Elt F) → (⟨S524288x2, .i32⟩ : BufTy).Contents (Elt F) → (⟨S32x524288, .f32⟩ : BufTy).Contents (Elt F)),
    nullary main_c_97 (constantI S_ 32 0#32),
    unary main_c_97 main_v301 (broadcastInDim S524288 ![] bcast_S_S524288 : (⟨S_, .i32⟩ : BufTy).Contents (Elt F) → (⟨S524288, .i32⟩ : BufTy).Contents (Elt F)),
    binary main_v258 main_v301 main_v302 (cmpi .slt : (⟨S524288, .i32⟩ : BufTy).Contents (Elt F) → (⟨S524288, .i32⟩ : BufTy).Contents (Elt F) → (⟨S524288, .i1⟩ : BufTy).Contents (Elt F)),
    nullary main_c_98 (constantI S_ 32 64#32),
    unary main_c_98 main_v303 (broadcastInDim S524288 ![] bcast_S_S524288 : (⟨S_, .i32⟩ : BufTy).Contents (Elt F) → (⟨S524288, .i32⟩ : BufTy).Contents (Elt F)),
    binary main_v258 main_v303 main_v304 (addi : (⟨S524288, .i32⟩ : BufTy).Contents (Elt F) → (⟨S524288, .i32⟩ : BufTy).Contents (Elt F) → (⟨S524288, .i32⟩ : BufTy).Contents (Elt F)),
    ternary main_v302 main_v304 main_v258 main_v305 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_99 (constantI S_ 32 0#32),
    unary main_c_99 main_v306 (broadcastInDim S524288 ![] bcast_S_S524288 : (⟨S_, .i32⟩ : BufTy).Contents (Elt F) → (⟨S524288, .i32⟩ : BufTy).Contents (Elt F)),
    binary main_v253 main_v306 main_v307 (cmpi .slt : (⟨S524288, .i32⟩ : BufTy).Contents (Elt F) → (⟨S524288, .i32⟩ : BufTy).Contents (Elt F) → (⟨S524288, .i1⟩ : BufTy).Contents (Elt F)),
    nullary main_c_100 (constantI S_ 32 64#32),
    unary main_c_100 main_v308 (broadcastInDim S524288 ![] bcast_S_S524288 : (⟨S_, .i32⟩ : BufTy).Contents (Elt F) → (⟨S524288, .i32⟩ : BufTy).Contents (Elt F)),
    binary main_v253 main_v308 main_v309 (addi : (⟨S524288, .i32⟩ : BufTy).Contents (Elt F) → (⟨S524288, .i32⟩ : BufTy).Contents (Elt F) → (⟨S524288, .i32⟩ : BufTy).Contents (Elt F)),
    ternary main_v307 main_v309 main_v253 main_v310 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v305 main_v311 (broadcastInDim S524288x1 ![0] bcast_S524288_S524288x1_0 : (⟨S524288, .i32⟩ : BufTy).Contents (Elt F) → (⟨S524288x1, .i32⟩ : BufTy).Contents (Elt F)),
    unary main_v310 main_v312 (broadcastInDim S524288x1 ![0] bcast_S524288_S524288x1_0 : (⟨S524288, .i32⟩ : BufTy).Contents (Elt F) → (⟨S524288x1, .i32⟩ : BufTy).Contents (Elt F)),
    binary main_v311 main_v312 main_v313 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg3 main_v313 main_v314 ((fun x i => Host.gather gather_S32x64x64_S524288x2_S32x524288_0_12_n_n_12_1_3211 x i) : (⟨S32x64x64, .f32⟩ : BufTy).Contents (Elt F) → (⟨S524288x2, .i32⟩ : BufTy).Contents (Elt F) → (⟨S32x524288, .f32⟩ : BufTy).Contents (Elt F)),
    nullary main_cst_101 (constant S_ .f32 0x3F800000#32),
    unary main_cst_101 main_v315 (broadcastInDim S524288 ![] bcast_S_S524288 : (⟨S_, .f32⟩ : BufTy).Contents (Elt F) → (⟨S524288, .f32⟩ : BufTy).Contents (Elt F)) ]

set_option maxRecDepth 8192 in
set_option maxHeartbeats 40000000 in
/-- After the stretch, main_v286 holds its stage of the arguments, given that the buffers the stretch reads from before it hold theirs. -/
theorem ck12_main_v286 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg3) = x3)
    (h1 : W (Proc.devRef .tc main_v283) = (val_main_v283 (F := F) x0))
    (h2 : W (Proc.devRef .tc main_v284) = (val_main_v284 (F := F) x0)) :
    after ck12 W (Proc.devRef .tc main_v286) = (val_main_v286 (F := F) x0 x3) := by
  after_results_simp
  try simp only [val_main_v286, val_main_v285]
  try rw [← h0]
  try rw [← h1]
  try rw [← h2]
  try rfl

set_option maxRecDepth 8192 in
set_option maxHeartbeats 40000000 in
/-- After the stretch, main_v300 holds its stage of the arguments, given that the buffers the stretch reads from before it hold theirs. -/
theorem ck12_main_v300 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg3) = x3)
    (h1 : W (Proc.devRef .tc main_v258) = (val_main_v258 (F := F) x0))
    (h2 : W (Proc.devRef .tc main_v250) = (val_main_v250 (F := F) x0)) :
    after ck12 W (Proc.devRef .tc main_v300) = (val_main_v300 (F := F) x0 x3) := by
  after_results_simp
  try simp only [val_main_v300, val_main_v299, val_main_v298, val_main_v297, val_main_v296, val_main_v295, val_main_v294, val_main_c_96, val_main_v293, val_main_v292, val_main_c_95, val_main_v291, val_main_v290, val_main_v289, val_main_c_94, val_main_v288, val_main_v287, val_main_c_93]
  try rw [← h0]
  try rw [← h1]
  try rw [← h2]
  try rfl

set_option maxRecDepth 8192 in
set_option maxHeartbeats 40000000 in
/-- After the stretch, main_v314 holds its stage of the arguments, given that the buffers the stretch reads from before it hold theirs. -/
theorem ck12_main_v314 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg3) = x3)
    (h1 : W (Proc.devRef .tc main_v258) = (val_main_v258 (F := F) x0))
    (h2 : W (Proc.devRef .tc main_v253) = (val_main_v253 (F := F) x0)) :
    after ck12 W (Proc.devRef .tc main_v314) = (val_main_v314 (F := F) x0 x3) := by
  after_results_simp
  try simp only [val_main_v314, val_main_v313, val_main_v312, val_main_v311, val_main_v310, val_main_v309, val_main_v308, val_main_c_100, val_main_v307, val_main_v306, val_main_c_99, val_main_v305, val_main_v304, val_main_v303, val_main_c_98, val_main_v302, val_main_v301, val_main_c_97]
  try rw [← h0]
  try rw [← h1]
  try rw [← h2]
  try rfl

set_option maxRecDepth 8192 in
set_option maxHeartbeats 40000000 in
/-- After the stretch, main_v315 holds its stage of the arguments, given that the buffers the stretch reads from before it hold theirs. -/
theorem ck12_main_v315 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck12 W (Proc.devRef .tc main_v315) = (val_main_v315 (F := F)) := by
  after_results_simp
  try simp only [val_main_v315, val_main_cst_101]

  try rfl

set_option maxRecDepth 8192 in
set_option maxHeartbeats 40000000 in
/-- The stretch does not write main_arg0. -/
theorem ck12_pass_main_arg0 (W : Valuation τ sig (Elt F)) : after ck12 W (Proc.devRef .tc main_arg0) = W (Proc.devRef .tc main_arg0) := by
  after_results_simp <;> rfl

set_option maxRecDepth 8192 in
set_option maxHeartbeats 40000000 in
/-- The stretch does not write main_arg1. -/
theorem ck12_pass_main_arg1 (W : Valuation τ sig (Elt F)) : after ck12 W (Proc.devRef .tc main_arg1) = W (Proc.devRef .tc main_arg1) := by
  after_results_simp <;> rfl

set_option maxRecDepth 8192 in
set_option maxHeartbeats 40000000 in
/-- The stretch does not write main_arg2. -/
theorem ck12_pass_main_arg2 (W : Valuation τ sig (Elt F)) : after ck12 W (Proc.devRef .tc main_arg2) = W (Proc.devRef .tc main_arg2) := by
  after_results_simp <;> rfl

set_option maxRecDepth 8192 in
set_option maxHeartbeats 40000000 in
/-- The stretch does not write main_arg3. -/
theorem ck12_pass_main_arg3 (W : Valuation τ sig (Elt F)) : after ck12 W (Proc.devRef .tc main_arg3) = W (Proc.devRef .tc main_arg3) := by
  after_results_simp <;> rfl

set_option maxRecDepth 8192 in
set_option maxHeartbeats 40000000 in
/-- The stretch does not write main_v247. -/
theorem ck12_pass_main_v247 (W : Valuation τ sig (Elt F)) : after ck12 W (Proc.devRef .tc main_v247) = W (Proc.devRef .tc main_v247) := by
  after_results_simp <;> rfl

set_option maxRecDepth 8192 in
set_option maxHeartbeats 40000000 in
/-- The stretch does not write main_v272. -/
theorem ck12_pass_main_v272 (W : Valuation τ sig (Elt F)) : after ck12 W (Proc.devRef .tc main_v272) = W (Proc.devRef .tc main_v272) := by
  after_results_simp <;> rfl

set_option maxRecDepth 8192 in
set_option maxHeartbeats 40000000 in
/-- The stretch does not write main_v248. -/
theorem ck12_pass_main_v248 (W : Valuation τ sig (Elt F)) : after ck12 W (Proc.devRef .tc main_v248) = W (Proc.devRef .tc main_v248) := by
  after_results_simp <;> rfl

set_option maxRecDepth 8192 in
set_option maxHeartbeats 40000000 in
/-- The stretch does not write main_v228. -/
theorem ck12_pass_main_v228 (W : Valuation τ sig (Elt F)) : after ck12 W (Proc.devRef .tc main_v228) = W (Proc.devRef .tc main_v228) := by
  after_results_simp <;> rfl

set_option maxRecDepth 8192 in
set_option maxHeartbeats 40000000 in
/-- The stretch does not write main_arg4. -/
theorem ck12_pass_main_arg4 (W : Valuation τ sig (Elt F)) : after ck12 W (Proc.devRef .tc main_arg4) = W (Proc.devRef .tc main_arg4) := by
  after_results_simp <;> rfl

set_option maxRecDepth 8192 in
set_option maxHeartbeats 40000000 in
/-- The stretch does not write main_arg5. -/
theorem ck12_pass_main_arg5 (W : Valuation τ sig (Elt F)) : after ck12 W (Proc.devRef .tc main_arg5) = W (Proc.devRef .tc main_arg5) := by
  after_results_simp <;> rfl

set_option maxRecDepth 8192 in
set_option maxHeartbeats 40000000 in
/-- The stretch does not write main_arg6. -/
theorem ck12_pass_main_arg6 (W : Valuation τ sig (Elt F)) : after ck12 W (Proc.devRef .tc main_arg6) = W (Proc.devRef .tc main_arg6) := by
  after_results_simp <;> rfl

set_option maxRecDepth 8192 in
set_option maxHeartbeats 40000000 in
/-- The stretch does not write main_arg7. -/
theorem ck12_pass_main_arg7 (W : Valuation τ sig (Elt F)) : after ck12 W (Proc.devRef .tc main_arg7) = W (Proc.devRef .tc main_arg7) := by
  after_results_simp <;> rfl

set_option maxRecDepth 8192 in
set_option maxHeartbeats 40000000 in
/-- The stretch does not write main_arg8. -/
theorem ck12_pass_main_arg8 (W : Valuation τ sig (Elt F)) : after ck12 W (Proc.devRef .tc main_arg8) = W (Proc.devRef .tc main_arg8) := by
  after_results_simp <;> rfl

set_option maxRecDepth 8192 in
set_option maxHeartbeats 40000000 in
/-- The stretch does not write main_arg9. -/
theorem ck12_pass_main_arg9 (W : Valuation τ sig (Elt F)) : after ck12 W (Proc.devRef .tc main_arg9) = W (Proc.devRef .tc main_arg9) := by
  after_results_simp <;> rfl

end Cert.ReferenceIdeal.Seg

end
-- ==== Proof.RefCk13.lean ====
/-
  The reference's host operations 481 to 520 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck13 : List (HloOp τ sig (Elt F)) :=
  [ binary main_v315 main_v247 main_v316 (subf : (⟨S524288, .f32⟩ : BufTy).Contents (Elt F) → (⟨S524288, .f32⟩ : BufTy).Contents (Elt F) → (⟨S524288, .f32⟩ : BufTy).Contents (Elt F)),
    unary main_v316 main_v317 (broadcastInDim S1x524288 ![1] bcast_S524288_S1x524288_1 : (⟨S524288, .f32⟩ : BufTy).Contents (Elt F) → (⟨S1x524288, .f32⟩ : BufTy).Contents (Elt F)),
    unary main_v317 main_v318 (broadcastInDim S32x524288 ![0, 1] bcast_S1x524288_S32x524288_0_1 : (⟨S1x524288, .f32⟩ : BufTy).Contents (Elt F) → (⟨S32x524288, .f32⟩ : BufTy).Contents (Elt F)),
    binary main_v272 main_v318 main_v319 (mulf : (⟨S32x524288, .f32⟩ : BufTy).Contents (Elt F) → (⟨S32x524288, .f32⟩ : BufTy).Contents (Elt F) → (⟨S32x524288, .f32⟩ : BufTy).Contents (Elt F)),
    unary main_v247 main_v320 (broadcastInDim S1x524288 ![1] bcast_S524288_S1x524288_1 : (⟨S524288, .f32⟩ : BufTy).Contents (Elt F) → (⟨S1x524288, .f32⟩ : BufTy).Contents (Elt F)),
    unary main_v320 main_v321 (broadcastInDim S32x524288 ![0, 1] bcast_S1x524288_S32x524288_0_1 : (⟨S1x524288, .f32⟩ : BufTy).Contents (Elt F) → (⟨S32x524288, .f32⟩ : BufTy).Contents (Elt F)),
    binary main_v286 main_v321 main_v322 (mulf : (⟨S32x524288, .f32⟩ : BufTy).Contents (Elt F) → (⟨S32x524288, .f32⟩ : BufTy).Contents (Elt F) → (⟨S32x524288, .f32⟩ : BufTy).Contents (Elt F)),
    binary main_v319 main_v322 main_v323 (addf : (⟨S32x524288, .f32⟩ : BufTy).Contents (Elt F) → (⟨S32x524288, .f32⟩ : BufTy).Contents (Elt F) → (⟨S32x524288, .f32⟩ : BufTy).Contents (Elt F)),
    nullary main_cst_102 (constant S_ .f32 0x3F800000#32),
    unary main_cst_102 main_v324 (broadcastInDim S524288 ![] bcast_S_S524288 : (⟨S_, .f32⟩ : BufTy).Contents (Elt F) → (⟨S524288, .f32⟩ : BufTy).Contents (Elt F)),
    binary main_v324 main_v247 main_v325 (subf : (⟨S524288, .f32⟩ : BufTy).Contents (Elt F) → (⟨S524288, .f32⟩ : BufTy).Contents (Elt F) → (⟨S524288, .f32⟩ : BufTy).Contents (Elt F)),
    unary main_v325 main_v326 (broadcastInDim S1x524288 ![1] bcast_S524288_S1x524288_1 : (⟨S524288, .f32⟩ : BufTy).Contents (Elt F) → (⟨S1x524288, .f32⟩ : BufTy).Contents (Elt F)),
    unary main_v326 main_v327 (broadcastInDim S32x524288 ![0, 1] bcast_S1x524288_S32x524288_0_1 : (⟨S1x524288, .f32⟩ : BufTy).Contents (Elt F) → (⟨S32x524288, .f32⟩ : BufTy).Contents (Elt F)),
    binary main_v300 main_v327 main_v328 (mulf : (⟨S32x524288, .f32⟩ : BufTy).Contents (Elt F) → (⟨S32x524288, .f32⟩ : BufTy).Contents (Elt F) → (⟨S32x524288, .f32⟩ : BufTy).Contents (Elt F)),
    unary main_v247 main_v329 (broadcastInDim S1x524288 ![1] bcast_S524288_S1x524288_1 : (⟨S524288, .f32⟩ : BufTy).Contents (Elt F) → (⟨S1x524288, .f32⟩ : BufTy).Contents (Elt F)),
    unary main_v329 main_v330 (broadcastInDim S32x524288 ![0, 1] bcast_S1x524288_S32x524288_0_1 : (⟨S1x524288, .f32⟩ : BufTy).Contents (Elt F) → (⟨S32x524288, .f32⟩ : BufTy).Contents (Elt F)),
    binary main_v314 main_v330 main_v331 (mulf : (⟨S32x524288, .f32⟩ : BufTy).Contents (Elt F) → (⟨S32x524288, .f32⟩ : BufTy).Contents (Elt F) → (⟨S32x524288, .f32⟩ : BufTy).Contents (Elt F)),
    binary main_v328 main_v331 main_v332 (addf : (⟨S32x524288, .f32⟩ : BufTy).Contents (Elt F) → (⟨S32x524288, .f32⟩ : BufTy).Contents (Elt F) → (⟨S32x524288, .f32⟩ : BufTy).Contents (Elt F)),
    nullary main_cst_103 (constant S_ .f32 0x3F800000#32),
    unary main_cst_103 main_v333 (broadcastInDim S524288 ![] bcast_S_S524288 : (⟨S_, .f32⟩ : BufTy).Contents (Elt F) → (⟨S524288, .f32⟩ : BufTy).Contents (Elt F)),
    binary main_v333 main_v248 main_v334 (subf : (⟨S524288, .f32⟩ : BufTy).Contents (Elt F) → (⟨S524288, .f32⟩ : BufTy).Contents (Elt F) → (⟨S524288, .f32⟩ : BufTy).Contents (Elt F)),
    unary main_v334 main_v335 (broadcastInDim S1x524288 ![1] bcast_S524288_S1x524288_1 : (⟨S524288, .f32⟩ : BufTy).Contents (Elt F) → (⟨S1x524288, .f32⟩ : BufTy).Contents (Elt F)),
    unary main_v335 main_v336 (broadcastInDim S32x524288 ![0, 1] bcast_S1x524288_S32x524288_0_1 : (⟨S1x524288, .f32⟩ : BufTy).Contents (Elt F) → (⟨S32x524288, .f32⟩ : BufTy).Contents (Elt F)),
    binary main_v323 main_v336 main_v337 (mulf : (⟨S32x524288, .f32⟩ : BufTy).Contents (Elt F) → (⟨S32x524288, .f32⟩ : BufTy).Contents (Elt F) → (⟨S32x524288, .f32⟩ : BufTy).Contents (Elt F)),
    unary main_v248 main_v338 (broadcastInDim S1x524288 ![1] bcast_S524288_S1x524288_1 : (⟨S524288, .f32⟩ : BufTy).Contents (Elt F) → (⟨S1x524288, .f32⟩ : BufTy).Contents (Elt F)),
    unary main_v338 main_v339 (broadcastInDim S32x524288 ![0, 1] bcast_S1x524288_S32x524288_0_1 : (⟨S1x524288, .f32⟩ : BufTy).Contents (Elt F) → (⟨S32x524288, .f32⟩ : BufTy).Contents (Elt F)),
    binary main_v332 main_v339 main_v340 (mulf : (⟨S32x524288, .f32⟩ : BufTy).Contents (Elt F) → (⟨S32x524288, .f32⟩ : BufTy).Contents (Elt F) → (⟨S32x524288, .f32⟩ : BufTy).Contents (Elt F)),
    binary main_v337 main_v340 main_v341 (addf : (⟨S32x524288, .f32⟩ : BufTy).Contents (Elt F) → (⟨S32x524288, .f32⟩ : BufTy).Contents (Elt F) → (⟨S32x524288, .f32⟩ : BufTy).Contents (Elt F)),
    binary main_v228 main_v341 main_v342 (mulf : (⟨S32x524288, .f32⟩ : BufTy).Contents (Elt F) → (⟨S32x524288, .f32⟩ : BufTy).Contents (Elt F) → (⟨S32x524288, .f32⟩ : BufTy).Contents (Elt F)),
    unary main_v342 main_v343 ((transpose S524288x32 [1, 0] · transposes_S32x524288_S524288x32_1_0) : (⟨S32x524288, .f32⟩ : BufTy).Contents (Elt F) → (⟨S524288x32, .f32⟩ : BufTy).Contents (Elt F)),
    unary main_arg0 main_v344 ((extractStridedSlice S524288x1 ![0, 0] · slices_S524288x3_S524288x1_0_0) : (⟨S524288x3, .f32⟩ : BufTy).Contents (Elt F) → (⟨S524288x1, .f32⟩ : BufTy).Contents (Elt F)),
    reshape main_v344 main_v345 rfl shapeCasts_S524288x1_S524288,
    unary main_arg0 main_v346 ((extractStridedSlice S524288x1 ![0, 1] · slices_S524288x3_S524288x1_0_1) : (⟨S524288x3, .f32⟩ : BufTy).Contents (Elt F) → (⟨S524288x1, .f32⟩ : BufTy).Contents (Elt F)),
    reshape main_v346 main_v347 rfl shapeCasts_S524288x1_S524288,
    nullary main_cst_104 (constant S_ .f32 0x3F800000#32),
    unary main_cst_104 main_v348 (broadcastInDim S524288 ![] bcast_S_S524288 : (⟨S_, .f32⟩ : BufTy).Contents (Elt F) → (⟨S524288, .f32⟩ : BufTy).Contents (Elt F)),
    binary main_v345 main_v348 main_v349 (addf : (⟨S524288, .f32⟩ : BufTy).Contents (Elt F) → (⟨S524288, .f32⟩ : BufTy).Contents (Elt F) → (⟨S524288, .f32⟩ : BufTy).Contents (Elt F)),
    nullary main_cst_105 (constant S_ .f32 0x3F000000#32),
    unary main_cst_105 main_v350 (broadcastInDim S524288 ![] bcast_S_S524288 : (⟨S_, .f32⟩ : BufTy).Contents (Elt F) → (⟨S524288, .f32⟩ : BufTy).Contents (Elt F)),
    binary main_v349 main_v350 main_v351 (mulf : (⟨S524288, .f32⟩ : BufTy).Contents (Elt F) → (⟨S524288, .f32⟩ : BufTy).Contents (Elt F) → (⟨S524288, .f32⟩ : BufTy).Contents (Elt F)) ]

set_option maxRecDepth 8192 in
set_option maxHeartbeats 40000000 in
/-- After the stretch, main_v343 holds its stage of the arguments, given that the buffers the stretch reads from before it hold theirs. -/
theorem ck13_main_v343 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v228) = (val_main_v228 (F := F) x0 x1 x2))
    (h1 : W (Proc.devRef .tc main_v272) = (val_main_v272 (F := F) x0 x3))
    (h2 : W (Proc.devRef .tc main_v315) = (val_main_v315 (F := F)))
    (h3 : W (Proc.devRef .tc main_v247) = (val_main_v247 (F := F) x0))
    (h4 : W (Proc.devRef .tc main_v286) = (val_main_v286 (F := F) x0 x3))
    (h5 : W (Proc.devRef .tc main_v248) = (val_main_v248 (F := F) x0))
    (h6 : W (Proc.devRef .tc main_v300) = (val_main_v300 (F := F) x0 x3))
    (h7 : W (Proc.devRef .tc main_v314) = (val_main_v314 (F := F) x0 x3)) :
    after ck13 W (Proc.devRef .tc main_v343) = (val_main_v343 (F := F) x0 x1 x2 x3) := by
  after_results_simp
  try simp only [val_main_v343, val_main_v342, val_main_v341, val_main_v340, val_main_v339, val_main_v338, val_main_v337, val_main_v336, val_main_v335, val_main_v334, val_main_v333, val_main_cst_103, val_main_v332, val_main_v331, val_main_v330, val_main_v329, val_main_v328, val_main_v327, val_main_v326, val_main_v325, val_main_v324, val_main_cst_102, val_main_v323, val_main_v322, val_main_v321, val_main_v320, val_main_v319, val_main_v318, val_main_v317, val_main_v316]
  try rw [← h0]
  try rw [← h1]
  try rw [← h2]
  try rw [← h3]
  try rw [← h4]
  try rw [← h5]
  try rw [← h6]
  try rw [← h7]
  try rfl

set_option maxRecDepth 8192 in
set_option maxHeartbeats 40000000 in
/-- After the stretch, main_v347 holds its stage of the arguments, given that the buffers the stretch reads from before it hold theirs. -/
theorem ck13_main_v347 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck13 W (Proc.devRef .tc main_v347) = (val_main_v347 (F := F) x0) := by
  after_results_simp
  try simp only [val_main_v347, val_main_v346]
  try rw [← h0]
  try rfl

set_option maxRecDepth 8192 in
set_option maxHeartbeats 40000000 in
/-- After the stretch, main_v351 holds its stage of the arguments, given that the buffers the stretch reads from before it hold theirs. -/
theorem ck13_main_v351 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck13 W (Proc.devRef .tc main_v351) = (val_main_v351 (F := F) x0) := by
  after_results_simp
  try simp only [val_main_v351, val_main_v350, val_main_cst_105, val_main_v349, val_main_v348, val_main_cst_104, val_main_v345, val_main_v344]
  try rw [← h0]
  try rfl

set_option maxRecDepth 8192 in
set_option maxHeartbeats 40000000 in
/-- The stretch does not write main_arg0. -/
theorem ck13_pass_main_arg0 (W : Valuation τ sig (Elt F)) : after ck13 W (Proc.devRef .tc main_arg0) = W (Proc.devRef .tc main_arg0) := by
  after_results_simp <;> rfl

set_option maxRecDepth 8192 in
set_option maxHeartbeats 40000000 in
/-- The stretch does not write main_arg1. -/
theorem ck13_pass_main_arg1 (W : Valuation τ sig (Elt F)) : after ck13 W (Proc.devRef .tc main_arg1) = W (Proc.devRef .tc main_arg1) := by
  after_results_simp <;> rfl

set_option maxRecDepth 8192 in
set_option maxHeartbeats 40000000 in
/-- The stretch does not write main_arg2. -/
theorem ck13_pass_main_arg2 (W : Valuation τ sig (Elt F)) : after ck13 W (Proc.devRef .tc main_arg2) = W (Proc.devRef .tc main_arg2) := by
  after_results_simp <;> rfl

set_option maxRecDepth 8192 in
set_option maxHeartbeats 40000000 in
/-- The stretch does not write main_arg3. -/
theorem ck13_pass_main_arg3 (W : Valuation τ sig (Elt F)) : after ck13 W (Proc.devRef .tc main_arg3) = W (Proc.devRef .tc main_arg3) := by
  after_results_simp <;> rfl

set_option maxRecDepth 8192 in
set_option maxHeartbeats 40000000 in
/-- The stretch does not write main_arg4. -/
theorem ck13_pass_main_arg4 (W : Valuation τ sig (Elt F)) : after ck13 W (Proc.devRef .tc main_arg4) = W (Proc.devRef .tc main_arg4) := by
  after_results_simp <;> rfl

set_option maxRecDepth 8192 in
set_option maxHeartbeats 40000000 in
/-- The stretch does not write main_arg5. -/
theorem ck13_pass_main_arg5 (W : Valuation τ sig (Elt F)) : after ck13 W (Proc.devRef .tc main_arg5) = W (Proc.devRef .tc main_arg5) := by
  after_results_simp <;> rfl

set_option maxRecDepth 8192 in
set_option maxHeartbeats 40000000 in
/-- The stretch does not write main_arg6. -/
theorem ck13_pass_main_arg6 (W : Valuation τ sig (Elt F)) : after ck13 W (Proc.devRef .tc main_arg6) = W (Proc.devRef .tc main_arg6) := by
  after_results_simp <;> rfl

set_option maxRecDepth 8192 in
set_option maxHeartbeats 40000000 in
/-- The stretch does not write main_arg7. -/
theorem ck13_pass_main_arg7 (W : Valuation τ sig (Elt F)) : after ck13 W (Proc.devRef .tc main_arg7) = W (Proc.devRef .tc main_arg7) := by
  after_results_simp <;> rfl

set_option maxRecDepth 8192 in
set_option maxHeartbeats 40000000 in
/-- The stretch does not write main_arg8. -/
theorem ck13_pass_main_arg8 (W : Valuation τ sig (Elt F)) : after ck13 W (Proc.devRef .tc main_arg8) = W (Proc.devRef .tc main_arg8) := by
  after_results_simp <;> rfl

set_option maxRecDepth 8192 in
set_option maxHeartbeats 40000000 in
/-- The stretch does not write main_arg9. -/
theorem ck13_pass_main_arg9 (W : Valuation τ sig (Elt F)) : after ck13 W (Proc.devRef .tc main_arg9) = W (Proc.devRef .tc main_arg9) := by
  after_results_simp <;> rfl

end Cert.ReferenceIdeal.Seg

end
-- ==== Proof.RefCk14.lean ====
/-
  The reference's host operations 521 to 560 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck14 : List (HloOp τ sig (Elt F)) :=
  [ nullary main_cst_106 (constant S_ .f32 0x42FE0000#32),
    unary main_cst_106 main_v352 (broadcastInDim S524288 ![] bcast_S_S524288 : (⟨S_, .f32⟩ : BufTy).Contents (Elt F) → (⟨S524288, .f32⟩ : BufTy).Contents (Elt F)),
    binary main_v351 main_v352 main_v353 (mulf : (⟨S524288, .f32⟩ : BufTy).Contents (Elt F) → (⟨S524288, .f32⟩ : BufTy).Contents (Elt F) → (⟨S524288, .f32⟩ : BufTy).Contents (Elt F)),
    nullary main_cst_107 (constant S_ .f32 0x3F800000#32),
    unary main_cst_107 main_v354 (broadcastInDim S524288 ![] bcast_S_S524288 : (⟨S_, .f32⟩ : BufTy).Contents (Elt F) → (⟨S524288, .f32⟩ : BufTy).Contents (Elt F)),
    binary main_v347 main_v354 main_v355 (addf : (⟨S524288, .f32⟩ : BufTy).Contents (Elt F) → (⟨S524288, .f32⟩ : BufTy).Contents (Elt F) → (⟨S524288, .f32⟩ : BufTy).Contents (Elt F)),
    nullary main_cst_108 (constant S_ .f32 0x3F000000#32),
    unary main_cst_108 main_v356 (broadcastInDim S524288 ![] bcast_S_S524288 : (⟨S_, .f32⟩ : BufTy).Contents (Elt F) → (⟨S524288, .f32⟩ : BufTy).Contents (Elt F)),
    binary main_v355 main_v356 main_v357 (mulf : (⟨S524288, .f32⟩ : BufTy).Contents (Elt F) → (⟨S524288, .f32⟩ : BufTy).Contents (Elt F) → (⟨S524288, .f32⟩ : BufTy).Contents (Elt F)),
    nullary main_cst_109 (constant S_ .f32 0x42FE0000#32),
    unary main_cst_109 main_v358 (broadcastInDim S524288 ![] bcast_S_S524288 : (⟨S_, .f32⟩ : BufTy).Contents (Elt F) → (⟨S524288, .f32⟩ : BufTy).Contents (Elt F)),
    binary main_v357 main_v358 main_v359 (mulf : (⟨S524288, .f32⟩ : BufTy).Contents (Elt F) → (⟨S524288, .f32⟩ : BufTy).Contents (Elt F) → (⟨S524288, .f32⟩ : BufTy).Contents (Elt F)),
    unary main_v353 main_v360 (Host.floor : (⟨S524288, .f32⟩ : BufTy).Contents (Elt F) → (⟨S524288, .f32⟩ : BufTy).Contents (Elt F)),
    unary main_v359 main_v361 (Host.floor : (⟨S524288, .f32⟩ : BufTy).Contents (Elt F) → (⟨S524288, .f32⟩ : BufTy).Contents (Elt F)),
    binary main_v353 main_v360 main_v362 (subf : (⟨S524288, .f32⟩ : BufTy).Contents (Elt F) → (⟨S524288, .f32⟩ : BufTy).Contents (Elt F) → (⟨S524288, .f32⟩ : BufTy).Contents (Elt F)),
    binary main_v359 main_v361 main_v363 (subf : (⟨S524288, .f32⟩ : BufTy).Contents (Elt F) → (⟨S524288, .f32⟩ : BufTy).Contents (Elt F) → (⟨S524288, .f32⟩ : BufTy).Contents (Elt F)),
    unary main_v360 main_v364 (fptosi 32 : (⟨S524288, .f32⟩ : BufTy).Contents (Elt F) → (⟨S524288, .i32⟩ : BufTy).Contents (Elt F)),
    nullary main_c_110 (constantI S_ 32 0#32),
    nullary main_c_111 (constantI S_ 32 127#32),
    TRef.unary (TRef.of (T := ⟨S_, .i32⟩) main_c_110) (TRef.of (T := ⟨S_, .i32⟩) main_call12_v0) id,
    TRef.unary (TRef.of (T := ⟨S_, .i32⟩) main_call12_v0) (TRef.of (T := ⟨S524288, .i32⟩) main_call12_v1) (broadcastInDim S524288 ![] bcast_S_S524288),
    TRef.binary (TRef.of (T := ⟨S524288, .i32⟩) main_call12_v1) (TRef.of (T := ⟨S524288, .i32⟩) main_v364) (TRef.of (T := ⟨S524288, .i32⟩) main_call12_v2) maxsi,
    TRef.unary (TRef.of (T := ⟨S_, .i32⟩) main_c_111) (TRef.of (T := ⟨S_, .i32⟩) main_call12_v3) id,
    TRef.unary (TRef.of (T := ⟨S_, .i32⟩) main_call12_v3) (TRef.of (T := ⟨S524288, .i32⟩) main_call12_v4) (broadcastInDim S524288 ![] bcast_S_S524288),
    TRef.binary (TRef.of (T := ⟨S524288, .i32⟩) main_call12_v4) (TRef.of (T := ⟨S524288, .i32⟩) main_call12_v2) (TRef.of (T := ⟨S524288, .i32⟩) main_v365) minsi,
    nullary main_c_112 (constantI S_ 32 1#32),
    unary main_c_112 main_v366 (broadcastInDim S524288 ![] bcast_S_S524288 : (⟨S_, .i32⟩ : BufTy).Contents (Elt F) → (⟨S524288, .i32⟩ : BufTy).Contents (Elt F)),
    binary main_v365 main_v366 main_v367 (addi : (⟨S524288, .i32⟩ : BufTy).Contents (Elt F) → (⟨S524288, .i32⟩ : BufTy).Contents (Elt F) → (⟨S524288, .i32⟩ : BufTy).Contents (Elt F)),
    nullary main_c_113 (constantI S_ 32 0#32),
    nullary main_c_114 (constantI S_ 32 127#32),
    TRef.unary (TRef.of (T := ⟨S_, .i32⟩) main_c_113) (TRef.of (T := ⟨S_, .i32⟩) main_call13_v0) id,
    TRef.unary (TRef.of (T := ⟨S_, .i32⟩) main_call13_v0) (TRef.of (T := ⟨S524288, .i32⟩) main_call13_v1) (broadcastInDim S524288 ![] bcast_S_S524288),
    TRef.binary (TRef.of (T := ⟨S524288, .i32⟩) main_call13_v1) (TRef.of (T := ⟨S524288, .i32⟩) main_v367) (TRef.of (T := ⟨S524288, .i32⟩) main_call13_v2) maxsi,
    TRef.unary (TRef.of (T := ⟨S_, .i32⟩) main_c_114) (TRef.of (T := ⟨S_, .i32⟩) main_call13_v3) id,
    TRef.unary (TRef.of (T := ⟨S_, .i32⟩) main_call13_v3) (TRef.of (T := ⟨S524288, .i32⟩) main_call13_v4) (broadcastInDim S524288 ![] bcast_S_S524288),
    TRef.binary (TRef.of (T := ⟨S524288, .i32⟩) main_call13_v4) (TRef.of (T := ⟨S524288, .i32⟩) main_call13_v2) (TRef.of (T := ⟨S524288, .i32⟩) main_v368) minsi,
    unary main_v361 main_v369 (fptosi 32 : (⟨S524288, .f32⟩ : BufTy).Contents (Elt F) → (⟨S524288, .i32⟩ : BufTy).Contents (Elt F)),
    nullary main_c_115 (constantI S_ 32 0#32),
    nullary main_c_116 (constantI S_ 32 127#32),
    TRef.unary (TRef.of (T := ⟨S_, .i32⟩) main_c_115) (TRef.of (T := ⟨S_, .i32⟩) main_call14_v0) id ]

set_option maxRecDepth 8192 in
set_option maxHeartbeats 40000000 in
/-- After the stretch, main_v362 holds its stage of the arguments, given that the buffers the stretch reads from before it hold theirs. -/
theorem ck14_main_v362 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v351) = (val_main_v351 (F := F) x0)) :
    after ck14 W (Proc.devRef .tc main_v362) = (val_main_v362 (F := F) x0) := by
  after_results_simp
  try simp only [val_main_v362, val_main_v360, val_main_v353, val_main_v352, val_main_cst_106]
  try rw [← h0]
  try rfl

set_option maxRecDepth 8192 in
set_option maxHeartbeats 40000000 in
/-- After the stretch, main_v363 holds its stage of the arguments, given that the buffers the stretch reads from before it hold theirs. -/
theorem ck14_main_v363 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v347) = (val_main_v347 (F := F) x0)) :
    after ck14 W (Proc.devRef .tc main_v363) = (val_main_v363 (F := F) x0) := by
  after_results_simp
  try simp only [val_main_v363, val_main_v361, val_main_v359, val_main_v358, val_main_cst_109, val_main_v357, val_main_v356, val_main_cst_108, val_main_v355, val_main_v354, val_main_cst_107]
  try rw [← h0]
  try rfl

set_option maxRecDepth 8192 in
set_option maxHeartbeats 40000000 in
/-- After the stretch, main_v365 holds its stage of the arguments, given that the buffers the stretch reads from before it hold theirs. -/
theorem ck14_main_v365 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v351) = (val_main_v351 (F := F) x0)) :
    after ck14 W (Proc.devRef .tc main_v365) = (val_main_v365 (F := F) x0) := by
  after_results_simp
  try simp only [val_main_v365, val_main_call12_v4, val_main_call12_v3, val_main_call12_v2, val_main_call12_v1, val_main_call12_v0, val_main_c_111, val_main_c_110, val_main_v364, val_main_v360, val_main_v353, val_main_v352, val_main_cst_106]
  try rw [← h0]
  try rfl

set_option maxRecDepth 8192 in
set_option maxHeartbeats 40000000 in
/-- After the stretch, main_v368 holds its stage of the arguments, given that the buffers the stretch reads from before it hold theirs. -/
theorem ck14_main_v368 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v351) = (val_main_v351 (F := F) x0)) :
    after ck14 W (Proc.devRef .tc main_v368) = (val_main_v368 (F := F) x0) := by
  after_results_simp
  try simp only [val_main_v368, val_main_call13_v4, val_main_call13_v3, val_main_call13_v2, val_main_call13_v1, val_main_call13_v0, val_main_c_114, val_main_c_113, val_main_v367, val_main_v366, val_main_c_112, val_main_v365, val_main_call12_v4, val_main_call12_v3, val_main_call12_v2, val_main_call12_v1, val_main_call12_v0, val_main_c_111, val_main_c_110, val_main_v364, val_main_v360, val_main_v353, val_main_v352, val_main_cst_106]
  try rw [← h0]
  try rfl

set_option maxRecDepth 8192 in
set_option maxHeartbeats 40000000 in
/-- After the stretch, main_v369 holds its stage of the arguments, given that the buffers the stretch reads from before it hold theirs. -/
theorem ck14_main_v369 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v347) = (val_main_v347 (F := F) x0)) :
    after ck14 W (Proc.devRef .tc main_v369) = (val_main_v369 (F := F) x0) := by
  after_results_simp
  try simp only [val_main_v369, val_main_v361, val_main_v359, val_main_v358, val_main_cst_109, val_main_v357, val_main_v356, val_main_cst_108, val_main_v355, val_main_v354, val_main_cst_107]
  try rw [← h0]
  try rfl

set_option maxRecDepth 8192 in
set_option maxHeartbeats 40000000 in
/-- After the stretch, main_c_116 holds its stage of the arguments, given that the buffers the stretch reads from before it hold theirs. -/
theorem ck14_main_c_116 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck14 W (Proc.devRef .tc main_c_116) = (val_main_c_116 (F := F)) := by
  after_results_simp
  try simp only [val_main_c_116]

  try rfl

set_option maxRecDepth 8192 in
set_option maxHeartbeats 40000000 in
/-- After the stretch, main_call14_v0 holds its stage of the arguments, given that the buffers the stretch reads from before it hold theirs. -/
theorem ck14_main_call14_v0 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck14 W (Proc.devRef .tc main_call14_v0) = (val_main_call14_v0 (F := F)) := by
  after_results_simp
  try simp only [val_main_call14_v0, val_main_c_115]

  try rfl

set_option maxRecDepth 8192 in
set_option maxHeartbeats 40000000 in
/-- The stretch does not write main_arg0. -/
theorem ck14_pass_main_arg0 (W : Valuation τ sig (Elt F)) : after ck14 W (Proc.devRef .tc main_arg0) = W (Proc.devRef .tc main_arg0) := by
  after_results_simp <;> rfl

set_option maxRecDepth 8192 in
set_option maxHeartbeats 40000000 in
/-- The stretch does not write main_arg1. -/
theorem ck14_pass_main_arg1 (W : Valuation τ sig (Elt F)) : after ck14 W (Proc.devRef .tc main_arg1) = W (Proc.devRef .tc main_arg1) := by
  after_results_simp <;> rfl

set_option maxRecDepth 8192 in
set_option maxHeartbeats 40000000 in
/-- The stretch does not write main_arg2. -/
theorem ck14_pass_main_arg2 (W : Valuation τ sig (Elt F)) : after ck14 W (Proc.devRef .tc main_arg2) = W (Proc.devRef .tc main_arg2) := by
  after_results_simp <;> rfl

set_option maxRecDepth 8192 in
set_option maxHeartbeats 40000000 in
/-- The stretch does not write main_arg3. -/
theorem ck14_pass_main_arg3 (W : Valuation τ sig (Elt F)) : after ck14 W (Proc.devRef .tc main_arg3) = W (Proc.devRef .tc main_arg3) := by
  after_results_simp <;> rfl

set_option maxRecDepth 8192 in
set_option maxHeartbeats 40000000 in
/-- The stretch does not write main_arg4. -/
theorem ck14_pass_main_arg4 (W : Valuation τ sig (Elt F)) : after ck14 W (Proc.devRef .tc main_arg4) = W (Proc.devRef .tc main_arg4) := by
  after_results_simp <;> rfl

set_option maxRecDepth 8192 in
set_option maxHeartbeats 40000000 in
/-- The stretch does not write main_arg5. -/
theorem ck14_pass_main_arg5 (W : Valuation τ sig (Elt F)) : after ck14 W (Proc.devRef .tc main_arg5) = W (Proc.devRef .tc main_arg5) := by
  after_results_simp <;> rfl

set_option maxRecDepth 8192 in
set_option maxHeartbeats 40000000 in
/-- The stretch does not write main_arg6. -/
theorem ck14_pass_main_arg6 (W : Valuation τ sig (Elt F)) : after ck14 W (Proc.devRef .tc main_arg6) = W (Proc.devRef .tc main_arg6) := by
  after_results_simp <;> rfl

set_option maxRecDepth 8192 in
set_option maxHeartbeats 40000000 in
/-- The stretch does not write main_arg7. -/
theorem ck14_pass_main_arg7 (W : Valuation τ sig (Elt F)) : after ck14 W (Proc.devRef .tc main_arg7) = W (Proc.devRef .tc main_arg7) := by
  after_results_simp <;> rfl

set_option maxRecDepth 8192 in
set_option maxHeartbeats 40000000 in
/-- The stretch does not write main_arg8. -/
theorem ck14_pass_main_arg8 (W : Valuation τ sig (Elt F)) : after ck14 W (Proc.devRef .tc main_arg8) = W (Proc.devRef .tc main_arg8) := by
  after_results_simp <;> rfl

set_option maxRecDepth 8192 in
set_option maxHeartbeats 40000000 in
/-- The stretch does not write main_arg9. -/
theorem ck14_pass_main_arg9 (W : Valuation τ sig (Elt F)) : after ck14 W (Proc.devRef .tc main_arg9) = W (Proc.devRef .tc main_arg9) := by
  after_results_simp <;> rfl

set_option maxRecDepth 8192 in
set_option maxHeartbeats 40000000 in
/-- The stretch does not write main_v343. -/
theorem ck14_pass_main_v343 (W : Valuation τ sig (Elt F)) : after ck14 W (Proc.devRef .tc main_v343) = W (Proc.devRef .tc main_v343) := by
  after_results_simp <;> rfl

end Cert.ReferenceIdeal.Seg

end
-- ==== Proof.RefCk15.lean ====
/-
  The reference's host operations 561 to 600 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck15 : List (HloOp τ sig (Elt F)) :=
  [ TRef.unary (TRef.of (T := ⟨S_, .i32⟩) main_call14_v0) (TRef.of (T := ⟨S524288, .i32⟩) main_call14_v1) (broadcastInDim S524288 ![] bcast_S_S524288),
    TRef.binary (TRef.of (T := ⟨S524288, .i32⟩) main_call14_v1) (TRef.of (T := ⟨S524288, .i32⟩) main_v369) (TRef.of (T := ⟨S524288, .i32⟩) main_call14_v2) maxsi,
    TRef.unary (TRef.of (T := ⟨S_, .i32⟩) main_c_116) (TRef.of (T := ⟨S_, .i32⟩) main_call14_v3) id,
    TRef.unary (TRef.of (T := ⟨S_, .i32⟩) main_call14_v3) (TRef.of (T := ⟨S524288, .i32⟩) main_call14_v4) (broadcastInDim S524288 ![] bcast_S_S524288),
    TRef.binary (TRef.of (T := ⟨S524288, .i32⟩) main_call14_v4) (TRef.of (T := ⟨S524288, .i32⟩) main_call14_v2) (TRef.of (T := ⟨S524288, .i32⟩) main_v370) minsi,
    nullary main_c_117 (constantI S_ 32 1#32),
    unary main_c_117 main_v371 (broadcastInDim S524288 ![] bcast_S_S524288 : (⟨S_, .i32⟩ : BufTy).Contents (Elt F) → (⟨S524288, .i32⟩ : BufTy).Contents (Elt F)),
    binary main_v370 main_v371 main_v372 (addi : (⟨S524288, .i32⟩ : BufTy).Contents (Elt F) → (⟨S524288, .i32⟩ : BufTy).Contents (Elt F) → (⟨S524288, .i32⟩ : BufTy).Contents (Elt F)),
    nullary main_c_118 (constantI S_ 32 0#32),
    nullary main_c_119 (constantI S_ 32 127#32),
    TRef.unary (TRef.of (T := ⟨S_, .i32⟩) main_c_118) (TRef.of (T := ⟨S_, .i32⟩) main_call15_v0) id,
    TRef.unary (TRef.of (T := ⟨S_, .i32⟩) main_call15_v0) (TRef.of (T := ⟨S524288, .i32⟩) main_call15_v1) (broadcastInDim S524288 ![] bcast_S_S524288),
    TRef.binary (TRef.of (T := ⟨S524288, .i32⟩) main_call15_v1) (TRef.of (T := ⟨S524288, .i32⟩) main_v372) (TRef.of (T := ⟨S524288, .i32⟩) main_call15_v2) maxsi,
    TRef.unary (TRef.of (T := ⟨S_, .i32⟩) main_c_119) (TRef.of (T := ⟨S_, .i32⟩) main_call15_v3) id,
    TRef.unary (TRef.of (T := ⟨S_, .i32⟩) main_call15_v3) (TRef.of (T := ⟨S524288, .i32⟩) main_call15_v4) (broadcastInDim S524288 ![] bcast_S_S524288),
    TRef.binary (TRef.of (T := ⟨S524288, .i32⟩) main_call15_v4) (TRef.of (T := ⟨S524288, .i32⟩) main_call15_v2) (TRef.of (T := ⟨S524288, .i32⟩) main_v373) minsi,
    nullary main_c_120 (constantI S_ 32 0#32),
    unary main_c_120 main_v374 (broadcastInDim S524288 ![] bcast_S_S524288 : (⟨S_, .i32⟩ : BufTy).Contents (Elt F) → (⟨S524288, .i32⟩ : BufTy).Contents (Elt F)),
    binary main_v370 main_v374 main_v375 (cmpi .slt : (⟨S524288, .i32⟩ : BufTy).Contents (Elt F) → (⟨S524288, .i32⟩ : BufTy).Contents (Elt F) → (⟨S524288, .i1⟩ : BufTy).Contents (Elt F)),
    nullary main_c_121 (constantI S_ 32 128#32),
    unary main_c_121 main_v376 (broadcastInDim S524288 ![] bcast_S_S524288 : (⟨S_, .i32⟩ : BufTy).Contents (Elt F) → (⟨S524288, .i32⟩ : BufTy).Contents (Elt F)),
    binary main_v370 main_v376 main_v377 (addi : (⟨S524288, .i32⟩ : BufTy).Contents (Elt F) → (⟨S524288, .i32⟩ : BufTy).Contents (Elt F) → (⟨S524288, .i32⟩ : BufTy).Contents (Elt F)),
    ternary main_v375 main_v377 main_v370 main_v378 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_122 (constantI S_ 32 0#32),
    unary main_c_122 main_v379 (broadcastInDim S524288 ![] bcast_S_S524288 : (⟨S_, .i32⟩ : BufTy).Contents (Elt F) → (⟨S524288, .i32⟩ : BufTy).Contents (Elt F)),
    binary main_v365 main_v379 main_v380 (cmpi .slt : (⟨S524288, .i32⟩ : BufTy).Contents (Elt F) → (⟨S524288, .i32⟩ : BufTy).Contents (Elt F) → (⟨S524288, .i1⟩ : BufTy).Contents (Elt F)),
    nullary main_c_123 (constantI S_ 32 128#32),
    unary main_c_123 main_v381 (broadcastInDim S524288 ![] bcast_S_S524288 : (⟨S_, .i32⟩ : BufTy).Contents (Elt F) → (⟨S524288, .i32⟩ : BufTy).Contents (Elt F)),
    binary main_v365 main_v381 main_v382 (addi : (⟨S524288, .i32⟩ : BufTy).Contents (Elt F) → (⟨S524288, .i32⟩ : BufTy).Contents (Elt F) → (⟨S524288, .i32⟩ : BufTy).Contents (Elt F)),
    ternary main_v380 main_v382 main_v365 main_v383 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v378 main_v384 (broadcastInDim S524288x1 ![0] bcast_S524288_S524288x1_0 : (⟨S524288, .i32⟩ : BufTy).Contents (Elt F) → (⟨S524288x1, .i32⟩ : BufTy).Contents (Elt F)),
    unary main_v383 main_v385 (broadcastInDim S524288x1 ![0] bcast_S524288_S524288x1_0 : (⟨S524288, .i32⟩ : BufTy).Contents (Elt F) → (⟨S524288x1, .i32⟩ : BufTy).Contents (Elt F)),
    binary main_v384 main_v385 main_v386 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg4 main_v386 main_v387 ((fun x i => Host.gather gather_S32x128x128_S524288x2_S32x524288_0_12_n_n_12_1_3211 x i) : (⟨S32x128x128, .f32⟩ : BufTy).Contents (Elt F) → (⟨S524288x2, .i32⟩ : BufTy).Contents (Elt F) → (⟨S32x524288, .f32⟩ : BufTy).Contents (Elt F)),
    nullary main_c_124 (constantI S_ 32 0#32),
    unary main_c_124 main_v388 (broadcastInDim S524288 ![] bcast_S_S524288 : (⟨S_, .i32⟩ : BufTy).Contents (Elt F) → (⟨S524288, .i32⟩ : BufTy).Contents (Elt F)),
    binary main_v370 main_v388 main_v389 (cmpi .slt : (⟨S524288, .i32⟩ : BufTy).Contents (Elt F) → (⟨S524288, .i32⟩ : BufTy).Contents (Elt F) → (⟨S524288, .i1⟩ : BufTy).Contents (Elt F)),
    nullary main_c_125 (constantI S_ 32 128#32),
    unary main_c_125 main_v390 (broadcastInDim S524288 ![] bcast_S_S524288 : (⟨S_, .i32⟩ : BufTy).Contents (Elt F) → (⟨S524288, .i32⟩ : BufTy).Contents (Elt F)),
    binary main_v370 main_v390 main_v391 (addi : (⟨S524288, .i32⟩ : BufTy).Contents (Elt F) → (⟨S524288, .i32⟩ : BufTy).Contents (Elt F) → (⟨S524288, .i32⟩ : BufTy).Contents (Elt F)) ]

set_option maxRecDepth 8192 in
set_option maxHeartbeats 40000000 in
/-- After the stretch, main_v370 holds its stage of the arguments, given that the buffers the stretch reads from before it hold theirs. -/
theorem ck15_main_v370 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_c_116) = (val_main_c_116 (F := F)))
    (h1 : W (Proc.devRef .tc main_call14_v0) = (val_main_call14_v0 (F := F)))
    (h2 : W (Proc.devRef .tc main_v369) = (val_main_v369 (F := F) x0)) :
    after ck15 W (Proc.devRef .tc main_v370) = (val_main_v370 (F := F) x0) := by
  after_results_simp
  try simp only [val_main_v370, val_main_call14_v4, val_main_call14_v3, val_main_call14_v2, val_main_call14_v1]
  try rw [← h0]
  try rw [← h1]
  try rw [← h2]
  try rfl

set_option maxRecDepth 8192 in
set_option maxHeartbeats 40000000 in
/-- After the stretch, main_v373 holds its stage of the arguments, given that the buffers the stretch reads from before it hold theirs. -/
theorem ck15_main_v373 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_c_116) = (val_main_c_116 (F := F)))
    (h1 : W (Proc.devRef .tc main_call14_v0) = (val_main_call14_v0 (F := F)))
    (h2 : W (Proc.devRef .tc main_v369) = (val_main_v369 (F := F) x0)) :
    after ck15 W (Proc.devRef .tc main_v373) = (val_main_v373 (F := F) x0) := by
  after_results_simp
  try simp only [val_main_v373, val_main_call15_v4, val_main_call15_v3, val_main_call15_v2, val_main_call15_v1, val_main_call15_v0, val_main_c_119, val_main_c_118, val_main_v372, val_main_v371, val_main_c_117, val_main_v370, val_main_call14_v4, val_main_call14_v3, val_main_call14_v2, val_main_call14_v1]
  try rw [← h0]
  try rw [← h1]
  try rw [← h2]
  try rfl

set_option maxRecDepth 8192 in
set_option maxHeartbeats 40000000 in
/-- After the stretch, main_v387 holds its stage of the arguments, given that the buffers the stretch reads from before it hold theirs. -/
theorem ck15_main_v387 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg4) = x4)
    (h1 : W (Proc.devRef .tc main_c_116) = (val_main_c_116 (F := F)))
    (h2 : W (Proc.devRef .tc main_call14_v0) = (val_main_call14_v0 (F := F)))
    (h3 : W (Proc.devRef .tc main_v369) = (val_main_v369 (F := F) x0))
    (h4 : W (Proc.devRef .tc main_v365) = (val_main_v365 (F := F) x0)) :
    after ck15 W (Proc.devRef .tc main_v387) = (val_main_v387 (F := F) x0 x4) := by
  after_results_simp
  try simp only [val_main_v387, val_main_v386, val_main_v385, val_main_v384, val_main_v383, val_main_v382, val_main_v381, val_main_c_123, val_main_v380, val_main_v379, val_main_c_122, val_main_v378, val_main_v377, val_main_v376, val_main_c_121, val_main_v375, val_main_v374, val_main_c_120, val_main_v370, val_main_call14_v4, val_main_call14_v3, val_main_call14_v2, val_main_call14_v1]
  try rw [← h0]
  try rw [← h1]
  try rw [← h2]
  try rw [← h3]
  try rw [← h4]
  try rfl

set_option maxRecDepth 8192 in
set_option maxHeartbeats 40000000 in
/-- After the stretch, main_v389 holds its stage of the arguments, given that the buffers the stretch reads from before it hold theirs. -/
theorem ck15_main_v389 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_c_116) = (val_main_c_116 (F := F)))
    (h1 : W (Proc.devRef .tc main_call14_v0) = (val_main_call14_v0 (F := F)))
    (h2 : W (Proc.devRef .tc main_v369) = (val_main_v369 (F := F) x0)) :
    after ck15 W (Proc.devRef .tc main_v389) = (val_main_v389 (F := F) x0) := by
  after_results_simp
  try simp only [val_main_v389, val_main_v388, val_main_c_124, val_main_v370, val_main_call14_v4, val_main_call14_v3, val_main_call14_v2, val_main_call14_v1]
  try rw [← h0]
  try rw [← h1]
  try rw [← h2]
  try rfl

set_option maxRecDepth 8192 in
set_option maxHeartbeats 40000000 in
/-- After the stretch, main_v391 holds its stage of the arguments, given that the buffers the stretch reads from before it hold theirs. -/
theorem ck15_main_v391 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_c_116) = (val_main_c_116 (F := F)))
    (h1 : W (Proc.devRef .tc main_call14_v0) = (val_main_call14_v0 (F := F)))
    (h2 : W (Proc.devRef .tc main_v369) = (val_main_v369 (F := F) x0)) :
    after ck15 W (Proc.devRef .tc main_v391) = (val_main_v391 (F := F) x0) := by
  after_results_simp
  try simp only [val_main_v391, val_main_v390, val_main_c_125, val_main_v370, val_main_call14_v4, val_main_call14_v3, val_main_call14_v2, val_main_call14_v1]
  try rw [← h0]
  try rw [← h1]
  try rw [← h2]
  try rfl

set_option maxRecDepth 8192 in
set_option maxHeartbeats 40000000 in
/-- The stretch does not write main_arg0. -/
theorem ck15_pass_main_arg0 (W : Valuation τ sig (Elt F)) : after ck15 W (Proc.devRef .tc main_arg0) = W (Proc.devRef .tc main_arg0) := by
  after_results_simp <;> rfl

set_option maxRecDepth 8192 in
set_option maxHeartbeats 40000000 in
/-- The stretch does not write main_arg1. -/
theorem ck15_pass_main_arg1 (W : Valuation τ sig (Elt F)) : after ck15 W (Proc.devRef .tc main_arg1) = W (Proc.devRef .tc main_arg1) := by
  after_results_simp <;> rfl

set_option maxRecDepth 8192 in
set_option maxHeartbeats 40000000 in
/-- The stretch does not write main_arg2. -/
theorem ck15_pass_main_arg2 (W : Valuation τ sig (Elt F)) : after ck15 W (Proc.devRef .tc main_arg2) = W (Proc.devRef .tc main_arg2) := by
  after_results_simp <;> rfl

set_option maxRecDepth 8192 in
set_option maxHeartbeats 40000000 in
/-- The stretch does not write main_arg3. -/
theorem ck15_pass_main_arg3 (W : Valuation τ sig (Elt F)) : after ck15 W (Proc.devRef .tc main_arg3) = W (Proc.devRef .tc main_arg3) := by
  after_results_simp <;> rfl

set_option maxRecDepth 8192 in
set_option maxHeartbeats 40000000 in
/-- The stretch does not write main_v365. -/
theorem ck15_pass_main_v365 (W : Valuation τ sig (Elt F)) : after ck15 W (Proc.devRef .tc main_v365) = W (Proc.devRef .tc main_v365) := by
  after_results_simp <;> rfl

set_option maxRecDepth 8192 in
set_option maxHeartbeats 40000000 in
/-- The stretch does not write main_arg4. -/
theorem ck15_pass_main_arg4 (W : Valuation τ sig (Elt F)) : after ck15 W (Proc.devRef .tc main_arg4) = W (Proc.devRef .tc main_arg4) := by
  after_results_simp <;> rfl

set_option maxRecDepth 8192 in
set_option maxHeartbeats 40000000 in
/-- The stretch does not write main_v368. -/
theorem ck15_pass_main_v368 (W : Valuation τ sig (Elt F)) : after ck15 W (Proc.devRef .tc main_v368) = W (Proc.devRef .tc main_v368) := by
  after_results_simp <;> rfl

set_option maxRecDepth 8192 in
set_option maxHeartbeats 40000000 in
/-- The stretch does not write main_v362. -/
theorem ck15_pass_main_v362 (W : Valuation τ sig (Elt F)) : after ck15 W (Proc.devRef .tc main_v362) = W (Proc.devRef .tc main_v362) := by
  after_results_simp <;> rfl

set_option maxRecDepth 8192 in
set_option maxHeartbeats 40000000 in
/-- The stretch does not write main_v363. -/
theorem ck15_pass_main_v363 (W : Valuation τ sig (Elt F)) : after ck15 W (Proc.devRef .tc main_v363) = W (Proc.devRef .tc main_v363) := by
  after_results_simp <;> rfl

set_option maxRecDepth 8192 in
set_option maxHeartbeats 40000000 in
/-- The stretch does not write main_arg5. -/
theorem ck15_pass_main_arg5 (W : Valuation τ sig (Elt F)) : after ck15 W (Proc.devRef .tc main_arg5) = W (Proc.devRef .tc main_arg5) := by
  after_results_simp <;> rfl

set_option maxRecDepth 8192 in
set_option maxHeartbeats 40000000 in
/-- The stretch does not write main_arg6. -/
theorem ck15_pass_main_arg6 (W : Valuation τ sig (Elt F)) : after ck15 W (Proc.devRef .tc main_arg6) = W (Proc.devRef .tc main_arg6) := by
  after_results_simp <;> rfl

set_option maxRecDepth 8192 in
set_option maxHeartbeats 40000000 in
/-- The stretch does not write main_arg7. -/
theorem ck15_pass_main_arg7 (W : Valuation τ sig (Elt F)) : after ck15 W (Proc.devRef .tc main_arg7) = W (Proc.devRef .tc main_arg7) := by
  after_results_simp <;> rfl

set_option maxRecDepth 8192 in
set_option maxHeartbeats 40000000 in
/-- The stretch does not write main_arg8. -/
theorem ck15_pass_main_arg8 (W : Valuation τ sig (Elt F)) : after ck15 W (Proc.devRef .tc main_arg8) = W (Proc.devRef .tc main_arg8) := by
  after_results_simp <;> rfl

set_option maxRecDepth 8192 in
set_option maxHeartbeats 40000000 in
/-- The stretch does not write main_arg9. -/
theorem ck15_pass_main_arg9 (W : Valuation τ sig (Elt F)) : after ck15 W (Proc.devRef .tc main_arg9) = W (Proc.devRef .tc main_arg9) := by
  after_results_simp <;> rfl

set_option maxRecDepth 8192 in
set_option maxHeartbeats 40000000 in
/-- The stretch does not write main_v343. -/
theorem ck15_pass_main_v343 (W : Valuation τ sig (Elt F)) : after ck15 W (Proc.devRef .tc main_v343) = W (Proc.devRef .tc main_v343) := by
  after_results_simp <;> rfl

end Cert.ReferenceIdeal.Seg

end
-- ==== Proof.RefCk16.lean ====
/-
  The reference's host operations 601 to 640 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck16 : List (HloOp τ sig (Elt F)) :=
  [ ternary main_v389 main_v391 main_v370 main_v392 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_126 (constantI S_ 32 0#32),
    unary main_c_126 main_v393 (broadcastInDim S524288 ![] bcast_S_S524288 : (⟨S_, .i32⟩ : BufTy).Contents (Elt F) → (⟨S524288, .i32⟩ : BufTy).Contents (Elt F)),
    binary main_v368 main_v393 main_v394 (cmpi .slt : (⟨S524288, .i32⟩ : BufTy).Contents (Elt F) → (⟨S524288, .i32⟩ : BufTy).Contents (Elt F) → (⟨S524288, .i1⟩ : BufTy).Contents (Elt F)),
    nullary main_c_127 (constantI S_ 32 128#32),
    unary main_c_127 main_v395 (broadcastInDim S524288 ![] bcast_S_S524288 : (⟨S_, .i32⟩ : BufTy).Contents (Elt F) → (⟨S524288, .i32⟩ : BufTy).Contents (Elt F)),
    binary main_v368 main_v395 main_v396 (addi : (⟨S524288, .i32⟩ : BufTy).Contents (Elt F) → (⟨S524288, .i32⟩ : BufTy).Contents (Elt F) → (⟨S524288, .i32⟩ : BufTy).Contents (Elt F)),
    ternary main_v394 main_v396 main_v368 main_v397 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v392 main_v398 (broadcastInDim S524288x1 ![0] bcast_S524288_S524288x1_0 : (⟨S524288, .i32⟩ : BufTy).Contents (Elt F) → (⟨S524288x1, .i32⟩ : BufTy).Contents (Elt F)),
    unary main_v397 main_v399 (broadcastInDim S524288x1 ![0] bcast_S524288_S524288x1_0 : (⟨S524288, .i32⟩ : BufTy).Contents (Elt F) → (⟨S524288x1, .i32⟩ : BufTy).Contents (Elt F)),
    binary main_v398 main_v399 main_v400 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg4 main_v400 main_v401 ((fun x i => Host.gather gather_S32x128x128_S524288x2_S32x524288_0_12_n_n_12_1_3211 x i) : (⟨S32x128x128, .f32⟩ : BufTy).Contents (Elt F) → (⟨S524288x2, .i32⟩ : BufTy).Contents (Elt F) → (⟨S32x524288, .f32⟩ : BufTy).Contents (Elt F)),
    nullary main_c_128 (constantI S_ 32 0#32),
    unary main_c_128 main_v402 (broadcastInDim S524288 ![] bcast_S_S524288 : (⟨S_, .i32⟩ : BufTy).Contents (Elt F) → (⟨S524288, .i32⟩ : BufTy).Contents (Elt F)),
    binary main_v373 main_v402 main_v403 (cmpi .slt : (⟨S524288, .i32⟩ : BufTy).Contents (Elt F) → (⟨S524288, .i32⟩ : BufTy).Contents (Elt F) → (⟨S524288, .i1⟩ : BufTy).Contents (Elt F)),
    nullary main_c_129 (constantI S_ 32 128#32),
    unary main_c_129 main_v404 (broadcastInDim S524288 ![] bcast_S_S524288 : (⟨S_, .i32⟩ : BufTy).Contents (Elt F) → (⟨S524288, .i32⟩ : BufTy).Contents (Elt F)),
    binary main_v373 main_v404 main_v405 (addi : (⟨S524288, .i32⟩ : BufTy).Contents (Elt F) → (⟨S524288, .i32⟩ : BufTy).Contents (Elt F) → (⟨S524288, .i32⟩ : BufTy).Contents (Elt F)),
    ternary main_v403 main_v405 main_v373 main_v406 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_130 (constantI S_ 32 0#32),
    unary main_c_130 main_v407 (broadcastInDim S524288 ![] bcast_S_S524288 : (⟨S_, .i32⟩ : BufTy).Contents (Elt F) → (⟨S524288, .i32⟩ : BufTy).Contents (Elt F)),
    binary main_v365 main_v407 main_v408 (cmpi .slt : (⟨S524288, .i32⟩ : BufTy).Contents (Elt F) → (⟨S524288, .i32⟩ : BufTy).Contents (Elt F) → (⟨S524288, .i1⟩ : BufTy).Contents (Elt F)),
    nullary main_c_131 (constantI S_ 32 128#32),
    unary main_c_131 main_v409 (broadcastInDim S524288 ![] bcast_S_S524288 : (⟨S_, .i32⟩ : BufTy).Contents (Elt F) → (⟨S524288, .i32⟩ : BufTy).Contents (Elt F)),
    binary main_v365 main_v409 main_v410 (addi : (⟨S524288, .i32⟩ : BufTy).Contents (Elt F) → (⟨S524288, .i32⟩ : BufTy).Contents (Elt F) → (⟨S524288, .i32⟩ : BufTy).Contents (Elt F)),
    ternary main_v408 main_v410 main_v365 main_v411 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v406 main_v412 (broadcastInDim S524288x1 ![0] bcast_S524288_S524288x1_0 : (⟨S524288, .i32⟩ : BufTy).Contents (Elt F) → (⟨S524288x1, .i32⟩ : BufTy).Contents (Elt F)),
    unary main_v411 main_v413 (broadcastInDim S524288x1 ![0] bcast_S524288_S524288x1_0 : (⟨S524288, .i32⟩ : BufTy).Contents (Elt F) → (⟨S524288x1, .i32⟩ : BufTy).Contents (Elt F)),
    binary main_v412 main_v413 main_v414 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg4 main_v414 main_v415 ((fun x i => Host.gather gather_S32x128x128_S524288x2_S32x524288_0_12_n_n_12_1_3211 x i) : (⟨S32x128x128, .f32⟩ : BufTy).Contents (Elt F) → (⟨S524288x2, .i32⟩ : BufTy).Contents (Elt F) → (⟨S32x524288, .f32⟩ : BufTy).Contents (Elt F)),
    nullary main_c_132 (constantI S_ 32 0#32),
    unary main_c_132 main_v416 (broadcastInDim S524288 ![] bcast_S_S524288 : (⟨S_, .i32⟩ : BufTy).Contents (Elt F) → (⟨S524288, .i32⟩ : BufTy).Contents (Elt F)),
    binary main_v373 main_v416 main_v417 (cmpi .slt : (⟨S524288, .i32⟩ : BufTy).Contents (Elt F) → (⟨S524288, .i32⟩ : BufTy).Contents (Elt F) → (⟨S524288, .i1⟩ : BufTy).Contents (Elt F)),
    nullary main_c_133 (constantI S_ 32 128#32),
    unary main_c_133 main_v418 (broadcastInDim S524288 ![] bcast_S_S524288 : (⟨S_, .i32⟩ : BufTy).Contents (Elt F) → (⟨S524288, .i32⟩ : BufTy).Contents (Elt F)),
    binary main_v373 main_v418 main_v419 (addi : (⟨S524288, .i32⟩ : BufTy).Contents (Elt F) → (⟨S524288, .i32⟩ : BufTy).Contents (Elt F) → (⟨S524288, .i32⟩ : BufTy).Contents (Elt F)),
    ternary main_v417 main_v419 main_v373 main_v420 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_134 (constantI S_ 32 0#32),
    unary main_c_134 main_v421 (broadcastInDim S524288 ![] bcast_S_S524288 : (⟨S_, .i32⟩ : BufTy).Contents (Elt F) → (⟨S524288, .i32⟩ : BufTy).Contents (Elt F)),
    binary main_v368 main_v421 main_v422 (cmpi .slt : (⟨S524288, .i32⟩ : BufTy).Contents (Elt F) → (⟨S524288, .i32⟩ : BufTy).Contents (Elt F) → (⟨S524288, .i1⟩ : BufTy).Contents (Elt F)) ]

set_option maxRecDepth 8192 in
set_option maxHeartbeats 40000000 in
/-- After the stretch, main_v401 holds its stage of the arguments, given that the buffers the stretch reads from before it hold theirs. -/
theorem ck16_main_v401 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg4) = x4)
    (h1 : W (Proc.devRef .tc main_v389) = (val_main_v389 (F := F) x0))
    (h2 : W (Proc.devRef .tc main_v391) = (val_main_v391 (F := F) x0))
    (h3 : W (Proc.devRef .tc main_v370) = (val_main_v370 (F := F) x0))
    (h4 : W (Proc.devRef .tc main_v368) = (val_main_v368 (F := F) x0)) :
    after ck16 W (Proc.devRef .tc main_v401) = (val_main_v401 (F := F) x0 x4) := by
  after_results_simp
  try simp only [val_main_v401, val_main_v400, val_main_v399, val_main_v398, val_main_v397, val_main_v396, val_main_v395, val_main_c_127, val_main_v394, val_main_v393, val_main_c_126, val_main_v392]
  try rw [← h0]
  try rw [← h1]
  try rw [← h2]
  try rw [← h3]
  try rw [← h4]
  try rfl

set_option maxRecDepth 8192 in
set_option maxHeartbeats 40000000 in
/-- After the stretch, main_v415 holds its stage of the arguments, given that the buffers the stretch reads from before it hold theirs. -/
theorem ck16_main_v415 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg4) = x4)
    (h1 : W (Proc.devRef .tc main_v373) = (val_main_v373 (F := F) x0))
    (h2 : W (Proc.devRef .tc main_v365) = (val_main_v365 (F := F) x0)) :
    after ck16 W (Proc.devRef .tc main_v415) = (val_main_v415 (F := F) x0 x4) := by
  after_results_simp
  try simp only [val_main_v415, val_main_v414, val_main_v413, val_main_v412, val_main_v411, val_main_v410, val_main_v409, val_main_c_131, val_main_v408, val_main_v407, val_main_c_130, val_main_v406, val_main_v405, val_main_v404, val_main_c_129, val_main_v403, val_main_v402, val_main_c_128]
  try rw [← h0]
  try rw [← h1]
  try rw [← h2]
  try rfl

set_option maxRecDepth 8192 in
set_option maxHeartbeats 40000000 in
/-- After the stretch, main_v420 holds its stage of the arguments, given that the buffers the stretch reads from before it hold theirs. -/
theorem ck16_main_v420 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v373) = (val_main_v373 (F := F) x0)) :
    after ck16 W (Proc.devRef .tc main_v420) = (val_main_v420 (F := F) x0) := by
  after_results_simp
  try simp only [val_main_v420, val_main_v419, val_main_v418, val_main_c_133, val_main_v417, val_main_v416, val_main_c_132]
  try rw [← h0]
  try rfl

set_option maxRecDepth 8192 in
set_option maxHeartbeats 40000000 in
/-- After the stretch, main_v422 holds its stage of the arguments, given that the buffers the stretch reads from before it hold theirs. -/
theorem ck16_main_v422 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v368) = (val_main_v368 (F := F) x0)) :
    after ck16 W (Proc.devRef .tc main_v422) = (val_main_v422 (F := F) x0) := by
  after_results_simp
  try simp only [val_main_v422, val_main_v421, val_main_c_134]
  try rw [← h0]
  try rfl

set_option maxRecDepth 8192 in
set_option maxHeartbeats 40000000 in
/-- The stretch does not write main_arg0. -/
theorem ck16_pass_main_arg0 (W : Valuation τ sig (Elt F)) : after ck16 W (Proc.devRef .tc main_arg0) = W (Proc.devRef .tc main_arg0) := by
  after_results_simp <;> rfl

set_option maxRecDepth 8192 in
set_option maxHeartbeats 40000000 in
/-- The stretch does not write main_arg1. -/
theorem ck16_pass_main_arg1 (W : Valuation τ sig (Elt F)) : after ck16 W (Proc.devRef .tc main_arg1) = W (Proc.devRef .tc main_arg1) := by
  after_results_simp <;> rfl

set_option maxRecDepth 8192 in
set_option maxHeartbeats 40000000 in
/-- The stretch does not write main_arg2. -/
theorem ck16_pass_main_arg2 (W : Valuation τ sig (Elt F)) : after ck16 W (Proc.devRef .tc main_arg2) = W (Proc.devRef .tc main_arg2) := by
  after_results_simp <;> rfl

set_option maxRecDepth 8192 in
set_option maxHeartbeats 40000000 in
/-- The stretch does not write main_arg3. -/
theorem ck16_pass_main_arg3 (W : Valuation τ sig (Elt F)) : after ck16 W (Proc.devRef .tc main_arg3) = W (Proc.devRef .tc main_arg3) := by
  after_results_simp <;> rfl

set_option maxRecDepth 8192 in
set_option maxHeartbeats 40000000 in
/-- The stretch does not write main_arg4. -/
theorem ck16_pass_main_arg4 (W : Valuation τ sig (Elt F)) : after ck16 W (Proc.devRef .tc main_arg4) = W (Proc.devRef .tc main_arg4) := by
  after_results_simp <;> rfl

set_option maxRecDepth 8192 in
set_option maxHeartbeats 40000000 in
/-- The stretch does not write main_v368. -/
theorem ck16_pass_main_v368 (W : Valuation τ sig (Elt F)) : after ck16 W (Proc.devRef .tc main_v368) = W (Proc.devRef .tc main_v368) := by
  after_results_simp <;> rfl

set_option maxRecDepth 8192 in
set_option maxHeartbeats 40000000 in
/-- The stretch does not write main_v362. -/
theorem ck16_pass_main_v362 (W : Valuation τ sig (Elt F)) : after ck16 W (Proc.devRef .tc main_v362) = W (Proc.devRef .tc main_v362) := by
  after_results_simp <;> rfl

set_option maxRecDepth 8192 in
set_option maxHeartbeats 40000000 in
/-- The stretch does not write main_v387. -/
theorem ck16_pass_main_v387 (W : Valuation τ sig (Elt F)) : after ck16 W (Proc.devRef .tc main_v387) = W (Proc.devRef .tc main_v387) := by
  after_results_simp <;> rfl

set_option maxRecDepth 8192 in
set_option maxHeartbeats 40000000 in
/-- The stretch does not write main_v363. -/
theorem ck16_pass_main_v363 (W : Valuation τ sig (Elt F)) : after ck16 W (Proc.devRef .tc main_v363) = W (Proc.devRef .tc main_v363) := by
  after_results_simp <;> rfl

set_option maxRecDepth 8192 in
set_option maxHeartbeats 40000000 in
/-- The stretch does not write main_arg5. -/
theorem ck16_pass_main_arg5 (W : Valuation τ sig (Elt F)) : after ck16 W (Proc.devRef .tc main_arg5) = W (Proc.devRef .tc main_arg5) := by
  after_results_simp <;> rfl

set_option maxRecDepth 8192 in
set_option maxHeartbeats 40000000 in
/-- The stretch does not write main_arg6. -/
theorem ck16_pass_main_arg6 (W : Valuation τ sig (Elt F)) : after ck16 W (Proc.devRef .tc main_arg6) = W (Proc.devRef .tc main_arg6) := by
  after_results_simp <;> rfl

set_option maxRecDepth 8192 in
set_option maxHeartbeats 40000000 in
/-- The stretch does not write main_arg7. -/
theorem ck16_pass_main_arg7 (W : Valuation τ sig (Elt F)) : after ck16 W (Proc.devRef .tc main_arg7) = W (Proc.devRef .tc main_arg7) := by
  after_results_simp <;> rfl

set_option maxRecDepth 8192 in
set_option maxHeartbeats 40000000 in
/-- The stretch does not write main_arg8. -/
theorem ck16_pass_main_arg8 (W : Valuation τ sig (Elt F)) : after ck16 W (Proc.devRef .tc main_arg8) = W (Proc.devRef .tc main_arg8) := by
  after_results_simp <;> rfl

set_option maxRecDepth 8192 in
set_option maxHeartbeats 40000000 in
/-- The stretch does not write main_arg9. -/
theorem ck16_pass_main_arg9 (W : Valuation τ sig (Elt F)) : after ck16 W (Proc.devRef .tc main_arg9) = W (Proc.devRef .tc main_arg9) := by
  after_results_simp <;> rfl

set_option maxRecDepth 8192 in
set_option maxHeartbeats 40000000 in
/-- The stretch does not write main_v343. -/
theorem ck16_pass_main_v343 (W : Valuation τ sig (Elt F)) : after ck16 W (Proc.devRef .tc main_v343) = W (Proc.devRef .tc main_v343) := by
  after_results_simp <;> rfl

end Cert.ReferenceIdeal.Seg

end
-- ==== Proof.RefCk17.lean ====
/-
  The reference's host operations 641 to 680 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck17 : List (HloOp τ sig (Elt F)) :=
  [ nullary main_c_135 (constantI S_ 32 128#32),
    unary main_c_135 main_v423 (broadcastInDim S524288 ![] bcast_S_S524288 : (⟨S_, .i32⟩ : BufTy).Contents (Elt F) → (⟨S524288, .i32⟩ : BufTy).Contents (Elt F)),
    binary main_v368 main_v423 main_v424 (addi : (⟨S524288, .i32⟩ : BufTy).Contents (Elt F) → (⟨S524288, .i32⟩ : BufTy).Contents (Elt F) → (⟨S524288, .i32⟩ : BufTy).Contents (Elt F)),
    ternary main_v422 main_v424 main_v368 main_v425 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v420 main_v426 (broadcastInDim S524288x1 ![0] bcast_S524288_S524288x1_0 : (⟨S524288, .i32⟩ : BufTy).Contents (Elt F) → (⟨S524288x1, .i32⟩ : BufTy).Contents (Elt F)),
    unary main_v425 main_v427 (broadcastInDim S524288x1 ![0] bcast_S524288_S524288x1_0 : (⟨S524288, .i32⟩ : BufTy).Contents (Elt F) → (⟨S524288x1, .i32⟩ : BufTy).Contents (Elt F)),
    binary main_v426 main_v427 main_v428 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg4 main_v428 main_v429 ((fun x i => Host.gather gather_S32x128x128_S524288x2_S32x524288_0_12_n_n_12_1_3211 x i) : (⟨S32x128x128, .f32⟩ : BufTy).Contents (Elt F) → (⟨S524288x2, .i32⟩ : BufTy).Contents (Elt F) → (⟨S32x524288, .f32⟩ : BufTy).Contents (Elt F)),
    nullary main_cst_136 (constant S_ .f32 0x3F800000#32),
    unary main_cst_136 main_v430 (broadcastInDim S524288 ![] bcast_S_S524288 : (⟨S_, .f32⟩ : BufTy).Contents (Elt F) → (⟨S524288, .f32⟩ : BufTy).Contents (Elt F)),
    binary main_v430 main_v362 main_v431 (subf : (⟨S524288, .f32⟩ : BufTy).Contents (Elt F) → (⟨S524288, .f32⟩ : BufTy).Contents (Elt F) → (⟨S524288, .f32⟩ : BufTy).Contents (Elt F)),
    unary main_v431 main_v432 (broadcastInDim S1x524288 ![1] bcast_S524288_S1x524288_1 : (⟨S524288, .f32⟩ : BufTy).Contents (Elt F) → (⟨S1x524288, .f32⟩ : BufTy).Contents (Elt F)),
    unary main_v432 main_v433 (broadcastInDim S32x524288 ![0, 1] bcast_S1x524288_S32x524288_0_1 : (⟨S1x524288, .f32⟩ : BufTy).Contents (Elt F) → (⟨S32x524288, .f32⟩ : BufTy).Contents (Elt F)),
    binary main_v387 main_v433 main_v434 (mulf : (⟨S32x524288, .f32⟩ : BufTy).Contents (Elt F) → (⟨S32x524288, .f32⟩ : BufTy).Contents (Elt F) → (⟨S32x524288, .f32⟩ : BufTy).Contents (Elt F)),
    unary main_v362 main_v435 (broadcastInDim S1x524288 ![1] bcast_S524288_S1x524288_1 : (⟨S524288, .f32⟩ : BufTy).Contents (Elt F) → (⟨S1x524288, .f32⟩ : BufTy).Contents (Elt F)),
    unary main_v435 main_v436 (broadcastInDim S32x524288 ![0, 1] bcast_S1x524288_S32x524288_0_1 : (⟨S1x524288, .f32⟩ : BufTy).Contents (Elt F) → (⟨S32x524288, .f32⟩ : BufTy).Contents (Elt F)),
    binary main_v401 main_v436 main_v437 (mulf : (⟨S32x524288, .f32⟩ : BufTy).Contents (Elt F) → (⟨S32x524288, .f32⟩ : BufTy).Contents (Elt F) → (⟨S32x524288, .f32⟩ : BufTy).Contents (Elt F)),
    binary main_v434 main_v437 main_v438 (addf : (⟨S32x524288, .f32⟩ : BufTy).Contents (Elt F) → (⟨S32x524288, .f32⟩ : BufTy).Contents (Elt F) → (⟨S32x524288, .f32⟩ : BufTy).Contents (Elt F)),
    nullary main_cst_137 (constant S_ .f32 0x3F800000#32),
    unary main_cst_137 main_v439 (broadcastInDim S524288 ![] bcast_S_S524288 : (⟨S_, .f32⟩ : BufTy).Contents (Elt F) → (⟨S524288, .f32⟩ : BufTy).Contents (Elt F)),
    binary main_v439 main_v362 main_v440 (subf : (⟨S524288, .f32⟩ : BufTy).Contents (Elt F) → (⟨S524288, .f32⟩ : BufTy).Contents (Elt F) → (⟨S524288, .f32⟩ : BufTy).Contents (Elt F)),
    unary main_v440 main_v441 (broadcastInDim S1x524288 ![1] bcast_S524288_S1x524288_1 : (⟨S524288, .f32⟩ : BufTy).Contents (Elt F) → (⟨S1x524288, .f32⟩ : BufTy).Contents (Elt F)),
    unary main_v441 main_v442 (broadcastInDim S32x524288 ![0, 1] bcast_S1x524288_S32x524288_0_1 : (⟨S1x524288, .f32⟩ : BufTy).Contents (Elt F) → (⟨S32x524288, .f32⟩ : BufTy).Contents (Elt F)),
    binary main_v415 main_v442 main_v443 (mulf : (⟨S32x524288, .f32⟩ : BufTy).Contents (Elt F) → (⟨S32x524288, .f32⟩ : BufTy).Contents (Elt F) → (⟨S32x524288, .f32⟩ : BufTy).Contents (Elt F)),
    unary main_v362 main_v444 (broadcastInDim S1x524288 ![1] bcast_S524288_S1x524288_1 : (⟨S524288, .f32⟩ : BufTy).Contents (Elt F) → (⟨S1x524288, .f32⟩ : BufTy).Contents (Elt F)),
    unary main_v444 main_v445 (broadcastInDim S32x524288 ![0, 1] bcast_S1x524288_S32x524288_0_1 : (⟨S1x524288, .f32⟩ : BufTy).Contents (Elt F) → (⟨S32x524288, .f32⟩ : BufTy).Contents (Elt F)),
    binary main_v429 main_v445 main_v446 (mulf : (⟨S32x524288, .f32⟩ : BufTy).Contents (Elt F) → (⟨S32x524288, .f32⟩ : BufTy).Contents (Elt F) → (⟨S32x524288, .f32⟩ : BufTy).Contents (Elt F)),
    binary main_v443 main_v446 main_v447 (addf : (⟨S32x524288, .f32⟩ : BufTy).Contents (Elt F) → (⟨S32x524288, .f32⟩ : BufTy).Contents (Elt F) → (⟨S32x524288, .f32⟩ : BufTy).Contents (Elt F)),
    nullary main_cst_138 (constant S_ .f32 0x3F800000#32),
    unary main_cst_138 main_v448 (broadcastInDim S524288 ![] bcast_S_S524288 : (⟨S_, .f32⟩ : BufTy).Contents (Elt F) → (⟨S524288, .f32⟩ : BufTy).Contents (Elt F)),
    binary main_v448 main_v363 main_v449 (subf : (⟨S524288, .f32⟩ : BufTy).Contents (Elt F) → (⟨S524288, .f32⟩ : BufTy).Contents (Elt F) → (⟨S524288, .f32⟩ : BufTy).Contents (Elt F)),
    unary main_v449 main_v450 (broadcastInDim S1x524288 ![1] bcast_S524288_S1x524288_1 : (⟨S524288, .f32⟩ : BufTy).Contents (Elt F) → (⟨S1x524288, .f32⟩ : BufTy).Contents (Elt F)),
    unary main_v450 main_v451 (broadcastInDim S32x524288 ![0, 1] bcast_S1x524288_S32x524288_0_1 : (⟨S1x524288, .f32⟩ : BufTy).Contents (Elt F) → (⟨S32x524288, .f32⟩ : BufTy).Contents (Elt F)),
    binary main_v438 main_v451 main_v452 (mulf : (⟨S32x524288, .f32⟩ : BufTy).Contents (Elt F) → (⟨S32x524288, .f32⟩ : BufTy).Contents (Elt F) → (⟨S32x524288, .f32⟩ : BufTy).Contents (Elt F)),
    unary main_v363 main_v453 (broadcastInDim S1x524288 ![1] bcast_S524288_S1x524288_1 : (⟨S524288, .f32⟩ : BufTy).Contents (Elt F) → (⟨S1x524288, .f32⟩ : BufTy).Contents (Elt F)),
    unary main_v453 main_v454 (broadcastInDim S32x524288 ![0, 1] bcast_S1x524288_S32x524288_0_1 : (⟨S1x524288, .f32⟩ : BufTy).Contents (Elt F) → (⟨S32x524288, .f32⟩ : BufTy).Contents (Elt F)),
    binary main_v447 main_v454 main_v455 (mulf : (⟨S32x524288, .f32⟩ : BufTy).Contents (Elt F) → (⟨S32x524288, .f32⟩ : BufTy).Contents (Elt F) → (⟨S32x524288, .f32⟩ : BufTy).Contents (Elt F)),
    binary main_v452 main_v455 main_v456 (addf : (⟨S32x524288, .f32⟩ : BufTy).Contents (Elt F) → (⟨S32x524288, .f32⟩ : BufTy).Contents (Elt F) → (⟨S32x524288, .f32⟩ : BufTy).Contents (Elt F)),
    nullary main_cst_139 (constant S_ .f32 0x3F800000#32),
    unary main_cst_139 main_v457 (broadcastInDim S32x524288 ![] bcast_S_S32x524288 : (⟨S_, .f32⟩ : BufTy).Contents (Elt F) → (⟨S32x524288, .f32⟩ : BufTy).Contents (Elt F)) ]

set_option maxRecDepth 8192 in
set_option maxHeartbeats 40000000 in
/-- After the stretch, main_v456 holds its stage of the arguments, given that the buffers the stretch reads from before it hold theirs. -/
theorem ck17_main_v456 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v387) = (val_main_v387 (F := F) x0 x4))
    (h1 : W (Proc.devRef .tc main_v362) = (val_main_v362 (F := F) x0))
    (h2 : W (Proc.devRef .tc main_v401) = (val_main_v401 (F := F) x0 x4))
    (h3 : W (Proc.devRef .tc main_v363) = (val_main_v363 (F := F) x0))
    (h4 : W (Proc.devRef .tc main_v415) = (val_main_v415 (F := F) x0 x4))
    (h5 : W (Proc.devRef .tc main_arg4) = x4)
    (h6 : W (Proc.devRef .tc main_v420) = (val_main_v420 (F := F) x0))
    (h7 : W (Proc.devRef .tc main_v422) = (val_main_v422 (F := F) x0))
    (h8 : W (Proc.devRef .tc main_v368) = (val_main_v368 (F := F) x0)) :
    after ck17 W (Proc.devRef .tc main_v456) = (val_main_v456 (F := F) x0 x4) := by
  after_results_simp
  try simp only [val_main_v456, val_main_v455, val_main_v454, val_main_v453, val_main_v452, val_main_v451, val_main_v450, val_main_v449, val_main_v448, val_main_cst_138, val_main_v447, val_main_v446, val_main_v445, val_main_v444, val_main_v443, val_main_v442, val_main_v441, val_main_v440, val_main_v439, val_main_cst_137, val_main_v438, val_main_v437, val_main_v436, val_main_v435, val_main_v434, val_main_v433, val_main_v432, val_main_v431, val_main_v430, val_main_cst_136, val_main_v429, val_main_v428, val_main_v427, val_main_v426, val_main_v425, val_main_v424, val_main_v423, val_main_c_135]
  try rw [← h0]
  try rw [← h1]
  try rw [← h2]
  try rw [← h3]
  try rw [← h4]
  try rw [← h5]
  try rw [← h6]
  try rw [← h7]
  try rw [← h8]
  try rfl

set_option maxRecDepth 8192 in
set_option maxHeartbeats 40000000 in
/-- After the stretch, main_v457 holds its stage of the arguments, given that the buffers the stretch reads from before it hold theirs. -/
theorem ck17_main_v457 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck17 W (Proc.devRef .tc main_v457) = (val_main_v457 (F := F)) := by
  after_results_simp
  try simp only [val_main_v457, val_main_cst_139]

  try rfl

set_option maxRecDepth 8192 in
set_option maxHeartbeats 40000000 in
/-- The stretch does not write main_arg0. -/
theorem ck17_pass_main_arg0 (W : Valuation τ sig (Elt F)) : after ck17 W (Proc.devRef .tc main_arg0) = W (Proc.devRef .tc main_arg0) := by
  after_results_simp <;> rfl

set_option maxRecDepth 8192 in
set_option maxHeartbeats 40000000 in
/-- The stretch does not write main_arg1. -/
theorem ck17_pass_main_arg1 (W : Valuation τ sig (Elt F)) : after ck17 W (Proc.devRef .tc main_arg1) = W (Proc.devRef .tc main_arg1) := by
  after_results_simp <;> rfl

set_option maxRecDepth 8192 in
set_option maxHeartbeats 40000000 in
/-- The stretch does not write main_arg2. -/
theorem ck17_pass_main_arg2 (W : Valuation τ sig (Elt F)) : after ck17 W (Proc.devRef .tc main_arg2) = W (Proc.devRef .tc main_arg2) := by
  after_results_simp <;> rfl

set_option maxRecDepth 8192 in
set_option maxHeartbeats 40000000 in
/-- The stretch does not write main_arg3. -/
theorem ck17_pass_main_arg3 (W : Valuation τ sig (Elt F)) : after ck17 W (Proc.devRef .tc main_arg3) = W (Proc.devRef .tc main_arg3) := by
  after_results_simp <;> rfl

set_option maxRecDepth 8192 in
set_option maxHeartbeats 40000000 in
/-- The stretch does not write main_arg4. -/
theorem ck17_pass_main_arg4 (W : Valuation τ sig (Elt F)) : after ck17 W (Proc.devRef .tc main_arg4) = W (Proc.devRef .tc main_arg4) := by
  after_results_simp <;> rfl

set_option maxRecDepth 8192 in
set_option maxHeartbeats 40000000 in
/-- The stretch does not write main_arg5. -/
theorem ck17_pass_main_arg5 (W : Valuation τ sig (Elt F)) : after ck17 W (Proc.devRef .tc main_arg5) = W (Proc.devRef .tc main_arg5) := by
  after_results_simp <;> rfl

set_option maxRecDepth 8192 in
set_option maxHeartbeats 40000000 in
/-- The stretch does not write main_arg6. -/
theorem ck17_pass_main_arg6 (W : Valuation τ sig (Elt F)) : after ck17 W (Proc.devRef .tc main_arg6) = W (Proc.devRef .tc main_arg6) := by
  after_results_simp <;> rfl

set_option maxRecDepth 8192 in
set_option maxHeartbeats 40000000 in
/-- The stretch does not write main_arg7. -/
theorem ck17_pass_main_arg7 (W : Valuation τ sig (Elt F)) : after ck17 W (Proc.devRef .tc main_arg7) = W (Proc.devRef .tc main_arg7) := by
  after_results_simp <;> rfl

set_option maxRecDepth 8192 in
set_option maxHeartbeats 40000000 in
/-- The stretch does not write main_arg8. -/
theorem ck17_pass_main_arg8 (W : Valuation τ sig (Elt F)) : after ck17 W (Proc.devRef .tc main_arg8) = W (Proc.devRef .tc main_arg8) := by
  after_results_simp <;> rfl

set_option maxRecDepth 8192 in
set_option maxHeartbeats 40000000 in
/-- The stretch does not write main_arg9. -/
theorem ck17_pass_main_arg9 (W : Valuation τ sig (Elt F)) : after ck17 W (Proc.devRef .tc main_arg9) = W (Proc.devRef .tc main_arg9) := by
  after_results_simp <;> rfl

set_option maxRecDepth 8192 in
set_option maxHeartbeats 40000000 in
/-- The stretch does not write main_v343. -/
theorem ck17_pass_main_v343 (W : Valuation τ sig (Elt F)) : after ck17 W (Proc.devRef .tc main_v343) = W (Proc.devRef .tc main_v343) := by
  after_results_simp <;> rfl

end Cert.ReferenceIdeal.Seg

end
-- ==== Proof.RefCk18.lean ====
/-
  The reference's host operations 681 to 720 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck18 : List (HloOp τ sig (Elt F)) :=
  [ binary main_v457 main_v456 main_v458 (mulf : (⟨S32x524288, .f32⟩ : BufTy).Contents (Elt F) → (⟨S32x524288, .f32⟩ : BufTy).Contents (Elt F) → (⟨S32x524288, .f32⟩ : BufTy).Contents (Elt F)),
    unary main_arg0 main_v459 ((extractStridedSlice S524288x1 ![0, 0] · slices_S524288x3_S524288x1_0_0) : (⟨S524288x3, .f32⟩ : BufTy).Contents (Elt F) → (⟨S524288x1, .f32⟩ : BufTy).Contents (Elt F)),
    reshape main_v459 main_v460 rfl shapeCasts_S524288x1_S524288,
    unary main_arg0 main_v461 ((extractStridedSlice S524288x1 ![0, 2] · slices_S524288x3_S524288x1_0_2) : (⟨S524288x3, .f32⟩ : BufTy).Contents (Elt F) → (⟨S524288x1, .f32⟩ : BufTy).Contents (Elt F)),
    reshape main_v461 main_v462 rfl shapeCasts_S524288x1_S524288,
    nullary main_cst_140 (constant S_ .f32 0x3F800000#32),
    unary main_cst_140 main_v463 (broadcastInDim S524288 ![] bcast_S_S524288 : (⟨S_, .f32⟩ : BufTy).Contents (Elt F) → (⟨S524288, .f32⟩ : BufTy).Contents (Elt F)),
    binary main_v460 main_v463 main_v464 (addf : (⟨S524288, .f32⟩ : BufTy).Contents (Elt F) → (⟨S524288, .f32⟩ : BufTy).Contents (Elt F) → (⟨S524288, .f32⟩ : BufTy).Contents (Elt F)),
    nullary main_cst_141 (constant S_ .f32 0x3F000000#32),
    unary main_cst_141 main_v465 (broadcastInDim S524288 ![] bcast_S_S524288 : (⟨S_, .f32⟩ : BufTy).Contents (Elt F) → (⟨S524288, .f32⟩ : BufTy).Contents (Elt F)),
    binary main_v464 main_v465 main_v466 (mulf : (⟨S524288, .f32⟩ : BufTy).Contents (Elt F) → (⟨S524288, .f32⟩ : BufTy).Contents (Elt F) → (⟨S524288, .f32⟩ : BufTy).Contents (Elt F)),
    nullary main_cst_142 (constant S_ .f32 0x42FE0000#32),
    unary main_cst_142 main_v467 (broadcastInDim S524288 ![] bcast_S_S524288 : (⟨S_, .f32⟩ : BufTy).Contents (Elt F) → (⟨S524288, .f32⟩ : BufTy).Contents (Elt F)),
    binary main_v466 main_v467 main_v468 (mulf : (⟨S524288, .f32⟩ : BufTy).Contents (Elt F) → (⟨S524288, .f32⟩ : BufTy).Contents (Elt F) → (⟨S524288, .f32⟩ : BufTy).Contents (Elt F)),
    nullary main_cst_143 (constant S_ .f32 0x3F800000#32),
    unary main_cst_143 main_v469 (broadcastInDim S524288 ![] bcast_S_S524288 : (⟨S_, .f32⟩ : BufTy).Contents (Elt F) → (⟨S524288, .f32⟩ : BufTy).Contents (Elt F)),
    binary main_v462 main_v469 main_v470 (addf : (⟨S524288, .f32⟩ : BufTy).Contents (Elt F) → (⟨S524288, .f32⟩ : BufTy).Contents (Elt F) → (⟨S524288, .f32⟩ : BufTy).Contents (Elt F)),
    nullary main_cst_144 (constant S_ .f32 0x3F000000#32),
    unary main_cst_144 main_v471 (broadcastInDim S524288 ![] bcast_S_S524288 : (⟨S_, .f32⟩ : BufTy).Contents (Elt F) → (⟨S524288, .f32⟩ : BufTy).Contents (Elt F)),
    binary main_v470 main_v471 main_v472 (mulf : (⟨S524288, .f32⟩ : BufTy).Contents (Elt F) → (⟨S524288, .f32⟩ : BufTy).Contents (Elt F) → (⟨S524288, .f32⟩ : BufTy).Contents (Elt F)),
    nullary main_cst_145 (constant S_ .f32 0x42FE0000#32),
    unary main_cst_145 main_v473 (broadcastInDim S524288 ![] bcast_S_S524288 : (⟨S_, .f32⟩ : BufTy).Contents (Elt F) → (⟨S524288, .f32⟩ : BufTy).Contents (Elt F)),
    binary main_v472 main_v473 main_v474 (mulf : (⟨S524288, .f32⟩ : BufTy).Contents (Elt F) → (⟨S524288, .f32⟩ : BufTy).Contents (Elt F) → (⟨S524288, .f32⟩ : BufTy).Contents (Elt F)),
    unary main_v468 main_v475 (Host.floor : (⟨S524288, .f32⟩ : BufTy).Contents (Elt F) → (⟨S524288, .f32⟩ : BufTy).Contents (Elt F)),
    unary main_v474 main_v476 (Host.floor : (⟨S524288, .f32⟩ : BufTy).Contents (Elt F) → (⟨S524288, .f32⟩ : BufTy).Contents (Elt F)),
    binary main_v468 main_v475 main_v477 (subf : (⟨S524288, .f32⟩ : BufTy).Contents (Elt F) → (⟨S524288, .f32⟩ : BufTy).Contents (Elt F) → (⟨S524288, .f32⟩ : BufTy).Contents (Elt F)),
    binary main_v474 main_v476 main_v478 (subf : (⟨S524288, .f32⟩ : BufTy).Contents (Elt F) → (⟨S524288, .f32⟩ : BufTy).Contents (Elt F) → (⟨S524288, .f32⟩ : BufTy).Contents (Elt F)),
    unary main_v475 main_v479 (fptosi 32 : (⟨S524288, .f32⟩ : BufTy).Contents (Elt F) → (⟨S524288, .i32⟩ : BufTy).Contents (Elt F)),
    nullary main_c_146 (constantI S_ 32 0#32),
    nullary main_c_147 (constantI S_ 32 127#32),
    TRef.unary (TRef.of (T := ⟨S_, .i32⟩) main_c_146) (TRef.of (T := ⟨S_, .i32⟩) main_call16_v0) id,
    TRef.unary (TRef.of (T := ⟨S_, .i32⟩) main_call16_v0) (TRef.of (T := ⟨S524288, .i32⟩) main_call16_v1) (broadcastInDim S524288 ![] bcast_S_S524288),
    TRef.binary (TRef.of (T := ⟨S524288, .i32⟩) main_call16_v1) (TRef.of (T := ⟨S524288, .i32⟩) main_v479) (TRef.of (T := ⟨S524288, .i32⟩) main_call16_v2) maxsi,
    TRef.unary (TRef.of (T := ⟨S_, .i32⟩) main_c_147) (TRef.of (T := ⟨S_, .i32⟩) main_call16_v3) id,
    TRef.unary (TRef.of (T := ⟨S_, .i32⟩) main_call16_v3) (TRef.of (T := ⟨S524288, .i32⟩) main_call16_v4) (broadcastInDim S524288 ![] bcast_S_S524288),
    TRef.binary (TRef.of (T := ⟨S524288, .i32⟩) main_call16_v4) (TRef.of (T := ⟨S524288, .i32⟩) main_call16_v2) (TRef.of (T := ⟨S524288, .i32⟩) main_v480) minsi,
    nullary main_c_148 (constantI S_ 32 1#32),
    unary main_c_148 main_v481 (broadcastInDim S524288 ![] bcast_S_S524288 : (⟨S_, .i32⟩ : BufTy).Contents (Elt F) → (⟨S524288, .i32⟩ : BufTy).Contents (Elt F)),
    binary main_v480 main_v481 main_v482 (addi : (⟨S524288, .i32⟩ : BufTy).Contents (Elt F) → (⟨S524288, .i32⟩ : BufTy).Contents (Elt F) → (⟨S524288, .i32⟩ : BufTy).Contents (Elt F)),
    nullary main_c_149 (constantI S_ 32 0#32) ]

set_option maxRecDepth 8192 in
set_option maxHeartbeats 40000000 in
/-- After the stretch, main_v458 holds its stage of the arguments, given that the buffers the stretch reads from before it hold theirs. -/
theorem ck18_main_v458 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v457) = (val_main_v457 (F := F)))
    (h1 : W (Proc.devRef .tc main_v456) = (val_main_v456 (F := F) x0 x4)) :
    after ck18 W (Proc.devRef .tc main_v458) = (val_main_v458 (F := F) x0 x4) := by
  after_results_simp
  try simp only [val_main_v458]
  try rw [← h0]
  try rw [← h1]
  try rfl

set_option maxRecDepth 8192 in
set_option maxHeartbeats 40000000 in
/-- After the stretch, main_v476 holds its stage of the arguments, given that the buffers the stretch reads from before it hold theirs. -/
theorem ck18_main_v476 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck18 W (Proc.devRef .tc main_v476) = (val_main_v476 (F := F) x0) := by
  after_results_simp
  try simp only [val_main_v476, val_main_v474, val_main_v473, val_main_cst_145, val_main_v472, val_main_v471, val_main_cst_144, val_main_v470, val_main_v469, val_main_cst_143, val_main_v462, val_main_v461]
  try rw [← h0]
  try rfl

set_option maxRecDepth 8192 in
set_option maxHeartbeats 40000000 in
/-- After the stretch, main_v477 holds its stage of the arguments, given that the buffers the stretch reads from before it hold theirs. -/
theorem ck18_main_v477 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck18 W (Proc.devRef .tc main_v477) = (val_main_v477 (F := F) x0) := by
  after_results_simp
  try simp only [val_main_v477, val_main_v475, val_main_v468, val_main_v467, val_main_cst_142, val_main_v466, val_main_v465, val_main_cst_141, val_main_v464, val_main_v463, val_main_cst_140, val_main_v460, val_main_v459]
  try rw [← h0]
  try rfl

set_option maxRecDepth 8192 in
set_option maxHeartbeats 40000000 in
/-- After the stretch, main_v478 holds its stage of the arguments, given that the buffers the stretch reads from before it hold theirs. -/
theorem ck18_main_v478 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck18 W (Proc.devRef .tc main_v478) = (val_main_v478 (F := F) x0) := by
  after_results_simp
  try simp only [val_main_v478, val_main_v476, val_main_v474, val_main_v473, val_main_cst_145, val_main_v472, val_main_v471, val_main_cst_144, val_main_v470, val_main_v469, val_main_cst_143, val_main_v462, val_main_v461]
  try rw [← h0]
  try rfl

set_option maxRecDepth 8192 in
set_option maxHeartbeats 40000000 in
/-- After the stretch, main_v480 holds its stage of the arguments, given that the buffers the stretch reads from before it hold theirs. -/
theorem ck18_main_v480 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck18 W (Proc.devRef .tc main_v480) = (val_main_v480 (F := F) x0) := by
  after_results_simp
  try simp only [val_main_v480, val_main_call16_v4, val_main_call16_v3, val_main_call16_v2, val_main_call16_v1, val_main_call16_v0, val_main_c_147, val_main_c_146, val_main_v479, val_main_v475, val_main_v468, val_main_v467, val_main_cst_142, val_main_v466, val_main_v465, val_main_cst_141, val_main_v464, val_main_v463, val_main_cst_140, val_main_v460, val_main_v459]
  try rw [← h0]
  try rfl

set_option maxRecDepth 8192 in
set_option maxHeartbeats 40000000 in
/-- After the stretch, main_v482 holds its stage of the arguments, given that the buffers the stretch reads from before it hold theirs. -/
theorem ck18_main_v482 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck18 W (Proc.devRef .tc main_v482) = (val_main_v482 (F := F) x0) := by
  after_results_simp
  try simp only [val_main_v482, val_main_v481, val_main_c_148, val_main_v480, val_main_call16_v4, val_main_call16_v3, val_main_call16_v2, val_main_call16_v1, val_main_call16_v0, val_main_c_147, val_main_c_146, val_main_v479, val_main_v475, val_main_v468, val_main_v467, val_main_cst_142, val_main_v466, val_main_v465, val_main_cst_141, val_main_v464, val_main_v463, val_main_cst_140, val_main_v460, val_main_v459]
  try rw [← h0]
  try rfl

set_option maxRecDepth 8192 in
set_option maxHeartbeats 40000000 in
/-- After the stretch, main_c_149 holds its stage of the arguments, given that the buffers the stretch reads from before it hold theirs. -/
theorem ck18_main_c_149 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck18 W (Proc.devRef .tc main_c_149) = (val_main_c_149 (F := F)) := by
  after_results_simp
  try simp only [val_main_c_149]

  try rfl

set_option maxRecDepth 8192 in
set_option maxHeartbeats 40000000 in
/-- The stretch does not write main_arg0. -/
theorem ck18_pass_main_arg0 (W : Valuation τ sig (Elt F)) : after ck18 W (Proc.devRef .tc main_arg0) = W (Proc.devRef .tc main_arg0) := by
  after_results_simp <;> rfl

set_option maxRecDepth 8192 in
set_option maxHeartbeats 40000000 in
/-- The stretch does not write main_arg1. -/
theorem ck18_pass_main_arg1 (W : Valuation τ sig (Elt F)) : after ck18 W (Proc.devRef .tc main_arg1) = W (Proc.devRef .tc main_arg1) := by
  after_results_simp <;> rfl

set_option maxRecDepth 8192 in
set_option maxHeartbeats 40000000 in
/-- The stretch does not write main_arg2. -/
theorem ck18_pass_main_arg2 (W : Valuation τ sig (Elt F)) : after ck18 W (Proc.devRef .tc main_arg2) = W (Proc.devRef .tc main_arg2) := by
  after_results_simp <;> rfl

set_option maxRecDepth 8192 in
set_option maxHeartbeats 40000000 in
/-- The stretch does not write main_arg3. -/
theorem ck18_pass_main_arg3 (W : Valuation τ sig (Elt F)) : after ck18 W (Proc.devRef .tc main_arg3) = W (Proc.devRef .tc main_arg3) := by
  after_results_simp <;> rfl

set_option maxRecDepth 8192 in
set_option maxHeartbeats 40000000 in
/-- The stretch does not write main_arg4. -/
theorem ck18_pass_main_arg4 (W : Valuation τ sig (Elt F)) : after ck18 W (Proc.devRef .tc main_arg4) = W (Proc.devRef .tc main_arg4) := by
  after_results_simp <;> rfl

set_option maxRecDepth 8192 in
set_option maxHeartbeats 40000000 in
/-- The stretch does not write main_arg5. -/
theorem ck18_pass_main_arg5 (W : Valuation τ sig (Elt F)) : after ck18 W (Proc.devRef .tc main_arg5) = W (Proc.devRef .tc main_arg5) := by
  after_results_simp <;> rfl

set_option maxRecDepth 8192 in
set_option maxHeartbeats 40000000 in
/-- The stretch does not write main_arg6. -/
theorem ck18_pass_main_arg6 (W : Valuation τ sig (Elt F)) : after ck18 W (Proc.devRef .tc main_arg6) = W (Proc.devRef .tc main_arg6) := by
  after_results_simp <;> rfl

set_option maxRecDepth 8192 in
set_option maxHeartbeats 40000000 in
/-- The stretch does not write main_arg7. -/
theorem ck18_pass_main_arg7 (W : Valuation τ sig (Elt F)) : after ck18 W (Proc.devRef .tc main_arg7) = W (Proc.devRef .tc main_arg7) := by
  after_results_simp <;> rfl

set_option maxRecDepth 8192 in
set_option maxHeartbeats 40000000 in
/-- The stretch does not write main_arg8. -/
theorem ck18_pass_main_arg8 (W : Valuation τ sig (Elt F)) : after ck18 W (Proc.devRef .tc main_arg8) = W (Proc.devRef .tc main_arg8) := by
  after_results_simp <;> rfl

set_option maxRecDepth 8192 in
set_option maxHeartbeats 40000000 in
/-- The stretch does not write main_arg9. -/
theorem ck18_pass_main_arg9 (W : Valuation τ sig (Elt F)) : after ck18 W (Proc.devRef .tc main_arg9) = W (Proc.devRef .tc main_arg9) := by
  after_results_simp <;> rfl

set_option maxRecDepth 8192 in
set_option maxHeartbeats 40000000 in
/-- The stretch does not write main_v343. -/
theorem ck18_pass_main_v343 (W : Valuation τ sig (Elt F)) : after ck18 W (Proc.devRef .tc main_v343) = W (Proc.devRef .tc main_v343) := by
  after_results_simp <;> rfl

end Cert.ReferenceIdeal.Seg

end
-- ==== Proof.RefCk19.lean ====
/-
  The reference's host operations 721 to 760 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck19 : List (HloOp τ sig (Elt F)) :=
  [ nullary main_c_150 (constantI S_ 32 127#32),
    TRef.unary (TRef.of (T := ⟨S_, .i32⟩) main_c_149) (TRef.of (T := ⟨S_, .i32⟩) main_call17_v0) id,
    TRef.unary (TRef.of (T := ⟨S_, .i32⟩) main_call17_v0) (TRef.of (T := ⟨S524288, .i32⟩) main_call17_v1) (broadcastInDim S524288 ![] bcast_S_S524288),
    TRef.binary (TRef.of (T := ⟨S524288, .i32⟩) main_call17_v1) (TRef.of (T := ⟨S524288, .i32⟩) main_v482) (TRef.of (T := ⟨S524288, .i32⟩) main_call17_v2) maxsi,
    TRef.unary (TRef.of (T := ⟨S_, .i32⟩) main_c_150) (TRef.of (T := ⟨S_, .i32⟩) main_call17_v3) id,
    TRef.unary (TRef.of (T := ⟨S_, .i32⟩) main_call17_v3) (TRef.of (T := ⟨S524288, .i32⟩) main_call17_v4) (broadcastInDim S524288 ![] bcast_S_S524288),
    TRef.binary (TRef.of (T := ⟨S524288, .i32⟩) main_call17_v4) (TRef.of (T := ⟨S524288, .i32⟩) main_call17_v2) (TRef.of (T := ⟨S524288, .i32⟩) main_v483) minsi,
    unary main_v476 main_v484 (fptosi 32 : (⟨S524288, .f32⟩ : BufTy).Contents (Elt F) → (⟨S524288, .i32⟩ : BufTy).Contents (Elt F)),
    nullary main_c_151 (constantI S_ 32 0#32),
    nullary main_c_152 (constantI S_ 32 127#32),
    TRef.unary (TRef.of (T := ⟨S_, .i32⟩) main_c_151) (TRef.of (T := ⟨S_, .i32⟩) main_call18_v0) id,
    TRef.unary (TRef.of (T := ⟨S_, .i32⟩) main_call18_v0) (TRef.of (T := ⟨S524288, .i32⟩) main_call18_v1) (broadcastInDim S524288 ![] bcast_S_S524288),
    TRef.binary (TRef.of (T := ⟨S524288, .i32⟩) main_call18_v1) (TRef.of (T := ⟨S524288, .i32⟩) main_v484) (TRef.of (T := ⟨S524288, .i32⟩) main_call18_v2) maxsi,
    TRef.unary (TRef.of (T := ⟨S_, .i32⟩) main_c_152) (TRef.of (T := ⟨S_, .i32⟩) main_call18_v3) id,
    TRef.unary (TRef.of (T := ⟨S_, .i32⟩) main_call18_v3) (TRef.of (T := ⟨S524288, .i32⟩) main_call18_v4) (broadcastInDim S524288 ![] bcast_S_S524288),
    TRef.binary (TRef.of (T := ⟨S524288, .i32⟩) main_call18_v4) (TRef.of (T := ⟨S524288, .i32⟩) main_call18_v2) (TRef.of (T := ⟨S524288, .i32⟩) main_v485) minsi,
    nullary main_c_153 (constantI S_ 32 1#32),
    unary main_c_153 main_v486 (broadcastInDim S524288 ![] bcast_S_S524288 : (⟨S_, .i32⟩ : BufTy).Contents (Elt F) → (⟨S524288, .i32⟩ : BufTy).Contents (Elt F)),
    binary main_v485 main_v486 main_v487 (addi : (⟨S524288, .i32⟩ : BufTy).Contents (Elt F) → (⟨S524288, .i32⟩ : BufTy).Contents (Elt F) → (⟨S524288, .i32⟩ : BufTy).Contents (Elt F)),
    nullary main_c_154 (constantI S_ 32 0#32),
    nullary main_c_155 (constantI S_ 32 127#32),
    TRef.unary (TRef.of (T := ⟨S_, .i32⟩) main_c_154) (TRef.of (T := ⟨S_, .i32⟩) main_call19_v0) id,
    TRef.unary (TRef.of (T := ⟨S_, .i32⟩) main_call19_v0) (TRef.of (T := ⟨S524288, .i32⟩) main_call19_v1) (broadcastInDim S524288 ![] bcast_S_S524288),
    TRef.binary (TRef.of (T := ⟨S524288, .i32⟩) main_call19_v1) (TRef.of (T := ⟨S524288, .i32⟩) main_v487) (TRef.of (T := ⟨S524288, .i32⟩) main_call19_v2) maxsi,
    TRef.unary (TRef.of (T := ⟨S_, .i32⟩) main_c_155) (TRef.of (T := ⟨S_, .i32⟩) main_call19_v3) id,
    TRef.unary (TRef.of (T := ⟨S_, .i32⟩) main_call19_v3) (TRef.of (T := ⟨S524288, .i32⟩) main_call19_v4) (broadcastInDim S524288 ![] bcast_S_S524288),
    TRef.binary (TRef.of (T := ⟨S524288, .i32⟩) main_call19_v4) (TRef.of (T := ⟨S524288, .i32⟩) main_call19_v2) (TRef.of (T := ⟨S524288, .i32⟩) main_v488) minsi,
    nullary main_c_156 (constantI S_ 32 0#32),
    unary main_c_156 main_v489 (broadcastInDim S524288 ![] bcast_S_S524288 : (⟨S_, .i32⟩ : BufTy).Contents (Elt F) → (⟨S524288, .i32⟩ : BufTy).Contents (Elt F)),
    binary main_v485 main_v489 main_v490 (cmpi .slt : (⟨S524288, .i32⟩ : BufTy).Contents (Elt F) → (⟨S524288, .i32⟩ : BufTy).Contents (Elt F) → (⟨S524288, .i1⟩ : BufTy).Contents (Elt F)),
    nullary main_c_157 (constantI S_ 32 128#32),
    unary main_c_157 main_v491 (broadcastInDim S524288 ![] bcast_S_S524288 : (⟨S_, .i32⟩ : BufTy).Contents (Elt F) → (⟨S524288, .i32⟩ : BufTy).Contents (Elt F)),
    binary main_v485 main_v491 main_v492 (addi : (⟨S524288, .i32⟩ : BufTy).Contents (Elt F) → (⟨S524288, .i32⟩ : BufTy).Contents (Elt F) → (⟨S524288, .i32⟩ : BufTy).Contents (Elt F)),
    ternary main_v490 main_v492 main_v485 main_v493 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_158 (constantI S_ 32 0#32),
    unary main_c_158 main_v494 (broadcastInDim S524288 ![] bcast_S_S524288 : (⟨S_, .i32⟩ : BufTy).Contents (Elt F) → (⟨S524288, .i32⟩ : BufTy).Contents (Elt F)),
    binary main_v480 main_v494 main_v495 (cmpi .slt : (⟨S524288, .i32⟩ : BufTy).Contents (Elt F) → (⟨S524288, .i32⟩ : BufTy).Contents (Elt F) → (⟨S524288, .i1⟩ : BufTy).Contents (Elt F)),
    nullary main_c_159 (constantI S_ 32 128#32),
    unary main_c_159 main_v496 (broadcastInDim S524288 ![] bcast_S_S524288 : (⟨S_, .i32⟩ : BufTy).Contents (Elt F) → (⟨S524288, .i32⟩ : BufTy).Contents (Elt F)),
    binary main_v480 main_v496 main_v497 (addi : (⟨S524288, .i32⟩ : BufTy).Contents (Elt F) → (⟨S524288, .i32⟩ : BufTy).Contents (Elt F) → (⟨S524288, .i32⟩ : BufTy).Contents (Elt F)) ]

set_option maxRecDepth 8192 in
set_option maxHeartbeats 40000000 in
/-- After the stretch, main_v483 holds its stage of the arguments, given that the buffers the stretch reads from before it hold theirs. -/
theorem ck19_main_v483 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_c_149) = (val_main_c_149 (F := F)))
    (h1 : W (Proc.devRef .tc main_v482) = (val_main_v482 (F := F) x0)) :
    after ck19 W (Proc.devRef .tc main_v483) = (val_main_v483 (F := F) x0) := by
  after_results_simp
  try simp only [val_main_v483, val_main_call17_v4, val_main_call17_v3, val_main_call17_v2, val_main_call17_v1, val_main_call17_v0, val_main_c_150]
  try rw [← h0]
  try rw [← h1]
  try rfl

set_option maxRecDepth 8192 in
set_option maxHeartbeats 40000000 in
/-- After the stretch, main_v485 holds its stage of the arguments, given that the buffers the stretch reads from before it hold theirs. -/
theorem ck19_main_v485 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v476) = (val_main_v476 (F := F) x0)) :
    after ck19 W (Proc.devRef .tc main_v485) = (val_main_v485 (F := F) x0) := by
  after_results_simp
  try simp only [val_main_v485, val_main_call18_v4, val_main_call18_v3, val_main_call18_v2, val_main_call18_v1, val_main_call18_v0, val_main_c_152, val_main_c_151, val_main_v484]
  try rw [← h0]
  try rfl

set_option maxRecDepth 8192 in
set_option maxHeartbeats 40000000 in
/-- After the stretch, main_v488 holds its stage of the arguments, given that the buffers the stretch reads from before it hold theirs. -/
theorem ck19_main_v488 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v476) = (val_main_v476 (F := F) x0)) :
    after ck19 W (Proc.devRef .tc main_v488) = (val_main_v488 (F := F) x0) := by
  after_results_simp
  try simp only [val_main_v488, val_main_call19_v4, val_main_call19_v3, val_main_call19_v2, val_main_call19_v1, val_main_call19_v0, val_main_c_155, val_main_c_154, val_main_v487, val_main_v486, val_main_c_153, val_main_v485, val_main_call18_v4, val_main_call18_v3, val_main_call18_v2, val_main_call18_v1, val_main_call18_v0, val_main_c_152, val_main_c_151, val_main_v484]
  try rw [← h0]
  try rfl

set_option maxRecDepth 8192 in
set_option maxHeartbeats 40000000 in
/-- After the stretch, main_v493 holds its stage of the arguments, given that the buffers the stretch reads from before it hold theirs. -/
theorem ck19_main_v493 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v476) = (val_main_v476 (F := F) x0)) :
    after ck19 W (Proc.devRef .tc main_v493) = (val_main_v493 (F := F) x0) := by
  after_results_simp
  try simp only [val_main_v493, val_main_v492, val_main_v491, val_main_c_157, val_main_v490, val_main_v489, val_main_c_156, val_main_v485, val_main_call18_v4, val_main_call18_v3, val_main_call18_v2, val_main_call18_v1, val_main_call18_v0, val_main_c_152, val_main_c_151, val_main_v484]
  try rw [← h0]
  try rfl

set_option maxRecDepth 8192 in
set_option maxHeartbeats 40000000 in
/-- After the stretch, main_v495 holds its stage of the arguments, given that the buffers the stretch reads from before it hold theirs. -/
theorem ck19_main_v495 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v480) = (val_main_v480 (F := F) x0)) :
    after ck19 W (Proc.devRef .tc main_v495) = (val_main_v495 (F := F) x0) := by
  after_results_simp
  try simp only [val_main_v495, val_main_v494, val_main_c_158]
  try rw [← h0]
  try rfl

set_option maxRecDepth 8192 in
set_option maxHeartbeats 40000000 in
/-- After the stretch, main_v497 holds its stage of the arguments, given that the buffers the stretch reads from before it hold theirs. -/
theorem ck19_main_v497 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v480) = (val_main_v480 (F := F) x0)) :
    after ck19 W (Proc.devRef .tc main_v497) = (val_main_v497 (F := F) x0) := by
  after_results_simp
  try simp only [val_main_v497, val_main_v496, val_main_c_159]
  try rw [← h0]
  try rfl

set_option maxRecDepth 8192 in
set_option maxHeartbeats 40000000 in
/-- The stretch does not write main_arg0. -/
theorem ck19_pass_main_arg0 (W : Valuation τ sig (Elt F)) : after ck19 W (Proc.devRef .tc main_arg0) = W (Proc.devRef .tc main_arg0) := by
  after_results_simp <;> rfl

set_option maxRecDepth 8192 in
set_option maxHeartbeats 40000000 in
/-- The stretch does not write main_arg1. -/
theorem ck19_pass_main_arg1 (W : Valuation τ sig (Elt F)) : after ck19 W (Proc.devRef .tc main_arg1) = W (Proc.devRef .tc main_arg1) := by
  after_results_simp <;> rfl

set_option maxRecDepth 8192 in
set_option maxHeartbeats 40000000 in
/-- The stretch does not write main_arg2. -/
theorem ck19_pass_main_arg2 (W : Valuation τ sig (Elt F)) : after ck19 W (Proc.devRef .tc main_arg2) = W (Proc.devRef .tc main_arg2) := by
  after_results_simp <;> rfl

set_option maxRecDepth 8192 in
set_option maxHeartbeats 40000000 in
/-- The stretch does not write main_arg3. -/
theorem ck19_pass_main_arg3 (W : Valuation τ sig (Elt F)) : after ck19 W (Proc.devRef .tc main_arg3) = W (Proc.devRef .tc main_arg3) := by
  after_results_simp <;> rfl

set_option maxRecDepth 8192 in
set_option maxHeartbeats 40000000 in
/-- The stretch does not write main_arg4. -/
theorem ck19_pass_main_arg4 (W : Valuation τ sig (Elt F)) : after ck19 W (Proc.devRef .tc main_arg4) = W (Proc.devRef .tc main_arg4) := by
  after_results_simp <;> rfl

set_option maxRecDepth 8192 in
set_option maxHeartbeats 40000000 in
/-- The stretch does not write main_v480. -/
theorem ck19_pass_main_v480 (W : Valuation τ sig (Elt F)) : after ck19 W (Proc.devRef .tc main_v480) = W (Proc.devRef .tc main_v480) := by
  after_results_simp <;> rfl

set_option maxRecDepth 8192 in
set_option maxHeartbeats 40000000 in
/-- The stretch does not write main_arg5. -/
theorem ck19_pass_main_arg5 (W : Valuation τ sig (Elt F)) : after ck19 W (Proc.devRef .tc main_arg5) = W (Proc.devRef .tc main_arg5) := by
  after_results_simp <;> rfl

set_option maxRecDepth 8192 in
set_option maxHeartbeats 40000000 in
/-- The stretch does not write main_v477. -/
theorem ck19_pass_main_v477 (W : Valuation τ sig (Elt F)) : after ck19 W (Proc.devRef .tc main_v477) = W (Proc.devRef .tc main_v477) := by
  after_results_simp <;> rfl

set_option maxRecDepth 8192 in
set_option maxHeartbeats 40000000 in
/-- The stretch does not write main_v478. -/
theorem ck19_pass_main_v478 (W : Valuation τ sig (Elt F)) : after ck19 W (Proc.devRef .tc main_v478) = W (Proc.devRef .tc main_v478) := by
  after_results_simp <;> rfl

set_option maxRecDepth 8192 in
set_option maxHeartbeats 40000000 in
/-- The stretch does not write main_v458. -/
theorem ck19_pass_main_v458 (W : Valuation τ sig (Elt F)) : after ck19 W (Proc.devRef .tc main_v458) = W (Proc.devRef .tc main_v458) := by
  after_results_simp <;> rfl

set_option maxRecDepth 8192 in
set_option maxHeartbeats 40000000 in
/-- The stretch does not write main_arg6. -/
theorem ck19_pass_main_arg6 (W : Valuation τ sig (Elt F)) : after ck19 W (Proc.devRef .tc main_arg6) = W (Proc.devRef .tc main_arg6) := by
  after_results_simp <;> rfl

set_option maxRecDepth 8192 in
set_option maxHeartbeats 40000000 in
/-- The stretch does not write main_arg7. -/
theorem ck19_pass_main_arg7 (W : Valuation τ sig (Elt F)) : after ck19 W (Proc.devRef .tc main_arg7) = W (Proc.devRef .tc main_arg7) := by
  after_results_simp <;> rfl

set_option maxRecDepth 8192 in
set_option maxHeartbeats 40000000 in
/-- The stretch does not write main_arg8. -/
theorem ck19_pass_main_arg8 (W : Valuation τ sig (Elt F)) : after ck19 W (Proc.devRef .tc main_arg8) = W (Proc.devRef .tc main_arg8) := by
  after_results_simp <;> rfl

set_option maxRecDepth 8192 in
set_option maxHeartbeats 40000000 in
/-- The stretch does not write main_arg9. -/
theorem ck19_pass_main_arg9 (W : Valuation τ sig (Elt F)) : after ck19 W (Proc.devRef .tc main_arg9) = W (Proc.devRef .tc main_arg9) := by
  after_results_simp <;> rfl

set_option maxRecDepth 8192 in
set_option maxHeartbeats 40000000 in
/-- The stretch does not write main_v343. -/
theorem ck19_pass_main_v343 (W : Valuation τ sig (Elt F)) : after ck19 W (Proc.devRef .tc main_v343) = W (Proc.devRef .tc main_v343) := by
  after_results_simp <;> rfl

end Cert.ReferenceIdeal.Seg

end
-- ==== Proof.RefCk20.lean ====
/-
  The reference's host operations 761 to 800 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck20 : List (HloOp τ sig (Elt F)) :=
  [ ternary main_v495 main_v497 main_v480 main_v498 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v493 main_v499 (broadcastInDim S524288x1 ![0] bcast_S524288_S524288x1_0 : (⟨S524288, .i32⟩ : BufTy).Contents (Elt F) → (⟨S524288x1, .i32⟩ : BufTy).Contents (Elt F)),
    unary main_v498 main_v500 (broadcastInDim S524288x1 ![0] bcast_S524288_S524288x1_0 : (⟨S524288, .i32⟩ : BufTy).Contents (Elt F) → (⟨S524288x1, .i32⟩ : BufTy).Contents (Elt F)),
    binary main_v499 main_v500 main_v501 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg5 main_v501 main_v502 ((fun x i => Host.gather gather_S32x128x128_S524288x2_S32x524288_0_12_n_n_12_1_3211 x i) : (⟨S32x128x128, .f32⟩ : BufTy).Contents (Elt F) → (⟨S524288x2, .i32⟩ : BufTy).Contents (Elt F) → (⟨S32x524288, .f32⟩ : BufTy).Contents (Elt F)),
    nullary main_c_160 (constantI S_ 32 0#32),
    unary main_c_160 main_v503 (broadcastInDim S524288 ![] bcast_S_S524288 : (⟨S_, .i32⟩ : BufTy).Contents (Elt F) → (⟨S524288, .i32⟩ : BufTy).Contents (Elt F)),
    binary main_v485 main_v503 main_v504 (cmpi .slt : (⟨S524288, .i32⟩ : BufTy).Contents (Elt F) → (⟨S524288, .i32⟩ : BufTy).Contents (Elt F) → (⟨S524288, .i1⟩ : BufTy).Contents (Elt F)),
    nullary main_c_161 (constantI S_ 32 128#32),
    unary main_c_161 main_v505 (broadcastInDim S524288 ![] bcast_S_S524288 : (⟨S_, .i32⟩ : BufTy).Contents (Elt F) → (⟨S524288, .i32⟩ : BufTy).Contents (Elt F)),
    binary main_v485 main_v505 main_v506 (addi : (⟨S524288, .i32⟩ : BufTy).Contents (Elt F) → (⟨S524288, .i32⟩ : BufTy).Contents (Elt F) → (⟨S524288, .i32⟩ : BufTy).Contents (Elt F)),
    ternary main_v504 main_v506 main_v485 main_v507 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_162 (constantI S_ 32 0#32),
    unary main_c_162 main_v508 (broadcastInDim S524288 ![] bcast_S_S524288 : (⟨S_, .i32⟩ : BufTy).Contents (Elt F) → (⟨S524288, .i32⟩ : BufTy).Contents (Elt F)),
    binary main_v483 main_v508 main_v509 (cmpi .slt : (⟨S524288, .i32⟩ : BufTy).Contents (Elt F) → (⟨S524288, .i32⟩ : BufTy).Contents (Elt F) → (⟨S524288, .i1⟩ : BufTy).Contents (Elt F)),
    nullary main_c_163 (constantI S_ 32 128#32),
    unary main_c_163 main_v510 (broadcastInDim S524288 ![] bcast_S_S524288 : (⟨S_, .i32⟩ : BufTy).Contents (Elt F) → (⟨S524288, .i32⟩ : BufTy).Contents (Elt F)),
    binary main_v483 main_v510 main_v511 (addi : (⟨S524288, .i32⟩ : BufTy).Contents (Elt F) → (⟨S524288, .i32⟩ : BufTy).Contents (Elt F) → (⟨S524288, .i32⟩ : BufTy).Contents (Elt F)),
    ternary main_v509 main_v511 main_v483 main_v512 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v507 main_v513 (broadcastInDim S524288x1 ![0] bcast_S524288_S524288x1_0 : (⟨S524288, .i32⟩ : BufTy).Contents (Elt F) → (⟨S524288x1, .i32⟩ : BufTy).Contents (Elt F)),
    unary main_v512 main_v514 (broadcastInDim S524288x1 ![0] bcast_S524288_S524288x1_0 : (⟨S524288, .i32⟩ : BufTy).Contents (Elt F) → (⟨S524288x1, .i32⟩ : BufTy).Contents (Elt F)),
    binary main_v513 main_v514 main_v515 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg5 main_v515 main_v516 ((fun x i => Host.gather gather_S32x128x128_S524288x2_S32x524288_0_12_n_n_12_1_3211 x i) : (⟨S32x128x128, .f32⟩ : BufTy).Contents (Elt F) → (⟨S524288x2, .i32⟩ : BufTy).Contents (Elt F) → (⟨S32x524288, .f32⟩ : BufTy).Contents (Elt F)),
    nullary main_c_164 (constantI S_ 32 0#32),
    unary main_c_164 main_v517 (broadcastInDim S524288 ![] bcast_S_S524288 : (⟨S_, .i32⟩ : BufTy).Contents (Elt F) → (⟨S524288, .i32⟩ : BufTy).Contents (Elt F)),
    binary main_v488 main_v517 main_v518 (cmpi .slt : (⟨S524288, .i32⟩ : BufTy).Contents (Elt F) → (⟨S524288, .i32⟩ : BufTy).Contents (Elt F) → (⟨S524288, .i1⟩ : BufTy).Contents (Elt F)),
    nullary main_c_165 (constantI S_ 32 128#32),
    unary main_c_165 main_v519 (broadcastInDim S524288 ![] bcast_S_S524288 : (⟨S_, .i32⟩ : BufTy).Contents (Elt F) → (⟨S524288, .i32⟩ : BufTy).Contents (Elt F)),
    binary main_v488 main_v519 main_v520 (addi : (⟨S524288, .i32⟩ : BufTy).Contents (Elt F) → (⟨S524288, .i32⟩ : BufTy).Contents (Elt F) → (⟨S524288, .i32⟩ : BufTy).Contents (Elt F)),
    ternary main_v518 main_v520 main_v488 main_v521 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_166 (constantI S_ 32 0#32),
    unary main_c_166 main_v522 (broadcastInDim S524288 ![] bcast_S_S524288 : (⟨S_, .i32⟩ : BufTy).Contents (Elt F) → (⟨S524288, .i32⟩ : BufTy).Contents (Elt F)),
    binary main_v480 main_v522 main_v523 (cmpi .slt : (⟨S524288, .i32⟩ : BufTy).Contents (Elt F) → (⟨S524288, .i32⟩ : BufTy).Contents (Elt F) → (⟨S524288, .i1⟩ : BufTy).Contents (Elt F)),
    nullary main_c_167 (constantI S_ 32 128#32),
    unary main_c_167 main_v524 (broadcastInDim S524288 ![] bcast_S_S524288 : (⟨S_, .i32⟩ : BufTy).Contents (Elt F) → (⟨S524288, .i32⟩ : BufTy).Contents (Elt F)),
    binary main_v480 main_v524 main_v525 (addi : (⟨S524288, .i32⟩ : BufTy).Contents (Elt F) → (⟨S524288, .i32⟩ : BufTy).Contents (Elt F) → (⟨S524288, .i32⟩ : BufTy).Contents (Elt F)),
    ternary main_v523 main_v525 main_v480 main_v526 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v521 main_v527 (broadcastInDim S524288x1 ![0] bcast_S524288_S524288x1_0 : (⟨S524288, .i32⟩ : BufTy).Contents (Elt F) → (⟨S524288x1, .i32⟩ : BufTy).Contents (Elt F)),
    unary main_v526 main_v528 (broadcastInDim S524288x1 ![0] bcast_S524288_S524288x1_0 : (⟨S524288, .i32⟩ : BufTy).Contents (Elt F) → (⟨S524288x1, .i32⟩ : BufTy).Contents (Elt F)),
    binary main_v527 main_v528 main_v529 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)) ]

set_option maxRecDepth 8192 in
set_option maxHeartbeats 40000000 in
/-- After the stretch, main_v502 holds its stage of the arguments, given that the buffers the stretch reads from before it hold theirs. -/
theorem ck20_main_v502 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg5) = x5)
    (h1 : W (Proc.devRef .tc main_v493) = (val_main_v493 (F := F) x0))
    (h2 : W (Proc.devRef .tc main_v495) = (val_main_v495 (F := F) x0))
    (h3 : W (Proc.devRef .tc main_v497) = (val_main_v497 (F := F) x0))
    (h4 : W (Proc.devRef .tc main_v480) = (val_main_v480 (F := F) x0)) :
    after ck20 W (Proc.devRef .tc main_v502) = (val_main_v502 (F := F) x0 x5) := by
  after_results_simp
  try simp only [val_main_v502, val_main_v501, val_main_v500, val_main_v499, val_main_v498]
  try rw [← h0]
  try rw [← h1]
  try rw [← h2]
  try rw [← h3]
  try rw [← h4]
  try rfl

set_option maxRecDepth 8192 in
set_option maxHeartbeats 40000000 in
/-- After the stretch, main_v516 holds its stage of the arguments, given that the buffers the stretch reads from before it hold theirs. -/
theorem ck20_main_v516 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg5) = x5)
    (h1 : W (Proc.devRef .tc main_v485) = (val_main_v485 (F := F) x0))
    (h2 : W (Proc.devRef .tc main_v483) = (val_main_v483 (F := F) x0)) :
    after ck20 W (Proc.devRef .tc main_v516) = (val_main_v516 (F := F) x0 x5) := by
  after_results_simp
  try simp only [val_main_v516, val_main_v515, val_main_v514, val_main_v513, val_main_v512, val_main_v511, val_main_v510, val_main_c_163, val_main_v509, val_main_v508, val_main_c_162, val_main_v507, val_main_v506, val_main_v505, val_main_c_161, val_main_v504, val_main_v503, val_main_c_160]
  try rw [← h0]
  try rw [← h1]
  try rw [← h2]
  try rfl

set_option maxRecDepth 8192 in
set_option maxHeartbeats 40000000 in
/-- After the stretch, main_v529 holds its stage of the arguments, given that the buffers the stretch reads from before it hold theirs. -/
theorem ck20_main_v529 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v488) = (val_main_v488 (F := F) x0))
    (h1 : W (Proc.devRef .tc main_v480) = (val_main_v480 (F := F) x0)) :
    after ck20 W (Proc.devRef .tc main_v529) = (val_main_v529 (F := F) x0) := by
  after_results_simp
  try simp only [val_main_v529, val_main_v528, val_main_v527, val_main_v526, val_main_v525, val_main_v524, val_main_c_167, val_main_v523, val_main_v522, val_main_c_166, val_main_v521, val_main_v520, val_main_v519, val_main_c_165, val_main_v518, val_main_v517, val_main_c_164]
  try rw [← h0]
  try rw [← h1]
  try rfl

set_option maxRecDepth 8192 in
set_option maxHeartbeats 40000000 in
/-- The stretch does not write main_arg0. -/
theorem ck20_pass_main_arg0 (W : Valuation τ sig (Elt F)) : after ck20 W (Proc.devRef .tc main_arg0) = W (Proc.devRef .tc main_arg0) := by
  after_results_simp <;> rfl

set_option maxRecDepth 8192 in
set_option maxHeartbeats 40000000 in
/-- The stretch does not write main_arg1. -/
theorem ck20_pass_main_arg1 (W : Valuation τ sig (Elt F)) : after ck20 W (Proc.devRef .tc main_arg1) = W (Proc.devRef .tc main_arg1) := by
  after_results_simp <;> rfl

set_option maxRecDepth 8192 in
set_option maxHeartbeats 40000000 in
/-- The stretch does not write main_arg2. -/
theorem ck20_pass_main_arg2 (W : Valuation τ sig (Elt F)) : after ck20 W (Proc.devRef .tc main_arg2) = W (Proc.devRef .tc main_arg2) := by
  after_results_simp <;> rfl

set_option maxRecDepth 8192 in
set_option maxHeartbeats 40000000 in
/-- The stretch does not write main_arg3. -/
theorem ck20_pass_main_arg3 (W : Valuation τ sig (Elt F)) : after ck20 W (Proc.devRef .tc main_arg3) = W (Proc.devRef .tc main_arg3) := by
  after_results_simp <;> rfl

set_option maxRecDepth 8192 in
set_option maxHeartbeats 40000000 in
/-- The stretch does not write main_arg4. -/
theorem ck20_pass_main_arg4 (W : Valuation τ sig (Elt F)) : after ck20 W (Proc.devRef .tc main_arg4) = W (Proc.devRef .tc main_arg4) := by
  after_results_simp <;> rfl

set_option maxRecDepth 8192 in
set_option maxHeartbeats 40000000 in
/-- The stretch does not write main_arg5. -/
theorem ck20_pass_main_arg5 (W : Valuation τ sig (Elt F)) : after ck20 W (Proc.devRef .tc main_arg5) = W (Proc.devRef .tc main_arg5) := by
  after_results_simp <;> rfl

set_option maxRecDepth 8192 in
set_option maxHeartbeats 40000000 in
/-- The stretch does not write main_v483. -/
theorem ck20_pass_main_v483 (W : Valuation τ sig (Elt F)) : after ck20 W (Proc.devRef .tc main_v483) = W (Proc.devRef .tc main_v483) := by
  after_results_simp <;> rfl

set_option maxRecDepth 8192 in
set_option maxHeartbeats 40000000 in
/-- The stretch does not write main_v488. -/
theorem ck20_pass_main_v488 (W : Valuation τ sig (Elt F)) : after ck20 W (Proc.devRef .tc main_v488) = W (Proc.devRef .tc main_v488) := by
  after_results_simp <;> rfl

set_option maxRecDepth 8192 in
set_option maxHeartbeats 40000000 in
/-- The stretch does not write main_v477. -/
theorem ck20_pass_main_v477 (W : Valuation τ sig (Elt F)) : after ck20 W (Proc.devRef .tc main_v477) = W (Proc.devRef .tc main_v477) := by
  after_results_simp <;> rfl

set_option maxRecDepth 8192 in
set_option maxHeartbeats 40000000 in
/-- The stretch does not write main_v478. -/
theorem ck20_pass_main_v478 (W : Valuation τ sig (Elt F)) : after ck20 W (Proc.devRef .tc main_v478) = W (Proc.devRef .tc main_v478) := by
  after_results_simp <;> rfl

set_option maxRecDepth 8192 in
set_option maxHeartbeats 40000000 in
/-- The stretch does not write main_v458. -/
theorem ck20_pass_main_v458 (W : Valuation τ sig (Elt F)) : after ck20 W (Proc.devRef .tc main_v458) = W (Proc.devRef .tc main_v458) := by
  after_results_simp <;> rfl

set_option maxRecDepth 8192 in
set_option maxHeartbeats 40000000 in
/-- The stretch does not write main_arg6. -/
theorem ck20_pass_main_arg6 (W : Valuation τ sig (Elt F)) : after ck20 W (Proc.devRef .tc main_arg6) = W (Proc.devRef .tc main_arg6) := by
  after_results_simp <;> rfl

set_option maxRecDepth 8192 in
set_option maxHeartbeats 40000000 in
/-- The stretch does not write main_arg7. -/
theorem ck20_pass_main_arg7 (W : Valuation τ sig (Elt F)) : after ck20 W (Proc.devRef .tc main_arg7) = W (Proc.devRef .tc main_arg7) := by
  after_results_simp <;> rfl

set_option maxRecDepth 8192 in
set_option maxHeartbeats 40000000 in
/-- The stretch does not write main_arg8. -/
theorem ck20_pass_main_arg8 (W : Valuation τ sig (Elt F)) : after ck20 W (Proc.devRef .tc main_arg8) = W (Proc.devRef .tc main_arg8) := by
  after_results_simp <;> rfl

set_option maxRecDepth 8192 in
set_option maxHeartbeats 40000000 in
/-- The stretch does not write main_arg9. -/
theorem ck20_pass_main_arg9 (W : Valuation τ sig (Elt F)) : after ck20 W (Proc.devRef .tc main_arg9) = W (Proc.devRef .tc main_arg9) := by
  after_results_simp <;> rfl

set_option maxRecDepth 8192 in
set_option maxHeartbeats 40000000 in
/-- The stretch does not write main_v343. -/
theorem ck20_pass_main_v343 (W : Valuation τ sig (Elt F)) : after ck20 W (Proc.devRef .tc main_v343) = W (Proc.devRef .tc main_v343) := by
  after_results_simp <;> rfl

end Cert.ReferenceIdeal.Seg

end
-- ==== Proof.RefCk21.lean ====
/-
  The reference's host operations 801 to 840 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck21 : List (HloOp τ sig (Elt F)) :=
  [ binary main_arg5 main_v529 main_v530 ((fun x i => Host.gather gather_S32x128x128_S524288x2_S32x524288_0_12_n_n_12_1_3211 x i) : (⟨S32x128x128, .f32⟩ : BufTy).Contents (Elt F) → (⟨S524288x2, .i32⟩ : BufTy).Contents (Elt F) → (⟨S32x524288, .f32⟩ : BufTy).Contents (Elt F)),
    nullary main_c_168 (constantI S_ 32 0#32),
    unary main_c_168 main_v531 (broadcastInDim S524288 ![] bcast_S_S524288 : (⟨S_, .i32⟩ : BufTy).Contents (Elt F) → (⟨S524288, .i32⟩ : BufTy).Contents (Elt F)),
    binary main_v488 main_v531 main_v532 (cmpi .slt : (⟨S524288, .i32⟩ : BufTy).Contents (Elt F) → (⟨S524288, .i32⟩ : BufTy).Contents (Elt F) → (⟨S524288, .i1⟩ : BufTy).Contents (Elt F)),
    nullary main_c_169 (constantI S_ 32 128#32),
    unary main_c_169 main_v533 (broadcastInDim S524288 ![] bcast_S_S524288 : (⟨S_, .i32⟩ : BufTy).Contents (Elt F) → (⟨S524288, .i32⟩ : BufTy).Contents (Elt F)),
    binary main_v488 main_v533 main_v534 (addi : (⟨S524288, .i32⟩ : BufTy).Contents (Elt F) → (⟨S524288, .i32⟩ : BufTy).Contents (Elt F) → (⟨S524288, .i32⟩ : BufTy).Contents (Elt F)),
    ternary main_v532 main_v534 main_v488 main_v535 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_170 (constantI S_ 32 0#32),
    unary main_c_170 main_v536 (broadcastInDim S524288 ![] bcast_S_S524288 : (⟨S_, .i32⟩ : BufTy).Contents (Elt F) → (⟨S524288, .i32⟩ : BufTy).Contents (Elt F)),
    binary main_v483 main_v536 main_v537 (cmpi .slt : (⟨S524288, .i32⟩ : BufTy).Contents (Elt F) → (⟨S524288, .i32⟩ : BufTy).Contents (Elt F) → (⟨S524288, .i1⟩ : BufTy).Contents (Elt F)),
    nullary main_c_171 (constantI S_ 32 128#32),
    unary main_c_171 main_v538 (broadcastInDim S524288 ![] bcast_S_S524288 : (⟨S_, .i32⟩ : BufTy).Contents (Elt F) → (⟨S524288, .i32⟩ : BufTy).Contents (Elt F)),
    binary main_v483 main_v538 main_v539 (addi : (⟨S524288, .i32⟩ : BufTy).Contents (Elt F) → (⟨S524288, .i32⟩ : BufTy).Contents (Elt F) → (⟨S524288, .i32⟩ : BufTy).Contents (Elt F)),
    ternary main_v537 main_v539 main_v483 main_v540 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v535 main_v541 (broadcastInDim S524288x1 ![0] bcast_S524288_S524288x1_0 : (⟨S524288, .i32⟩ : BufTy).Contents (Elt F) → (⟨S524288x1, .i32⟩ : BufTy).Contents (Elt F)),
    unary main_v540 main_v542 (broadcastInDim S524288x1 ![0] bcast_S524288_S524288x1_0 : (⟨S524288, .i32⟩ : BufTy).Contents (Elt F) → (⟨S524288x1, .i32⟩ : BufTy).Contents (Elt F)),
    binary main_v541 main_v542 main_v543 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg5 main_v543 main_v544 ((fun x i => Host.gather gather_S32x128x128_S524288x2_S32x524288_0_12_n_n_12_1_3211 x i) : (⟨S32x128x128, .f32⟩ : BufTy).Contents (Elt F) → (⟨S524288x2, .i32⟩ : BufTy).Contents (Elt F) → (⟨S32x524288, .f32⟩ : BufTy).Contents (Elt F)),
    nullary main_cst_172 (constant S_ .f32 0x3F800000#32),
    unary main_cst_172 main_v545 (broadcastInDim S524288 ![] bcast_S_S524288 : (⟨S_, .f32⟩ : BufTy).Contents (Elt F) → (⟨S524288, .f32⟩ : BufTy).Contents (Elt F)),
    binary main_v545 main_v477 main_v546 (subf : (⟨S524288, .f32⟩ : BufTy).Contents (Elt F) → (⟨S524288, .f32⟩ : BufTy).Contents (Elt F) → (⟨S524288, .f32⟩ : BufTy).Contents (Elt F)),
    unary main_v546 main_v547 (broadcastInDim S1x524288 ![1] bcast_S524288_S1x524288_1 : (⟨S524288, .f32⟩ : BufTy).Contents (Elt F) → (⟨S1x524288, .f32⟩ : BufTy).Contents (Elt F)),
    unary main_v547 main_v548 (broadcastInDim S32x524288 ![0, 1] bcast_S1x524288_S32x524288_0_1 : (⟨S1x524288, .f32⟩ : BufTy).Contents (Elt F) → (⟨S32x524288, .f32⟩ : BufTy).Contents (Elt F)),
    binary main_v502 main_v548 main_v549 (mulf : (⟨S32x524288, .f32⟩ : BufTy).Contents (Elt F) → (⟨S32x524288, .f32⟩ : BufTy).Contents (Elt F) → (⟨S32x524288, .f32⟩ : BufTy).Contents (Elt F)),
    unary main_v477 main_v550 (broadcastInDim S1x524288 ![1] bcast_S524288_S1x524288_1 : (⟨S524288, .f32⟩ : BufTy).Contents (Elt F) → (⟨S1x524288, .f32⟩ : BufTy).Contents (Elt F)),
    unary main_v550 main_v551 (broadcastInDim S32x524288 ![0, 1] bcast_S1x524288_S32x524288_0_1 : (⟨S1x524288, .f32⟩ : BufTy).Contents (Elt F) → (⟨S32x524288, .f32⟩ : BufTy).Contents (Elt F)),
    binary main_v516 main_v551 main_v552 (mulf : (⟨S32x524288, .f32⟩ : BufTy).Contents (Elt F) → (⟨S32x524288, .f32⟩ : BufTy).Contents (Elt F) → (⟨S32x524288, .f32⟩ : BufTy).Contents (Elt F)),
    binary main_v549 main_v552 main_v553 (addf : (⟨S32x524288, .f32⟩ : BufTy).Contents (Elt F) → (⟨S32x524288, .f32⟩ : BufTy).Contents (Elt F) → (⟨S32x524288, .f32⟩ : BufTy).Contents (Elt F)),
    nullary main_cst_173 (constant S_ .f32 0x3F800000#32),
    unary main_cst_173 main_v554 (broadcastInDim S524288 ![] bcast_S_S524288 : (⟨S_, .f32⟩ : BufTy).Contents (Elt F) → (⟨S524288, .f32⟩ : BufTy).Contents (Elt F)),
    binary main_v554 main_v477 main_v555 (subf : (⟨S524288, .f32⟩ : BufTy).Contents (Elt F) → (⟨S524288, .f32⟩ : BufTy).Contents (Elt F) → (⟨S524288, .f32⟩ : BufTy).Contents (Elt F)),
    unary main_v555 main_v556 (broadcastInDim S1x524288 ![1] bcast_S524288_S1x524288_1 : (⟨S524288, .f32⟩ : BufTy).Contents (Elt F) → (⟨S1x524288, .f32⟩ : BufTy).Contents (Elt F)),
    unary main_v556 main_v557 (broadcastInDim S32x524288 ![0, 1] bcast_S1x524288_S32x524288_0_1 : (⟨S1x524288, .f32⟩ : BufTy).Contents (Elt F) → (⟨S32x524288, .f32⟩ : BufTy).Contents (Elt F)),
    binary main_v530 main_v557 main_v558 (mulf : (⟨S32x524288, .f32⟩ : BufTy).Contents (Elt F) → (⟨S32x524288, .f32⟩ : BufTy).Contents (Elt F) → (⟨S32x524288, .f32⟩ : BufTy).Contents (Elt F)),
    unary main_v477 main_v559 (broadcastInDim S1x524288 ![1] bcast_S524288_S1x524288_1 : (⟨S524288, .f32⟩ : BufTy).Contents (Elt F) → (⟨S1x524288, .f32⟩ : BufTy).Contents (Elt F)),
    unary main_v559 main_v560 (broadcastInDim S32x524288 ![0, 1] bcast_S1x524288_S32x524288_0_1 : (⟨S1x524288, .f32⟩ : BufTy).Contents (Elt F) → (⟨S32x524288, .f32⟩ : BufTy).Contents (Elt F)),
    binary main_v544 main_v560 main_v561 (mulf : (⟨S32x524288, .f32⟩ : BufTy).Contents (Elt F) → (⟨S32x524288, .f32⟩ : BufTy).Contents (Elt F) → (⟨S32x524288, .f32⟩ : BufTy).Contents (Elt F)),
    binary main_v558 main_v561 main_v562 (addf : (⟨S32x524288, .f32⟩ : BufTy).Contents (Elt F) → (⟨S32x524288, .f32⟩ : BufTy).Contents (Elt F) → (⟨S32x524288, .f32⟩ : BufTy).Contents (Elt F)),
    nullary main_cst_174 (constant S_ .f32 0x3F800000#32) ]

set_option maxRecDepth 8192 in
set_option maxHeartbeats 40000000 in
/-- After the stretch, main_v553 holds its stage of the arguments, given that the buffers the stretch reads from before it hold theirs. -/
theorem ck21_main_v553 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v502) = (val_main_v502 (F := F) x0 x5))
    (h1 : W (Proc.devRef .tc main_v477) = (val_main_v477 (F := F) x0))
    (h2 : W (Proc.devRef .tc main_v516) = (val_main_v516 (F := F) x0 x5)) :
    after ck21 W (Proc.devRef .tc main_v553) = (val_main_v553 (F := F) x0 x5) := by
  after_results_simp
  try simp only [val_main_v553, val_main_v552, val_main_v551, val_main_v550, val_main_v549, val_main_v548, val_main_v547, val_main_v546, val_main_v545, val_main_cst_172]
  try rw [← h0]
  try rw [← h1]
  try rw [← h2]
  try rfl

set_option maxRecDepth 8192 in
set_option maxHeartbeats 40000000 in
/-- After the stretch, main_v562 holds its stage of the arguments, given that the buffers the stretch reads from before it hold theirs. -/
theorem ck21_main_v562 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg5) = x5)
    (h1 : W (Proc.devRef .tc main_v529) = (val_main_v529 (F := F) x0))
    (h2 : W (Proc.devRef .tc main_v477) = (val_main_v477 (F := F) x0))
    (h3 : W (Proc.devRef .tc main_v488) = (val_main_v488 (F := F) x0))
    (h4 : W (Proc.devRef .tc main_v483) = (val_main_v483 (F := F) x0)) :
    after ck21 W (Proc.devRef .tc main_v562) = (val_main_v562 (F := F) x0 x5) := by
  after_results_simp
  try simp only [val_main_v562, val_main_v561, val_main_v560, val_main_v559, val_main_v558, val_main_v557, val_main_v556, val_main_v555, val_main_v554, val_main_cst_173, val_main_v544, val_main_v543, val_main_v542, val_main_v541, val_main_v540, val_main_v539, val_main_v538, val_main_c_171, val_main_v537, val_main_v536, val_main_c_170, val_main_v535, val_main_v534, val_main_v533, val_main_c_169, val_main_v532, val_main_v531, val_main_c_168, val_main_v530]
  try rw [← h0]
  try rw [← h1]
  try rw [← h2]
  try rw [← h3]
  try rw [← h4]
  try rfl

set_option maxRecDepth 8192 in
set_option maxHeartbeats 40000000 in
/-- After the stretch, main_cst_174 holds its stage of the arguments, given that the buffers the stretch reads from before it hold theirs. -/
theorem ck21_main_cst_174 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck21 W (Proc.devRef .tc main_cst_174) = (val_main_cst_174 (F := F)) := by
  after_results_simp
  try simp only [val_main_cst_174]

  try rfl

set_option maxRecDepth 8192 in
set_option maxHeartbeats 40000000 in
/-- The stretch does not write main_arg0. -/
theorem ck21_pass_main_arg0 (W : Valuation τ sig (Elt F)) : after ck21 W (Proc.devRef .tc main_arg0) = W (Proc.devRef .tc main_arg0) := by
  after_results_simp <;> rfl

set_option maxRecDepth 8192 in
set_option maxHeartbeats 40000000 in
/-- The stretch does not write main_arg1. -/
theorem ck21_pass_main_arg1 (W : Valuation τ sig (Elt F)) : after ck21 W (Proc.devRef .tc main_arg1) = W (Proc.devRef .tc main_arg1) := by
  after_results_simp <;> rfl

set_option maxRecDepth 8192 in
set_option maxHeartbeats 40000000 in
/-- The stretch does not write main_arg2. -/
theorem ck21_pass_main_arg2 (W : Valuation τ sig (Elt F)) : after ck21 W (Proc.devRef .tc main_arg2) = W (Proc.devRef .tc main_arg2) := by
  after_results_simp <;> rfl

set_option maxRecDepth 8192 in
set_option maxHeartbeats 40000000 in
/-- The stretch does not write main_arg3. -/
theorem ck21_pass_main_arg3 (W : Valuation τ sig (Elt F)) : after ck21 W (Proc.devRef .tc main_arg3) = W (Proc.devRef .tc main_arg3) := by
  after_results_simp <;> rfl

set_option maxRecDepth 8192 in
set_option maxHeartbeats 40000000 in
/-- The stretch does not write main_arg4. -/
theorem ck21_pass_main_arg4 (W : Valuation τ sig (Elt F)) : after ck21 W (Proc.devRef .tc main_arg4) = W (Proc.devRef .tc main_arg4) := by
  after_results_simp <;> rfl

set_option maxRecDepth 8192 in
set_option maxHeartbeats 40000000 in
/-- The stretch does not write main_arg5. -/
theorem ck21_pass_main_arg5 (W : Valuation τ sig (Elt F)) : after ck21 W (Proc.devRef .tc main_arg5) = W (Proc.devRef .tc main_arg5) := by
  after_results_simp <;> rfl

set_option maxRecDepth 8192 in
set_option maxHeartbeats 40000000 in
/-- The stretch does not write main_v478. -/
theorem ck21_pass_main_v478 (W : Valuation τ sig (Elt F)) : after ck21 W (Proc.devRef .tc main_v478) = W (Proc.devRef .tc main_v478) := by
  after_results_simp <;> rfl

set_option maxRecDepth 8192 in
set_option maxHeartbeats 40000000 in
/-- The stretch does not write main_v458. -/
theorem ck21_pass_main_v458 (W : Valuation τ sig (Elt F)) : after ck21 W (Proc.devRef .tc main_v458) = W (Proc.devRef .tc main_v458) := by
  after_results_simp <;> rfl

set_option maxRecDepth 8192 in
set_option maxHeartbeats 40000000 in
/-- The stretch does not write main_arg6. -/
theorem ck21_pass_main_arg6 (W : Valuation τ sig (Elt F)) : after ck21 W (Proc.devRef .tc main_arg6) = W (Proc.devRef .tc main_arg6) := by
  after_results_simp <;> rfl

set_option maxRecDepth 8192 in
set_option maxHeartbeats 40000000 in
/-- The stretch does not write main_arg7. -/
theorem ck21_pass_main_arg7 (W : Valuation τ sig (Elt F)) : after ck21 W (Proc.devRef .tc main_arg7) = W (Proc.devRef .tc main_arg7) := by
  after_results_simp <;> rfl

set_option maxRecDepth 8192 in
set_option maxHeartbeats 40000000 in
/-- The stretch does not write main_arg8. -/
theorem ck21_pass_main_arg8 (W : Valuation τ sig (Elt F)) : after ck21 W (Proc.devRef .tc main_arg8) = W (Proc.devRef .tc main_arg8) := by
  after_results_simp <;> rfl

set_option maxRecDepth 8192 in
set_option maxHeartbeats 40000000 in
/-- The stretch does not write main_arg9. -/
theorem ck21_pass_main_arg9 (W : Valuation τ sig (Elt F)) : after ck21 W (Proc.devRef .tc main_arg9) = W (Proc.devRef .tc main_arg9) := by
  after_results_simp <;> rfl

set_option maxRecDepth 8192 in
set_option maxHeartbeats 40000000 in
/-- The stretch does not write main_v343. -/
theorem ck21_pass_main_v343 (W : Valuation τ sig (Elt F)) : after ck21 W (Proc.devRef .tc main_v343) = W (Proc.devRef .tc main_v343) := by
  after_results_simp <;> rfl

end Cert.ReferenceIdeal.Seg

end
-- ==== Proof.RefCk22.lean ====
/-
  The reference's host operations 841 to 880 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck22 : List (HloOp τ sig (Elt F)) :=
  [ unary main_cst_174 main_v563 (broadcastInDim S524288 ![] bcast_S_S524288 : (⟨S_, .f32⟩ : BufTy).Contents (Elt F) → (⟨S524288, .f32⟩ : BufTy).Contents (Elt F)),
    binary main_v563 main_v478 main_v564 (subf : (⟨S524288, .f32⟩ : BufTy).Contents (Elt F) → (⟨S524288, .f32⟩ : BufTy).Contents (Elt F) → (⟨S524288, .f32⟩ : BufTy).Contents (Elt F)),
    unary main_v564 main_v565 (broadcastInDim S1x524288 ![1] bcast_S524288_S1x524288_1 : (⟨S524288, .f32⟩ : BufTy).Contents (Elt F) → (⟨S1x524288, .f32⟩ : BufTy).Contents (Elt F)),
    unary main_v565 main_v566 (broadcastInDim S32x524288 ![0, 1] bcast_S1x524288_S32x524288_0_1 : (⟨S1x524288, .f32⟩ : BufTy).Contents (Elt F) → (⟨S32x524288, .f32⟩ : BufTy).Contents (Elt F)),
    binary main_v553 main_v566 main_v567 (mulf : (⟨S32x524288, .f32⟩ : BufTy).Contents (Elt F) → (⟨S32x524288, .f32⟩ : BufTy).Contents (Elt F) → (⟨S32x524288, .f32⟩ : BufTy).Contents (Elt F)),
    unary main_v478 main_v568 (broadcastInDim S1x524288 ![1] bcast_S524288_S1x524288_1 : (⟨S524288, .f32⟩ : BufTy).Contents (Elt F) → (⟨S1x524288, .f32⟩ : BufTy).Contents (Elt F)),
    unary main_v568 main_v569 (broadcastInDim S32x524288 ![0, 1] bcast_S1x524288_S32x524288_0_1 : (⟨S1x524288, .f32⟩ : BufTy).Contents (Elt F) → (⟨S32x524288, .f32⟩ : BufTy).Contents (Elt F)),
    binary main_v562 main_v569 main_v570 (mulf : (⟨S32x524288, .f32⟩ : BufTy).Contents (Elt F) → (⟨S32x524288, .f32⟩ : BufTy).Contents (Elt F) → (⟨S32x524288, .f32⟩ : BufTy).Contents (Elt F)),
    binary main_v567 main_v570 main_v571 (addf : (⟨S32x524288, .f32⟩ : BufTy).Contents (Elt F) → (⟨S32x524288, .f32⟩ : BufTy).Contents (Elt F) → (⟨S32x524288, .f32⟩ : BufTy).Contents (Elt F)),
    binary main_v458 main_v571 main_v572 (mulf : (⟨S32x524288, .f32⟩ : BufTy).Contents (Elt F) → (⟨S32x524288, .f32⟩ : BufTy).Contents (Elt F) → (⟨S32x524288, .f32⟩ : BufTy).Contents (Elt F)),
    unary main_arg0 main_v573 ((extractStridedSlice S524288x1 ![0, 1] · slices_S524288x3_S524288x1_0_1) : (⟨S524288x3, .f32⟩ : BufTy).Contents (Elt F) → (⟨S524288x1, .f32⟩ : BufTy).Contents (Elt F)),
    reshape main_v573 main_v574 rfl shapeCasts_S524288x1_S524288,
    unary main_arg0 main_v575 ((extractStridedSlice S524288x1 ![0, 2] · slices_S524288x3_S524288x1_0_2) : (⟨S524288x3, .f32⟩ : BufTy).Contents (Elt F) → (⟨S524288x1, .f32⟩ : BufTy).Contents (Elt F)),
    reshape main_v575 main_v576 rfl shapeCasts_S524288x1_S524288,
    nullary main_cst_175 (constant S_ .f32 0x3F800000#32),
    unary main_cst_175 main_v577 (broadcastInDim S524288 ![] bcast_S_S524288 : (⟨S_, .f32⟩ : BufTy).Contents (Elt F) → (⟨S524288, .f32⟩ : BufTy).Contents (Elt F)),
    binary main_v574 main_v577 main_v578 (addf : (⟨S524288, .f32⟩ : BufTy).Contents (Elt F) → (⟨S524288, .f32⟩ : BufTy).Contents (Elt F) → (⟨S524288, .f32⟩ : BufTy).Contents (Elt F)),
    nullary main_cst_176 (constant S_ .f32 0x3F000000#32),
    unary main_cst_176 main_v579 (broadcastInDim S524288 ![] bcast_S_S524288 : (⟨S_, .f32⟩ : BufTy).Contents (Elt F) → (⟨S524288, .f32⟩ : BufTy).Contents (Elt F)),
    binary main_v578 main_v579 main_v580 (mulf : (⟨S524288, .f32⟩ : BufTy).Contents (Elt F) → (⟨S524288, .f32⟩ : BufTy).Contents (Elt F) → (⟨S524288, .f32⟩ : BufTy).Contents (Elt F)),
    nullary main_cst_177 (constant S_ .f32 0x42FE0000#32),
    unary main_cst_177 main_v581 (broadcastInDim S524288 ![] bcast_S_S524288 : (⟨S_, .f32⟩ : BufTy).Contents (Elt F) → (⟨S524288, .f32⟩ : BufTy).Contents (Elt F)),
    binary main_v580 main_v581 main_v582 (mulf : (⟨S524288, .f32⟩ : BufTy).Contents (Elt F) → (⟨S524288, .f32⟩ : BufTy).Contents (Elt F) → (⟨S524288, .f32⟩ : BufTy).Contents (Elt F)),
    nullary main_cst_178 (constant S_ .f32 0x3F800000#32),
    unary main_cst_178 main_v583 (broadcastInDim S524288 ![] bcast_S_S524288 : (⟨S_, .f32⟩ : BufTy).Contents (Elt F) → (⟨S524288, .f32⟩ : BufTy).Contents (Elt F)),
    binary main_v576 main_v583 main_v584 (addf : (⟨S524288, .f32⟩ : BufTy).Contents (Elt F) → (⟨S524288, .f32⟩ : BufTy).Contents (Elt F) → (⟨S524288, .f32⟩ : BufTy).Contents (Elt F)),
    nullary main_cst_179 (constant S_ .f32 0x3F000000#32),
    unary main_cst_179 main_v585 (broadcastInDim S524288 ![] bcast_S_S524288 : (⟨S_, .f32⟩ : BufTy).Contents (Elt F) → (⟨S524288, .f32⟩ : BufTy).Contents (Elt F)),
    binary main_v584 main_v585 main_v586 (mulf : (⟨S524288, .f32⟩ : BufTy).Contents (Elt F) → (⟨S524288, .f32⟩ : BufTy).Contents (Elt F) → (⟨S524288, .f32⟩ : BufTy).Contents (Elt F)),
    nullary main_cst_180 (constant S_ .f32 0x42FE0000#32),
    unary main_cst_180 main_v587 (broadcastInDim S524288 ![] bcast_S_S524288 : (⟨S_, .f32⟩ : BufTy).Contents (Elt F) → (⟨S524288, .f32⟩ : BufTy).Contents (Elt F)),
    binary main_v586 main_v587 main_v588 (mulf : (⟨S524288, .f32⟩ : BufTy).Contents (Elt F) → (⟨S524288, .f32⟩ : BufTy).Contents (Elt F) → (⟨S524288, .f32⟩ : BufTy).Contents (Elt F)),
    unary main_v582 main_v589 (Host.floor : (⟨S524288, .f32⟩ : BufTy).Contents (Elt F) → (⟨S524288, .f32⟩ : BufTy).Contents (Elt F)),
    unary main_v588 main_v590 (Host.floor : (⟨S524288, .f32⟩ : BufTy).Contents (Elt F) → (⟨S524288, .f32⟩ : BufTy).Contents (Elt F)),
    binary main_v582 main_v589 main_v591 (subf : (⟨S524288, .f32⟩ : BufTy).Contents (Elt F) → (⟨S524288, .f32⟩ : BufTy).Contents (Elt F) → (⟨S524288, .f32⟩ : BufTy).Contents (Elt F)),
    binary main_v588 main_v590 main_v592 (subf : (⟨S524288, .f32⟩ : BufTy).Contents (Elt F) → (⟨S524288, .f32⟩ : BufTy).Contents (Elt F) → (⟨S524288, .f32⟩ : BufTy).Contents (Elt F)),
    unary main_v589 main_v593 (fptosi 32 : (⟨S524288, .f32⟩ : BufTy).Contents (Elt F) → (⟨S524288, .i32⟩ : BufTy).Contents (Elt F)),
    nullary main_c_181 (constantI S_ 32 0#32),
    nullary main_c_182 (constantI S_ 32 127#32),
    TRef.unary (TRef.of (T := ⟨S_, .i32⟩) main_c_181) (TRef.of (T := ⟨S_, .i32⟩) main_call20_v0) id ]

set_option maxRecDepth 8192 in
set_option maxHeartbeats 40000000 in
/-- After the stretch, main_v572 holds its stage of the arguments, given that the buffers the stretch reads from before it hold theirs. -/
theorem ck22_main_v572 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v458) = (val_main_v458 (F := F) x0 x4))
    (h1 : W (Proc.devRef .tc main_v553) = (val_main_v553 (F := F) x0 x5))
    (h2 : W (Proc.devRef .tc main_cst_174) = (val_main_cst_174 (F := F)))
    (h3 : W (Proc.devRef .tc main_v478) = (val_main_v478 (F := F) x0))
    (h4 : W (Proc.devRef .tc main_v562) = (val_main_v562 (F := F) x0 x5)) :
    after ck22 W (Proc.devRef .tc main_v572) = (val_main_v572 (F := F) x0 x4 x5) := by
  after_results_simp
  try simp only [val_main_v572, val_main_v571, val_main_v570, val_main_v569, val_main_v568, val_main_v567, val_main_v566, val_main_v565, val_main_v564, val_main_v563]
  try rw [← h0]
  try rw [← h1]
  try rw [← h2]
  try rw [← h3]
  try rw [← h4]
  try rfl

set_option maxRecDepth 8192 in
set_option maxHeartbeats 40000000 in
/-- After the stretch, main_v590 holds its stage of the arguments, given that the buffers the stretch reads from before it hold theirs. -/
theorem ck22_main_v590 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck22 W (Proc.devRef .tc main_v590) = (val_main_v590 (F := F) x0) := by
  after_results_simp
  try simp only [val_main_v590, val_main_v588, val_main_v587, val_main_cst_180, val_main_v586, val_main_v585, val_main_cst_179, val_main_v584, val_main_v583, val_main_cst_178, val_main_v576, val_main_v575]
  try rw [← h0]
  try rfl

set_option maxRecDepth 8192 in
set_option maxHeartbeats 40000000 in
/-- After the stretch, main_v591 holds its stage of the arguments, given that the buffers the stretch reads from before it hold theirs. -/
theorem ck22_main_v591 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck22 W (Proc.devRef .tc main_v591) = (val_main_v591 (F := F) x0) := by
  after_results_simp
  try simp only [val_main_v591, val_main_v589, val_main_v582, val_main_v581, val_main_cst_177, val_main_v580, val_main_v579, val_main_cst_176, val_main_v578, val_main_v577, val_main_cst_175, val_main_v574, val_main_v573]
  try rw [← h0]
  try rfl

set_option maxRecDepth 8192 in
set_option maxHeartbeats 40000000 in
/-- After the stretch, main_v592 holds its stage of the arguments, given that the buffers the stretch reads from before it hold theirs. -/
theorem ck22_main_v592 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck22 W (Proc.devRef .tc main_v592) = (val_main_v592 (F := F) x0) := by
  after_results_simp
  try simp only [val_main_v592, val_main_v590, val_main_v588, val_main_v587, val_main_cst_180, val_main_v586, val_main_v585, val_main_cst_179, val_main_v584, val_main_v583, val_main_cst_178, val_main_v576, val_main_v575]
  try rw [← h0]
  try rfl

set_option maxRecDepth 8192 in
set_option maxHeartbeats 40000000 in
/-- After the stretch, main_v593 holds its stage of the arguments, given that the buffers the stretch reads from before it hold theirs. -/
theorem ck22_main_v593 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck22 W (Proc.devRef .tc main_v593) = (val_main_v593 (F := F) x0) := by
  after_results_simp
  try simp only [val_main_v593, val_main_v589, val_main_v582, val_main_v581, val_main_cst_177, val_main_v580, val_main_v579, val_main_cst_176, val_main_v578, val_main_v577, val_main_cst_175, val_main_v574, val_main_v573]
  try rw [← h0]
  try rfl

set_option maxRecDepth 8192 in
set_option maxHeartbeats 40000000 in
/-- After the stretch, main_c_182 holds its stage of the arguments, given that the buffers the stretch reads from before it hold theirs. -/
theorem ck22_main_c_182 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck22 W (Proc.devRef .tc main_c_182) = (val_main_c_182 (F := F)) := by
  after_results_simp
  try simp only [val_main_c_182]

  try rfl

set_option maxRecDepth 8192 in
set_option maxHeartbeats 40000000 in
/-- After the stretch, main_call20_v0 holds its stage of the arguments, given that the buffers the stretch reads from before it hold theirs. -/
theorem ck22_main_call20_v0 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck22 W (Proc.devRef .tc main_call20_v0) = (val_main_call20_v0 (F := F)) := by
  after_results_simp
  try simp only [val_main_call20_v0, val_main_c_181]

  try rfl

set_option maxRecDepth 8192 in
set_option maxHeartbeats 40000000 in
/-- The stretch does not write main_arg0. -/
theorem ck22_pass_main_arg0 (W : Valuation τ sig (Elt F)) : after ck22 W (Proc.devRef .tc main_arg0) = W (Proc.devRef .tc main_arg0) := by
  after_results_simp <;> rfl

set_option maxRecDepth 8192 in
set_option maxHeartbeats 40000000 in
/-- The stretch does not write main_arg1. -/
theorem ck22_pass_main_arg1 (W : Valuation τ sig (Elt F)) : after ck22 W (Proc.devRef .tc main_arg1) = W (Proc.devRef .tc main_arg1) := by
  after_results_simp <;> rfl

set_option maxRecDepth 8192 in
set_option maxHeartbeats 40000000 in
/-- The stretch does not write main_arg2. -/
theorem ck22_pass_main_arg2 (W : Valuation τ sig (Elt F)) : after ck22 W (Proc.devRef .tc main_arg2) = W (Proc.devRef .tc main_arg2) := by
  after_results_simp <;> rfl

set_option maxRecDepth 8192 in
set_option maxHeartbeats 40000000 in
/-- The stretch does not write main_arg3. -/
theorem ck22_pass_main_arg3 (W : Valuation τ sig (Elt F)) : after ck22 W (Proc.devRef .tc main_arg3) = W (Proc.devRef .tc main_arg3) := by
  after_results_simp <;> rfl

set_option maxRecDepth 8192 in
set_option maxHeartbeats 40000000 in
/-- The stretch does not write main_arg4. -/
theorem ck22_pass_main_arg4 (W : Valuation τ sig (Elt F)) : after ck22 W (Proc.devRef .tc main_arg4) = W (Proc.devRef .tc main_arg4) := by
  after_results_simp <;> rfl

set_option maxRecDepth 8192 in
set_option maxHeartbeats 40000000 in
/-- The stretch does not write main_arg5. -/
theorem ck22_pass_main_arg5 (W : Valuation τ sig (Elt F)) : after ck22 W (Proc.devRef .tc main_arg5) = W (Proc.devRef .tc main_arg5) := by
  after_results_simp <;> rfl

set_option maxRecDepth 8192 in
set_option maxHeartbeats 40000000 in
/-- The stretch does not write main_arg6. -/
theorem ck22_pass_main_arg6 (W : Valuation τ sig (Elt F)) : after ck22 W (Proc.devRef .tc main_arg6) = W (Proc.devRef .tc main_arg6) := by
  after_results_simp <;> rfl

set_option maxRecDepth 8192 in
set_option maxHeartbeats 40000000 in
/-- The stretch does not write main_arg7. -/
theorem ck22_pass_main_arg7 (W : Valuation τ sig (Elt F)) : after ck22 W (Proc.devRef .tc main_arg7) = W (Proc.devRef .tc main_arg7) := by
  after_results_simp <;> rfl

set_option maxRecDepth 8192 in
set_option maxHeartbeats 40000000 in
/-- The stretch does not write main_arg8. -/
theorem ck22_pass_main_arg8 (W : Valuation τ sig (Elt F)) : after ck22 W (Proc.devRef .tc main_arg8) = W (Proc.devRef .tc main_arg8) := by
  after_results_simp <;> rfl

set_option maxRecDepth 8192 in
set_option maxHeartbeats 40000000 in
/-- The stretch does not write main_arg9. -/
theorem ck22_pass_main_arg9 (W : Valuation τ sig (Elt F)) : after ck22 W (Proc.devRef .tc main_arg9) = W (Proc.devRef .tc main_arg9) := by
  after_results_simp <;> rfl

set_option maxRecDepth 8192 in
set_option maxHeartbeats 40000000 in
/-- The stretch does not write main_v343. -/
theorem ck22_pass_main_v343 (W : Valuation τ sig (Elt F)) : after ck22 W (Proc.devRef .tc main_v343) = W (Proc.devRef .tc main_v343) := by
  after_results_simp <;> rfl

end Cert.ReferenceIdeal.Seg

end
-- ==== Proof.RefCk23.lean ====
/-
  The reference's host operations 881 to 920 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck23 : List (HloOp τ sig (Elt F)) :=
  [ TRef.unary (TRef.of (T := ⟨S_, .i32⟩) main_call20_v0) (TRef.of (T := ⟨S524288, .i32⟩) main_call20_v1) (broadcastInDim S524288 ![] bcast_S_S524288),
    TRef.binary (TRef.of (T := ⟨S524288, .i32⟩) main_call20_v1) (TRef.of (T := ⟨S524288, .i32⟩) main_v593) (TRef.of (T := ⟨S524288, .i32⟩) main_call20_v2) maxsi,
    TRef.unary (TRef.of (T := ⟨S_, .i32⟩) main_c_182) (TRef.of (T := ⟨S_, .i32⟩) main_call20_v3) id,
    TRef.unary (TRef.of (T := ⟨S_, .i32⟩) main_call20_v3) (TRef.of (T := ⟨S524288, .i32⟩) main_call20_v4) (broadcastInDim S524288 ![] bcast_S_S524288),
    TRef.binary (TRef.of (T := ⟨S524288, .i32⟩) main_call20_v4) (TRef.of (T := ⟨S524288, .i32⟩) main_call20_v2) (TRef.of (T := ⟨S524288, .i32⟩) main_v594) minsi,
    nullary main_c_183 (constantI S_ 32 1#32),
    unary main_c_183 main_v595 (broadcastInDim S524288 ![] bcast_S_S524288 : (⟨S_, .i32⟩ : BufTy).Contents (Elt F) → (⟨S524288, .i32⟩ : BufTy).Contents (Elt F)),
    binary main_v594 main_v595 main_v596 (addi : (⟨S524288, .i32⟩ : BufTy).Contents (Elt F) → (⟨S524288, .i32⟩ : BufTy).Contents (Elt F) → (⟨S524288, .i32⟩ : BufTy).Contents (Elt F)),
    nullary main_c_184 (constantI S_ 32 0#32),
    nullary main_c_185 (constantI S_ 32 127#32),
    TRef.unary (TRef.of (T := ⟨S_, .i32⟩) main_c_184) (TRef.of (T := ⟨S_, .i32⟩) main_call21_v0) id,
    TRef.unary (TRef.of (T := ⟨S_, .i32⟩) main_call21_v0) (TRef.of (T := ⟨S524288, .i32⟩) main_call21_v1) (broadcastInDim S524288 ![] bcast_S_S524288),
    TRef.binary (TRef.of (T := ⟨S524288, .i32⟩) main_call21_v1) (TRef.of (T := ⟨S524288, .i32⟩) main_v596) (TRef.of (T := ⟨S524288, .i32⟩) main_call21_v2) maxsi,
    TRef.unary (TRef.of (T := ⟨S_, .i32⟩) main_c_185) (TRef.of (T := ⟨S_, .i32⟩) main_call21_v3) id,
    TRef.unary (TRef.of (T := ⟨S_, .i32⟩) main_call21_v3) (TRef.of (T := ⟨S524288, .i32⟩) main_call21_v4) (broadcastInDim S524288 ![] bcast_S_S524288),
    TRef.binary (TRef.of (T := ⟨S524288, .i32⟩) main_call21_v4) (TRef.of (T := ⟨S524288, .i32⟩) main_call21_v2) (TRef.of (T := ⟨S524288, .i32⟩) main_v597) minsi,
    unary main_v590 main_v598 (fptosi 32 : (⟨S524288, .f32⟩ : BufTy).Contents (Elt F) → (⟨S524288, .i32⟩ : BufTy).Contents (Elt F)),
    nullary main_c_186 (constantI S_ 32 0#32),
    nullary main_c_187 (constantI S_ 32 127#32),
    TRef.unary (TRef.of (T := ⟨S_, .i32⟩) main_c_186) (TRef.of (T := ⟨S_, .i32⟩) main_call22_v0) id,
    TRef.unary (TRef.of (T := ⟨S_, .i32⟩) main_call22_v0) (TRef.of (T := ⟨S524288, .i32⟩) main_call22_v1) (broadcastInDim S524288 ![] bcast_S_S524288),
    TRef.binary (TRef.of (T := ⟨S524288, .i32⟩) main_call22_v1) (TRef.of (T := ⟨S524288, .i32⟩) main_v598) (TRef.of (T := ⟨S524288, .i32⟩) main_call22_v2) maxsi,
    TRef.unary (TRef.of (T := ⟨S_, .i32⟩) main_c_187) (TRef.of (T := ⟨S_, .i32⟩) main_call22_v3) id,
    TRef.unary (TRef.of (T := ⟨S_, .i32⟩) main_call22_v3) (TRef.of (T := ⟨S524288, .i32⟩) main_call22_v4) (broadcastInDim S524288 ![] bcast_S_S524288),
    TRef.binary (TRef.of (T := ⟨S524288, .i32⟩) main_call22_v4) (TRef.of (T := ⟨S524288, .i32⟩) main_call22_v2) (TRef.of (T := ⟨S524288, .i32⟩) main_v599) minsi,
    nullary main_c_188 (constantI S_ 32 1#32),
    unary main_c_188 main_v600 (broadcastInDim S524288 ![] bcast_S_S524288 : (⟨S_, .i32⟩ : BufTy).Contents (Elt F) → (⟨S524288, .i32⟩ : BufTy).Contents (Elt F)),
    binary main_v599 main_v600 main_v601 (addi : (⟨S524288, .i32⟩ : BufTy).Contents (Elt F) → (⟨S524288, .i32⟩ : BufTy).Contents (Elt F) → (⟨S524288, .i32⟩ : BufTy).Contents (Elt F)),
    nullary main_c_189 (constantI S_ 32 0#32),
    nullary main_c_190 (constantI S_ 32 127#32),
    TRef.unary (TRef.of (T := ⟨S_, .i32⟩) main_c_189) (TRef.of (T := ⟨S_, .i32⟩) main_call23_v0) id,
    TRef.unary (TRef.of (T := ⟨S_, .i32⟩) main_call23_v0) (TRef.of (T := ⟨S524288, .i32⟩) main_call23_v1) (broadcastInDim S524288 ![] bcast_S_S524288),
    TRef.binary (TRef.of (T := ⟨S524288, .i32⟩) main_call23_v1) (TRef.of (T := ⟨S524288, .i32⟩) main_v601) (TRef.of (T := ⟨S524288, .i32⟩) main_call23_v2) maxsi,
    TRef.unary (TRef.of (T := ⟨S_, .i32⟩) main_c_190) (TRef.of (T := ⟨S_, .i32⟩) main_call23_v3) id,
    TRef.unary (TRef.of (T := ⟨S_, .i32⟩) main_call23_v3) (TRef.of (T := ⟨S524288, .i32⟩) main_call23_v4) (broadcastInDim S524288 ![] bcast_S_S524288),
    TRef.binary (TRef.of (T := ⟨S524288, .i32⟩) main_call23_v4) (TRef.of (T := ⟨S524288, .i32⟩) main_call23_v2) (TRef.of (T := ⟨S524288, .i32⟩) main_v602) minsi,
    nullary main_c_191 (constantI S_ 32 0#32),
    unary main_c_191 main_v603 (broadcastInDim S524288 ![] bcast_S_S524288 : (⟨S_, .i32⟩ : BufTy).Contents (Elt F) → (⟨S524288, .i32⟩ : BufTy).Contents (Elt F)),
    binary main_v599 main_v603 main_v604 (cmpi .slt : (⟨S524288, .i32⟩ : BufTy).Contents (Elt F) → (⟨S524288, .i32⟩ : BufTy).Contents (Elt F) → (⟨S524288, .i1⟩ : BufTy).Contents (Elt F)),
    nullary main_c_192 (constantI S_ 32 128#32) ]

set_option maxRecDepth 8192 in
set_option maxHeartbeats 40000000 in
/-- After the stretch, main_v594 holds its stage of the arguments, given that the buffers the stretch reads from before it hold theirs. -/
theorem ck23_main_v594 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_c_182) = (val_main_c_182 (F := F)))
    (h1 : W (Proc.devRef .tc main_call20_v0) = (val_main_call20_v0 (F := F)))
    (h2 : W (Proc.devRef .tc main_v593) = (val_main_v593 (F := F) x0)) :
    after ck23 W (Proc.devRef .tc main_v594) = (val_main_v594 (F := F) x0) := by
  after_results_simp
  try simp only [val_main_v594, val_main_call20_v4, val_main_call20_v3, val_main_call20_v2, val_main_call20_v1]
  try rw [← h0]
  try rw [← h1]
  try rw [← h2]
  try rfl

set_option maxRecDepth 8192 in
set_option maxHeartbeats 40000000 in
/-- After the stretch, main_v597 holds its stage of the arguments, given that the buffers the stretch reads from before it hold theirs. -/
theorem ck23_main_v597 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_c_182) = (val_main_c_182 (F := F)))
    (h1 : W (Proc.devRef .tc main_call20_v0) = (val_main_call20_v0 (F := F)))
    (h2 : W (Proc.devRef .tc main_v593) = (val_main_v593 (F := F) x0)) :
    after ck23 W (Proc.devRef .tc main_v597) = (val_main_v597 (F := F) x0) := by
  after_results_simp
  try simp only [val_main_v597, val_main_call21_v4, val_main_call21_v3, val_main_call21_v2, val_main_call21_v1, val_main_call21_v0, val_main_c_185, val_main_c_184, val_main_v596, val_main_v595, val_main_c_183, val_main_v594, val_main_call20_v4, val_main_call20_v3, val_main_call20_v2, val_main_call20_v1]
  try rw [← h0]
  try rw [← h1]
  try rw [← h2]
  try rfl

set_option maxRecDepth 8192 in
set_option maxHeartbeats 40000000 in
/-- After the stretch, main_v599 holds its stage of the arguments, given that the buffers the stretch reads from before it hold theirs. -/
theorem ck23_main_v599 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v590) = (val_main_v590 (F := F) x0)) :
    after ck23 W (Proc.devRef .tc main_v599) = (val_main_v599 (F := F) x0) := by
  after_results_simp
  try simp only [val_main_v599, val_main_call22_v4, val_main_call22_v3, val_main_call22_v2, val_main_call22_v1, val_main_call22_v0, val_main_c_187, val_main_c_186, val_main_v598]
  try rw [← h0]
  try rfl

set_option maxRecDepth 8192 in
set_option maxHeartbeats 40000000 in
/-- After the stretch, main_v602 holds its stage of the arguments, given that the buffers the stretch reads from before it hold theirs. -/
theorem ck23_main_v602 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v590) = (val_main_v590 (F := F) x0)) :
    after ck23 W (Proc.devRef .tc main_v602) = (val_main_v602 (F := F) x0) := by
  after_results_simp
  try simp only [val_main_v602, val_main_call23_v4, val_main_call23_v3, val_main_call23_v2, val_main_call23_v1, val_main_call23_v0, val_main_c_190, val_main_c_189, val_main_v601, val_main_v600, val_main_c_188, val_main_v599, val_main_call22_v4, val_main_call22_v3, val_main_call22_v2, val_main_call22_v1, val_main_call22_v0, val_main_c_187, val_main_c_186, val_main_v598]
  try rw [← h0]
  try rfl

set_option maxRecDepth 8192 in
set_option maxHeartbeats 40000000 in
/-- After the stretch, main_v604 holds its stage of the arguments, given that the buffers the stretch reads from before it hold theirs. -/
theorem ck23_main_v604 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v590) = (val_main_v590 (F := F) x0)) :
    after ck23 W (Proc.devRef .tc main_v604) = (val_main_v604 (F := F) x0) := by
  after_results_simp
  try simp only [val_main_v604, val_main_v603, val_main_c_191, val_main_v599, val_main_call22_v4, val_main_call22_v3, val_main_call22_v2, val_main_call22_v1, val_main_call22_v0, val_main_c_187, val_main_c_186, val_main_v598]
  try rw [← h0]
  try rfl

set_option maxRecDepth 8192 in
set_option maxHeartbeats 40000000 in
/-- After the stretch, main_c_192 holds its stage of the arguments, given that the buffers the stretch reads from before it hold theirs. -/
theorem ck23_main_c_192 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck23 W (Proc.devRef .tc main_c_192) = (val_main_c_192 (F := F)) := by
  after_results_simp
  try simp only [val_main_c_192]

  try rfl

set_option maxRecDepth 8192 in
set_option maxHeartbeats 40000000 in
/-- The stretch does not write main_arg0. -/
theorem ck23_pass_main_arg0 (W : Valuation τ sig (Elt F)) : after ck23 W (Proc.devRef .tc main_arg0) = W (Proc.devRef .tc main_arg0) := by
  after_results_simp <;> rfl

set_option maxRecDepth 8192 in
set_option maxHeartbeats 40000000 in
/-- The stretch does not write main_arg1. -/
theorem ck23_pass_main_arg1 (W : Valuation τ sig (Elt F)) : after ck23 W (Proc.devRef .tc main_arg1) = W (Proc.devRef .tc main_arg1) := by
  after_results_simp <;> rfl

set_option maxRecDepth 8192 in
set_option maxHeartbeats 40000000 in
/-- The stretch does not write main_arg2. -/
theorem ck23_pass_main_arg2 (W : Valuation τ sig (Elt F)) : after ck23 W (Proc.devRef .tc main_arg2) = W (Proc.devRef .tc main_arg2) := by
  after_results_simp <;> rfl

set_option maxRecDepth 8192 in
set_option maxHeartbeats 40000000 in
/-- The stretch does not write main_arg3. -/
theorem ck23_pass_main_arg3 (W : Valuation τ sig (Elt F)) : after ck23 W (Proc.devRef .tc main_arg3) = W (Proc.devRef .tc main_arg3) := by
  after_results_simp <;> rfl

set_option maxRecDepth 8192 in
set_option maxHeartbeats 40000000 in
/-- The stretch does not write main_arg4. -/
theorem ck23_pass_main_arg4 (W : Valuation τ sig (Elt F)) : after ck23 W (Proc.devRef .tc main_arg4) = W (Proc.devRef .tc main_arg4) := by
  after_results_simp <;> rfl

set_option maxRecDepth 8192 in
set_option maxHeartbeats 40000000 in
/-- The stretch does not write main_arg5. -/
theorem ck23_pass_main_arg5 (W : Valuation τ sig (Elt F)) : after ck23 W (Proc.devRef .tc main_arg5) = W (Proc.devRef .tc main_arg5) := by
  after_results_simp <;> rfl

set_option maxRecDepth 8192 in
set_option maxHeartbeats 40000000 in
/-- The stretch does not write main_arg6. -/
theorem ck23_pass_main_arg6 (W : Valuation τ sig (Elt F)) : after ck23 W (Proc.devRef .tc main_arg6) = W (Proc.devRef .tc main_arg6) := by
  after_results_simp <;> rfl

set_option maxRecDepth 8192 in
set_option maxHeartbeats 40000000 in
/-- The stretch does not write main_v591. -/
theorem ck23_pass_main_v591 (W : Valuation τ sig (Elt F)) : after ck23 W (Proc.devRef .tc main_v591) = W (Proc.devRef .tc main_v591) := by
  after_results_simp <;> rfl

set_option maxRecDepth 8192 in
set_option maxHeartbeats 40000000 in
/-- The stretch does not write main_v592. -/
theorem ck23_pass_main_v592 (W : Valuation τ sig (Elt F)) : after ck23 W (Proc.devRef .tc main_v592) = W (Proc.devRef .tc main_v592) := by
  after_results_simp <;> rfl

set_option maxRecDepth 8192 in
set_option maxHeartbeats 40000000 in
/-- The stretch does not write main_v572. -/
theorem ck23_pass_main_v572 (W : Valuation τ sig (Elt F)) : after ck23 W (Proc.devRef .tc main_v572) = W (Proc.devRef .tc main_v572) := by
  after_results_simp <;> rfl

set_option maxRecDepth 8192 in
set_option maxHeartbeats 40000000 in
/-- The stretch does not write main_arg7. -/
theorem ck23_pass_main_arg7 (W : Valuation τ sig (Elt F)) : after ck23 W (Proc.devRef .tc main_arg7) = W (Proc.devRef .tc main_arg7) := by
  after_results_simp <;> rfl

set_option maxRecDepth 8192 in
set_option maxHeartbeats 40000000 in
/-- The stretch does not write main_arg8. -/
theorem ck23_pass_main_arg8 (W : Valuation τ sig (Elt F)) : after ck23 W (Proc.devRef .tc main_arg8) = W (Proc.devRef .tc main_arg8) := by
  after_results_simp <;> rfl

set_option maxRecDepth 8192 in
set_option maxHeartbeats 40000000 in
/-- The stretch does not write main_arg9. -/
theorem ck23_pass_main_arg9 (W : Valuation τ sig (Elt F)) : after ck23 W (Proc.devRef .tc main_arg9) = W (Proc.devRef .tc main_arg9) := by
  after_results_simp <;> rfl

set_option maxRecDepth 8192 in
set_option maxHeartbeats 40000000 in
/-- The stretch does not write main_v343. -/
theorem ck23_pass_main_v343 (W : Valuation τ sig (Elt F)) : after ck23 W (Proc.devRef .tc main_v343) = W (Proc.devRef .tc main_v343) := by
  after_results_simp <;> rfl

end Cert.ReferenceIdeal.Seg

end
-- ==== Proof.RefCk24.lean ====
/-
  The reference's host operations 921 to 960 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck24 : List (HloOp τ sig (Elt F)) :=
  [ unary main_c_192 main_v605 (broadcastInDim S524288 ![] bcast_S_S524288 : (⟨S_, .i32⟩ : BufTy).Contents (Elt F) → (⟨S524288, .i32⟩ : BufTy).Contents (Elt F)),
    binary main_v599 main_v605 main_v606 (addi : (⟨S524288, .i32⟩ : BufTy).Contents (Elt F) → (⟨S524288, .i32⟩ : BufTy).Contents (Elt F) → (⟨S524288, .i32⟩ : BufTy).Contents (Elt F)),
    ternary main_v604 main_v606 main_v599 main_v607 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_193 (constantI S_ 32 0#32),
    unary main_c_193 main_v608 (broadcastInDim S524288 ![] bcast_S_S524288 : (⟨S_, .i32⟩ : BufTy).Contents (Elt F) → (⟨S524288, .i32⟩ : BufTy).Contents (Elt F)),
    binary main_v594 main_v608 main_v609 (cmpi .slt : (⟨S524288, .i32⟩ : BufTy).Contents (Elt F) → (⟨S524288, .i32⟩ : BufTy).Contents (Elt F) → (⟨S524288, .i1⟩ : BufTy).Contents (Elt F)),
    nullary main_c_194 (constantI S_ 32 128#32),
    unary main_c_194 main_v610 (broadcastInDim S524288 ![] bcast_S_S524288 : (⟨S_, .i32⟩ : BufTy).Contents (Elt F) → (⟨S524288, .i32⟩ : BufTy).Contents (Elt F)),
    binary main_v594 main_v610 main_v611 (addi : (⟨S524288, .i32⟩ : BufTy).Contents (Elt F) → (⟨S524288, .i32⟩ : BufTy).Contents (Elt F) → (⟨S524288, .i32⟩ : BufTy).Contents (Elt F)),
    ternary main_v609 main_v611 main_v594 main_v612 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v607 main_v613 (broadcastInDim S524288x1 ![0] bcast_S524288_S524288x1_0 : (⟨S524288, .i32⟩ : BufTy).Contents (Elt F) → (⟨S524288x1, .i32⟩ : BufTy).Contents (Elt F)),
    unary main_v612 main_v614 (broadcastInDim S524288x1 ![0] bcast_S524288_S524288x1_0 : (⟨S524288, .i32⟩ : BufTy).Contents (Elt F) → (⟨S524288x1, .i32⟩ : BufTy).Contents (Elt F)),
    binary main_v613 main_v614 main_v615 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg6 main_v615 main_v616 ((fun x i => Host.gather gather_S32x128x128_S524288x2_S32x524288_0_12_n_n_12_1_3211 x i) : (⟨S32x128x128, .f32⟩ : BufTy).Contents (Elt F) → (⟨S524288x2, .i32⟩ : BufTy).Contents (Elt F) → (⟨S32x524288, .f32⟩ : BufTy).Contents (Elt F)),
    nullary main_c_195 (constantI S_ 32 0#32),
    unary main_c_195 main_v617 (broadcastInDim S524288 ![] bcast_S_S524288 : (⟨S_, .i32⟩ : BufTy).Contents (Elt F) → (⟨S524288, .i32⟩ : BufTy).Contents (Elt F)),
    binary main_v599 main_v617 main_v618 (cmpi .slt : (⟨S524288, .i32⟩ : BufTy).Contents (Elt F) → (⟨S524288, .i32⟩ : BufTy).Contents (Elt F) → (⟨S524288, .i1⟩ : BufTy).Contents (Elt F)),
    nullary main_c_196 (constantI S_ 32 128#32),
    unary main_c_196 main_v619 (broadcastInDim S524288 ![] bcast_S_S524288 : (⟨S_, .i32⟩ : BufTy).Contents (Elt F) → (⟨S524288, .i32⟩ : BufTy).Contents (Elt F)),
    binary main_v599 main_v619 main_v620 (addi : (⟨S524288, .i32⟩ : BufTy).Contents (Elt F) → (⟨S524288, .i32⟩ : BufTy).Contents (Elt F) → (⟨S524288, .i32⟩ : BufTy).Contents (Elt F)),
    ternary main_v618 main_v620 main_v599 main_v621 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_197 (constantI S_ 32 0#32),
    unary main_c_197 main_v622 (broadcastInDim S524288 ![] bcast_S_S524288 : (⟨S_, .i32⟩ : BufTy).Contents (Elt F) → (⟨S524288, .i32⟩ : BufTy).Contents (Elt F)),
    binary main_v597 main_v622 main_v623 (cmpi .slt : (⟨S524288, .i32⟩ : BufTy).Contents (Elt F) → (⟨S524288, .i32⟩ : BufTy).Contents (Elt F) → (⟨S524288, .i1⟩ : BufTy).Contents (Elt F)),
    nullary main_c_198 (constantI S_ 32 128#32),
    unary main_c_198 main_v624 (broadcastInDim S524288 ![] bcast_S_S524288 : (⟨S_, .i32⟩ : BufTy).Contents (Elt F) → (⟨S524288, .i32⟩ : BufTy).Contents (Elt F)),
    binary main_v597 main_v624 main_v625 (addi : (⟨S524288, .i32⟩ : BufTy).Contents (Elt F) → (⟨S524288, .i32⟩ : BufTy).Contents (Elt F) → (⟨S524288, .i32⟩ : BufTy).Contents (Elt F)),
    ternary main_v623 main_v625 main_v597 main_v626 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v621 main_v627 (broadcastInDim S524288x1 ![0] bcast_S524288_S524288x1_0 : (⟨S524288, .i32⟩ : BufTy).Contents (Elt F) → (⟨S524288x1, .i32⟩ : BufTy).Contents (Elt F)),
    unary main_v626 main_v628 (broadcastInDim S524288x1 ![0] bcast_S524288_S524288x1_0 : (⟨S524288, .i32⟩ : BufTy).Contents (Elt F) → (⟨S524288x1, .i32⟩ : BufTy).Contents (Elt F)),
    binary main_v627 main_v628 main_v629 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg6 main_v629 main_v630 ((fun x i => Host.gather gather_S32x128x128_S524288x2_S32x524288_0_12_n_n_12_1_3211 x i) : (⟨S32x128x128, .f32⟩ : BufTy).Contents (Elt F) → (⟨S524288x2, .i32⟩ : BufTy).Contents (Elt F) → (⟨S32x524288, .f32⟩ : BufTy).Contents (Elt F)),
    nullary main_c_199 (constantI S_ 32 0#32),
    unary main_c_199 main_v631 (broadcastInDim S524288 ![] bcast_S_S524288 : (⟨S_, .i32⟩ : BufTy).Contents (Elt F) → (⟨S524288, .i32⟩ : BufTy).Contents (Elt F)),
    binary main_v602 main_v631 main_v632 (cmpi .slt : (⟨S524288, .i32⟩ : BufTy).Contents (Elt F) → (⟨S524288, .i32⟩ : BufTy).Contents (Elt F) → (⟨S524288, .i1⟩ : BufTy).Contents (Elt F)),
    nullary main_c_200 (constantI S_ 32 128#32),
    unary main_c_200 main_v633 (broadcastInDim S524288 ![] bcast_S_S524288 : (⟨S_, .i32⟩ : BufTy).Contents (Elt F) → (⟨S524288, .i32⟩ : BufTy).Contents (Elt F)),
    binary main_v602 main_v633 main_v634 (addi : (⟨S524288, .i32⟩ : BufTy).Contents (Elt F) → (⟨S524288, .i32⟩ : BufTy).Contents (Elt F) → (⟨S524288, .i32⟩ : BufTy).Contents (Elt F)),
    ternary main_v632 main_v634 main_v602 main_v635 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_201 (constantI S_ 32 0#32) ]

set_option maxRecDepth 8192 in
set_option maxHeartbeats 40000000 in
/-- After the stretch, main_v616 holds its stage of the arguments, given that the buffers the stretch reads from before it hold theirs. -/
theorem ck24_main_v616 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg6) = x6)
    (h1 : W (Proc.devRef .tc main_v604) = (val_main_v604 (F := F) x0))
    (h2 : W (Proc.devRef .tc main_v599) = (val_main_v599 (F := F) x0))
    (h3 : W (Proc.devRef .tc main_c_192) = (val_main_c_192 (F := F)))
    (h4 : W (Proc.devRef .tc main_v594) = (val_main_v594 (F := F) x0)) :
    after ck24 W (Proc.devRef .tc main_v616) = (val_main_v616 (F := F) x0 x6) := by
  after_results_simp
  try simp only [val_main_v616, val_main_v615, val_main_v614, val_main_v613, val_main_v612, val_main_v611, val_main_v610, val_main_c_194, val_main_v609, val_main_v608, val_main_c_193, val_main_v607, val_main_v606, val_main_v605]
  try rw [← h0]
  try rw [← h1]
  try rw [← h2]
  try rw [← h3]
  try rw [← h4]
  try rfl

set_option maxRecDepth 8192 in
set_option maxHeartbeats 40000000 in
/-- After the stretch, main_v630 holds its stage of the arguments, given that the buffers the stretch reads from before it hold theirs. -/
theorem ck24_main_v630 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg6) = x6)
    (h1 : W (Proc.devRef .tc main_v599) = (val_main_v599 (F := F) x0))
    (h2 : W (Proc.devRef .tc main_v597) = (val_main_v597 (F := F) x0)) :
    after ck24 W (Proc.devRef .tc main_v630) = (val_main_v630 (F := F) x0 x6) := by
  after_results_simp
  try simp only [val_main_v630, val_main_v629, val_main_v628, val_main_v627, val_main_v626, val_main_v625, val_main_v624, val_main_c_198, val_main_v623, val_main_v622, val_main_c_197, val_main_v621, val_main_v620, val_main_v619, val_main_c_196, val_main_v618, val_main_v617, val_main_c_195]
  try rw [← h0]
  try rw [← h1]
  try rw [← h2]
  try rfl

set_option maxRecDepth 8192 in
set_option maxHeartbeats 40000000 in
/-- After the stretch, main_v635 holds its stage of the arguments, given that the buffers the stretch reads from before it hold theirs. -/
theorem ck24_main_v635 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v602) = (val_main_v602 (F := F) x0)) :
    after ck24 W (Proc.devRef .tc main_v635) = (val_main_v635 (F := F) x0) := by
  after_results_simp
  try simp only [val_main_v635, val_main_v634, val_main_v633, val_main_c_200, val_main_v632, val_main_v631, val_main_c_199]
  try rw [← h0]
  try rfl

set_option maxRecDepth 8192 in
set_option maxHeartbeats 40000000 in
/-- After the stretch, main_c_201 holds its stage of the arguments, given that the buffers the stretch reads from before it hold theirs. -/
theorem ck24_main_c_201 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck24 W (Proc.devRef .tc main_c_201) = (val_main_c_201 (F := F)) := by
  after_results_simp
  try simp only [val_main_c_201]

  try rfl

set_option maxRecDepth 8192 in
set_option maxHeartbeats 40000000 in
/-- The stretch does not write main_arg0. -/
theorem ck24_pass_main_arg0 (W : Valuation τ sig (Elt F)) : after ck24 W (Proc.devRef .tc main_arg0) = W (Proc.devRef .tc main_arg0) := by
  after_results_simp <;> rfl

set_option maxRecDepth 8192 in
set_option maxHeartbeats 40000000 in
/-- The stretch does not write main_arg1. -/
theorem ck24_pass_main_arg1 (W : Valuation τ sig (Elt F)) : after ck24 W (Proc.devRef .tc main_arg1) = W (Proc.devRef .tc main_arg1) := by
  after_results_simp <;> rfl

set_option maxRecDepth 8192 in
set_option maxHeartbeats 40000000 in
/-- The stretch does not write main_arg2. -/
theorem ck24_pass_main_arg2 (W : Valuation τ sig (Elt F)) : after ck24 W (Proc.devRef .tc main_arg2) = W (Proc.devRef .tc main_arg2) := by
  after_results_simp <;> rfl

set_option maxRecDepth 8192 in
set_option maxHeartbeats 40000000 in
/-- The stretch does not write main_arg3. -/
theorem ck24_pass_main_arg3 (W : Valuation τ sig (Elt F)) : after ck24 W (Proc.devRef .tc main_arg3) = W (Proc.devRef .tc main_arg3) := by
  after_results_simp <;> rfl

set_option maxRecDepth 8192 in
set_option maxHeartbeats 40000000 in
/-- The stretch does not write main_arg4. -/
theorem ck24_pass_main_arg4 (W : Valuation τ sig (Elt F)) : after ck24 W (Proc.devRef .tc main_arg4) = W (Proc.devRef .tc main_arg4) := by
  after_results_simp <;> rfl

set_option maxRecDepth 8192 in
set_option maxHeartbeats 40000000 in
/-- The stretch does not write main_arg5. -/
theorem ck24_pass_main_arg5 (W : Valuation τ sig (Elt F)) : after ck24 W (Proc.devRef .tc main_arg5) = W (Proc.devRef .tc main_arg5) := by
  after_results_simp <;> rfl

set_option maxRecDepth 8192 in
set_option maxHeartbeats 40000000 in
/-- The stretch does not write main_v594. -/
theorem ck24_pass_main_v594 (W : Valuation τ sig (Elt F)) : after ck24 W (Proc.devRef .tc main_v594) = W (Proc.devRef .tc main_v594) := by
  after_results_simp <;> rfl

set_option maxRecDepth 8192 in
set_option maxHeartbeats 40000000 in
/-- The stretch does not write main_arg6. -/
theorem ck24_pass_main_arg6 (W : Valuation τ sig (Elt F)) : after ck24 W (Proc.devRef .tc main_arg6) = W (Proc.devRef .tc main_arg6) := by
  after_results_simp <;> rfl

set_option maxRecDepth 8192 in
set_option maxHeartbeats 40000000 in
/-- The stretch does not write main_v597. -/
theorem ck24_pass_main_v597 (W : Valuation τ sig (Elt F)) : after ck24 W (Proc.devRef .tc main_v597) = W (Proc.devRef .tc main_v597) := by
  after_results_simp <;> rfl

set_option maxRecDepth 8192 in
set_option maxHeartbeats 40000000 in
/-- The stretch does not write main_v602. -/
theorem ck24_pass_main_v602 (W : Valuation τ sig (Elt F)) : after ck24 W (Proc.devRef .tc main_v602) = W (Proc.devRef .tc main_v602) := by
  after_results_simp <;> rfl

set_option maxRecDepth 8192 in
set_option maxHeartbeats 40000000 in
/-- The stretch does not write main_v591. -/
theorem ck24_pass_main_v591 (W : Valuation τ sig (Elt F)) : after ck24 W (Proc.devRef .tc main_v591) = W (Proc.devRef .tc main_v591) := by
  after_results_simp <;> rfl

set_option maxRecDepth 8192 in
set_option maxHeartbeats 40000000 in
/-- The stretch does not write main_v592. -/
theorem ck24_pass_main_v592 (W : Valuation τ sig (Elt F)) : after ck24 W (Proc.devRef .tc main_v592) = W (Proc.devRef .tc main_v592) := by
  after_results_simp <;> rfl

set_option maxRecDepth 8192 in
set_option maxHeartbeats 40000000 in
/-- The stretch does not write main_v572. -/
theorem ck24_pass_main_v572 (W : Valuation τ sig (Elt F)) : after ck24 W (Proc.devRef .tc main_v572) = W (Proc.devRef .tc main_v572) := by
  after_results_simp <;> rfl

set_option maxRecDepth 8192 in
set_option maxHeartbeats 40000000 in
/-- The stretch does not write main_arg7. -/
theorem ck24_pass_main_arg7 (W : Valuation τ sig (Elt F)) : after ck24 W (Proc.devRef .tc main_arg7) = W (Proc.devRef .tc main_arg7) := by
  after_results_simp <;> rfl

set_option maxRecDepth 8192 in
set_option maxHeartbeats 40000000 in
/-- The stretch does not write main_arg8. -/
theorem ck24_pass_main_arg8 (W : Valuation τ sig (Elt F)) : after ck24 W (Proc.devRef .tc main_arg8) = W (Proc.devRef .tc main_arg8) := by
  after_results_simp <;> rfl

set_option maxRecDepth 8192 in
set_option maxHeartbeats 40000000 in
/-- The stretch does not write main_arg9. -/
theorem ck24_pass_main_arg9 (W : Valuation τ sig (Elt F)) : after ck24 W (Proc.devRef .tc main_arg9) = W (Proc.devRef .tc main_arg9) := by
  after_results_simp <;> rfl

set_option maxRecDepth 8192 in
set_option maxHeartbeats 40000000 in
/-- The stretch does not write main_v343. -/
theorem ck24_pass_main_v343 (W : Valuation τ sig (Elt F)) : after ck24 W (Proc.devRef .tc main_v343) = W (Proc.devRef .tc main_v343) := by
  after_results_simp <;> rfl

end Cert.ReferenceIdeal.Seg

end
-- ==== Proof.RefCk25.lean ====
/-
  The reference's host operations 961 to 1000 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck25 : List (HloOp τ sig (Elt F)) :=
  [ unary main_c_201 main_v636 (broadcastInDim S524288 ![] bcast_S_S524288 : (⟨S_, .i32⟩ : BufTy).Contents (Elt F) → (⟨S524288, .i32⟩ : BufTy).Contents (Elt F)),
    binary main_v594 main_v636 main_v637 (cmpi .slt : (⟨S524288, .i32⟩ : BufTy).Contents (Elt F) → (⟨S524288, .i32⟩ : BufTy).Contents (Elt F) → (⟨S524288, .i1⟩ : BufTy).Contents (Elt F)),
    nullary main_c_202 (constantI S_ 32 128#32),
    unary main_c_202 main_v638 (broadcastInDim S524288 ![] bcast_S_S524288 : (⟨S_, .i32⟩ : BufTy).Contents (Elt F) → (⟨S524288, .i32⟩ : BufTy).Contents (Elt F)),
    binary main_v594 main_v638 main_v639 (addi : (⟨S524288, .i32⟩ : BufTy).Contents (Elt F) → (⟨S524288, .i32⟩ : BufTy).Contents (Elt F) → (⟨S524288, .i32⟩ : BufTy).Contents (Elt F)),
    ternary main_v637 main_v639 main_v594 main_v640 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v635 main_v641 (broadcastInDim S524288x1 ![0] bcast_S524288_S524288x1_0 : (⟨S524288, .i32⟩ : BufTy).Contents (Elt F) → (⟨S524288x1, .i32⟩ : BufTy).Contents (Elt F)),
    unary main_v640 main_v642 (broadcastInDim S524288x1 ![0] bcast_S524288_S524288x1_0 : (⟨S524288, .i32⟩ : BufTy).Contents (Elt F) → (⟨S524288x1, .i32⟩ : BufTy).Contents (Elt F)),
    binary main_v641 main_v642 main_v643 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg6 main_v643 main_v644 ((fun x i => Host.gather gather_S32x128x128_S524288x2_S32x524288_0_12_n_n_12_1_3211 x i) : (⟨S32x128x128, .f32⟩ : BufTy).Contents (Elt F) → (⟨S524288x2, .i32⟩ : BufTy).Contents (Elt F) → (⟨S32x524288, .f32⟩ : BufTy).Contents (Elt F)),
    nullary main_c_203 (constantI S_ 32 0#32),
    unary main_c_203 main_v645 (broadcastInDim S524288 ![] bcast_S_S524288 : (⟨S_, .i32⟩ : BufTy).Contents (Elt F) → (⟨S524288, .i32⟩ : BufTy).Contents (Elt F)),
    binary main_v602 main_v645 main_v646 (cmpi .slt : (⟨S524288, .i32⟩ : BufTy).Contents (Elt F) → (⟨S524288, .i32⟩ : BufTy).Contents (Elt F) → (⟨S524288, .i1⟩ : BufTy).Contents (Elt F)),
    nullary main_c_204 (constantI S_ 32 128#32),
    unary main_c_204 main_v647 (broadcastInDim S524288 ![] bcast_S_S524288 : (⟨S_, .i32⟩ : BufTy).Contents (Elt F) → (⟨S524288, .i32⟩ : BufTy).Contents (Elt F)),
    binary main_v602 main_v647 main_v648 (addi : (⟨S524288, .i32⟩ : BufTy).Contents (Elt F) → (⟨S524288, .i32⟩ : BufTy).Contents (Elt F) → (⟨S524288, .i32⟩ : BufTy).Contents (Elt F)),
    ternary main_v646 main_v648 main_v602 main_v649 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_205 (constantI S_ 32 0#32),
    unary main_c_205 main_v650 (broadcastInDim S524288 ![] bcast_S_S524288 : (⟨S_, .i32⟩ : BufTy).Contents (Elt F) → (⟨S524288, .i32⟩ : BufTy).Contents (Elt F)),
    binary main_v597 main_v650 main_v651 (cmpi .slt : (⟨S524288, .i32⟩ : BufTy).Contents (Elt F) → (⟨S524288, .i32⟩ : BufTy).Contents (Elt F) → (⟨S524288, .i1⟩ : BufTy).Contents (Elt F)),
    nullary main_c_206 (constantI S_ 32 128#32),
    unary main_c_206 main_v652 (broadcastInDim S524288 ![] bcast_S_S524288 : (⟨S_, .i32⟩ : BufTy).Contents (Elt F) → (⟨S524288, .i32⟩ : BufTy).Contents (Elt F)),
    binary main_v597 main_v652 main_v653 (addi : (⟨S524288, .i32⟩ : BufTy).Contents (Elt F) → (⟨S524288, .i32⟩ : BufTy).Contents (Elt F) → (⟨S524288, .i32⟩ : BufTy).Contents (Elt F)),
    ternary main_v651 main_v653 main_v597 main_v654 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v649 main_v655 (broadcastInDim S524288x1 ![0] bcast_S524288_S524288x1_0 : (⟨S524288, .i32⟩ : BufTy).Contents (Elt F) → (⟨S524288x1, .i32⟩ : BufTy).Contents (Elt F)),
    unary main_v654 main_v656 (broadcastInDim S524288x1 ![0] bcast_S524288_S524288x1_0 : (⟨S524288, .i32⟩ : BufTy).Contents (Elt F) → (⟨S524288x1, .i32⟩ : BufTy).Contents (Elt F)),
    binary main_v655 main_v656 main_v657 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg6 main_v657 main_v658 ((fun x i => Host.gather gather_S32x128x128_S524288x2_S32x524288_0_12_n_n_12_1_3211 x i) : (⟨S32x128x128, .f32⟩ : BufTy).Contents (Elt F) → (⟨S524288x2, .i32⟩ : BufTy).Contents (Elt F) → (⟨S32x524288, .f32⟩ : BufTy).Contents (Elt F)),
    nullary main_cst_207 (constant S_ .f32 0x3F800000#32),
    unary main_cst_207 main_v659 (broadcastInDim S524288 ![] bcast_S_S524288 : (⟨S_, .f32⟩ : BufTy).Contents (Elt F) → (⟨S524288, .f32⟩ : BufTy).Contents (Elt F)),
    binary main_v659 main_v591 main_v660 (subf : (⟨S524288, .f32⟩ : BufTy).Contents (Elt F) → (⟨S524288, .f32⟩ : BufTy).Contents (Elt F) → (⟨S524288, .f32⟩ : BufTy).Contents (Elt F)),
    unary main_v660 main_v661 (broadcastInDim S1x524288 ![1] bcast_S524288_S1x524288_1 : (⟨S524288, .f32⟩ : BufTy).Contents (Elt F) → (⟨S1x524288, .f32⟩ : BufTy).Contents (Elt F)),
    unary main_v661 main_v662 (broadcastInDim S32x524288 ![0, 1] bcast_S1x524288_S32x524288_0_1 : (⟨S1x524288, .f32⟩ : BufTy).Contents (Elt F) → (⟨S32x524288, .f32⟩ : BufTy).Contents (Elt F)),
    binary main_v616 main_v662 main_v663 (mulf : (⟨S32x524288, .f32⟩ : BufTy).Contents (Elt F) → (⟨S32x524288, .f32⟩ : BufTy).Contents (Elt F) → (⟨S32x524288, .f32⟩ : BufTy).Contents (Elt F)),
    unary main_v591 main_v664 (broadcastInDim S1x524288 ![1] bcast_S524288_S1x524288_1 : (⟨S524288, .f32⟩ : BufTy).Contents (Elt F) → (⟨S1x524288, .f32⟩ : BufTy).Contents (Elt F)),
    unary main_v664 main_v665 (broadcastInDim S32x524288 ![0, 1] bcast_S1x524288_S32x524288_0_1 : (⟨S1x524288, .f32⟩ : BufTy).Contents (Elt F) → (⟨S32x524288, .f32⟩ : BufTy).Contents (Elt F)),
    binary main_v630 main_v665 main_v666 (mulf : (⟨S32x524288, .f32⟩ : BufTy).Contents (Elt F) → (⟨S32x524288, .f32⟩ : BufTy).Contents (Elt F) → (⟨S32x524288, .f32⟩ : BufTy).Contents (Elt F)),
    binary main_v663 main_v666 main_v667 (addf : (⟨S32x524288, .f32⟩ : BufTy).Contents (Elt F) → (⟨S32x524288, .f32⟩ : BufTy).Contents (Elt F) → (⟨S32x524288, .f32⟩ : BufTy).Contents (Elt F)),
    nullary main_cst_208 (constant S_ .f32 0x3F800000#32),
    unary main_cst_208 main_v668 (broadcastInDim S524288 ![] bcast_S_S524288 : (⟨S_, .f32⟩ : BufTy).Contents (Elt F) → (⟨S524288, .f32⟩ : BufTy).Contents (Elt F)) ]

set_option maxRecDepth 8192 in
set_option maxHeartbeats 40000000 in
/-- After the stretch, main_v644 holds its stage of the arguments, given that the buffers the stretch reads from before it hold theirs. -/
theorem ck25_main_v644 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg6) = x6)
    (h1 : W (Proc.devRef .tc main_v635) = (val_main_v635 (F := F) x0))
    (h2 : W (Proc.devRef .tc main_v594) = (val_main_v594 (F := F) x0))
    (h3 : W (Proc.devRef .tc main_c_201) = (val_main_c_201 (F := F))) :
    after ck25 W (Proc.devRef .tc main_v644) = (val_main_v644 (F := F) x0 x6) := by
  after_results_simp
  try simp only [val_main_v644, val_main_v643, val_main_v642, val_main_v641, val_main_v640, val_main_v639, val_main_v638, val_main_c_202, val_main_v637, val_main_v636]
  try rw [← h0]
  try rw [← h1]
  try rw [← h2]
  try rw [← h3]
  try rfl

set_option maxRecDepth 8192 in
set_option maxHeartbeats 40000000 in
/-- After the stretch, main_v658 holds its stage of the arguments, given that the buffers the stretch reads from before it hold theirs. -/
theorem ck25_main_v658 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg6) = x6)
    (h1 : W (Proc.devRef .tc main_v602) = (val_main_v602 (F := F) x0))
    (h2 : W (Proc.devRef .tc main_v597) = (val_main_v597 (F := F) x0)) :
    after ck25 W (Proc.devRef .tc main_v658) = (val_main_v658 (F := F) x0 x6) := by
  after_results_simp
  try simp only [val_main_v658, val_main_v657, val_main_v656, val_main_v655, val_main_v654, val_main_v653, val_main_v652, val_main_c_206, val_main_v651, val_main_v650, val_main_c_205, val_main_v649, val_main_v648, val_main_v647, val_main_c_204, val_main_v646, val_main_v645, val_main_c_203]
  try rw [← h0]
  try rw [← h1]
  try rw [← h2]
  try rfl

set_option maxRecDepth 8192 in
set_option maxHeartbeats 40000000 in
/-- After the stretch, main_v667 holds its stage of the arguments, given that the buffers the stretch reads from before it hold theirs. -/
theorem ck25_main_v667 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v616) = (val_main_v616 (F := F) x0 x6))
    (h1 : W (Proc.devRef .tc main_v591) = (val_main_v591 (F := F) x0))
    (h2 : W (Proc.devRef .tc main_v630) = (val_main_v630 (F := F) x0 x6)) :
    after ck25 W (Proc.devRef .tc main_v667) = (val_main_v667 (F := F) x0 x6) := by
  after_results_simp
  try simp only [val_main_v667, val_main_v666, val_main_v665, val_main_v664, val_main_v663, val_main_v662, val_main_v661, val_main_v660, val_main_v659, val_main_cst_207]
  try rw [← h0]
  try rw [← h1]
  try rw [← h2]
  try rfl

set_option maxRecDepth 8192 in
set_option maxHeartbeats 40000000 in
/-- After the stretch, main_v668 holds its stage of the arguments, given that the buffers the stretch reads from before it hold theirs. -/
theorem ck25_main_v668 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck25 W (Proc.devRef .tc main_v668) = (val_main_v668 (F := F)) := by
  after_results_simp
  try simp only [val_main_v668, val_main_cst_208]

  try rfl

set_option maxRecDepth 8192 in
set_option maxHeartbeats 40000000 in
/-- The stretch does not write main_arg0. -/
theorem ck25_pass_main_arg0 (W : Valuation τ sig (Elt F)) : after ck25 W (Proc.devRef .tc main_arg0) = W (Proc.devRef .tc main_arg0) := by
  after_results_simp <;> rfl

set_option maxRecDepth 8192 in
set_option maxHeartbeats 40000000 in
/-- The stretch does not write main_arg1. -/
theorem ck25_pass_main_arg1 (W : Valuation τ sig (Elt F)) : after ck25 W (Proc.devRef .tc main_arg1) = W (Proc.devRef .tc main_arg1) := by
  after_results_simp <;> rfl

set_option maxRecDepth 8192 in
set_option maxHeartbeats 40000000 in
/-- The stretch does not write main_arg2. -/
theorem ck25_pass_main_arg2 (W : Valuation τ sig (Elt F)) : after ck25 W (Proc.devRef .tc main_arg2) = W (Proc.devRef .tc main_arg2) := by
  after_results_simp <;> rfl

set_option maxRecDepth 8192 in
set_option maxHeartbeats 40000000 in
/-- The stretch does not write main_arg3. -/
theorem ck25_pass_main_arg3 (W : Valuation τ sig (Elt F)) : after ck25 W (Proc.devRef .tc main_arg3) = W (Proc.devRef .tc main_arg3) := by
  after_results_simp <;> rfl

set_option maxRecDepth 8192 in
set_option maxHeartbeats 40000000 in
/-- The stretch does not write main_arg4. -/
theorem ck25_pass_main_arg4 (W : Valuation τ sig (Elt F)) : after ck25 W (Proc.devRef .tc main_arg4) = W (Proc.devRef .tc main_arg4) := by
  after_results_simp <;> rfl

set_option maxRecDepth 8192 in
set_option maxHeartbeats 40000000 in
/-- The stretch does not write main_arg5. -/
theorem ck25_pass_main_arg5 (W : Valuation τ sig (Elt F)) : after ck25 W (Proc.devRef .tc main_arg5) = W (Proc.devRef .tc main_arg5) := by
  after_results_simp <;> rfl

set_option maxRecDepth 8192 in
set_option maxHeartbeats 40000000 in
/-- The stretch does not write main_arg6. -/
theorem ck25_pass_main_arg6 (W : Valuation τ sig (Elt F)) : after ck25 W (Proc.devRef .tc main_arg6) = W (Proc.devRef .tc main_arg6) := by
  after_results_simp <;> rfl

set_option maxRecDepth 8192 in
set_option maxHeartbeats 40000000 in
/-- The stretch does not write main_v591. -/
theorem ck25_pass_main_v591 (W : Valuation τ sig (Elt F)) : after ck25 W (Proc.devRef .tc main_v591) = W (Proc.devRef .tc main_v591) := by
  after_results_simp <;> rfl

set_option maxRecDepth 8192 in
set_option maxHeartbeats 40000000 in
/-- The stretch does not write main_v592. -/
theorem ck25_pass_main_v592 (W : Valuation τ sig (Elt F)) : after ck25 W (Proc.devRef .tc main_v592) = W (Proc.devRef .tc main_v592) := by
  after_results_simp <;> rfl

set_option maxRecDepth 8192 in
set_option maxHeartbeats 40000000 in
/-- The stretch does not write main_v572. -/
theorem ck25_pass_main_v572 (W : Valuation τ sig (Elt F)) : after ck25 W (Proc.devRef .tc main_v572) = W (Proc.devRef .tc main_v572) := by
  after_results_simp <;> rfl

set_option maxRecDepth 8192 in
set_option maxHeartbeats 40000000 in
/-- The stretch does not write main_arg7. -/
theorem ck25_pass_main_arg7 (W : Valuation τ sig (Elt F)) : after ck25 W (Proc.devRef .tc main_arg7) = W (Proc.devRef .tc main_arg7) := by
  after_results_simp <;> rfl

set_option maxRecDepth 8192 in
set_option maxHeartbeats 40000000 in
/-- The stretch does not write main_arg8. -/
theorem ck25_pass_main_arg8 (W : Valuation τ sig (Elt F)) : after ck25 W (Proc.devRef .tc main_arg8) = W (Proc.devRef .tc main_arg8) := by
  after_results_simp <;> rfl

set_option maxRecDepth 8192 in
set_option maxHeartbeats 40000000 in
/-- The stretch does not write main_arg9. -/
theorem ck25_pass_main_arg9 (W : Valuation τ sig (Elt F)) : after ck25 W (Proc.devRef .tc main_arg9) = W (Proc.devRef .tc main_arg9) := by
  after_results_simp <;> rfl

set_option maxRecDepth 8192 in
set_option maxHeartbeats 40000000 in
/-- The stretch does not write main_v343. -/
theorem ck25_pass_main_v343 (W : Valuation τ sig (Elt F)) : after ck25 W (Proc.devRef .tc main_v343) = W (Proc.devRef .tc main_v343) := by
  after_results_simp <;> rfl

end Cert.ReferenceIdeal.Seg

end
-- ==== Proof.RefCk26.lean ====
/-
  The reference's host operations 1001 to 1040 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck26 : List (HloOp τ sig (Elt F)) :=
  [ binary main_v668 main_v591 main_v669 (subf : (⟨S524288, .f32⟩ : BufTy).Contents (Elt F) → (⟨S524288, .f32⟩ : BufTy).Contents (Elt F) → (⟨S524288, .f32⟩ : BufTy).Contents (Elt F)),
    unary main_v669 main_v670 (broadcastInDim S1x524288 ![1] bcast_S524288_S1x524288_1 : (⟨S524288, .f32⟩ : BufTy).Contents (Elt F) → (⟨S1x524288, .f32⟩ : BufTy).Contents (Elt F)),
    unary main_v670 main_v671 (broadcastInDim S32x524288 ![0, 1] bcast_S1x524288_S32x524288_0_1 : (⟨S1x524288, .f32⟩ : BufTy).Contents (Elt F) → (⟨S32x524288, .f32⟩ : BufTy).Contents (Elt F)),
    binary main_v644 main_v671 main_v672 (mulf : (⟨S32x524288, .f32⟩ : BufTy).Contents (Elt F) → (⟨S32x524288, .f32⟩ : BufTy).Contents (Elt F) → (⟨S32x524288, .f32⟩ : BufTy).Contents (Elt F)),
    unary main_v591 main_v673 (broadcastInDim S1x524288 ![1] bcast_S524288_S1x524288_1 : (⟨S524288, .f32⟩ : BufTy).Contents (Elt F) → (⟨S1x524288, .f32⟩ : BufTy).Contents (Elt F)),
    unary main_v673 main_v674 (broadcastInDim S32x524288 ![0, 1] bcast_S1x524288_S32x524288_0_1 : (⟨S1x524288, .f32⟩ : BufTy).Contents (Elt F) → (⟨S32x524288, .f32⟩ : BufTy).Contents (Elt F)),
    binary main_v658 main_v674 main_v675 (mulf : (⟨S32x524288, .f32⟩ : BufTy).Contents (Elt F) → (⟨S32x524288, .f32⟩ : BufTy).Contents (Elt F) → (⟨S32x524288, .f32⟩ : BufTy).Contents (Elt F)),
    binary main_v672 main_v675 main_v676 (addf : (⟨S32x524288, .f32⟩ : BufTy).Contents (Elt F) → (⟨S32x524288, .f32⟩ : BufTy).Contents (Elt F) → (⟨S32x524288, .f32⟩ : BufTy).Contents (Elt F)),
    nullary main_cst_209 (constant S_ .f32 0x3F800000#32),
    unary main_cst_209 main_v677 (broadcastInDim S524288 ![] bcast_S_S524288 : (⟨S_, .f32⟩ : BufTy).Contents (Elt F) → (⟨S524288, .f32⟩ : BufTy).Contents (Elt F)),
    binary main_v677 main_v592 main_v678 (subf : (⟨S524288, .f32⟩ : BufTy).Contents (Elt F) → (⟨S524288, .f32⟩ : BufTy).Contents (Elt F) → (⟨S524288, .f32⟩ : BufTy).Contents (Elt F)),
    unary main_v678 main_v679 (broadcastInDim S1x524288 ![1] bcast_S524288_S1x524288_1 : (⟨S524288, .f32⟩ : BufTy).Contents (Elt F) → (⟨S1x524288, .f32⟩ : BufTy).Contents (Elt F)),
    unary main_v679 main_v680 (broadcastInDim S32x524288 ![0, 1] bcast_S1x524288_S32x524288_0_1 : (⟨S1x524288, .f32⟩ : BufTy).Contents (Elt F) → (⟨S32x524288, .f32⟩ : BufTy).Contents (Elt F)),
    binary main_v667 main_v680 main_v681 (mulf : (⟨S32x524288, .f32⟩ : BufTy).Contents (Elt F) → (⟨S32x524288, .f32⟩ : BufTy).Contents (Elt F) → (⟨S32x524288, .f32⟩ : BufTy).Contents (Elt F)),
    unary main_v592 main_v682 (broadcastInDim S1x524288 ![1] bcast_S524288_S1x524288_1 : (⟨S524288, .f32⟩ : BufTy).Contents (Elt F) → (⟨S1x524288, .f32⟩ : BufTy).Contents (Elt F)),
    unary main_v682 main_v683 (broadcastInDim S32x524288 ![0, 1] bcast_S1x524288_S32x524288_0_1 : (⟨S1x524288, .f32⟩ : BufTy).Contents (Elt F) → (⟨S32x524288, .f32⟩ : BufTy).Contents (Elt F)),
    binary main_v676 main_v683 main_v684 (mulf : (⟨S32x524288, .f32⟩ : BufTy).Contents (Elt F) → (⟨S32x524288, .f32⟩ : BufTy).Contents (Elt F) → (⟨S32x524288, .f32⟩ : BufTy).Contents (Elt F)),
    binary main_v681 main_v684 main_v685 (addf : (⟨S32x524288, .f32⟩ : BufTy).Contents (Elt F) → (⟨S32x524288, .f32⟩ : BufTy).Contents (Elt F) → (⟨S32x524288, .f32⟩ : BufTy).Contents (Elt F)),
    binary main_v572 main_v685 main_v686 (mulf : (⟨S32x524288, .f32⟩ : BufTy).Contents (Elt F) → (⟨S32x524288, .f32⟩ : BufTy).Contents (Elt F) → (⟨S32x524288, .f32⟩ : BufTy).Contents (Elt F)),
    unary main_v686 main_v687 ((transpose S524288x32 [1, 0] · transposes_S32x524288_S524288x32_1_0) : (⟨S32x524288, .f32⟩ : BufTy).Contents (Elt F) → (⟨S524288x32, .f32⟩ : BufTy).Contents (Elt F)),
    unary main_arg0 main_v688 ((extractStridedSlice S524288x1 ![0, 0] · slices_S524288x3_S524288x1_0_0) : (⟨S524288x3, .f32⟩ : BufTy).Contents (Elt F) → (⟨S524288x1, .f32⟩ : BufTy).Contents (Elt F)),
    reshape main_v688 main_v689 rfl shapeCasts_S524288x1_S524288,
    unary main_arg0 main_v690 ((extractStridedSlice S524288x1 ![0, 1] · slices_S524288x3_S524288x1_0_1) : (⟨S524288x3, .f32⟩ : BufTy).Contents (Elt F) → (⟨S524288x1, .f32⟩ : BufTy).Contents (Elt F)),
    reshape main_v690 main_v691 rfl shapeCasts_S524288x1_S524288,
    nullary main_cst_210 (constant S_ .f32 0x3F800000#32),
    unary main_cst_210 main_v692 (broadcastInDim S524288 ![] bcast_S_S524288 : (⟨S_, .f32⟩ : BufTy).Contents (Elt F) → (⟨S524288, .f32⟩ : BufTy).Contents (Elt F)),
    binary main_v689 main_v692 main_v693 (addf : (⟨S524288, .f32⟩ : BufTy).Contents (Elt F) → (⟨S524288, .f32⟩ : BufTy).Contents (Elt F) → (⟨S524288, .f32⟩ : BufTy).Contents (Elt F)),
    nullary main_cst_211 (constant S_ .f32 0x3F000000#32),
    unary main_cst_211 main_v694 (broadcastInDim S524288 ![] bcast_S_S524288 : (⟨S_, .f32⟩ : BufTy).Contents (Elt F) → (⟨S524288, .f32⟩ : BufTy).Contents (Elt F)),
    binary main_v693 main_v694 main_v695 (mulf : (⟨S524288, .f32⟩ : BufTy).Contents (Elt F) → (⟨S524288, .f32⟩ : BufTy).Contents (Elt F) → (⟨S524288, .f32⟩ : BufTy).Contents (Elt F)),
    nullary main_cst_212 (constant S_ .f32 0x437F0000#32),
    unary main_cst_212 main_v696 (broadcastInDim S524288 ![] bcast_S_S524288 : (⟨S_, .f32⟩ : BufTy).Contents (Elt F) → (⟨S524288, .f32⟩ : BufTy).Contents (Elt F)),
    binary main_v695 main_v696 main_v697 (mulf : (⟨S524288, .f32⟩ : BufTy).Contents (Elt F) → (⟨S524288, .f32⟩ : BufTy).Contents (Elt F) → (⟨S524288, .f32⟩ : BufTy).Contents (Elt F)),
    nullary main_cst_213 (constant S_ .f32 0x3F800000#32),
    unary main_cst_213 main_v698 (broadcastInDim S524288 ![] bcast_S_S524288 : (⟨S_, .f32⟩ : BufTy).Contents (Elt F) → (⟨S524288, .f32⟩ : BufTy).Contents (Elt F)),
    binary main_v691 main_v698 main_v699 (addf : (⟨S524288, .f32⟩ : BufTy).Contents (Elt F) → (⟨S524288, .f32⟩ : BufTy).Contents (Elt F) → (⟨S524288, .f32⟩ : BufTy).Contents (Elt F)),
    nullary main_cst_214 (constant S_ .f32 0x3F000000#32),
    unary main_cst_214 main_v700 (broadcastInDim S524288 ![] bcast_S_S524288 : (⟨S_, .f32⟩ : BufTy).Contents (Elt F) → (⟨S524288, .f32⟩ : BufTy).Contents (Elt F)),
    binary main_v699 main_v700 main_v701 (mulf : (⟨S524288, .f32⟩ : BufTy).Contents (Elt F) → (⟨S524288, .f32⟩ : BufTy).Contents (Elt F) → (⟨S524288, .f32⟩ : BufTy).Contents (Elt F)),
    nullary main_cst_215 (constant S_ .f32 0x437F0000#32) ]

set_option maxRecDepth 8192 in
set_option maxHeartbeats 40000000 in
/-- After the stretch, main_v687 holds its stage of the arguments, given that the buffers the stretch reads from before it hold theirs. -/
theorem ck26_main_v687 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v572) = (val_main_v572 (F := F) x0 x4 x5))
    (h1 : W (Proc.devRef .tc main_v667) = (val_main_v667 (F := F) x0 x6))
    (h2 : W (Proc.devRef .tc main_v592) = (val_main_v592 (F := F) x0))
    (h3 : W (Proc.devRef .tc main_v644) = (val_main_v644 (F := F) x0 x6))
    (h4 : W (Proc.devRef .tc main_v668) = (val_main_v668 (F := F)))
    (h5 : W (Proc.devRef .tc main_v591) = (val_main_v591 (F := F) x0))
    (h6 : W (Proc.devRef .tc main_v658) = (val_main_v658 (F := F) x0 x6)) :
    after ck26 W (Proc.devRef .tc main_v687) = (val_main_v687 (F := F) x0 x4 x5 x6) := by
  after_results_simp
  try simp only [val_main_v687, val_main_v686, val_main_v685, val_main_v684, val_main_v683, val_main_v682, val_main_v681, val_main_v680, val_main_v679, val_main_v678, val_main_v677, val_main_cst_209, val_main_v676, val_main_v675, val_main_v674, val_main_v673, val_main_v672, val_main_v671, val_main_v670, val_main_v669]
  try rw [← h0]
  try rw [← h1]
  try rw [← h2]
  try rw [← h3]
  try rw [← h4]
  try rw [← h5]
  try rw [← h6]
  try rfl

set_option maxRecDepth 8192 in
set_option maxHeartbeats 40000000 in
/-- After the stretch, main_v697 holds its stage of the arguments, given that the buffers the stretch reads from before it hold theirs. -/
theorem ck26_main_v697 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck26 W (Proc.devRef .tc main_v697) = (val_main_v697 (F := F) x0) := by
  after_results_simp
  try simp only [val_main_v697, val_main_v696, val_main_cst_212, val_main_v695, val_main_v694, val_main_cst_211, val_main_v693, val_main_v692, val_main_cst_210, val_main_v689, val_main_v688]
  try rw [← h0]
  try rfl

set_option maxRecDepth 8192 in
set_option maxHeartbeats 40000000 in
/-- After the stretch, main_v701 holds its stage of the arguments, given that the buffers the stretch reads from before it hold theirs. -/
theorem ck26_main_v701 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck26 W (Proc.devRef .tc main_v701) = (val_main_v701 (F := F) x0) := by
  after_results_simp
  try simp only [val_main_v701, val_main_v700, val_main_cst_214, val_main_v699, val_main_v698, val_main_cst_213, val_main_v691, val_main_v690]
  try rw [← h0]
  try rfl

set_option maxRecDepth 8192 in
set_option maxHeartbeats 40000000 in
/-- After the stretch, main_cst_215 holds its stage of the arguments, given that the buffers the stretch reads from before it hold theirs. -/
theorem ck26_main_cst_215 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck26 W (Proc.devRef .tc main_cst_215) = (val_main_cst_215 (F := F)) := by
  after_results_simp
  try simp only [val_main_cst_215]

  try rfl

set_option maxRecDepth 8192 in
set_option maxHeartbeats 40000000 in
/-- The stretch does not write main_arg0. -/
theorem ck26_pass_main_arg0 (W : Valuation τ sig (Elt F)) : after ck26 W (Proc.devRef .tc main_arg0) = W (Proc.devRef .tc main_arg0) := by
  after_results_simp <;> rfl

set_option maxRecDepth 8192 in
set_option maxHeartbeats 40000000 in
/-- The stretch does not write main_arg1. -/
theorem ck26_pass_main_arg1 (W : Valuation τ sig (Elt F)) : after ck26 W (Proc.devRef .tc main_arg1) = W (Proc.devRef .tc main_arg1) := by
  after_results_simp <;> rfl

set_option maxRecDepth 8192 in
set_option maxHeartbeats 40000000 in
/-- The stretch does not write main_arg2. -/
theorem ck26_pass_main_arg2 (W : Valuation τ sig (Elt F)) : after ck26 W (Proc.devRef .tc main_arg2) = W (Proc.devRef .tc main_arg2) := by
  after_results_simp <;> rfl

set_option maxRecDepth 8192 in
set_option maxHeartbeats 40000000 in
/-- The stretch does not write main_arg3. -/
theorem ck26_pass_main_arg3 (W : Valuation τ sig (Elt F)) : after ck26 W (Proc.devRef .tc main_arg3) = W (Proc.devRef .tc main_arg3) := by
  after_results_simp <;> rfl

set_option maxRecDepth 8192 in
set_option maxHeartbeats 40000000 in
/-- The stretch does not write main_arg4. -/
theorem ck26_pass_main_arg4 (W : Valuation τ sig (Elt F)) : after ck26 W (Proc.devRef .tc main_arg4) = W (Proc.devRef .tc main_arg4) := by
  after_results_simp <;> rfl

set_option maxRecDepth 8192 in
set_option maxHeartbeats 40000000 in
/-- The stretch does not write main_arg5. -/
theorem ck26_pass_main_arg5 (W : Valuation τ sig (Elt F)) : after ck26 W (Proc.devRef .tc main_arg5) = W (Proc.devRef .tc main_arg5) := by
  after_results_simp <;> rfl

set_option maxRecDepth 8192 in
set_option maxHeartbeats 40000000 in
/-- The stretch does not write main_arg6. -/
theorem ck26_pass_main_arg6 (W : Valuation τ sig (Elt F)) : after ck26 W (Proc.devRef .tc main_arg6) = W (Proc.devRef .tc main_arg6) := by
  after_results_simp <;> rfl

set_option maxRecDepth 8192 in
set_option maxHeartbeats 40000000 in
/-- The stretch does not write main_arg7. -/
theorem ck26_pass_main_arg7 (W : Valuation τ sig (Elt F)) : after ck26 W (Proc.devRef .tc main_arg7) = W (Proc.devRef .tc main_arg7) := by
  after_results_simp <;> rfl

set_option maxRecDepth 8192 in
set_option maxHeartbeats 40000000 in
/-- The stretch does not write main_arg8. -/
theorem ck26_pass_main_arg8 (W : Valuation τ sig (Elt F)) : after ck26 W (Proc.devRef .tc main_arg8) = W (Proc.devRef .tc main_arg8) := by
  after_results_simp <;> rfl

set_option maxRecDepth 8192 in
set_option maxHeartbeats 40000000 in
/-- The stretch does not write main_arg9. -/
theorem ck26_pass_main_arg9 (W : Valuation τ sig (Elt F)) : after ck26 W (Proc.devRef .tc main_arg9) = W (Proc.devRef .tc main_arg9) := by
  after_results_simp <;> rfl

set_option maxRecDepth 8192 in
set_option maxHeartbeats 40000000 in
/-- The stretch does not write main_v343. -/
theorem ck26_pass_main_v343 (W : Valuation τ sig (Elt F)) : after ck26 W (Proc.devRef .tc main_v343) = W (Proc.devRef .tc main_v343) := by
  after_results_simp <;> rfl

end Cert.ReferenceIdeal.Seg

end
-- ==== Proof.RefCk27.lean ====
/-
  The reference's host operations 1041 to 1080 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck27 : List (HloOp τ sig (Elt F)) :=
  [ unary main_cst_215 main_v702 (broadcastInDim S524288 ![] bcast_S_S524288 : (⟨S_, .f32⟩ : BufTy).Contents (Elt F) → (⟨S524288, .f32⟩ : BufTy).Contents (Elt F)),
    binary main_v701 main_v702 main_v703 (mulf : (⟨S524288, .f32⟩ : BufTy).Contents (Elt F) → (⟨S524288, .f32⟩ : BufTy).Contents (Elt F) → (⟨S524288, .f32⟩ : BufTy).Contents (Elt F)),
    unary main_v697 main_v704 (Host.floor : (⟨S524288, .f32⟩ : BufTy).Contents (Elt F) → (⟨S524288, .f32⟩ : BufTy).Contents (Elt F)),
    unary main_v703 main_v705 (Host.floor : (⟨S524288, .f32⟩ : BufTy).Contents (Elt F) → (⟨S524288, .f32⟩ : BufTy).Contents (Elt F)),
    binary main_v697 main_v704 main_v706 (subf : (⟨S524288, .f32⟩ : BufTy).Contents (Elt F) → (⟨S524288, .f32⟩ : BufTy).Contents (Elt F) → (⟨S524288, .f32⟩ : BufTy).Contents (Elt F)),
    binary main_v703 main_v705 main_v707 (subf : (⟨S524288, .f32⟩ : BufTy).Contents (Elt F) → (⟨S524288, .f32⟩ : BufTy).Contents (Elt F) → (⟨S524288, .f32⟩ : BufTy).Contents (Elt F)),
    unary main_v704 main_v708 (fptosi 32 : (⟨S524288, .f32⟩ : BufTy).Contents (Elt F) → (⟨S524288, .i32⟩ : BufTy).Contents (Elt F)),
    nullary main_c_216 (constantI S_ 32 0#32),
    nullary main_c_217 (constantI S_ 32 255#32),
    TRef.unary (TRef.of (T := ⟨S_, .i32⟩) main_c_216) (TRef.of (T := ⟨S_, .i32⟩) main_call24_v0) id,
    TRef.unary (TRef.of (T := ⟨S_, .i32⟩) main_call24_v0) (TRef.of (T := ⟨S524288, .i32⟩) main_call24_v1) (broadcastInDim S524288 ![] bcast_S_S524288),
    TRef.binary (TRef.of (T := ⟨S524288, .i32⟩) main_call24_v1) (TRef.of (T := ⟨S524288, .i32⟩) main_v708) (TRef.of (T := ⟨S524288, .i32⟩) main_call24_v2) maxsi,
    TRef.unary (TRef.of (T := ⟨S_, .i32⟩) main_c_217) (TRef.of (T := ⟨S_, .i32⟩) main_call24_v3) id,
    TRef.unary (TRef.of (T := ⟨S_, .i32⟩) main_call24_v3) (TRef.of (T := ⟨S524288, .i32⟩) main_call24_v4) (broadcastInDim S524288 ![] bcast_S_S524288),
    TRef.binary (TRef.of (T := ⟨S524288, .i32⟩) main_call24_v4) (TRef.of (T := ⟨S524288, .i32⟩) main_call24_v2) (TRef.of (T := ⟨S524288, .i32⟩) main_v709) minsi,
    nullary main_c_218 (constantI S_ 32 1#32),
    unary main_c_218 main_v710 (broadcastInDim S524288 ![] bcast_S_S524288 : (⟨S_, .i32⟩ : BufTy).Contents (Elt F) → (⟨S524288, .i32⟩ : BufTy).Contents (Elt F)),
    binary main_v709 main_v710 main_v711 (addi : (⟨S524288, .i32⟩ : BufTy).Contents (Elt F) → (⟨S524288, .i32⟩ : BufTy).Contents (Elt F) → (⟨S524288, .i32⟩ : BufTy).Contents (Elt F)),
    nullary main_c_219 (constantI S_ 32 0#32),
    nullary main_c_220 (constantI S_ 32 255#32),
    TRef.unary (TRef.of (T := ⟨S_, .i32⟩) main_c_219) (TRef.of (T := ⟨S_, .i32⟩) main_call25_v0) id,
    TRef.unary (TRef.of (T := ⟨S_, .i32⟩) main_call25_v0) (TRef.of (T := ⟨S524288, .i32⟩) main_call25_v1) (broadcastInDim S524288 ![] bcast_S_S524288),
    TRef.binary (TRef.of (T := ⟨S524288, .i32⟩) main_call25_v1) (TRef.of (T := ⟨S524288, .i32⟩) main_v711) (TRef.of (T := ⟨S524288, .i32⟩) main_call25_v2) maxsi,
    TRef.unary (TRef.of (T := ⟨S_, .i32⟩) main_c_220) (TRef.of (T := ⟨S_, .i32⟩) main_call25_v3) id,
    TRef.unary (TRef.of (T := ⟨S_, .i32⟩) main_call25_v3) (TRef.of (T := ⟨S524288, .i32⟩) main_call25_v4) (broadcastInDim S524288 ![] bcast_S_S524288),
    TRef.binary (TRef.of (T := ⟨S524288, .i32⟩) main_call25_v4) (TRef.of (T := ⟨S524288, .i32⟩) main_call25_v2) (TRef.of (T := ⟨S524288, .i32⟩) main_v712) minsi,
    unary main_v705 main_v713 (fptosi 32 : (⟨S524288, .f32⟩ : BufTy).Contents (Elt F) → (⟨S524288, .i32⟩ : BufTy).Contents (Elt F)),
    nullary main_c_221 (constantI S_ 32 0#32),
    nullary main_c_222 (constantI S_ 32 255#32),
    TRef.unary (TRef.of (T := ⟨S_, .i32⟩) main_c_221) (TRef.of (T := ⟨S_, .i32⟩) main_call26_v0) id,
    TRef.unary (TRef.of (T := ⟨S_, .i32⟩) main_call26_v0) (TRef.of (T := ⟨S524288, .i32⟩) main_call26_v1) (broadcastInDim S524288 ![] bcast_S_S524288),
    TRef.binary (TRef.of (T := ⟨S524288, .i32⟩) main_call26_v1) (TRef.of (T := ⟨S524288, .i32⟩) main_v713) (TRef.of (T := ⟨S524288, .i32⟩) main_call26_v2) maxsi,
    TRef.unary (TRef.of (T := ⟨S_, .i32⟩) main_c_222) (TRef.of (T := ⟨S_, .i32⟩) main_call26_v3) id,
    TRef.unary (TRef.of (T := ⟨S_, .i32⟩) main_call26_v3) (TRef.of (T := ⟨S524288, .i32⟩) main_call26_v4) (broadcastInDim S524288 ![] bcast_S_S524288),
    TRef.binary (TRef.of (T := ⟨S524288, .i32⟩) main_call26_v4) (TRef.of (T := ⟨S524288, .i32⟩) main_call26_v2) (TRef.of (T := ⟨S524288, .i32⟩) main_v714) minsi,
    nullary main_c_223 (constantI S_ 32 1#32),
    unary main_c_223 main_v715 (broadcastInDim S524288 ![] bcast_S_S524288 : (⟨S_, .i32⟩ : BufTy).Contents (Elt F) → (⟨S524288, .i32⟩ : BufTy).Contents (Elt F)),
    binary main_v714 main_v715 main_v716 (addi : (⟨S524288, .i32⟩ : BufTy).Contents (Elt F) → (⟨S524288, .i32⟩ : BufTy).Contents (Elt F) → (⟨S524288, .i32⟩ : BufTy).Contents (Elt F)),
    nullary main_c_224 (constantI S_ 32 0#32),
    nullary main_c_225 (constantI S_ 32 255#32) ]

set_option maxRecDepth 8192 in
set_option maxHeartbeats 40000000 in
/-- After the stretch, main_v706 holds its stage of the arguments, given that the buffers the stretch reads from before it hold theirs. -/
theorem ck27_main_v706 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v697) = (val_main_v697 (F := F) x0)) :
    after ck27 W (Proc.devRef .tc main_v706) = (val_main_v706 (F := F) x0) := by
  after_results_simp
  try simp only [val_main_v706, val_main_v704]
  try rw [← h0]
  try rfl

set_option maxRecDepth 8192 in
set_option maxHeartbeats 40000000 in
/-- After the stretch, main_v707 holds its stage of the arguments, given that the buffers the stretch reads from before it hold theirs. -/
theorem ck27_main_v707 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v701) = (val_main_v701 (F := F) x0))
    (h1 : W (Proc.devRef .tc main_cst_215) = (val_main_cst_215 (F := F))) :
    after ck27 W (Proc.devRef .tc main_v707) = (val_main_v707 (F := F) x0) := by
  after_results_simp
  try simp only [val_main_v707, val_main_v705, val_main_v703, val_main_v702]
  try rw [← h0]
  try rw [← h1]
  try rfl

set_option maxRecDepth 8192 in
set_option maxHeartbeats 40000000 in
/-- After the stretch, main_v709 holds its stage of the arguments, given that the buffers the stretch reads from before it hold theirs. -/
theorem ck27_main_v709 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v697) = (val_main_v697 (F := F) x0)) :
    after ck27 W (Proc.devRef .tc main_v709) = (val_main_v709 (F := F) x0) := by
  after_results_simp
  try simp only [val_main_v709, val_main_call24_v4, val_main_call24_v3, val_main_call24_v2, val_main_call24_v1, val_main_call24_v0, val_main_c_217, val_main_c_216, val_main_v708, val_main_v704]
  try rw [← h0]
  try rfl

set_option maxRecDepth 8192 in
set_option maxHeartbeats 40000000 in
/-- After the stretch, main_v712 holds its stage of the arguments, given that the buffers the stretch reads from before it hold theirs. -/
theorem ck27_main_v712 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v697) = (val_main_v697 (F := F) x0)) :
    after ck27 W (Proc.devRef .tc main_v712) = (val_main_v712 (F := F) x0) := by
  after_results_simp
  try simp only [val_main_v712, val_main_call25_v4, val_main_call25_v3, val_main_call25_v2, val_main_call25_v1, val_main_call25_v0, val_main_c_220, val_main_c_219, val_main_v711, val_main_v710, val_main_c_218, val_main_v709, val_main_call24_v4, val_main_call24_v3, val_main_call24_v2, val_main_call24_v1, val_main_call24_v0, val_main_c_217, val_main_c_216, val_main_v708, val_main_v704]
  try rw [← h0]
  try rfl

set_option maxRecDepth 8192 in
set_option maxHeartbeats 40000000 in
/-- After the stretch, main_v714 holds its stage of the arguments, given that the buffers the stretch reads from before it hold theirs. -/
theorem ck27_main_v714 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v701) = (val_main_v701 (F := F) x0))
    (h1 : W (Proc.devRef .tc main_cst_215) = (val_main_cst_215 (F := F))) :
    after ck27 W (Proc.devRef .tc main_v714) = (val_main_v714 (F := F) x0) := by
  after_results_simp
  try simp only [val_main_v714, val_main_call26_v4, val_main_call26_v3, val_main_call26_v2, val_main_call26_v1, val_main_call26_v0, val_main_c_222, val_main_c_221, val_main_v713, val_main_v705, val_main_v703, val_main_v702]
  try rw [← h0]
  try rw [← h1]
  try rfl

set_option maxRecDepth 8192 in
set_option maxHeartbeats 40000000 in
/-- After the stretch, main_v716 holds its stage of the arguments, given that the buffers the stretch reads from before it hold theirs. -/
theorem ck27_main_v716 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v701) = (val_main_v701 (F := F) x0))
    (h1 : W (Proc.devRef .tc main_cst_215) = (val_main_cst_215 (F := F))) :
    after ck27 W (Proc.devRef .tc main_v716) = (val_main_v716 (F := F) x0) := by
  after_results_simp
  try simp only [val_main_v716, val_main_v715, val_main_c_223, val_main_v714, val_main_call26_v4, val_main_call26_v3, val_main_call26_v2, val_main_call26_v1, val_main_call26_v0, val_main_c_222, val_main_c_221, val_main_v713, val_main_v705, val_main_v703, val_main_v702]
  try rw [← h0]
  try rw [← h1]
  try rfl

set_option maxRecDepth 8192 in
set_option maxHeartbeats 40000000 in
/-- After the stretch, main_c_224 holds its stage of the arguments, given that the buffers the stretch reads from before it hold theirs. -/
theorem ck27_main_c_224 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck27 W (Proc.devRef .tc main_c_224) = (val_main_c_224 (F := F)) := by
  after_results_simp
  try simp only [val_main_c_224]

  try rfl

set_option maxRecDepth 8192 in
set_option maxHeartbeats 40000000 in
/-- After the stretch, main_c_225 holds its stage of the arguments, given that the buffers the stretch reads from before it hold theirs. -/
theorem ck27_main_c_225 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck27 W (Proc.devRef .tc main_c_225) = (val_main_c_225 (F := F)) := by
  after_results_simp
  try simp only [val_main_c_225]

  try rfl

set_option maxRecDepth 8192 in
set_option maxHeartbeats 40000000 in
/-- The stretch does not write main_arg0. -/
theorem ck27_pass_main_arg0 (W : Valuation τ sig (Elt F)) : after ck27 W (Proc.devRef .tc main_arg0) = W (Proc.devRef .tc main_arg0) := by
  after_results_simp <;> rfl

set_option maxRecDepth 8192 in
set_option maxHeartbeats 40000000 in
/-- The stretch does not write main_arg1. -/
theorem ck27_pass_main_arg1 (W : Valuation τ sig (Elt F)) : after ck27 W (Proc.devRef .tc main_arg1) = W (Proc.devRef .tc main_arg1) := by
  after_results_simp <;> rfl

set_option maxRecDepth 8192 in
set_option maxHeartbeats 40000000 in
/-- The stretch does not write main_arg2. -/
theorem ck27_pass_main_arg2 (W : Valuation τ sig (Elt F)) : after ck27 W (Proc.devRef .tc main_arg2) = W (Proc.devRef .tc main_arg2) := by
  after_results_simp <;> rfl

set_option maxRecDepth 8192 in
set_option maxHeartbeats 40000000 in
/-- The stretch does not write main_arg3. -/
theorem ck27_pass_main_arg3 (W : Valuation τ sig (Elt F)) : after ck27 W (Proc.devRef .tc main_arg3) = W (Proc.devRef .tc main_arg3) := by
  after_results_simp <;> rfl

set_option maxRecDepth 8192 in
set_option maxHeartbeats 40000000 in
/-- The stretch does not write main_arg4. -/
theorem ck27_pass_main_arg4 (W : Valuation τ sig (Elt F)) : after ck27 W (Proc.devRef .tc main_arg4) = W (Proc.devRef .tc main_arg4) := by
  after_results_simp <;> rfl

set_option maxRecDepth 8192 in
set_option maxHeartbeats 40000000 in
/-- The stretch does not write main_arg5. -/
theorem ck27_pass_main_arg5 (W : Valuation τ sig (Elt F)) : after ck27 W (Proc.devRef .tc main_arg5) = W (Proc.devRef .tc main_arg5) := by
  after_results_simp <;> rfl

set_option maxRecDepth 8192 in
set_option maxHeartbeats 40000000 in
/-- The stretch does not write main_arg6. -/
theorem ck27_pass_main_arg6 (W : Valuation τ sig (Elt F)) : after ck27 W (Proc.devRef .tc main_arg6) = W (Proc.devRef .tc main_arg6) := by
  after_results_simp <;> rfl

set_option maxRecDepth 8192 in
set_option maxHeartbeats 40000000 in
/-- The stretch does not write main_arg7. -/
theorem ck27_pass_main_arg7 (W : Valuation τ sig (Elt F)) : after ck27 W (Proc.devRef .tc main_arg7) = W (Proc.devRef .tc main_arg7) := by
  after_results_simp <;> rfl

set_option maxRecDepth 8192 in
set_option maxHeartbeats 40000000 in
/-- The stretch does not write main_arg8. -/
theorem ck27_pass_main_arg8 (W : Valuation τ sig (Elt F)) : after ck27 W (Proc.devRef .tc main_arg8) = W (Proc.devRef .tc main_arg8) := by
  after_results_simp <;> rfl

set_option maxRecDepth 8192 in
set_option maxHeartbeats 40000000 in
/-- The stretch does not write main_arg9. -/
theorem ck27_pass_main_arg9 (W : Valuation τ sig (Elt F)) : after ck27 W (Proc.devRef .tc main_arg9) = W (Proc.devRef .tc main_arg9) := by
  after_results_simp <;> rfl

set_option maxRecDepth 8192 in
set_option maxHeartbeats 40000000 in
/-- The stretch does not write main_v343. -/
theorem ck27_pass_main_v343 (W : Valuation τ sig (Elt F)) : after ck27 W (Proc.devRef .tc main_v343) = W (Proc.devRef .tc main_v343) := by
  after_results_simp <;> rfl

set_option maxRecDepth 8192 in
set_option maxHeartbeats 40000000 in
/-- The stretch does not write main_v687. -/
theorem ck27_pass_main_v687 (W : Valuation τ sig (Elt F)) : after ck27 W (Proc.devRef .tc main_v687) = W (Proc.devRef .tc main_v687) := by
  after_results_simp <;> rfl

end Cert.ReferenceIdeal.Seg

end
-- ==== Proof.RefCk28.lean ====
/-
  The reference's host operations 1081 to 1120 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck28 : List (HloOp τ sig (Elt F)) :=
  [ TRef.unary (TRef.of (T := ⟨S_, .i32⟩) main_c_224) (TRef.of (T := ⟨S_, .i32⟩) main_call27_v0) id,
    TRef.unary (TRef.of (T := ⟨S_, .i32⟩) main_call27_v0) (TRef.of (T := ⟨S524288, .i32⟩) main_call27_v1) (broadcastInDim S524288 ![] bcast_S_S524288),
    TRef.binary (TRef.of (T := ⟨S524288, .i32⟩) main_call27_v1) (TRef.of (T := ⟨S524288, .i32⟩) main_v716) (TRef.of (T := ⟨S524288, .i32⟩) main_call27_v2) maxsi,
    TRef.unary (TRef.of (T := ⟨S_, .i32⟩) main_c_225) (TRef.of (T := ⟨S_, .i32⟩) main_call27_v3) id,
    TRef.unary (TRef.of (T := ⟨S_, .i32⟩) main_call27_v3) (TRef.of (T := ⟨S524288, .i32⟩) main_call27_v4) (broadcastInDim S524288 ![] bcast_S_S524288),
    TRef.binary (TRef.of (T := ⟨S524288, .i32⟩) main_call27_v4) (TRef.of (T := ⟨S524288, .i32⟩) main_call27_v2) (TRef.of (T := ⟨S524288, .i32⟩) main_v717) minsi,
    nullary main_c_226 (constantI S_ 32 0#32),
    unary main_c_226 main_v718 (broadcastInDim S524288 ![] bcast_S_S524288 : (⟨S_, .i32⟩ : BufTy).Contents (Elt F) → (⟨S524288, .i32⟩ : BufTy).Contents (Elt F)),
    binary main_v714 main_v718 main_v719 (cmpi .slt : (⟨S524288, .i32⟩ : BufTy).Contents (Elt F) → (⟨S524288, .i32⟩ : BufTy).Contents (Elt F) → (⟨S524288, .i1⟩ : BufTy).Contents (Elt F)),
    nullary main_c_227 (constantI S_ 32 256#32),
    unary main_c_227 main_v720 (broadcastInDim S524288 ![] bcast_S_S524288 : (⟨S_, .i32⟩ : BufTy).Contents (Elt F) → (⟨S524288, .i32⟩ : BufTy).Contents (Elt F)),
    binary main_v714 main_v720 main_v721 (addi : (⟨S524288, .i32⟩ : BufTy).Contents (Elt F) → (⟨S524288, .i32⟩ : BufTy).Contents (Elt F) → (⟨S524288, .i32⟩ : BufTy).Contents (Elt F)),
    ternary main_v719 main_v721 main_v714 main_v722 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_228 (constantI S_ 32 0#32),
    unary main_c_228 main_v723 (broadcastInDim S524288 ![] bcast_S_S524288 : (⟨S_, .i32⟩ : BufTy).Contents (Elt F) → (⟨S524288, .i32⟩ : BufTy).Contents (Elt F)),
    binary main_v709 main_v723 main_v724 (cmpi .slt : (⟨S524288, .i32⟩ : BufTy).Contents (Elt F) → (⟨S524288, .i32⟩ : BufTy).Contents (Elt F) → (⟨S524288, .i1⟩ : BufTy).Contents (Elt F)),
    nullary main_c_229 (constantI S_ 32 256#32),
    unary main_c_229 main_v725 (broadcastInDim S524288 ![] bcast_S_S524288 : (⟨S_, .i32⟩ : BufTy).Contents (Elt F) → (⟨S524288, .i32⟩ : BufTy).Contents (Elt F)),
    binary main_v709 main_v725 main_v726 (addi : (⟨S524288, .i32⟩ : BufTy).Contents (Elt F) → (⟨S524288, .i32⟩ : BufTy).Contents (Elt F) → (⟨S524288, .i32⟩ : BufTy).Contents (Elt F)),
    ternary main_v724 main_v726 main_v709 main_v727 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v722 main_v728 (broadcastInDim S524288x1 ![0] bcast_S524288_S524288x1_0 : (⟨S524288, .i32⟩ : BufTy).Contents (Elt F) → (⟨S524288x1, .i32⟩ : BufTy).Contents (Elt F)),
    unary main_v727 main_v729 (broadcastInDim S524288x1 ![0] bcast_S524288_S524288x1_0 : (⟨S524288, .i32⟩ : BufTy).Contents (Elt F) → (⟨S524288x1, .i32⟩ : BufTy).Contents (Elt F)),
    binary main_v728 main_v729 main_v730 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg7 main_v730 main_v731 ((fun x i => Host.gather gather_S32x256x256_S524288x2_S32x524288_0_12_n_n_12_1_3211 x i) : (⟨S32x256x256, .f32⟩ : BufTy).Contents (Elt F) → (⟨S524288x2, .i32⟩ : BufTy).Contents (Elt F) → (⟨S32x524288, .f32⟩ : BufTy).Contents (Elt F)),
    nullary main_c_230 (constantI S_ 32 0#32),
    unary main_c_230 main_v732 (broadcastInDim S524288 ![] bcast_S_S524288 : (⟨S_, .i32⟩ : BufTy).Contents (Elt F) → (⟨S524288, .i32⟩ : BufTy).Contents (Elt F)),
    binary main_v714 main_v732 main_v733 (cmpi .slt : (⟨S524288, .i32⟩ : BufTy).Contents (Elt F) → (⟨S524288, .i32⟩ : BufTy).Contents (Elt F) → (⟨S524288, .i1⟩ : BufTy).Contents (Elt F)),
    nullary main_c_231 (constantI S_ 32 256#32),
    unary main_c_231 main_v734 (broadcastInDim S524288 ![] bcast_S_S524288 : (⟨S_, .i32⟩ : BufTy).Contents (Elt F) → (⟨S524288, .i32⟩ : BufTy).Contents (Elt F)),
    binary main_v714 main_v734 main_v735 (addi : (⟨S524288, .i32⟩ : BufTy).Contents (Elt F) → (⟨S524288, .i32⟩ : BufTy).Contents (Elt F) → (⟨S524288, .i32⟩ : BufTy).Contents (Elt F)),
    ternary main_v733 main_v735 main_v714 main_v736 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_232 (constantI S_ 32 0#32),
    unary main_c_232 main_v737 (broadcastInDim S524288 ![] bcast_S_S524288 : (⟨S_, .i32⟩ : BufTy).Contents (Elt F) → (⟨S524288, .i32⟩ : BufTy).Contents (Elt F)),
    binary main_v712 main_v737 main_v738 (cmpi .slt : (⟨S524288, .i32⟩ : BufTy).Contents (Elt F) → (⟨S524288, .i32⟩ : BufTy).Contents (Elt F) → (⟨S524288, .i1⟩ : BufTy).Contents (Elt F)),
    nullary main_c_233 (constantI S_ 32 256#32),
    unary main_c_233 main_v739 (broadcastInDim S524288 ![] bcast_S_S524288 : (⟨S_, .i32⟩ : BufTy).Contents (Elt F) → (⟨S524288, .i32⟩ : BufTy).Contents (Elt F)),
    binary main_v712 main_v739 main_v740 (addi : (⟨S524288, .i32⟩ : BufTy).Contents (Elt F) → (⟨S524288, .i32⟩ : BufTy).Contents (Elt F) → (⟨S524288, .i32⟩ : BufTy).Contents (Elt F)),
    ternary main_v738 main_v740 main_v712 main_v741 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v736 main_v742 (broadcastInDim S524288x1 ![0] bcast_S524288_S524288x1_0 : (⟨S524288, .i32⟩ : BufTy).Contents (Elt F) → (⟨S524288x1, .i32⟩ : BufTy).Contents (Elt F)),
    unary main_v741 main_v743 (broadcastInDim S524288x1 ![0] bcast_S524288_S524288x1_0 : (⟨S524288, .i32⟩ : BufTy).Contents (Elt F) → (⟨S524288x1, .i32⟩ : BufTy).Contents (Elt F)) ]

set_option maxRecDepth 8192 in
set_option maxHeartbeats 40000000 in
/-- After the stretch, main_v717 holds its stage of the arguments, given that the buffers the stretch reads from before it hold theirs. -/
theorem ck28_main_v717 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_c_225) = (val_main_c_225 (F := F)))
    (h1 : W (Proc.devRef .tc main_c_224) = (val_main_c_224 (F := F)))
    (h2 : W (Proc.devRef .tc main_v716) = (val_main_v716 (F := F) x0)) :
    after ck28 W (Proc.devRef .tc main_v717) = (val_main_v717 (F := F) x0) := by
  after_results_simp
  try simp only [val_main_v717, val_main_call27_v4, val_main_call27_v3, val_main_call27_v2, val_main_call27_v1, val_main_call27_v0]
  try rw [← h0]
  try rw [← h1]
  try rw [← h2]
  try rfl

set_option maxRecDepth 8192 in
set_option maxHeartbeats 40000000 in
/-- After the stretch, main_v731 holds its stage of the arguments, given that the buffers the stretch reads from before it hold theirs. -/
theorem ck28_main_v731 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg7) = x7)
    (h1 : W (Proc.devRef .tc main_v714) = (val_main_v714 (F := F) x0))
    (h2 : W (Proc.devRef .tc main_v709) = (val_main_v709 (F := F) x0)) :
    after ck28 W (Proc.devRef .tc main_v731) = (val_main_v731 (F := F) x0 x7) := by
  after_results_simp
  try simp only [val_main_v731, val_main_v730, val_main_v729, val_main_v728, val_main_v727, val_main_v726, val_main_v725, val_main_c_229, val_main_v724, val_main_v723, val_main_c_228, val_main_v722, val_main_v721, val_main_v720, val_main_c_227, val_main_v719, val_main_v718, val_main_c_226]
  try rw [← h0]
  try rw [← h1]
  try rw [← h2]
  try rfl

set_option maxRecDepth 8192 in
set_option maxHeartbeats 40000000 in
/-- After the stretch, main_v742 holds its stage of the arguments, given that the buffers the stretch reads from before it hold theirs. -/
theorem ck28_main_v742 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v714) = (val_main_v714 (F := F) x0)) :
    after ck28 W (Proc.devRef .tc main_v742) = (val_main_v742 (F := F) x0) := by
  after_results_simp
  try simp only [val_main_v742, val_main_v736, val_main_v735, val_main_v734, val_main_c_231, val_main_v733, val_main_v732, val_main_c_230]
  try rw [← h0]
  try rfl

set_option maxRecDepth 8192 in
set_option maxHeartbeats 40000000 in
/-- After the stretch, main_v743 holds its stage of the arguments, given that the buffers the stretch reads from before it hold theirs. -/
theorem ck28_main_v743 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v712) = (val_main_v712 (F := F) x0)) :
    after ck28 W (Proc.devRef .tc main_v743) = (val_main_v743 (F := F) x0) := by
  after_results_simp
  try simp only [val_main_v743, val_main_v741, val_main_v740, val_main_v739, val_main_c_233, val_main_v738, val_main_v737, val_main_c_232]
  try rw [← h0]
  try rfl

set_option maxRecDepth 8192 in
set_option maxHeartbeats 40000000 in
/-- The stretch does not write main_arg0. -/
theorem ck28_pass_main_arg0 (W : Valuation τ sig (Elt F)) : after ck28 W (Proc.devRef .tc main_arg0) = W (Proc.devRef .tc main_arg0) := by
  after_results_simp <;> rfl

set_option maxRecDepth 8192 in
set_option maxHeartbeats 40000000 in
/-- The stretch does not write main_arg1. -/
theorem ck28_pass_main_arg1 (W : Valuation τ sig (Elt F)) : after ck28 W (Proc.devRef .tc main_arg1) = W (Proc.devRef .tc main_arg1) := by
  after_results_simp <;> rfl

set_option maxRecDepth 8192 in
set_option maxHeartbeats 40000000 in
/-- The stretch does not write main_arg2. -/
theorem ck28_pass_main_arg2 (W : Valuation τ sig (Elt F)) : after ck28 W (Proc.devRef .tc main_arg2) = W (Proc.devRef .tc main_arg2) := by
  after_results_simp <;> rfl

set_option maxRecDepth 8192 in
set_option maxHeartbeats 40000000 in
/-- The stretch does not write main_arg3. -/
theorem ck28_pass_main_arg3 (W : Valuation τ sig (Elt F)) : after ck28 W (Proc.devRef .tc main_arg3) = W (Proc.devRef .tc main_arg3) := by
  after_results_simp <;> rfl

set_option maxRecDepth 8192 in
set_option maxHeartbeats 40000000 in
/-- The stretch does not write main_arg4. -/
theorem ck28_pass_main_arg4 (W : Valuation τ sig (Elt F)) : after ck28 W (Proc.devRef .tc main_arg4) = W (Proc.devRef .tc main_arg4) := by
  after_results_simp <;> rfl

set_option maxRecDepth 8192 in
set_option maxHeartbeats 40000000 in
/-- The stretch does not write main_arg5. -/
theorem ck28_pass_main_arg5 (W : Valuation τ sig (Elt F)) : after ck28 W (Proc.devRef .tc main_arg5) = W (Proc.devRef .tc main_arg5) := by
  after_results_simp <;> rfl

set_option maxRecDepth 8192 in
set_option maxHeartbeats 40000000 in
/-- The stretch does not write main_arg6. -/
theorem ck28_pass_main_arg6 (W : Valuation τ sig (Elt F)) : after ck28 W (Proc.devRef .tc main_arg6) = W (Proc.devRef .tc main_arg6) := by
  after_results_simp <;> rfl

set_option maxRecDepth 8192 in
set_option maxHeartbeats 40000000 in
/-- The stretch does not write main_v709. -/
theorem ck28_pass_main_v709 (W : Valuation τ sig (Elt F)) : after ck28 W (Proc.devRef .tc main_v709) = W (Proc.devRef .tc main_v709) := by
  after_results_simp <;> rfl

set_option maxRecDepth 8192 in
set_option maxHeartbeats 40000000 in
/-- The stretch does not write main_arg7. -/
theorem ck28_pass_main_arg7 (W : Valuation τ sig (Elt F)) : after ck28 W (Proc.devRef .tc main_arg7) = W (Proc.devRef .tc main_arg7) := by
  after_results_simp <;> rfl

set_option maxRecDepth 8192 in
set_option maxHeartbeats 40000000 in
/-- The stretch does not write main_v712. -/
theorem ck28_pass_main_v712 (W : Valuation τ sig (Elt F)) : after ck28 W (Proc.devRef .tc main_v712) = W (Proc.devRef .tc main_v712) := by
  after_results_simp <;> rfl

set_option maxRecDepth 8192 in
set_option maxHeartbeats 40000000 in
/-- The stretch does not write main_v706. -/
theorem ck28_pass_main_v706 (W : Valuation τ sig (Elt F)) : after ck28 W (Proc.devRef .tc main_v706) = W (Proc.devRef .tc main_v706) := by
  after_results_simp <;> rfl

set_option maxRecDepth 8192 in
set_option maxHeartbeats 40000000 in
/-- The stretch does not write main_v707. -/
theorem ck28_pass_main_v707 (W : Valuation τ sig (Elt F)) : after ck28 W (Proc.devRef .tc main_v707) = W (Proc.devRef .tc main_v707) := by
  after_results_simp <;> rfl

set_option maxRecDepth 8192 in
set_option maxHeartbeats 40000000 in
/-- The stretch does not write main_arg8. -/
theorem ck28_pass_main_arg8 (W : Valuation τ sig (Elt F)) : after ck28 W (Proc.devRef .tc main_arg8) = W (Proc.devRef .tc main_arg8) := by
  after_results_simp <;> rfl

set_option maxRecDepth 8192 in
set_option maxHeartbeats 40000000 in
/-- The stretch does not write main_arg9. -/
theorem ck28_pass_main_arg9 (W : Valuation τ sig (Elt F)) : after ck28 W (Proc.devRef .tc main_arg9) = W (Proc.devRef .tc main_arg9) := by
  after_results_simp <;> rfl

set_option maxRecDepth 8192 in
set_option maxHeartbeats 40000000 in
/-- The stretch does not write main_v343. -/
theorem ck28_pass_main_v343 (W : Valuation τ sig (Elt F)) : after ck28 W (Proc.devRef .tc main_v343) = W (Proc.devRef .tc main_v343) := by
  after_results_simp <;> rfl

set_option maxRecDepth 8192 in
set_option maxHeartbeats 40000000 in
/-- The stretch does not write main_v687. -/
theorem ck28_pass_main_v687 (W : Valuation τ sig (Elt F)) : after ck28 W (Proc.devRef .tc main_v687) = W (Proc.devRef .tc main_v687) := by
  after_results_simp <;> rfl

end Cert.ReferenceIdeal.Seg

end
-- ==== Proof.RefCk29.lean ====
/-
  The reference's host operations 1121 to 1160 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck29 : List (HloOp τ sig (Elt F)) :=
  [ binary main_v742 main_v743 main_v744 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg7 main_v744 main_v745 ((fun x i => Host.gather gather_S32x256x256_S524288x2_S32x524288_0_12_n_n_12_1_3211 x i) : (⟨S32x256x256, .f32⟩ : BufTy).Contents (Elt F) → (⟨S524288x2, .i32⟩ : BufTy).Contents (Elt F) → (⟨S32x524288, .f32⟩ : BufTy).Contents (Elt F)),
    nullary main_c_234 (constantI S_ 32 0#32),
    unary main_c_234 main_v746 (broadcastInDim S524288 ![] bcast_S_S524288 : (⟨S_, .i32⟩ : BufTy).Contents (Elt F) → (⟨S524288, .i32⟩ : BufTy).Contents (Elt F)),
    binary main_v717 main_v746 main_v747 (cmpi .slt : (⟨S524288, .i32⟩ : BufTy).Contents (Elt F) → (⟨S524288, .i32⟩ : BufTy).Contents (Elt F) → (⟨S524288, .i1⟩ : BufTy).Contents (Elt F)),
    nullary main_c_235 (constantI S_ 32 256#32),
    unary main_c_235 main_v748 (broadcastInDim S524288 ![] bcast_S_S524288 : (⟨S_, .i32⟩ : BufTy).Contents (Elt F) → (⟨S524288, .i32⟩ : BufTy).Contents (Elt F)),
    binary main_v717 main_v748 main_v749 (addi : (⟨S524288, .i32⟩ : BufTy).Contents (Elt F) → (⟨S524288, .i32⟩ : BufTy).Contents (Elt F) → (⟨S524288, .i32⟩ : BufTy).Contents (Elt F)),
    ternary main_v747 main_v749 main_v717 main_v750 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_236 (constantI S_ 32 0#32),
    unary main_c_236 main_v751 (broadcastInDim S524288 ![] bcast_S_S524288 : (⟨S_, .i32⟩ : BufTy).Contents (Elt F) → (⟨S524288, .i32⟩ : BufTy).Contents (Elt F)),
    binary main_v709 main_v751 main_v752 (cmpi .slt : (⟨S524288, .i32⟩ : BufTy).Contents (Elt F) → (⟨S524288, .i32⟩ : BufTy).Contents (Elt F) → (⟨S524288, .i1⟩ : BufTy).Contents (Elt F)),
    nullary main_c_237 (constantI S_ 32 256#32),
    unary main_c_237 main_v753 (broadcastInDim S524288 ![] bcast_S_S524288 : (⟨S_, .i32⟩ : BufTy).Contents (Elt F) → (⟨S524288, .i32⟩ : BufTy).Contents (Elt F)),
    binary main_v709 main_v753 main_v754 (addi : (⟨S524288, .i32⟩ : BufTy).Contents (Elt F) → (⟨S524288, .i32⟩ : BufTy).Contents (Elt F) → (⟨S524288, .i32⟩ : BufTy).Contents (Elt F)),
    ternary main_v752 main_v754 main_v709 main_v755 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v750 main_v756 (broadcastInDim S524288x1 ![0] bcast_S524288_S524288x1_0 : (⟨S524288, .i32⟩ : BufTy).Contents (Elt F) → (⟨S524288x1, .i32⟩ : BufTy).Contents (Elt F)),
    unary main_v755 main_v757 (broadcastInDim S524288x1 ![0] bcast_S524288_S524288x1_0 : (⟨S524288, .i32⟩ : BufTy).Contents (Elt F) → (⟨S524288x1, .i32⟩ : BufTy).Contents (Elt F)),
    binary main_v756 main_v757 main_v758 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg7 main_v758 main_v759 ((fun x i => Host.gather gather_S32x256x256_S524288x2_S32x524288_0_12_n_n_12_1_3211 x i) : (⟨S32x256x256, .f32⟩ : BufTy).Contents (Elt F) → (⟨S524288x2, .i32⟩ : BufTy).Contents (Elt F) → (⟨S32x524288, .f32⟩ : BufTy).Contents (Elt F)),
    nullary main_c_238 (constantI S_ 32 0#32),
    unary main_c_238 main_v760 (broadcastInDim S524288 ![] bcast_S_S524288 : (⟨S_, .i32⟩ : BufTy).Contents (Elt F) → (⟨S524288, .i32⟩ : BufTy).Contents (Elt F)),
    binary main_v717 main_v760 main_v761 (cmpi .slt : (⟨S524288, .i32⟩ : BufTy).Contents (Elt F) → (⟨S524288, .i32⟩ : BufTy).Contents (Elt F) → (⟨S524288, .i1⟩ : BufTy).Contents (Elt F)),
    nullary main_c_239 (constantI S_ 32 256#32),
    unary main_c_239 main_v762 (broadcastInDim S524288 ![] bcast_S_S524288 : (⟨S_, .i32⟩ : BufTy).Contents (Elt F) → (⟨S524288, .i32⟩ : BufTy).Contents (Elt F)),
    binary main_v717 main_v762 main_v763 (addi : (⟨S524288, .i32⟩ : BufTy).Contents (Elt F) → (⟨S524288, .i32⟩ : BufTy).Contents (Elt F) → (⟨S524288, .i32⟩ : BufTy).Contents (Elt F)),
    ternary main_v761 main_v763 main_v717 main_v764 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_240 (constantI S_ 32 0#32),
    unary main_c_240 main_v765 (broadcastInDim S524288 ![] bcast_S_S524288 : (⟨S_, .i32⟩ : BufTy).Contents (Elt F) → (⟨S524288, .i32⟩ : BufTy).Contents (Elt F)),
    binary main_v712 main_v765 main_v766 (cmpi .slt : (⟨S524288, .i32⟩ : BufTy).Contents (Elt F) → (⟨S524288, .i32⟩ : BufTy).Contents (Elt F) → (⟨S524288, .i1⟩ : BufTy).Contents (Elt F)),
    nullary main_c_241 (constantI S_ 32 256#32),
    unary main_c_241 main_v767 (broadcastInDim S524288 ![] bcast_S_S524288 : (⟨S_, .i32⟩ : BufTy).Contents (Elt F) → (⟨S524288, .i32⟩ : BufTy).Contents (Elt F)),
    binary main_v712 main_v767 main_v768 (addi : (⟨S524288, .i32⟩ : BufTy).Contents (Elt F) → (⟨S524288, .i32⟩ : BufTy).Contents (Elt F) → (⟨S524288, .i32⟩ : BufTy).Contents (Elt F)),
    ternary main_v766 main_v768 main_v712 main_v769 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v764 main_v770 (broadcastInDim S524288x1 ![0] bcast_S524288_S524288x1_0 : (⟨S524288, .i32⟩ : BufTy).Contents (Elt F) → (⟨S524288x1, .i32⟩ : BufTy).Contents (Elt F)),
    unary main_v769 main_v771 (broadcastInDim S524288x1 ![0] bcast_S524288_S524288x1_0 : (⟨S524288, .i32⟩ : BufTy).Contents (Elt F) → (⟨S524288x1, .i32⟩ : BufTy).Contents (Elt F)),
    binary main_v770 main_v771 main_v772 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg7 main_v772 main_v773 ((fun x i => Host.gather gather_S32x256x256_S524288x2_S32x524288_0_12_n_n_12_1_3211 x i) : (⟨S32x256x256, .f32⟩ : BufTy).Contents (Elt F) → (⟨S524288x2, .i32⟩ : BufTy).Contents (Elt F) → (⟨S32x524288, .f32⟩ : BufTy).Contents (Elt F)),
    nullary main_cst_242 (constant S_ .f32 0x3F800000#32),
    unary main_cst_242 main_v774 (broadcastInDim S524288 ![] bcast_S_S524288 : (⟨S_, .f32⟩ : BufTy).Contents (Elt F) → (⟨S524288, .f32⟩ : BufTy).Contents (Elt F)) ]

set_option maxRecDepth 8192 in
set_option maxHeartbeats 40000000 in
/-- After the stretch, main_v745 holds its stage of the arguments, given that the buffers the stretch reads from before it hold theirs. -/
theorem ck29_main_v745 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg7) = x7)
    (h1 : W (Proc.devRef .tc main_v742) = (val_main_v742 (F := F) x0))
    (h2 : W (Proc.devRef .tc main_v743) = (val_main_v743 (F := F) x0)) :
    after ck29 W (Proc.devRef .tc main_v745) = (val_main_v745 (F := F) x0 x7) := by
  after_results_simp
  try simp only [val_main_v745, val_main_v744]
  try rw [← h0]
  try rw [← h1]
  try rw [← h2]
  try rfl

set_option maxRecDepth 8192 in
set_option maxHeartbeats 40000000 in
/-- After the stretch, main_v759 holds its stage of the arguments, given that the buffers the stretch reads from before it hold theirs. -/
theorem ck29_main_v759 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg7) = x7)
    (h1 : W (Proc.devRef .tc main_v717) = (val_main_v717 (F := F) x0))
    (h2 : W (Proc.devRef .tc main_v709) = (val_main_v709 (F := F) x0)) :
    after ck29 W (Proc.devRef .tc main_v759) = (val_main_v759 (F := F) x0 x7) := by
  after_results_simp
  try simp only [val_main_v759, val_main_v758, val_main_v757, val_main_v756, val_main_v755, val_main_v754, val_main_v753, val_main_c_237, val_main_v752, val_main_v751, val_main_c_236, val_main_v750, val_main_v749, val_main_v748, val_main_c_235, val_main_v747, val_main_v746, val_main_c_234]
  try rw [← h0]
  try rw [← h1]
  try rw [← h2]
  try rfl

set_option maxRecDepth 8192 in
set_option maxHeartbeats 40000000 in
/-- After the stretch, main_v773 holds its stage of the arguments, given that the buffers the stretch reads from before it hold theirs. -/
theorem ck29_main_v773 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg7) = x7)
    (h1 : W (Proc.devRef .tc main_v717) = (val_main_v717 (F := F) x0))
    (h2 : W (Proc.devRef .tc main_v712) = (val_main_v712 (F := F) x0)) :
    after ck29 W (Proc.devRef .tc main_v773) = (val_main_v773 (F := F) x0 x7) := by
  after_results_simp
  try simp only [val_main_v773, val_main_v772, val_main_v771, val_main_v770, val_main_v769, val_main_v768, val_main_v767, val_main_c_241, val_main_v766, val_main_v765, val_main_c_240, val_main_v764, val_main_v763, val_main_v762, val_main_c_239, val_main_v761, val_main_v760, val_main_c_238]
  try rw [← h0]
  try rw [← h1]
  try rw [← h2]
  try rfl

set_option maxRecDepth 8192 in
set_option maxHeartbeats 40000000 in
/-- After the stretch, main_v774 holds its stage of the arguments, given that the buffers the stretch reads from before it hold theirs. -/
theorem ck29_main_v774 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck29 W (Proc.devRef .tc main_v774) = (val_main_v774 (F := F)) := by
  after_results_simp
  try simp only [val_main_v774, val_main_cst_242]

  try rfl

set_option maxRecDepth 8192 in
set_option maxHeartbeats 40000000 in
/-- The stretch does not write main_arg0. -/
theorem ck29_pass_main_arg0 (W : Valuation τ sig (Elt F)) : after ck29 W (Proc.devRef .tc main_arg0) = W (Proc.devRef .tc main_arg0) := by
  after_results_simp <;> rfl

set_option maxRecDepth 8192 in
set_option maxHeartbeats 40000000 in
/-- The stretch does not write main_arg1. -/
theorem ck29_pass_main_arg1 (W : Valuation τ sig (Elt F)) : after ck29 W (Proc.devRef .tc main_arg1) = W (Proc.devRef .tc main_arg1) := by
  after_results_simp <;> rfl

set_option maxRecDepth 8192 in
set_option maxHeartbeats 40000000 in
/-- The stretch does not write main_arg2. -/
theorem ck29_pass_main_arg2 (W : Valuation τ sig (Elt F)) : after ck29 W (Proc.devRef .tc main_arg2) = W (Proc.devRef .tc main_arg2) := by
  after_results_simp <;> rfl

set_option maxRecDepth 8192 in
set_option maxHeartbeats 40000000 in
/-- The stretch does not write main_arg3. -/
theorem ck29_pass_main_arg3 (W : Valuation τ sig (Elt F)) : after ck29 W (Proc.devRef .tc main_arg3) = W (Proc.devRef .tc main_arg3) := by
  after_results_simp <;> rfl

set_option maxRecDepth 8192 in
set_option maxHeartbeats 40000000 in
/-- The stretch does not write main_arg4. -/
theorem ck29_pass_main_arg4 (W : Valuation τ sig (Elt F)) : after ck29 W (Proc.devRef .tc main_arg4) = W (Proc.devRef .tc main_arg4) := by
  after_results_simp <;> rfl

set_option maxRecDepth 8192 in
set_option maxHeartbeats 40000000 in
/-- The stretch does not write main_arg5. -/
theorem ck29_pass_main_arg5 (W : Valuation τ sig (Elt F)) : after ck29 W (Proc.devRef .tc main_arg5) = W (Proc.devRef .tc main_arg5) := by
  after_results_simp <;> rfl

set_option maxRecDepth 8192 in
set_option maxHeartbeats 40000000 in
/-- The stretch does not write main_arg6. -/
theorem ck29_pass_main_arg6 (W : Valuation τ sig (Elt F)) : after ck29 W (Proc.devRef .tc main_arg6) = W (Proc.devRef .tc main_arg6) := by
  after_results_simp <;> rfl

set_option maxRecDepth 8192 in
set_option maxHeartbeats 40000000 in
/-- The stretch does not write main_arg7. -/
theorem ck29_pass_main_arg7 (W : Valuation τ sig (Elt F)) : after ck29 W (Proc.devRef .tc main_arg7) = W (Proc.devRef .tc main_arg7) := by
  after_results_simp <;> rfl

set_option maxRecDepth 8192 in
set_option maxHeartbeats 40000000 in
/-- The stretch does not write main_v706. -/
theorem ck29_pass_main_v706 (W : Valuation τ sig (Elt F)) : after ck29 W (Proc.devRef .tc main_v706) = W (Proc.devRef .tc main_v706) := by
  after_results_simp <;> rfl

set_option maxRecDepth 8192 in
set_option maxHeartbeats 40000000 in
/-- The stretch does not write main_v731. -/
theorem ck29_pass_main_v731 (W : Valuation τ sig (Elt F)) : after ck29 W (Proc.devRef .tc main_v731) = W (Proc.devRef .tc main_v731) := by
  after_results_simp <;> rfl

set_option maxRecDepth 8192 in
set_option maxHeartbeats 40000000 in
/-- The stretch does not write main_v707. -/
theorem ck29_pass_main_v707 (W : Valuation τ sig (Elt F)) : after ck29 W (Proc.devRef .tc main_v707) = W (Proc.devRef .tc main_v707) := by
  after_results_simp <;> rfl

set_option maxRecDepth 8192 in
set_option maxHeartbeats 40000000 in
/-- The stretch does not write main_arg8. -/
theorem ck29_pass_main_arg8 (W : Valuation τ sig (Elt F)) : after ck29 W (Proc.devRef .tc main_arg8) = W (Proc.devRef .tc main_arg8) := by
  after_results_simp <;> rfl

set_option maxRecDepth 8192 in
set_option maxHeartbeats 40000000 in
/-- The stretch does not write main_arg9. -/
theorem ck29_pass_main_arg9 (W : Valuation τ sig (Elt F)) : after ck29 W (Proc.devRef .tc main_arg9) = W (Proc.devRef .tc main_arg9) := by
  after_results_simp <;> rfl

set_option maxRecDepth 8192 in
set_option maxHeartbeats 40000000 in
/-- The stretch does not write main_v343. -/
theorem ck29_pass_main_v343 (W : Valuation τ sig (Elt F)) : after ck29 W (Proc.devRef .tc main_v343) = W (Proc.devRef .tc main_v343) := by
  after_results_simp <;> rfl

set_option maxRecDepth 8192 in
set_option maxHeartbeats 40000000 in
/-- The stretch does not write main_v687. -/
theorem ck29_pass_main_v687 (W : Valuation τ sig (Elt F)) : after ck29 W (Proc.devRef .tc main_v687) = W (Proc.devRef .tc main_v687) := by
  after_results_simp <;> rfl

end Cert.ReferenceIdeal.Seg

end
-- ==== Proof.RefCk30.lean ====
/-
  The reference's host operations 1161 to 1200 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck30 : List (HloOp τ sig (Elt F)) :=
  [ binary main_v774 main_v706 main_v775 (subf : (⟨S524288, .f32⟩ : BufTy).Contents (Elt F) → (⟨S524288, .f32⟩ : BufTy).Contents (Elt F) → (⟨S524288, .f32⟩ : BufTy).Contents (Elt F)),
    unary main_v775 main_v776 (broadcastInDim S1x524288 ![1] bcast_S524288_S1x524288_1 : (⟨S524288, .f32⟩ : BufTy).Contents (Elt F) → (⟨S1x524288, .f32⟩ : BufTy).Contents (Elt F)),
    unary main_v776 main_v777 (broadcastInDim S32x524288 ![0, 1] bcast_S1x524288_S32x524288_0_1 : (⟨S1x524288, .f32⟩ : BufTy).Contents (Elt F) → (⟨S32x524288, .f32⟩ : BufTy).Contents (Elt F)),
    binary main_v731 main_v777 main_v778 (mulf : (⟨S32x524288, .f32⟩ : BufTy).Contents (Elt F) → (⟨S32x524288, .f32⟩ : BufTy).Contents (Elt F) → (⟨S32x524288, .f32⟩ : BufTy).Contents (Elt F)),
    unary main_v706 main_v779 (broadcastInDim S1x524288 ![1] bcast_S524288_S1x524288_1 : (⟨S524288, .f32⟩ : BufTy).Contents (Elt F) → (⟨S1x524288, .f32⟩ : BufTy).Contents (Elt F)),
    unary main_v779 main_v780 (broadcastInDim S32x524288 ![0, 1] bcast_S1x524288_S32x524288_0_1 : (⟨S1x524288, .f32⟩ : BufTy).Contents (Elt F) → (⟨S32x524288, .f32⟩ : BufTy).Contents (Elt F)),
    binary main_v745 main_v780 main_v781 (mulf : (⟨S32x524288, .f32⟩ : BufTy).Contents (Elt F) → (⟨S32x524288, .f32⟩ : BufTy).Contents (Elt F) → (⟨S32x524288, .f32⟩ : BufTy).Contents (Elt F)),
    binary main_v778 main_v781 main_v782 (addf : (⟨S32x524288, .f32⟩ : BufTy).Contents (Elt F) → (⟨S32x524288, .f32⟩ : BufTy).Contents (Elt F) → (⟨S32x524288, .f32⟩ : BufTy).Contents (Elt F)),
    nullary main_cst_243 (constant S_ .f32 0x3F800000#32),
    unary main_cst_243 main_v783 (broadcastInDim S524288 ![] bcast_S_S524288 : (⟨S_, .f32⟩ : BufTy).Contents (Elt F) → (⟨S524288, .f32⟩ : BufTy).Contents (Elt F)),
    binary main_v783 main_v706 main_v784 (subf : (⟨S524288, .f32⟩ : BufTy).Contents (Elt F) → (⟨S524288, .f32⟩ : BufTy).Contents (Elt F) → (⟨S524288, .f32⟩ : BufTy).Contents (Elt F)),
    unary main_v784 main_v785 (broadcastInDim S1x524288 ![1] bcast_S524288_S1x524288_1 : (⟨S524288, .f32⟩ : BufTy).Contents (Elt F) → (⟨S1x524288, .f32⟩ : BufTy).Contents (Elt F)),
    unary main_v785 main_v786 (broadcastInDim S32x524288 ![0, 1] bcast_S1x524288_S32x524288_0_1 : (⟨S1x524288, .f32⟩ : BufTy).Contents (Elt F) → (⟨S32x524288, .f32⟩ : BufTy).Contents (Elt F)),
    binary main_v759 main_v786 main_v787 (mulf : (⟨S32x524288, .f32⟩ : BufTy).Contents (Elt F) → (⟨S32x524288, .f32⟩ : BufTy).Contents (Elt F) → (⟨S32x524288, .f32⟩ : BufTy).Contents (Elt F)),
    unary main_v706 main_v788 (broadcastInDim S1x524288 ![1] bcast_S524288_S1x524288_1 : (⟨S524288, .f32⟩ : BufTy).Contents (Elt F) → (⟨S1x524288, .f32⟩ : BufTy).Contents (Elt F)),
    unary main_v788 main_v789 (broadcastInDim S32x524288 ![0, 1] bcast_S1x524288_S32x524288_0_1 : (⟨S1x524288, .f32⟩ : BufTy).Contents (Elt F) → (⟨S32x524288, .f32⟩ : BufTy).Contents (Elt F)),
    binary main_v773 main_v789 main_v790 (mulf : (⟨S32x524288, .f32⟩ : BufTy).Contents (Elt F) → (⟨S32x524288, .f32⟩ : BufTy).Contents (Elt F) → (⟨S32x524288, .f32⟩ : BufTy).Contents (Elt F)),
    binary main_v787 main_v790 main_v791 (addf : (⟨S32x524288, .f32⟩ : BufTy).Contents (Elt F) → (⟨S32x524288, .f32⟩ : BufTy).Contents (Elt F) → (⟨S32x524288, .f32⟩ : BufTy).Contents (Elt F)),
    nullary main_cst_244 (constant S_ .f32 0x3F800000#32),
    unary main_cst_244 main_v792 (broadcastInDim S524288 ![] bcast_S_S524288 : (⟨S_, .f32⟩ : BufTy).Contents (Elt F) → (⟨S524288, .f32⟩ : BufTy).Contents (Elt F)),
    binary main_v792 main_v707 main_v793 (subf : (⟨S524288, .f32⟩ : BufTy).Contents (Elt F) → (⟨S524288, .f32⟩ : BufTy).Contents (Elt F) → (⟨S524288, .f32⟩ : BufTy).Contents (Elt F)),
    unary main_v793 main_v794 (broadcastInDim S1x524288 ![1] bcast_S524288_S1x524288_1 : (⟨S524288, .f32⟩ : BufTy).Contents (Elt F) → (⟨S1x524288, .f32⟩ : BufTy).Contents (Elt F)),
    unary main_v794 main_v795 (broadcastInDim S32x524288 ![0, 1] bcast_S1x524288_S32x524288_0_1 : (⟨S1x524288, .f32⟩ : BufTy).Contents (Elt F) → (⟨S32x524288, .f32⟩ : BufTy).Contents (Elt F)),
    binary main_v782 main_v795 main_v796 (mulf : (⟨S32x524288, .f32⟩ : BufTy).Contents (Elt F) → (⟨S32x524288, .f32⟩ : BufTy).Contents (Elt F) → (⟨S32x524288, .f32⟩ : BufTy).Contents (Elt F)),
    unary main_v707 main_v797 (broadcastInDim S1x524288 ![1] bcast_S524288_S1x524288_1 : (⟨S524288, .f32⟩ : BufTy).Contents (Elt F) → (⟨S1x524288, .f32⟩ : BufTy).Contents (Elt F)),
    unary main_v797 main_v798 (broadcastInDim S32x524288 ![0, 1] bcast_S1x524288_S32x524288_0_1 : (⟨S1x524288, .f32⟩ : BufTy).Contents (Elt F) → (⟨S32x524288, .f32⟩ : BufTy).Contents (Elt F)),
    binary main_v791 main_v798 main_v799 (mulf : (⟨S32x524288, .f32⟩ : BufTy).Contents (Elt F) → (⟨S32x524288, .f32⟩ : BufTy).Contents (Elt F) → (⟨S32x524288, .f32⟩ : BufTy).Contents (Elt F)),
    binary main_v796 main_v799 main_v800 (addf : (⟨S32x524288, .f32⟩ : BufTy).Contents (Elt F) → (⟨S32x524288, .f32⟩ : BufTy).Contents (Elt F) → (⟨S32x524288, .f32⟩ : BufTy).Contents (Elt F)),
    nullary main_cst_245 (constant S_ .f32 0x3F800000#32),
    unary main_cst_245 main_v801 (broadcastInDim S32x524288 ![] bcast_S_S32x524288 : (⟨S_, .f32⟩ : BufTy).Contents (Elt F) → (⟨S32x524288, .f32⟩ : BufTy).Contents (Elt F)),
    binary main_v801 main_v800 main_v802 (mulf : (⟨S32x524288, .f32⟩ : BufTy).Contents (Elt F) → (⟨S32x524288, .f32⟩ : BufTy).Contents (Elt F) → (⟨S32x524288, .f32⟩ : BufTy).Contents (Elt F)),
    unary main_arg0 main_v803 ((extractStridedSlice S524288x1 ![0, 0] · slices_S524288x3_S524288x1_0_0) : (⟨S524288x3, .f32⟩ : BufTy).Contents (Elt F) → (⟨S524288x1, .f32⟩ : BufTy).Contents (Elt F)),
    reshape main_v803 main_v804 rfl shapeCasts_S524288x1_S524288,
    unary main_arg0 main_v805 ((extractStridedSlice S524288x1 ![0, 2] · slices_S524288x3_S524288x1_0_2) : (⟨S524288x3, .f32⟩ : BufTy).Contents (Elt F) → (⟨S524288x1, .f32⟩ : BufTy).Contents (Elt F)),
    reshape main_v805 main_v806 rfl shapeCasts_S524288x1_S524288,
    nullary main_cst_246 (constant S_ .f32 0x3F800000#32),
    unary main_cst_246 main_v807 (broadcastInDim S524288 ![] bcast_S_S524288 : (⟨S_, .f32⟩ : BufTy).Contents (Elt F) → (⟨S524288, .f32⟩ : BufTy).Contents (Elt F)),
    binary main_v804 main_v807 main_v808 (addf : (⟨S524288, .f32⟩ : BufTy).Contents (Elt F) → (⟨S524288, .f32⟩ : BufTy).Contents (Elt F) → (⟨S524288, .f32⟩ : BufTy).Contents (Elt F)),
    nullary main_cst_247 (constant S_ .f32 0x3F000000#32),
    unary main_cst_247 main_v809 (broadcastInDim S524288 ![] bcast_S_S524288 : (⟨S_, .f32⟩ : BufTy).Contents (Elt F) → (⟨S524288, .f32⟩ : BufTy).Contents (Elt F)) ]

set_option maxRecDepth 8192 in
set_option maxHeartbeats 40000000 in
/-- After the stretch, main_v802 holds its stage of the arguments, given that the buffers the stretch reads from before it hold theirs. -/
theorem ck30_main_v802 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v731) = (val_main_v731 (F := F) x0 x7))
    (h1 : W (Proc.devRef .tc main_v774) = (val_main_v774 (F := F)))
    (h2 : W (Proc.devRef .tc main_v706) = (val_main_v706 (F := F) x0))
    (h3 : W (Proc.devRef .tc main_v745) = (val_main_v745 (F := F) x0 x7))
    (h4 : W (Proc.devRef .tc main_v707) = (val_main_v707 (F := F) x0))
    (h5 : W (Proc.devRef .tc main_v759) = (val_main_v759 (F := F) x0 x7))
    (h6 : W (Proc.devRef .tc main_v773) = (val_main_v773 (F := F) x0 x7)) :
    after ck30 W (Proc.devRef .tc main_v802) = (val_main_v802 (F := F) x0 x7) := by
  after_results_simp
  try simp only [val_main_v802, val_main_v801, val_main_cst_245, val_main_v800, val_main_v799, val_main_v798, val_main_v797, val_main_v796, val_main_v795, val_main_v794, val_main_v793, val_main_v792, val_main_cst_244, val_main_v791, val_main_v790, val_main_v789, val_main_v788, val_main_v787, val_main_v786, val_main_v785, val_main_v784, val_main_v783, val_main_cst_243, val_main_v782, val_main_v781, val_main_v780, val_main_v779, val_main_v778, val_main_v777, val_main_v776, val_main_v775]
  try rw [← h0]
  try rw [← h1]
  try rw [← h2]
  try rw [← h3]
  try rw [← h4]
  try rw [← h5]
  try rw [← h6]
  try rfl

set_option maxRecDepth 8192 in
set_option maxHeartbeats 40000000 in
/-- After the stretch, main_v806 holds its stage of the arguments, given that the buffers the stretch reads from before it hold theirs. -/
theorem ck30_main_v806 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck30 W (Proc.devRef .tc main_v806) = (val_main_v806 (F := F) x0) := by
  after_results_simp
  try simp only [val_main_v806, val_main_v805]
  try rw [← h0]
  try rfl

set_option maxRecDepth 8192 in
set_option maxHeartbeats 40000000 in
/-- After the stretch, main_v808 holds its stage of the arguments, given that the buffers the stretch reads from before it hold theirs. -/
theorem ck30_main_v808 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck30 W (Proc.devRef .tc main_v808) = (val_main_v808 (F := F) x0) := by
  after_results_simp
  try simp only [val_main_v808, val_main_v807, val_main_cst_246, val_main_v804, val_main_v803]
  try rw [← h0]
  try rfl

set_option maxRecDepth 8192 in
set_option maxHeartbeats 40000000 in
/-- After the stretch, main_v809 holds its stage of the arguments, given that the buffers the stretch reads from before it hold theirs. -/
theorem ck30_main_v809 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck30 W (Proc.devRef .tc main_v809) = (val_main_v809 (F := F)) := by
  after_results_simp
  try simp only [val_main_v809, val_main_cst_247]

  try rfl

set_option maxRecDepth 8192 in
set_option maxHeartbeats 40000000 in
/-- The stretch does not write main_arg0. -/
theorem ck30_pass_main_arg0 (W : Valuation τ sig (Elt F)) : after ck30 W (Proc.devRef .tc main_arg0) = W (Proc.devRef .tc main_arg0) := by
  after_results_simp <;> rfl

set_option maxRecDepth 8192 in
set_option maxHeartbeats 40000000 in
/-- The stretch does not write main_arg1. -/
theorem ck30_pass_main_arg1 (W : Valuation τ sig (Elt F)) : after ck30 W (Proc.devRef .tc main_arg1) = W (Proc.devRef .tc main_arg1) := by
  after_results_simp <;> rfl

set_option maxRecDepth 8192 in
set_option maxHeartbeats 40000000 in
/-- The stretch does not write main_arg2. -/
theorem ck30_pass_main_arg2 (W : Valuation τ sig (Elt F)) : after ck30 W (Proc.devRef .tc main_arg2) = W (Proc.devRef .tc main_arg2) := by
  after_results_simp <;> rfl

set_option maxRecDepth 8192 in
set_option maxHeartbeats 40000000 in
/-- The stretch does not write main_arg3. -/
theorem ck30_pass_main_arg3 (W : Valuation τ sig (Elt F)) : after ck30 W (Proc.devRef .tc main_arg3) = W (Proc.devRef .tc main_arg3) := by
  after_results_simp <;> rfl

set_option maxRecDepth 8192 in
set_option maxHeartbeats 40000000 in
/-- The stretch does not write main_arg4. -/
theorem ck30_pass_main_arg4 (W : Valuation τ sig (Elt F)) : after ck30 W (Proc.devRef .tc main_arg4) = W (Proc.devRef .tc main_arg4) := by
  after_results_simp <;> rfl

set_option maxRecDepth 8192 in
set_option maxHeartbeats 40000000 in
/-- The stretch does not write main_arg5. -/
theorem ck30_pass_main_arg5 (W : Valuation τ sig (Elt F)) : after ck30 W (Proc.devRef .tc main_arg5) = W (Proc.devRef .tc main_arg5) := by
  after_results_simp <;> rfl

set_option maxRecDepth 8192 in
set_option maxHeartbeats 40000000 in
/-- The stretch does not write main_arg6. -/
theorem ck30_pass_main_arg6 (W : Valuation τ sig (Elt F)) : after ck30 W (Proc.devRef .tc main_arg6) = W (Proc.devRef .tc main_arg6) := by
  after_results_simp <;> rfl

set_option maxRecDepth 8192 in
set_option maxHeartbeats 40000000 in
/-- The stretch does not write main_arg7. -/
theorem ck30_pass_main_arg7 (W : Valuation τ sig (Elt F)) : after ck30 W (Proc.devRef .tc main_arg7) = W (Proc.devRef .tc main_arg7) := by
  after_results_simp <;> rfl

set_option maxRecDepth 8192 in
set_option maxHeartbeats 40000000 in
/-- The stretch does not write main_arg8. -/
theorem ck30_pass_main_arg8 (W : Valuation τ sig (Elt F)) : after ck30 W (Proc.devRef .tc main_arg8) = W (Proc.devRef .tc main_arg8) := by
  after_results_simp <;> rfl

set_option maxRecDepth 8192 in
set_option maxHeartbeats 40000000 in
/-- The stretch does not write main_arg9. -/
theorem ck30_pass_main_arg9 (W : Valuation τ sig (Elt F)) : after ck30 W (Proc.devRef .tc main_arg9) = W (Proc.devRef .tc main_arg9) := by
  after_results_simp <;> rfl

set_option maxRecDepth 8192 in
set_option maxHeartbeats 40000000 in
/-- The stretch does not write main_v343. -/
theorem ck30_pass_main_v343 (W : Valuation τ sig (Elt F)) : after ck30 W (Proc.devRef .tc main_v343) = W (Proc.devRef .tc main_v343) := by
  after_results_simp <;> rfl

set_option maxRecDepth 8192 in
set_option maxHeartbeats 40000000 in
/-- The stretch does not write main_v687. -/
theorem ck30_pass_main_v687 (W : Valuation τ sig (Elt F)) : after ck30 W (Proc.devRef .tc main_v687) = W (Proc.devRef .tc main_v687) := by
  after_results_simp <;> rfl

end Cert.ReferenceIdeal.Seg

end
-- ==== Proof.RefCk31.lean ====
/-
  The reference's host operations 1201 to 1240 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck31 : List (HloOp τ sig (Elt F)) :=
  [ binary main_v808 main_v809 main_v810 (mulf : (⟨S524288, .f32⟩ : BufTy).Contents (Elt F) → (⟨S524288, .f32⟩ : BufTy).Contents (Elt F) → (⟨S524288, .f32⟩ : BufTy).Contents (Elt F)),
    nullary main_cst_248 (constant S_ .f32 0x437F0000#32),
    unary main_cst_248 main_v811 (broadcastInDim S524288 ![] bcast_S_S524288 : (⟨S_, .f32⟩ : BufTy).Contents (Elt F) → (⟨S524288, .f32⟩ : BufTy).Contents (Elt F)),
    binary main_v810 main_v811 main_v812 (mulf : (⟨S524288, .f32⟩ : BufTy).Contents (Elt F) → (⟨S524288, .f32⟩ : BufTy).Contents (Elt F) → (⟨S524288, .f32⟩ : BufTy).Contents (Elt F)),
    nullary main_cst_249 (constant S_ .f32 0x3F800000#32),
    unary main_cst_249 main_v813 (broadcastInDim S524288 ![] bcast_S_S524288 : (⟨S_, .f32⟩ : BufTy).Contents (Elt F) → (⟨S524288, .f32⟩ : BufTy).Contents (Elt F)),
    binary main_v806 main_v813 main_v814 (addf : (⟨S524288, .f32⟩ : BufTy).Contents (Elt F) → (⟨S524288, .f32⟩ : BufTy).Contents (Elt F) → (⟨S524288, .f32⟩ : BufTy).Contents (Elt F)),
    nullary main_cst_250 (constant S_ .f32 0x3F000000#32),
    unary main_cst_250 main_v815 (broadcastInDim S524288 ![] bcast_S_S524288 : (⟨S_, .f32⟩ : BufTy).Contents (Elt F) → (⟨S524288, .f32⟩ : BufTy).Contents (Elt F)),
    binary main_v814 main_v815 main_v816 (mulf : (⟨S524288, .f32⟩ : BufTy).Contents (Elt F) → (⟨S524288, .f32⟩ : BufTy).Contents (Elt F) → (⟨S524288, .f32⟩ : BufTy).Contents (Elt F)),
    nullary main_cst_251 (constant S_ .f32 0x437F0000#32),
    unary main_cst_251 main_v817 (broadcastInDim S524288 ![] bcast_S_S524288 : (⟨S_, .f32⟩ : BufTy).Contents (Elt F) → (⟨S524288, .f32⟩ : BufTy).Contents (Elt F)),
    binary main_v816 main_v817 main_v818 (mulf : (⟨S524288, .f32⟩ : BufTy).Contents (Elt F) → (⟨S524288, .f32⟩ : BufTy).Contents (Elt F) → (⟨S524288, .f32⟩ : BufTy).Contents (Elt F)),
    unary main_v812 main_v819 (Host.floor : (⟨S524288, .f32⟩ : BufTy).Contents (Elt F) → (⟨S524288, .f32⟩ : BufTy).Contents (Elt F)),
    unary main_v818 main_v820 (Host.floor : (⟨S524288, .f32⟩ : BufTy).Contents (Elt F) → (⟨S524288, .f32⟩ : BufTy).Contents (Elt F)),
    binary main_v812 main_v819 main_v821 (subf : (⟨S524288, .f32⟩ : BufTy).Contents (Elt F) → (⟨S524288, .f32⟩ : BufTy).Contents (Elt F) → (⟨S524288, .f32⟩ : BufTy).Contents (Elt F)),
    binary main_v818 main_v820 main_v822 (subf : (⟨S524288, .f32⟩ : BufTy).Contents (Elt F) → (⟨S524288, .f32⟩ : BufTy).Contents (Elt F) → (⟨S524288, .f32⟩ : BufTy).Contents (Elt F)),
    unary main_v819 main_v823 (fptosi 32 : (⟨S524288, .f32⟩ : BufTy).Contents (Elt F) → (⟨S524288, .i32⟩ : BufTy).Contents (Elt F)),
    nullary main_c_252 (constantI S_ 32 0#32),
    nullary main_c_253 (constantI S_ 32 255#32),
    TRef.unary (TRef.of (T := ⟨S_, .i32⟩) main_c_252) (TRef.of (T := ⟨S_, .i32⟩) main_call28_v0) id,
    TRef.unary (TRef.of (T := ⟨S_, .i32⟩) main_call28_v0) (TRef.of (T := ⟨S524288, .i32⟩) main_call28_v1) (broadcastInDim S524288 ![] bcast_S_S524288),
    TRef.binary (TRef.of (T := ⟨S524288, .i32⟩) main_call28_v1) (TRef.of (T := ⟨S524288, .i32⟩) main_v823) (TRef.of (T := ⟨S524288, .i32⟩) main_call28_v2) maxsi,
    TRef.unary (TRef.of (T := ⟨S_, .i32⟩) main_c_253) (TRef.of (T := ⟨S_, .i32⟩) main_call28_v3) id,
    TRef.unary (TRef.of (T := ⟨S_, .i32⟩) main_call28_v3) (TRef.of (T := ⟨S524288, .i32⟩) main_call28_v4) (broadcastInDim S524288 ![] bcast_S_S524288),
    TRef.binary (TRef.of (T := ⟨S524288, .i32⟩) main_call28_v4) (TRef.of (T := ⟨S524288, .i32⟩) main_call28_v2) (TRef.of (T := ⟨S524288, .i32⟩) main_v824) minsi,
    nullary main_c_254 (constantI S_ 32 1#32),
    unary main_c_254 main_v825 (broadcastInDim S524288 ![] bcast_S_S524288 : (⟨S_, .i32⟩ : BufTy).Contents (Elt F) → (⟨S524288, .i32⟩ : BufTy).Contents (Elt F)),
    binary main_v824 main_v825 main_v826 (addi : (⟨S524288, .i32⟩ : BufTy).Contents (Elt F) → (⟨S524288, .i32⟩ : BufTy).Contents (Elt F) → (⟨S524288, .i32⟩ : BufTy).Contents (Elt F)),
    nullary main_c_255 (constantI S_ 32 0#32),
    nullary main_c_256 (constantI S_ 32 255#32),
    TRef.unary (TRef.of (T := ⟨S_, .i32⟩) main_c_255) (TRef.of (T := ⟨S_, .i32⟩) main_call29_v0) id,
    TRef.unary (TRef.of (T := ⟨S_, .i32⟩) main_call29_v0) (TRef.of (T := ⟨S524288, .i32⟩) main_call29_v1) (broadcastInDim S524288 ![] bcast_S_S524288),
    TRef.binary (TRef.of (T := ⟨S524288, .i32⟩) main_call29_v1) (TRef.of (T := ⟨S524288, .i32⟩) main_v826) (TRef.of (T := ⟨S524288, .i32⟩) main_call29_v2) maxsi,
    TRef.unary (TRef.of (T := ⟨S_, .i32⟩) main_c_256) (TRef.of (T := ⟨S_, .i32⟩) main_call29_v3) id,
    TRef.unary (TRef.of (T := ⟨S_, .i32⟩) main_call29_v3) (TRef.of (T := ⟨S524288, .i32⟩) main_call29_v4) (broadcastInDim S524288 ![] bcast_S_S524288),
    TRef.binary (TRef.of (T := ⟨S524288, .i32⟩) main_call29_v4) (TRef.of (T := ⟨S524288, .i32⟩) main_call29_v2) (TRef.of (T := ⟨S524288, .i32⟩) main_v827) minsi,
    unary main_v820 main_v828 (fptosi 32 : (⟨S524288, .f32⟩ : BufTy).Contents (Elt F) → (⟨S524288, .i32⟩ : BufTy).Contents (Elt F)),
    nullary main_c_257 (constantI S_ 32 0#32),
    nullary main_c_258 (constantI S_ 32 255#32) ]

set_option maxRecDepth 8192 in
set_option maxHeartbeats 40000000 in
/-- After the stretch, main_v821 holds its stage of the arguments, given that the buffers the stretch reads from before it hold theirs. -/
theorem ck31_main_v821 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v808) = (val_main_v808 (F := F) x0))
    (h1 : W (Proc.devRef .tc main_v809) = (val_main_v809 (F := F))) :
    after ck31 W (Proc.devRef .tc main_v821) = (val_main_v821 (F := F) x0) := by
  after_results_simp
  try simp only [val_main_v821, val_main_v819, val_main_v812, val_main_v811, val_main_cst_248, val_main_v810]
  try rw [← h0]
  try rw [← h1]
  try rfl

set_option maxRecDepth 8192 in
set_option maxHeartbeats 40000000 in
/-- After the stretch, main_v822 holds its stage of the arguments, given that the buffers the stretch reads from before it hold theirs. -/
theorem ck31_main_v822 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v806) = (val_main_v806 (F := F) x0)) :
    after ck31 W (Proc.devRef .tc main_v822) = (val_main_v822 (F := F) x0) := by
  after_results_simp
  try simp only [val_main_v822, val_main_v820, val_main_v818, val_main_v817, val_main_cst_251, val_main_v816, val_main_v815, val_main_cst_250, val_main_v814, val_main_v813, val_main_cst_249]
  try rw [← h0]
  try rfl

set_option maxRecDepth 8192 in
set_option maxHeartbeats 40000000 in
/-- After the stretch, main_v824 holds its stage of the arguments, given that the buffers the stretch reads from before it hold theirs. -/
theorem ck31_main_v824 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v808) = (val_main_v808 (F := F) x0))
    (h1 : W (Proc.devRef .tc main_v809) = (val_main_v809 (F := F))) :
    after ck31 W (Proc.devRef .tc main_v824) = (val_main_v824 (F := F) x0) := by
  after_results_simp
  try simp only [val_main_v824, val_main_call28_v4, val_main_call28_v3, val_main_call28_v2, val_main_call28_v1, val_main_call28_v0, val_main_c_253, val_main_c_252, val_main_v823, val_main_v819, val_main_v812, val_main_v811, val_main_cst_248, val_main_v810]
  try rw [← h0]
  try rw [← h1]
  try rfl

set_option maxRecDepth 8192 in
set_option maxHeartbeats 40000000 in
/-- After the stretch, main_v827 holds its stage of the arguments, given that the buffers the stretch reads from before it hold theirs. -/
theorem ck31_main_v827 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v808) = (val_main_v808 (F := F) x0))
    (h1 : W (Proc.devRef .tc main_v809) = (val_main_v809 (F := F))) :
    after ck31 W (Proc.devRef .tc main_v827) = (val_main_v827 (F := F) x0) := by
  after_results_simp
  try simp only [val_main_v827, val_main_call29_v4, val_main_call29_v3, val_main_call29_v2, val_main_call29_v1, val_main_call29_v0, val_main_c_256, val_main_c_255, val_main_v826, val_main_v825, val_main_c_254, val_main_v824, val_main_call28_v4, val_main_call28_v3, val_main_call28_v2, val_main_call28_v1, val_main_call28_v0, val_main_c_253, val_main_c_252, val_main_v823, val_main_v819, val_main_v812, val_main_v811, val_main_cst_248, val_main_v810]
  try rw [← h0]
  try rw [← h1]
  try rfl

set_option maxRecDepth 8192 in
set_option maxHeartbeats 40000000 in
/-- After the stretch, main_v828 holds its stage of the arguments, given that the buffers the stretch reads from before it hold theirs. -/
theorem ck31_main_v828 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v806) = (val_main_v806 (F := F) x0)) :
    after ck31 W (Proc.devRef .tc main_v828) = (val_main_v828 (F := F) x0) := by
  after_results_simp
  try simp only [val_main_v828, val_main_v820, val_main_v818, val_main_v817, val_main_cst_251, val_main_v816, val_main_v815, val_main_cst_250, val_main_v814, val_main_v813, val_main_cst_249]
  try rw [← h0]
  try rfl

set_option maxRecDepth 8192 in
set_option maxHeartbeats 40000000 in
/-- After the stretch, main_c_257 holds its stage of the arguments, given that the buffers the stretch reads from before it hold theirs. -/
theorem ck31_main_c_257 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck31 W (Proc.devRef .tc main_c_257) = (val_main_c_257 (F := F)) := by
  after_results_simp
  try simp only [val_main_c_257]

  try rfl

set_option maxRecDepth 8192 in
set_option maxHeartbeats 40000000 in
/-- After the stretch, main_c_258 holds its stage of the arguments, given that the buffers the stretch reads from before it hold theirs. -/
theorem ck31_main_c_258 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck31 W (Proc.devRef .tc main_c_258) = (val_main_c_258 (F := F)) := by
  after_results_simp
  try simp only [val_main_c_258]

  try rfl

set_option maxRecDepth 8192 in
set_option maxHeartbeats 40000000 in
/-- The stretch does not write main_arg0. -/
theorem ck31_pass_main_arg0 (W : Valuation τ sig (Elt F)) : after ck31 W (Proc.devRef .tc main_arg0) = W (Proc.devRef .tc main_arg0) := by
  after_results_simp <;> rfl

set_option maxRecDepth 8192 in
set_option maxHeartbeats 40000000 in
/-- The stretch does not write main_arg1. -/
theorem ck31_pass_main_arg1 (W : Valuation τ sig (Elt F)) : after ck31 W (Proc.devRef .tc main_arg1) = W (Proc.devRef .tc main_arg1) := by
  after_results_simp <;> rfl

set_option maxRecDepth 8192 in
set_option maxHeartbeats 40000000 in
/-- The stretch does not write main_arg2. -/
theorem ck31_pass_main_arg2 (W : Valuation τ sig (Elt F)) : after ck31 W (Proc.devRef .tc main_arg2) = W (Proc.devRef .tc main_arg2) := by
  after_results_simp <;> rfl

set_option maxRecDepth 8192 in
set_option maxHeartbeats 40000000 in
/-- The stretch does not write main_arg3. -/
theorem ck31_pass_main_arg3 (W : Valuation τ sig (Elt F)) : after ck31 W (Proc.devRef .tc main_arg3) = W (Proc.devRef .tc main_arg3) := by
  after_results_simp <;> rfl

set_option maxRecDepth 8192 in
set_option maxHeartbeats 40000000 in
/-- The stretch does not write main_arg4. -/
theorem ck31_pass_main_arg4 (W : Valuation τ sig (Elt F)) : after ck31 W (Proc.devRef .tc main_arg4) = W (Proc.devRef .tc main_arg4) := by
  after_results_simp <;> rfl

set_option maxRecDepth 8192 in
set_option maxHeartbeats 40000000 in
/-- The stretch does not write main_arg5. -/
theorem ck31_pass_main_arg5 (W : Valuation τ sig (Elt F)) : after ck31 W (Proc.devRef .tc main_arg5) = W (Proc.devRef .tc main_arg5) := by
  after_results_simp <;> rfl

set_option maxRecDepth 8192 in
set_option maxHeartbeats 40000000 in
/-- The stretch does not write main_arg6. -/
theorem ck31_pass_main_arg6 (W : Valuation τ sig (Elt F)) : after ck31 W (Proc.devRef .tc main_arg6) = W (Proc.devRef .tc main_arg6) := by
  after_results_simp <;> rfl

set_option maxRecDepth 8192 in
set_option maxHeartbeats 40000000 in
/-- The stretch does not write main_arg7. -/
theorem ck31_pass_main_arg7 (W : Valuation τ sig (Elt F)) : after ck31 W (Proc.devRef .tc main_arg7) = W (Proc.devRef .tc main_arg7) := by
  after_results_simp <;> rfl

set_option maxRecDepth 8192 in
set_option maxHeartbeats 40000000 in
/-- The stretch does not write main_arg8. -/
theorem ck31_pass_main_arg8 (W : Valuation τ sig (Elt F)) : after ck31 W (Proc.devRef .tc main_arg8) = W (Proc.devRef .tc main_arg8) := by
  after_results_simp <;> rfl

set_option maxRecDepth 8192 in
set_option maxHeartbeats 40000000 in
/-- The stretch does not write main_v802. -/
theorem ck31_pass_main_v802 (W : Valuation τ sig (Elt F)) : after ck31 W (Proc.devRef .tc main_v802) = W (Proc.devRef .tc main_v802) := by
  after_results_simp <;> rfl

set_option maxRecDepth 8192 in
set_option maxHeartbeats 40000000 in
/-- The stretch does not write main_arg9. -/
theorem ck31_pass_main_arg9 (W : Valuation τ sig (Elt F)) : after ck31 W (Proc.devRef .tc main_arg9) = W (Proc.devRef .tc main_arg9) := by
  after_results_simp <;> rfl

set_option maxRecDepth 8192 in
set_option maxHeartbeats 40000000 in
/-- The stretch does not write main_v343. -/
theorem ck31_pass_main_v343 (W : Valuation τ sig (Elt F)) : after ck31 W (Proc.devRef .tc main_v343) = W (Proc.devRef .tc main_v343) := by
  after_results_simp <;> rfl

set_option maxRecDepth 8192 in
set_option maxHeartbeats 40000000 in
/-- The stretch does not write main_v687. -/
theorem ck31_pass_main_v687 (W : Valuation τ sig (Elt F)) : after ck31 W (Proc.devRef .tc main_v687) = W (Proc.devRef .tc main_v687) := by
  after_results_simp <;> rfl

end Cert.ReferenceIdeal.Seg

end
-- ==== Proof.RefCk32.lean ====
/-
  The reference's host operations 1241 to 1280 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck32 : List (HloOp τ sig (Elt F)) :=
  [ TRef.unary (TRef.of (T := ⟨S_, .i32⟩) main_c_257) (TRef.of (T := ⟨S_, .i32⟩) main_call30_v0) id,
    TRef.unary (TRef.of (T := ⟨S_, .i32⟩) main_call30_v0) (TRef.of (T := ⟨S524288, .i32⟩) main_call30_v1) (broadcastInDim S524288 ![] bcast_S_S524288),
    TRef.binary (TRef.of (T := ⟨S524288, .i32⟩) main_call30_v1) (TRef.of (T := ⟨S524288, .i32⟩) main_v828) (TRef.of (T := ⟨S524288, .i32⟩) main_call30_v2) maxsi,
    TRef.unary (TRef.of (T := ⟨S_, .i32⟩) main_c_258) (TRef.of (T := ⟨S_, .i32⟩) main_call30_v3) id,
    TRef.unary (TRef.of (T := ⟨S_, .i32⟩) main_call30_v3) (TRef.of (T := ⟨S524288, .i32⟩) main_call30_v4) (broadcastInDim S524288 ![] bcast_S_S524288),
    TRef.binary (TRef.of (T := ⟨S524288, .i32⟩) main_call30_v4) (TRef.of (T := ⟨S524288, .i32⟩) main_call30_v2) (TRef.of (T := ⟨S524288, .i32⟩) main_v829) minsi,
    nullary main_c_259 (constantI S_ 32 1#32),
    unary main_c_259 main_v830 (broadcastInDim S524288 ![] bcast_S_S524288 : (⟨S_, .i32⟩ : BufTy).Contents (Elt F) → (⟨S524288, .i32⟩ : BufTy).Contents (Elt F)),
    binary main_v829 main_v830 main_v831 (addi : (⟨S524288, .i32⟩ : BufTy).Contents (Elt F) → (⟨S524288, .i32⟩ : BufTy).Contents (Elt F) → (⟨S524288, .i32⟩ : BufTy).Contents (Elt F)),
    nullary main_c_260 (constantI S_ 32 0#32),
    nullary main_c_261 (constantI S_ 32 255#32),
    TRef.unary (TRef.of (T := ⟨S_, .i32⟩) main_c_260) (TRef.of (T := ⟨S_, .i32⟩) main_call31_v0) id,
    TRef.unary (TRef.of (T := ⟨S_, .i32⟩) main_call31_v0) (TRef.of (T := ⟨S524288, .i32⟩) main_call31_v1) (broadcastInDim S524288 ![] bcast_S_S524288),
    TRef.binary (TRef.of (T := ⟨S524288, .i32⟩) main_call31_v1) (TRef.of (T := ⟨S524288, .i32⟩) main_v831) (TRef.of (T := ⟨S524288, .i32⟩) main_call31_v2) maxsi,
    TRef.unary (TRef.of (T := ⟨S_, .i32⟩) main_c_261) (TRef.of (T := ⟨S_, .i32⟩) main_call31_v3) id,
    TRef.unary (TRef.of (T := ⟨S_, .i32⟩) main_call31_v3) (TRef.of (T := ⟨S524288, .i32⟩) main_call31_v4) (broadcastInDim S524288 ![] bcast_S_S524288),
    TRef.binary (TRef.of (T := ⟨S524288, .i32⟩) main_call31_v4) (TRef.of (T := ⟨S524288, .i32⟩) main_call31_v2) (TRef.of (T := ⟨S524288, .i32⟩) main_v832) minsi,
    nullary main_c_262 (constantI S_ 32 0#32),
    unary main_c_262 main_v833 (broadcastInDim S524288 ![] bcast_S_S524288 : (⟨S_, .i32⟩ : BufTy).Contents (Elt F) → (⟨S524288, .i32⟩ : BufTy).Contents (Elt F)),
    binary main_v829 main_v833 main_v834 (cmpi .slt : (⟨S524288, .i32⟩ : BufTy).Contents (Elt F) → (⟨S524288, .i32⟩ : BufTy).Contents (Elt F) → (⟨S524288, .i1⟩ : BufTy).Contents (Elt F)),
    nullary main_c_263 (constantI S_ 32 256#32),
    unary main_c_263 main_v835 (broadcastInDim S524288 ![] bcast_S_S524288 : (⟨S_, .i32⟩ : BufTy).Contents (Elt F) → (⟨S524288, .i32⟩ : BufTy).Contents (Elt F)),
    binary main_v829 main_v835 main_v836 (addi : (⟨S524288, .i32⟩ : BufTy).Contents (Elt F) → (⟨S524288, .i32⟩ : BufTy).Contents (Elt F) → (⟨S524288, .i32⟩ : BufTy).Contents (Elt F)),
    ternary main_v834 main_v836 main_v829 main_v837 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_264 (constantI S_ 32 0#32),
    unary main_c_264 main_v838 (broadcastInDim S524288 ![] bcast_S_S524288 : (⟨S_, .i32⟩ : BufTy).Contents (Elt F) → (⟨S524288, .i32⟩ : BufTy).Contents (Elt F)),
    binary main_v824 main_v838 main_v839 (cmpi .slt : (⟨S524288, .i32⟩ : BufTy).Contents (Elt F) → (⟨S524288, .i32⟩ : BufTy).Contents (Elt F) → (⟨S524288, .i1⟩ : BufTy).Contents (Elt F)),
    nullary main_c_265 (constantI S_ 32 256#32),
    unary main_c_265 main_v840 (broadcastInDim S524288 ![] bcast_S_S524288 : (⟨S_, .i32⟩ : BufTy).Contents (Elt F) → (⟨S524288, .i32⟩ : BufTy).Contents (Elt F)),
    binary main_v824 main_v840 main_v841 (addi : (⟨S524288, .i32⟩ : BufTy).Contents (Elt F) → (⟨S524288, .i32⟩ : BufTy).Contents (Elt F) → (⟨S524288, .i32⟩ : BufTy).Contents (Elt F)),
    ternary main_v839 main_v841 main_v824 main_v842 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v837 main_v843 (broadcastInDim S524288x1 ![0] bcast_S524288_S524288x1_0 : (⟨S524288, .i32⟩ : BufTy).Contents (Elt F) → (⟨S524288x1, .i32⟩ : BufTy).Contents (Elt F)),
    unary main_v842 main_v844 (broadcastInDim S524288x1 ![0] bcast_S524288_S524288x1_0 : (⟨S524288, .i32⟩ : BufTy).Contents (Elt F) → (⟨S524288x1, .i32⟩ : BufTy).Contents (Elt F)),
    binary main_v843 main_v844 main_v845 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg8 main_v845 main_v846 ((fun x i => Host.gather gather_S32x256x256_S524288x2_S32x524288_0_12_n_n_12_1_3211 x i) : (⟨S32x256x256, .f32⟩ : BufTy).Contents (Elt F) → (⟨S524288x2, .i32⟩ : BufTy).Contents (Elt F) → (⟨S32x524288, .f32⟩ : BufTy).Contents (Elt F)),
    nullary main_c_266 (constantI S_ 32 0#32),
    unary main_c_266 main_v847 (broadcastInDim S524288 ![] bcast_S_S524288 : (⟨S_, .i32⟩ : BufTy).Contents (Elt F) → (⟨S524288, .i32⟩ : BufTy).Contents (Elt F)),
    binary main_v829 main_v847 main_v848 (cmpi .slt : (⟨S524288, .i32⟩ : BufTy).Contents (Elt F) → (⟨S524288, .i32⟩ : BufTy).Contents (Elt F) → (⟨S524288, .i1⟩ : BufTy).Contents (Elt F)),
    nullary main_c_267 (constantI S_ 32 256#32),
    unary main_c_267 main_v849 (broadcastInDim S524288 ![] bcast_S_S524288 : (⟨S_, .i32⟩ : BufTy).Contents (Elt F) → (⟨S524288, .i32⟩ : BufTy).Contents (Elt F)) ]

set_option maxRecDepth 8192 in
set_option maxHeartbeats 40000000 in
/-- After the stretch, main_v829 holds its stage of the arguments, given that the buffers the stretch reads from before it hold theirs. -/
theorem ck32_main_v829 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_c_258) = (val_main_c_258 (F := F)))
    (h1 : W (Proc.devRef .tc main_c_257) = (val_main_c_257 (F := F)))
    (h2 : W (Proc.devRef .tc main_v828) = (val_main_v828 (F := F) x0)) :
    after ck32 W (Proc.devRef .tc main_v829) = (val_main_v829 (F := F) x0) := by
  after_results_simp
  try simp only [val_main_v829, val_main_call30_v4, val_main_call30_v3, val_main_call30_v2, val_main_call30_v1, val_main_call30_v0]
  try rw [← h0]
  try rw [← h1]
  try rw [← h2]
  try rfl

set_option maxRecDepth 8192 in
set_option maxHeartbeats 40000000 in
/-- After the stretch, main_v832 holds its stage of the arguments, given that the buffers the stretch reads from before it hold theirs. -/
theorem ck32_main_v832 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_c_258) = (val_main_c_258 (F := F)))
    (h1 : W (Proc.devRef .tc main_c_257) = (val_main_c_257 (F := F)))
    (h2 : W (Proc.devRef .tc main_v828) = (val_main_v828 (F := F) x0)) :
    after ck32 W (Proc.devRef .tc main_v832) = (val_main_v832 (F := F) x0) := by
  after_results_simp
  try simp only [val_main_v832, val_main_call31_v4, val_main_call31_v3, val_main_call31_v2, val_main_call31_v1, val_main_call31_v0, val_main_c_261, val_main_c_260, val_main_v831, val_main_v830, val_main_c_259, val_main_v829, val_main_call30_v4, val_main_call30_v3, val_main_call30_v2, val_main_call30_v1, val_main_call30_v0]
  try rw [← h0]
  try rw [← h1]
  try rw [← h2]
  try rfl

set_option maxRecDepth 8192 in
set_option maxHeartbeats 40000000 in
/-- After the stretch, main_v846 holds its stage of the arguments, given that the buffers the stretch reads from before it hold theirs. -/
theorem ck32_main_v846 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg8) = x8)
    (h1 : W (Proc.devRef .tc main_c_258) = (val_main_c_258 (F := F)))
    (h2 : W (Proc.devRef .tc main_c_257) = (val_main_c_257 (F := F)))
    (h3 : W (Proc.devRef .tc main_v828) = (val_main_v828 (F := F) x0))
    (h4 : W (Proc.devRef .tc main_v824) = (val_main_v824 (F := F) x0)) :
    after ck32 W (Proc.devRef .tc main_v846) = (val_main_v846 (F := F) x0 x8) := by
  after_results_simp
  try simp only [val_main_v846, val_main_v845, val_main_v844, val_main_v843, val_main_v842, val_main_v841, val_main_v840, val_main_c_265, val_main_v839, val_main_v838, val_main_c_264, val_main_v837, val_main_v836, val_main_v835, val_main_c_263, val_main_v834, val_main_v833, val_main_c_262, val_main_v829, val_main_call30_v4, val_main_call30_v3, val_main_call30_v2, val_main_call30_v1, val_main_call30_v0]
  try rw [← h0]
  try rw [← h1]
  try rw [← h2]
  try rw [← h3]
  try rw [← h4]
  try rfl

set_option maxRecDepth 8192 in
set_option maxHeartbeats 40000000 in
/-- After the stretch, main_v848 holds its stage of the arguments, given that the buffers the stretch reads from before it hold theirs. -/
theorem ck32_main_v848 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_c_258) = (val_main_c_258 (F := F)))
    (h1 : W (Proc.devRef .tc main_c_257) = (val_main_c_257 (F := F)))
    (h2 : W (Proc.devRef .tc main_v828) = (val_main_v828 (F := F) x0)) :
    after ck32 W (Proc.devRef .tc main_v848) = (val_main_v848 (F := F) x0) := by
  after_results_simp
  try simp only [val_main_v848, val_main_v847, val_main_c_266, val_main_v829, val_main_call30_v4, val_main_call30_v3, val_main_call30_v2, val_main_call30_v1, val_main_call30_v0]
  try rw [← h0]
  try rw [← h1]
  try rw [← h2]
  try rfl

set_option maxRecDepth 8192 in
set_option maxHeartbeats 40000000 in
/-- After the stretch, main_v849 holds its stage of the arguments, given that the buffers the stretch reads from before it hold theirs. -/
theorem ck32_main_v849 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck32 W (Proc.devRef .tc main_v849) = (val_main_v849 (F := F)) := by
  after_results_simp
  try simp only [val_main_v849, val_main_c_267]

  try rfl

set_option maxRecDepth 8192 in
set_option maxHeartbeats 40000000 in
/-- The stretch does not write main_arg0. -/
theorem ck32_pass_main_arg0 (W : Valuation τ sig (Elt F)) : after ck32 W (Proc.devRef .tc main_arg0) = W (Proc.devRef .tc main_arg0) := by
  after_results_simp <;> rfl

set_option maxRecDepth 8192 in
set_option maxHeartbeats 40000000 in
/-- The stretch does not write main_arg1. -/
theorem ck32_pass_main_arg1 (W : Valuation τ sig (Elt F)) : after ck32 W (Proc.devRef .tc main_arg1) = W (Proc.devRef .tc main_arg1) := by
  after_results_simp <;> rfl

set_option maxRecDepth 8192 in
set_option maxHeartbeats 40000000 in
/-- The stretch does not write main_arg2. -/
theorem ck32_pass_main_arg2 (W : Valuation τ sig (Elt F)) : after ck32 W (Proc.devRef .tc main_arg2) = W (Proc.devRef .tc main_arg2) := by
  after_results_simp <;> rfl

set_option maxRecDepth 8192 in
set_option maxHeartbeats 40000000 in
/-- The stretch does not write main_arg3. -/
theorem ck32_pass_main_arg3 (W : Valuation τ sig (Elt F)) : after ck32 W (Proc.devRef .tc main_arg3) = W (Proc.devRef .tc main_arg3) := by
  after_results_simp <;> rfl

set_option maxRecDepth 8192 in
set_option maxHeartbeats 40000000 in
/-- The stretch does not write main_arg4. -/
theorem ck32_pass_main_arg4 (W : Valuation τ sig (Elt F)) : after ck32 W (Proc.devRef .tc main_arg4) = W (Proc.devRef .tc main_arg4) := by
  after_results_simp <;> rfl

set_option maxRecDepth 8192 in
set_option maxHeartbeats 40000000 in
/-- The stretch does not write main_arg5. -/
theorem ck32_pass_main_arg5 (W : Valuation τ sig (Elt F)) : after ck32 W (Proc.devRef .tc main_arg5) = W (Proc.devRef .tc main_arg5) := by
  after_results_simp <;> rfl

set_option maxRecDepth 8192 in
set_option maxHeartbeats 40000000 in
/-- The stretch does not write main_arg6. -/
theorem ck32_pass_main_arg6 (W : Valuation τ sig (Elt F)) : after ck32 W (Proc.devRef .tc main_arg6) = W (Proc.devRef .tc main_arg6) := by
  after_results_simp <;> rfl

set_option maxRecDepth 8192 in
set_option maxHeartbeats 40000000 in
/-- The stretch does not write main_arg7. -/
theorem ck32_pass_main_arg7 (W : Valuation τ sig (Elt F)) : after ck32 W (Proc.devRef .tc main_arg7) = W (Proc.devRef .tc main_arg7) := by
  after_results_simp <;> rfl

set_option maxRecDepth 8192 in
set_option maxHeartbeats 40000000 in
/-- The stretch does not write main_v824. -/
theorem ck32_pass_main_v824 (W : Valuation τ sig (Elt F)) : after ck32 W (Proc.devRef .tc main_v824) = W (Proc.devRef .tc main_v824) := by
  after_results_simp <;> rfl

set_option maxRecDepth 8192 in
set_option maxHeartbeats 40000000 in
/-- The stretch does not write main_arg8. -/
theorem ck32_pass_main_arg8 (W : Valuation τ sig (Elt F)) : after ck32 W (Proc.devRef .tc main_arg8) = W (Proc.devRef .tc main_arg8) := by
  after_results_simp <;> rfl

set_option maxRecDepth 8192 in
set_option maxHeartbeats 40000000 in
/-- The stretch does not write main_v827. -/
theorem ck32_pass_main_v827 (W : Valuation τ sig (Elt F)) : after ck32 W (Proc.devRef .tc main_v827) = W (Proc.devRef .tc main_v827) := by
  after_results_simp <;> rfl

set_option maxRecDepth 8192 in
set_option maxHeartbeats 40000000 in
/-- The stretch does not write main_v821. -/
theorem ck32_pass_main_v821 (W : Valuation τ sig (Elt F)) : after ck32 W (Proc.devRef .tc main_v821) = W (Proc.devRef .tc main_v821) := by
  after_results_simp <;> rfl

set_option maxRecDepth 8192 in
set_option maxHeartbeats 40000000 in
/-- The stretch does not write main_v822. -/
theorem ck32_pass_main_v822 (W : Valuation τ sig (Elt F)) : after ck32 W (Proc.devRef .tc main_v822) = W (Proc.devRef .tc main_v822) := by
  after_results_simp <;> rfl

set_option maxRecDepth 8192 in
set_option maxHeartbeats 40000000 in
/-- The stretch does not write main_v802. -/
theorem ck32_pass_main_v802 (W : Valuation τ sig (Elt F)) : after ck32 W (Proc.devRef .tc main_v802) = W (Proc.devRef .tc main_v802) := by
  after_results_simp <;> rfl

set_option maxRecDepth 8192 in
set_option maxHeartbeats 40000000 in
/-- The stretch does not write main_arg9. -/
theorem ck32_pass_main_arg9 (W : Valuation τ sig (Elt F)) : after ck32 W (Proc.devRef .tc main_arg9) = W (Proc.devRef .tc main_arg9) := by
  after_results_simp <;> rfl

set_option maxRecDepth 8192 in
set_option maxHeartbeats 40000000 in
/-- The stretch does not write main_v343. -/
theorem ck32_pass_main_v343 (W : Valuation τ sig (Elt F)) : after ck32 W (Proc.devRef .tc main_v343) = W (Proc.devRef .tc main_v343) := by
  after_results_simp <;> rfl

set_option maxRecDepth 8192 in
set_option maxHeartbeats 40000000 in
/-- The stretch does not write main_v687. -/
theorem ck32_pass_main_v687 (W : Valuation τ sig (Elt F)) : after ck32 W (Proc.devRef .tc main_v687) = W (Proc.devRef .tc main_v687) := by
  after_results_simp <;> rfl

end Cert.ReferenceIdeal.Seg

end
-- ==== Proof.RefCk33.lean ====
/-
  The reference's host operations 1281 to 1320 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck33 : List (HloOp τ sig (Elt F)) :=
  [ binary main_v829 main_v849 main_v850 (addi : (⟨S524288, .i32⟩ : BufTy).Contents (Elt F) → (⟨S524288, .i32⟩ : BufTy).Contents (Elt F) → (⟨S524288, .i32⟩ : BufTy).Contents (Elt F)),
    ternary main_v848 main_v850 main_v829 main_v851 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_268 (constantI S_ 32 0#32),
    unary main_c_268 main_v852 (broadcastInDim S524288 ![] bcast_S_S524288 : (⟨S_, .i32⟩ : BufTy).Contents (Elt F) → (⟨S524288, .i32⟩ : BufTy).Contents (Elt F)),
    binary main_v827 main_v852 main_v853 (cmpi .slt : (⟨S524288, .i32⟩ : BufTy).Contents (Elt F) → (⟨S524288, .i32⟩ : BufTy).Contents (Elt F) → (⟨S524288, .i1⟩ : BufTy).Contents (Elt F)),
    nullary main_c_269 (constantI S_ 32 256#32),
    unary main_c_269 main_v854 (broadcastInDim S524288 ![] bcast_S_S524288 : (⟨S_, .i32⟩ : BufTy).Contents (Elt F) → (⟨S524288, .i32⟩ : BufTy).Contents (Elt F)),
    binary main_v827 main_v854 main_v855 (addi : (⟨S524288, .i32⟩ : BufTy).Contents (Elt F) → (⟨S524288, .i32⟩ : BufTy).Contents (Elt F) → (⟨S524288, .i32⟩ : BufTy).Contents (Elt F)),
    ternary main_v853 main_v855 main_v827 main_v856 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v851 main_v857 (broadcastInDim S524288x1 ![0] bcast_S524288_S524288x1_0 : (⟨S524288, .i32⟩ : BufTy).Contents (Elt F) → (⟨S524288x1, .i32⟩ : BufTy).Contents (Elt F)),
    unary main_v856 main_v858 (broadcastInDim S524288x1 ![0] bcast_S524288_S524288x1_0 : (⟨S524288, .i32⟩ : BufTy).Contents (Elt F) → (⟨S524288x1, .i32⟩ : BufTy).Contents (Elt F)),
    binary main_v857 main_v858 main_v859 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg8 main_v859 main_v860 ((fun x i => Host.gather gather_S32x256x256_S524288x2_S32x524288_0_12_n_n_12_1_3211 x i) : (⟨S32x256x256, .f32⟩ : BufTy).Contents (Elt F) → (⟨S524288x2, .i32⟩ : BufTy).Contents (Elt F) → (⟨S32x524288, .f32⟩ : BufTy).Contents (Elt F)),
    nullary main_c_270 (constantI S_ 32 0#32),
    unary main_c_270 main_v861 (broadcastInDim S524288 ![] bcast_S_S524288 : (⟨S_, .i32⟩ : BufTy).Contents (Elt F) → (⟨S524288, .i32⟩ : BufTy).Contents (Elt F)),
    binary main_v832 main_v861 main_v862 (cmpi .slt : (⟨S524288, .i32⟩ : BufTy).Contents (Elt F) → (⟨S524288, .i32⟩ : BufTy).Contents (Elt F) → (⟨S524288, .i1⟩ : BufTy).Contents (Elt F)),
    nullary main_c_271 (constantI S_ 32 256#32),
    unary main_c_271 main_v863 (broadcastInDim S524288 ![] bcast_S_S524288 : (⟨S_, .i32⟩ : BufTy).Contents (Elt F) → (⟨S524288, .i32⟩ : BufTy).Contents (Elt F)),
    binary main_v832 main_v863 main_v864 (addi : (⟨S524288, .i32⟩ : BufTy).Contents (Elt F) → (⟨S524288, .i32⟩ : BufTy).Contents (Elt F) → (⟨S524288, .i32⟩ : BufTy).Contents (Elt F)),
    ternary main_v862 main_v864 main_v832 main_v865 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_272 (constantI S_ 32 0#32),
    unary main_c_272 main_v866 (broadcastInDim S524288 ![] bcast_S_S524288 : (⟨S_, .i32⟩ : BufTy).Contents (Elt F) → (⟨S524288, .i32⟩ : BufTy).Contents (Elt F)),
    binary main_v824 main_v866 main_v867 (cmpi .slt : (⟨S524288, .i32⟩ : BufTy).Contents (Elt F) → (⟨S524288, .i32⟩ : BufTy).Contents (Elt F) → (⟨S524288, .i1⟩ : BufTy).Contents (Elt F)),
    nullary main_c_273 (constantI S_ 32 256#32),
    unary main_c_273 main_v868 (broadcastInDim S524288 ![] bcast_S_S524288 : (⟨S_, .i32⟩ : BufTy).Contents (Elt F) → (⟨S524288, .i32⟩ : BufTy).Contents (Elt F)),
    binary main_v824 main_v868 main_v869 (addi : (⟨S524288, .i32⟩ : BufTy).Contents (Elt F) → (⟨S524288, .i32⟩ : BufTy).Contents (Elt F) → (⟨S524288, .i32⟩ : BufTy).Contents (Elt F)),
    ternary main_v867 main_v869 main_v824 main_v870 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v865 main_v871 (broadcastInDim S524288x1 ![0] bcast_S524288_S524288x1_0 : (⟨S524288, .i32⟩ : BufTy).Contents (Elt F) → (⟨S524288x1, .i32⟩ : BufTy).Contents (Elt F)),
    unary main_v870 main_v872 (broadcastInDim S524288x1 ![0] bcast_S524288_S524288x1_0 : (⟨S524288, .i32⟩ : BufTy).Contents (Elt F) → (⟨S524288x1, .i32⟩ : BufTy).Contents (Elt F)),
    binary main_v871 main_v872 main_v873 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg8 main_v873 main_v874 ((fun x i => Host.gather gather_S32x256x256_S524288x2_S32x524288_0_12_n_n_12_1_3211 x i) : (⟨S32x256x256, .f32⟩ : BufTy).Contents (Elt F) → (⟨S524288x2, .i32⟩ : BufTy).Contents (Elt F) → (⟨S32x524288, .f32⟩ : BufTy).Contents (Elt F)),
    nullary main_c_274 (constantI S_ 32 0#32),
    unary main_c_274 main_v875 (broadcastInDim S524288 ![] bcast_S_S524288 : (⟨S_, .i32⟩ : BufTy).Contents (Elt F) → (⟨S524288, .i32⟩ : BufTy).Contents (Elt F)),
    binary main_v832 main_v875 main_v876 (cmpi .slt : (⟨S524288, .i32⟩ : BufTy).Contents (Elt F) → (⟨S524288, .i32⟩ : BufTy).Contents (Elt F) → (⟨S524288, .i1⟩ : BufTy).Contents (Elt F)),
    nullary main_c_275 (constantI S_ 32 256#32),
    unary main_c_275 main_v877 (broadcastInDim S524288 ![] bcast_S_S524288 : (⟨S_, .i32⟩ : BufTy).Contents (Elt F) → (⟨S524288, .i32⟩ : BufTy).Contents (Elt F)),
    binary main_v832 main_v877 main_v878 (addi : (⟨S524288, .i32⟩ : BufTy).Contents (Elt F) → (⟨S524288, .i32⟩ : BufTy).Contents (Elt F) → (⟨S524288, .i32⟩ : BufTy).Contents (Elt F)),
    ternary main_v876 main_v878 main_v832 main_v879 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_276 (constantI S_ 32 0#32),
    unary main_c_276 main_v880 (broadcastInDim S524288 ![] bcast_S_S524288 : (⟨S_, .i32⟩ : BufTy).Contents (Elt F) → (⟨S524288, .i32⟩ : BufTy).Contents (Elt F)) ]

set_option maxRecDepth 8192 in
set_option maxHeartbeats 40000000 in
/-- After the stretch, main_v860 holds its stage of the arguments, given that the buffers the stretch reads from before it hold theirs. -/
theorem ck33_main_v860 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg8) = x8)
    (h1 : W (Proc.devRef .tc main_v848) = (val_main_v848 (F := F) x0))
    (h2 : W (Proc.devRef .tc main_v829) = (val_main_v829 (F := F) x0))
    (h3 : W (Proc.devRef .tc main_v849) = (val_main_v849 (F := F)))
    (h4 : W (Proc.devRef .tc main_v827) = (val_main_v827 (F := F) x0)) :
    after ck33 W (Proc.devRef .tc main_v860) = (val_main_v860 (F := F) x0 x8) := by
  after_results_simp
  try simp only [val_main_v860, val_main_v859, val_main_v858, val_main_v857, val_main_v856, val_main_v855, val_main_v854, val_main_c_269, val_main_v853, val_main_v852, val_main_c_268, val_main_v851, val_main_v850]
  try rw [← h0]
  try rw [← h1]
  try rw [← h2]
  try rw [← h3]
  try rw [← h4]
  try rfl

set_option maxRecDepth 8192 in
set_option maxHeartbeats 40000000 in
/-- After the stretch, main_v874 holds its stage of the arguments, given that the buffers the stretch reads from before it hold theirs. -/
theorem ck33_main_v874 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg8) = x8)
    (h1 : W (Proc.devRef .tc main_v832) = (val_main_v832 (F := F) x0))
    (h2 : W (Proc.devRef .tc main_v824) = (val_main_v824 (F := F) x0)) :
    after ck33 W (Proc.devRef .tc main_v874) = (val_main_v874 (F := F) x0 x8) := by
  after_results_simp
  try simp only [val_main_v874, val_main_v873, val_main_v872, val_main_v871, val_main_v870, val_main_v869, val_main_v868, val_main_c_273, val_main_v867, val_main_v866, val_main_c_272, val_main_v865, val_main_v864, val_main_v863, val_main_c_271, val_main_v862, val_main_v861, val_main_c_270]
  try rw [← h0]
  try rw [← h1]
  try rw [← h2]
  try rfl

set_option maxRecDepth 8192 in
set_option maxHeartbeats 40000000 in
/-- After the stretch, main_v879 holds its stage of the arguments, given that the buffers the stretch reads from before it hold theirs. -/
theorem ck33_main_v879 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v832) = (val_main_v832 (F := F) x0)) :
    after ck33 W (Proc.devRef .tc main_v879) = (val_main_v879 (F := F) x0) := by
  after_results_simp
  try simp only [val_main_v879, val_main_v878, val_main_v877, val_main_c_275, val_main_v876, val_main_v875, val_main_c_274]
  try rw [← h0]
  try rfl

set_option maxRecDepth 8192 in
set_option maxHeartbeats 40000000 in
/-- After the stretch, main_v880 holds its stage of the arguments, given that the buffers the stretch reads from before it hold theirs. -/
theorem ck33_main_v880 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck33 W (Proc.devRef .tc main_v880) = (val_main_v880 (F := F)) := by
  after_results_simp
  try simp only [val_main_v880, val_main_c_276]

  try rfl

set_option maxRecDepth 8192 in
set_option maxHeartbeats 40000000 in
/-- The stretch does not write main_arg0. -/
theorem ck33_pass_main_arg0 (W : Valuation τ sig (Elt F)) : after ck33 W (Proc.devRef .tc main_arg0) = W (Proc.devRef .tc main_arg0) := by
  after_results_simp <;> rfl

set_option maxRecDepth 8192 in
set_option maxHeartbeats 40000000 in
/-- The stretch does not write main_arg1. -/
theorem ck33_pass_main_arg1 (W : Valuation τ sig (Elt F)) : after ck33 W (Proc.devRef .tc main_arg1) = W (Proc.devRef .tc main_arg1) := by
  after_results_simp <;> rfl

set_option maxRecDepth 8192 in
set_option maxHeartbeats 40000000 in
/-- The stretch does not write main_arg2. -/
theorem ck33_pass_main_arg2 (W : Valuation τ sig (Elt F)) : after ck33 W (Proc.devRef .tc main_arg2) = W (Proc.devRef .tc main_arg2) := by
  after_results_simp <;> rfl

set_option maxRecDepth 8192 in
set_option maxHeartbeats 40000000 in
/-- The stretch does not write main_arg3. -/
theorem ck33_pass_main_arg3 (W : Valuation τ sig (Elt F)) : after ck33 W (Proc.devRef .tc main_arg3) = W (Proc.devRef .tc main_arg3) := by
  after_results_simp <;> rfl

set_option maxRecDepth 8192 in
set_option maxHeartbeats 40000000 in
/-- The stretch does not write main_arg4. -/
theorem ck33_pass_main_arg4 (W : Valuation τ sig (Elt F)) : after ck33 W (Proc.devRef .tc main_arg4) = W (Proc.devRef .tc main_arg4) := by
  after_results_simp <;> rfl

set_option maxRecDepth 8192 in
set_option maxHeartbeats 40000000 in
/-- The stretch does not write main_arg5. -/
theorem ck33_pass_main_arg5 (W : Valuation τ sig (Elt F)) : after ck33 W (Proc.devRef .tc main_arg5) = W (Proc.devRef .tc main_arg5) := by
  after_results_simp <;> rfl

set_option maxRecDepth 8192 in
set_option maxHeartbeats 40000000 in
/-- The stretch does not write main_arg6. -/
theorem ck33_pass_main_arg6 (W : Valuation τ sig (Elt F)) : after ck33 W (Proc.devRef .tc main_arg6) = W (Proc.devRef .tc main_arg6) := by
  after_results_simp <;> rfl

set_option maxRecDepth 8192 in
set_option maxHeartbeats 40000000 in
/-- The stretch does not write main_arg7. -/
theorem ck33_pass_main_arg7 (W : Valuation τ sig (Elt F)) : after ck33 W (Proc.devRef .tc main_arg7) = W (Proc.devRef .tc main_arg7) := by
  after_results_simp <;> rfl

set_option maxRecDepth 8192 in
set_option maxHeartbeats 40000000 in
/-- The stretch does not write main_arg8. -/
theorem ck33_pass_main_arg8 (W : Valuation τ sig (Elt F)) : after ck33 W (Proc.devRef .tc main_arg8) = W (Proc.devRef .tc main_arg8) := by
  after_results_simp <;> rfl

set_option maxRecDepth 8192 in
set_option maxHeartbeats 40000000 in
/-- The stretch does not write main_v827. -/
theorem ck33_pass_main_v827 (W : Valuation τ sig (Elt F)) : after ck33 W (Proc.devRef .tc main_v827) = W (Proc.devRef .tc main_v827) := by
  after_results_simp <;> rfl

set_option maxRecDepth 8192 in
set_option maxHeartbeats 40000000 in
/-- The stretch does not write main_v821. -/
theorem ck33_pass_main_v821 (W : Valuation τ sig (Elt F)) : after ck33 W (Proc.devRef .tc main_v821) = W (Proc.devRef .tc main_v821) := by
  after_results_simp <;> rfl

set_option maxRecDepth 8192 in
set_option maxHeartbeats 40000000 in
/-- The stretch does not write main_v846. -/
theorem ck33_pass_main_v846 (W : Valuation τ sig (Elt F)) : after ck33 W (Proc.devRef .tc main_v846) = W (Proc.devRef .tc main_v846) := by
  after_results_simp <;> rfl

set_option maxRecDepth 8192 in
set_option maxHeartbeats 40000000 in
/-- The stretch does not write main_v822. -/
theorem ck33_pass_main_v822 (W : Valuation τ sig (Elt F)) : after ck33 W (Proc.devRef .tc main_v822) = W (Proc.devRef .tc main_v822) := by
  after_results_simp <;> rfl

set_option maxRecDepth 8192 in
set_option maxHeartbeats 40000000 in
/-- The stretch does not write main_v802. -/
theorem ck33_pass_main_v802 (W : Valuation τ sig (Elt F)) : after ck33 W (Proc.devRef .tc main_v802) = W (Proc.devRef .tc main_v802) := by
  after_results_simp <;> rfl

set_option maxRecDepth 8192 in
set_option maxHeartbeats 40000000 in
/-- The stretch does not write main_arg9. -/
theorem ck33_pass_main_arg9 (W : Valuation τ sig (Elt F)) : after ck33 W (Proc.devRef .tc main_arg9) = W (Proc.devRef .tc main_arg9) := by
  after_results_simp <;> rfl

set_option maxRecDepth 8192 in
set_option maxHeartbeats 40000000 in
/-- The stretch does not write main_v343. -/
theorem ck33_pass_main_v343 (W : Valuation τ sig (Elt F)) : after ck33 W (Proc.devRef .tc main_v343) = W (Proc.devRef .tc main_v343) := by
  after_results_simp <;> rfl

set_option maxRecDepth 8192 in
set_option maxHeartbeats 40000000 in
/-- The stretch does not write main_v687. -/
theorem ck33_pass_main_v687 (W : Valuation τ sig (Elt F)) : after ck33 W (Proc.devRef .tc main_v687) = W (Proc.devRef .tc main_v687) := by
  after_results_simp <;> rfl

end Cert.ReferenceIdeal.Seg

end
-- ==== Proof.RefCk34.lean ====
/-
  The reference's host operations 1321 to 1360 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck34 : List (HloOp τ sig (Elt F)) :=
  [ binary main_v827 main_v880 main_v881 (cmpi .slt : (⟨S524288, .i32⟩ : BufTy).Contents (Elt F) → (⟨S524288, .i32⟩ : BufTy).Contents (Elt F) → (⟨S524288, .i1⟩ : BufTy).Contents (Elt F)),
    nullary main_c_277 (constantI S_ 32 256#32),
    unary main_c_277 main_v882 (broadcastInDim S524288 ![] bcast_S_S524288 : (⟨S_, .i32⟩ : BufTy).Contents (Elt F) → (⟨S524288, .i32⟩ : BufTy).Contents (Elt F)),
    binary main_v827 main_v882 main_v883 (addi : (⟨S524288, .i32⟩ : BufTy).Contents (Elt F) → (⟨S524288, .i32⟩ : BufTy).Contents (Elt F) → (⟨S524288, .i32⟩ : BufTy).Contents (Elt F)),
    ternary main_v881 main_v883 main_v827 main_v884 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v879 main_v885 (broadcastInDim S524288x1 ![0] bcast_S524288_S524288x1_0 : (⟨S524288, .i32⟩ : BufTy).Contents (Elt F) → (⟨S524288x1, .i32⟩ : BufTy).Contents (Elt F)),
    unary main_v884 main_v886 (broadcastInDim S524288x1 ![0] bcast_S524288_S524288x1_0 : (⟨S524288, .i32⟩ : BufTy).Contents (Elt F) → (⟨S524288x1, .i32⟩ : BufTy).Contents (Elt F)),
    binary main_v885 main_v886 main_v887 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg8 main_v887 main_v888 ((fun x i => Host.gather gather_S32x256x256_S524288x2_S32x524288_0_12_n_n_12_1_3211 x i) : (⟨S32x256x256, .f32⟩ : BufTy).Contents (Elt F) → (⟨S524288x2, .i32⟩ : BufTy).Contents (Elt F) → (⟨S32x524288, .f32⟩ : BufTy).Contents (Elt F)),
    nullary main_cst_278 (constant S_ .f32 0x3F800000#32),
    unary main_cst_278 main_v889 (broadcastInDim S524288 ![] bcast_S_S524288 : (⟨S_, .f32⟩ : BufTy).Contents (Elt F) → (⟨S524288, .f32⟩ : BufTy).Contents (Elt F)),
    binary main_v889 main_v821 main_v890 (subf : (⟨S524288, .f32⟩ : BufTy).Contents (Elt F) → (⟨S524288, .f32⟩ : BufTy).Contents (Elt F) → (⟨S524288, .f32⟩ : BufTy).Contents (Elt F)),
    unary main_v890 main_v891 (broadcastInDim S1x524288 ![1] bcast_S524288_S1x524288_1 : (⟨S524288, .f32⟩ : BufTy).Contents (Elt F) → (⟨S1x524288, .f32⟩ : BufTy).Contents (Elt F)),
    unary main_v891 main_v892 (broadcastInDim S32x524288 ![0, 1] bcast_S1x524288_S32x524288_0_1 : (⟨S1x524288, .f32⟩ : BufTy).Contents (Elt F) → (⟨S32x524288, .f32⟩ : BufTy).Contents (Elt F)),
    binary main_v846 main_v892 main_v893 (mulf : (⟨S32x524288, .f32⟩ : BufTy).Contents (Elt F) → (⟨S32x524288, .f32⟩ : BufTy).Contents (Elt F) → (⟨S32x524288, .f32⟩ : BufTy).Contents (Elt F)),
    unary main_v821 main_v894 (broadcastInDim S1x524288 ![1] bcast_S524288_S1x524288_1 : (⟨S524288, .f32⟩ : BufTy).Contents (Elt F) → (⟨S1x524288, .f32⟩ : BufTy).Contents (Elt F)),
    unary main_v894 main_v895 (broadcastInDim S32x524288 ![0, 1] bcast_S1x524288_S32x524288_0_1 : (⟨S1x524288, .f32⟩ : BufTy).Contents (Elt F) → (⟨S32x524288, .f32⟩ : BufTy).Contents (Elt F)),
    binary main_v860 main_v895 main_v896 (mulf : (⟨S32x524288, .f32⟩ : BufTy).Contents (Elt F) → (⟨S32x524288, .f32⟩ : BufTy).Contents (Elt F) → (⟨S32x524288, .f32⟩ : BufTy).Contents (Elt F)),
    binary main_v893 main_v896 main_v897 (addf : (⟨S32x524288, .f32⟩ : BufTy).Contents (Elt F) → (⟨S32x524288, .f32⟩ : BufTy).Contents (Elt F) → (⟨S32x524288, .f32⟩ : BufTy).Contents (Elt F)),
    nullary main_cst_279 (constant S_ .f32 0x3F800000#32),
    unary main_cst_279 main_v898 (broadcastInDim S524288 ![] bcast_S_S524288 : (⟨S_, .f32⟩ : BufTy).Contents (Elt F) → (⟨S524288, .f32⟩ : BufTy).Contents (Elt F)),
    binary main_v898 main_v821 main_v899 (subf : (⟨S524288, .f32⟩ : BufTy).Contents (Elt F) → (⟨S524288, .f32⟩ : BufTy).Contents (Elt F) → (⟨S524288, .f32⟩ : BufTy).Contents (Elt F)),
    unary main_v899 main_v900 (broadcastInDim S1x524288 ![1] bcast_S524288_S1x524288_1 : (⟨S524288, .f32⟩ : BufTy).Contents (Elt F) → (⟨S1x524288, .f32⟩ : BufTy).Contents (Elt F)),
    unary main_v900 main_v901 (broadcastInDim S32x524288 ![0, 1] bcast_S1x524288_S32x524288_0_1 : (⟨S1x524288, .f32⟩ : BufTy).Contents (Elt F) → (⟨S32x524288, .f32⟩ : BufTy).Contents (Elt F)),
    binary main_v874 main_v901 main_v902 (mulf : (⟨S32x524288, .f32⟩ : BufTy).Contents (Elt F) → (⟨S32x524288, .f32⟩ : BufTy).Contents (Elt F) → (⟨S32x524288, .f32⟩ : BufTy).Contents (Elt F)),
    unary main_v821 main_v903 (broadcastInDim S1x524288 ![1] bcast_S524288_S1x524288_1 : (⟨S524288, .f32⟩ : BufTy).Contents (Elt F) → (⟨S1x524288, .f32⟩ : BufTy).Contents (Elt F)),
    unary main_v903 main_v904 (broadcastInDim S32x524288 ![0, 1] bcast_S1x524288_S32x524288_0_1 : (⟨S1x524288, .f32⟩ : BufTy).Contents (Elt F) → (⟨S32x524288, .f32⟩ : BufTy).Contents (Elt F)),
    binary main_v888 main_v904 main_v905 (mulf : (⟨S32x524288, .f32⟩ : BufTy).Contents (Elt F) → (⟨S32x524288, .f32⟩ : BufTy).Contents (Elt F) → (⟨S32x524288, .f32⟩ : BufTy).Contents (Elt F)),
    binary main_v902 main_v905 main_v906 (addf : (⟨S32x524288, .f32⟩ : BufTy).Contents (Elt F) → (⟨S32x524288, .f32⟩ : BufTy).Contents (Elt F) → (⟨S32x524288, .f32⟩ : BufTy).Contents (Elt F)),
    nullary main_cst_280 (constant S_ .f32 0x3F800000#32),
    unary main_cst_280 main_v907 (broadcastInDim S524288 ![] bcast_S_S524288 : (⟨S_, .f32⟩ : BufTy).Contents (Elt F) → (⟨S524288, .f32⟩ : BufTy).Contents (Elt F)),
    binary main_v907 main_v822 main_v908 (subf : (⟨S524288, .f32⟩ : BufTy).Contents (Elt F) → (⟨S524288, .f32⟩ : BufTy).Contents (Elt F) → (⟨S524288, .f32⟩ : BufTy).Contents (Elt F)),
    unary main_v908 main_v909 (broadcastInDim S1x524288 ![1] bcast_S524288_S1x524288_1 : (⟨S524288, .f32⟩ : BufTy).Contents (Elt F) → (⟨S1x524288, .f32⟩ : BufTy).Contents (Elt F)),
    unary main_v909 main_v910 (broadcastInDim S32x524288 ![0, 1] bcast_S1x524288_S32x524288_0_1 : (⟨S1x524288, .f32⟩ : BufTy).Contents (Elt F) → (⟨S32x524288, .f32⟩ : BufTy).Contents (Elt F)),
    binary main_v897 main_v910 main_v911 (mulf : (⟨S32x524288, .f32⟩ : BufTy).Contents (Elt F) → (⟨S32x524288, .f32⟩ : BufTy).Contents (Elt F) → (⟨S32x524288, .f32⟩ : BufTy).Contents (Elt F)),
    unary main_v822 main_v912 (broadcastInDim S1x524288 ![1] bcast_S524288_S1x524288_1 : (⟨S524288, .f32⟩ : BufTy).Contents (Elt F) → (⟨S1x524288, .f32⟩ : BufTy).Contents (Elt F)),
    unary main_v912 main_v913 (broadcastInDim S32x524288 ![0, 1] bcast_S1x524288_S32x524288_0_1 : (⟨S1x524288, .f32⟩ : BufTy).Contents (Elt F) → (⟨S32x524288, .f32⟩ : BufTy).Contents (Elt F)),
    binary main_v906 main_v913 main_v914 (mulf : (⟨S32x524288, .f32⟩ : BufTy).Contents (Elt F) → (⟨S32x524288, .f32⟩ : BufTy).Contents (Elt F) → (⟨S32x524288, .f32⟩ : BufTy).Contents (Elt F)),
    binary main_v911 main_v914 main_v915 (addf : (⟨S32x524288, .f32⟩ : BufTy).Contents (Elt F) → (⟨S32x524288, .f32⟩ : BufTy).Contents (Elt F) → (⟨S32x524288, .f32⟩ : BufTy).Contents (Elt F)),
    binary main_v802 main_v915 main_v916 (mulf : (⟨S32x524288, .f32⟩ : BufTy).Contents (Elt F) → (⟨S32x524288, .f32⟩ : BufTy).Contents (Elt F) → (⟨S32x524288, .f32⟩ : BufTy).Contents (Elt F)) ]

set_option maxRecDepth 8192 in
set_option maxHeartbeats 40000000 in
/-- After the stretch, main_v916 holds its stage of the arguments, given that the buffers the stretch reads from before it hold theirs. -/
theorem ck34_main_v916 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v802) = (val_main_v802 (F := F) x0 x7))
    (h1 : W (Proc.devRef .tc main_v846) = (val_main_v846 (F := F) x0 x8))
    (h2 : W (Proc.devRef .tc main_v821) = (val_main_v821 (F := F) x0))
    (h3 : W (Proc.devRef .tc main_v860) = (val_main_v860 (F := F) x0 x8))
    (h4 : W (Proc.devRef .tc main_v822) = (val_main_v822 (F := F) x0))
    (h5 : W (Proc.devRef .tc main_v874) = (val_main_v874 (F := F) x0 x8))
    (h6 : W (Proc.devRef .tc main_arg8) = x8)
    (h7 : W (Proc.devRef .tc main_v879) = (val_main_v879 (F := F) x0))
    (h8 : W (Proc.devRef .tc main_v827) = (val_main_v827 (F := F) x0))
    (h9 : W (Proc.devRef .tc main_v880) = (val_main_v880 (F := F))) :
    after ck34 W (Proc.devRef .tc main_v916) = (val_main_v916 (F := F) x0 x7 x8) := by
  after_results_simp
  try simp only [val_main_v916, val_main_v915, val_main_v914, val_main_v913, val_main_v912, val_main_v911, val_main_v910, val_main_v909, val_main_v908, val_main_v907, val_main_cst_280, val_main_v906, val_main_v905, val_main_v904, val_main_v903, val_main_v902, val_main_v901, val_main_v900, val_main_v899, val_main_v898, val_main_cst_279, val_main_v897, val_main_v896, val_main_v895, val_main_v894, val_main_v893, val_main_v892, val_main_v891, val_main_v890, val_main_v889, val_main_cst_278, val_main_v888, val_main_v887, val_main_v886, val_main_v885, val_main_v884, val_main_v883, val_main_v882, val_main_c_277, val_main_v881]
  try rw [← h0]
  try rw [← h1]
  try rw [← h2]
  try rw [← h3]
  try rw [← h4]
  try rw [← h5]
  try rw [← h6]
  try rw [← h7]
  try rw [← h8]
  try rw [← h9]
  try rfl

set_option maxRecDepth 8192 in
set_option maxHeartbeats 40000000 in
/-- The stretch does not write main_arg0. -/
theorem ck34_pass_main_arg0 (W : Valuation τ sig (Elt F)) : after ck34 W (Proc.devRef .tc main_arg0) = W (Proc.devRef .tc main_arg0) := by
  after_results_simp <;> rfl

set_option maxRecDepth 8192 in
set_option maxHeartbeats 40000000 in
/-- The stretch does not write main_arg1. -/
theorem ck34_pass_main_arg1 (W : Valuation τ sig (Elt F)) : after ck34 W (Proc.devRef .tc main_arg1) = W (Proc.devRef .tc main_arg1) := by
  after_results_simp <;> rfl

set_option maxRecDepth 8192 in
set_option maxHeartbeats 40000000 in
/-- The stretch does not write main_arg2. -/
theorem ck34_pass_main_arg2 (W : Valuation τ sig (Elt F)) : after ck34 W (Proc.devRef .tc main_arg2) = W (Proc.devRef .tc main_arg2) := by
  after_results_simp <;> rfl

set_option maxRecDepth 8192 in
set_option maxHeartbeats 40000000 in
/-- The stretch does not write main_arg3. -/
theorem ck34_pass_main_arg3 (W : Valuation τ sig (Elt F)) : after ck34 W (Proc.devRef .tc main_arg3) = W (Proc.devRef .tc main_arg3) := by
  after_results_simp <;> rfl

set_option maxRecDepth 8192 in
set_option maxHeartbeats 40000000 in
/-- The stretch does not write main_arg4. -/
theorem ck34_pass_main_arg4 (W : Valuation τ sig (Elt F)) : after ck34 W (Proc.devRef .tc main_arg4) = W (Proc.devRef .tc main_arg4) := by
  after_results_simp <;> rfl

set_option maxRecDepth 8192 in
set_option maxHeartbeats 40000000 in
/-- The stretch does not write main_arg5. -/
theorem ck34_pass_main_arg5 (W : Valuation τ sig (Elt F)) : after ck34 W (Proc.devRef .tc main_arg5) = W (Proc.devRef .tc main_arg5) := by
  after_results_simp <;> rfl

set_option maxRecDepth 8192 in
set_option maxHeartbeats 40000000 in
/-- The stretch does not write main_arg6. -/
theorem ck34_pass_main_arg6 (W : Valuation τ sig (Elt F)) : after ck34 W (Proc.devRef .tc main_arg6) = W (Proc.devRef .tc main_arg6) := by
  after_results_simp <;> rfl

set_option maxRecDepth 8192 in
set_option maxHeartbeats 40000000 in
/-- The stretch does not write main_arg7. -/
theorem ck34_pass_main_arg7 (W : Valuation τ sig (Elt F)) : after ck34 W (Proc.devRef .tc main_arg7) = W (Proc.devRef .tc main_arg7) := by
  after_results_simp <;> rfl

set_option maxRecDepth 8192 in
set_option maxHeartbeats 40000000 in
/-- The stretch does not write main_arg8. -/
theorem ck34_pass_main_arg8 (W : Valuation τ sig (Elt F)) : after ck34 W (Proc.devRef .tc main_arg8) = W (Proc.devRef .tc main_arg8) := by
  after_results_simp <;> rfl

set_option maxRecDepth 8192 in
set_option maxHeartbeats 40000000 in
/-- The stretch does not write main_arg9. -/
theorem ck34_pass_main_arg9 (W : Valuation τ sig (Elt F)) : after ck34 W (Proc.devRef .tc main_arg9) = W (Proc.devRef .tc main_arg9) := by
  after_results_simp <;> rfl

set_option maxRecDepth 8192 in
set_option maxHeartbeats 40000000 in
/-- The stretch does not write main_v343. -/
theorem ck34_pass_main_v343 (W : Valuation τ sig (Elt F)) : after ck34 W (Proc.devRef .tc main_v343) = W (Proc.devRef .tc main_v343) := by
  after_results_simp <;> rfl

set_option maxRecDepth 8192 in
set_option maxHeartbeats 40000000 in
/-- The stretch does not write main_v687. -/
theorem ck34_pass_main_v687 (W : Valuation τ sig (Elt F)) : after ck34 W (Proc.devRef .tc main_v687) = W (Proc.devRef .tc main_v687) := by
  after_results_simp <;> rfl

end Cert.ReferenceIdeal.Seg

end
-- ==== Proof.RefCk35.lean ====
/-
  The reference's host operations 1361 to 1400 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck35 : List (HloOp τ sig (Elt F)) :=
  [ unary main_arg0 main_v917 ((extractStridedSlice S524288x1 ![0, 1] · slices_S524288x3_S524288x1_0_1) : (⟨S524288x3, .f32⟩ : BufTy).Contents (Elt F) → (⟨S524288x1, .f32⟩ : BufTy).Contents (Elt F)),
    reshape main_v917 main_v918 rfl shapeCasts_S524288x1_S524288,
    unary main_arg0 main_v919 ((extractStridedSlice S524288x1 ![0, 2] · slices_S524288x3_S524288x1_0_2) : (⟨S524288x3, .f32⟩ : BufTy).Contents (Elt F) → (⟨S524288x1, .f32⟩ : BufTy).Contents (Elt F)),
    reshape main_v919 main_v920 rfl shapeCasts_S524288x1_S524288,
    nullary main_cst_281 (constant S_ .f32 0x3F800000#32),
    unary main_cst_281 main_v921 (broadcastInDim S524288 ![] bcast_S_S524288 : (⟨S_, .f32⟩ : BufTy).Contents (Elt F) → (⟨S524288, .f32⟩ : BufTy).Contents (Elt F)),
    binary main_v918 main_v921 main_v922 (addf : (⟨S524288, .f32⟩ : BufTy).Contents (Elt F) → (⟨S524288, .f32⟩ : BufTy).Contents (Elt F) → (⟨S524288, .f32⟩ : BufTy).Contents (Elt F)),
    nullary main_cst_282 (constant S_ .f32 0x3F000000#32),
    unary main_cst_282 main_v923 (broadcastInDim S524288 ![] bcast_S_S524288 : (⟨S_, .f32⟩ : BufTy).Contents (Elt F) → (⟨S524288, .f32⟩ : BufTy).Contents (Elt F)),
    binary main_v922 main_v923 main_v924 (mulf : (⟨S524288, .f32⟩ : BufTy).Contents (Elt F) → (⟨S524288, .f32⟩ : BufTy).Contents (Elt F) → (⟨S524288, .f32⟩ : BufTy).Contents (Elt F)),
    nullary main_cst_283 (constant S_ .f32 0x437F0000#32),
    unary main_cst_283 main_v925 (broadcastInDim S524288 ![] bcast_S_S524288 : (⟨S_, .f32⟩ : BufTy).Contents (Elt F) → (⟨S524288, .f32⟩ : BufTy).Contents (Elt F)),
    binary main_v924 main_v925 main_v926 (mulf : (⟨S524288, .f32⟩ : BufTy).Contents (Elt F) → (⟨S524288, .f32⟩ : BufTy).Contents (Elt F) → (⟨S524288, .f32⟩ : BufTy).Contents (Elt F)),
    nullary main_cst_284 (constant S_ .f32 0x3F800000#32),
    unary main_cst_284 main_v927 (broadcastInDim S524288 ![] bcast_S_S524288 : (⟨S_, .f32⟩ : BufTy).Contents (Elt F) → (⟨S524288, .f32⟩ : BufTy).Contents (Elt F)),
    binary main_v920 main_v927 main_v928 (addf : (⟨S524288, .f32⟩ : BufTy).Contents (Elt F) → (⟨S524288, .f32⟩ : BufTy).Contents (Elt F) → (⟨S524288, .f32⟩ : BufTy).Contents (Elt F)),
    nullary main_cst_285 (constant S_ .f32 0x3F000000#32),
    unary main_cst_285 main_v929 (broadcastInDim S524288 ![] bcast_S_S524288 : (⟨S_, .f32⟩ : BufTy).Contents (Elt F) → (⟨S524288, .f32⟩ : BufTy).Contents (Elt F)),
    binary main_v928 main_v929 main_v930 (mulf : (⟨S524288, .f32⟩ : BufTy).Contents (Elt F) → (⟨S524288, .f32⟩ : BufTy).Contents (Elt F) → (⟨S524288, .f32⟩ : BufTy).Contents (Elt F)),
    nullary main_cst_286 (constant S_ .f32 0x437F0000#32),
    unary main_cst_286 main_v931 (broadcastInDim S524288 ![] bcast_S_S524288 : (⟨S_, .f32⟩ : BufTy).Contents (Elt F) → (⟨S524288, .f32⟩ : BufTy).Contents (Elt F)),
    binary main_v930 main_v931 main_v932 (mulf : (⟨S524288, .f32⟩ : BufTy).Contents (Elt F) → (⟨S524288, .f32⟩ : BufTy).Contents (Elt F) → (⟨S524288, .f32⟩ : BufTy).Contents (Elt F)),
    unary main_v926 main_v933 (Host.floor : (⟨S524288, .f32⟩ : BufTy).Contents (Elt F) → (⟨S524288, .f32⟩ : BufTy).Contents (Elt F)),
    unary main_v932 main_v934 (Host.floor : (⟨S524288, .f32⟩ : BufTy).Contents (Elt F) → (⟨S524288, .f32⟩ : BufTy).Contents (Elt F)),
    binary main_v926 main_v933 main_v935 (subf : (⟨S524288, .f32⟩ : BufTy).Contents (Elt F) → (⟨S524288, .f32⟩ : BufTy).Contents (Elt F) → (⟨S524288, .f32⟩ : BufTy).Contents (Elt F)),
    binary main_v932 main_v934 main_v936 (subf : (⟨S524288, .f32⟩ : BufTy).Contents (Elt F) → (⟨S524288, .f32⟩ : BufTy).Contents (Elt F) → (⟨S524288, .f32⟩ : BufTy).Contents (Elt F)),
    unary main_v933 main_v937 (fptosi 32 : (⟨S524288, .f32⟩ : BufTy).Contents (Elt F) → (⟨S524288, .i32⟩ : BufTy).Contents (Elt F)),
    nullary main_c_287 (constantI S_ 32 0#32),
    nullary main_c_288 (constantI S_ 32 255#32),
    TRef.unary (TRef.of (T := ⟨S_, .i32⟩) main_c_287) (TRef.of (T := ⟨S_, .i32⟩) main_call32_v0) id,
    TRef.unary (TRef.of (T := ⟨S_, .i32⟩) main_call32_v0) (TRef.of (T := ⟨S524288, .i32⟩) main_call32_v1) (broadcastInDim S524288 ![] bcast_S_S524288),
    TRef.binary (TRef.of (T := ⟨S524288, .i32⟩) main_call32_v1) (TRef.of (T := ⟨S524288, .i32⟩) main_v937) (TRef.of (T := ⟨S524288, .i32⟩) main_call32_v2) maxsi,
    TRef.unary (TRef.of (T := ⟨S_, .i32⟩) main_c_288) (TRef.of (T := ⟨S_, .i32⟩) main_call32_v3) id,
    TRef.unary (TRef.of (T := ⟨S_, .i32⟩) main_call32_v3) (TRef.of (T := ⟨S524288, .i32⟩) main_call32_v4) (broadcastInDim S524288 ![] bcast_S_S524288),
    TRef.binary (TRef.of (T := ⟨S524288, .i32⟩) main_call32_v4) (TRef.of (T := ⟨S524288, .i32⟩) main_call32_v2) (TRef.of (T := ⟨S524288, .i32⟩) main_v938) minsi,
    nullary main_c_289 (constantI S_ 32 1#32),
    unary main_c_289 main_v939 (broadcastInDim S524288 ![] bcast_S_S524288 : (⟨S_, .i32⟩ : BufTy).Contents (Elt F) → (⟨S524288, .i32⟩ : BufTy).Contents (Elt F)),
    binary main_v938 main_v939 main_v940 (addi : (⟨S524288, .i32⟩ : BufTy).Contents (Elt F) → (⟨S524288, .i32⟩ : BufTy).Contents (Elt F) → (⟨S524288, .i32⟩ : BufTy).Contents (Elt F)),
    nullary main_c_290 (constantI S_ 32 0#32),
    nullary main_c_291 (constantI S_ 32 255#32) ]

set_option maxRecDepth 8192 in
set_option maxHeartbeats 40000000 in
/-- After the stretch, main_v934 holds its stage of the arguments, given that the buffers the stretch reads from before it hold theirs. -/
theorem ck35_main_v934 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck35 W (Proc.devRef .tc main_v934) = (val_main_v934 (F := F) x0) := by
  after_results_simp
  try simp only [val_main_v934, val_main_v932, val_main_v931, val_main_cst_286, val_main_v930, val_main_v929, val_main_cst_285, val_main_v928, val_main_v927, val_main_cst_284, val_main_v920, val_main_v919]
  try rw [← h0]
  try rfl

set_option maxRecDepth 8192 in
set_option maxHeartbeats 40000000 in
/-- After the stretch, main_v935 holds its stage of the arguments, given that the buffers the stretch reads from before it hold theirs. -/
theorem ck35_main_v935 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck35 W (Proc.devRef .tc main_v935) = (val_main_v935 (F := F) x0) := by
  after_results_simp
  try simp only [val_main_v935, val_main_v933, val_main_v926, val_main_v925, val_main_cst_283, val_main_v924, val_main_v923, val_main_cst_282, val_main_v922, val_main_v921, val_main_cst_281, val_main_v918, val_main_v917]
  try rw [← h0]
  try rfl

set_option maxRecDepth 8192 in
set_option maxHeartbeats 40000000 in
/-- After the stretch, main_v936 holds its stage of the arguments, given that the buffers the stretch reads from before it hold theirs. -/
theorem ck35_main_v936 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck35 W (Proc.devRef .tc main_v936) = (val_main_v936 (F := F) x0) := by
  after_results_simp
  try simp only [val_main_v936, val_main_v934, val_main_v932, val_main_v931, val_main_cst_286, val_main_v930, val_main_v929, val_main_cst_285, val_main_v928, val_main_v927, val_main_cst_284, val_main_v920, val_main_v919]
  try rw [← h0]
  try rfl

set_option maxRecDepth 8192 in
set_option maxHeartbeats 40000000 in
/-- After the stretch, main_v938 holds its stage of the arguments, given that the buffers the stretch reads from before it hold theirs. -/
theorem ck35_main_v938 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck35 W (Proc.devRef .tc main_v938) = (val_main_v938 (F := F) x0) := by
  after_results_simp
  try simp only [val_main_v938, val_main_call32_v4, val_main_call32_v3, val_main_call32_v2, val_main_call32_v1, val_main_call32_v0, val_main_c_288, val_main_c_287, val_main_v937, val_main_v933, val_main_v926, val_main_v925, val_main_cst_283, val_main_v924, val_main_v923, val_main_cst_282, val_main_v922, val_main_v921, val_main_cst_281, val_main_v918, val_main_v917]
  try rw [← h0]
  try rfl

set_option maxRecDepth 8192 in
set_option maxHeartbeats 40000000 in
/-- After the stretch, main_v940 holds its stage of the arguments, given that the buffers the stretch reads from before it hold theirs. -/
theorem ck35_main_v940 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg0) = x0) :
    after ck35 W (Proc.devRef .tc main_v940) = (val_main_v940 (F := F) x0) := by
  after_results_simp
  try simp only [val_main_v940, val_main_v939, val_main_c_289, val_main_v938, val_main_call32_v4, val_main_call32_v3, val_main_call32_v2, val_main_call32_v1, val_main_call32_v0, val_main_c_288, val_main_c_287, val_main_v937, val_main_v933, val_main_v926, val_main_v925, val_main_cst_283, val_main_v924, val_main_v923, val_main_cst_282, val_main_v922, val_main_v921, val_main_cst_281, val_main_v918, val_main_v917]
  try rw [← h0]
  try rfl

set_option maxRecDepth 8192 in
set_option maxHeartbeats 40000000 in
/-- After the stretch, main_c_290 holds its stage of the arguments, given that the buffers the stretch reads from before it hold theirs. -/
theorem ck35_main_c_290 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck35 W (Proc.devRef .tc main_c_290) = (val_main_c_290 (F := F)) := by
  after_results_simp
  try simp only [val_main_c_290]

  try rfl

set_option maxRecDepth 8192 in
set_option maxHeartbeats 40000000 in
/-- After the stretch, main_c_291 holds its stage of the arguments, given that the buffers the stretch reads from before it hold theirs. -/
theorem ck35_main_c_291 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck35 W (Proc.devRef .tc main_c_291) = (val_main_c_291 (F := F)) := by
  after_results_simp
  try simp only [val_main_c_291]

  try rfl

set_option maxRecDepth 8192 in
set_option maxHeartbeats 40000000 in
/-- The stretch does not write main_arg0. -/
theorem ck35_pass_main_arg0 (W : Valuation τ sig (Elt F)) : after ck35 W (Proc.devRef .tc main_arg0) = W (Proc.devRef .tc main_arg0) := by
  after_results_simp <;> rfl

set_option maxRecDepth 8192 in
set_option maxHeartbeats 40000000 in
/-- The stretch does not write main_arg1. -/
theorem ck35_pass_main_arg1 (W : Valuation τ sig (Elt F)) : after ck35 W (Proc.devRef .tc main_arg1) = W (Proc.devRef .tc main_arg1) := by
  after_results_simp <;> rfl

set_option maxRecDepth 8192 in
set_option maxHeartbeats 40000000 in
/-- The stretch does not write main_arg2. -/
theorem ck35_pass_main_arg2 (W : Valuation τ sig (Elt F)) : after ck35 W (Proc.devRef .tc main_arg2) = W (Proc.devRef .tc main_arg2) := by
  after_results_simp <;> rfl

set_option maxRecDepth 8192 in
set_option maxHeartbeats 40000000 in
/-- The stretch does not write main_arg3. -/
theorem ck35_pass_main_arg3 (W : Valuation τ sig (Elt F)) : after ck35 W (Proc.devRef .tc main_arg3) = W (Proc.devRef .tc main_arg3) := by
  after_results_simp <;> rfl

set_option maxRecDepth 8192 in
set_option maxHeartbeats 40000000 in
/-- The stretch does not write main_arg4. -/
theorem ck35_pass_main_arg4 (W : Valuation τ sig (Elt F)) : after ck35 W (Proc.devRef .tc main_arg4) = W (Proc.devRef .tc main_arg4) := by
  after_results_simp <;> rfl

set_option maxRecDepth 8192 in
set_option maxHeartbeats 40000000 in
/-- The stretch does not write main_arg5. -/
theorem ck35_pass_main_arg5 (W : Valuation τ sig (Elt F)) : after ck35 W (Proc.devRef .tc main_arg5) = W (Proc.devRef .tc main_arg5) := by
  after_results_simp <;> rfl

set_option maxRecDepth 8192 in
set_option maxHeartbeats 40000000 in
/-- The stretch does not write main_arg6. -/
theorem ck35_pass_main_arg6 (W : Valuation τ sig (Elt F)) : after ck35 W (Proc.devRef .tc main_arg6) = W (Proc.devRef .tc main_arg6) := by
  after_results_simp <;> rfl

set_option maxRecDepth 8192 in
set_option maxHeartbeats 40000000 in
/-- The stretch does not write main_arg7. -/
theorem ck35_pass_main_arg7 (W : Valuation τ sig (Elt F)) : after ck35 W (Proc.devRef .tc main_arg7) = W (Proc.devRef .tc main_arg7) := by
  after_results_simp <;> rfl

set_option maxRecDepth 8192 in
set_option maxHeartbeats 40000000 in
/-- The stretch does not write main_arg8. -/
theorem ck35_pass_main_arg8 (W : Valuation τ sig (Elt F)) : after ck35 W (Proc.devRef .tc main_arg8) = W (Proc.devRef .tc main_arg8) := by
  after_results_simp <;> rfl

set_option maxRecDepth 8192 in
set_option maxHeartbeats 40000000 in
/-- The stretch does not write main_arg9. -/
theorem ck35_pass_main_arg9 (W : Valuation τ sig (Elt F)) : after ck35 W (Proc.devRef .tc main_arg9) = W (Proc.devRef .tc main_arg9) := by
  after_results_simp <;> rfl

set_option maxRecDepth 8192 in
set_option maxHeartbeats 40000000 in
/-- The stretch does not write main_v916. -/
theorem ck35_pass_main_v916 (W : Valuation τ sig (Elt F)) : after ck35 W (Proc.devRef .tc main_v916) = W (Proc.devRef .tc main_v916) := by
  after_results_simp <;> rfl

set_option maxRecDepth 8192 in
set_option maxHeartbeats 40000000 in
/-- The stretch does not write main_v343. -/
theorem ck35_pass_main_v343 (W : Valuation τ sig (Elt F)) : after ck35 W (Proc.devRef .tc main_v343) = W (Proc.devRef .tc main_v343) := by
  after_results_simp <;> rfl

set_option maxRecDepth 8192 in
set_option maxHeartbeats 40000000 in
/-- The stretch does not write main_v687. -/
theorem ck35_pass_main_v687 (W : Valuation τ sig (Elt F)) : after ck35 W (Proc.devRef .tc main_v687) = W (Proc.devRef .tc main_v687) := by
  after_results_simp <;> rfl

end Cert.ReferenceIdeal.Seg

end
-- ==== Proof.RefCk36.lean ====
/-
  The reference's host operations 1401 to 1440 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck36 : List (HloOp τ sig (Elt F)) :=
  [ TRef.unary (TRef.of (T := ⟨S_, .i32⟩) main_c_290) (TRef.of (T := ⟨S_, .i32⟩) main_call33_v0) id,
    TRef.unary (TRef.of (T := ⟨S_, .i32⟩) main_call33_v0) (TRef.of (T := ⟨S524288, .i32⟩) main_call33_v1) (broadcastInDim S524288 ![] bcast_S_S524288),
    TRef.binary (TRef.of (T := ⟨S524288, .i32⟩) main_call33_v1) (TRef.of (T := ⟨S524288, .i32⟩) main_v940) (TRef.of (T := ⟨S524288, .i32⟩) main_call33_v2) maxsi,
    TRef.unary (TRef.of (T := ⟨S_, .i32⟩) main_c_291) (TRef.of (T := ⟨S_, .i32⟩) main_call33_v3) id,
    TRef.unary (TRef.of (T := ⟨S_, .i32⟩) main_call33_v3) (TRef.of (T := ⟨S524288, .i32⟩) main_call33_v4) (broadcastInDim S524288 ![] bcast_S_S524288),
    TRef.binary (TRef.of (T := ⟨S524288, .i32⟩) main_call33_v4) (TRef.of (T := ⟨S524288, .i32⟩) main_call33_v2) (TRef.of (T := ⟨S524288, .i32⟩) main_v941) minsi,
    unary main_v934 main_v942 (fptosi 32 : (⟨S524288, .f32⟩ : BufTy).Contents (Elt F) → (⟨S524288, .i32⟩ : BufTy).Contents (Elt F)),
    nullary main_c_292 (constantI S_ 32 0#32),
    nullary main_c_293 (constantI S_ 32 255#32),
    TRef.unary (TRef.of (T := ⟨S_, .i32⟩) main_c_292) (TRef.of (T := ⟨S_, .i32⟩) main_call34_v0) id,
    TRef.unary (TRef.of (T := ⟨S_, .i32⟩) main_call34_v0) (TRef.of (T := ⟨S524288, .i32⟩) main_call34_v1) (broadcastInDim S524288 ![] bcast_S_S524288),
    TRef.binary (TRef.of (T := ⟨S524288, .i32⟩) main_call34_v1) (TRef.of (T := ⟨S524288, .i32⟩) main_v942) (TRef.of (T := ⟨S524288, .i32⟩) main_call34_v2) maxsi,
    TRef.unary (TRef.of (T := ⟨S_, .i32⟩) main_c_293) (TRef.of (T := ⟨S_, .i32⟩) main_call34_v3) id,
    TRef.unary (TRef.of (T := ⟨S_, .i32⟩) main_call34_v3) (TRef.of (T := ⟨S524288, .i32⟩) main_call34_v4) (broadcastInDim S524288 ![] bcast_S_S524288),
    TRef.binary (TRef.of (T := ⟨S524288, .i32⟩) main_call34_v4) (TRef.of (T := ⟨S524288, .i32⟩) main_call34_v2) (TRef.of (T := ⟨S524288, .i32⟩) main_v943) minsi,
    nullary main_c_294 (constantI S_ 32 1#32),
    unary main_c_294 main_v944 (broadcastInDim S524288 ![] bcast_S_S524288 : (⟨S_, .i32⟩ : BufTy).Contents (Elt F) → (⟨S524288, .i32⟩ : BufTy).Contents (Elt F)),
    binary main_v943 main_v944 main_v945 (addi : (⟨S524288, .i32⟩ : BufTy).Contents (Elt F) → (⟨S524288, .i32⟩ : BufTy).Contents (Elt F) → (⟨S524288, .i32⟩ : BufTy).Contents (Elt F)),
    nullary main_c_295 (constantI S_ 32 0#32),
    nullary main_c_296 (constantI S_ 32 255#32),
    TRef.unary (TRef.of (T := ⟨S_, .i32⟩) main_c_295) (TRef.of (T := ⟨S_, .i32⟩) main_call35_v0) id,
    TRef.unary (TRef.of (T := ⟨S_, .i32⟩) main_call35_v0) (TRef.of (T := ⟨S524288, .i32⟩) main_call35_v1) (broadcastInDim S524288 ![] bcast_S_S524288),
    TRef.binary (TRef.of (T := ⟨S524288, .i32⟩) main_call35_v1) (TRef.of (T := ⟨S524288, .i32⟩) main_v945) (TRef.of (T := ⟨S524288, .i32⟩) main_call35_v2) maxsi,
    TRef.unary (TRef.of (T := ⟨S_, .i32⟩) main_c_296) (TRef.of (T := ⟨S_, .i32⟩) main_call35_v3) id,
    TRef.unary (TRef.of (T := ⟨S_, .i32⟩) main_call35_v3) (TRef.of (T := ⟨S524288, .i32⟩) main_call35_v4) (broadcastInDim S524288 ![] bcast_S_S524288),
    TRef.binary (TRef.of (T := ⟨S524288, .i32⟩) main_call35_v4) (TRef.of (T := ⟨S524288, .i32⟩) main_call35_v2) (TRef.of (T := ⟨S524288, .i32⟩) main_v946) minsi,
    nullary main_c_297 (constantI S_ 32 0#32),
    unary main_c_297 main_v947 (broadcastInDim S524288 ![] bcast_S_S524288 : (⟨S_, .i32⟩ : BufTy).Contents (Elt F) → (⟨S524288, .i32⟩ : BufTy).Contents (Elt F)),
    binary main_v943 main_v947 main_v948 (cmpi .slt : (⟨S524288, .i32⟩ : BufTy).Contents (Elt F) → (⟨S524288, .i32⟩ : BufTy).Contents (Elt F) → (⟨S524288, .i1⟩ : BufTy).Contents (Elt F)),
    nullary main_c_298 (constantI S_ 32 256#32),
    unary main_c_298 main_v949 (broadcastInDim S524288 ![] bcast_S_S524288 : (⟨S_, .i32⟩ : BufTy).Contents (Elt F) → (⟨S524288, .i32⟩ : BufTy).Contents (Elt F)),
    binary main_v943 main_v949 main_v950 (addi : (⟨S524288, .i32⟩ : BufTy).Contents (Elt F) → (⟨S524288, .i32⟩ : BufTy).Contents (Elt F) → (⟨S524288, .i32⟩ : BufTy).Contents (Elt F)),
    ternary main_v948 main_v950 main_v943 main_v951 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_299 (constantI S_ 32 0#32),
    unary main_c_299 main_v952 (broadcastInDim S524288 ![] bcast_S_S524288 : (⟨S_, .i32⟩ : BufTy).Contents (Elt F) → (⟨S524288, .i32⟩ : BufTy).Contents (Elt F)),
    binary main_v938 main_v952 main_v953 (cmpi .slt : (⟨S524288, .i32⟩ : BufTy).Contents (Elt F) → (⟨S524288, .i32⟩ : BufTy).Contents (Elt F) → (⟨S524288, .i1⟩ : BufTy).Contents (Elt F)),
    nullary main_c_300 (constantI S_ 32 256#32),
    unary main_c_300 main_v954 (broadcastInDim S524288 ![] bcast_S_S524288 : (⟨S_, .i32⟩ : BufTy).Contents (Elt F) → (⟨S524288, .i32⟩ : BufTy).Contents (Elt F)),
    binary main_v938 main_v954 main_v955 (addi : (⟨S524288, .i32⟩ : BufTy).Contents (Elt F) → (⟨S524288, .i32⟩ : BufTy).Contents (Elt F) → (⟨S524288, .i32⟩ : BufTy).Contents (Elt F)),
    ternary main_v953 main_v955 main_v938 main_v956 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)) ]

set_option maxRecDepth 8192 in
set_option maxHeartbeats 40000000 in
/-- After the stretch, main_v941 holds its stage of the arguments, given that the buffers the stretch reads from before it hold theirs. -/
theorem ck36_main_v941 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_c_291) = (val_main_c_291 (F := F)))
    (h1 : W (Proc.devRef .tc main_c_290) = (val_main_c_290 (F := F)))
    (h2 : W (Proc.devRef .tc main_v940) = (val_main_v940 (F := F) x0)) :
    after ck36 W (Proc.devRef .tc main_v941) = (val_main_v941 (F := F) x0) := by
  after_results_simp
  try simp only [val_main_v941, val_main_call33_v4, val_main_call33_v3, val_main_call33_v2, val_main_call33_v1, val_main_call33_v0]
  try rw [← h0]
  try rw [← h1]
  try rw [← h2]
  try rfl

set_option maxRecDepth 8192 in
set_option maxHeartbeats 40000000 in
/-- After the stretch, main_v943 holds its stage of the arguments, given that the buffers the stretch reads from before it hold theirs. -/
theorem ck36_main_v943 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v934) = (val_main_v934 (F := F) x0)) :
    after ck36 W (Proc.devRef .tc main_v943) = (val_main_v943 (F := F) x0) := by
  after_results_simp
  try simp only [val_main_v943, val_main_call34_v4, val_main_call34_v3, val_main_call34_v2, val_main_call34_v1, val_main_call34_v0, val_main_c_293, val_main_c_292, val_main_v942]
  try rw [← h0]
  try rfl

set_option maxRecDepth 8192 in
set_option maxHeartbeats 40000000 in
/-- After the stretch, main_v946 holds its stage of the arguments, given that the buffers the stretch reads from before it hold theirs. -/
theorem ck36_main_v946 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v934) = (val_main_v934 (F := F) x0)) :
    after ck36 W (Proc.devRef .tc main_v946) = (val_main_v946 (F := F) x0) := by
  after_results_simp
  try simp only [val_main_v946, val_main_call35_v4, val_main_call35_v3, val_main_call35_v2, val_main_call35_v1, val_main_call35_v0, val_main_c_296, val_main_c_295, val_main_v945, val_main_v944, val_main_c_294, val_main_v943, val_main_call34_v4, val_main_call34_v3, val_main_call34_v2, val_main_call34_v1, val_main_call34_v0, val_main_c_293, val_main_c_292, val_main_v942]
  try rw [← h0]
  try rfl

set_option maxRecDepth 8192 in
set_option maxHeartbeats 40000000 in
/-- After the stretch, main_v951 holds its stage of the arguments, given that the buffers the stretch reads from before it hold theirs. -/
theorem ck36_main_v951 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v934) = (val_main_v934 (F := F) x0)) :
    after ck36 W (Proc.devRef .tc main_v951) = (val_main_v951 (F := F) x0) := by
  after_results_simp
  try simp only [val_main_v951, val_main_v950, val_main_v949, val_main_c_298, val_main_v948, val_main_v947, val_main_c_297, val_main_v943, val_main_call34_v4, val_main_call34_v3, val_main_call34_v2, val_main_call34_v1, val_main_call34_v0, val_main_c_293, val_main_c_292, val_main_v942]
  try rw [← h0]
  try rfl

set_option maxRecDepth 8192 in
set_option maxHeartbeats 40000000 in
/-- After the stretch, main_v956 holds its stage of the arguments, given that the buffers the stretch reads from before it hold theirs. -/
theorem ck36_main_v956 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v938) = (val_main_v938 (F := F) x0)) :
    after ck36 W (Proc.devRef .tc main_v956) = (val_main_v956 (F := F) x0) := by
  after_results_simp
  try simp only [val_main_v956, val_main_v955, val_main_v954, val_main_c_300, val_main_v953, val_main_v952, val_main_c_299]
  try rw [← h0]
  try rfl

set_option maxRecDepth 8192 in
set_option maxHeartbeats 40000000 in
/-- The stretch does not write main_arg0. -/
theorem ck36_pass_main_arg0 (W : Valuation τ sig (Elt F)) : after ck36 W (Proc.devRef .tc main_arg0) = W (Proc.devRef .tc main_arg0) := by
  after_results_simp <;> rfl

set_option maxRecDepth 8192 in
set_option maxHeartbeats 40000000 in
/-- The stretch does not write main_arg1. -/
theorem ck36_pass_main_arg1 (W : Valuation τ sig (Elt F)) : after ck36 W (Proc.devRef .tc main_arg1) = W (Proc.devRef .tc main_arg1) := by
  after_results_simp <;> rfl

set_option maxRecDepth 8192 in
set_option maxHeartbeats 40000000 in
/-- The stretch does not write main_arg2. -/
theorem ck36_pass_main_arg2 (W : Valuation τ sig (Elt F)) : after ck36 W (Proc.devRef .tc main_arg2) = W (Proc.devRef .tc main_arg2) := by
  after_results_simp <;> rfl

set_option maxRecDepth 8192 in
set_option maxHeartbeats 40000000 in
/-- The stretch does not write main_arg3. -/
theorem ck36_pass_main_arg3 (W : Valuation τ sig (Elt F)) : after ck36 W (Proc.devRef .tc main_arg3) = W (Proc.devRef .tc main_arg3) := by
  after_results_simp <;> rfl

set_option maxRecDepth 8192 in
set_option maxHeartbeats 40000000 in
/-- The stretch does not write main_arg4. -/
theorem ck36_pass_main_arg4 (W : Valuation τ sig (Elt F)) : after ck36 W (Proc.devRef .tc main_arg4) = W (Proc.devRef .tc main_arg4) := by
  after_results_simp <;> rfl

set_option maxRecDepth 8192 in
set_option maxHeartbeats 40000000 in
/-- The stretch does not write main_arg5. -/
theorem ck36_pass_main_arg5 (W : Valuation τ sig (Elt F)) : after ck36 W (Proc.devRef .tc main_arg5) = W (Proc.devRef .tc main_arg5) := by
  after_results_simp <;> rfl

set_option maxRecDepth 8192 in
set_option maxHeartbeats 40000000 in
/-- The stretch does not write main_arg6. -/
theorem ck36_pass_main_arg6 (W : Valuation τ sig (Elt F)) : after ck36 W (Proc.devRef .tc main_arg6) = W (Proc.devRef .tc main_arg6) := by
  after_results_simp <;> rfl

set_option maxRecDepth 8192 in
set_option maxHeartbeats 40000000 in
/-- The stretch does not write main_arg7. -/
theorem ck36_pass_main_arg7 (W : Valuation τ sig (Elt F)) : after ck36 W (Proc.devRef .tc main_arg7) = W (Proc.devRef .tc main_arg7) := by
  after_results_simp <;> rfl

set_option maxRecDepth 8192 in
set_option maxHeartbeats 40000000 in
/-- The stretch does not write main_arg8. -/
theorem ck36_pass_main_arg8 (W : Valuation τ sig (Elt F)) : after ck36 W (Proc.devRef .tc main_arg8) = W (Proc.devRef .tc main_arg8) := by
  after_results_simp <;> rfl

set_option maxRecDepth 8192 in
set_option maxHeartbeats 40000000 in
/-- The stretch does not write main_v938. -/
theorem ck36_pass_main_v938 (W : Valuation τ sig (Elt F)) : after ck36 W (Proc.devRef .tc main_v938) = W (Proc.devRef .tc main_v938) := by
  after_results_simp <;> rfl

set_option maxRecDepth 8192 in
set_option maxHeartbeats 40000000 in
/-- The stretch does not write main_arg9. -/
theorem ck36_pass_main_arg9 (W : Valuation τ sig (Elt F)) : after ck36 W (Proc.devRef .tc main_arg9) = W (Proc.devRef .tc main_arg9) := by
  after_results_simp <;> rfl

set_option maxRecDepth 8192 in
set_option maxHeartbeats 40000000 in
/-- The stretch does not write main_v935. -/
theorem ck36_pass_main_v935 (W : Valuation τ sig (Elt F)) : after ck36 W (Proc.devRef .tc main_v935) = W (Proc.devRef .tc main_v935) := by
  after_results_simp <;> rfl

set_option maxRecDepth 8192 in
set_option maxHeartbeats 40000000 in
/-- The stretch does not write main_v936. -/
theorem ck36_pass_main_v936 (W : Valuation τ sig (Elt F)) : after ck36 W (Proc.devRef .tc main_v936) = W (Proc.devRef .tc main_v936) := by
  after_results_simp <;> rfl

set_option maxRecDepth 8192 in
set_option maxHeartbeats 40000000 in
/-- The stretch does not write main_v916. -/
theorem ck36_pass_main_v916 (W : Valuation τ sig (Elt F)) : after ck36 W (Proc.devRef .tc main_v916) = W (Proc.devRef .tc main_v916) := by
  after_results_simp <;> rfl

set_option maxRecDepth 8192 in
set_option maxHeartbeats 40000000 in
/-- The stretch does not write main_v343. -/
theorem ck36_pass_main_v343 (W : Valuation τ sig (Elt F)) : after ck36 W (Proc.devRef .tc main_v343) = W (Proc.devRef .tc main_v343) := by
  after_results_simp <;> rfl

set_option maxRecDepth 8192 in
set_option maxHeartbeats 40000000 in
/-- The stretch does not write main_v687. -/
theorem ck36_pass_main_v687 (W : Valuation τ sig (Elt F)) : after ck36 W (Proc.devRef .tc main_v687) = W (Proc.devRef .tc main_v687) := by
  after_results_simp <;> rfl

end Cert.ReferenceIdeal.Seg

end
-- ==== Proof.RefCk37.lean ====
/-
  The reference's host operations 1441 to 1480 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck37 : List (HloOp τ sig (Elt F)) :=
  [ unary main_v951 main_v957 (broadcastInDim S524288x1 ![0] bcast_S524288_S524288x1_0 : (⟨S524288, .i32⟩ : BufTy).Contents (Elt F) → (⟨S524288x1, .i32⟩ : BufTy).Contents (Elt F)),
    unary main_v956 main_v958 (broadcastInDim S524288x1 ![0] bcast_S524288_S524288x1_0 : (⟨S524288, .i32⟩ : BufTy).Contents (Elt F) → (⟨S524288x1, .i32⟩ : BufTy).Contents (Elt F)),
    binary main_v957 main_v958 main_v959 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg9 main_v959 main_v960 ((fun x i => Host.gather gather_S32x256x256_S524288x2_S32x524288_0_12_n_n_12_1_3211 x i) : (⟨S32x256x256, .f32⟩ : BufTy).Contents (Elt F) → (⟨S524288x2, .i32⟩ : BufTy).Contents (Elt F) → (⟨S32x524288, .f32⟩ : BufTy).Contents (Elt F)),
    nullary main_c_301 (constantI S_ 32 0#32),
    unary main_c_301 main_v961 (broadcastInDim S524288 ![] bcast_S_S524288 : (⟨S_, .i32⟩ : BufTy).Contents (Elt F) → (⟨S524288, .i32⟩ : BufTy).Contents (Elt F)),
    binary main_v943 main_v961 main_v962 (cmpi .slt : (⟨S524288, .i32⟩ : BufTy).Contents (Elt F) → (⟨S524288, .i32⟩ : BufTy).Contents (Elt F) → (⟨S524288, .i1⟩ : BufTy).Contents (Elt F)),
    nullary main_c_302 (constantI S_ 32 256#32),
    unary main_c_302 main_v963 (broadcastInDim S524288 ![] bcast_S_S524288 : (⟨S_, .i32⟩ : BufTy).Contents (Elt F) → (⟨S524288, .i32⟩ : BufTy).Contents (Elt F)),
    binary main_v943 main_v963 main_v964 (addi : (⟨S524288, .i32⟩ : BufTy).Contents (Elt F) → (⟨S524288, .i32⟩ : BufTy).Contents (Elt F) → (⟨S524288, .i32⟩ : BufTy).Contents (Elt F)),
    ternary main_v962 main_v964 main_v943 main_v965 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_303 (constantI S_ 32 0#32),
    unary main_c_303 main_v966 (broadcastInDim S524288 ![] bcast_S_S524288 : (⟨S_, .i32⟩ : BufTy).Contents (Elt F) → (⟨S524288, .i32⟩ : BufTy).Contents (Elt F)),
    binary main_v941 main_v966 main_v967 (cmpi .slt : (⟨S524288, .i32⟩ : BufTy).Contents (Elt F) → (⟨S524288, .i32⟩ : BufTy).Contents (Elt F) → (⟨S524288, .i1⟩ : BufTy).Contents (Elt F)),
    nullary main_c_304 (constantI S_ 32 256#32),
    unary main_c_304 main_v968 (broadcastInDim S524288 ![] bcast_S_S524288 : (⟨S_, .i32⟩ : BufTy).Contents (Elt F) → (⟨S524288, .i32⟩ : BufTy).Contents (Elt F)),
    binary main_v941 main_v968 main_v969 (addi : (⟨S524288, .i32⟩ : BufTy).Contents (Elt F) → (⟨S524288, .i32⟩ : BufTy).Contents (Elt F) → (⟨S524288, .i32⟩ : BufTy).Contents (Elt F)),
    ternary main_v967 main_v969 main_v941 main_v970 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v965 main_v971 (broadcastInDim S524288x1 ![0] bcast_S524288_S524288x1_0 : (⟨S524288, .i32⟩ : BufTy).Contents (Elt F) → (⟨S524288x1, .i32⟩ : BufTy).Contents (Elt F)),
    unary main_v970 main_v972 (broadcastInDim S524288x1 ![0] bcast_S524288_S524288x1_0 : (⟨S524288, .i32⟩ : BufTy).Contents (Elt F) → (⟨S524288x1, .i32⟩ : BufTy).Contents (Elt F)),
    binary main_v971 main_v972 main_v973 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg9 main_v973 main_v974 ((fun x i => Host.gather gather_S32x256x256_S524288x2_S32x524288_0_12_n_n_12_1_3211 x i) : (⟨S32x256x256, .f32⟩ : BufTy).Contents (Elt F) → (⟨S524288x2, .i32⟩ : BufTy).Contents (Elt F) → (⟨S32x524288, .f32⟩ : BufTy).Contents (Elt F)),
    nullary main_c_305 (constantI S_ 32 0#32),
    unary main_c_305 main_v975 (broadcastInDim S524288 ![] bcast_S_S524288 : (⟨S_, .i32⟩ : BufTy).Contents (Elt F) → (⟨S524288, .i32⟩ : BufTy).Contents (Elt F)),
    binary main_v946 main_v975 main_v976 (cmpi .slt : (⟨S524288, .i32⟩ : BufTy).Contents (Elt F) → (⟨S524288, .i32⟩ : BufTy).Contents (Elt F) → (⟨S524288, .i1⟩ : BufTy).Contents (Elt F)),
    nullary main_c_306 (constantI S_ 32 256#32),
    unary main_c_306 main_v977 (broadcastInDim S524288 ![] bcast_S_S524288 : (⟨S_, .i32⟩ : BufTy).Contents (Elt F) → (⟨S524288, .i32⟩ : BufTy).Contents (Elt F)),
    binary main_v946 main_v977 main_v978 (addi : (⟨S524288, .i32⟩ : BufTy).Contents (Elt F) → (⟨S524288, .i32⟩ : BufTy).Contents (Elt F) → (⟨S524288, .i32⟩ : BufTy).Contents (Elt F)),
    ternary main_v976 main_v978 main_v946 main_v979 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_307 (constantI S_ 32 0#32),
    unary main_c_307 main_v980 (broadcastInDim S524288 ![] bcast_S_S524288 : (⟨S_, .i32⟩ : BufTy).Contents (Elt F) → (⟨S524288, .i32⟩ : BufTy).Contents (Elt F)),
    binary main_v938 main_v980 main_v981 (cmpi .slt : (⟨S524288, .i32⟩ : BufTy).Contents (Elt F) → (⟨S524288, .i32⟩ : BufTy).Contents (Elt F) → (⟨S524288, .i1⟩ : BufTy).Contents (Elt F)),
    nullary main_c_308 (constantI S_ 32 256#32),
    unary main_c_308 main_v982 (broadcastInDim S524288 ![] bcast_S_S524288 : (⟨S_, .i32⟩ : BufTy).Contents (Elt F) → (⟨S524288, .i32⟩ : BufTy).Contents (Elt F)),
    binary main_v938 main_v982 main_v983 (addi : (⟨S524288, .i32⟩ : BufTy).Contents (Elt F) → (⟨S524288, .i32⟩ : BufTy).Contents (Elt F) → (⟨S524288, .i32⟩ : BufTy).Contents (Elt F)),
    ternary main_v981 main_v983 main_v938 main_v984 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v979 main_v985 (broadcastInDim S524288x1 ![0] bcast_S524288_S524288x1_0 : (⟨S524288, .i32⟩ : BufTy).Contents (Elt F) → (⟨S524288x1, .i32⟩ : BufTy).Contents (Elt F)),
    unary main_v984 main_v986 (broadcastInDim S524288x1 ![0] bcast_S524288_S524288x1_0 : (⟨S524288, .i32⟩ : BufTy).Contents (Elt F) → (⟨S524288x1, .i32⟩ : BufTy).Contents (Elt F)),
    binary main_v985 main_v986 main_v987 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg9 main_v987 main_v988 ((fun x i => Host.gather gather_S32x256x256_S524288x2_S32x524288_0_12_n_n_12_1_3211 x i) : (⟨S32x256x256, .f32⟩ : BufTy).Contents (Elt F) → (⟨S524288x2, .i32⟩ : BufTy).Contents (Elt F) → (⟨S32x524288, .f32⟩ : BufTy).Contents (Elt F)) ]

set_option maxRecDepth 8192 in
set_option maxHeartbeats 40000000 in
/-- After the stretch, main_v960 holds its stage of the arguments, given that the buffers the stretch reads from before it hold theirs. -/
theorem ck37_main_v960 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg9) = x9)
    (h1 : W (Proc.devRef .tc main_v951) = (val_main_v951 (F := F) x0))
    (h2 : W (Proc.devRef .tc main_v956) = (val_main_v956 (F := F) x0)) :
    after ck37 W (Proc.devRef .tc main_v960) = (val_main_v960 (F := F) x0 x9) := by
  after_results_simp
  try simp only [val_main_v960, val_main_v959, val_main_v958, val_main_v957]
  try rw [← h0]
  try rw [← h1]
  try rw [← h2]
  try rfl

set_option maxRecDepth 8192 in
set_option maxHeartbeats 40000000 in
/-- After the stretch, main_v974 holds its stage of the arguments, given that the buffers the stretch reads from before it hold theirs. -/
theorem ck37_main_v974 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg9) = x9)
    (h1 : W (Proc.devRef .tc main_v943) = (val_main_v943 (F := F) x0))
    (h2 : W (Proc.devRef .tc main_v941) = (val_main_v941 (F := F) x0)) :
    after ck37 W (Proc.devRef .tc main_v974) = (val_main_v974 (F := F) x0 x9) := by
  after_results_simp
  try simp only [val_main_v974, val_main_v973, val_main_v972, val_main_v971, val_main_v970, val_main_v969, val_main_v968, val_main_c_304, val_main_v967, val_main_v966, val_main_c_303, val_main_v965, val_main_v964, val_main_v963, val_main_c_302, val_main_v962, val_main_v961, val_main_c_301]
  try rw [← h0]
  try rw [← h1]
  try rw [← h2]
  try rfl

set_option maxRecDepth 8192 in
set_option maxHeartbeats 40000000 in
/-- After the stretch, main_v988 holds its stage of the arguments, given that the buffers the stretch reads from before it hold theirs. -/
theorem ck37_main_v988 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_arg9) = x9)
    (h1 : W (Proc.devRef .tc main_v946) = (val_main_v946 (F := F) x0))
    (h2 : W (Proc.devRef .tc main_v938) = (val_main_v938 (F := F) x0)) :
    after ck37 W (Proc.devRef .tc main_v988) = (val_main_v988 (F := F) x0 x9) := by
  after_results_simp
  try simp only [val_main_v988, val_main_v987, val_main_v986, val_main_v985, val_main_v984, val_main_v983, val_main_v982, val_main_c_308, val_main_v981, val_main_v980, val_main_c_307, val_main_v979, val_main_v978, val_main_v977, val_main_c_306, val_main_v976, val_main_v975, val_main_c_305]
  try rw [← h0]
  try rw [← h1]
  try rw [← h2]
  try rfl

set_option maxRecDepth 8192 in
set_option maxHeartbeats 40000000 in
/-- The stretch does not write main_arg0. -/
theorem ck37_pass_main_arg0 (W : Valuation τ sig (Elt F)) : after ck37 W (Proc.devRef .tc main_arg0) = W (Proc.devRef .tc main_arg0) := by
  after_results_simp <;> rfl

set_option maxRecDepth 8192 in
set_option maxHeartbeats 40000000 in
/-- The stretch does not write main_arg1. -/
theorem ck37_pass_main_arg1 (W : Valuation τ sig (Elt F)) : after ck37 W (Proc.devRef .tc main_arg1) = W (Proc.devRef .tc main_arg1) := by
  after_results_simp <;> rfl

set_option maxRecDepth 8192 in
set_option maxHeartbeats 40000000 in
/-- The stretch does not write main_arg2. -/
theorem ck37_pass_main_arg2 (W : Valuation τ sig (Elt F)) : after ck37 W (Proc.devRef .tc main_arg2) = W (Proc.devRef .tc main_arg2) := by
  after_results_simp <;> rfl

set_option maxRecDepth 8192 in
set_option maxHeartbeats 40000000 in
/-- The stretch does not write main_arg3. -/
theorem ck37_pass_main_arg3 (W : Valuation τ sig (Elt F)) : after ck37 W (Proc.devRef .tc main_arg3) = W (Proc.devRef .tc main_arg3) := by
  after_results_simp <;> rfl

set_option maxRecDepth 8192 in
set_option maxHeartbeats 40000000 in
/-- The stretch does not write main_arg4. -/
theorem ck37_pass_main_arg4 (W : Valuation τ sig (Elt F)) : after ck37 W (Proc.devRef .tc main_arg4) = W (Proc.devRef .tc main_arg4) := by
  after_results_simp <;> rfl

set_option maxRecDepth 8192 in
set_option maxHeartbeats 40000000 in
/-- The stretch does not write main_arg5. -/
theorem ck37_pass_main_arg5 (W : Valuation τ sig (Elt F)) : after ck37 W (Proc.devRef .tc main_arg5) = W (Proc.devRef .tc main_arg5) := by
  after_results_simp <;> rfl

set_option maxRecDepth 8192 in
set_option maxHeartbeats 40000000 in
/-- The stretch does not write main_arg6. -/
theorem ck37_pass_main_arg6 (W : Valuation τ sig (Elt F)) : after ck37 W (Proc.devRef .tc main_arg6) = W (Proc.devRef .tc main_arg6) := by
  after_results_simp <;> rfl

set_option maxRecDepth 8192 in
set_option maxHeartbeats 40000000 in
/-- The stretch does not write main_arg7. -/
theorem ck37_pass_main_arg7 (W : Valuation τ sig (Elt F)) : after ck37 W (Proc.devRef .tc main_arg7) = W (Proc.devRef .tc main_arg7) := by
  after_results_simp <;> rfl

set_option maxRecDepth 8192 in
set_option maxHeartbeats 40000000 in
/-- The stretch does not write main_arg8. -/
theorem ck37_pass_main_arg8 (W : Valuation τ sig (Elt F)) : after ck37 W (Proc.devRef .tc main_arg8) = W (Proc.devRef .tc main_arg8) := by
  after_results_simp <;> rfl

set_option maxRecDepth 8192 in
set_option maxHeartbeats 40000000 in
/-- The stretch does not write main_arg9. -/
theorem ck37_pass_main_arg9 (W : Valuation τ sig (Elt F)) : after ck37 W (Proc.devRef .tc main_arg9) = W (Proc.devRef .tc main_arg9) := by
  after_results_simp <;> rfl

set_option maxRecDepth 8192 in
set_option maxHeartbeats 40000000 in
/-- The stretch does not write main_v941. -/
theorem ck37_pass_main_v941 (W : Valuation τ sig (Elt F)) : after ck37 W (Proc.devRef .tc main_v941) = W (Proc.devRef .tc main_v941) := by
  after_results_simp <;> rfl

set_option maxRecDepth 8192 in
set_option maxHeartbeats 40000000 in
/-- The stretch does not write main_v946. -/
theorem ck37_pass_main_v946 (W : Valuation τ sig (Elt F)) : after ck37 W (Proc.devRef .tc main_v946) = W (Proc.devRef .tc main_v946) := by
  after_results_simp <;> rfl

set_option maxRecDepth 8192 in
set_option maxHeartbeats 40000000 in
/-- The stretch does not write main_v935. -/
theorem ck37_pass_main_v935 (W : Valuation τ sig (Elt F)) : after ck37 W (Proc.devRef .tc main_v935) = W (Proc.devRef .tc main_v935) := by
  after_results_simp <;> rfl

set_option maxRecDepth 8192 in
set_option maxHeartbeats 40000000 in
/-- The stretch does not write main_v936. -/
theorem ck37_pass_main_v936 (W : Valuation τ sig (Elt F)) : after ck37 W (Proc.devRef .tc main_v936) = W (Proc.devRef .tc main_v936) := by
  after_results_simp <;> rfl

set_option maxRecDepth 8192 in
set_option maxHeartbeats 40000000 in
/-- The stretch does not write main_v916. -/
theorem ck37_pass_main_v916 (W : Valuation τ sig (Elt F)) : after ck37 W (Proc.devRef .tc main_v916) = W (Proc.devRef .tc main_v916) := by
  after_results_simp <;> rfl

set_option maxRecDepth 8192 in
set_option maxHeartbeats 40000000 in
/-- The stretch does not write main_v343. -/
theorem ck37_pass_main_v343 (W : Valuation τ sig (Elt F)) : after ck37 W (Proc.devRef .tc main_v343) = W (Proc.devRef .tc main_v343) := by
  after_results_simp <;> rfl

set_option maxRecDepth 8192 in
set_option maxHeartbeats 40000000 in
/-- The stretch does not write main_v687. -/
theorem ck37_pass_main_v687 (W : Valuation τ sig (Elt F)) : after ck37 W (Proc.devRef .tc main_v687) = W (Proc.devRef .tc main_v687) := by
  after_results_simp <;> rfl

end Cert.ReferenceIdeal.Seg

end
-- ==== Proof.RefCk38.lean ====
/-
  The reference's host operations 1481 to 1520 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck38 : List (HloOp τ sig (Elt F)) :=
  [ nullary main_c_309 (constantI S_ 32 0#32),
    unary main_c_309 main_v989 (broadcastInDim S524288 ![] bcast_S_S524288 : (⟨S_, .i32⟩ : BufTy).Contents (Elt F) → (⟨S524288, .i32⟩ : BufTy).Contents (Elt F)),
    binary main_v946 main_v989 main_v990 (cmpi .slt : (⟨S524288, .i32⟩ : BufTy).Contents (Elt F) → (⟨S524288, .i32⟩ : BufTy).Contents (Elt F) → (⟨S524288, .i1⟩ : BufTy).Contents (Elt F)),
    nullary main_c_310 (constantI S_ 32 256#32),
    unary main_c_310 main_v991 (broadcastInDim S524288 ![] bcast_S_S524288 : (⟨S_, .i32⟩ : BufTy).Contents (Elt F) → (⟨S524288, .i32⟩ : BufTy).Contents (Elt F)),
    binary main_v946 main_v991 main_v992 (addi : (⟨S524288, .i32⟩ : BufTy).Contents (Elt F) → (⟨S524288, .i32⟩ : BufTy).Contents (Elt F) → (⟨S524288, .i32⟩ : BufTy).Contents (Elt F)),
    ternary main_v990 main_v992 main_v946 main_v993 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    nullary main_c_311 (constantI S_ 32 0#32),
    unary main_c_311 main_v994 (broadcastInDim S524288 ![] bcast_S_S524288 : (⟨S_, .i32⟩ : BufTy).Contents (Elt F) → (⟨S524288, .i32⟩ : BufTy).Contents (Elt F)),
    binary main_v941 main_v994 main_v995 (cmpi .slt : (⟨S524288, .i32⟩ : BufTy).Contents (Elt F) → (⟨S524288, .i32⟩ : BufTy).Contents (Elt F) → (⟨S524288, .i1⟩ : BufTy).Contents (Elt F)),
    nullary main_c_312 (constantI S_ 32 256#32),
    unary main_c_312 main_v996 (broadcastInDim S524288 ![] bcast_S_S524288 : (⟨S_, .i32⟩ : BufTy).Contents (Elt F) → (⟨S524288, .i32⟩ : BufTy).Contents (Elt F)),
    binary main_v941 main_v996 main_v997 (addi : (⟨S524288, .i32⟩ : BufTy).Contents (Elt F) → (⟨S524288, .i32⟩ : BufTy).Contents (Elt F) → (⟨S524288, .i32⟩ : BufTy).Contents (Elt F)),
    ternary main_v995 main_v997 main_v941 main_v998 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v993 main_v999 (broadcastInDim S524288x1 ![0] bcast_S524288_S524288x1_0 : (⟨S524288, .i32⟩ : BufTy).Contents (Elt F) → (⟨S524288x1, .i32⟩ : BufTy).Contents (Elt F)),
    unary main_v998 main_v1000 (broadcastInDim S524288x1 ![0] bcast_S524288_S524288x1_0 : (⟨S524288, .i32⟩ : BufTy).Contents (Elt F) → (⟨S524288x1, .i32⟩ : BufTy).Contents (Elt F)),
    binary main_v999 main_v1000 main_v1001 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F)),
    binary main_arg9 main_v1001 main_v1002 ((fun x i => Host.gather gather_S32x256x256_S524288x2_S32x524288_0_12_n_n_12_1_3211 x i) : (⟨S32x256x256, .f32⟩ : BufTy).Contents (Elt F) → (⟨S524288x2, .i32⟩ : BufTy).Contents (Elt F) → (⟨S32x524288, .f32⟩ : BufTy).Contents (Elt F)),
    nullary main_cst_313 (constant S_ .f32 0x3F800000#32),
    unary main_cst_313 main_v1003 (broadcastInDim S524288 ![] bcast_S_S524288 : (⟨S_, .f32⟩ : BufTy).Contents (Elt F) → (⟨S524288, .f32⟩ : BufTy).Contents (Elt F)),
    binary main_v1003 main_v935 main_v1004 (subf : (⟨S524288, .f32⟩ : BufTy).Contents (Elt F) → (⟨S524288, .f32⟩ : BufTy).Contents (Elt F) → (⟨S524288, .f32⟩ : BufTy).Contents (Elt F)),
    unary main_v1004 main_v1005 (broadcastInDim S1x524288 ![1] bcast_S524288_S1x524288_1 : (⟨S524288, .f32⟩ : BufTy).Contents (Elt F) → (⟨S1x524288, .f32⟩ : BufTy).Contents (Elt F)),
    unary main_v1005 main_v1006 (broadcastInDim S32x524288 ![0, 1] bcast_S1x524288_S32x524288_0_1 : (⟨S1x524288, .f32⟩ : BufTy).Contents (Elt F) → (⟨S32x524288, .f32⟩ : BufTy).Contents (Elt F)),
    binary main_v960 main_v1006 main_v1007 (mulf : (⟨S32x524288, .f32⟩ : BufTy).Contents (Elt F) → (⟨S32x524288, .f32⟩ : BufTy).Contents (Elt F) → (⟨S32x524288, .f32⟩ : BufTy).Contents (Elt F)),
    unary main_v935 main_v1008 (broadcastInDim S1x524288 ![1] bcast_S524288_S1x524288_1 : (⟨S524288, .f32⟩ : BufTy).Contents (Elt F) → (⟨S1x524288, .f32⟩ : BufTy).Contents (Elt F)),
    unary main_v1008 main_v1009 (broadcastInDim S32x524288 ![0, 1] bcast_S1x524288_S32x524288_0_1 : (⟨S1x524288, .f32⟩ : BufTy).Contents (Elt F) → (⟨S32x524288, .f32⟩ : BufTy).Contents (Elt F)),
    binary main_v974 main_v1009 main_v1010 (mulf : (⟨S32x524288, .f32⟩ : BufTy).Contents (Elt F) → (⟨S32x524288, .f32⟩ : BufTy).Contents (Elt F) → (⟨S32x524288, .f32⟩ : BufTy).Contents (Elt F)),
    binary main_v1007 main_v1010 main_v1011 (addf : (⟨S32x524288, .f32⟩ : BufTy).Contents (Elt F) → (⟨S32x524288, .f32⟩ : BufTy).Contents (Elt F) → (⟨S32x524288, .f32⟩ : BufTy).Contents (Elt F)),
    nullary main_cst_314 (constant S_ .f32 0x3F800000#32),
    unary main_cst_314 main_v1012 (broadcastInDim S524288 ![] bcast_S_S524288 : (⟨S_, .f32⟩ : BufTy).Contents (Elt F) → (⟨S524288, .f32⟩ : BufTy).Contents (Elt F)),
    binary main_v1012 main_v935 main_v1013 (subf : (⟨S524288, .f32⟩ : BufTy).Contents (Elt F) → (⟨S524288, .f32⟩ : BufTy).Contents (Elt F) → (⟨S524288, .f32⟩ : BufTy).Contents (Elt F)),
    unary main_v1013 main_v1014 (broadcastInDim S1x524288 ![1] bcast_S524288_S1x524288_1 : (⟨S524288, .f32⟩ : BufTy).Contents (Elt F) → (⟨S1x524288, .f32⟩ : BufTy).Contents (Elt F)),
    unary main_v1014 main_v1015 (broadcastInDim S32x524288 ![0, 1] bcast_S1x524288_S32x524288_0_1 : (⟨S1x524288, .f32⟩ : BufTy).Contents (Elt F) → (⟨S32x524288, .f32⟩ : BufTy).Contents (Elt F)),
    binary main_v988 main_v1015 main_v1016 (mulf : (⟨S32x524288, .f32⟩ : BufTy).Contents (Elt F) → (⟨S32x524288, .f32⟩ : BufTy).Contents (Elt F) → (⟨S32x524288, .f32⟩ : BufTy).Contents (Elt F)),
    unary main_v935 main_v1017 (broadcastInDim S1x524288 ![1] bcast_S524288_S1x524288_1 : (⟨S524288, .f32⟩ : BufTy).Contents (Elt F) → (⟨S1x524288, .f32⟩ : BufTy).Contents (Elt F)),
    unary main_v1017 main_v1018 (broadcastInDim S32x524288 ![0, 1] bcast_S1x524288_S32x524288_0_1 : (⟨S1x524288, .f32⟩ : BufTy).Contents (Elt F) → (⟨S32x524288, .f32⟩ : BufTy).Contents (Elt F)),
    binary main_v1002 main_v1018 main_v1019 (mulf : (⟨S32x524288, .f32⟩ : BufTy).Contents (Elt F) → (⟨S32x524288, .f32⟩ : BufTy).Contents (Elt F) → (⟨S32x524288, .f32⟩ : BufTy).Contents (Elt F)),
    binary main_v1016 main_v1019 main_v1020 (addf : (⟨S32x524288, .f32⟩ : BufTy).Contents (Elt F) → (⟨S32x524288, .f32⟩ : BufTy).Contents (Elt F) → (⟨S32x524288, .f32⟩ : BufTy).Contents (Elt F)),
    nullary main_cst_315 (constant S_ .f32 0x3F800000#32),
    unary main_cst_315 main_v1021 (broadcastInDim S524288 ![] bcast_S_S524288 : (⟨S_, .f32⟩ : BufTy).Contents (Elt F) → (⟨S524288, .f32⟩ : BufTy).Contents (Elt F)) ]

set_option maxRecDepth 8192 in
set_option maxHeartbeats 40000000 in
/-- After the stretch, main_v1011 holds its stage of the arguments, given that the buffers the stretch reads from before it hold theirs. -/
theorem ck38_main_v1011 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v960) = (val_main_v960 (F := F) x0 x9))
    (h1 : W (Proc.devRef .tc main_v935) = (val_main_v935 (F := F) x0))
    (h2 : W (Proc.devRef .tc main_v974) = (val_main_v974 (F := F) x0 x9)) :
    after ck38 W (Proc.devRef .tc main_v1011) = (val_main_v1011 (F := F) x0 x9) := by
  after_results_simp
  try simp only [val_main_v1011, val_main_v1010, val_main_v1009, val_main_v1008, val_main_v1007, val_main_v1006, val_main_v1005, val_main_v1004, val_main_v1003, val_main_cst_313]
  try rw [← h0]
  try rw [← h1]
  try rw [← h2]
  try rfl

set_option maxRecDepth 8192 in
set_option maxHeartbeats 40000000 in
/-- After the stretch, main_v1020 holds its stage of the arguments, given that the buffers the stretch reads from before it hold theirs. -/
theorem ck38_main_v1020 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v988) = (val_main_v988 (F := F) x0 x9))
    (h1 : W (Proc.devRef .tc main_v935) = (val_main_v935 (F := F) x0))
    (h2 : W (Proc.devRef .tc main_arg9) = x9)
    (h3 : W (Proc.devRef .tc main_v946) = (val_main_v946 (F := F) x0))
    (h4 : W (Proc.devRef .tc main_v941) = (val_main_v941 (F := F) x0)) :
    after ck38 W (Proc.devRef .tc main_v1020) = (val_main_v1020 (F := F) x0 x9) := by
  after_results_simp
  try simp only [val_main_v1020, val_main_v1019, val_main_v1018, val_main_v1017, val_main_v1016, val_main_v1015, val_main_v1014, val_main_v1013, val_main_v1012, val_main_cst_314, val_main_v1002, val_main_v1001, val_main_v1000, val_main_v999, val_main_v998, val_main_v997, val_main_v996, val_main_c_312, val_main_v995, val_main_v994, val_main_c_311, val_main_v993, val_main_v992, val_main_v991, val_main_c_310, val_main_v990, val_main_v989, val_main_c_309]
  try rw [← h0]
  try rw [← h1]
  try rw [← h2]
  try rw [← h3]
  try rw [← h4]
  try rfl

set_option maxRecDepth 8192 in
set_option maxHeartbeats 40000000 in
/-- After the stretch, main_v1021 holds its stage of the arguments, given that the buffers the stretch reads from before it hold theirs. -/
theorem ck38_main_v1021 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
     :
    after ck38 W (Proc.devRef .tc main_v1021) = (val_main_v1021 (F := F)) := by
  after_results_simp
  try simp only [val_main_v1021, val_main_cst_315]

  try rfl

set_option maxRecDepth 8192 in
set_option maxHeartbeats 40000000 in
/-- The stretch does not write main_arg0. -/
theorem ck38_pass_main_arg0 (W : Valuation τ sig (Elt F)) : after ck38 W (Proc.devRef .tc main_arg0) = W (Proc.devRef .tc main_arg0) := by
  after_results_simp <;> rfl

set_option maxRecDepth 8192 in
set_option maxHeartbeats 40000000 in
/-- The stretch does not write main_arg1. -/
theorem ck38_pass_main_arg1 (W : Valuation τ sig (Elt F)) : after ck38 W (Proc.devRef .tc main_arg1) = W (Proc.devRef .tc main_arg1) := by
  after_results_simp <;> rfl

set_option maxRecDepth 8192 in
set_option maxHeartbeats 40000000 in
/-- The stretch does not write main_arg2. -/
theorem ck38_pass_main_arg2 (W : Valuation τ sig (Elt F)) : after ck38 W (Proc.devRef .tc main_arg2) = W (Proc.devRef .tc main_arg2) := by
  after_results_simp <;> rfl

set_option maxRecDepth 8192 in
set_option maxHeartbeats 40000000 in
/-- The stretch does not write main_arg3. -/
theorem ck38_pass_main_arg3 (W : Valuation τ sig (Elt F)) : after ck38 W (Proc.devRef .tc main_arg3) = W (Proc.devRef .tc main_arg3) := by
  after_results_simp <;> rfl

set_option maxRecDepth 8192 in
set_option maxHeartbeats 40000000 in
/-- The stretch does not write main_arg4. -/
theorem ck38_pass_main_arg4 (W : Valuation τ sig (Elt F)) : after ck38 W (Proc.devRef .tc main_arg4) = W (Proc.devRef .tc main_arg4) := by
  after_results_simp <;> rfl

set_option maxRecDepth 8192 in
set_option maxHeartbeats 40000000 in
/-- The stretch does not write main_arg5. -/
theorem ck38_pass_main_arg5 (W : Valuation τ sig (Elt F)) : after ck38 W (Proc.devRef .tc main_arg5) = W (Proc.devRef .tc main_arg5) := by
  after_results_simp <;> rfl

set_option maxRecDepth 8192 in
set_option maxHeartbeats 40000000 in
/-- The stretch does not write main_arg6. -/
theorem ck38_pass_main_arg6 (W : Valuation τ sig (Elt F)) : after ck38 W (Proc.devRef .tc main_arg6) = W (Proc.devRef .tc main_arg6) := by
  after_results_simp <;> rfl

set_option maxRecDepth 8192 in
set_option maxHeartbeats 40000000 in
/-- The stretch does not write main_arg7. -/
theorem ck38_pass_main_arg7 (W : Valuation τ sig (Elt F)) : after ck38 W (Proc.devRef .tc main_arg7) = W (Proc.devRef .tc main_arg7) := by
  after_results_simp <;> rfl

set_option maxRecDepth 8192 in
set_option maxHeartbeats 40000000 in
/-- The stretch does not write main_arg8. -/
theorem ck38_pass_main_arg8 (W : Valuation τ sig (Elt F)) : after ck38 W (Proc.devRef .tc main_arg8) = W (Proc.devRef .tc main_arg8) := by
  after_results_simp <;> rfl

set_option maxRecDepth 8192 in
set_option maxHeartbeats 40000000 in
/-- The stretch does not write main_arg9. -/
theorem ck38_pass_main_arg9 (W : Valuation τ sig (Elt F)) : after ck38 W (Proc.devRef .tc main_arg9) = W (Proc.devRef .tc main_arg9) := by
  after_results_simp <;> rfl

set_option maxRecDepth 8192 in
set_option maxHeartbeats 40000000 in
/-- The stretch does not write main_v936. -/
theorem ck38_pass_main_v936 (W : Valuation τ sig (Elt F)) : after ck38 W (Proc.devRef .tc main_v936) = W (Proc.devRef .tc main_v936) := by
  after_results_simp <;> rfl

set_option maxRecDepth 8192 in
set_option maxHeartbeats 40000000 in
/-- The stretch does not write main_v916. -/
theorem ck38_pass_main_v916 (W : Valuation τ sig (Elt F)) : after ck38 W (Proc.devRef .tc main_v916) = W (Proc.devRef .tc main_v916) := by
  after_results_simp <;> rfl

set_option maxRecDepth 8192 in
set_option maxHeartbeats 40000000 in
/-- The stretch does not write main_v343. -/
theorem ck38_pass_main_v343 (W : Valuation τ sig (Elt F)) : after ck38 W (Proc.devRef .tc main_v343) = W (Proc.devRef .tc main_v343) := by
  after_results_simp <;> rfl

set_option maxRecDepth 8192 in
set_option maxHeartbeats 40000000 in
/-- The stretch does not write main_v687. -/
theorem ck38_pass_main_v687 (W : Valuation τ sig (Elt F)) : after ck38 W (Proc.devRef .tc main_v687) = W (Proc.devRef .tc main_v687) := by
  after_results_simp <;> rfl

end Cert.ReferenceIdeal.Seg

end
-- ==== Proof.RefCk39.lean ====
/-
  The reference's host operations 1521 to 1531 of 1531, as one stretch of its run.

  From ANY contents W of the buffers: after the stretch each buffer it writes that is read later holds that buffer's stage
  of the arguments (the reference's operations composed, read one operation at a time), provided the buffers the stretch
  reads from before it hold theirs in W; and each buffer the stretch does not write is as it was in W.
-/
import proofs.«123486_j78099685310709_1_alg».proof.Proof.RefRead

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The stretch's operations, in order. -/
abbrev ck39 : List (HloOp τ sig (Elt F)) :=
  [ binary main_v1021 main_v936 main_v1022 (subf : (⟨S524288, .f32⟩ : BufTy).Contents (Elt F) → (⟨S524288, .f32⟩ : BufTy).Contents (Elt F) → (⟨S524288, .f32⟩ : BufTy).Contents (Elt F)),
    unary main_v1022 main_v1023 (broadcastInDim S1x524288 ![1] bcast_S524288_S1x524288_1 : (⟨S524288, .f32⟩ : BufTy).Contents (Elt F) → (⟨S1x524288, .f32⟩ : BufTy).Contents (Elt F)),
    unary main_v1023 main_v1024 (broadcastInDim S32x524288 ![0, 1] bcast_S1x524288_S32x524288_0_1 : (⟨S1x524288, .f32⟩ : BufTy).Contents (Elt F) → (⟨S32x524288, .f32⟩ : BufTy).Contents (Elt F)),
    binary main_v1011 main_v1024 main_v1025 (mulf : (⟨S32x524288, .f32⟩ : BufTy).Contents (Elt F) → (⟨S32x524288, .f32⟩ : BufTy).Contents (Elt F) → (⟨S32x524288, .f32⟩ : BufTy).Contents (Elt F)),
    unary main_v936 main_v1026 (broadcastInDim S1x524288 ![1] bcast_S524288_S1x524288_1 : (⟨S524288, .f32⟩ : BufTy).Contents (Elt F) → (⟨S1x524288, .f32⟩ : BufTy).Contents (Elt F)),
    unary main_v1026 main_v1027 (broadcastInDim S32x524288 ![0, 1] bcast_S1x524288_S32x524288_0_1 : (⟨S1x524288, .f32⟩ : BufTy).Contents (Elt F) → (⟨S32x524288, .f32⟩ : BufTy).Contents (Elt F)),
    binary main_v1020 main_v1027 main_v1028 (mulf : (⟨S32x524288, .f32⟩ : BufTy).Contents (Elt F) → (⟨S32x524288, .f32⟩ : BufTy).Contents (Elt F) → (⟨S32x524288, .f32⟩ : BufTy).Contents (Elt F)),
    binary main_v1025 main_v1028 main_v1029 (addf : (⟨S32x524288, .f32⟩ : BufTy).Contents (Elt F) → (⟨S32x524288, .f32⟩ : BufTy).Contents (Elt F) → (⟨S32x524288, .f32⟩ : BufTy).Contents (Elt F)),
    binary main_v916 main_v1029 main_v1030 (mulf : (⟨S32x524288, .f32⟩ : BufTy).Contents (Elt F) → (⟨S32x524288, .f32⟩ : BufTy).Contents (Elt F) → (⟨S32x524288, .f32⟩ : BufTy).Contents (Elt F)),
    unary main_v1030 main_v1031 ((transpose S524288x32 [1, 0] · transposes_S32x524288_S524288x32_1_0) : (⟨S32x524288, .f32⟩ : BufTy).Contents (Elt F) → (⟨S524288x32, .f32⟩ : BufTy).Contents (Elt F)),
    nary ![main_v343, main_v687, main_v1031] main_v1032 (fun u => concatenate S524288x96 1 [⟨S524288x32, u 0⟩, ⟨S524288x32, u 1⟩, ⟨S524288x32, u 2⟩] concatenates_S524288x32_S524288x32_S524288x32_S524288x96_d1) ]

set_option maxRecDepth 8192 in
set_option maxHeartbeats 40000000 in
/-- After the stretch, main_v1032 holds its stage of the arguments, given that the buffers the stretch reads from before it hold theirs. -/
theorem ck39_main_v1032 (W : Valuation τ sig (Elt F)) (x0 : (⟨S524288x3, .f32⟩ : BufTy).Contents (Elt F)) (x1 x2 x3 : (⟨S32x64x64, .f32⟩ : BufTy).Contents (Elt F)) (x4 x5 x6 : (⟨S32x128x128, .f32⟩ : BufTy).Contents (Elt F)) (x7 x8 x9 : (⟨S32x256x256, .f32⟩ : BufTy).Contents (Elt F))
    (h0 : W (Proc.devRef .tc main_v343) = (val_main_v343 (F := F) x0 x1 x2 x3))
    (h1 : W (Proc.devRef .tc main_v687) = (val_main_v687 (F := F) x0 x4 x5 x6))
    (h2 : W (Proc.devRef .tc main_v916) = (val_main_v916 (F := F) x0 x7 x8))
    (h3 : W (Proc.devRef .tc main_v1011) = (val_main_v1011 (F := F) x0 x9))
    (h4 : W (Proc.devRef .tc main_v1021) = (val_main_v1021 (F := F)))
    (h5 : W (Proc.devRef .tc main_v936) = (val_main_v936 (F := F) x0))
    (h6 : W (Proc.devRef .tc main_v1020) = (val_main_v1020 (F := F) x0 x9)) :
    after ck39 W (Proc.devRef .tc main_v1032) = (val_main_v1032 (F := F) x0 x1 x2 x3 x4 x5 x6 x7 x8 x9) := by
  after_results_simp
  try simp only [val_main_v1032, val_main_v1031, val_main_v1030, val_main_v1029, val_main_v1028, val_main_v1027, val_main_v1026, val_main_v1025, val_main_v1024, val_main_v1023, val_main_v1022]
  try rw [← h0]
  try rw [← h1]
  try rw [← h2]
  try rw [← h3]
  try rw [← h4]
  try rw [← h5]
  try rw [← h6]
  try rfl

set_option maxRecDepth 8192 in
set_option maxHeartbeats 40000000 in
/-- The stretch does not write main_arg0. -/
theorem ck39_pass_main_arg0 (W : Valuation τ sig (Elt F)) : after ck39 W (Proc.devRef .tc main_arg0) = W (Proc.devRef .tc main_arg0) := by
  after_results_simp <;> rfl

set_option maxRecDepth 8192 in
set_option maxHeartbeats 40000000 in
/-- The stretch does not write main_arg1. -/
theorem ck39_pass_main_arg1 (W : Valuation τ sig (Elt F)) : after ck39 W (Proc.devRef .tc main_arg1) = W (Proc.devRef .tc main_arg1) := by
  after_results_simp <;> rfl

set_option maxRecDepth 8192 in
set_option maxHeartbeats 40000000 in
/-- The stretch does not write main_arg2. -/
theorem ck39_pass_main_arg2 (W : Valuation τ sig (Elt F)) : after ck39 W (Proc.devRef .tc main_arg2) = W (Proc.devRef .tc main_arg2) := by
  after_results_simp <;> rfl

set_option maxRecDepth 8192 in
set_option maxHeartbeats 40000000 in
/-- The stretch does not write main_arg3. -/
theorem ck39_pass_main_arg3 (W : Valuation τ sig (Elt F)) : after ck39 W (Proc.devRef .tc main_arg3) = W (Proc.devRef .tc main_arg3) := by
  after_results_simp <;> rfl

set_option maxRecDepth 8192 in
set_option maxHeartbeats 40000000 in
/-- The stretch does not write main_arg4. -/
theorem ck39_pass_main_arg4 (W : Valuation τ sig (Elt F)) : after ck39 W (Proc.devRef .tc main_arg4) = W (Proc.devRef .tc main_arg4) := by
  after_results_simp <;> rfl

set_option maxRecDepth 8192 in
set_option maxHeartbeats 40000000 in
/-- The stretch does not write main_arg5. -/
theorem ck39_pass_main_arg5 (W : Valuation τ sig (Elt F)) : after ck39 W (Proc.devRef .tc main_arg5) = W (Proc.devRef .tc main_arg5) := by
  after_results_simp <;> rfl

set_option maxRecDepth 8192 in
set_option maxHeartbeats 40000000 in
/-- The stretch does not write main_arg6. -/
theorem ck39_pass_main_arg6 (W : Valuation τ sig (Elt F)) : after ck39 W (Proc.devRef .tc main_arg6) = W (Proc.devRef .tc main_arg6) := by
  after_results_simp <;> rfl

set_option maxRecDepth 8192 in
set_option maxHeartbeats 40000000 in
/-- The stretch does not write main_arg7. -/
theorem ck39_pass_main_arg7 (W : Valuation τ sig (Elt F)) : after ck39 W (Proc.devRef .tc main_arg7) = W (Proc.devRef .tc main_arg7) := by
  after_results_simp <;> rfl

set_option maxRecDepth 8192 in
set_option maxHeartbeats 40000000 in
/-- The stretch does not write main_arg8. -/
theorem ck39_pass_main_arg8 (W : Valuation τ sig (Elt F)) : after ck39 W (Proc.devRef .tc main_arg8) = W (Proc.devRef .tc main_arg8) := by
  after_results_simp <;> rfl

set_option maxRecDepth 8192 in
set_option maxHeartbeats 40000000 in
/-- The stretch does not write main_arg9. -/
theorem ck39_pass_main_arg9 (W : Valuation τ sig (Elt F)) : after ck39 W (Proc.devRef .tc main_arg9) = W (Proc.devRef .tc main_arg9) := by
  after_results_simp <;> rfl

end Cert.ReferenceIdeal.Seg

end
-- ==== Proof.RefCkRun.lean ====
/-
  The reference's run, stretch by stretch.

  The reference's 1531 host operations are cut into 39 stretches of 40. Each stretch, from any contents of the buffers,
  leaves each buffer it writes that is read later at that buffer's stage of the arguments — given that the buffers it reads
  from before it hold theirs — and does not touch the buffers it does not write. Going through the stretches in order, every
  buffer that is still to be read holds its stage; at the end the result buffer holds the reference's value of the
  arguments, and the arguments are as they were.
-/
import proofs.«123486_j78099685310709_1_alg».proof.Proof.RefOps
import proofs.«123486_j78099685310709_1_alg».proof.Proof.RefCk1
import proofs.«123486_j78099685310709_1_alg».proof.Proof.RefCk2
import proofs.«123486_j78099685310709_1_alg».proof.Proof.RefCk3
import proofs.«123486_j78099685310709_1_alg».proof.Proof.RefCk4
import proofs.«123486_j78099685310709_1_alg».proof.Proof.RefCk5
import proofs.«123486_j78099685310709_1_alg».proof.Proof.RefCk6
import proofs.«123486_j78099685310709_1_alg».proof.Proof.RefCk7
import proofs.«123486_j78099685310709_1_alg».proof.Proof.RefCk8
import proofs.«123486_j78099685310709_1_alg».proof.Proof.RefCk9
import proofs.«123486_j78099685310709_1_alg».proof.Proof.RefCk10
import proofs.«123486_j78099685310709_1_alg».proof.Proof.RefCk11
import proofs.«123486_j78099685310709_1_alg».proof.Proof.RefCk12
import proofs.«123486_j78099685310709_1_alg».proof.Proof.RefCk13
import proofs.«123486_j78099685310709_1_alg».proof.Proof.RefCk14
import proofs.«123486_j78099685310709_1_alg».proof.Proof.RefCk15
import proofs.«123486_j78099685310709_1_alg».proof.Proof.RefCk16
import proofs.«123486_j78099685310709_1_alg».proof.Proof.RefCk17
import proofs.«123486_j78099685310709_1_alg».proof.Proof.RefCk18
import proofs.«123486_j78099685310709_1_alg».proof.Proof.RefCk19
import proofs.«123486_j78099685310709_1_alg».proof.Proof.RefCk20
import proofs.«123486_j78099685310709_1_alg».proof.Proof.RefCk21
import proofs.«123486_j78099685310709_1_alg».proof.Proof.RefCk22
import proofs.«123486_j78099685310709_1_alg».proof.Proof.RefCk23
import proofs.«123486_j78099685310709_1_alg».proof.Proof.RefCk24
import proofs.«123486_j78099685310709_1_alg».proof.Proof.RefCk25
import proofs.«123486_j78099685310709_1_alg».proof.Proof.RefCk26
import proofs.«123486_j78099685310709_1_alg».proof.Proof.RefCk27
import proofs.«123486_j78099685310709_1_alg».proof.Proof.RefCk28
import proofs.«123486_j78099685310709_1_alg».proof.Proof.RefCk29
import proofs.«123486_j78099685310709_1_alg».proof.Proof.RefCk30
import proofs.«123486_j78099685310709_1_alg».proof.Proof.RefCk31
import proofs.«123486_j78099685310709_1_alg».proof.Proof.RefCk32
import proofs.«123486_j78099685310709_1_alg».proof.Proof.RefCk33
import proofs.«123486_j78099685310709_1_alg».proof.Proof.RefCk34
import proofs.«123486_j78099685310709_1_alg».proof.Proof.RefCk35
import proofs.«123486_j78099685310709_1_alg».proof.Proof.RefCk36
import proofs.«123486_j78099685310709_1_alg».proof.Proof.RefCk37
import proofs.«123486_j78099685310709_1_alg».proof.Proof.RefCk38
import proofs.«123486_j78099685310709_1_alg».proof.Proof.RefCk39

noncomputable section

namespace Cert.ReferenceIdeal.Seg

open Cert.ReferenceIdeal Cert.ReferenceIdeal.Gen Cert.ReferenceIdeal.Read Idealize.ShloMosaic Idealize.ShloMosaic.TcCoe Idealize.SL.Sem Idealize.ShloMosaic.StableHlo
open Cert.ReferenceIdeal.Value

variable {F : FTy → Type} [FloatOps F]

/-- Running one stretch after another: the second runs from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

set_option maxRecDepth 100000 in
set_option maxHeartbeats 400000000 in
/-- The reference's operations are the stretches, one after the other. -/
theorem ops_split : (ops : List (HloOp τ sig (Elt F))) = ck1 ++ (ck2 ++ (ck3 ++ (ck4 ++ (ck5 ++ (ck6 ++ (ck7 ++ (ck8 ++ (ck9 ++ (ck10 ++ (ck11 ++ (ck12 ++ (ck13 ++ (ck14 ++ (ck15 ++ (ck16 ++ (ck17 ++ (ck18 ++ (ck19 ++ (ck20 ++ (ck21 ++ (ck22 ++ (ck23 ++ (ck24 ++ (ck25 ++ (ck26 ++ (ck27 ++ (ck28 ++ (ck29 ++ (ck30 ++ (ck31 ++ (ck32 ++ (ck33 ++ (ck34 ++ (ck35 ++ (ck36 ++ (ck37 ++ (ck38 ++ (ck39)))))))))))))))))))))))))))))))))))))) := rfl

set_option maxRecDepth 100000 in
set_option maxHeartbeats 400000000 in
/-- After all the operations the result buffer holds the reference's value of the argument buffers' contents, and the
    argument buffers are as they were: stretch by stretch, each buffer that is read later holds its stage of the arguments. -/
theorem after_ops (V : Valuation τ sig (Elt F)) :
    after ops V (Proc.devRef .tc main_v1032) = val_main_v1032 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
    ∧ after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7)
    ∧ after ops V (Proc.devRef .tc main_arg8) = V (Proc.devRef .tc main_arg8)
    ∧ after ops V (Proc.devRef .tc main_arg9) = V (Proc.devRef .tc main_arg9) := by
  rw [ops_split]
  simp only [after_append]
  have f0_main_arg0 : V (Proc.devRef .tc main_arg0) = V (Proc.devRef .tc main_arg0) := rfl
  have f0_main_arg1 : V (Proc.devRef .tc main_arg1) = V (Proc.devRef .tc main_arg1) := rfl
  have f0_main_arg2 : V (Proc.devRef .tc main_arg2) = V (Proc.devRef .tc main_arg2) := rfl
  have f0_main_arg3 : V (Proc.devRef .tc main_arg3) = V (Proc.devRef .tc main_arg3) := rfl
  have f0_main_arg4 : V (Proc.devRef .tc main_arg4) = V (Proc.devRef .tc main_arg4) := rfl
  have f0_main_arg5 : V (Proc.devRef .tc main_arg5) = V (Proc.devRef .tc main_arg5) := rfl
  have f0_main_arg6 : V (Proc.devRef .tc main_arg6) = V (Proc.devRef .tc main_arg6) := rfl
  have f0_main_arg7 : V (Proc.devRef .tc main_arg7) = V (Proc.devRef .tc main_arg7) := rfl
  have f0_main_arg8 : V (Proc.devRef .tc main_arg8) = V (Proc.devRef .tc main_arg8) := rfl
  have f0_main_arg9 : V (Proc.devRef .tc main_arg9) = V (Proc.devRef .tc main_arg9) := rfl
  have f1_main_v17 : after ck1 V (Proc.devRef .tc main_v17) = (val_main_v17 (F := F) (V (Proc.devRef .tc main_arg0))) := ck1_main_v17 V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f0_main_arg0
  have f1_main_v18 : after ck1 V (Proc.devRef .tc main_v18) = (val_main_v18 (F := F) (V (Proc.devRef .tc main_arg0))) := ck1_main_v18 V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f0_main_arg0
  have f1_main_v19 : after ck1 V (Proc.devRef .tc main_v19) = (val_main_v19 (F := F) (V (Proc.devRef .tc main_arg0))) := ck1_main_v19 V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f0_main_arg0
  have f1_main_v21 : after ck1 V (Proc.devRef .tc main_v21) = (val_main_v21 (F := F) (V (Proc.devRef .tc main_arg0))) := ck1_main_v21 V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f0_main_arg0
  have f1_main_v23 : after ck1 V (Proc.devRef .tc main_v23) = (val_main_v23 (F := F) (V (Proc.devRef .tc main_arg0))) := ck1_main_v23 V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f0_main_arg0
  have f1_main_c_7 : after ck1 V (Proc.devRef .tc main_c_7) = (val_main_c_7 (F := F)) := ck1_main_c_7 V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f1_main_c_8 : after ck1 V (Proc.devRef .tc main_c_8) = (val_main_c_8 (F := F)) := ck1_main_c_8 V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f1_main_arg0 : after ck1 V (Proc.devRef .tc main_arg0) = (V (Proc.devRef .tc main_arg0)) := (ck1_pass_main_arg0 V).trans f0_main_arg0
  have f1_main_arg1 : after ck1 V (Proc.devRef .tc main_arg1) = (V (Proc.devRef .tc main_arg1)) := (ck1_pass_main_arg1 V).trans f0_main_arg1
  have f1_main_arg2 : after ck1 V (Proc.devRef .tc main_arg2) = (V (Proc.devRef .tc main_arg2)) := (ck1_pass_main_arg2 V).trans f0_main_arg2
  have f1_main_arg3 : after ck1 V (Proc.devRef .tc main_arg3) = (V (Proc.devRef .tc main_arg3)) := (ck1_pass_main_arg3 V).trans f0_main_arg3
  have f1_main_arg4 : after ck1 V (Proc.devRef .tc main_arg4) = (V (Proc.devRef .tc main_arg4)) := (ck1_pass_main_arg4 V).trans f0_main_arg4
  have f1_main_arg5 : after ck1 V (Proc.devRef .tc main_arg5) = (V (Proc.devRef .tc main_arg5)) := (ck1_pass_main_arg5 V).trans f0_main_arg5
  have f1_main_arg6 : after ck1 V (Proc.devRef .tc main_arg6) = (V (Proc.devRef .tc main_arg6)) := (ck1_pass_main_arg6 V).trans f0_main_arg6
  have f1_main_arg7 : after ck1 V (Proc.devRef .tc main_arg7) = (V (Proc.devRef .tc main_arg7)) := (ck1_pass_main_arg7 V).trans f0_main_arg7
  have f1_main_arg8 : after ck1 V (Proc.devRef .tc main_arg8) = (V (Proc.devRef .tc main_arg8)) := (ck1_pass_main_arg8 V).trans f0_main_arg8
  have f1_main_arg9 : after ck1 V (Proc.devRef .tc main_arg9) = (V (Proc.devRef .tc main_arg9)) := (ck1_pass_main_arg9 V).trans f0_main_arg9
  generalize after ck1 V = W1 at f1_main_v17 f1_main_v18 f1_main_v19 f1_main_v21 f1_main_v23 f1_main_c_7 f1_main_c_8 f1_main_arg0 f1_main_arg1 f1_main_arg2 f1_main_arg3 f1_main_arg4 f1_main_arg5 f1_main_arg6 f1_main_arg7 f1_main_arg8 f1_main_arg9 ⊢
  clear f0_main_arg0 f0_main_arg1 f0_main_arg2 f0_main_arg3 f0_main_arg4 f0_main_arg5 f0_main_arg6 f0_main_arg7 f0_main_arg8 f0_main_arg9
  have f2_main_v24 : after ck2 W1 (Proc.devRef .tc main_v24) = (val_main_v24 (F := F) (V (Proc.devRef .tc main_arg0))) := ck2_main_v24 W1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f1_main_c_8 f1_main_c_7 f1_main_v23
  have f2_main_v26 : after ck2 W1 (Proc.devRef .tc main_v26) = (val_main_v26 (F := F) (V (Proc.devRef .tc main_arg0))) := ck2_main_v26 W1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f1_main_v17
  have f2_main_v29 : after ck2 W1 (Proc.devRef .tc main_v29) = (val_main_v29 (F := F) (V (Proc.devRef .tc main_arg0))) := ck2_main_v29 W1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f1_main_v17
  have f2_main_v34 : after ck2 W1 (Proc.devRef .tc main_v34) = (val_main_v34 (F := F) (V (Proc.devRef .tc main_arg0))) := ck2_main_v34 W1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f1_main_v17
  have f2_main_v39 : after ck2 W1 (Proc.devRef .tc main_v39) = (val_main_v39 (F := F) (V (Proc.devRef .tc main_arg0))) := ck2_main_v39 W1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f1_main_v21
  have f2_main_arg0 : after ck2 W1 (Proc.devRef .tc main_arg0) = (V (Proc.devRef .tc main_arg0)) := (ck2_pass_main_arg0 W1).trans f1_main_arg0
  have f2_main_v21 : after ck2 W1 (Proc.devRef .tc main_v21) = (val_main_v21 (F := F) (V (Proc.devRef .tc main_arg0))) := (ck2_pass_main_v21 W1).trans f1_main_v21
  have f2_main_arg1 : after ck2 W1 (Proc.devRef .tc main_arg1) = (V (Proc.devRef .tc main_arg1)) := (ck2_pass_main_arg1 W1).trans f1_main_arg1
  have f2_main_v18 : after ck2 W1 (Proc.devRef .tc main_v18) = (val_main_v18 (F := F) (V (Proc.devRef .tc main_arg0))) := (ck2_pass_main_v18 W1).trans f1_main_v18
  have f2_main_v19 : after ck2 W1 (Proc.devRef .tc main_v19) = (val_main_v19 (F := F) (V (Proc.devRef .tc main_arg0))) := (ck2_pass_main_v19 W1).trans f1_main_v19
  have f2_main_arg2 : after ck2 W1 (Proc.devRef .tc main_arg2) = (V (Proc.devRef .tc main_arg2)) := (ck2_pass_main_arg2 W1).trans f1_main_arg2
  have f2_main_arg3 : after ck2 W1 (Proc.devRef .tc main_arg3) = (V (Proc.devRef .tc main_arg3)) := (ck2_pass_main_arg3 W1).trans f1_main_arg3
  have f2_main_arg4 : after ck2 W1 (Proc.devRef .tc main_arg4) = (V (Proc.devRef .tc main_arg4)) := (ck2_pass_main_arg4 W1).trans f1_main_arg4
  have f2_main_arg5 : after ck2 W1 (Proc.devRef .tc main_arg5) = (V (Proc.devRef .tc main_arg5)) := (ck2_pass_main_arg5 W1).trans f1_main_arg5
  have f2_main_arg6 : after ck2 W1 (Proc.devRef .tc main_arg6) = (V (Proc.devRef .tc main_arg6)) := (ck2_pass_main_arg6 W1).trans f1_main_arg6
  have f2_main_arg7 : after ck2 W1 (Proc.devRef .tc main_arg7) = (V (Proc.devRef .tc main_arg7)) := (ck2_pass_main_arg7 W1).trans f1_main_arg7
  have f2_main_arg8 : after ck2 W1 (Proc.devRef .tc main_arg8) = (V (Proc.devRef .tc main_arg8)) := (ck2_pass_main_arg8 W1).trans f1_main_arg8
  have f2_main_arg9 : after ck2 W1 (Proc.devRef .tc main_arg9) = (V (Proc.devRef .tc main_arg9)) := (ck2_pass_main_arg9 W1).trans f1_main_arg9
  generalize after ck2 W1 = W2 at f2_main_v24 f2_main_v26 f2_main_v29 f2_main_v34 f2_main_v39 f2_main_arg0 f2_main_v21 f2_main_arg1 f2_main_v18 f2_main_v19 f2_main_arg2 f2_main_arg3 f2_main_arg4 f2_main_arg5 f2_main_arg6 f2_main_arg7 f2_main_arg8 f2_main_arg9 ⊢
  clear f1_main_v17 f1_main_v18 f1_main_v19 f1_main_v21 f1_main_v23 f1_main_c_7 f1_main_c_8 f1_main_arg0 f1_main_arg1 f1_main_arg2 f1_main_arg3 f1_main_arg4 f1_main_arg5 f1_main_arg6 f1_main_arg7 f1_main_arg8 f1_main_arg9
  have f3_main_v43 : after ck3 W2 (Proc.devRef .tc main_v43) = (val_main_v43 (F := F) (V (Proc.devRef .tc main_arg0)) (V (Proc.devRef .tc main_arg1))) := ck3_main_v43 W2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f2_main_arg1 f2_main_v34 f2_main_v39
  have f3_main_v57 : after ck3 W2 (Proc.devRef .tc main_v57) = (val_main_v57 (F := F) (V (Proc.devRef .tc main_arg0)) (V (Proc.devRef .tc main_arg1))) := ck3_main_v57 W2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f2_main_arg1 f2_main_v26 f2_main_v24
  have f3_main_v71 : after ck3 W2 (Proc.devRef .tc main_v71) = (val_main_v71 (F := F) (V (Proc.devRef .tc main_arg0)) (V (Proc.devRef .tc main_arg1))) := ck3_main_v71 W2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f2_main_arg1 f2_main_v29 f2_main_v21
  have f3_main_arg0 : after ck3 W2 (Proc.devRef .tc main_arg0) = (V (Proc.devRef .tc main_arg0)) := (ck3_pass_main_arg0 W2).trans f2_main_arg0
  have f3_main_arg1 : after ck3 W2 (Proc.devRef .tc main_arg1) = (V (Proc.devRef .tc main_arg1)) := (ck3_pass_main_arg1 W2).trans f2_main_arg1
  have f3_main_v24 : after ck3 W2 (Proc.devRef .tc main_v24) = (val_main_v24 (F := F) (V (Proc.devRef .tc main_arg0))) := (ck3_pass_main_v24 W2).trans f2_main_v24
  have f3_main_v29 : after ck3 W2 (Proc.devRef .tc main_v29) = (val_main_v29 (F := F) (V (Proc.devRef .tc main_arg0))) := (ck3_pass_main_v29 W2).trans f2_main_v29
  have f3_main_v18 : after ck3 W2 (Proc.devRef .tc main_v18) = (val_main_v18 (F := F) (V (Proc.devRef .tc main_arg0))) := (ck3_pass_main_v18 W2).trans f2_main_v18
  have f3_main_v19 : after ck3 W2 (Proc.devRef .tc main_v19) = (val_main_v19 (F := F) (V (Proc.devRef .tc main_arg0))) := (ck3_pass_main_v19 W2).trans f2_main_v19
  have f3_main_arg2 : after ck3 W2 (Proc.devRef .tc main_arg2) = (V (Proc.devRef .tc main_arg2)) := (ck3_pass_main_arg2 W2).trans f2_main_arg2
  have f3_main_arg3 : after ck3 W2 (Proc.devRef .tc main_arg3) = (V (Proc.devRef .tc main_arg3)) := (ck3_pass_main_arg3 W2).trans f2_main_arg3
  have f3_main_arg4 : after ck3 W2 (Proc.devRef .tc main_arg4) = (V (Proc.devRef .tc main_arg4)) := (ck3_pass_main_arg4 W2).trans f2_main_arg4
  have f3_main_arg5 : after ck3 W2 (Proc.devRef .tc main_arg5) = (V (Proc.devRef .tc main_arg5)) := (ck3_pass_main_arg5 W2).trans f2_main_arg5
  have f3_main_arg6 : after ck3 W2 (Proc.devRef .tc main_arg6) = (V (Proc.devRef .tc main_arg6)) := (ck3_pass_main_arg6 W2).trans f2_main_arg6
  have f3_main_arg7 : after ck3 W2 (Proc.devRef .tc main_arg7) = (V (Proc.devRef .tc main_arg7)) := (ck3_pass_main_arg7 W2).trans f2_main_arg7
  have f3_main_arg8 : after ck3 W2 (Proc.devRef .tc main_arg8) = (V (Proc.devRef .tc main_arg8)) := (ck3_pass_main_arg8 W2).trans f2_main_arg8
  have f3_main_arg9 : after ck3 W2 (Proc.devRef .tc main_arg9) = (V (Proc.devRef .tc main_arg9)) := (ck3_pass_main_arg9 W2).trans f2_main_arg9
  generalize after ck3 W2 = W3 at f3_main_v43 f3_main_v57 f3_main_v71 f3_main_arg0 f3_main_arg1 f3_main_v24 f3_main_v29 f3_main_v18 f3_main_v19 f3_main_arg2 f3_main_arg3 f3_main_arg4 f3_main_arg5 f3_main_arg6 f3_main_arg7 f3_main_arg8 f3_main_arg9 ⊢
  clear f2_main_v24 f2_main_v26 f2_main_v29 f2_main_v34 f2_main_v39 f2_main_arg0 f2_main_v21 f2_main_arg1 f2_main_v18 f2_main_v19 f2_main_arg2 f2_main_arg3 f2_main_arg4 f2_main_arg5 f2_main_arg6 f2_main_arg7 f2_main_arg8 f2_main_arg9
  have f4_main_v94 : after ck4 W3 (Proc.devRef .tc main_v94) = (val_main_v94 (F := F) (V (Proc.devRef .tc main_arg0)) (V (Proc.devRef .tc main_arg1))) := ck4_main_v94 W3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f3_main_v43 f3_main_v18 f3_main_v57
  have f4_main_v103 : after ck4 W3 (Proc.devRef .tc main_v103) = (val_main_v103 (F := F) (V (Proc.devRef .tc main_arg0)) (V (Proc.devRef .tc main_arg1))) := ck4_main_v103 W3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f3_main_v71 f3_main_v18 f3_main_arg1 f3_main_v29 f3_main_v24
  have f4_main_v104 : after ck4 W3 (Proc.devRef .tc main_v104) = (val_main_v104 (F := F)) := ck4_main_v104 W3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f4_main_arg0 : after ck4 W3 (Proc.devRef .tc main_arg0) = (V (Proc.devRef .tc main_arg0)) := (ck4_pass_main_arg0 W3).trans f3_main_arg0
  have f4_main_arg1 : after ck4 W3 (Proc.devRef .tc main_arg1) = (V (Proc.devRef .tc main_arg1)) := (ck4_pass_main_arg1 W3).trans f3_main_arg1
  have f4_main_v19 : after ck4 W3 (Proc.devRef .tc main_v19) = (val_main_v19 (F := F) (V (Proc.devRef .tc main_arg0))) := (ck4_pass_main_v19 W3).trans f3_main_v19
  have f4_main_arg2 : after ck4 W3 (Proc.devRef .tc main_arg2) = (V (Proc.devRef .tc main_arg2)) := (ck4_pass_main_arg2 W3).trans f3_main_arg2
  have f4_main_arg3 : after ck4 W3 (Proc.devRef .tc main_arg3) = (V (Proc.devRef .tc main_arg3)) := (ck4_pass_main_arg3 W3).trans f3_main_arg3
  have f4_main_arg4 : after ck4 W3 (Proc.devRef .tc main_arg4) = (V (Proc.devRef .tc main_arg4)) := (ck4_pass_main_arg4 W3).trans f3_main_arg4
  have f4_main_arg5 : after ck4 W3 (Proc.devRef .tc main_arg5) = (V (Proc.devRef .tc main_arg5)) := (ck4_pass_main_arg5 W3).trans f3_main_arg5
  have f4_main_arg6 : after ck4 W3 (Proc.devRef .tc main_arg6) = (V (Proc.devRef .tc main_arg6)) := (ck4_pass_main_arg6 W3).trans f3_main_arg6
  have f4_main_arg7 : after ck4 W3 (Proc.devRef .tc main_arg7) = (V (Proc.devRef .tc main_arg7)) := (ck4_pass_main_arg7 W3).trans f3_main_arg7
  have f4_main_arg8 : after ck4 W3 (Proc.devRef .tc main_arg8) = (V (Proc.devRef .tc main_arg8)) := (ck4_pass_main_arg8 W3).trans f3_main_arg8
  have f4_main_arg9 : after ck4 W3 (Proc.devRef .tc main_arg9) = (V (Proc.devRef .tc main_arg9)) := (ck4_pass_main_arg9 W3).trans f3_main_arg9
  generalize after ck4 W3 = W4 at f4_main_v94 f4_main_v103 f4_main_v104 f4_main_arg0 f4_main_arg1 f4_main_v19 f4_main_arg2 f4_main_arg3 f4_main_arg4 f4_main_arg5 f4_main_arg6 f4_main_arg7 f4_main_arg8 f4_main_arg9 ⊢
  clear f3_main_v43 f3_main_v57 f3_main_v71 f3_main_arg0 f3_main_arg1 f3_main_v24 f3_main_v29 f3_main_v18 f3_main_v19 f3_main_arg2 f3_main_arg3 f3_main_arg4 f3_main_arg5 f3_main_arg6 f3_main_arg7 f3_main_arg8 f3_main_arg9
  have f5_main_v114 : after ck5 W4 (Proc.devRef .tc main_v114) = (val_main_v114 (F := F) (V (Proc.devRef .tc main_arg0)) (V (Proc.devRef .tc main_arg1))) := ck5_main_v114 W4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f4_main_v94 f4_main_v104 f4_main_v19 f4_main_v103
  have f5_main_v132 : after ck5 W4 (Proc.devRef .tc main_v132) = (val_main_v132 (F := F) (V (Proc.devRef .tc main_arg0))) := ck5_main_v132 W4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f4_main_arg0
  have f5_main_v133 : after ck5 W4 (Proc.devRef .tc main_v133) = (val_main_v133 (F := F) (V (Proc.devRef .tc main_arg0))) := ck5_main_v133 W4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f4_main_arg0
  have f5_main_v134 : after ck5 W4 (Proc.devRef .tc main_v134) = (val_main_v134 (F := F) (V (Proc.devRef .tc main_arg0))) := ck5_main_v134 W4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f4_main_arg0
  have f5_main_v135 : after ck5 W4 (Proc.devRef .tc main_v135) = (val_main_v135 (F := F) (V (Proc.devRef .tc main_arg0))) := ck5_main_v135 W4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f4_main_arg0
  have f5_main_c_40 : after ck5 W4 (Proc.devRef .tc main_c_40) = (val_main_c_40 (F := F)) := ck5_main_c_40 W4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f5_main_c_41 : after ck5 W4 (Proc.devRef .tc main_c_41) = (val_main_c_41 (F := F)) := ck5_main_c_41 W4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f5_main_arg0 : after ck5 W4 (Proc.devRef .tc main_arg0) = (V (Proc.devRef .tc main_arg0)) := (ck5_pass_main_arg0 W4).trans f4_main_arg0
  have f5_main_arg1 : after ck5 W4 (Proc.devRef .tc main_arg1) = (V (Proc.devRef .tc main_arg1)) := (ck5_pass_main_arg1 W4).trans f4_main_arg1
  have f5_main_arg2 : after ck5 W4 (Proc.devRef .tc main_arg2) = (V (Proc.devRef .tc main_arg2)) := (ck5_pass_main_arg2 W4).trans f4_main_arg2
  have f5_main_arg3 : after ck5 W4 (Proc.devRef .tc main_arg3) = (V (Proc.devRef .tc main_arg3)) := (ck5_pass_main_arg3 W4).trans f4_main_arg3
  have f5_main_arg4 : after ck5 W4 (Proc.devRef .tc main_arg4) = (V (Proc.devRef .tc main_arg4)) := (ck5_pass_main_arg4 W4).trans f4_main_arg4
  have f5_main_arg5 : after ck5 W4 (Proc.devRef .tc main_arg5) = (V (Proc.devRef .tc main_arg5)) := (ck5_pass_main_arg5 W4).trans f4_main_arg5
  have f5_main_arg6 : after ck5 W4 (Proc.devRef .tc main_arg6) = (V (Proc.devRef .tc main_arg6)) := (ck5_pass_main_arg6 W4).trans f4_main_arg6
  have f5_main_arg7 : after ck5 W4 (Proc.devRef .tc main_arg7) = (V (Proc.devRef .tc main_arg7)) := (ck5_pass_main_arg7 W4).trans f4_main_arg7
  have f5_main_arg8 : after ck5 W4 (Proc.devRef .tc main_arg8) = (V (Proc.devRef .tc main_arg8)) := (ck5_pass_main_arg8 W4).trans f4_main_arg8
  have f5_main_arg9 : after ck5 W4 (Proc.devRef .tc main_arg9) = (V (Proc.devRef .tc main_arg9)) := (ck5_pass_main_arg9 W4).trans f4_main_arg9
  generalize after ck5 W4 = W5 at f5_main_v114 f5_main_v132 f5_main_v133 f5_main_v134 f5_main_v135 f5_main_c_40 f5_main_c_41 f5_main_arg0 f5_main_arg1 f5_main_arg2 f5_main_arg3 f5_main_arg4 f5_main_arg5 f5_main_arg6 f5_main_arg7 f5_main_arg8 f5_main_arg9 ⊢
  clear f4_main_v94 f4_main_v103 f4_main_v104 f4_main_arg0 f4_main_arg1 f4_main_v19 f4_main_arg2 f4_main_arg3 f4_main_arg4 f4_main_arg5 f4_main_arg6 f4_main_arg7 f4_main_arg8 f4_main_arg9
  have f6_main_v136 : after ck6 W5 (Proc.devRef .tc main_v136) = (val_main_v136 (F := F) (V (Proc.devRef .tc main_arg0))) := ck6_main_v136 W5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f5_main_c_41 f5_main_c_40 f5_main_v135
  have f6_main_v139 : after ck6 W5 (Proc.devRef .tc main_v139) = (val_main_v139 (F := F) (V (Proc.devRef .tc main_arg0))) := ck6_main_v139 W5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f5_main_c_41 f5_main_c_40 f5_main_v135
  have f6_main_v141 : after ck6 W5 (Proc.devRef .tc main_v141) = (val_main_v141 (F := F) (V (Proc.devRef .tc main_arg0))) := ck6_main_v141 W5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f5_main_v132
  have f6_main_v144 : after ck6 W5 (Proc.devRef .tc main_v144) = (val_main_v144 (F := F) (V (Proc.devRef .tc main_arg0))) := ck6_main_v144 W5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f5_main_v132
  have f6_main_v146 : after ck6 W5 (Proc.devRef .tc main_v146) = (val_main_v146 (F := F) (V (Proc.devRef .tc main_arg0))) := ck6_main_v146 W5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f5_main_v132
  have f6_main_arg0 : after ck6 W5 (Proc.devRef .tc main_arg0) = (V (Proc.devRef .tc main_arg0)) := (ck6_pass_main_arg0 W5).trans f5_main_arg0
  have f6_main_arg1 : after ck6 W5 (Proc.devRef .tc main_arg1) = (V (Proc.devRef .tc main_arg1)) := (ck6_pass_main_arg1 W5).trans f5_main_arg1
  have f6_main_arg2 : after ck6 W5 (Proc.devRef .tc main_arg2) = (V (Proc.devRef .tc main_arg2)) := (ck6_pass_main_arg2 W5).trans f5_main_arg2
  have f6_main_v133 : after ck6 W5 (Proc.devRef .tc main_v133) = (val_main_v133 (F := F) (V (Proc.devRef .tc main_arg0))) := (ck6_pass_main_v133 W5).trans f5_main_v133
  have f6_main_v134 : after ck6 W5 (Proc.devRef .tc main_v134) = (val_main_v134 (F := F) (V (Proc.devRef .tc main_arg0))) := (ck6_pass_main_v134 W5).trans f5_main_v134
  have f6_main_v114 : after ck6 W5 (Proc.devRef .tc main_v114) = (val_main_v114 (F := F) (V (Proc.devRef .tc main_arg0)) (V (Proc.devRef .tc main_arg1))) := (ck6_pass_main_v114 W5).trans f5_main_v114
  have f6_main_arg3 : after ck6 W5 (Proc.devRef .tc main_arg3) = (V (Proc.devRef .tc main_arg3)) := (ck6_pass_main_arg3 W5).trans f5_main_arg3
  have f6_main_arg4 : after ck6 W5 (Proc.devRef .tc main_arg4) = (V (Proc.devRef .tc main_arg4)) := (ck6_pass_main_arg4 W5).trans f5_main_arg4
  have f6_main_arg5 : after ck6 W5 (Proc.devRef .tc main_arg5) = (V (Proc.devRef .tc main_arg5)) := (ck6_pass_main_arg5 W5).trans f5_main_arg5
  have f6_main_arg6 : after ck6 W5 (Proc.devRef .tc main_arg6) = (V (Proc.devRef .tc main_arg6)) := (ck6_pass_main_arg6 W5).trans f5_main_arg6
  have f6_main_arg7 : after ck6 W5 (Proc.devRef .tc main_arg7) = (V (Proc.devRef .tc main_arg7)) := (ck6_pass_main_arg7 W5).trans f5_main_arg7
  have f6_main_arg8 : after ck6 W5 (Proc.devRef .tc main_arg8) = (V (Proc.devRef .tc main_arg8)) := (ck6_pass_main_arg8 W5).trans f5_main_arg8
  have f6_main_arg9 : after ck6 W5 (Proc.devRef .tc main_arg9) = (V (Proc.devRef .tc main_arg9)) := (ck6_pass_main_arg9 W5).trans f5_main_arg9
  generalize after ck6 W5 = W6 at f6_main_v136 f6_main_v139 f6_main_v141 f6_main_v144 f6_main_v146 f6_main_arg0 f6_main_arg1 f6_main_arg2 f6_main_v133 f6_main_v134 f6_main_v114 f6_main_arg3 f6_main_arg4 f6_main_arg5 f6_main_arg6 f6_main_arg7 f6_main_arg8 f6_main_arg9 ⊢
  clear f5_main_v114 f5_main_v132 f5_main_v133 f5_main_v134 f5_main_v135 f5_main_c_40 f5_main_c_41 f5_main_arg0 f5_main_arg1 f5_main_arg2 f5_main_arg3 f5_main_arg4 f5_main_arg5 f5_main_arg6 f5_main_arg7 f5_main_arg8 f5_main_arg9
  have f7_main_v158 : after ck7 W6 (Proc.devRef .tc main_v158) = (val_main_v158 (F := F) (V (Proc.devRef .tc main_arg0)) (V (Proc.devRef .tc main_arg2))) := ck7_main_v158 W6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f6_main_arg2 f6_main_v146 f6_main_v141 f6_main_v136
  have f7_main_v172 : after ck7 W6 (Proc.devRef .tc main_v172) = (val_main_v172 (F := F) (V (Proc.devRef .tc main_arg0)) (V (Proc.devRef .tc main_arg2))) := ck7_main_v172 W6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f6_main_arg2 f6_main_v141 f6_main_v139
  have f7_main_v177 : after ck7 W6 (Proc.devRef .tc main_v177) = (val_main_v177 (F := F) (V (Proc.devRef .tc main_arg0))) := ck7_main_v177 W6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f6_main_v144
  have f7_main_arg0 : after ck7 W6 (Proc.devRef .tc main_arg0) = (V (Proc.devRef .tc main_arg0)) := (ck7_pass_main_arg0 W6).trans f6_main_arg0
  have f7_main_arg1 : after ck7 W6 (Proc.devRef .tc main_arg1) = (V (Proc.devRef .tc main_arg1)) := (ck7_pass_main_arg1 W6).trans f6_main_arg1
  have f7_main_v136 : after ck7 W6 (Proc.devRef .tc main_v136) = (val_main_v136 (F := F) (V (Proc.devRef .tc main_arg0))) := (ck7_pass_main_v136 W6).trans f6_main_v136
  have f7_main_arg2 : after ck7 W6 (Proc.devRef .tc main_arg2) = (V (Proc.devRef .tc main_arg2)) := (ck7_pass_main_arg2 W6).trans f6_main_arg2
  have f7_main_v139 : after ck7 W6 (Proc.devRef .tc main_v139) = (val_main_v139 (F := F) (V (Proc.devRef .tc main_arg0))) := (ck7_pass_main_v139 W6).trans f6_main_v139
  have f7_main_v144 : after ck7 W6 (Proc.devRef .tc main_v144) = (val_main_v144 (F := F) (V (Proc.devRef .tc main_arg0))) := (ck7_pass_main_v144 W6).trans f6_main_v144
  have f7_main_v133 : after ck7 W6 (Proc.devRef .tc main_v133) = (val_main_v133 (F := F) (V (Proc.devRef .tc main_arg0))) := (ck7_pass_main_v133 W6).trans f6_main_v133
  have f7_main_v134 : after ck7 W6 (Proc.devRef .tc main_v134) = (val_main_v134 (F := F) (V (Proc.devRef .tc main_arg0))) := (ck7_pass_main_v134 W6).trans f6_main_v134
  have f7_main_v114 : after ck7 W6 (Proc.devRef .tc main_v114) = (val_main_v114 (F := F) (V (Proc.devRef .tc main_arg0)) (V (Proc.devRef .tc main_arg1))) := (ck7_pass_main_v114 W6).trans f6_main_v114
  have f7_main_arg3 : after ck7 W6 (Proc.devRef .tc main_arg3) = (V (Proc.devRef .tc main_arg3)) := (ck7_pass_main_arg3 W6).trans f6_main_arg3
  have f7_main_arg4 : after ck7 W6 (Proc.devRef .tc main_arg4) = (V (Proc.devRef .tc main_arg4)) := (ck7_pass_main_arg4 W6).trans f6_main_arg4
  have f7_main_arg5 : after ck7 W6 (Proc.devRef .tc main_arg5) = (V (Proc.devRef .tc main_arg5)) := (ck7_pass_main_arg5 W6).trans f6_main_arg5
  have f7_main_arg6 : after ck7 W6 (Proc.devRef .tc main_arg6) = (V (Proc.devRef .tc main_arg6)) := (ck7_pass_main_arg6 W6).trans f6_main_arg6
  have f7_main_arg7 : after ck7 W6 (Proc.devRef .tc main_arg7) = (V (Proc.devRef .tc main_arg7)) := (ck7_pass_main_arg7 W6).trans f6_main_arg7
  have f7_main_arg8 : after ck7 W6 (Proc.devRef .tc main_arg8) = (V (Proc.devRef .tc main_arg8)) := (ck7_pass_main_arg8 W6).trans f6_main_arg8
  have f7_main_arg9 : after ck7 W6 (Proc.devRef .tc main_arg9) = (V (Proc.devRef .tc main_arg9)) := (ck7_pass_main_arg9 W6).trans f6_main_arg9
  generalize after ck7 W6 = W7 at f7_main_v158 f7_main_v172 f7_main_v177 f7_main_arg0 f7_main_arg1 f7_main_v136 f7_main_arg2 f7_main_v139 f7_main_v144 f7_main_v133 f7_main_v134 f7_main_v114 f7_main_arg3 f7_main_arg4 f7_main_arg5 f7_main_arg6 f7_main_arg7 f7_main_arg8 f7_main_arg9 ⊢
  clear f6_main_v136 f6_main_v139 f6_main_v141 f6_main_v144 f6_main_v146 f6_main_arg0 f6_main_arg1 f6_main_arg2 f6_main_v133 f6_main_v134 f6_main_v114 f6_main_arg3 f6_main_arg4 f6_main_arg5 f6_main_arg6 f6_main_arg7 f6_main_arg8 f6_main_arg9
  have f8_main_v186 : after ck8 W7 (Proc.devRef .tc main_v186) = (val_main_v186 (F := F) (V (Proc.devRef .tc main_arg0)) (V (Proc.devRef .tc main_arg2))) := ck8_main_v186 W7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f7_main_arg2 f7_main_v177 f7_main_v136
  have f8_main_v200 : after ck8 W7 (Proc.devRef .tc main_v200) = (val_main_v200 (F := F) (V (Proc.devRef .tc main_arg0)) (V (Proc.devRef .tc main_arg2))) := ck8_main_v200 W7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f7_main_arg2 f7_main_v144 f7_main_v139
  have f8_main_v209 : after ck8 W7 (Proc.devRef .tc main_v209) = (val_main_v209 (F := F) (V (Proc.devRef .tc main_arg0)) (V (Proc.devRef .tc main_arg2))) := ck8_main_v209 W7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f7_main_v158 f7_main_v133 f7_main_v172
  have f8_main_cst_67 : after ck8 W7 (Proc.devRef .tc main_cst_67) = (val_main_cst_67 (F := F)) := ck8_main_cst_67 W7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f8_main_arg0 : after ck8 W7 (Proc.devRef .tc main_arg0) = (V (Proc.devRef .tc main_arg0)) := (ck8_pass_main_arg0 W7).trans f7_main_arg0
  have f8_main_arg1 : after ck8 W7 (Proc.devRef .tc main_arg1) = (V (Proc.devRef .tc main_arg1)) := (ck8_pass_main_arg1 W7).trans f7_main_arg1
  have f8_main_arg2 : after ck8 W7 (Proc.devRef .tc main_arg2) = (V (Proc.devRef .tc main_arg2)) := (ck8_pass_main_arg2 W7).trans f7_main_arg2
  have f8_main_v133 : after ck8 W7 (Proc.devRef .tc main_v133) = (val_main_v133 (F := F) (V (Proc.devRef .tc main_arg0))) := (ck8_pass_main_v133 W7).trans f7_main_v133
  have f8_main_v134 : after ck8 W7 (Proc.devRef .tc main_v134) = (val_main_v134 (F := F) (V (Proc.devRef .tc main_arg0))) := (ck8_pass_main_v134 W7).trans f7_main_v134
  have f8_main_v114 : after ck8 W7 (Proc.devRef .tc main_v114) = (val_main_v114 (F := F) (V (Proc.devRef .tc main_arg0)) (V (Proc.devRef .tc main_arg1))) := (ck8_pass_main_v114 W7).trans f7_main_v114
  have f8_main_arg3 : after ck8 W7 (Proc.devRef .tc main_arg3) = (V (Proc.devRef .tc main_arg3)) := (ck8_pass_main_arg3 W7).trans f7_main_arg3
  have f8_main_arg4 : after ck8 W7 (Proc.devRef .tc main_arg4) = (V (Proc.devRef .tc main_arg4)) := (ck8_pass_main_arg4 W7).trans f7_main_arg4
  have f8_main_arg5 : after ck8 W7 (Proc.devRef .tc main_arg5) = (V (Proc.devRef .tc main_arg5)) := (ck8_pass_main_arg5 W7).trans f7_main_arg5
  have f8_main_arg6 : after ck8 W7 (Proc.devRef .tc main_arg6) = (V (Proc.devRef .tc main_arg6)) := (ck8_pass_main_arg6 W7).trans f7_main_arg6
  have f8_main_arg7 : after ck8 W7 (Proc.devRef .tc main_arg7) = (V (Proc.devRef .tc main_arg7)) := (ck8_pass_main_arg7 W7).trans f7_main_arg7
  have f8_main_arg8 : after ck8 W7 (Proc.devRef .tc main_arg8) = (V (Proc.devRef .tc main_arg8)) := (ck8_pass_main_arg8 W7).trans f7_main_arg8
  have f8_main_arg9 : after ck8 W7 (Proc.devRef .tc main_arg9) = (V (Proc.devRef .tc main_arg9)) := (ck8_pass_main_arg9 W7).trans f7_main_arg9
  generalize after ck8 W7 = W8 at f8_main_v186 f8_main_v200 f8_main_v209 f8_main_cst_67 f8_main_arg0 f8_main_arg1 f8_main_arg2 f8_main_v133 f8_main_v134 f8_main_v114 f8_main_arg3 f8_main_arg4 f8_main_arg5 f8_main_arg6 f8_main_arg7 f8_main_arg8 f8_main_arg9 ⊢
  clear f7_main_v158 f7_main_v172 f7_main_v177 f7_main_arg0 f7_main_arg1 f7_main_v136 f7_main_arg2 f7_main_v139 f7_main_v144 f7_main_v133 f7_main_v134 f7_main_v114 f7_main_arg3 f7_main_arg4 f7_main_arg5 f7_main_arg6 f7_main_arg7 f7_main_arg8 f7_main_arg9
  have f9_main_v228 : after ck9 W8 (Proc.devRef .tc main_v228) = (val_main_v228 (F := F) (V (Proc.devRef .tc main_arg0)) (V (Proc.devRef .tc main_arg1)) (V (Proc.devRef .tc main_arg2))) := ck9_main_v228 W8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f8_main_v114 f8_main_v209 f8_main_v134 f8_main_v186 f8_main_cst_67 f8_main_v133 f8_main_v200
  have f9_main_v238 : after ck9 W8 (Proc.devRef .tc main_v238) = (val_main_v238 (F := F) (V (Proc.devRef .tc main_arg0))) := ck9_main_v238 W8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f8_main_arg0
  have f9_main_v242 : after ck9 W8 (Proc.devRef .tc main_v242) = (val_main_v242 (F := F) (V (Proc.devRef .tc main_arg0))) := ck9_main_v242 W8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f8_main_arg0
  have f9_main_cst_74 : after ck9 W8 (Proc.devRef .tc main_cst_74) = (val_main_cst_74 (F := F)) := ck9_main_cst_74 W8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f9_main_arg0 : after ck9 W8 (Proc.devRef .tc main_arg0) = (V (Proc.devRef .tc main_arg0)) := (ck9_pass_main_arg0 W8).trans f8_main_arg0
  have f9_main_arg1 : after ck9 W8 (Proc.devRef .tc main_arg1) = (V (Proc.devRef .tc main_arg1)) := (ck9_pass_main_arg1 W8).trans f8_main_arg1
  have f9_main_arg2 : after ck9 W8 (Proc.devRef .tc main_arg2) = (V (Proc.devRef .tc main_arg2)) := (ck9_pass_main_arg2 W8).trans f8_main_arg2
  have f9_main_arg3 : after ck9 W8 (Proc.devRef .tc main_arg3) = (V (Proc.devRef .tc main_arg3)) := (ck9_pass_main_arg3 W8).trans f8_main_arg3
  have f9_main_arg4 : after ck9 W8 (Proc.devRef .tc main_arg4) = (V (Proc.devRef .tc main_arg4)) := (ck9_pass_main_arg4 W8).trans f8_main_arg4
  have f9_main_arg5 : after ck9 W8 (Proc.devRef .tc main_arg5) = (V (Proc.devRef .tc main_arg5)) := (ck9_pass_main_arg5 W8).trans f8_main_arg5
  have f9_main_arg6 : after ck9 W8 (Proc.devRef .tc main_arg6) = (V (Proc.devRef .tc main_arg6)) := (ck9_pass_main_arg6 W8).trans f8_main_arg6
  have f9_main_arg7 : after ck9 W8 (Proc.devRef .tc main_arg7) = (V (Proc.devRef .tc main_arg7)) := (ck9_pass_main_arg7 W8).trans f8_main_arg7
  have f9_main_arg8 : after ck9 W8 (Proc.devRef .tc main_arg8) = (V (Proc.devRef .tc main_arg8)) := (ck9_pass_main_arg8 W8).trans f8_main_arg8
  have f9_main_arg9 : after ck9 W8 (Proc.devRef .tc main_arg9) = (V (Proc.devRef .tc main_arg9)) := (ck9_pass_main_arg9 W8).trans f8_main_arg9
  generalize after ck9 W8 = W9 at f9_main_v228 f9_main_v238 f9_main_v242 f9_main_cst_74 f9_main_arg0 f9_main_arg1 f9_main_arg2 f9_main_arg3 f9_main_arg4 f9_main_arg5 f9_main_arg6 f9_main_arg7 f9_main_arg8 f9_main_arg9 ⊢
  clear f8_main_v186 f8_main_v200 f8_main_v209 f8_main_cst_67 f8_main_arg0 f8_main_arg1 f8_main_arg2 f8_main_v133 f8_main_v134 f8_main_v114 f8_main_arg3 f8_main_arg4 f8_main_arg5 f8_main_arg6 f8_main_arg7 f8_main_arg8 f8_main_arg9
  have f10_main_v247 : after ck10 W9 (Proc.devRef .tc main_v247) = (val_main_v247 (F := F) (V (Proc.devRef .tc main_arg0))) := ck10_main_v247 W9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f9_main_v238
  have f10_main_v248 : after ck10 W9 (Proc.devRef .tc main_v248) = (val_main_v248 (F := F) (V (Proc.devRef .tc main_arg0))) := ck10_main_v248 W9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f9_main_v242 f9_main_cst_74
  have f10_main_v250 : after ck10 W9 (Proc.devRef .tc main_v250) = (val_main_v250 (F := F) (V (Proc.devRef .tc main_arg0))) := ck10_main_v250 W9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f9_main_v238
  have f10_main_v253 : after ck10 W9 (Proc.devRef .tc main_v253) = (val_main_v253 (F := F) (V (Proc.devRef .tc main_arg0))) := ck10_main_v253 W9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f9_main_v238
  have f10_main_v255 : after ck10 W9 (Proc.devRef .tc main_v255) = (val_main_v255 (F := F) (V (Proc.devRef .tc main_arg0))) := ck10_main_v255 W9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f9_main_v242 f9_main_cst_74
  have f10_main_v257 : after ck10 W9 (Proc.devRef .tc main_v257) = (val_main_v257 (F := F) (V (Proc.devRef .tc main_arg0))) := ck10_main_v257 W9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f9_main_v242 f9_main_cst_74
  have f10_main_c_83 : after ck10 W9 (Proc.devRef .tc main_c_83) = (val_main_c_83 (F := F)) := ck10_main_c_83 W9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f10_main_c_84 : after ck10 W9 (Proc.devRef .tc main_c_84) = (val_main_c_84 (F := F)) := ck10_main_c_84 W9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f10_main_arg0 : after ck10 W9 (Proc.devRef .tc main_arg0) = (V (Proc.devRef .tc main_arg0)) := (ck10_pass_main_arg0 W9).trans f9_main_arg0
  have f10_main_arg1 : after ck10 W9 (Proc.devRef .tc main_arg1) = (V (Proc.devRef .tc main_arg1)) := (ck10_pass_main_arg1 W9).trans f9_main_arg1
  have f10_main_arg2 : after ck10 W9 (Proc.devRef .tc main_arg2) = (V (Proc.devRef .tc main_arg2)) := (ck10_pass_main_arg2 W9).trans f9_main_arg2
  have f10_main_arg3 : after ck10 W9 (Proc.devRef .tc main_arg3) = (V (Proc.devRef .tc main_arg3)) := (ck10_pass_main_arg3 W9).trans f9_main_arg3
  have f10_main_v228 : after ck10 W9 (Proc.devRef .tc main_v228) = (val_main_v228 (F := F) (V (Proc.devRef .tc main_arg0)) (V (Proc.devRef .tc main_arg1)) (V (Proc.devRef .tc main_arg2))) := (ck10_pass_main_v228 W9).trans f9_main_v228
  have f10_main_arg4 : after ck10 W9 (Proc.devRef .tc main_arg4) = (V (Proc.devRef .tc main_arg4)) := (ck10_pass_main_arg4 W9).trans f9_main_arg4
  have f10_main_arg5 : after ck10 W9 (Proc.devRef .tc main_arg5) = (V (Proc.devRef .tc main_arg5)) := (ck10_pass_main_arg5 W9).trans f9_main_arg5
  have f10_main_arg6 : after ck10 W9 (Proc.devRef .tc main_arg6) = (V (Proc.devRef .tc main_arg6)) := (ck10_pass_main_arg6 W9).trans f9_main_arg6
  have f10_main_arg7 : after ck10 W9 (Proc.devRef .tc main_arg7) = (V (Proc.devRef .tc main_arg7)) := (ck10_pass_main_arg7 W9).trans f9_main_arg7
  have f10_main_arg8 : after ck10 W9 (Proc.devRef .tc main_arg8) = (V (Proc.devRef .tc main_arg8)) := (ck10_pass_main_arg8 W9).trans f9_main_arg8
  have f10_main_arg9 : after ck10 W9 (Proc.devRef .tc main_arg9) = (V (Proc.devRef .tc main_arg9)) := (ck10_pass_main_arg9 W9).trans f9_main_arg9
  generalize after ck10 W9 = W10 at f10_main_v247 f10_main_v248 f10_main_v250 f10_main_v253 f10_main_v255 f10_main_v257 f10_main_c_83 f10_main_c_84 f10_main_arg0 f10_main_arg1 f10_main_arg2 f10_main_arg3 f10_main_v228 f10_main_arg4 f10_main_arg5 f10_main_arg6 f10_main_arg7 f10_main_arg8 f10_main_arg9 ⊢
  clear f9_main_v228 f9_main_v238 f9_main_v242 f9_main_cst_74 f9_main_arg0 f9_main_arg1 f9_main_arg2 f9_main_arg3 f9_main_arg4 f9_main_arg5 f9_main_arg6 f9_main_arg7 f9_main_arg8 f9_main_arg9
  have f11_main_v258 : after ck11 W10 (Proc.devRef .tc main_v258) = (val_main_v258 (F := F) (V (Proc.devRef .tc main_arg0))) := ck11_main_v258 W10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f10_main_c_84 f10_main_c_83 f10_main_v257
  have f11_main_v272 : after ck11 W10 (Proc.devRef .tc main_v272) = (val_main_v272 (F := F) (V (Proc.devRef .tc main_arg0)) (V (Proc.devRef .tc main_arg3))) := ck11_main_v272 W10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f10_main_arg3 f10_main_v255 f10_main_v250
  have f11_main_v283 : after ck11 W10 (Proc.devRef .tc main_v283) = (val_main_v283 (F := F) (V (Proc.devRef .tc main_arg0))) := ck11_main_v283 W10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f10_main_v255
  have f11_main_v284 : after ck11 W10 (Proc.devRef .tc main_v284) = (val_main_v284 (F := F) (V (Proc.devRef .tc main_arg0))) := ck11_main_v284 W10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f10_main_v253
  have f11_main_arg0 : after ck11 W10 (Proc.devRef .tc main_arg0) = (V (Proc.devRef .tc main_arg0)) := (ck11_pass_main_arg0 W10).trans f10_main_arg0
  have f11_main_arg1 : after ck11 W10 (Proc.devRef .tc main_arg1) = (V (Proc.devRef .tc main_arg1)) := (ck11_pass_main_arg1 W10).trans f10_main_arg1
  have f11_main_arg2 : after ck11 W10 (Proc.devRef .tc main_arg2) = (V (Proc.devRef .tc main_arg2)) := (ck11_pass_main_arg2 W10).trans f10_main_arg2
  have f11_main_v250 : after ck11 W10 (Proc.devRef .tc main_v250) = (val_main_v250 (F := F) (V (Proc.devRef .tc main_arg0))) := (ck11_pass_main_v250 W10).trans f10_main_v250
  have f11_main_arg3 : after ck11 W10 (Proc.devRef .tc main_arg3) = (V (Proc.devRef .tc main_arg3)) := (ck11_pass_main_arg3 W10).trans f10_main_arg3
  have f11_main_v253 : after ck11 W10 (Proc.devRef .tc main_v253) = (val_main_v253 (F := F) (V (Proc.devRef .tc main_arg0))) := (ck11_pass_main_v253 W10).trans f10_main_v253
  have f11_main_v247 : after ck11 W10 (Proc.devRef .tc main_v247) = (val_main_v247 (F := F) (V (Proc.devRef .tc main_arg0))) := (ck11_pass_main_v247 W10).trans f10_main_v247
  have f11_main_v248 : after ck11 W10 (Proc.devRef .tc main_v248) = (val_main_v248 (F := F) (V (Proc.devRef .tc main_arg0))) := (ck11_pass_main_v248 W10).trans f10_main_v248
  have f11_main_v228 : after ck11 W10 (Proc.devRef .tc main_v228) = (val_main_v228 (F := F) (V (Proc.devRef .tc main_arg0)) (V (Proc.devRef .tc main_arg1)) (V (Proc.devRef .tc main_arg2))) := (ck11_pass_main_v228 W10).trans f10_main_v228
  have f11_main_arg4 : after ck11 W10 (Proc.devRef .tc main_arg4) = (V (Proc.devRef .tc main_arg4)) := (ck11_pass_main_arg4 W10).trans f10_main_arg4
  have f11_main_arg5 : after ck11 W10 (Proc.devRef .tc main_arg5) = (V (Proc.devRef .tc main_arg5)) := (ck11_pass_main_arg5 W10).trans f10_main_arg5
  have f11_main_arg6 : after ck11 W10 (Proc.devRef .tc main_arg6) = (V (Proc.devRef .tc main_arg6)) := (ck11_pass_main_arg6 W10).trans f10_main_arg6
  have f11_main_arg7 : after ck11 W10 (Proc.devRef .tc main_arg7) = (V (Proc.devRef .tc main_arg7)) := (ck11_pass_main_arg7 W10).trans f10_main_arg7
  have f11_main_arg8 : after ck11 W10 (Proc.devRef .tc main_arg8) = (V (Proc.devRef .tc main_arg8)) := (ck11_pass_main_arg8 W10).trans f10_main_arg8
  have f11_main_arg9 : after ck11 W10 (Proc.devRef .tc main_arg9) = (V (Proc.devRef .tc main_arg9)) := (ck11_pass_main_arg9 W10).trans f10_main_arg9
  generalize after ck11 W10 = W11 at f11_main_v258 f11_main_v272 f11_main_v283 f11_main_v284 f11_main_arg0 f11_main_arg1 f11_main_arg2 f11_main_v250 f11_main_arg3 f11_main_v253 f11_main_v247 f11_main_v248 f11_main_v228 f11_main_arg4 f11_main_arg5 f11_main_arg6 f11_main_arg7 f11_main_arg8 f11_main_arg9 ⊢
  clear f10_main_v247 f10_main_v248 f10_main_v250 f10_main_v253 f10_main_v255 f10_main_v257 f10_main_c_83 f10_main_c_84 f10_main_arg0 f10_main_arg1 f10_main_arg2 f10_main_arg3 f10_main_v228 f10_main_arg4 f10_main_arg5 f10_main_arg6 f10_main_arg7 f10_main_arg8 f10_main_arg9
  have f12_main_v286 : after ck12 W11 (Proc.devRef .tc main_v286) = (val_main_v286 (F := F) (V (Proc.devRef .tc main_arg0)) (V (Proc.devRef .tc main_arg3))) := ck12_main_v286 W11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f11_main_arg3 f11_main_v283 f11_main_v284
  have f12_main_v300 : after ck12 W11 (Proc.devRef .tc main_v300) = (val_main_v300 (F := F) (V (Proc.devRef .tc main_arg0)) (V (Proc.devRef .tc main_arg3))) := ck12_main_v300 W11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f11_main_arg3 f11_main_v258 f11_main_v250
  have f12_main_v314 : after ck12 W11 (Proc.devRef .tc main_v314) = (val_main_v314 (F := F) (V (Proc.devRef .tc main_arg0)) (V (Proc.devRef .tc main_arg3))) := ck12_main_v314 W11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f11_main_arg3 f11_main_v258 f11_main_v253
  have f12_main_v315 : after ck12 W11 (Proc.devRef .tc main_v315) = (val_main_v315 (F := F)) := ck12_main_v315 W11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f12_main_arg0 : after ck12 W11 (Proc.devRef .tc main_arg0) = (V (Proc.devRef .tc main_arg0)) := (ck12_pass_main_arg0 W11).trans f11_main_arg0
  have f12_main_arg1 : after ck12 W11 (Proc.devRef .tc main_arg1) = (V (Proc.devRef .tc main_arg1)) := (ck12_pass_main_arg1 W11).trans f11_main_arg1
  have f12_main_arg2 : after ck12 W11 (Proc.devRef .tc main_arg2) = (V (Proc.devRef .tc main_arg2)) := (ck12_pass_main_arg2 W11).trans f11_main_arg2
  have f12_main_arg3 : after ck12 W11 (Proc.devRef .tc main_arg3) = (V (Proc.devRef .tc main_arg3)) := (ck12_pass_main_arg3 W11).trans f11_main_arg3
  have f12_main_v247 : after ck12 W11 (Proc.devRef .tc main_v247) = (val_main_v247 (F := F) (V (Proc.devRef .tc main_arg0))) := (ck12_pass_main_v247 W11).trans f11_main_v247
  have f12_main_v272 : after ck12 W11 (Proc.devRef .tc main_v272) = (val_main_v272 (F := F) (V (Proc.devRef .tc main_arg0)) (V (Proc.devRef .tc main_arg3))) := (ck12_pass_main_v272 W11).trans f11_main_v272
  have f12_main_v248 : after ck12 W11 (Proc.devRef .tc main_v248) = (val_main_v248 (F := F) (V (Proc.devRef .tc main_arg0))) := (ck12_pass_main_v248 W11).trans f11_main_v248
  have f12_main_v228 : after ck12 W11 (Proc.devRef .tc main_v228) = (val_main_v228 (F := F) (V (Proc.devRef .tc main_arg0)) (V (Proc.devRef .tc main_arg1)) (V (Proc.devRef .tc main_arg2))) := (ck12_pass_main_v228 W11).trans f11_main_v228
  have f12_main_arg4 : after ck12 W11 (Proc.devRef .tc main_arg4) = (V (Proc.devRef .tc main_arg4)) := (ck12_pass_main_arg4 W11).trans f11_main_arg4
  have f12_main_arg5 : after ck12 W11 (Proc.devRef .tc main_arg5) = (V (Proc.devRef .tc main_arg5)) := (ck12_pass_main_arg5 W11).trans f11_main_arg5
  have f12_main_arg6 : after ck12 W11 (Proc.devRef .tc main_arg6) = (V (Proc.devRef .tc main_arg6)) := (ck12_pass_main_arg6 W11).trans f11_main_arg6
  have f12_main_arg7 : after ck12 W11 (Proc.devRef .tc main_arg7) = (V (Proc.devRef .tc main_arg7)) := (ck12_pass_main_arg7 W11).trans f11_main_arg7
  have f12_main_arg8 : after ck12 W11 (Proc.devRef .tc main_arg8) = (V (Proc.devRef .tc main_arg8)) := (ck12_pass_main_arg8 W11).trans f11_main_arg8
  have f12_main_arg9 : after ck12 W11 (Proc.devRef .tc main_arg9) = (V (Proc.devRef .tc main_arg9)) := (ck12_pass_main_arg9 W11).trans f11_main_arg9
  generalize after ck12 W11 = W12 at f12_main_v286 f12_main_v300 f12_main_v314 f12_main_v315 f12_main_arg0 f12_main_arg1 f12_main_arg2 f12_main_arg3 f12_main_v247 f12_main_v272 f12_main_v248 f12_main_v228 f12_main_arg4 f12_main_arg5 f12_main_arg6 f12_main_arg7 f12_main_arg8 f12_main_arg9 ⊢
  clear f11_main_v258 f11_main_v272 f11_main_v283 f11_main_v284 f11_main_arg0 f11_main_arg1 f11_main_arg2 f11_main_v250 f11_main_arg3 f11_main_v253 f11_main_v247 f11_main_v248 f11_main_v228 f11_main_arg4 f11_main_arg5 f11_main_arg6 f11_main_arg7 f11_main_arg8 f11_main_arg9
  have f13_main_v343 : after ck13 W12 (Proc.devRef .tc main_v343) = (val_main_v343 (F := F) (V (Proc.devRef .tc main_arg0)) (V (Proc.devRef .tc main_arg1)) (V (Proc.devRef .tc main_arg2)) (V (Proc.devRef .tc main_arg3))) := ck13_main_v343 W12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f12_main_v228 f12_main_v272 f12_main_v315 f12_main_v247 f12_main_v286 f12_main_v248 f12_main_v300 f12_main_v314
  have f13_main_v347 : after ck13 W12 (Proc.devRef .tc main_v347) = (val_main_v347 (F := F) (V (Proc.devRef .tc main_arg0))) := ck13_main_v347 W12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f12_main_arg0
  have f13_main_v351 : after ck13 W12 (Proc.devRef .tc main_v351) = (val_main_v351 (F := F) (V (Proc.devRef .tc main_arg0))) := ck13_main_v351 W12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f12_main_arg0
  have f13_main_arg0 : after ck13 W12 (Proc.devRef .tc main_arg0) = (V (Proc.devRef .tc main_arg0)) := (ck13_pass_main_arg0 W12).trans f12_main_arg0
  have f13_main_arg1 : after ck13 W12 (Proc.devRef .tc main_arg1) = (V (Proc.devRef .tc main_arg1)) := (ck13_pass_main_arg1 W12).trans f12_main_arg1
  have f13_main_arg2 : after ck13 W12 (Proc.devRef .tc main_arg2) = (V (Proc.devRef .tc main_arg2)) := (ck13_pass_main_arg2 W12).trans f12_main_arg2
  have f13_main_arg3 : after ck13 W12 (Proc.devRef .tc main_arg3) = (V (Proc.devRef .tc main_arg3)) := (ck13_pass_main_arg3 W12).trans f12_main_arg3
  have f13_main_arg4 : after ck13 W12 (Proc.devRef .tc main_arg4) = (V (Proc.devRef .tc main_arg4)) := (ck13_pass_main_arg4 W12).trans f12_main_arg4
  have f13_main_arg5 : after ck13 W12 (Proc.devRef .tc main_arg5) = (V (Proc.devRef .tc main_arg5)) := (ck13_pass_main_arg5 W12).trans f12_main_arg5
  have f13_main_arg6 : after ck13 W12 (Proc.devRef .tc main_arg6) = (V (Proc.devRef .tc main_arg6)) := (ck13_pass_main_arg6 W12).trans f12_main_arg6
  have f13_main_arg7 : after ck13 W12 (Proc.devRef .tc main_arg7) = (V (Proc.devRef .tc main_arg7)) := (ck13_pass_main_arg7 W12).trans f12_main_arg7
  have f13_main_arg8 : after ck13 W12 (Proc.devRef .tc main_arg8) = (V (Proc.devRef .tc main_arg8)) := (ck13_pass_main_arg8 W12).trans f12_main_arg8
  have f13_main_arg9 : after ck13 W12 (Proc.devRef .tc main_arg9) = (V (Proc.devRef .tc main_arg9)) := (ck13_pass_main_arg9 W12).trans f12_main_arg9
  generalize after ck13 W12 = W13 at f13_main_v343 f13_main_v347 f13_main_v351 f13_main_arg0 f13_main_arg1 f13_main_arg2 f13_main_arg3 f13_main_arg4 f13_main_arg5 f13_main_arg6 f13_main_arg7 f13_main_arg8 f13_main_arg9 ⊢
  clear f12_main_v286 f12_main_v300 f12_main_v314 f12_main_v315 f12_main_arg0 f12_main_arg1 f12_main_arg2 f12_main_arg3 f12_main_v247 f12_main_v272 f12_main_v248 f12_main_v228 f12_main_arg4 f12_main_arg5 f12_main_arg6 f12_main_arg7 f12_main_arg8 f12_main_arg9
  have f14_main_v362 : after ck14 W13 (Proc.devRef .tc main_v362) = (val_main_v362 (F := F) (V (Proc.devRef .tc main_arg0))) := ck14_main_v362 W13 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f13_main_v351
  have f14_main_v363 : after ck14 W13 (Proc.devRef .tc main_v363) = (val_main_v363 (F := F) (V (Proc.devRef .tc main_arg0))) := ck14_main_v363 W13 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f13_main_v347
  have f14_main_v365 : after ck14 W13 (Proc.devRef .tc main_v365) = (val_main_v365 (F := F) (V (Proc.devRef .tc main_arg0))) := ck14_main_v365 W13 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f13_main_v351
  have f14_main_v368 : after ck14 W13 (Proc.devRef .tc main_v368) = (val_main_v368 (F := F) (V (Proc.devRef .tc main_arg0))) := ck14_main_v368 W13 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f13_main_v351
  have f14_main_v369 : after ck14 W13 (Proc.devRef .tc main_v369) = (val_main_v369 (F := F) (V (Proc.devRef .tc main_arg0))) := ck14_main_v369 W13 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f13_main_v347
  have f14_main_c_116 : after ck14 W13 (Proc.devRef .tc main_c_116) = (val_main_c_116 (F := F)) := ck14_main_c_116 W13 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f14_main_call14_v0 : after ck14 W13 (Proc.devRef .tc main_call14_v0) = (val_main_call14_v0 (F := F)) := ck14_main_call14_v0 W13 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f14_main_arg0 : after ck14 W13 (Proc.devRef .tc main_arg0) = (V (Proc.devRef .tc main_arg0)) := (ck14_pass_main_arg0 W13).trans f13_main_arg0
  have f14_main_arg1 : after ck14 W13 (Proc.devRef .tc main_arg1) = (V (Proc.devRef .tc main_arg1)) := (ck14_pass_main_arg1 W13).trans f13_main_arg1
  have f14_main_arg2 : after ck14 W13 (Proc.devRef .tc main_arg2) = (V (Proc.devRef .tc main_arg2)) := (ck14_pass_main_arg2 W13).trans f13_main_arg2
  have f14_main_arg3 : after ck14 W13 (Proc.devRef .tc main_arg3) = (V (Proc.devRef .tc main_arg3)) := (ck14_pass_main_arg3 W13).trans f13_main_arg3
  have f14_main_arg4 : after ck14 W13 (Proc.devRef .tc main_arg4) = (V (Proc.devRef .tc main_arg4)) := (ck14_pass_main_arg4 W13).trans f13_main_arg4
  have f14_main_arg5 : after ck14 W13 (Proc.devRef .tc main_arg5) = (V (Proc.devRef .tc main_arg5)) := (ck14_pass_main_arg5 W13).trans f13_main_arg5
  have f14_main_arg6 : after ck14 W13 (Proc.devRef .tc main_arg6) = (V (Proc.devRef .tc main_arg6)) := (ck14_pass_main_arg6 W13).trans f13_main_arg6
  have f14_main_arg7 : after ck14 W13 (Proc.devRef .tc main_arg7) = (V (Proc.devRef .tc main_arg7)) := (ck14_pass_main_arg7 W13).trans f13_main_arg7
  have f14_main_arg8 : after ck14 W13 (Proc.devRef .tc main_arg8) = (V (Proc.devRef .tc main_arg8)) := (ck14_pass_main_arg8 W13).trans f13_main_arg8
  have f14_main_arg9 : after ck14 W13 (Proc.devRef .tc main_arg9) = (V (Proc.devRef .tc main_arg9)) := (ck14_pass_main_arg9 W13).trans f13_main_arg9
  have f14_main_v343 : after ck14 W13 (Proc.devRef .tc main_v343) = (val_main_v343 (F := F) (V (Proc.devRef .tc main_arg0)) (V (Proc.devRef .tc main_arg1)) (V (Proc.devRef .tc main_arg2)) (V (Proc.devRef .tc main_arg3))) := (ck14_pass_main_v343 W13).trans f13_main_v343
  generalize after ck14 W13 = W14 at f14_main_v362 f14_main_v363 f14_main_v365 f14_main_v368 f14_main_v369 f14_main_c_116 f14_main_call14_v0 f14_main_arg0 f14_main_arg1 f14_main_arg2 f14_main_arg3 f14_main_arg4 f14_main_arg5 f14_main_arg6 f14_main_arg7 f14_main_arg8 f14_main_arg9 f14_main_v343 ⊢
  clear f13_main_v343 f13_main_v347 f13_main_v351 f13_main_arg0 f13_main_arg1 f13_main_arg2 f13_main_arg3 f13_main_arg4 f13_main_arg5 f13_main_arg6 f13_main_arg7 f13_main_arg8 f13_main_arg9
  have f15_main_v370 : after ck15 W14 (Proc.devRef .tc main_v370) = (val_main_v370 (F := F) (V (Proc.devRef .tc main_arg0))) := ck15_main_v370 W14 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f14_main_c_116 f14_main_call14_v0 f14_main_v369
  have f15_main_v373 : after ck15 W14 (Proc.devRef .tc main_v373) = (val_main_v373 (F := F) (V (Proc.devRef .tc main_arg0))) := ck15_main_v373 W14 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f14_main_c_116 f14_main_call14_v0 f14_main_v369
  have f15_main_v387 : after ck15 W14 (Proc.devRef .tc main_v387) = (val_main_v387 (F := F) (V (Proc.devRef .tc main_arg0)) (V (Proc.devRef .tc main_arg4))) := ck15_main_v387 W14 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f14_main_arg4 f14_main_c_116 f14_main_call14_v0 f14_main_v369 f14_main_v365
  have f15_main_v389 : after ck15 W14 (Proc.devRef .tc main_v389) = (val_main_v389 (F := F) (V (Proc.devRef .tc main_arg0))) := ck15_main_v389 W14 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f14_main_c_116 f14_main_call14_v0 f14_main_v369
  have f15_main_v391 : after ck15 W14 (Proc.devRef .tc main_v391) = (val_main_v391 (F := F) (V (Proc.devRef .tc main_arg0))) := ck15_main_v391 W14 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f14_main_c_116 f14_main_call14_v0 f14_main_v369
  have f15_main_arg0 : after ck15 W14 (Proc.devRef .tc main_arg0) = (V (Proc.devRef .tc main_arg0)) := (ck15_pass_main_arg0 W14).trans f14_main_arg0
  have f15_main_arg1 : after ck15 W14 (Proc.devRef .tc main_arg1) = (V (Proc.devRef .tc main_arg1)) := (ck15_pass_main_arg1 W14).trans f14_main_arg1
  have f15_main_arg2 : after ck15 W14 (Proc.devRef .tc main_arg2) = (V (Proc.devRef .tc main_arg2)) := (ck15_pass_main_arg2 W14).trans f14_main_arg2
  have f15_main_arg3 : after ck15 W14 (Proc.devRef .tc main_arg3) = (V (Proc.devRef .tc main_arg3)) := (ck15_pass_main_arg3 W14).trans f14_main_arg3
  have f15_main_v365 : after ck15 W14 (Proc.devRef .tc main_v365) = (val_main_v365 (F := F) (V (Proc.devRef .tc main_arg0))) := (ck15_pass_main_v365 W14).trans f14_main_v365
  have f15_main_arg4 : after ck15 W14 (Proc.devRef .tc main_arg4) = (V (Proc.devRef .tc main_arg4)) := (ck15_pass_main_arg4 W14).trans f14_main_arg4
  have f15_main_v368 : after ck15 W14 (Proc.devRef .tc main_v368) = (val_main_v368 (F := F) (V (Proc.devRef .tc main_arg0))) := (ck15_pass_main_v368 W14).trans f14_main_v368
  have f15_main_v362 : after ck15 W14 (Proc.devRef .tc main_v362) = (val_main_v362 (F := F) (V (Proc.devRef .tc main_arg0))) := (ck15_pass_main_v362 W14).trans f14_main_v362
  have f15_main_v363 : after ck15 W14 (Proc.devRef .tc main_v363) = (val_main_v363 (F := F) (V (Proc.devRef .tc main_arg0))) := (ck15_pass_main_v363 W14).trans f14_main_v363
  have f15_main_arg5 : after ck15 W14 (Proc.devRef .tc main_arg5) = (V (Proc.devRef .tc main_arg5)) := (ck15_pass_main_arg5 W14).trans f14_main_arg5
  have f15_main_arg6 : after ck15 W14 (Proc.devRef .tc main_arg6) = (V (Proc.devRef .tc main_arg6)) := (ck15_pass_main_arg6 W14).trans f14_main_arg6
  have f15_main_arg7 : after ck15 W14 (Proc.devRef .tc main_arg7) = (V (Proc.devRef .tc main_arg7)) := (ck15_pass_main_arg7 W14).trans f14_main_arg7
  have f15_main_arg8 : after ck15 W14 (Proc.devRef .tc main_arg8) = (V (Proc.devRef .tc main_arg8)) := (ck15_pass_main_arg8 W14).trans f14_main_arg8
  have f15_main_arg9 : after ck15 W14 (Proc.devRef .tc main_arg9) = (V (Proc.devRef .tc main_arg9)) := (ck15_pass_main_arg9 W14).trans f14_main_arg9
  have f15_main_v343 : after ck15 W14 (Proc.devRef .tc main_v343) = (val_main_v343 (F := F) (V (Proc.devRef .tc main_arg0)) (V (Proc.devRef .tc main_arg1)) (V (Proc.devRef .tc main_arg2)) (V (Proc.devRef .tc main_arg3))) := (ck15_pass_main_v343 W14).trans f14_main_v343
  generalize after ck15 W14 = W15 at f15_main_v370 f15_main_v373 f15_main_v387 f15_main_v389 f15_main_v391 f15_main_arg0 f15_main_arg1 f15_main_arg2 f15_main_arg3 f15_main_v365 f15_main_arg4 f15_main_v368 f15_main_v362 f15_main_v363 f15_main_arg5 f15_main_arg6 f15_main_arg7 f15_main_arg8 f15_main_arg9 f15_main_v343 ⊢
  clear f14_main_v362 f14_main_v363 f14_main_v365 f14_main_v368 f14_main_v369 f14_main_c_116 f14_main_call14_v0 f14_main_arg0 f14_main_arg1 f14_main_arg2 f14_main_arg3 f14_main_arg4 f14_main_arg5 f14_main_arg6 f14_main_arg7 f14_main_arg8 f14_main_arg9 f14_main_v343
  have f16_main_v401 : after ck16 W15 (Proc.devRef .tc main_v401) = (val_main_v401 (F := F) (V (Proc.devRef .tc main_arg0)) (V (Proc.devRef .tc main_arg4))) := ck16_main_v401 W15 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f15_main_arg4 f15_main_v389 f15_main_v391 f15_main_v370 f15_main_v368
  have f16_main_v415 : after ck16 W15 (Proc.devRef .tc main_v415) = (val_main_v415 (F := F) (V (Proc.devRef .tc main_arg0)) (V (Proc.devRef .tc main_arg4))) := ck16_main_v415 W15 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f15_main_arg4 f15_main_v373 f15_main_v365
  have f16_main_v420 : after ck16 W15 (Proc.devRef .tc main_v420) = (val_main_v420 (F := F) (V (Proc.devRef .tc main_arg0))) := ck16_main_v420 W15 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f15_main_v373
  have f16_main_v422 : after ck16 W15 (Proc.devRef .tc main_v422) = (val_main_v422 (F := F) (V (Proc.devRef .tc main_arg0))) := ck16_main_v422 W15 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f15_main_v368
  have f16_main_arg0 : after ck16 W15 (Proc.devRef .tc main_arg0) = (V (Proc.devRef .tc main_arg0)) := (ck16_pass_main_arg0 W15).trans f15_main_arg0
  have f16_main_arg1 : after ck16 W15 (Proc.devRef .tc main_arg1) = (V (Proc.devRef .tc main_arg1)) := (ck16_pass_main_arg1 W15).trans f15_main_arg1
  have f16_main_arg2 : after ck16 W15 (Proc.devRef .tc main_arg2) = (V (Proc.devRef .tc main_arg2)) := (ck16_pass_main_arg2 W15).trans f15_main_arg2
  have f16_main_arg3 : after ck16 W15 (Proc.devRef .tc main_arg3) = (V (Proc.devRef .tc main_arg3)) := (ck16_pass_main_arg3 W15).trans f15_main_arg3
  have f16_main_arg4 : after ck16 W15 (Proc.devRef .tc main_arg4) = (V (Proc.devRef .tc main_arg4)) := (ck16_pass_main_arg4 W15).trans f15_main_arg4
  have f16_main_v368 : after ck16 W15 (Proc.devRef .tc main_v368) = (val_main_v368 (F := F) (V (Proc.devRef .tc main_arg0))) := (ck16_pass_main_v368 W15).trans f15_main_v368
  have f16_main_v362 : after ck16 W15 (Proc.devRef .tc main_v362) = (val_main_v362 (F := F) (V (Proc.devRef .tc main_arg0))) := (ck16_pass_main_v362 W15).trans f15_main_v362
  have f16_main_v387 : after ck16 W15 (Proc.devRef .tc main_v387) = (val_main_v387 (F := F) (V (Proc.devRef .tc main_arg0)) (V (Proc.devRef .tc main_arg4))) := (ck16_pass_main_v387 W15).trans f15_main_v387
  have f16_main_v363 : after ck16 W15 (Proc.devRef .tc main_v363) = (val_main_v363 (F := F) (V (Proc.devRef .tc main_arg0))) := (ck16_pass_main_v363 W15).trans f15_main_v363
  have f16_main_arg5 : after ck16 W15 (Proc.devRef .tc main_arg5) = (V (Proc.devRef .tc main_arg5)) := (ck16_pass_main_arg5 W15).trans f15_main_arg5
  have f16_main_arg6 : after ck16 W15 (Proc.devRef .tc main_arg6) = (V (Proc.devRef .tc main_arg6)) := (ck16_pass_main_arg6 W15).trans f15_main_arg6
  have f16_main_arg7 : after ck16 W15 (Proc.devRef .tc main_arg7) = (V (Proc.devRef .tc main_arg7)) := (ck16_pass_main_arg7 W15).trans f15_main_arg7
  have f16_main_arg8 : after ck16 W15 (Proc.devRef .tc main_arg8) = (V (Proc.devRef .tc main_arg8)) := (ck16_pass_main_arg8 W15).trans f15_main_arg8
  have f16_main_arg9 : after ck16 W15 (Proc.devRef .tc main_arg9) = (V (Proc.devRef .tc main_arg9)) := (ck16_pass_main_arg9 W15).trans f15_main_arg9
  have f16_main_v343 : after ck16 W15 (Proc.devRef .tc main_v343) = (val_main_v343 (F := F) (V (Proc.devRef .tc main_arg0)) (V (Proc.devRef .tc main_arg1)) (V (Proc.devRef .tc main_arg2)) (V (Proc.devRef .tc main_arg3))) := (ck16_pass_main_v343 W15).trans f15_main_v343
  generalize after ck16 W15 = W16 at f16_main_v401 f16_main_v415 f16_main_v420 f16_main_v422 f16_main_arg0 f16_main_arg1 f16_main_arg2 f16_main_arg3 f16_main_arg4 f16_main_v368 f16_main_v362 f16_main_v387 f16_main_v363 f16_main_arg5 f16_main_arg6 f16_main_arg7 f16_main_arg8 f16_main_arg9 f16_main_v343 ⊢
  clear f15_main_v370 f15_main_v373 f15_main_v387 f15_main_v389 f15_main_v391 f15_main_arg0 f15_main_arg1 f15_main_arg2 f15_main_arg3 f15_main_v365 f15_main_arg4 f15_main_v368 f15_main_v362 f15_main_v363 f15_main_arg5 f15_main_arg6 f15_main_arg7 f15_main_arg8 f15_main_arg9 f15_main_v343
  have f17_main_v456 : after ck17 W16 (Proc.devRef .tc main_v456) = (val_main_v456 (F := F) (V (Proc.devRef .tc main_arg0)) (V (Proc.devRef .tc main_arg4))) := ck17_main_v456 W16 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f16_main_v387 f16_main_v362 f16_main_v401 f16_main_v363 f16_main_v415 f16_main_arg4 f16_main_v420 f16_main_v422 f16_main_v368
  have f17_main_v457 : after ck17 W16 (Proc.devRef .tc main_v457) = (val_main_v457 (F := F)) := ck17_main_v457 W16 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f17_main_arg0 : after ck17 W16 (Proc.devRef .tc main_arg0) = (V (Proc.devRef .tc main_arg0)) := (ck17_pass_main_arg0 W16).trans f16_main_arg0
  have f17_main_arg1 : after ck17 W16 (Proc.devRef .tc main_arg1) = (V (Proc.devRef .tc main_arg1)) := (ck17_pass_main_arg1 W16).trans f16_main_arg1
  have f17_main_arg2 : after ck17 W16 (Proc.devRef .tc main_arg2) = (V (Proc.devRef .tc main_arg2)) := (ck17_pass_main_arg2 W16).trans f16_main_arg2
  have f17_main_arg3 : after ck17 W16 (Proc.devRef .tc main_arg3) = (V (Proc.devRef .tc main_arg3)) := (ck17_pass_main_arg3 W16).trans f16_main_arg3
  have f17_main_arg4 : after ck17 W16 (Proc.devRef .tc main_arg4) = (V (Proc.devRef .tc main_arg4)) := (ck17_pass_main_arg4 W16).trans f16_main_arg4
  have f17_main_arg5 : after ck17 W16 (Proc.devRef .tc main_arg5) = (V (Proc.devRef .tc main_arg5)) := (ck17_pass_main_arg5 W16).trans f16_main_arg5
  have f17_main_arg6 : after ck17 W16 (Proc.devRef .tc main_arg6) = (V (Proc.devRef .tc main_arg6)) := (ck17_pass_main_arg6 W16).trans f16_main_arg6
  have f17_main_arg7 : after ck17 W16 (Proc.devRef .tc main_arg7) = (V (Proc.devRef .tc main_arg7)) := (ck17_pass_main_arg7 W16).trans f16_main_arg7
  have f17_main_arg8 : after ck17 W16 (Proc.devRef .tc main_arg8) = (V (Proc.devRef .tc main_arg8)) := (ck17_pass_main_arg8 W16).trans f16_main_arg8
  have f17_main_arg9 : after ck17 W16 (Proc.devRef .tc main_arg9) = (V (Proc.devRef .tc main_arg9)) := (ck17_pass_main_arg9 W16).trans f16_main_arg9
  have f17_main_v343 : after ck17 W16 (Proc.devRef .tc main_v343) = (val_main_v343 (F := F) (V (Proc.devRef .tc main_arg0)) (V (Proc.devRef .tc main_arg1)) (V (Proc.devRef .tc main_arg2)) (V (Proc.devRef .tc main_arg3))) := (ck17_pass_main_v343 W16).trans f16_main_v343
  generalize after ck17 W16 = W17 at f17_main_v456 f17_main_v457 f17_main_arg0 f17_main_arg1 f17_main_arg2 f17_main_arg3 f17_main_arg4 f17_main_arg5 f17_main_arg6 f17_main_arg7 f17_main_arg8 f17_main_arg9 f17_main_v343 ⊢
  clear f16_main_v401 f16_main_v415 f16_main_v420 f16_main_v422 f16_main_arg0 f16_main_arg1 f16_main_arg2 f16_main_arg3 f16_main_arg4 f16_main_v368 f16_main_v362 f16_main_v387 f16_main_v363 f16_main_arg5 f16_main_arg6 f16_main_arg7 f16_main_arg8 f16_main_arg9 f16_main_v343
  have f18_main_v458 : after ck18 W17 (Proc.devRef .tc main_v458) = (val_main_v458 (F := F) (V (Proc.devRef .tc main_arg0)) (V (Proc.devRef .tc main_arg4))) := ck18_main_v458 W17 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f17_main_v457 f17_main_v456
  have f18_main_v476 : after ck18 W17 (Proc.devRef .tc main_v476) = (val_main_v476 (F := F) (V (Proc.devRef .tc main_arg0))) := ck18_main_v476 W17 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f17_main_arg0
  have f18_main_v477 : after ck18 W17 (Proc.devRef .tc main_v477) = (val_main_v477 (F := F) (V (Proc.devRef .tc main_arg0))) := ck18_main_v477 W17 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f17_main_arg0
  have f18_main_v478 : after ck18 W17 (Proc.devRef .tc main_v478) = (val_main_v478 (F := F) (V (Proc.devRef .tc main_arg0))) := ck18_main_v478 W17 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f17_main_arg0
  have f18_main_v480 : after ck18 W17 (Proc.devRef .tc main_v480) = (val_main_v480 (F := F) (V (Proc.devRef .tc main_arg0))) := ck18_main_v480 W17 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f17_main_arg0
  have f18_main_v482 : after ck18 W17 (Proc.devRef .tc main_v482) = (val_main_v482 (F := F) (V (Proc.devRef .tc main_arg0))) := ck18_main_v482 W17 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f17_main_arg0
  have f18_main_c_149 : after ck18 W17 (Proc.devRef .tc main_c_149) = (val_main_c_149 (F := F)) := ck18_main_c_149 W17 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f18_main_arg0 : after ck18 W17 (Proc.devRef .tc main_arg0) = (V (Proc.devRef .tc main_arg0)) := (ck18_pass_main_arg0 W17).trans f17_main_arg0
  have f18_main_arg1 : after ck18 W17 (Proc.devRef .tc main_arg1) = (V (Proc.devRef .tc main_arg1)) := (ck18_pass_main_arg1 W17).trans f17_main_arg1
  have f18_main_arg2 : after ck18 W17 (Proc.devRef .tc main_arg2) = (V (Proc.devRef .tc main_arg2)) := (ck18_pass_main_arg2 W17).trans f17_main_arg2
  have f18_main_arg3 : after ck18 W17 (Proc.devRef .tc main_arg3) = (V (Proc.devRef .tc main_arg3)) := (ck18_pass_main_arg3 W17).trans f17_main_arg3
  have f18_main_arg4 : after ck18 W17 (Proc.devRef .tc main_arg4) = (V (Proc.devRef .tc main_arg4)) := (ck18_pass_main_arg4 W17).trans f17_main_arg4
  have f18_main_arg5 : after ck18 W17 (Proc.devRef .tc main_arg5) = (V (Proc.devRef .tc main_arg5)) := (ck18_pass_main_arg5 W17).trans f17_main_arg5
  have f18_main_arg6 : after ck18 W17 (Proc.devRef .tc main_arg6) = (V (Proc.devRef .tc main_arg6)) := (ck18_pass_main_arg6 W17).trans f17_main_arg6
  have f18_main_arg7 : after ck18 W17 (Proc.devRef .tc main_arg7) = (V (Proc.devRef .tc main_arg7)) := (ck18_pass_main_arg7 W17).trans f17_main_arg7
  have f18_main_arg8 : after ck18 W17 (Proc.devRef .tc main_arg8) = (V (Proc.devRef .tc main_arg8)) := (ck18_pass_main_arg8 W17).trans f17_main_arg8
  have f18_main_arg9 : after ck18 W17 (Proc.devRef .tc main_arg9) = (V (Proc.devRef .tc main_arg9)) := (ck18_pass_main_arg9 W17).trans f17_main_arg9
  have f18_main_v343 : after ck18 W17 (Proc.devRef .tc main_v343) = (val_main_v343 (F := F) (V (Proc.devRef .tc main_arg0)) (V (Proc.devRef .tc main_arg1)) (V (Proc.devRef .tc main_arg2)) (V (Proc.devRef .tc main_arg3))) := (ck18_pass_main_v343 W17).trans f17_main_v343
  generalize after ck18 W17 = W18 at f18_main_v458 f18_main_v476 f18_main_v477 f18_main_v478 f18_main_v480 f18_main_v482 f18_main_c_149 f18_main_arg0 f18_main_arg1 f18_main_arg2 f18_main_arg3 f18_main_arg4 f18_main_arg5 f18_main_arg6 f18_main_arg7 f18_main_arg8 f18_main_arg9 f18_main_v343 ⊢
  clear f17_main_v456 f17_main_v457 f17_main_arg0 f17_main_arg1 f17_main_arg2 f17_main_arg3 f17_main_arg4 f17_main_arg5 f17_main_arg6 f17_main_arg7 f17_main_arg8 f17_main_arg9 f17_main_v343
  have f19_main_v483 : after ck19 W18 (Proc.devRef .tc main_v483) = (val_main_v483 (F := F) (V (Proc.devRef .tc main_arg0))) := ck19_main_v483 W18 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f18_main_c_149 f18_main_v482
  have f19_main_v485 : after ck19 W18 (Proc.devRef .tc main_v485) = (val_main_v485 (F := F) (V (Proc.devRef .tc main_arg0))) := ck19_main_v485 W18 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f18_main_v476
  have f19_main_v488 : after ck19 W18 (Proc.devRef .tc main_v488) = (val_main_v488 (F := F) (V (Proc.devRef .tc main_arg0))) := ck19_main_v488 W18 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f18_main_v476
  have f19_main_v493 : after ck19 W18 (Proc.devRef .tc main_v493) = (val_main_v493 (F := F) (V (Proc.devRef .tc main_arg0))) := ck19_main_v493 W18 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f18_main_v476
  have f19_main_v495 : after ck19 W18 (Proc.devRef .tc main_v495) = (val_main_v495 (F := F) (V (Proc.devRef .tc main_arg0))) := ck19_main_v495 W18 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f18_main_v480
  have f19_main_v497 : after ck19 W18 (Proc.devRef .tc main_v497) = (val_main_v497 (F := F) (V (Proc.devRef .tc main_arg0))) := ck19_main_v497 W18 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f18_main_v480
  have f19_main_arg0 : after ck19 W18 (Proc.devRef .tc main_arg0) = (V (Proc.devRef .tc main_arg0)) := (ck19_pass_main_arg0 W18).trans f18_main_arg0
  have f19_main_arg1 : after ck19 W18 (Proc.devRef .tc main_arg1) = (V (Proc.devRef .tc main_arg1)) := (ck19_pass_main_arg1 W18).trans f18_main_arg1
  have f19_main_arg2 : after ck19 W18 (Proc.devRef .tc main_arg2) = (V (Proc.devRef .tc main_arg2)) := (ck19_pass_main_arg2 W18).trans f18_main_arg2
  have f19_main_arg3 : after ck19 W18 (Proc.devRef .tc main_arg3) = (V (Proc.devRef .tc main_arg3)) := (ck19_pass_main_arg3 W18).trans f18_main_arg3
  have f19_main_arg4 : after ck19 W18 (Proc.devRef .tc main_arg4) = (V (Proc.devRef .tc main_arg4)) := (ck19_pass_main_arg4 W18).trans f18_main_arg4
  have f19_main_v480 : after ck19 W18 (Proc.devRef .tc main_v480) = (val_main_v480 (F := F) (V (Proc.devRef .tc main_arg0))) := (ck19_pass_main_v480 W18).trans f18_main_v480
  have f19_main_arg5 : after ck19 W18 (Proc.devRef .tc main_arg5) = (V (Proc.devRef .tc main_arg5)) := (ck19_pass_main_arg5 W18).trans f18_main_arg5
  have f19_main_v477 : after ck19 W18 (Proc.devRef .tc main_v477) = (val_main_v477 (F := F) (V (Proc.devRef .tc main_arg0))) := (ck19_pass_main_v477 W18).trans f18_main_v477
  have f19_main_v478 : after ck19 W18 (Proc.devRef .tc main_v478) = (val_main_v478 (F := F) (V (Proc.devRef .tc main_arg0))) := (ck19_pass_main_v478 W18).trans f18_main_v478
  have f19_main_v458 : after ck19 W18 (Proc.devRef .tc main_v458) = (val_main_v458 (F := F) (V (Proc.devRef .tc main_arg0)) (V (Proc.devRef .tc main_arg4))) := (ck19_pass_main_v458 W18).trans f18_main_v458
  have f19_main_arg6 : after ck19 W18 (Proc.devRef .tc main_arg6) = (V (Proc.devRef .tc main_arg6)) := (ck19_pass_main_arg6 W18).trans f18_main_arg6
  have f19_main_arg7 : after ck19 W18 (Proc.devRef .tc main_arg7) = (V (Proc.devRef .tc main_arg7)) := (ck19_pass_main_arg7 W18).trans f18_main_arg7
  have f19_main_arg8 : after ck19 W18 (Proc.devRef .tc main_arg8) = (V (Proc.devRef .tc main_arg8)) := (ck19_pass_main_arg8 W18).trans f18_main_arg8
  have f19_main_arg9 : after ck19 W18 (Proc.devRef .tc main_arg9) = (V (Proc.devRef .tc main_arg9)) := (ck19_pass_main_arg9 W18).trans f18_main_arg9
  have f19_main_v343 : after ck19 W18 (Proc.devRef .tc main_v343) = (val_main_v343 (F := F) (V (Proc.devRef .tc main_arg0)) (V (Proc.devRef .tc main_arg1)) (V (Proc.devRef .tc main_arg2)) (V (Proc.devRef .tc main_arg3))) := (ck19_pass_main_v343 W18).trans f18_main_v343
  generalize after ck19 W18 = W19 at f19_main_v483 f19_main_v485 f19_main_v488 f19_main_v493 f19_main_v495 f19_main_v497 f19_main_arg0 f19_main_arg1 f19_main_arg2 f19_main_arg3 f19_main_arg4 f19_main_v480 f19_main_arg5 f19_main_v477 f19_main_v478 f19_main_v458 f19_main_arg6 f19_main_arg7 f19_main_arg8 f19_main_arg9 f19_main_v343 ⊢
  clear f18_main_v458 f18_main_v476 f18_main_v477 f18_main_v478 f18_main_v480 f18_main_v482 f18_main_c_149 f18_main_arg0 f18_main_arg1 f18_main_arg2 f18_main_arg3 f18_main_arg4 f18_main_arg5 f18_main_arg6 f18_main_arg7 f18_main_arg8 f18_main_arg9 f18_main_v343
  have f20_main_v502 : after ck20 W19 (Proc.devRef .tc main_v502) = (val_main_v502 (F := F) (V (Proc.devRef .tc main_arg0)) (V (Proc.devRef .tc main_arg5))) := ck20_main_v502 W19 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f19_main_arg5 f19_main_v493 f19_main_v495 f19_main_v497 f19_main_v480
  have f20_main_v516 : after ck20 W19 (Proc.devRef .tc main_v516) = (val_main_v516 (F := F) (V (Proc.devRef .tc main_arg0)) (V (Proc.devRef .tc main_arg5))) := ck20_main_v516 W19 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f19_main_arg5 f19_main_v485 f19_main_v483
  have f20_main_v529 : after ck20 W19 (Proc.devRef .tc main_v529) = (val_main_v529 (F := F) (V (Proc.devRef .tc main_arg0))) := ck20_main_v529 W19 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f19_main_v488 f19_main_v480
  have f20_main_arg0 : after ck20 W19 (Proc.devRef .tc main_arg0) = (V (Proc.devRef .tc main_arg0)) := (ck20_pass_main_arg0 W19).trans f19_main_arg0
  have f20_main_arg1 : after ck20 W19 (Proc.devRef .tc main_arg1) = (V (Proc.devRef .tc main_arg1)) := (ck20_pass_main_arg1 W19).trans f19_main_arg1
  have f20_main_arg2 : after ck20 W19 (Proc.devRef .tc main_arg2) = (V (Proc.devRef .tc main_arg2)) := (ck20_pass_main_arg2 W19).trans f19_main_arg2
  have f20_main_arg3 : after ck20 W19 (Proc.devRef .tc main_arg3) = (V (Proc.devRef .tc main_arg3)) := (ck20_pass_main_arg3 W19).trans f19_main_arg3
  have f20_main_arg4 : after ck20 W19 (Proc.devRef .tc main_arg4) = (V (Proc.devRef .tc main_arg4)) := (ck20_pass_main_arg4 W19).trans f19_main_arg4
  have f20_main_arg5 : after ck20 W19 (Proc.devRef .tc main_arg5) = (V (Proc.devRef .tc main_arg5)) := (ck20_pass_main_arg5 W19).trans f19_main_arg5
  have f20_main_v483 : after ck20 W19 (Proc.devRef .tc main_v483) = (val_main_v483 (F := F) (V (Proc.devRef .tc main_arg0))) := (ck20_pass_main_v483 W19).trans f19_main_v483
  have f20_main_v488 : after ck20 W19 (Proc.devRef .tc main_v488) = (val_main_v488 (F := F) (V (Proc.devRef .tc main_arg0))) := (ck20_pass_main_v488 W19).trans f19_main_v488
  have f20_main_v477 : after ck20 W19 (Proc.devRef .tc main_v477) = (val_main_v477 (F := F) (V (Proc.devRef .tc main_arg0))) := (ck20_pass_main_v477 W19).trans f19_main_v477
  have f20_main_v478 : after ck20 W19 (Proc.devRef .tc main_v478) = (val_main_v478 (F := F) (V (Proc.devRef .tc main_arg0))) := (ck20_pass_main_v478 W19).trans f19_main_v478
  have f20_main_v458 : after ck20 W19 (Proc.devRef .tc main_v458) = (val_main_v458 (F := F) (V (Proc.devRef .tc main_arg0)) (V (Proc.devRef .tc main_arg4))) := (ck20_pass_main_v458 W19).trans f19_main_v458
  have f20_main_arg6 : after ck20 W19 (Proc.devRef .tc main_arg6) = (V (Proc.devRef .tc main_arg6)) := (ck20_pass_main_arg6 W19).trans f19_main_arg6
  have f20_main_arg7 : after ck20 W19 (Proc.devRef .tc main_arg7) = (V (Proc.devRef .tc main_arg7)) := (ck20_pass_main_arg7 W19).trans f19_main_arg7
  have f20_main_arg8 : after ck20 W19 (Proc.devRef .tc main_arg8) = (V (Proc.devRef .tc main_arg8)) := (ck20_pass_main_arg8 W19).trans f19_main_arg8
  have f20_main_arg9 : after ck20 W19 (Proc.devRef .tc main_arg9) = (V (Proc.devRef .tc main_arg9)) := (ck20_pass_main_arg9 W19).trans f19_main_arg9
  have f20_main_v343 : after ck20 W19 (Proc.devRef .tc main_v343) = (val_main_v343 (F := F) (V (Proc.devRef .tc main_arg0)) (V (Proc.devRef .tc main_arg1)) (V (Proc.devRef .tc main_arg2)) (V (Proc.devRef .tc main_arg3))) := (ck20_pass_main_v343 W19).trans f19_main_v343
  generalize after ck20 W19 = W20 at f20_main_v502 f20_main_v516 f20_main_v529 f20_main_arg0 f20_main_arg1 f20_main_arg2 f20_main_arg3 f20_main_arg4 f20_main_arg5 f20_main_v483 f20_main_v488 f20_main_v477 f20_main_v478 f20_main_v458 f20_main_arg6 f20_main_arg7 f20_main_arg8 f20_main_arg9 f20_main_v343 ⊢
  clear f19_main_v483 f19_main_v485 f19_main_v488 f19_main_v493 f19_main_v495 f19_main_v497 f19_main_arg0 f19_main_arg1 f19_main_arg2 f19_main_arg3 f19_main_arg4 f19_main_v480 f19_main_arg5 f19_main_v477 f19_main_v478 f19_main_v458 f19_main_arg6 f19_main_arg7 f19_main_arg8 f19_main_arg9 f19_main_v343
  have f21_main_v553 : after ck21 W20 (Proc.devRef .tc main_v553) = (val_main_v553 (F := F) (V (Proc.devRef .tc main_arg0)) (V (Proc.devRef .tc main_arg5))) := ck21_main_v553 W20 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f20_main_v502 f20_main_v477 f20_main_v516
  have f21_main_v562 : after ck21 W20 (Proc.devRef .tc main_v562) = (val_main_v562 (F := F) (V (Proc.devRef .tc main_arg0)) (V (Proc.devRef .tc main_arg5))) := ck21_main_v562 W20 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f20_main_arg5 f20_main_v529 f20_main_v477 f20_main_v488 f20_main_v483
  have f21_main_cst_174 : after ck21 W20 (Proc.devRef .tc main_cst_174) = (val_main_cst_174 (F := F)) := ck21_main_cst_174 W20 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f21_main_arg0 : after ck21 W20 (Proc.devRef .tc main_arg0) = (V (Proc.devRef .tc main_arg0)) := (ck21_pass_main_arg0 W20).trans f20_main_arg0
  have f21_main_arg1 : after ck21 W20 (Proc.devRef .tc main_arg1) = (V (Proc.devRef .tc main_arg1)) := (ck21_pass_main_arg1 W20).trans f20_main_arg1
  have f21_main_arg2 : after ck21 W20 (Proc.devRef .tc main_arg2) = (V (Proc.devRef .tc main_arg2)) := (ck21_pass_main_arg2 W20).trans f20_main_arg2
  have f21_main_arg3 : after ck21 W20 (Proc.devRef .tc main_arg3) = (V (Proc.devRef .tc main_arg3)) := (ck21_pass_main_arg3 W20).trans f20_main_arg3
  have f21_main_arg4 : after ck21 W20 (Proc.devRef .tc main_arg4) = (V (Proc.devRef .tc main_arg4)) := (ck21_pass_main_arg4 W20).trans f20_main_arg4
  have f21_main_arg5 : after ck21 W20 (Proc.devRef .tc main_arg5) = (V (Proc.devRef .tc main_arg5)) := (ck21_pass_main_arg5 W20).trans f20_main_arg5
  have f21_main_v478 : after ck21 W20 (Proc.devRef .tc main_v478) = (val_main_v478 (F := F) (V (Proc.devRef .tc main_arg0))) := (ck21_pass_main_v478 W20).trans f20_main_v478
  have f21_main_v458 : after ck21 W20 (Proc.devRef .tc main_v458) = (val_main_v458 (F := F) (V (Proc.devRef .tc main_arg0)) (V (Proc.devRef .tc main_arg4))) := (ck21_pass_main_v458 W20).trans f20_main_v458
  have f21_main_arg6 : after ck21 W20 (Proc.devRef .tc main_arg6) = (V (Proc.devRef .tc main_arg6)) := (ck21_pass_main_arg6 W20).trans f20_main_arg6
  have f21_main_arg7 : after ck21 W20 (Proc.devRef .tc main_arg7) = (V (Proc.devRef .tc main_arg7)) := (ck21_pass_main_arg7 W20).trans f20_main_arg7
  have f21_main_arg8 : after ck21 W20 (Proc.devRef .tc main_arg8) = (V (Proc.devRef .tc main_arg8)) := (ck21_pass_main_arg8 W20).trans f20_main_arg8
  have f21_main_arg9 : after ck21 W20 (Proc.devRef .tc main_arg9) = (V (Proc.devRef .tc main_arg9)) := (ck21_pass_main_arg9 W20).trans f20_main_arg9
  have f21_main_v343 : after ck21 W20 (Proc.devRef .tc main_v343) = (val_main_v343 (F := F) (V (Proc.devRef .tc main_arg0)) (V (Proc.devRef .tc main_arg1)) (V (Proc.devRef .tc main_arg2)) (V (Proc.devRef .tc main_arg3))) := (ck21_pass_main_v343 W20).trans f20_main_v343
  generalize after ck21 W20 = W21 at f21_main_v553 f21_main_v562 f21_main_cst_174 f21_main_arg0 f21_main_arg1 f21_main_arg2 f21_main_arg3 f21_main_arg4 f21_main_arg5 f21_main_v478 f21_main_v458 f21_main_arg6 f21_main_arg7 f21_main_arg8 f21_main_arg9 f21_main_v343 ⊢
  clear f20_main_v502 f20_main_v516 f20_main_v529 f20_main_arg0 f20_main_arg1 f20_main_arg2 f20_main_arg3 f20_main_arg4 f20_main_arg5 f20_main_v483 f20_main_v488 f20_main_v477 f20_main_v478 f20_main_v458 f20_main_arg6 f20_main_arg7 f20_main_arg8 f20_main_arg9 f20_main_v343
  have f22_main_v572 : after ck22 W21 (Proc.devRef .tc main_v572) = (val_main_v572 (F := F) (V (Proc.devRef .tc main_arg0)) (V (Proc.devRef .tc main_arg4)) (V (Proc.devRef .tc main_arg5))) := ck22_main_v572 W21 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f21_main_v458 f21_main_v553 f21_main_cst_174 f21_main_v478 f21_main_v562
  have f22_main_v590 : after ck22 W21 (Proc.devRef .tc main_v590) = (val_main_v590 (F := F) (V (Proc.devRef .tc main_arg0))) := ck22_main_v590 W21 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f21_main_arg0
  have f22_main_v591 : after ck22 W21 (Proc.devRef .tc main_v591) = (val_main_v591 (F := F) (V (Proc.devRef .tc main_arg0))) := ck22_main_v591 W21 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f21_main_arg0
  have f22_main_v592 : after ck22 W21 (Proc.devRef .tc main_v592) = (val_main_v592 (F := F) (V (Proc.devRef .tc main_arg0))) := ck22_main_v592 W21 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f21_main_arg0
  have f22_main_v593 : after ck22 W21 (Proc.devRef .tc main_v593) = (val_main_v593 (F := F) (V (Proc.devRef .tc main_arg0))) := ck22_main_v593 W21 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f21_main_arg0
  have f22_main_c_182 : after ck22 W21 (Proc.devRef .tc main_c_182) = (val_main_c_182 (F := F)) := ck22_main_c_182 W21 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f22_main_call20_v0 : after ck22 W21 (Proc.devRef .tc main_call20_v0) = (val_main_call20_v0 (F := F)) := ck22_main_call20_v0 W21 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f22_main_arg0 : after ck22 W21 (Proc.devRef .tc main_arg0) = (V (Proc.devRef .tc main_arg0)) := (ck22_pass_main_arg0 W21).trans f21_main_arg0
  have f22_main_arg1 : after ck22 W21 (Proc.devRef .tc main_arg1) = (V (Proc.devRef .tc main_arg1)) := (ck22_pass_main_arg1 W21).trans f21_main_arg1
  have f22_main_arg2 : after ck22 W21 (Proc.devRef .tc main_arg2) = (V (Proc.devRef .tc main_arg2)) := (ck22_pass_main_arg2 W21).trans f21_main_arg2
  have f22_main_arg3 : after ck22 W21 (Proc.devRef .tc main_arg3) = (V (Proc.devRef .tc main_arg3)) := (ck22_pass_main_arg3 W21).trans f21_main_arg3
  have f22_main_arg4 : after ck22 W21 (Proc.devRef .tc main_arg4) = (V (Proc.devRef .tc main_arg4)) := (ck22_pass_main_arg4 W21).trans f21_main_arg4
  have f22_main_arg5 : after ck22 W21 (Proc.devRef .tc main_arg5) = (V (Proc.devRef .tc main_arg5)) := (ck22_pass_main_arg5 W21).trans f21_main_arg5
  have f22_main_arg6 : after ck22 W21 (Proc.devRef .tc main_arg6) = (V (Proc.devRef .tc main_arg6)) := (ck22_pass_main_arg6 W21).trans f21_main_arg6
  have f22_main_arg7 : after ck22 W21 (Proc.devRef .tc main_arg7) = (V (Proc.devRef .tc main_arg7)) := (ck22_pass_main_arg7 W21).trans f21_main_arg7
  have f22_main_arg8 : after ck22 W21 (Proc.devRef .tc main_arg8) = (V (Proc.devRef .tc main_arg8)) := (ck22_pass_main_arg8 W21).trans f21_main_arg8
  have f22_main_arg9 : after ck22 W21 (Proc.devRef .tc main_arg9) = (V (Proc.devRef .tc main_arg9)) := (ck22_pass_main_arg9 W21).trans f21_main_arg9
  have f22_main_v343 : after ck22 W21 (Proc.devRef .tc main_v343) = (val_main_v343 (F := F) (V (Proc.devRef .tc main_arg0)) (V (Proc.devRef .tc main_arg1)) (V (Proc.devRef .tc main_arg2)) (V (Proc.devRef .tc main_arg3))) := (ck22_pass_main_v343 W21).trans f21_main_v343
  generalize after ck22 W21 = W22 at f22_main_v572 f22_main_v590 f22_main_v591 f22_main_v592 f22_main_v593 f22_main_c_182 f22_main_call20_v0 f22_main_arg0 f22_main_arg1 f22_main_arg2 f22_main_arg3 f22_main_arg4 f22_main_arg5 f22_main_arg6 f22_main_arg7 f22_main_arg8 f22_main_arg9 f22_main_v343 ⊢
  clear f21_main_v553 f21_main_v562 f21_main_cst_174 f21_main_arg0 f21_main_arg1 f21_main_arg2 f21_main_arg3 f21_main_arg4 f21_main_arg5 f21_main_v478 f21_main_v458 f21_main_arg6 f21_main_arg7 f21_main_arg8 f21_main_arg9 f21_main_v343
  have f23_main_v594 : after ck23 W22 (Proc.devRef .tc main_v594) = (val_main_v594 (F := F) (V (Proc.devRef .tc main_arg0))) := ck23_main_v594 W22 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f22_main_c_182 f22_main_call20_v0 f22_main_v593
  have f23_main_v597 : after ck23 W22 (Proc.devRef .tc main_v597) = (val_main_v597 (F := F) (V (Proc.devRef .tc main_arg0))) := ck23_main_v597 W22 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f22_main_c_182 f22_main_call20_v0 f22_main_v593
  have f23_main_v599 : after ck23 W22 (Proc.devRef .tc main_v599) = (val_main_v599 (F := F) (V (Proc.devRef .tc main_arg0))) := ck23_main_v599 W22 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f22_main_v590
  have f23_main_v602 : after ck23 W22 (Proc.devRef .tc main_v602) = (val_main_v602 (F := F) (V (Proc.devRef .tc main_arg0))) := ck23_main_v602 W22 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f22_main_v590
  have f23_main_v604 : after ck23 W22 (Proc.devRef .tc main_v604) = (val_main_v604 (F := F) (V (Proc.devRef .tc main_arg0))) := ck23_main_v604 W22 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f22_main_v590
  have f23_main_c_192 : after ck23 W22 (Proc.devRef .tc main_c_192) = (val_main_c_192 (F := F)) := ck23_main_c_192 W22 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f23_main_arg0 : after ck23 W22 (Proc.devRef .tc main_arg0) = (V (Proc.devRef .tc main_arg0)) := (ck23_pass_main_arg0 W22).trans f22_main_arg0
  have f23_main_arg1 : after ck23 W22 (Proc.devRef .tc main_arg1) = (V (Proc.devRef .tc main_arg1)) := (ck23_pass_main_arg1 W22).trans f22_main_arg1
  have f23_main_arg2 : after ck23 W22 (Proc.devRef .tc main_arg2) = (V (Proc.devRef .tc main_arg2)) := (ck23_pass_main_arg2 W22).trans f22_main_arg2
  have f23_main_arg3 : after ck23 W22 (Proc.devRef .tc main_arg3) = (V (Proc.devRef .tc main_arg3)) := (ck23_pass_main_arg3 W22).trans f22_main_arg3
  have f23_main_arg4 : after ck23 W22 (Proc.devRef .tc main_arg4) = (V (Proc.devRef .tc main_arg4)) := (ck23_pass_main_arg4 W22).trans f22_main_arg4
  have f23_main_arg5 : after ck23 W22 (Proc.devRef .tc main_arg5) = (V (Proc.devRef .tc main_arg5)) := (ck23_pass_main_arg5 W22).trans f22_main_arg5
  have f23_main_arg6 : after ck23 W22 (Proc.devRef .tc main_arg6) = (V (Proc.devRef .tc main_arg6)) := (ck23_pass_main_arg6 W22).trans f22_main_arg6
  have f23_main_v591 : after ck23 W22 (Proc.devRef .tc main_v591) = (val_main_v591 (F := F) (V (Proc.devRef .tc main_arg0))) := (ck23_pass_main_v591 W22).trans f22_main_v591
  have f23_main_v592 : after ck23 W22 (Proc.devRef .tc main_v592) = (val_main_v592 (F := F) (V (Proc.devRef .tc main_arg0))) := (ck23_pass_main_v592 W22).trans f22_main_v592
  have f23_main_v572 : after ck23 W22 (Proc.devRef .tc main_v572) = (val_main_v572 (F := F) (V (Proc.devRef .tc main_arg0)) (V (Proc.devRef .tc main_arg4)) (V (Proc.devRef .tc main_arg5))) := (ck23_pass_main_v572 W22).trans f22_main_v572
  have f23_main_arg7 : after ck23 W22 (Proc.devRef .tc main_arg7) = (V (Proc.devRef .tc main_arg7)) := (ck23_pass_main_arg7 W22).trans f22_main_arg7
  have f23_main_arg8 : after ck23 W22 (Proc.devRef .tc main_arg8) = (V (Proc.devRef .tc main_arg8)) := (ck23_pass_main_arg8 W22).trans f22_main_arg8
  have f23_main_arg9 : after ck23 W22 (Proc.devRef .tc main_arg9) = (V (Proc.devRef .tc main_arg9)) := (ck23_pass_main_arg9 W22).trans f22_main_arg9
  have f23_main_v343 : after ck23 W22 (Proc.devRef .tc main_v343) = (val_main_v343 (F := F) (V (Proc.devRef .tc main_arg0)) (V (Proc.devRef .tc main_arg1)) (V (Proc.devRef .tc main_arg2)) (V (Proc.devRef .tc main_arg3))) := (ck23_pass_main_v343 W22).trans f22_main_v343
  generalize after ck23 W22 = W23 at f23_main_v594 f23_main_v597 f23_main_v599 f23_main_v602 f23_main_v604 f23_main_c_192 f23_main_arg0 f23_main_arg1 f23_main_arg2 f23_main_arg3 f23_main_arg4 f23_main_arg5 f23_main_arg6 f23_main_v591 f23_main_v592 f23_main_v572 f23_main_arg7 f23_main_arg8 f23_main_arg9 f23_main_v343 ⊢
  clear f22_main_v572 f22_main_v590 f22_main_v591 f22_main_v592 f22_main_v593 f22_main_c_182 f22_main_call20_v0 f22_main_arg0 f22_main_arg1 f22_main_arg2 f22_main_arg3 f22_main_arg4 f22_main_arg5 f22_main_arg6 f22_main_arg7 f22_main_arg8 f22_main_arg9 f22_main_v343
  have f24_main_v616 : after ck24 W23 (Proc.devRef .tc main_v616) = (val_main_v616 (F := F) (V (Proc.devRef .tc main_arg0)) (V (Proc.devRef .tc main_arg6))) := ck24_main_v616 W23 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f23_main_arg6 f23_main_v604 f23_main_v599 f23_main_c_192 f23_main_v594
  have f24_main_v630 : after ck24 W23 (Proc.devRef .tc main_v630) = (val_main_v630 (F := F) (V (Proc.devRef .tc main_arg0)) (V (Proc.devRef .tc main_arg6))) := ck24_main_v630 W23 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f23_main_arg6 f23_main_v599 f23_main_v597
  have f24_main_v635 : after ck24 W23 (Proc.devRef .tc main_v635) = (val_main_v635 (F := F) (V (Proc.devRef .tc main_arg0))) := ck24_main_v635 W23 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f23_main_v602
  have f24_main_c_201 : after ck24 W23 (Proc.devRef .tc main_c_201) = (val_main_c_201 (F := F)) := ck24_main_c_201 W23 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f24_main_arg0 : after ck24 W23 (Proc.devRef .tc main_arg0) = (V (Proc.devRef .tc main_arg0)) := (ck24_pass_main_arg0 W23).trans f23_main_arg0
  have f24_main_arg1 : after ck24 W23 (Proc.devRef .tc main_arg1) = (V (Proc.devRef .tc main_arg1)) := (ck24_pass_main_arg1 W23).trans f23_main_arg1
  have f24_main_arg2 : after ck24 W23 (Proc.devRef .tc main_arg2) = (V (Proc.devRef .tc main_arg2)) := (ck24_pass_main_arg2 W23).trans f23_main_arg2
  have f24_main_arg3 : after ck24 W23 (Proc.devRef .tc main_arg3) = (V (Proc.devRef .tc main_arg3)) := (ck24_pass_main_arg3 W23).trans f23_main_arg3
  have f24_main_arg4 : after ck24 W23 (Proc.devRef .tc main_arg4) = (V (Proc.devRef .tc main_arg4)) := (ck24_pass_main_arg4 W23).trans f23_main_arg4
  have f24_main_arg5 : after ck24 W23 (Proc.devRef .tc main_arg5) = (V (Proc.devRef .tc main_arg5)) := (ck24_pass_main_arg5 W23).trans f23_main_arg5
  have f24_main_v594 : after ck24 W23 (Proc.devRef .tc main_v594) = (val_main_v594 (F := F) (V (Proc.devRef .tc main_arg0))) := (ck24_pass_main_v594 W23).trans f23_main_v594
  have f24_main_arg6 : after ck24 W23 (Proc.devRef .tc main_arg6) = (V (Proc.devRef .tc main_arg6)) := (ck24_pass_main_arg6 W23).trans f23_main_arg6
  have f24_main_v597 : after ck24 W23 (Proc.devRef .tc main_v597) = (val_main_v597 (F := F) (V (Proc.devRef .tc main_arg0))) := (ck24_pass_main_v597 W23).trans f23_main_v597
  have f24_main_v602 : after ck24 W23 (Proc.devRef .tc main_v602) = (val_main_v602 (F := F) (V (Proc.devRef .tc main_arg0))) := (ck24_pass_main_v602 W23).trans f23_main_v602
  have f24_main_v591 : after ck24 W23 (Proc.devRef .tc main_v591) = (val_main_v591 (F := F) (V (Proc.devRef .tc main_arg0))) := (ck24_pass_main_v591 W23).trans f23_main_v591
  have f24_main_v592 : after ck24 W23 (Proc.devRef .tc main_v592) = (val_main_v592 (F := F) (V (Proc.devRef .tc main_arg0))) := (ck24_pass_main_v592 W23).trans f23_main_v592
  have f24_main_v572 : after ck24 W23 (Proc.devRef .tc main_v572) = (val_main_v572 (F := F) (V (Proc.devRef .tc main_arg0)) (V (Proc.devRef .tc main_arg4)) (V (Proc.devRef .tc main_arg5))) := (ck24_pass_main_v572 W23).trans f23_main_v572
  have f24_main_arg7 : after ck24 W23 (Proc.devRef .tc main_arg7) = (V (Proc.devRef .tc main_arg7)) := (ck24_pass_main_arg7 W23).trans f23_main_arg7
  have f24_main_arg8 : after ck24 W23 (Proc.devRef .tc main_arg8) = (V (Proc.devRef .tc main_arg8)) := (ck24_pass_main_arg8 W23).trans f23_main_arg8
  have f24_main_arg9 : after ck24 W23 (Proc.devRef .tc main_arg9) = (V (Proc.devRef .tc main_arg9)) := (ck24_pass_main_arg9 W23).trans f23_main_arg9
  have f24_main_v343 : after ck24 W23 (Proc.devRef .tc main_v343) = (val_main_v343 (F := F) (V (Proc.devRef .tc main_arg0)) (V (Proc.devRef .tc main_arg1)) (V (Proc.devRef .tc main_arg2)) (V (Proc.devRef .tc main_arg3))) := (ck24_pass_main_v343 W23).trans f23_main_v343
  generalize after ck24 W23 = W24 at f24_main_v616 f24_main_v630 f24_main_v635 f24_main_c_201 f24_main_arg0 f24_main_arg1 f24_main_arg2 f24_main_arg3 f24_main_arg4 f24_main_arg5 f24_main_v594 f24_main_arg6 f24_main_v597 f24_main_v602 f24_main_v591 f24_main_v592 f24_main_v572 f24_main_arg7 f24_main_arg8 f24_main_arg9 f24_main_v343 ⊢
  clear f23_main_v594 f23_main_v597 f23_main_v599 f23_main_v602 f23_main_v604 f23_main_c_192 f23_main_arg0 f23_main_arg1 f23_main_arg2 f23_main_arg3 f23_main_arg4 f23_main_arg5 f23_main_arg6 f23_main_v591 f23_main_v592 f23_main_v572 f23_main_arg7 f23_main_arg8 f23_main_arg9 f23_main_v343
  have f25_main_v644 : after ck25 W24 (Proc.devRef .tc main_v644) = (val_main_v644 (F := F) (V (Proc.devRef .tc main_arg0)) (V (Proc.devRef .tc main_arg6))) := ck25_main_v644 W24 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f24_main_arg6 f24_main_v635 f24_main_v594 f24_main_c_201
  have f25_main_v658 : after ck25 W24 (Proc.devRef .tc main_v658) = (val_main_v658 (F := F) (V (Proc.devRef .tc main_arg0)) (V (Proc.devRef .tc main_arg6))) := ck25_main_v658 W24 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f24_main_arg6 f24_main_v602 f24_main_v597
  have f25_main_v667 : after ck25 W24 (Proc.devRef .tc main_v667) = (val_main_v667 (F := F) (V (Proc.devRef .tc main_arg0)) (V (Proc.devRef .tc main_arg6))) := ck25_main_v667 W24 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f24_main_v616 f24_main_v591 f24_main_v630
  have f25_main_v668 : after ck25 W24 (Proc.devRef .tc main_v668) = (val_main_v668 (F := F)) := ck25_main_v668 W24 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f25_main_arg0 : after ck25 W24 (Proc.devRef .tc main_arg0) = (V (Proc.devRef .tc main_arg0)) := (ck25_pass_main_arg0 W24).trans f24_main_arg0
  have f25_main_arg1 : after ck25 W24 (Proc.devRef .tc main_arg1) = (V (Proc.devRef .tc main_arg1)) := (ck25_pass_main_arg1 W24).trans f24_main_arg1
  have f25_main_arg2 : after ck25 W24 (Proc.devRef .tc main_arg2) = (V (Proc.devRef .tc main_arg2)) := (ck25_pass_main_arg2 W24).trans f24_main_arg2
  have f25_main_arg3 : after ck25 W24 (Proc.devRef .tc main_arg3) = (V (Proc.devRef .tc main_arg3)) := (ck25_pass_main_arg3 W24).trans f24_main_arg3
  have f25_main_arg4 : after ck25 W24 (Proc.devRef .tc main_arg4) = (V (Proc.devRef .tc main_arg4)) := (ck25_pass_main_arg4 W24).trans f24_main_arg4
  have f25_main_arg5 : after ck25 W24 (Proc.devRef .tc main_arg5) = (V (Proc.devRef .tc main_arg5)) := (ck25_pass_main_arg5 W24).trans f24_main_arg5
  have f25_main_arg6 : after ck25 W24 (Proc.devRef .tc main_arg6) = (V (Proc.devRef .tc main_arg6)) := (ck25_pass_main_arg6 W24).trans f24_main_arg6
  have f25_main_v591 : after ck25 W24 (Proc.devRef .tc main_v591) = (val_main_v591 (F := F) (V (Proc.devRef .tc main_arg0))) := (ck25_pass_main_v591 W24).trans f24_main_v591
  have f25_main_v592 : after ck25 W24 (Proc.devRef .tc main_v592) = (val_main_v592 (F := F) (V (Proc.devRef .tc main_arg0))) := (ck25_pass_main_v592 W24).trans f24_main_v592
  have f25_main_v572 : after ck25 W24 (Proc.devRef .tc main_v572) = (val_main_v572 (F := F) (V (Proc.devRef .tc main_arg0)) (V (Proc.devRef .tc main_arg4)) (V (Proc.devRef .tc main_arg5))) := (ck25_pass_main_v572 W24).trans f24_main_v572
  have f25_main_arg7 : after ck25 W24 (Proc.devRef .tc main_arg7) = (V (Proc.devRef .tc main_arg7)) := (ck25_pass_main_arg7 W24).trans f24_main_arg7
  have f25_main_arg8 : after ck25 W24 (Proc.devRef .tc main_arg8) = (V (Proc.devRef .tc main_arg8)) := (ck25_pass_main_arg8 W24).trans f24_main_arg8
  have f25_main_arg9 : after ck25 W24 (Proc.devRef .tc main_arg9) = (V (Proc.devRef .tc main_arg9)) := (ck25_pass_main_arg9 W24).trans f24_main_arg9
  have f25_main_v343 : after ck25 W24 (Proc.devRef .tc main_v343) = (val_main_v343 (F := F) (V (Proc.devRef .tc main_arg0)) (V (Proc.devRef .tc main_arg1)) (V (Proc.devRef .tc main_arg2)) (V (Proc.devRef .tc main_arg3))) := (ck25_pass_main_v343 W24).trans f24_main_v343
  generalize after ck25 W24 = W25 at f25_main_v644 f25_main_v658 f25_main_v667 f25_main_v668 f25_main_arg0 f25_main_arg1 f25_main_arg2 f25_main_arg3 f25_main_arg4 f25_main_arg5 f25_main_arg6 f25_main_v591 f25_main_v592 f25_main_v572 f25_main_arg7 f25_main_arg8 f25_main_arg9 f25_main_v343 ⊢
  clear f24_main_v616 f24_main_v630 f24_main_v635 f24_main_c_201 f24_main_arg0 f24_main_arg1 f24_main_arg2 f24_main_arg3 f24_main_arg4 f24_main_arg5 f24_main_v594 f24_main_arg6 f24_main_v597 f24_main_v602 f24_main_v591 f24_main_v592 f24_main_v572 f24_main_arg7 f24_main_arg8 f24_main_arg9 f24_main_v343
  have f26_main_v687 : after ck26 W25 (Proc.devRef .tc main_v687) = (val_main_v687 (F := F) (V (Proc.devRef .tc main_arg0)) (V (Proc.devRef .tc main_arg4)) (V (Proc.devRef .tc main_arg5)) (V (Proc.devRef .tc main_arg6))) := ck26_main_v687 W25 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f25_main_v572 f25_main_v667 f25_main_v592 f25_main_v644 f25_main_v668 f25_main_v591 f25_main_v658
  have f26_main_v697 : after ck26 W25 (Proc.devRef .tc main_v697) = (val_main_v697 (F := F) (V (Proc.devRef .tc main_arg0))) := ck26_main_v697 W25 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f25_main_arg0
  have f26_main_v701 : after ck26 W25 (Proc.devRef .tc main_v701) = (val_main_v701 (F := F) (V (Proc.devRef .tc main_arg0))) := ck26_main_v701 W25 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f25_main_arg0
  have f26_main_cst_215 : after ck26 W25 (Proc.devRef .tc main_cst_215) = (val_main_cst_215 (F := F)) := ck26_main_cst_215 W25 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f26_main_arg0 : after ck26 W25 (Proc.devRef .tc main_arg0) = (V (Proc.devRef .tc main_arg0)) := (ck26_pass_main_arg0 W25).trans f25_main_arg0
  have f26_main_arg1 : after ck26 W25 (Proc.devRef .tc main_arg1) = (V (Proc.devRef .tc main_arg1)) := (ck26_pass_main_arg1 W25).trans f25_main_arg1
  have f26_main_arg2 : after ck26 W25 (Proc.devRef .tc main_arg2) = (V (Proc.devRef .tc main_arg2)) := (ck26_pass_main_arg2 W25).trans f25_main_arg2
  have f26_main_arg3 : after ck26 W25 (Proc.devRef .tc main_arg3) = (V (Proc.devRef .tc main_arg3)) := (ck26_pass_main_arg3 W25).trans f25_main_arg3
  have f26_main_arg4 : after ck26 W25 (Proc.devRef .tc main_arg4) = (V (Proc.devRef .tc main_arg4)) := (ck26_pass_main_arg4 W25).trans f25_main_arg4
  have f26_main_arg5 : after ck26 W25 (Proc.devRef .tc main_arg5) = (V (Proc.devRef .tc main_arg5)) := (ck26_pass_main_arg5 W25).trans f25_main_arg5
  have f26_main_arg6 : after ck26 W25 (Proc.devRef .tc main_arg6) = (V (Proc.devRef .tc main_arg6)) := (ck26_pass_main_arg6 W25).trans f25_main_arg6
  have f26_main_arg7 : after ck26 W25 (Proc.devRef .tc main_arg7) = (V (Proc.devRef .tc main_arg7)) := (ck26_pass_main_arg7 W25).trans f25_main_arg7
  have f26_main_arg8 : after ck26 W25 (Proc.devRef .tc main_arg8) = (V (Proc.devRef .tc main_arg8)) := (ck26_pass_main_arg8 W25).trans f25_main_arg8
  have f26_main_arg9 : after ck26 W25 (Proc.devRef .tc main_arg9) = (V (Proc.devRef .tc main_arg9)) := (ck26_pass_main_arg9 W25).trans f25_main_arg9
  have f26_main_v343 : after ck26 W25 (Proc.devRef .tc main_v343) = (val_main_v343 (F := F) (V (Proc.devRef .tc main_arg0)) (V (Proc.devRef .tc main_arg1)) (V (Proc.devRef .tc main_arg2)) (V (Proc.devRef .tc main_arg3))) := (ck26_pass_main_v343 W25).trans f25_main_v343
  generalize after ck26 W25 = W26 at f26_main_v687 f26_main_v697 f26_main_v701 f26_main_cst_215 f26_main_arg0 f26_main_arg1 f26_main_arg2 f26_main_arg3 f26_main_arg4 f26_main_arg5 f26_main_arg6 f26_main_arg7 f26_main_arg8 f26_main_arg9 f26_main_v343 ⊢
  clear f25_main_v644 f25_main_v658 f25_main_v667 f25_main_v668 f25_main_arg0 f25_main_arg1 f25_main_arg2 f25_main_arg3 f25_main_arg4 f25_main_arg5 f25_main_arg6 f25_main_v591 f25_main_v592 f25_main_v572 f25_main_arg7 f25_main_arg8 f25_main_arg9 f25_main_v343
  have f27_main_v706 : after ck27 W26 (Proc.devRef .tc main_v706) = (val_main_v706 (F := F) (V (Proc.devRef .tc main_arg0))) := ck27_main_v706 W26 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f26_main_v697
  have f27_main_v707 : after ck27 W26 (Proc.devRef .tc main_v707) = (val_main_v707 (F := F) (V (Proc.devRef .tc main_arg0))) := ck27_main_v707 W26 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f26_main_v701 f26_main_cst_215
  have f27_main_v709 : after ck27 W26 (Proc.devRef .tc main_v709) = (val_main_v709 (F := F) (V (Proc.devRef .tc main_arg0))) := ck27_main_v709 W26 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f26_main_v697
  have f27_main_v712 : after ck27 W26 (Proc.devRef .tc main_v712) = (val_main_v712 (F := F) (V (Proc.devRef .tc main_arg0))) := ck27_main_v712 W26 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f26_main_v697
  have f27_main_v714 : after ck27 W26 (Proc.devRef .tc main_v714) = (val_main_v714 (F := F) (V (Proc.devRef .tc main_arg0))) := ck27_main_v714 W26 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f26_main_v701 f26_main_cst_215
  have f27_main_v716 : after ck27 W26 (Proc.devRef .tc main_v716) = (val_main_v716 (F := F) (V (Proc.devRef .tc main_arg0))) := ck27_main_v716 W26 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f26_main_v701 f26_main_cst_215
  have f27_main_c_224 : after ck27 W26 (Proc.devRef .tc main_c_224) = (val_main_c_224 (F := F)) := ck27_main_c_224 W26 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f27_main_c_225 : after ck27 W26 (Proc.devRef .tc main_c_225) = (val_main_c_225 (F := F)) := ck27_main_c_225 W26 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f27_main_arg0 : after ck27 W26 (Proc.devRef .tc main_arg0) = (V (Proc.devRef .tc main_arg0)) := (ck27_pass_main_arg0 W26).trans f26_main_arg0
  have f27_main_arg1 : after ck27 W26 (Proc.devRef .tc main_arg1) = (V (Proc.devRef .tc main_arg1)) := (ck27_pass_main_arg1 W26).trans f26_main_arg1
  have f27_main_arg2 : after ck27 W26 (Proc.devRef .tc main_arg2) = (V (Proc.devRef .tc main_arg2)) := (ck27_pass_main_arg2 W26).trans f26_main_arg2
  have f27_main_arg3 : after ck27 W26 (Proc.devRef .tc main_arg3) = (V (Proc.devRef .tc main_arg3)) := (ck27_pass_main_arg3 W26).trans f26_main_arg3
  have f27_main_arg4 : after ck27 W26 (Proc.devRef .tc main_arg4) = (V (Proc.devRef .tc main_arg4)) := (ck27_pass_main_arg4 W26).trans f26_main_arg4
  have f27_main_arg5 : after ck27 W26 (Proc.devRef .tc main_arg5) = (V (Proc.devRef .tc main_arg5)) := (ck27_pass_main_arg5 W26).trans f26_main_arg5
  have f27_main_arg6 : after ck27 W26 (Proc.devRef .tc main_arg6) = (V (Proc.devRef .tc main_arg6)) := (ck27_pass_main_arg6 W26).trans f26_main_arg6
  have f27_main_arg7 : after ck27 W26 (Proc.devRef .tc main_arg7) = (V (Proc.devRef .tc main_arg7)) := (ck27_pass_main_arg7 W26).trans f26_main_arg7
  have f27_main_arg8 : after ck27 W26 (Proc.devRef .tc main_arg8) = (V (Proc.devRef .tc main_arg8)) := (ck27_pass_main_arg8 W26).trans f26_main_arg8
  have f27_main_arg9 : after ck27 W26 (Proc.devRef .tc main_arg9) = (V (Proc.devRef .tc main_arg9)) := (ck27_pass_main_arg9 W26).trans f26_main_arg9
  have f27_main_v343 : after ck27 W26 (Proc.devRef .tc main_v343) = (val_main_v343 (F := F) (V (Proc.devRef .tc main_arg0)) (V (Proc.devRef .tc main_arg1)) (V (Proc.devRef .tc main_arg2)) (V (Proc.devRef .tc main_arg3))) := (ck27_pass_main_v343 W26).trans f26_main_v343
  have f27_main_v687 : after ck27 W26 (Proc.devRef .tc main_v687) = (val_main_v687 (F := F) (V (Proc.devRef .tc main_arg0)) (V (Proc.devRef .tc main_arg4)) (V (Proc.devRef .tc main_arg5)) (V (Proc.devRef .tc main_arg6))) := (ck27_pass_main_v687 W26).trans f26_main_v687
  generalize after ck27 W26 = W27 at f27_main_v706 f27_main_v707 f27_main_v709 f27_main_v712 f27_main_v714 f27_main_v716 f27_main_c_224 f27_main_c_225 f27_main_arg0 f27_main_arg1 f27_main_arg2 f27_main_arg3 f27_main_arg4 f27_main_arg5 f27_main_arg6 f27_main_arg7 f27_main_arg8 f27_main_arg9 f27_main_v343 f27_main_v687 ⊢
  clear f26_main_v687 f26_main_v697 f26_main_v701 f26_main_cst_215 f26_main_arg0 f26_main_arg1 f26_main_arg2 f26_main_arg3 f26_main_arg4 f26_main_arg5 f26_main_arg6 f26_main_arg7 f26_main_arg8 f26_main_arg9 f26_main_v343
  have f28_main_v717 : after ck28 W27 (Proc.devRef .tc main_v717) = (val_main_v717 (F := F) (V (Proc.devRef .tc main_arg0))) := ck28_main_v717 W27 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f27_main_c_225 f27_main_c_224 f27_main_v716
  have f28_main_v731 : after ck28 W27 (Proc.devRef .tc main_v731) = (val_main_v731 (F := F) (V (Proc.devRef .tc main_arg0)) (V (Proc.devRef .tc main_arg7))) := ck28_main_v731 W27 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f27_main_arg7 f27_main_v714 f27_main_v709
  have f28_main_v742 : after ck28 W27 (Proc.devRef .tc main_v742) = (val_main_v742 (F := F) (V (Proc.devRef .tc main_arg0))) := ck28_main_v742 W27 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f27_main_v714
  have f28_main_v743 : after ck28 W27 (Proc.devRef .tc main_v743) = (val_main_v743 (F := F) (V (Proc.devRef .tc main_arg0))) := ck28_main_v743 W27 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f27_main_v712
  have f28_main_arg0 : after ck28 W27 (Proc.devRef .tc main_arg0) = (V (Proc.devRef .tc main_arg0)) := (ck28_pass_main_arg0 W27).trans f27_main_arg0
  have f28_main_arg1 : after ck28 W27 (Proc.devRef .tc main_arg1) = (V (Proc.devRef .tc main_arg1)) := (ck28_pass_main_arg1 W27).trans f27_main_arg1
  have f28_main_arg2 : after ck28 W27 (Proc.devRef .tc main_arg2) = (V (Proc.devRef .tc main_arg2)) := (ck28_pass_main_arg2 W27).trans f27_main_arg2
  have f28_main_arg3 : after ck28 W27 (Proc.devRef .tc main_arg3) = (V (Proc.devRef .tc main_arg3)) := (ck28_pass_main_arg3 W27).trans f27_main_arg3
  have f28_main_arg4 : after ck28 W27 (Proc.devRef .tc main_arg4) = (V (Proc.devRef .tc main_arg4)) := (ck28_pass_main_arg4 W27).trans f27_main_arg4
  have f28_main_arg5 : after ck28 W27 (Proc.devRef .tc main_arg5) = (V (Proc.devRef .tc main_arg5)) := (ck28_pass_main_arg5 W27).trans f27_main_arg5
  have f28_main_arg6 : after ck28 W27 (Proc.devRef .tc main_arg6) = (V (Proc.devRef .tc main_arg6)) := (ck28_pass_main_arg6 W27).trans f27_main_arg6
  have f28_main_v709 : after ck28 W27 (Proc.devRef .tc main_v709) = (val_main_v709 (F := F) (V (Proc.devRef .tc main_arg0))) := (ck28_pass_main_v709 W27).trans f27_main_v709
  have f28_main_arg7 : after ck28 W27 (Proc.devRef .tc main_arg7) = (V (Proc.devRef .tc main_arg7)) := (ck28_pass_main_arg7 W27).trans f27_main_arg7
  have f28_main_v712 : after ck28 W27 (Proc.devRef .tc main_v712) = (val_main_v712 (F := F) (V (Proc.devRef .tc main_arg0))) := (ck28_pass_main_v712 W27).trans f27_main_v712
  have f28_main_v706 : after ck28 W27 (Proc.devRef .tc main_v706) = (val_main_v706 (F := F) (V (Proc.devRef .tc main_arg0))) := (ck28_pass_main_v706 W27).trans f27_main_v706
  have f28_main_v707 : after ck28 W27 (Proc.devRef .tc main_v707) = (val_main_v707 (F := F) (V (Proc.devRef .tc main_arg0))) := (ck28_pass_main_v707 W27).trans f27_main_v707
  have f28_main_arg8 : after ck28 W27 (Proc.devRef .tc main_arg8) = (V (Proc.devRef .tc main_arg8)) := (ck28_pass_main_arg8 W27).trans f27_main_arg8
  have f28_main_arg9 : after ck28 W27 (Proc.devRef .tc main_arg9) = (V (Proc.devRef .tc main_arg9)) := (ck28_pass_main_arg9 W27).trans f27_main_arg9
  have f28_main_v343 : after ck28 W27 (Proc.devRef .tc main_v343) = (val_main_v343 (F := F) (V (Proc.devRef .tc main_arg0)) (V (Proc.devRef .tc main_arg1)) (V (Proc.devRef .tc main_arg2)) (V (Proc.devRef .tc main_arg3))) := (ck28_pass_main_v343 W27).trans f27_main_v343
  have f28_main_v687 : after ck28 W27 (Proc.devRef .tc main_v687) = (val_main_v687 (F := F) (V (Proc.devRef .tc main_arg0)) (V (Proc.devRef .tc main_arg4)) (V (Proc.devRef .tc main_arg5)) (V (Proc.devRef .tc main_arg6))) := (ck28_pass_main_v687 W27).trans f27_main_v687
  generalize after ck28 W27 = W28 at f28_main_v717 f28_main_v731 f28_main_v742 f28_main_v743 f28_main_arg0 f28_main_arg1 f28_main_arg2 f28_main_arg3 f28_main_arg4 f28_main_arg5 f28_main_arg6 f28_main_v709 f28_main_arg7 f28_main_v712 f28_main_v706 f28_main_v707 f28_main_arg8 f28_main_arg9 f28_main_v343 f28_main_v687 ⊢
  clear f27_main_v706 f27_main_v707 f27_main_v709 f27_main_v712 f27_main_v714 f27_main_v716 f27_main_c_224 f27_main_c_225 f27_main_arg0 f27_main_arg1 f27_main_arg2 f27_main_arg3 f27_main_arg4 f27_main_arg5 f27_main_arg6 f27_main_arg7 f27_main_arg8 f27_main_arg9 f27_main_v343 f27_main_v687
  have f29_main_v745 : after ck29 W28 (Proc.devRef .tc main_v745) = (val_main_v745 (F := F) (V (Proc.devRef .tc main_arg0)) (V (Proc.devRef .tc main_arg7))) := ck29_main_v745 W28 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f28_main_arg7 f28_main_v742 f28_main_v743
  have f29_main_v759 : after ck29 W28 (Proc.devRef .tc main_v759) = (val_main_v759 (F := F) (V (Proc.devRef .tc main_arg0)) (V (Proc.devRef .tc main_arg7))) := ck29_main_v759 W28 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f28_main_arg7 f28_main_v717 f28_main_v709
  have f29_main_v773 : after ck29 W28 (Proc.devRef .tc main_v773) = (val_main_v773 (F := F) (V (Proc.devRef .tc main_arg0)) (V (Proc.devRef .tc main_arg7))) := ck29_main_v773 W28 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f28_main_arg7 f28_main_v717 f28_main_v712
  have f29_main_v774 : after ck29 W28 (Proc.devRef .tc main_v774) = (val_main_v774 (F := F)) := ck29_main_v774 W28 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f29_main_arg0 : after ck29 W28 (Proc.devRef .tc main_arg0) = (V (Proc.devRef .tc main_arg0)) := (ck29_pass_main_arg0 W28).trans f28_main_arg0
  have f29_main_arg1 : after ck29 W28 (Proc.devRef .tc main_arg1) = (V (Proc.devRef .tc main_arg1)) := (ck29_pass_main_arg1 W28).trans f28_main_arg1
  have f29_main_arg2 : after ck29 W28 (Proc.devRef .tc main_arg2) = (V (Proc.devRef .tc main_arg2)) := (ck29_pass_main_arg2 W28).trans f28_main_arg2
  have f29_main_arg3 : after ck29 W28 (Proc.devRef .tc main_arg3) = (V (Proc.devRef .tc main_arg3)) := (ck29_pass_main_arg3 W28).trans f28_main_arg3
  have f29_main_arg4 : after ck29 W28 (Proc.devRef .tc main_arg4) = (V (Proc.devRef .tc main_arg4)) := (ck29_pass_main_arg4 W28).trans f28_main_arg4
  have f29_main_arg5 : after ck29 W28 (Proc.devRef .tc main_arg5) = (V (Proc.devRef .tc main_arg5)) := (ck29_pass_main_arg5 W28).trans f28_main_arg5
  have f29_main_arg6 : after ck29 W28 (Proc.devRef .tc main_arg6) = (V (Proc.devRef .tc main_arg6)) := (ck29_pass_main_arg6 W28).trans f28_main_arg6
  have f29_main_arg7 : after ck29 W28 (Proc.devRef .tc main_arg7) = (V (Proc.devRef .tc main_arg7)) := (ck29_pass_main_arg7 W28).trans f28_main_arg7
  have f29_main_v706 : after ck29 W28 (Proc.devRef .tc main_v706) = (val_main_v706 (F := F) (V (Proc.devRef .tc main_arg0))) := (ck29_pass_main_v706 W28).trans f28_main_v706
  have f29_main_v731 : after ck29 W28 (Proc.devRef .tc main_v731) = (val_main_v731 (F := F) (V (Proc.devRef .tc main_arg0)) (V (Proc.devRef .tc main_arg7))) := (ck29_pass_main_v731 W28).trans f28_main_v731
  have f29_main_v707 : after ck29 W28 (Proc.devRef .tc main_v707) = (val_main_v707 (F := F) (V (Proc.devRef .tc main_arg0))) := (ck29_pass_main_v707 W28).trans f28_main_v707
  have f29_main_arg8 : after ck29 W28 (Proc.devRef .tc main_arg8) = (V (Proc.devRef .tc main_arg8)) := (ck29_pass_main_arg8 W28).trans f28_main_arg8
  have f29_main_arg9 : after ck29 W28 (Proc.devRef .tc main_arg9) = (V (Proc.devRef .tc main_arg9)) := (ck29_pass_main_arg9 W28).trans f28_main_arg9
  have f29_main_v343 : after ck29 W28 (Proc.devRef .tc main_v343) = (val_main_v343 (F := F) (V (Proc.devRef .tc main_arg0)) (V (Proc.devRef .tc main_arg1)) (V (Proc.devRef .tc main_arg2)) (V (Proc.devRef .tc main_arg3))) := (ck29_pass_main_v343 W28).trans f28_main_v343
  have f29_main_v687 : after ck29 W28 (Proc.devRef .tc main_v687) = (val_main_v687 (F := F) (V (Proc.devRef .tc main_arg0)) (V (Proc.devRef .tc main_arg4)) (V (Proc.devRef .tc main_arg5)) (V (Proc.devRef .tc main_arg6))) := (ck29_pass_main_v687 W28).trans f28_main_v687
  generalize after ck29 W28 = W29 at f29_main_v745 f29_main_v759 f29_main_v773 f29_main_v774 f29_main_arg0 f29_main_arg1 f29_main_arg2 f29_main_arg3 f29_main_arg4 f29_main_arg5 f29_main_arg6 f29_main_arg7 f29_main_v706 f29_main_v731 f29_main_v707 f29_main_arg8 f29_main_arg9 f29_main_v343 f29_main_v687 ⊢
  clear f28_main_v717 f28_main_v731 f28_main_v742 f28_main_v743 f28_main_arg0 f28_main_arg1 f28_main_arg2 f28_main_arg3 f28_main_arg4 f28_main_arg5 f28_main_arg6 f28_main_v709 f28_main_arg7 f28_main_v712 f28_main_v706 f28_main_v707 f28_main_arg8 f28_main_arg9 f28_main_v343 f28_main_v687
  have f30_main_v802 : after ck30 W29 (Proc.devRef .tc main_v802) = (val_main_v802 (F := F) (V (Proc.devRef .tc main_arg0)) (V (Proc.devRef .tc main_arg7))) := ck30_main_v802 W29 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f29_main_v731 f29_main_v774 f29_main_v706 f29_main_v745 f29_main_v707 f29_main_v759 f29_main_v773
  have f30_main_v806 : after ck30 W29 (Proc.devRef .tc main_v806) = (val_main_v806 (F := F) (V (Proc.devRef .tc main_arg0))) := ck30_main_v806 W29 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f29_main_arg0
  have f30_main_v808 : after ck30 W29 (Proc.devRef .tc main_v808) = (val_main_v808 (F := F) (V (Proc.devRef .tc main_arg0))) := ck30_main_v808 W29 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f29_main_arg0
  have f30_main_v809 : after ck30 W29 (Proc.devRef .tc main_v809) = (val_main_v809 (F := F)) := ck30_main_v809 W29 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f30_main_arg0 : after ck30 W29 (Proc.devRef .tc main_arg0) = (V (Proc.devRef .tc main_arg0)) := (ck30_pass_main_arg0 W29).trans f29_main_arg0
  have f30_main_arg1 : after ck30 W29 (Proc.devRef .tc main_arg1) = (V (Proc.devRef .tc main_arg1)) := (ck30_pass_main_arg1 W29).trans f29_main_arg1
  have f30_main_arg2 : after ck30 W29 (Proc.devRef .tc main_arg2) = (V (Proc.devRef .tc main_arg2)) := (ck30_pass_main_arg2 W29).trans f29_main_arg2
  have f30_main_arg3 : after ck30 W29 (Proc.devRef .tc main_arg3) = (V (Proc.devRef .tc main_arg3)) := (ck30_pass_main_arg3 W29).trans f29_main_arg3
  have f30_main_arg4 : after ck30 W29 (Proc.devRef .tc main_arg4) = (V (Proc.devRef .tc main_arg4)) := (ck30_pass_main_arg4 W29).trans f29_main_arg4
  have f30_main_arg5 : after ck30 W29 (Proc.devRef .tc main_arg5) = (V (Proc.devRef .tc main_arg5)) := (ck30_pass_main_arg5 W29).trans f29_main_arg5
  have f30_main_arg6 : after ck30 W29 (Proc.devRef .tc main_arg6) = (V (Proc.devRef .tc main_arg6)) := (ck30_pass_main_arg6 W29).trans f29_main_arg6
  have f30_main_arg7 : after ck30 W29 (Proc.devRef .tc main_arg7) = (V (Proc.devRef .tc main_arg7)) := (ck30_pass_main_arg7 W29).trans f29_main_arg7
  have f30_main_arg8 : after ck30 W29 (Proc.devRef .tc main_arg8) = (V (Proc.devRef .tc main_arg8)) := (ck30_pass_main_arg8 W29).trans f29_main_arg8
  have f30_main_arg9 : after ck30 W29 (Proc.devRef .tc main_arg9) = (V (Proc.devRef .tc main_arg9)) := (ck30_pass_main_arg9 W29).trans f29_main_arg9
  have f30_main_v343 : after ck30 W29 (Proc.devRef .tc main_v343) = (val_main_v343 (F := F) (V (Proc.devRef .tc main_arg0)) (V (Proc.devRef .tc main_arg1)) (V (Proc.devRef .tc main_arg2)) (V (Proc.devRef .tc main_arg3))) := (ck30_pass_main_v343 W29).trans f29_main_v343
  have f30_main_v687 : after ck30 W29 (Proc.devRef .tc main_v687) = (val_main_v687 (F := F) (V (Proc.devRef .tc main_arg0)) (V (Proc.devRef .tc main_arg4)) (V (Proc.devRef .tc main_arg5)) (V (Proc.devRef .tc main_arg6))) := (ck30_pass_main_v687 W29).trans f29_main_v687
  generalize after ck30 W29 = W30 at f30_main_v802 f30_main_v806 f30_main_v808 f30_main_v809 f30_main_arg0 f30_main_arg1 f30_main_arg2 f30_main_arg3 f30_main_arg4 f30_main_arg5 f30_main_arg6 f30_main_arg7 f30_main_arg8 f30_main_arg9 f30_main_v343 f30_main_v687 ⊢
  clear f29_main_v745 f29_main_v759 f29_main_v773 f29_main_v774 f29_main_arg0 f29_main_arg1 f29_main_arg2 f29_main_arg3 f29_main_arg4 f29_main_arg5 f29_main_arg6 f29_main_arg7 f29_main_v706 f29_main_v731 f29_main_v707 f29_main_arg8 f29_main_arg9 f29_main_v343 f29_main_v687
  have f31_main_v821 : after ck31 W30 (Proc.devRef .tc main_v821) = (val_main_v821 (F := F) (V (Proc.devRef .tc main_arg0))) := ck31_main_v821 W30 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f30_main_v808 f30_main_v809
  have f31_main_v822 : after ck31 W30 (Proc.devRef .tc main_v822) = (val_main_v822 (F := F) (V (Proc.devRef .tc main_arg0))) := ck31_main_v822 W30 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f30_main_v806
  have f31_main_v824 : after ck31 W30 (Proc.devRef .tc main_v824) = (val_main_v824 (F := F) (V (Proc.devRef .tc main_arg0))) := ck31_main_v824 W30 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f30_main_v808 f30_main_v809
  have f31_main_v827 : after ck31 W30 (Proc.devRef .tc main_v827) = (val_main_v827 (F := F) (V (Proc.devRef .tc main_arg0))) := ck31_main_v827 W30 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f30_main_v808 f30_main_v809
  have f31_main_v828 : after ck31 W30 (Proc.devRef .tc main_v828) = (val_main_v828 (F := F) (V (Proc.devRef .tc main_arg0))) := ck31_main_v828 W30 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f30_main_v806
  have f31_main_c_257 : after ck31 W30 (Proc.devRef .tc main_c_257) = (val_main_c_257 (F := F)) := ck31_main_c_257 W30 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f31_main_c_258 : after ck31 W30 (Proc.devRef .tc main_c_258) = (val_main_c_258 (F := F)) := ck31_main_c_258 W30 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f31_main_arg0 : after ck31 W30 (Proc.devRef .tc main_arg0) = (V (Proc.devRef .tc main_arg0)) := (ck31_pass_main_arg0 W30).trans f30_main_arg0
  have f31_main_arg1 : after ck31 W30 (Proc.devRef .tc main_arg1) = (V (Proc.devRef .tc main_arg1)) := (ck31_pass_main_arg1 W30).trans f30_main_arg1
  have f31_main_arg2 : after ck31 W30 (Proc.devRef .tc main_arg2) = (V (Proc.devRef .tc main_arg2)) := (ck31_pass_main_arg2 W30).trans f30_main_arg2
  have f31_main_arg3 : after ck31 W30 (Proc.devRef .tc main_arg3) = (V (Proc.devRef .tc main_arg3)) := (ck31_pass_main_arg3 W30).trans f30_main_arg3
  have f31_main_arg4 : after ck31 W30 (Proc.devRef .tc main_arg4) = (V (Proc.devRef .tc main_arg4)) := (ck31_pass_main_arg4 W30).trans f30_main_arg4
  have f31_main_arg5 : after ck31 W30 (Proc.devRef .tc main_arg5) = (V (Proc.devRef .tc main_arg5)) := (ck31_pass_main_arg5 W30).trans f30_main_arg5
  have f31_main_arg6 : after ck31 W30 (Proc.devRef .tc main_arg6) = (V (Proc.devRef .tc main_arg6)) := (ck31_pass_main_arg6 W30).trans f30_main_arg6
  have f31_main_arg7 : after ck31 W30 (Proc.devRef .tc main_arg7) = (V (Proc.devRef .tc main_arg7)) := (ck31_pass_main_arg7 W30).trans f30_main_arg7
  have f31_main_arg8 : after ck31 W30 (Proc.devRef .tc main_arg8) = (V (Proc.devRef .tc main_arg8)) := (ck31_pass_main_arg8 W30).trans f30_main_arg8
  have f31_main_v802 : after ck31 W30 (Proc.devRef .tc main_v802) = (val_main_v802 (F := F) (V (Proc.devRef .tc main_arg0)) (V (Proc.devRef .tc main_arg7))) := (ck31_pass_main_v802 W30).trans f30_main_v802
  have f31_main_arg9 : after ck31 W30 (Proc.devRef .tc main_arg9) = (V (Proc.devRef .tc main_arg9)) := (ck31_pass_main_arg9 W30).trans f30_main_arg9
  have f31_main_v343 : after ck31 W30 (Proc.devRef .tc main_v343) = (val_main_v343 (F := F) (V (Proc.devRef .tc main_arg0)) (V (Proc.devRef .tc main_arg1)) (V (Proc.devRef .tc main_arg2)) (V (Proc.devRef .tc main_arg3))) := (ck31_pass_main_v343 W30).trans f30_main_v343
  have f31_main_v687 : after ck31 W30 (Proc.devRef .tc main_v687) = (val_main_v687 (F := F) (V (Proc.devRef .tc main_arg0)) (V (Proc.devRef .tc main_arg4)) (V (Proc.devRef .tc main_arg5)) (V (Proc.devRef .tc main_arg6))) := (ck31_pass_main_v687 W30).trans f30_main_v687
  generalize after ck31 W30 = W31 at f31_main_v821 f31_main_v822 f31_main_v824 f31_main_v827 f31_main_v828 f31_main_c_257 f31_main_c_258 f31_main_arg0 f31_main_arg1 f31_main_arg2 f31_main_arg3 f31_main_arg4 f31_main_arg5 f31_main_arg6 f31_main_arg7 f31_main_arg8 f31_main_v802 f31_main_arg9 f31_main_v343 f31_main_v687 ⊢
  clear f30_main_v802 f30_main_v806 f30_main_v808 f30_main_v809 f30_main_arg0 f30_main_arg1 f30_main_arg2 f30_main_arg3 f30_main_arg4 f30_main_arg5 f30_main_arg6 f30_main_arg7 f30_main_arg8 f30_main_arg9 f30_main_v343 f30_main_v687
  have f32_main_v829 : after ck32 W31 (Proc.devRef .tc main_v829) = (val_main_v829 (F := F) (V (Proc.devRef .tc main_arg0))) := ck32_main_v829 W31 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f31_main_c_258 f31_main_c_257 f31_main_v828
  have f32_main_v832 : after ck32 W31 (Proc.devRef .tc main_v832) = (val_main_v832 (F := F) (V (Proc.devRef .tc main_arg0))) := ck32_main_v832 W31 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f31_main_c_258 f31_main_c_257 f31_main_v828
  have f32_main_v846 : after ck32 W31 (Proc.devRef .tc main_v846) = (val_main_v846 (F := F) (V (Proc.devRef .tc main_arg0)) (V (Proc.devRef .tc main_arg8))) := ck32_main_v846 W31 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f31_main_arg8 f31_main_c_258 f31_main_c_257 f31_main_v828 f31_main_v824
  have f32_main_v848 : after ck32 W31 (Proc.devRef .tc main_v848) = (val_main_v848 (F := F) (V (Proc.devRef .tc main_arg0))) := ck32_main_v848 W31 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f31_main_c_258 f31_main_c_257 f31_main_v828
  have f32_main_v849 : after ck32 W31 (Proc.devRef .tc main_v849) = (val_main_v849 (F := F)) := ck32_main_v849 W31 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f32_main_arg0 : after ck32 W31 (Proc.devRef .tc main_arg0) = (V (Proc.devRef .tc main_arg0)) := (ck32_pass_main_arg0 W31).trans f31_main_arg0
  have f32_main_arg1 : after ck32 W31 (Proc.devRef .tc main_arg1) = (V (Proc.devRef .tc main_arg1)) := (ck32_pass_main_arg1 W31).trans f31_main_arg1
  have f32_main_arg2 : after ck32 W31 (Proc.devRef .tc main_arg2) = (V (Proc.devRef .tc main_arg2)) := (ck32_pass_main_arg2 W31).trans f31_main_arg2
  have f32_main_arg3 : after ck32 W31 (Proc.devRef .tc main_arg3) = (V (Proc.devRef .tc main_arg3)) := (ck32_pass_main_arg3 W31).trans f31_main_arg3
  have f32_main_arg4 : after ck32 W31 (Proc.devRef .tc main_arg4) = (V (Proc.devRef .tc main_arg4)) := (ck32_pass_main_arg4 W31).trans f31_main_arg4
  have f32_main_arg5 : after ck32 W31 (Proc.devRef .tc main_arg5) = (V (Proc.devRef .tc main_arg5)) := (ck32_pass_main_arg5 W31).trans f31_main_arg5
  have f32_main_arg6 : after ck32 W31 (Proc.devRef .tc main_arg6) = (V (Proc.devRef .tc main_arg6)) := (ck32_pass_main_arg6 W31).trans f31_main_arg6
  have f32_main_arg7 : after ck32 W31 (Proc.devRef .tc main_arg7) = (V (Proc.devRef .tc main_arg7)) := (ck32_pass_main_arg7 W31).trans f31_main_arg7
  have f32_main_v824 : after ck32 W31 (Proc.devRef .tc main_v824) = (val_main_v824 (F := F) (V (Proc.devRef .tc main_arg0))) := (ck32_pass_main_v824 W31).trans f31_main_v824
  have f32_main_arg8 : after ck32 W31 (Proc.devRef .tc main_arg8) = (V (Proc.devRef .tc main_arg8)) := (ck32_pass_main_arg8 W31).trans f31_main_arg8
  have f32_main_v827 : after ck32 W31 (Proc.devRef .tc main_v827) = (val_main_v827 (F := F) (V (Proc.devRef .tc main_arg0))) := (ck32_pass_main_v827 W31).trans f31_main_v827
  have f32_main_v821 : after ck32 W31 (Proc.devRef .tc main_v821) = (val_main_v821 (F := F) (V (Proc.devRef .tc main_arg0))) := (ck32_pass_main_v821 W31).trans f31_main_v821
  have f32_main_v822 : after ck32 W31 (Proc.devRef .tc main_v822) = (val_main_v822 (F := F) (V (Proc.devRef .tc main_arg0))) := (ck32_pass_main_v822 W31).trans f31_main_v822
  have f32_main_v802 : after ck32 W31 (Proc.devRef .tc main_v802) = (val_main_v802 (F := F) (V (Proc.devRef .tc main_arg0)) (V (Proc.devRef .tc main_arg7))) := (ck32_pass_main_v802 W31).trans f31_main_v802
  have f32_main_arg9 : after ck32 W31 (Proc.devRef .tc main_arg9) = (V (Proc.devRef .tc main_arg9)) := (ck32_pass_main_arg9 W31).trans f31_main_arg9
  have f32_main_v343 : after ck32 W31 (Proc.devRef .tc main_v343) = (val_main_v343 (F := F) (V (Proc.devRef .tc main_arg0)) (V (Proc.devRef .tc main_arg1)) (V (Proc.devRef .tc main_arg2)) (V (Proc.devRef .tc main_arg3))) := (ck32_pass_main_v343 W31).trans f31_main_v343
  have f32_main_v687 : after ck32 W31 (Proc.devRef .tc main_v687) = (val_main_v687 (F := F) (V (Proc.devRef .tc main_arg0)) (V (Proc.devRef .tc main_arg4)) (V (Proc.devRef .tc main_arg5)) (V (Proc.devRef .tc main_arg6))) := (ck32_pass_main_v687 W31).trans f31_main_v687
  generalize after ck32 W31 = W32 at f32_main_v829 f32_main_v832 f32_main_v846 f32_main_v848 f32_main_v849 f32_main_arg0 f32_main_arg1 f32_main_arg2 f32_main_arg3 f32_main_arg4 f32_main_arg5 f32_main_arg6 f32_main_arg7 f32_main_v824 f32_main_arg8 f32_main_v827 f32_main_v821 f32_main_v822 f32_main_v802 f32_main_arg9 f32_main_v343 f32_main_v687 ⊢
  clear f31_main_v821 f31_main_v822 f31_main_v824 f31_main_v827 f31_main_v828 f31_main_c_257 f31_main_c_258 f31_main_arg0 f31_main_arg1 f31_main_arg2 f31_main_arg3 f31_main_arg4 f31_main_arg5 f31_main_arg6 f31_main_arg7 f31_main_arg8 f31_main_v802 f31_main_arg9 f31_main_v343 f31_main_v687
  have f33_main_v860 : after ck33 W32 (Proc.devRef .tc main_v860) = (val_main_v860 (F := F) (V (Proc.devRef .tc main_arg0)) (V (Proc.devRef .tc main_arg8))) := ck33_main_v860 W32 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f32_main_arg8 f32_main_v848 f32_main_v829 f32_main_v849 f32_main_v827
  have f33_main_v874 : after ck33 W32 (Proc.devRef .tc main_v874) = (val_main_v874 (F := F) (V (Proc.devRef .tc main_arg0)) (V (Proc.devRef .tc main_arg8))) := ck33_main_v874 W32 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f32_main_arg8 f32_main_v832 f32_main_v824
  have f33_main_v879 : after ck33 W32 (Proc.devRef .tc main_v879) = (val_main_v879 (F := F) (V (Proc.devRef .tc main_arg0))) := ck33_main_v879 W32 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f32_main_v832
  have f33_main_v880 : after ck33 W32 (Proc.devRef .tc main_v880) = (val_main_v880 (F := F)) := ck33_main_v880 W32 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f33_main_arg0 : after ck33 W32 (Proc.devRef .tc main_arg0) = (V (Proc.devRef .tc main_arg0)) := (ck33_pass_main_arg0 W32).trans f32_main_arg0
  have f33_main_arg1 : after ck33 W32 (Proc.devRef .tc main_arg1) = (V (Proc.devRef .tc main_arg1)) := (ck33_pass_main_arg1 W32).trans f32_main_arg1
  have f33_main_arg2 : after ck33 W32 (Proc.devRef .tc main_arg2) = (V (Proc.devRef .tc main_arg2)) := (ck33_pass_main_arg2 W32).trans f32_main_arg2
  have f33_main_arg3 : after ck33 W32 (Proc.devRef .tc main_arg3) = (V (Proc.devRef .tc main_arg3)) := (ck33_pass_main_arg3 W32).trans f32_main_arg3
  have f33_main_arg4 : after ck33 W32 (Proc.devRef .tc main_arg4) = (V (Proc.devRef .tc main_arg4)) := (ck33_pass_main_arg4 W32).trans f32_main_arg4
  have f33_main_arg5 : after ck33 W32 (Proc.devRef .tc main_arg5) = (V (Proc.devRef .tc main_arg5)) := (ck33_pass_main_arg5 W32).trans f32_main_arg5
  have f33_main_arg6 : after ck33 W32 (Proc.devRef .tc main_arg6) = (V (Proc.devRef .tc main_arg6)) := (ck33_pass_main_arg6 W32).trans f32_main_arg6
  have f33_main_arg7 : after ck33 W32 (Proc.devRef .tc main_arg7) = (V (Proc.devRef .tc main_arg7)) := (ck33_pass_main_arg7 W32).trans f32_main_arg7
  have f33_main_arg8 : after ck33 W32 (Proc.devRef .tc main_arg8) = (V (Proc.devRef .tc main_arg8)) := (ck33_pass_main_arg8 W32).trans f32_main_arg8
  have f33_main_v827 : after ck33 W32 (Proc.devRef .tc main_v827) = (val_main_v827 (F := F) (V (Proc.devRef .tc main_arg0))) := (ck33_pass_main_v827 W32).trans f32_main_v827
  have f33_main_v821 : after ck33 W32 (Proc.devRef .tc main_v821) = (val_main_v821 (F := F) (V (Proc.devRef .tc main_arg0))) := (ck33_pass_main_v821 W32).trans f32_main_v821
  have f33_main_v846 : after ck33 W32 (Proc.devRef .tc main_v846) = (val_main_v846 (F := F) (V (Proc.devRef .tc main_arg0)) (V (Proc.devRef .tc main_arg8))) := (ck33_pass_main_v846 W32).trans f32_main_v846
  have f33_main_v822 : after ck33 W32 (Proc.devRef .tc main_v822) = (val_main_v822 (F := F) (V (Proc.devRef .tc main_arg0))) := (ck33_pass_main_v822 W32).trans f32_main_v822
  have f33_main_v802 : after ck33 W32 (Proc.devRef .tc main_v802) = (val_main_v802 (F := F) (V (Proc.devRef .tc main_arg0)) (V (Proc.devRef .tc main_arg7))) := (ck33_pass_main_v802 W32).trans f32_main_v802
  have f33_main_arg9 : after ck33 W32 (Proc.devRef .tc main_arg9) = (V (Proc.devRef .tc main_arg9)) := (ck33_pass_main_arg9 W32).trans f32_main_arg9
  have f33_main_v343 : after ck33 W32 (Proc.devRef .tc main_v343) = (val_main_v343 (F := F) (V (Proc.devRef .tc main_arg0)) (V (Proc.devRef .tc main_arg1)) (V (Proc.devRef .tc main_arg2)) (V (Proc.devRef .tc main_arg3))) := (ck33_pass_main_v343 W32).trans f32_main_v343
  have f33_main_v687 : after ck33 W32 (Proc.devRef .tc main_v687) = (val_main_v687 (F := F) (V (Proc.devRef .tc main_arg0)) (V (Proc.devRef .tc main_arg4)) (V (Proc.devRef .tc main_arg5)) (V (Proc.devRef .tc main_arg6))) := (ck33_pass_main_v687 W32).trans f32_main_v687
  generalize after ck33 W32 = W33 at f33_main_v860 f33_main_v874 f33_main_v879 f33_main_v880 f33_main_arg0 f33_main_arg1 f33_main_arg2 f33_main_arg3 f33_main_arg4 f33_main_arg5 f33_main_arg6 f33_main_arg7 f33_main_arg8 f33_main_v827 f33_main_v821 f33_main_v846 f33_main_v822 f33_main_v802 f33_main_arg9 f33_main_v343 f33_main_v687 ⊢
  clear f32_main_v829 f32_main_v832 f32_main_v846 f32_main_v848 f32_main_v849 f32_main_arg0 f32_main_arg1 f32_main_arg2 f32_main_arg3 f32_main_arg4 f32_main_arg5 f32_main_arg6 f32_main_arg7 f32_main_v824 f32_main_arg8 f32_main_v827 f32_main_v821 f32_main_v822 f32_main_v802 f32_main_arg9 f32_main_v343 f32_main_v687
  have f34_main_v916 : after ck34 W33 (Proc.devRef .tc main_v916) = (val_main_v916 (F := F) (V (Proc.devRef .tc main_arg0)) (V (Proc.devRef .tc main_arg7)) (V (Proc.devRef .tc main_arg8))) := ck34_main_v916 W33 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f33_main_v802 f33_main_v846 f33_main_v821 f33_main_v860 f33_main_v822 f33_main_v874 f33_main_arg8 f33_main_v879 f33_main_v827 f33_main_v880
  have f34_main_arg0 : after ck34 W33 (Proc.devRef .tc main_arg0) = (V (Proc.devRef .tc main_arg0)) := (ck34_pass_main_arg0 W33).trans f33_main_arg0
  have f34_main_arg1 : after ck34 W33 (Proc.devRef .tc main_arg1) = (V (Proc.devRef .tc main_arg1)) := (ck34_pass_main_arg1 W33).trans f33_main_arg1
  have f34_main_arg2 : after ck34 W33 (Proc.devRef .tc main_arg2) = (V (Proc.devRef .tc main_arg2)) := (ck34_pass_main_arg2 W33).trans f33_main_arg2
  have f34_main_arg3 : after ck34 W33 (Proc.devRef .tc main_arg3) = (V (Proc.devRef .tc main_arg3)) := (ck34_pass_main_arg3 W33).trans f33_main_arg3
  have f34_main_arg4 : after ck34 W33 (Proc.devRef .tc main_arg4) = (V (Proc.devRef .tc main_arg4)) := (ck34_pass_main_arg4 W33).trans f33_main_arg4
  have f34_main_arg5 : after ck34 W33 (Proc.devRef .tc main_arg5) = (V (Proc.devRef .tc main_arg5)) := (ck34_pass_main_arg5 W33).trans f33_main_arg5
  have f34_main_arg6 : after ck34 W33 (Proc.devRef .tc main_arg6) = (V (Proc.devRef .tc main_arg6)) := (ck34_pass_main_arg6 W33).trans f33_main_arg6
  have f34_main_arg7 : after ck34 W33 (Proc.devRef .tc main_arg7) = (V (Proc.devRef .tc main_arg7)) := (ck34_pass_main_arg7 W33).trans f33_main_arg7
  have f34_main_arg8 : after ck34 W33 (Proc.devRef .tc main_arg8) = (V (Proc.devRef .tc main_arg8)) := (ck34_pass_main_arg8 W33).trans f33_main_arg8
  have f34_main_arg9 : after ck34 W33 (Proc.devRef .tc main_arg9) = (V (Proc.devRef .tc main_arg9)) := (ck34_pass_main_arg9 W33).trans f33_main_arg9
  have f34_main_v343 : after ck34 W33 (Proc.devRef .tc main_v343) = (val_main_v343 (F := F) (V (Proc.devRef .tc main_arg0)) (V (Proc.devRef .tc main_arg1)) (V (Proc.devRef .tc main_arg2)) (V (Proc.devRef .tc main_arg3))) := (ck34_pass_main_v343 W33).trans f33_main_v343
  have f34_main_v687 : after ck34 W33 (Proc.devRef .tc main_v687) = (val_main_v687 (F := F) (V (Proc.devRef .tc main_arg0)) (V (Proc.devRef .tc main_arg4)) (V (Proc.devRef .tc main_arg5)) (V (Proc.devRef .tc main_arg6))) := (ck34_pass_main_v687 W33).trans f33_main_v687
  generalize after ck34 W33 = W34 at f34_main_v916 f34_main_arg0 f34_main_arg1 f34_main_arg2 f34_main_arg3 f34_main_arg4 f34_main_arg5 f34_main_arg6 f34_main_arg7 f34_main_arg8 f34_main_arg9 f34_main_v343 f34_main_v687 ⊢
  clear f33_main_v860 f33_main_v874 f33_main_v879 f33_main_v880 f33_main_arg0 f33_main_arg1 f33_main_arg2 f33_main_arg3 f33_main_arg4 f33_main_arg5 f33_main_arg6 f33_main_arg7 f33_main_arg8 f33_main_v827 f33_main_v821 f33_main_v846 f33_main_v822 f33_main_v802 f33_main_arg9 f33_main_v343 f33_main_v687
  have f35_main_v934 : after ck35 W34 (Proc.devRef .tc main_v934) = (val_main_v934 (F := F) (V (Proc.devRef .tc main_arg0))) := ck35_main_v934 W34 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f34_main_arg0
  have f35_main_v935 : after ck35 W34 (Proc.devRef .tc main_v935) = (val_main_v935 (F := F) (V (Proc.devRef .tc main_arg0))) := ck35_main_v935 W34 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f34_main_arg0
  have f35_main_v936 : after ck35 W34 (Proc.devRef .tc main_v936) = (val_main_v936 (F := F) (V (Proc.devRef .tc main_arg0))) := ck35_main_v936 W34 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f34_main_arg0
  have f35_main_v938 : after ck35 W34 (Proc.devRef .tc main_v938) = (val_main_v938 (F := F) (V (Proc.devRef .tc main_arg0))) := ck35_main_v938 W34 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f34_main_arg0
  have f35_main_v940 : after ck35 W34 (Proc.devRef .tc main_v940) = (val_main_v940 (F := F) (V (Proc.devRef .tc main_arg0))) := ck35_main_v940 W34 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f34_main_arg0
  have f35_main_c_290 : after ck35 W34 (Proc.devRef .tc main_c_290) = (val_main_c_290 (F := F)) := ck35_main_c_290 W34 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f35_main_c_291 : after ck35 W34 (Proc.devRef .tc main_c_291) = (val_main_c_291 (F := F)) := ck35_main_c_291 W34 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f35_main_arg0 : after ck35 W34 (Proc.devRef .tc main_arg0) = (V (Proc.devRef .tc main_arg0)) := (ck35_pass_main_arg0 W34).trans f34_main_arg0
  have f35_main_arg1 : after ck35 W34 (Proc.devRef .tc main_arg1) = (V (Proc.devRef .tc main_arg1)) := (ck35_pass_main_arg1 W34).trans f34_main_arg1
  have f35_main_arg2 : after ck35 W34 (Proc.devRef .tc main_arg2) = (V (Proc.devRef .tc main_arg2)) := (ck35_pass_main_arg2 W34).trans f34_main_arg2
  have f35_main_arg3 : after ck35 W34 (Proc.devRef .tc main_arg3) = (V (Proc.devRef .tc main_arg3)) := (ck35_pass_main_arg3 W34).trans f34_main_arg3
  have f35_main_arg4 : after ck35 W34 (Proc.devRef .tc main_arg4) = (V (Proc.devRef .tc main_arg4)) := (ck35_pass_main_arg4 W34).trans f34_main_arg4
  have f35_main_arg5 : after ck35 W34 (Proc.devRef .tc main_arg5) = (V (Proc.devRef .tc main_arg5)) := (ck35_pass_main_arg5 W34).trans f34_main_arg5
  have f35_main_arg6 : after ck35 W34 (Proc.devRef .tc main_arg6) = (V (Proc.devRef .tc main_arg6)) := (ck35_pass_main_arg6 W34).trans f34_main_arg6
  have f35_main_arg7 : after ck35 W34 (Proc.devRef .tc main_arg7) = (V (Proc.devRef .tc main_arg7)) := (ck35_pass_main_arg7 W34).trans f34_main_arg7
  have f35_main_arg8 : after ck35 W34 (Proc.devRef .tc main_arg8) = (V (Proc.devRef .tc main_arg8)) := (ck35_pass_main_arg8 W34).trans f34_main_arg8
  have f35_main_arg9 : after ck35 W34 (Proc.devRef .tc main_arg9) = (V (Proc.devRef .tc main_arg9)) := (ck35_pass_main_arg9 W34).trans f34_main_arg9
  have f35_main_v916 : after ck35 W34 (Proc.devRef .tc main_v916) = (val_main_v916 (F := F) (V (Proc.devRef .tc main_arg0)) (V (Proc.devRef .tc main_arg7)) (V (Proc.devRef .tc main_arg8))) := (ck35_pass_main_v916 W34).trans f34_main_v916
  have f35_main_v343 : after ck35 W34 (Proc.devRef .tc main_v343) = (val_main_v343 (F := F) (V (Proc.devRef .tc main_arg0)) (V (Proc.devRef .tc main_arg1)) (V (Proc.devRef .tc main_arg2)) (V (Proc.devRef .tc main_arg3))) := (ck35_pass_main_v343 W34).trans f34_main_v343
  have f35_main_v687 : after ck35 W34 (Proc.devRef .tc main_v687) = (val_main_v687 (F := F) (V (Proc.devRef .tc main_arg0)) (V (Proc.devRef .tc main_arg4)) (V (Proc.devRef .tc main_arg5)) (V (Proc.devRef .tc main_arg6))) := (ck35_pass_main_v687 W34).trans f34_main_v687
  generalize after ck35 W34 = W35 at f35_main_v934 f35_main_v935 f35_main_v936 f35_main_v938 f35_main_v940 f35_main_c_290 f35_main_c_291 f35_main_arg0 f35_main_arg1 f35_main_arg2 f35_main_arg3 f35_main_arg4 f35_main_arg5 f35_main_arg6 f35_main_arg7 f35_main_arg8 f35_main_arg9 f35_main_v916 f35_main_v343 f35_main_v687 ⊢
  clear f34_main_v916 f34_main_arg0 f34_main_arg1 f34_main_arg2 f34_main_arg3 f34_main_arg4 f34_main_arg5 f34_main_arg6 f34_main_arg7 f34_main_arg8 f34_main_arg9 f34_main_v343 f34_main_v687
  have f36_main_v941 : after ck36 W35 (Proc.devRef .tc main_v941) = (val_main_v941 (F := F) (V (Proc.devRef .tc main_arg0))) := ck36_main_v941 W35 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f35_main_c_291 f35_main_c_290 f35_main_v940
  have f36_main_v943 : after ck36 W35 (Proc.devRef .tc main_v943) = (val_main_v943 (F := F) (V (Proc.devRef .tc main_arg0))) := ck36_main_v943 W35 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f35_main_v934
  have f36_main_v946 : after ck36 W35 (Proc.devRef .tc main_v946) = (val_main_v946 (F := F) (V (Proc.devRef .tc main_arg0))) := ck36_main_v946 W35 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f35_main_v934
  have f36_main_v951 : after ck36 W35 (Proc.devRef .tc main_v951) = (val_main_v951 (F := F) (V (Proc.devRef .tc main_arg0))) := ck36_main_v951 W35 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f35_main_v934
  have f36_main_v956 : after ck36 W35 (Proc.devRef .tc main_v956) = (val_main_v956 (F := F) (V (Proc.devRef .tc main_arg0))) := ck36_main_v956 W35 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f35_main_v938
  have f36_main_arg0 : after ck36 W35 (Proc.devRef .tc main_arg0) = (V (Proc.devRef .tc main_arg0)) := (ck36_pass_main_arg0 W35).trans f35_main_arg0
  have f36_main_arg1 : after ck36 W35 (Proc.devRef .tc main_arg1) = (V (Proc.devRef .tc main_arg1)) := (ck36_pass_main_arg1 W35).trans f35_main_arg1
  have f36_main_arg2 : after ck36 W35 (Proc.devRef .tc main_arg2) = (V (Proc.devRef .tc main_arg2)) := (ck36_pass_main_arg2 W35).trans f35_main_arg2
  have f36_main_arg3 : after ck36 W35 (Proc.devRef .tc main_arg3) = (V (Proc.devRef .tc main_arg3)) := (ck36_pass_main_arg3 W35).trans f35_main_arg3
  have f36_main_arg4 : after ck36 W35 (Proc.devRef .tc main_arg4) = (V (Proc.devRef .tc main_arg4)) := (ck36_pass_main_arg4 W35).trans f35_main_arg4
  have f36_main_arg5 : after ck36 W35 (Proc.devRef .tc main_arg5) = (V (Proc.devRef .tc main_arg5)) := (ck36_pass_main_arg5 W35).trans f35_main_arg5
  have f36_main_arg6 : after ck36 W35 (Proc.devRef .tc main_arg6) = (V (Proc.devRef .tc main_arg6)) := (ck36_pass_main_arg6 W35).trans f35_main_arg6
  have f36_main_arg7 : after ck36 W35 (Proc.devRef .tc main_arg7) = (V (Proc.devRef .tc main_arg7)) := (ck36_pass_main_arg7 W35).trans f35_main_arg7
  have f36_main_arg8 : after ck36 W35 (Proc.devRef .tc main_arg8) = (V (Proc.devRef .tc main_arg8)) := (ck36_pass_main_arg8 W35).trans f35_main_arg8
  have f36_main_v938 : after ck36 W35 (Proc.devRef .tc main_v938) = (val_main_v938 (F := F) (V (Proc.devRef .tc main_arg0))) := (ck36_pass_main_v938 W35).trans f35_main_v938
  have f36_main_arg9 : after ck36 W35 (Proc.devRef .tc main_arg9) = (V (Proc.devRef .tc main_arg9)) := (ck36_pass_main_arg9 W35).trans f35_main_arg9
  have f36_main_v935 : after ck36 W35 (Proc.devRef .tc main_v935) = (val_main_v935 (F := F) (V (Proc.devRef .tc main_arg0))) := (ck36_pass_main_v935 W35).trans f35_main_v935
  have f36_main_v936 : after ck36 W35 (Proc.devRef .tc main_v936) = (val_main_v936 (F := F) (V (Proc.devRef .tc main_arg0))) := (ck36_pass_main_v936 W35).trans f35_main_v936
  have f36_main_v916 : after ck36 W35 (Proc.devRef .tc main_v916) = (val_main_v916 (F := F) (V (Proc.devRef .tc main_arg0)) (V (Proc.devRef .tc main_arg7)) (V (Proc.devRef .tc main_arg8))) := (ck36_pass_main_v916 W35).trans f35_main_v916
  have f36_main_v343 : after ck36 W35 (Proc.devRef .tc main_v343) = (val_main_v343 (F := F) (V (Proc.devRef .tc main_arg0)) (V (Proc.devRef .tc main_arg1)) (V (Proc.devRef .tc main_arg2)) (V (Proc.devRef .tc main_arg3))) := (ck36_pass_main_v343 W35).trans f35_main_v343
  have f36_main_v687 : after ck36 W35 (Proc.devRef .tc main_v687) = (val_main_v687 (F := F) (V (Proc.devRef .tc main_arg0)) (V (Proc.devRef .tc main_arg4)) (V (Proc.devRef .tc main_arg5)) (V (Proc.devRef .tc main_arg6))) := (ck36_pass_main_v687 W35).trans f35_main_v687
  generalize after ck36 W35 = W36 at f36_main_v941 f36_main_v943 f36_main_v946 f36_main_v951 f36_main_v956 f36_main_arg0 f36_main_arg1 f36_main_arg2 f36_main_arg3 f36_main_arg4 f36_main_arg5 f36_main_arg6 f36_main_arg7 f36_main_arg8 f36_main_v938 f36_main_arg9 f36_main_v935 f36_main_v936 f36_main_v916 f36_main_v343 f36_main_v687 ⊢
  clear f35_main_v934 f35_main_v935 f35_main_v936 f35_main_v938 f35_main_v940 f35_main_c_290 f35_main_c_291 f35_main_arg0 f35_main_arg1 f35_main_arg2 f35_main_arg3 f35_main_arg4 f35_main_arg5 f35_main_arg6 f35_main_arg7 f35_main_arg8 f35_main_arg9 f35_main_v916 f35_main_v343 f35_main_v687
  have f37_main_v960 : after ck37 W36 (Proc.devRef .tc main_v960) = (val_main_v960 (F := F) (V (Proc.devRef .tc main_arg0)) (V (Proc.devRef .tc main_arg9))) := ck37_main_v960 W36 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f36_main_arg9 f36_main_v951 f36_main_v956
  have f37_main_v974 : after ck37 W36 (Proc.devRef .tc main_v974) = (val_main_v974 (F := F) (V (Proc.devRef .tc main_arg0)) (V (Proc.devRef .tc main_arg9))) := ck37_main_v974 W36 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f36_main_arg9 f36_main_v943 f36_main_v941
  have f37_main_v988 : after ck37 W36 (Proc.devRef .tc main_v988) = (val_main_v988 (F := F) (V (Proc.devRef .tc main_arg0)) (V (Proc.devRef .tc main_arg9))) := ck37_main_v988 W36 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f36_main_arg9 f36_main_v946 f36_main_v938
  have f37_main_arg0 : after ck37 W36 (Proc.devRef .tc main_arg0) = (V (Proc.devRef .tc main_arg0)) := (ck37_pass_main_arg0 W36).trans f36_main_arg0
  have f37_main_arg1 : after ck37 W36 (Proc.devRef .tc main_arg1) = (V (Proc.devRef .tc main_arg1)) := (ck37_pass_main_arg1 W36).trans f36_main_arg1
  have f37_main_arg2 : after ck37 W36 (Proc.devRef .tc main_arg2) = (V (Proc.devRef .tc main_arg2)) := (ck37_pass_main_arg2 W36).trans f36_main_arg2
  have f37_main_arg3 : after ck37 W36 (Proc.devRef .tc main_arg3) = (V (Proc.devRef .tc main_arg3)) := (ck37_pass_main_arg3 W36).trans f36_main_arg3
  have f37_main_arg4 : after ck37 W36 (Proc.devRef .tc main_arg4) = (V (Proc.devRef .tc main_arg4)) := (ck37_pass_main_arg4 W36).trans f36_main_arg4
  have f37_main_arg5 : after ck37 W36 (Proc.devRef .tc main_arg5) = (V (Proc.devRef .tc main_arg5)) := (ck37_pass_main_arg5 W36).trans f36_main_arg5
  have f37_main_arg6 : after ck37 W36 (Proc.devRef .tc main_arg6) = (V (Proc.devRef .tc main_arg6)) := (ck37_pass_main_arg6 W36).trans f36_main_arg6
  have f37_main_arg7 : after ck37 W36 (Proc.devRef .tc main_arg7) = (V (Proc.devRef .tc main_arg7)) := (ck37_pass_main_arg7 W36).trans f36_main_arg7
  have f37_main_arg8 : after ck37 W36 (Proc.devRef .tc main_arg8) = (V (Proc.devRef .tc main_arg8)) := (ck37_pass_main_arg8 W36).trans f36_main_arg8
  have f37_main_arg9 : after ck37 W36 (Proc.devRef .tc main_arg9) = (V (Proc.devRef .tc main_arg9)) := (ck37_pass_main_arg9 W36).trans f36_main_arg9
  have f37_main_v941 : after ck37 W36 (Proc.devRef .tc main_v941) = (val_main_v941 (F := F) (V (Proc.devRef .tc main_arg0))) := (ck37_pass_main_v941 W36).trans f36_main_v941
  have f37_main_v946 : after ck37 W36 (Proc.devRef .tc main_v946) = (val_main_v946 (F := F) (V (Proc.devRef .tc main_arg0))) := (ck37_pass_main_v946 W36).trans f36_main_v946
  have f37_main_v935 : after ck37 W36 (Proc.devRef .tc main_v935) = (val_main_v935 (F := F) (V (Proc.devRef .tc main_arg0))) := (ck37_pass_main_v935 W36).trans f36_main_v935
  have f37_main_v936 : after ck37 W36 (Proc.devRef .tc main_v936) = (val_main_v936 (F := F) (V (Proc.devRef .tc main_arg0))) := (ck37_pass_main_v936 W36).trans f36_main_v936
  have f37_main_v916 : after ck37 W36 (Proc.devRef .tc main_v916) = (val_main_v916 (F := F) (V (Proc.devRef .tc main_arg0)) (V (Proc.devRef .tc main_arg7)) (V (Proc.devRef .tc main_arg8))) := (ck37_pass_main_v916 W36).trans f36_main_v916
  have f37_main_v343 : after ck37 W36 (Proc.devRef .tc main_v343) = (val_main_v343 (F := F) (V (Proc.devRef .tc main_arg0)) (V (Proc.devRef .tc main_arg1)) (V (Proc.devRef .tc main_arg2)) (V (Proc.devRef .tc main_arg3))) := (ck37_pass_main_v343 W36).trans f36_main_v343
  have f37_main_v687 : after ck37 W36 (Proc.devRef .tc main_v687) = (val_main_v687 (F := F) (V (Proc.devRef .tc main_arg0)) (V (Proc.devRef .tc main_arg4)) (V (Proc.devRef .tc main_arg5)) (V (Proc.devRef .tc main_arg6))) := (ck37_pass_main_v687 W36).trans f36_main_v687
  generalize after ck37 W36 = W37 at f37_main_v960 f37_main_v974 f37_main_v988 f37_main_arg0 f37_main_arg1 f37_main_arg2 f37_main_arg3 f37_main_arg4 f37_main_arg5 f37_main_arg6 f37_main_arg7 f37_main_arg8 f37_main_arg9 f37_main_v941 f37_main_v946 f37_main_v935 f37_main_v936 f37_main_v916 f37_main_v343 f37_main_v687 ⊢
  clear f36_main_v941 f36_main_v943 f36_main_v946 f36_main_v951 f36_main_v956 f36_main_arg0 f36_main_arg1 f36_main_arg2 f36_main_arg3 f36_main_arg4 f36_main_arg5 f36_main_arg6 f36_main_arg7 f36_main_arg8 f36_main_v938 f36_main_arg9 f36_main_v935 f36_main_v936 f36_main_v916 f36_main_v343 f36_main_v687
  have f38_main_v1011 : after ck38 W37 (Proc.devRef .tc main_v1011) = (val_main_v1011 (F := F) (V (Proc.devRef .tc main_arg0)) (V (Proc.devRef .tc main_arg9))) := ck38_main_v1011 W37 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f37_main_v960 f37_main_v935 f37_main_v974
  have f38_main_v1020 : after ck38 W37 (Proc.devRef .tc main_v1020) = (val_main_v1020 (F := F) (V (Proc.devRef .tc main_arg0)) (V (Proc.devRef .tc main_arg9))) := ck38_main_v1020 W37 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f37_main_v988 f37_main_v935 f37_main_arg9 f37_main_v946 f37_main_v941
  have f38_main_v1021 : after ck38 W37 (Proc.devRef .tc main_v1021) = (val_main_v1021 (F := F)) := ck38_main_v1021 W37 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
  have f38_main_arg0 : after ck38 W37 (Proc.devRef .tc main_arg0) = (V (Proc.devRef .tc main_arg0)) := (ck38_pass_main_arg0 W37).trans f37_main_arg0
  have f38_main_arg1 : after ck38 W37 (Proc.devRef .tc main_arg1) = (V (Proc.devRef .tc main_arg1)) := (ck38_pass_main_arg1 W37).trans f37_main_arg1
  have f38_main_arg2 : after ck38 W37 (Proc.devRef .tc main_arg2) = (V (Proc.devRef .tc main_arg2)) := (ck38_pass_main_arg2 W37).trans f37_main_arg2
  have f38_main_arg3 : after ck38 W37 (Proc.devRef .tc main_arg3) = (V (Proc.devRef .tc main_arg3)) := (ck38_pass_main_arg3 W37).trans f37_main_arg3
  have f38_main_arg4 : after ck38 W37 (Proc.devRef .tc main_arg4) = (V (Proc.devRef .tc main_arg4)) := (ck38_pass_main_arg4 W37).trans f37_main_arg4
  have f38_main_arg5 : after ck38 W37 (Proc.devRef .tc main_arg5) = (V (Proc.devRef .tc main_arg5)) := (ck38_pass_main_arg5 W37).trans f37_main_arg5
  have f38_main_arg6 : after ck38 W37 (Proc.devRef .tc main_arg6) = (V (Proc.devRef .tc main_arg6)) := (ck38_pass_main_arg6 W37).trans f37_main_arg6
  have f38_main_arg7 : after ck38 W37 (Proc.devRef .tc main_arg7) = (V (Proc.devRef .tc main_arg7)) := (ck38_pass_main_arg7 W37).trans f37_main_arg7
  have f38_main_arg8 : after ck38 W37 (Proc.devRef .tc main_arg8) = (V (Proc.devRef .tc main_arg8)) := (ck38_pass_main_arg8 W37).trans f37_main_arg8
  have f38_main_arg9 : after ck38 W37 (Proc.devRef .tc main_arg9) = (V (Proc.devRef .tc main_arg9)) := (ck38_pass_main_arg9 W37).trans f37_main_arg9
  have f38_main_v936 : after ck38 W37 (Proc.devRef .tc main_v936) = (val_main_v936 (F := F) (V (Proc.devRef .tc main_arg0))) := (ck38_pass_main_v936 W37).trans f37_main_v936
  have f38_main_v916 : after ck38 W37 (Proc.devRef .tc main_v916) = (val_main_v916 (F := F) (V (Proc.devRef .tc main_arg0)) (V (Proc.devRef .tc main_arg7)) (V (Proc.devRef .tc main_arg8))) := (ck38_pass_main_v916 W37).trans f37_main_v916
  have f38_main_v343 : after ck38 W37 (Proc.devRef .tc main_v343) = (val_main_v343 (F := F) (V (Proc.devRef .tc main_arg0)) (V (Proc.devRef .tc main_arg1)) (V (Proc.devRef .tc main_arg2)) (V (Proc.devRef .tc main_arg3))) := (ck38_pass_main_v343 W37).trans f37_main_v343
  have f38_main_v687 : after ck38 W37 (Proc.devRef .tc main_v687) = (val_main_v687 (F := F) (V (Proc.devRef .tc main_arg0)) (V (Proc.devRef .tc main_arg4)) (V (Proc.devRef .tc main_arg5)) (V (Proc.devRef .tc main_arg6))) := (ck38_pass_main_v687 W37).trans f37_main_v687
  generalize after ck38 W37 = W38 at f38_main_v1011 f38_main_v1020 f38_main_v1021 f38_main_arg0 f38_main_arg1 f38_main_arg2 f38_main_arg3 f38_main_arg4 f38_main_arg5 f38_main_arg6 f38_main_arg7 f38_main_arg8 f38_main_arg9 f38_main_v936 f38_main_v916 f38_main_v343 f38_main_v687 ⊢
  clear f37_main_v960 f37_main_v974 f37_main_v988 f37_main_arg0 f37_main_arg1 f37_main_arg2 f37_main_arg3 f37_main_arg4 f37_main_arg5 f37_main_arg6 f37_main_arg7 f37_main_arg8 f37_main_arg9 f37_main_v941 f37_main_v946 f37_main_v935 f37_main_v936 f37_main_v916 f37_main_v343 f37_main_v687
  have f39_main_v1032 : after ck39 W38 (Proc.devRef .tc main_v1032) = (val_main_v1032 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))) := ck39_main_v1032 W38 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) f38_main_v343 f38_main_v687 f38_main_v916 f38_main_v1011 f38_main_v1021 f38_main_v936 f38_main_v1020
  have f39_main_arg0 : after ck39 W38 (Proc.devRef .tc main_arg0) = (V (Proc.devRef .tc main_arg0)) := (ck39_pass_main_arg0 W38).trans f38_main_arg0
  have f39_main_arg1 : after ck39 W38 (Proc.devRef .tc main_arg1) = (V (Proc.devRef .tc main_arg1)) := (ck39_pass_main_arg1 W38).trans f38_main_arg1
  have f39_main_arg2 : after ck39 W38 (Proc.devRef .tc main_arg2) = (V (Proc.devRef .tc main_arg2)) := (ck39_pass_main_arg2 W38).trans f38_main_arg2
  have f39_main_arg3 : after ck39 W38 (Proc.devRef .tc main_arg3) = (V (Proc.devRef .tc main_arg3)) := (ck39_pass_main_arg3 W38).trans f38_main_arg3
  have f39_main_arg4 : after ck39 W38 (Proc.devRef .tc main_arg4) = (V (Proc.devRef .tc main_arg4)) := (ck39_pass_main_arg4 W38).trans f38_main_arg4
  have f39_main_arg5 : after ck39 W38 (Proc.devRef .tc main_arg5) = (V (Proc.devRef .tc main_arg5)) := (ck39_pass_main_arg5 W38).trans f38_main_arg5
  have f39_main_arg6 : after ck39 W38 (Proc.devRef .tc main_arg6) = (V (Proc.devRef .tc main_arg6)) := (ck39_pass_main_arg6 W38).trans f38_main_arg6
  have f39_main_arg7 : after ck39 W38 (Proc.devRef .tc main_arg7) = (V (Proc.devRef .tc main_arg7)) := (ck39_pass_main_arg7 W38).trans f38_main_arg7
  have f39_main_arg8 : after ck39 W38 (Proc.devRef .tc main_arg8) = (V (Proc.devRef .tc main_arg8)) := (ck39_pass_main_arg8 W38).trans f38_main_arg8
  have f39_main_arg9 : after ck39 W38 (Proc.devRef .tc main_arg9) = (V (Proc.devRef .tc main_arg9)) := (ck39_pass_main_arg9 W38).trans f38_main_arg9
  exact ⟨f39_main_v1032, f39_main_arg0, f39_main_arg1, f39_main_arg2, f39_main_arg3, f39_main_arg4, f39_main_arg5, f39_main_arg6, f39_main_arg7, f39_main_arg8, f39_main_arg9⟩

theorem fresh_1 : (ck1 : List (HloOp τ sig (Elt F))).Forall fun op => op.fresh = ∅ := by
  simp only [List.Forall]; repeat' constructor
theorem fresh_2 : (ck2 : List (HloOp τ sig (Elt F))).Forall fun op => op.fresh = ∅ := by
  simp only [List.Forall]; repeat' constructor
theorem fresh_3 : (ck3 : List (HloOp τ sig (Elt F))).Forall fun op => op.fresh = ∅ := by
  simp only [List.Forall]; repeat' constructor
theorem fresh_4 : (ck4 : List (HloOp τ sig (Elt F))).Forall fun op => op.fresh = ∅ := by
  simp only [List.Forall]; repeat' constructor
theorem fresh_5 : (ck5 : List (HloOp τ sig (Elt F))).Forall fun op => op.fresh = ∅ := by
  simp only [List.Forall]; repeat' constructor
theorem fresh_6 : (ck6 : List (HloOp τ sig (Elt F))).Forall fun op => op.fresh = ∅ := by
  simp only [List.Forall]; repeat' constructor
theorem fresh_7 : (ck7 : List (HloOp τ sig (Elt F))).Forall fun op => op.fresh = ∅ := by
  simp only [List.Forall]; repeat' constructor
theorem fresh_8 : (ck8 : List (HloOp τ sig (Elt F))).Forall fun op => op.fresh = ∅ := by
  simp only [List.Forall]; repeat' constructor
theorem fresh_9 : (ck9 : List (HloOp τ sig (Elt F))).Forall fun op => op.fresh = ∅ := by
  simp only [List.Forall]; repeat' constructor
theorem fresh_10 : (ck10 : List (HloOp τ sig (Elt F))).Forall fun op => op.fresh = ∅ := by
  simp only [List.Forall]; repeat' constructor
theorem fresh_11 : (ck11 : List (HloOp τ sig (Elt F))).Forall fun op => op.fresh = ∅ := by
  simp only [List.Forall]; repeat' constructor
theorem fresh_12 : (ck12 : List (HloOp τ sig (Elt F))).Forall fun op => op.fresh = ∅ := by
  simp only [List.Forall]; repeat' constructor
theorem fresh_13 : (ck13 : List (HloOp τ sig (Elt F))).Forall fun op => op.fresh = ∅ := by
  simp only [List.Forall]; repeat' constructor
theorem fresh_14 : (ck14 : List (HloOp τ sig (Elt F))).Forall fun op => op.fresh = ∅ := by
  simp only [List.Forall]; repeat' constructor
theorem fresh_15 : (ck15 : List (HloOp τ sig (Elt F))).Forall fun op => op.fresh = ∅ := by
  simp only [List.Forall]; repeat' constructor
theorem fresh_16 : (ck16 : List (HloOp τ sig (Elt F))).Forall fun op => op.fresh = ∅ := by
  simp only [List.Forall]; repeat' constructor
theorem fresh_17 : (ck17 : List (HloOp τ sig (Elt F))).Forall fun op => op.fresh = ∅ := by
  simp only [List.Forall]; repeat' constructor
theorem fresh_18 : (ck18 : List (HloOp τ sig (Elt F))).Forall fun op => op.fresh = ∅ := by
  simp only [List.Forall]; repeat' constructor
theorem fresh_19 : (ck19 : List (HloOp τ sig (Elt F))).Forall fun op => op.fresh = ∅ := by
  simp only [List.Forall]; repeat' constructor
theorem fresh_20 : (ck20 : List (HloOp τ sig (Elt F))).Forall fun op => op.fresh = ∅ := by
  simp only [List.Forall]; repeat' constructor
theorem fresh_21 : (ck21 : List (HloOp τ sig (Elt F))).Forall fun op => op.fresh = ∅ := by
  simp only [List.Forall]; repeat' constructor
theorem fresh_22 : (ck22 : List (HloOp τ sig (Elt F))).Forall fun op => op.fresh = ∅ := by
  simp only [List.Forall]; repeat' constructor
theorem fresh_23 : (ck23 : List (HloOp τ sig (Elt F))).Forall fun op => op.fresh = ∅ := by
  simp only [List.Forall]; repeat' constructor
theorem fresh_24 : (ck24 : List (HloOp τ sig (Elt F))).Forall fun op => op.fresh = ∅ := by
  simp only [List.Forall]; repeat' constructor
theorem fresh_25 : (ck25 : List (HloOp τ sig (Elt F))).Forall fun op => op.fresh = ∅ := by
  simp only [List.Forall]; repeat' constructor
theorem fresh_26 : (ck26 : List (HloOp τ sig (Elt F))).Forall fun op => op.fresh = ∅ := by
  simp only [List.Forall]; repeat' constructor
theorem fresh_27 : (ck27 : List (HloOp τ sig (Elt F))).Forall fun op => op.fresh = ∅ := by
  simp only [List.Forall]; repeat' constructor
theorem fresh_28 : (ck28 : List (HloOp τ sig (Elt F))).Forall fun op => op.fresh = ∅ := by
  simp only [List.Forall]; repeat' constructor
theorem fresh_29 : (ck29 : List (HloOp τ sig (Elt F))).Forall fun op => op.fresh = ∅ := by
  simp only [List.Forall]; repeat' constructor
theorem fresh_30 : (ck30 : List (HloOp τ sig (Elt F))).Forall fun op => op.fresh = ∅ := by
  simp only [List.Forall]; repeat' constructor
theorem fresh_31 : (ck31 : List (HloOp τ sig (Elt F))).Forall fun op => op.fresh = ∅ := by
  simp only [List.Forall]; repeat' constructor
theorem fresh_32 : (ck32 : List (HloOp τ sig (Elt F))).Forall fun op => op.fresh = ∅ := by
  simp only [List.Forall]; repeat' constructor
theorem fresh_33 : (ck33 : List (HloOp τ sig (Elt F))).Forall fun op => op.fresh = ∅ := by
  simp only [List.Forall]; repeat' constructor
theorem fresh_34 : (ck34 : List (HloOp τ sig (Elt F))).Forall fun op => op.fresh = ∅ := by
  simp only [List.Forall]; repeat' constructor
theorem fresh_35 : (ck35 : List (HloOp τ sig (Elt F))).Forall fun op => op.fresh = ∅ := by
  simp only [List.Forall]; repeat' constructor
theorem fresh_36 : (ck36 : List (HloOp τ sig (Elt F))).Forall fun op => op.fresh = ∅ := by
  simp only [List.Forall]; repeat' constructor
theorem fresh_37 : (ck37 : List (HloOp τ sig (Elt F))).Forall fun op => op.fresh = ∅ := by
  simp only [List.Forall]; repeat' constructor
theorem fresh_38 : (ck38 : List (HloOp τ sig (Elt F))).Forall fun op => op.fresh = ∅ := by
  simp only [List.Forall]; repeat' constructor
theorem fresh_39 : (ck39 : List (HloOp τ sig (Elt F))).Forall fun op => op.fresh = ∅ := by
  simp only [List.Forall]; repeat' constructor

set_option maxRecDepth 100000 in
set_option maxHeartbeats 400000000 in
/-- No operation of the reference allocates a buffer: each determines its results. -/
theorem ops_fresh : ∀ op ∈ (ops : List (HloOp τ sig (Elt F))), op.fresh = ∅ := by
  intro op h
  rw [ops_split] at h
  simp only [List.mem_append] at h
  rcases h with h | h | h | h | h | h | h | h | h | h | h | h | h | h | h | h | h | h | h | h | h | h | h | h | h | h | h | h | h | h | h | h | h | h | h | h | h | h | h
  · exact List.forall_iff_forall_mem.mp fresh_1 op h
  · exact List.forall_iff_forall_mem.mp fresh_2 op h
  · exact List.forall_iff_forall_mem.mp fresh_3 op h
  · exact List.forall_iff_forall_mem.mp fresh_4 op h
  · exact List.forall_iff_forall_mem.mp fresh_5 op h
  · exact List.forall_iff_forall_mem.mp fresh_6 op h
  · exact List.forall_iff_forall_mem.mp fresh_7 op h
  · exact List.forall_iff_forall_mem.mp fresh_8 op h
  · exact List.forall_iff_forall_mem.mp fresh_9 op h
  · exact List.forall_iff_forall_mem.mp fresh_10 op h
  · exact List.forall_iff_forall_mem.mp fresh_11 op h
  · exact List.forall_iff_forall_mem.mp fresh_12 op h
  · exact List.forall_iff_forall_mem.mp fresh_13 op h
  · exact List.forall_iff_forall_mem.mp fresh_14 op h
  · exact List.forall_iff_forall_mem.mp fresh_15 op h
  · exact List.forall_iff_forall_mem.mp fresh_16 op h
  · exact List.forall_iff_forall_mem.mp fresh_17 op h
  · exact List.forall_iff_forall_mem.mp fresh_18 op h
  · exact List.forall_iff_forall_mem.mp fresh_19 op h
  · exact List.forall_iff_forall_mem.mp fresh_20 op h
  · exact List.forall_iff_forall_mem.mp fresh_21 op h
  · exact List.forall_iff_forall_mem.mp fresh_22 op h
  · exact List.forall_iff_forall_mem.mp fresh_23 op h
  · exact List.forall_iff_forall_mem.mp fresh_24 op h
  · exact List.forall_iff_forall_mem.mp fresh_25 op h
  · exact List.forall_iff_forall_mem.mp fresh_26 op h
  · exact List.forall_iff_forall_mem.mp fresh_27 op h
  · exact List.forall_iff_forall_mem.mp fresh_28 op h
  · exact List.forall_iff_forall_mem.mp fresh_29 op h
  · exact List.forall_iff_forall_mem.mp fresh_30 op h
  · exact List.forall_iff_forall_mem.mp fresh_31 op h
  · exact List.forall_iff_forall_mem.mp fresh_32 op h
  · exact List.forall_iff_forall_mem.mp fresh_33 op h
  · exact List.forall_iff_forall_mem.mp fresh_34 op h
  · exact List.forall_iff_forall_mem.mp fresh_35 op h
  · exact List.forall_iff_forall_mem.mp fresh_36 op h
  · exact List.forall_iff_forall_mem.mp fresh_37 op h
  · exact List.forall_iff_forall_mem.mp fresh_38 op h
  · exact List.forall_iff_forall_mem.mp fresh_39 op h

set_option maxRecDepth 100000 in
set_option maxHeartbeats 612400000 in
/-- THE REFERENCE'S RUN: every weakly fair execution terminates with the result buffer at the reference's value of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1032) = val_main_v1032 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v1032).trans (after_ops _).1,
      (h c main_arg0).trans (after_ops _).2.1,
      (h c main_arg1).trans (after_ops _).2.2.1,
      (h c main_arg2).trans (after_ops _).2.2.2.1,
      (h c main_arg3).trans (after_ops _).2.2.2.2.1,
      (h c main_arg4).trans (after_ops _).2.2.2.2.2.1,
      (h c main_arg5).trans (after_ops _).2.2.2.2.2.2.1,
      (h c main_arg6).trans (after_ops _).2.2.2.2.2.2.2.1,
      (h c main_arg7).trans (after_ops _).2.2.2.2.2.2.2.2.1,
      (h c main_arg8).trans (after_ops _).2.2.2.2.2.2.2.2.2.1,
      (h c main_arg9).trans (after_ops _).2.2.2.2.2.2.2.2.2.2⟩)
    (run_seq scopedRefs_eq scopedSems_eq defs main (fun _ => ops) main_eq (fun _ => ops_sub) m ρ (fun _ => ops_fresh))

end Cert.ReferenceIdeal.Seg

end
-- ==== Proof.lean ====
/-
  The kernel samples three resolutions of three feature planes bilinearly at each point and multiplies the three samples
  of a resolution; the reference does the same with gathers of the four corner values. Both compute, for finite inputs,
  the specification of Proof/Spec.lean (Proof/ClaimOfRun.lean has the argument and the map of the modules), and the whole
  claim follows from one statement about the reference alone: that every weakly fair execution of its 1531 host
  operations terminates with the result buffer at the operations' composed function of the arguments and the arguments
  unchanged (`Cert.Proof.ReferenceRuns`). That run is proved stretch by stretch in Proof/RefCk1.lean … RefCk39.lean and
  put together in Proof/RefCkRun.lean.
-/
import proofs.«123486_j78099685310709_1_alg».proof.Defs
import proofs.«123486_j78099685310709_1_alg».proof.Proof.ClaimOfRun
import proofs.«123486_j78099685310709_1_alg».proof.Proof.RefCkRun

noncomputable section

namespace Cert.Proof

open Idealize.ShloMosaic Idealize.SL.Sem

/-- The reference's run. -/
theorem reference_runs : ReferenceRuns :=
  fun m ρ => Cert.ReferenceIdeal.Seg.run (F := Ideal) m ρ

theorem claim : Cert.Claim := claim_of_run reference_runs

end Cert.Proof

end
